-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v410)) (v1 : (c : Dev Cert.KernelIdeal.nD) → Buf (Elt Ideal) ((c.tc : Thread Cert.KernelIdeal.nD Cert.KernelIdeal.τ).loc Cert.KernelIdeal.main_v412)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v410) = v0 c
          ∧ r.2.mem ((c.tc : Thread Cert.KernelIdeal.nD Cert.KernelIdeal.τ).loc Cert.KernelIdeal.main_v412) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v421) = v0 c
          ∧ r.2.mem ((c.tc : Thread Cert.ReferenceIdeal.nD Cert.ReferenceIdeal.τ).loc Cert.ReferenceIdeal.main_v423) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x160000 : Shape := ⟨2, ![64, 160000]⟩
abbrev S64x1000 : Shape := ⟨2, ![64, 1000]⟩
abbrev S64 : Shape := ⟨1, ![64]⟩
abbrev S_ : Shape := ⟨0, ![]⟩

class Facts : Prop where
  bcast_S_S64x160000 : S_.BroadcastsInDim S64x160000 (![] : Fin 0 → Fin S64x160000.rank)
  reducesTo_S64x160000_S_d0_1 : S64x160000.ReducesTo [0, 1] S_
  h_S_ : 0 < S_.numel

variable [Facts]

def fn {F : FTy → Type} [FloatOps F] (main_arg0 : FVec F S64x160000 .f32) (main_arg1 : FVec F S64x160000 .f32) (main_arg2 : FVec F S64x160000 .f32) (main_arg3 : IVec S64x1000 1) (main_arg4 : IVec S64x1000 1) (main_arg5 : IVec S64x1000 1) (main_arg6 : IVec S64x1000 1) (main_arg7 : IVec S64 32) (main_arg8 : IVec S64 32) : IVec S_ 1 :=
  let main_v0 : FVec F S64x160000 .f32 := Host.absf main_arg0
  let main_cst : FVec F S_ .f32 := constant S_ .f32 0x7F800000#32
  let main_v1 : FVec F S64x160000 .f32 := broadcastInDim S64x160000 ![] bcast_S_S64x160000 main_cst
  let main_v2 : IVec S64x160000 1 := cmpf .olt main_v0 main_v1
  let main_c : IVec S_ 1 := constantI S_ 1 1#1
  let main_v3 : IVec S_ 1 := (fun x v => Host.reduce IntOp.andi x v reducesTo_S64x160000_S_d0_1 h_S_) main_v2 main_c
  let main_v4 : FVec F S64x160000 .f32 := Host.absf main_arg1
  let main_cst_0 : FVec F S_ .f32 := constant S_ .f32 0x7F800000#32
  let main_v5 : FVec F S64x160000 .f32 := broadcastInDim S64x160000 ![] bcast_S_S64x160000 main_cst_0
  let main_v6 : IVec S64x160000 1 := cmpf .olt main_v4 main_v5
  let main_c_1 : IVec S_ 1 := constantI S_ 1 1#1
  let main_v7 : IVec S_ 1 := (fun x v => Host.reduce IntOp.andi x v reducesTo_S64x160000_S_d0_1 h_S_) main_v6 main_c_1
  let main_v8 : IVec S_ 1 := andi main_v3 main_v7
  let main_v9 : FVec F S64x160000 .f32 := Host.absf main_arg2
  let main_cst_2 : FVec F S_ .f32 := constant S_ .f32 0x7F800000#32
  let main_v10 : FVec F S64x160000 .f32 := broadcastInDim S64x160000 ![] bcast_S_S64x160000 main_cst_2
  let main_v11 : IVec S64x160000 1 := cmpf .olt main_v9 main_v10
  let main_c_3 : IVec S_ 1 := constantI S_ 1 1#1
  let main_v12 : IVec S_ 1 := (fun x v => Host.reduce IntOp.andi x v reducesTo_S64x160000_S_d0_1 h_S_) main_v11 main_c_3
  let main_v13 : IVec S_ 1 := andi main_v8 main_v12
  main_v13
-- ==== Kernel.lean ====
abbrev S64x160000 : Shape := ⟨2, ![64, 160000]⟩
abbrev S64x1000 : Shape := ⟨2, ![64, 1000]⟩
abbrev S64 : Shape := ⟨1, ![64]⟩
abbrev S64x1000x160 : Shape := ⟨3, ![64, 1000, 160]⟩
abbrev S8x1000x160 : Shape := ⟨3, ![8, 1000, 160]⟩
abbrev S8x1000 : Shape := ⟨2, ![8, 1000]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S3x64 : Shape := ⟨2, ![3, 64]⟩
abbrev S2x64 : Shape := ⟨2, ![2, 64]⟩
abbrev S1 : Shape := ⟨1, ![1]⟩
abbrev S10 : Shape := ⟨1, ![10]⟩

abbrev nBuf : Space → Nat
  | .hbm => 651
  | .vmem => 12
  | .smem => 0
  | _ => 0

abbrev hbmTy0_0 (i : Nat) : BufTy := match i % 128 with
  | 0 => ⟨S64x160000, .f32⟩
  | 1 => ⟨S64x160000, .f32⟩
  | 2 => ⟨S64x160000, .f32⟩
  | 3 => ⟨S64x1000, .i1⟩
  | 4 => ⟨S64x1000, .i1⟩
  | 5 => ⟨S64x1000, .i1⟩
  | 6 => ⟨S64x1000, .i1⟩
  | 7 => ⟨S64, .i32⟩
  | 8 => ⟨S64, .i32⟩
  | 9 => ⟨S64x1000x160, .f32⟩
  | 10 => ⟨S64x1000x160, .f32⟩
  | 11 => ⟨S64x1000x160, .f32⟩
  | 12 => ⟨S64x1000, .f32⟩
  | 13 => ⟨S64x1000, .f32⟩
  | 14 => ⟨S64x1000, .f32⟩
  | 15 => ⟨S64, .i32⟩
  | 16 => ⟨S64x1, .i32⟩
  | 17 => ⟨S1x64, .i32⟩
  | 18 => ⟨S64x64, .i32⟩
  | 19 => ⟨S64x64, .i32⟩
  | 20 => ⟨S64x64, .i1⟩
  | 21 => ⟨S_, .i32⟩
  | 22 => ⟨S64, .i32⟩
  | 23 => ⟨S64, .i1⟩
  | 24 => ⟨S1x64, .i1⟩
  | 25 => ⟨S64x64, .i1⟩
  | 26 => ⟨S64x64, .i1⟩
  | 27 => ⟨S_, .i32⟩
  | 28 => ⟨S64, .i32⟩
  | 29 => ⟨S64, .i1⟩
  | 30 => ⟨S1x64, .i1⟩
  | 31 => ⟨S64x64, .i1⟩
  | 32 => ⟨S64x64, .i1⟩
  | 33 => ⟨S_, .i1⟩
  | 34 => ⟨S64, .i1⟩
  | 35 => ⟨S_, .i1⟩
  | 36 => ⟨S64, .i1⟩
  | 37 => ⟨S64, .i1⟩
  | 38 => ⟨S64x64, .i32⟩
  | 39 => ⟨S_, .i1⟩
  | 40 => ⟨S_, .i32⟩
  | 41 => ⟨S64, .i1⟩
  | 42 => ⟨S64, .i32⟩
  | 43 => ⟨S64x64, .i32⟩
  | 44 => ⟨S_, .i1⟩
  | 45 => ⟨S_, .i32⟩
  | 46 => ⟨S64, .i1⟩
  | 47 => ⟨S64, .i32⟩
  | 48 => ⟨S_, .i32⟩
  | 49 => ⟨S64, .i32⟩
  | 50 => ⟨S64, .i1⟩
  | 51 => ⟨S_, .i32⟩
  | 52 => ⟨S64, .i32⟩
  | 53 => ⟨S64, .i32⟩
  | 54 => ⟨S64, .i32⟩
  | 55 => ⟨S64x1, .i32⟩
  | 56 => ⟨S64x1000, .f32⟩
  | 57 => ⟨S_, .i32⟩
  | 58 => ⟨S64, .i32⟩
  | 59 => ⟨S64, .i1⟩
  | 60 => ⟨S_, .i32⟩
  | 61 => ⟨S64, .i32⟩
  | 62 => ⟨S64, .i32⟩
  | 63 => ⟨S64, .i32⟩
  | 64 => ⟨S64x1, .i32⟩
  | 65 => ⟨S64x1000, .f32⟩
  | 66 => ⟨S_, .f32⟩
  | 67 => ⟨S64x1000, .f32⟩
  | 68 => ⟨S64x1000, .f32⟩
  | 69 => ⟨S64x1000, .f32⟩
  | 70 => ⟨S_, .i32⟩
  | 71 => ⟨S64, .i32⟩
  | 72 => ⟨S64, .i1⟩
  | 73 => ⟨S_, .i32⟩
  | 74 => ⟨S64, .i32⟩
  | 75 => ⟨S64, .i32⟩
  | 76 => ⟨S64, .i32⟩
  | 77 => ⟨S64x1, .i32⟩
  | 78 => ⟨S64x1000, .f32⟩
  | 79 => ⟨S_, .f32⟩
  | 80 => ⟨S64x1000, .f32⟩
  | 81 => ⟨S64x1000, .f32⟩
  | 82 => ⟨S64x1000, .f32⟩
  | 83 => ⟨S_, .i32⟩
  | 84 => ⟨S64, .i32⟩
  | 85 => ⟨S64, .i1⟩
  | 86 => ⟨S_, .i32⟩
  | 87 => ⟨S64, .i32⟩
  | 88 => ⟨S64, .i32⟩
  | 89 => ⟨S64, .i32⟩
  | 90 => ⟨S64x1, .i32⟩
  | 91 => ⟨S64x1000, .i1⟩
  | 92 => ⟨S_, .i32⟩
  | 93 => ⟨S64, .i32⟩
  | 94 => ⟨S64, .i1⟩
  | 95 => ⟨S_, .i32⟩
  | 96 => ⟨S64, .i32⟩
  | 97 => ⟨S64, .i32⟩
  | 98 => ⟨S64, .i32⟩
  | 99 => ⟨S64x1, .i32⟩
  | 100 => ⟨S64x1000, .i1⟩
  | 101 => ⟨S64x1000, .i1⟩
  | 102 => ⟨S64x1000, .i1⟩
  | 103 => ⟨S_, .i32⟩
  | 104 => ⟨S64, .i32⟩
  | 105 => ⟨S64, .i1⟩
  | 106 => ⟨S_, .i32⟩
  | 107 => ⟨S64, .i32⟩
  | 108 => ⟨S64, .i32⟩
  | 109 => ⟨S64, .i32⟩
  | 110 => ⟨S64x1, .i32⟩
  | 111 => ⟨S64x1000, .i1⟩
  | 112 => ⟨S_, .i32⟩
  | 113 => ⟨S64, .i32⟩
  | 114 => ⟨S64, .i1⟩
  | 115 => ⟨S_, .i32⟩
  | 116 => ⟨S64, .i32⟩
  | 117 => ⟨S64, .i32⟩
  | 118 => ⟨S64, .i32⟩
  | 119 => ⟨S64x1, .i32⟩
  | 120 => ⟨S64x1000, .i1⟩
  | 121 => ⟨S64x1000, .i1⟩
  | 122 => ⟨S64x1000, .i1⟩
  | 123 => ⟨S_, .i32⟩
  | 124 => ⟨S64, .i32⟩
  | 125 => ⟨S64, .i1⟩
  | 126 => ⟨S_, .i32⟩
  | 127 => ⟨S64, .i32⟩
  | _ => ⟨S64x160000, .f32⟩

abbrev hbmTy0_1 (i : Nat) : BufTy := match i % 128 with
  | 0 => ⟨S64, .i32⟩
  | 1 => ⟨S64, .i32⟩
  | 2 => ⟨S64x1, .i32⟩
  | 3 => ⟨S64x1000, .i1⟩
  | 4 => ⟨S_, .i32⟩
  | 5 => ⟨S64, .i32⟩
  | 6 => ⟨S64, .i1⟩
  | 7 => ⟨S_, .i32⟩
  | 8 => ⟨S64, .i32⟩
  | 9 => ⟨S64, .i32⟩
  | 10 => ⟨S64, .i32⟩
  | 11 => ⟨S64x1, .i32⟩
  | 12 => ⟨S64x1000, .i1⟩
  | 13 => ⟨S64x1000, .i1⟩
  | 14 => ⟨S_, .i32⟩
  | 15 => ⟨S64, .i32⟩
  | 16 => ⟨S64, .i1⟩
  | 17 => ⟨S_, .i32⟩
  | 18 => ⟨S64, .i32⟩
  | 19 => ⟨S64, .i32⟩
  | 20 => ⟨S64, .i32⟩
  | 21 => ⟨S64x1, .i32⟩
  | 22 => ⟨S64x1000, .i1⟩
  | 23 => ⟨S_, .i32⟩
  | 24 => ⟨S64, .i32⟩
  | 25 => ⟨S64, .i1⟩
  | 26 => ⟨S_, .i32⟩
  | 27 => ⟨S64, .i32⟩
  | 28 => ⟨S64, .i32⟩
  | 29 => ⟨S64, .i32⟩
  | 30 => ⟨S64x1, .i32⟩
  | 31 => ⟨S64x1000, .i1⟩
  | 32 => ⟨S64x1000, .i1⟩
  | 33 => ⟨S_, .i1⟩
  | 34 => ⟨S64, .i1⟩
  | 35 => ⟨S64, .i1⟩
  | 36 => ⟨S_, .i1⟩
  | 37 => ⟨S64, .i1⟩
  | 38 => ⟨S64, .i1⟩
  | 39 => ⟨S_, .i1⟩
  | 40 => ⟨S64, .i1⟩
  | 41 => ⟨S64, .i1⟩
  | 42 => ⟨S64x1000, .f32⟩
  | 43 => ⟨S_, .f32⟩
  | 44 => ⟨S64x1000, .f32⟩
  | 45 => ⟨S64x1000, .f32⟩
  | 46 => ⟨S_, .f32⟩
  | 47 => ⟨S64x1000, .f32⟩
  | 48 => ⟨S64x1000, .f32⟩
  | 49 => ⟨S64x1000, .f32⟩
  | 50 => ⟨S64x1000, .i32⟩
  | 51 => ⟨S_, .i32⟩
  | 52 => ⟨S64, .i32⟩
  | 53 => ⟨S_, .i32⟩
  | 54 => ⟨S64, .i32⟩
  | 55 => ⟨S64, .i1⟩
  | 56 => ⟨S_, .f32⟩
  | 57 => ⟨S_, .f32⟩
  | 58 => ⟨S64x1000, .f32⟩
  | 59 => ⟨S64x1000, .f32⟩
  | 60 => ⟨S_, .f32⟩
  | 61 => ⟨S64, .f32⟩
  | 62 => ⟨S_, .i32⟩
  | 63 => ⟨S64, .i32⟩
  | 64 => ⟨S64, .i32⟩
  | 65 => ⟨S64, .f32⟩
  | 66 => ⟨S64, .f32⟩
  | 67 => ⟨S_, .f32⟩
  | 68 => ⟨S_, .f32⟩
  | 69 => ⟨S64, .f32⟩
  | 70 => ⟨S64, .f32⟩
  | 71 => ⟨S64x1000, .f32⟩
  | 72 => ⟨S_, .f32⟩
  | 73 => ⟨S64x1000, .f32⟩
  | 74 => ⟨S64x1000, .f32⟩
  | 75 => ⟨S_, .f32⟩
  | 76 => ⟨S64x1000, .f32⟩
  | 77 => ⟨S64x1000, .f32⟩
  | 78 => ⟨S64x1000, .f32⟩
  | 79 => ⟨S64x1000, .i32⟩
  | 80 => ⟨S_, .i32⟩
  | 81 => ⟨S64, .i32⟩
  | 82 => ⟨S_, .i32⟩
  | 83 => ⟨S64, .i32⟩
  | 84 => ⟨S64, .i1⟩
  | 85 => ⟨S_, .f32⟩
  | 86 => ⟨S_, .f32⟩
  | 87 => ⟨S64x1000, .f32⟩
  | 88 => ⟨S64x1000, .f32⟩
  | 89 => ⟨S_, .f32⟩
  | 90 => ⟨S64, .f32⟩
  | 91 => ⟨S_, .i32⟩
  | 92 => ⟨S64, .i32⟩
  | 93 => ⟨S64, .i32⟩
  | 94 => ⟨S64, .f32⟩
  | 95 => ⟨S64, .f32⟩
  | 96 => ⟨S_, .f32⟩
  | 97 => ⟨S_, .f32⟩
  | 98 => ⟨S64, .f32⟩
  | 99 => ⟨S64, .f32⟩
  | 100 => ⟨S64x1000, .f32⟩
  | 101 => ⟨S64x1000, .i32⟩
  | 102 => ⟨S_, .i32⟩
  | 103 => ⟨S64, .i32⟩
  | 104 => ⟨S_, .i32⟩
  | 105 => ⟨S64, .i32⟩
  | 106 => ⟨S64, .i1⟩
  | 107 => ⟨S_, .f32⟩
  | 108 => ⟨S_, .f32⟩
  | 109 => ⟨S64x1000, .f32⟩
  | 110 => ⟨S64x1000, .f32⟩
  | 111 => ⟨S_, .f32⟩
  | 112 => ⟨S64, .f32⟩
  | 113 => ⟨S_, .i32⟩
  | 114 => ⟨S64, .i32⟩
  | 115 => ⟨S64, .i32⟩
  | 116 => ⟨S64, .f32⟩
  | 117 => ⟨S64, .f32⟩
  | 118 => ⟨S_, .f32⟩
  | 119 => ⟨S_, .f32⟩
  | 120 => ⟨S64, .f32⟩
  | 121 => ⟨S64, .f32⟩
  | 122 => ⟨S1x64, .f32⟩
  | 123 => ⟨S1x64, .f32⟩
  | 124 => ⟨S1x64, .f32⟩
  | 125 => ⟨S3x64, .f32⟩
  | 126 => ⟨S1x64, .i1⟩
  | 127 => ⟨S1x64, .i1⟩
  | _ => ⟨S64x160000, .f32⟩

abbrev hbmTy0_2 (i : Nat) : BufTy := match i % 128 with
  | 0 => ⟨S1x64, .i1⟩
  | 1 => ⟨S3x64, .i1⟩
  | 2 => ⟨S3x64, .f32⟩
  | 3 => ⟨S_, .f32⟩
  | 4 => ⟨S_, .f32⟩
  | 5 => ⟨S_, .f32⟩
  | 6 => ⟨S_, .i1⟩
  | 7 => ⟨S3x64, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .i32⟩
  | 17 => ⟨S64, .i32⟩
  | 18 => ⟨S64, .i1⟩
  | 19 => ⟨S_, .i32⟩
  | 20 => ⟨S64, .i32⟩
  | 21 => ⟨S64, .i32⟩
  | 22 => ⟨S64, .i32⟩
  | 23 => ⟨S64x1, .i32⟩
  | 24 => ⟨S64x1000, .f32⟩
  | 25 => ⟨S_, .i32⟩
  | 26 => ⟨S64, .i32⟩
  | 27 => ⟨S64, .i1⟩
  | 28 => ⟨S_, .i32⟩
  | 29 => ⟨S64, .i32⟩
  | 30 => ⟨S64, .i32⟩
  | 31 => ⟨S64, .i32⟩
  | 32 => ⟨S64x1, .i32⟩
  | 33 => ⟨S64x1000, .f32⟩
  | 34 => ⟨S64x1000, .f32⟩
  | 35 => ⟨S_, .f32⟩
  | 36 => ⟨S64x1000, .f32⟩
  | 37 => ⟨S64x1000, .f32⟩
  | 38 => ⟨S64x1000, .f32⟩
  | 39 => ⟨S_, .f32⟩
  | 40 => ⟨S64x1000, .f32⟩
  | 41 => ⟨S64x1000, .i1⟩
  | 42 => ⟨S64x1000, .i1⟩
  | 43 => ⟨S_, .f32⟩
  | 44 => ⟨S64x1000, .f32⟩
  | 45 => ⟨S64x1000, .i1⟩
  | 46 => ⟨S64x1000, .i1⟩
  | 47 => ⟨S_, .i1⟩
  | 48 => ⟨S64, .i1⟩
  | 49 => ⟨S64, .i1⟩
  | 50 => ⟨S_, .i1⟩
  | 51 => ⟨S64, .i1⟩
  | 52 => ⟨S64, .i1⟩
  | 53 => ⟨S64x1000, .f32⟩
  | 54 => ⟨S_, .f32⟩
  | 55 => ⟨S64x1000, .f32⟩
  | 56 => ⟨S64x1000, .f32⟩
  | 57 => ⟨S_, .f32⟩
  | 58 => ⟨S64x1000, .f32⟩
  | 59 => ⟨S64x1000, .f32⟩
  | 60 => ⟨S64x1000, .f32⟩
  | 61 => ⟨S64x1000, .i32⟩
  | 62 => ⟨S_, .i32⟩
  | 63 => ⟨S64, .i32⟩
  | 64 => ⟨S_, .i32⟩
  | 65 => ⟨S64, .i32⟩
  | 66 => ⟨S64, .i1⟩
  | 67 => ⟨S_, .f32⟩
  | 68 => ⟨S_, .f32⟩
  | 69 => ⟨S64x1000, .f32⟩
  | 70 => ⟨S64x1000, .f32⟩
  | 71 => ⟨S_, .f32⟩
  | 72 => ⟨S64, .f32⟩
  | 73 => ⟨S_, .i32⟩
  | 74 => ⟨S64, .i32⟩
  | 75 => ⟨S64, .i32⟩
  | 76 => ⟨S64, .f32⟩
  | 77 => ⟨S64, .f32⟩
  | 78 => ⟨S_, .f32⟩
  | 79 => ⟨S_, .f32⟩
  | 80 => ⟨S64, .f32⟩
  | 81 => ⟨S64, .f32⟩
  | 82 => ⟨S64x1000, .f32⟩
  | 83 => ⟨S_, .f32⟩
  | 84 => ⟨S64x1000, .f32⟩
  | 85 => ⟨S64x1000, .f32⟩
  | 86 => ⟨S_, .f32⟩
  | 87 => ⟨S64x1000, .f32⟩
  | 88 => ⟨S64x1000, .f32⟩
  | 89 => ⟨S64x1000, .f32⟩
  | 90 => ⟨S64x1000, .i32⟩
  | 91 => ⟨S_, .i32⟩
  | 92 => ⟨S64, .i32⟩
  | 93 => ⟨S_, .i32⟩
  | 94 => ⟨S64, .i32⟩
  | 95 => ⟨S64, .i1⟩
  | 96 => ⟨S_, .f32⟩
  | 97 => ⟨S_, .f32⟩
  | 98 => ⟨S64x1000, .f32⟩
  | 99 => ⟨S64x1000, .f32⟩
  | 100 => ⟨S_, .f32⟩
  | 101 => ⟨S64, .f32⟩
  | 102 => ⟨S_, .i32⟩
  | 103 => ⟨S64, .i32⟩
  | 104 => ⟨S64, .i32⟩
  | 105 => ⟨S64, .f32⟩
  | 106 => ⟨S64, .f32⟩
  | 107 => ⟨S_, .f32⟩
  | 108 => ⟨S_, .f32⟩
  | 109 => ⟨S64, .f32⟩
  | 110 => ⟨S64, .f32⟩
  | 111 => ⟨S1x64, .f32⟩
  | 112 => ⟨S1x64, .f32⟩
  | 113 => ⟨S2x64, .f32⟩
  | 114 => ⟨S1x64, .i1⟩
  | 115 => ⟨S1x64, .i1⟩
  | 116 => ⟨S2x64, .i1⟩
  | 117 => ⟨S2x64, .f32⟩
  | 118 => ⟨S_, .f32⟩
  | 119 => ⟨S_, .f32⟩
  | 120 => ⟨S_, .f32⟩
  | 121 => ⟨S_, .i1⟩
  | 122 => ⟨S2x64, .f32⟩
  | 123 => ⟨S_, .f32⟩
  | 124 => ⟨S_, .f32⟩
  | 125 => ⟨S_, .f32⟩
  | 126 => ⟨S_, .f32⟩
  | 127 => ⟨S_, .f32⟩
  | _ => ⟨S64x160000, .f32⟩

abbrev hbmTy0_3 (i : Nat) : BufTy := match i % 128 with
  | 0 => ⟨S_, .f32⟩
  | 1 => ⟨S_, .f32⟩
  | 2 => ⟨S_, .f32⟩
  | 3 => ⟨S64x1000, .i32⟩
  | 4 => ⟨S_, .i32⟩
  | 5 => ⟨S64, .i32⟩
  | 6 => ⟨S_, .i32⟩
  | 7 => ⟨S64, .i32⟩
  | 8 => ⟨S64, .i1⟩
  | 9 => ⟨S_, .f32⟩
  | 10 => ⟨S_, .f32⟩
  | 11 => ⟨S64x1000, .f32⟩
  | 12 => ⟨S64x1000, .f32⟩
  | 13 => ⟨S_, .f32⟩
  | 14 => ⟨S64, .f32⟩
  | 15 => ⟨S_, .i32⟩
  | 16 => ⟨S64, .i32⟩
  | 17 => ⟨S64, .i32⟩
  | 18 => ⟨S64, .f32⟩
  | 19 => ⟨S64, .f32⟩
  | 20 => ⟨S_, .f32⟩
  | 21 => ⟨S_, .f32⟩
  | 22 => ⟨S64, .f32⟩
  | 23 => ⟨S64, .f32⟩
  | 24 => ⟨S64x1000, .i32⟩
  | 25 => ⟨S_, .i32⟩
  | 26 => ⟨S64, .i32⟩
  | 27 => ⟨S_, .i32⟩
  | 28 => ⟨S64, .i32⟩
  | 29 => ⟨S64, .i1⟩
  | 30 => ⟨S_, .f32⟩
  | 31 => ⟨S_, .f32⟩
  | 32 => ⟨S64x1000, .f32⟩
  | 33 => ⟨S64x1000, .f32⟩
  | 34 => ⟨S_, .f32⟩
  | 35 => ⟨S64, .f32⟩
  | 36 => ⟨S_, .i32⟩
  | 37 => ⟨S64, .i32⟩
  | 38 => ⟨S64, .i32⟩
  | 39 => ⟨S64, .f32⟩
  | 40 => ⟨S64, .f32⟩
  | 41 => ⟨S_, .f32⟩
  | 42 => ⟨S_, .f32⟩
  | 43 => ⟨S64, .f32⟩
  | 44 => ⟨S64, .f32⟩
  | 45 => ⟨S1x64, .f32⟩
  | 46 => ⟨S1x64, .f32⟩
  | 47 => ⟨S2x64, .f32⟩
  | 48 => ⟨S1x64, .i1⟩
  | 49 => ⟨S1x64, .i1⟩
  | 50 => ⟨S2x64, .i1⟩
  | 51 => ⟨S2x64, .f32⟩
  | 52 => ⟨S_, .f32⟩
  | 53 => ⟨S_, .f32⟩
  | 54 => ⟨S_, .f32⟩
  | 55 => ⟨S_, .i1⟩
  | 56 => ⟨S2x64, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S64x1000, .i32⟩
  | 66 => ⟨S_, .i32⟩
  | 67 => ⟨S64, .i32⟩
  | 68 => ⟨S_, .i32⟩
  | 69 => ⟨S64, .i32⟩
  | 70 => ⟨S64, .i1⟩
  | 71 => ⟨S_, .f32⟩
  | 72 => ⟨S_, .f32⟩
  | 73 => ⟨S64x1000, .f32⟩
  | 74 => ⟨S64x1000, .f32⟩
  | 75 => ⟨S_, .f32⟩
  | 76 => ⟨S64, .f32⟩
  | 77 => ⟨S_, .i32⟩
  | 78 => ⟨S64, .i32⟩
  | 79 => ⟨S64, .i32⟩
  | 80 => ⟨S64, .f32⟩
  | 81 => ⟨S64, .f32⟩
  | 82 => ⟨S_, .f32⟩
  | 83 => ⟨S_, .f32⟩
  | 84 => ⟨S64, .f32⟩
  | 85 => ⟨S64, .f32⟩
  | 86 => ⟨S64x1000, .i32⟩
  | 87 => ⟨S_, .i32⟩
  | 88 => ⟨S64, .i32⟩
  | 89 => ⟨S_, .i32⟩
  | 90 => ⟨S64, .i32⟩
  | 91 => ⟨S64, .i1⟩
  | 92 => ⟨S_, .f32⟩
  | 93 => ⟨S_, .f32⟩
  | 94 => ⟨S64x1000, .f32⟩
  | 95 => ⟨S64x1000, .f32⟩
  | 96 => ⟨S_, .f32⟩
  | 97 => ⟨S64, .f32⟩
  | 98 => ⟨S_, .i32⟩
  | 99 => ⟨S64, .i32⟩
  | 100 => ⟨S64, .i32⟩
  | 101 => ⟨S64, .f32⟩
  | 102 => ⟨S64, .f32⟩
  | 103 => ⟨S_, .f32⟩
  | 104 => ⟨S_, .f32⟩
  | 105 => ⟨S64, .f32⟩
  | 106 => ⟨S64, .f32⟩
  | 107 => ⟨S1x64, .f32⟩
  | 108 => ⟨S1x64, .f32⟩
  | 109 => ⟨S2x64, .f32⟩
  | 110 => ⟨S1x64, .i1⟩
  | 111 => ⟨S1x64, .i1⟩
  | 112 => ⟨S2x64, .i1⟩
  | 113 => ⟨S2x64, .f32⟩
  | 114 => ⟨S_, .f32⟩
  | 115 => ⟨S_, .f32⟩
  | 116 => ⟨S_, .f32⟩
  | 117 => ⟨S_, .i1⟩
  | 118 => ⟨S2x64, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S64x1000, .i32⟩
  | _ => ⟨S64x160000, .f32⟩

abbrev hbmTy0_4 (i : Nat) : BufTy := match i % 128 with
  | 0 => ⟨S_, .i32⟩
  | 1 => ⟨S64, .i32⟩
  | 2 => ⟨S_, .i32⟩
  | 3 => ⟨S64, .i32⟩
  | 4 => ⟨S64, .i1⟩
  | 5 => ⟨S_, .f32⟩
  | 6 => ⟨S_, .f32⟩
  | 7 => ⟨S64x1000, .f32⟩
  | 8 => ⟨S64x1000, .f32⟩
  | 9 => ⟨S_, .f32⟩
  | 10 => ⟨S64, .f32⟩
  | 11 => ⟨S_, .i32⟩
  | 12 => ⟨S64, .i32⟩
  | 13 => ⟨S64, .i32⟩
  | 14 => ⟨S64, .f32⟩
  | 15 => ⟨S64, .f32⟩
  | 16 => ⟨S_, .f32⟩
  | 17 => ⟨S_, .f32⟩
  | 18 => ⟨S64, .f32⟩
  | 19 => ⟨S64, .f32⟩
  | 20 => ⟨S64x1000, .i32⟩
  | 21 => ⟨S_, .i32⟩
  | 22 => ⟨S64, .i32⟩
  | 23 => ⟨S_, .i32⟩
  | 24 => ⟨S64, .i32⟩
  | 25 => ⟨S64, .i1⟩
  | 26 => ⟨S_, .f32⟩
  | 27 => ⟨S_, .f32⟩
  | 28 => ⟨S64x1000, .f32⟩
  | 29 => ⟨S64x1000, .f32⟩
  | 30 => ⟨S_, .f32⟩
  | 31 => ⟨S64, .f32⟩
  | 32 => ⟨S_, .i32⟩
  | 33 => ⟨S64, .i32⟩
  | 34 => ⟨S64, .i32⟩
  | 35 => ⟨S64, .f32⟩
  | 36 => ⟨S64, .f32⟩
  | 37 => ⟨S_, .f32⟩
  | 38 => ⟨S_, .f32⟩
  | 39 => ⟨S64, .f32⟩
  | 40 => ⟨S64, .f32⟩
  | 41 => ⟨S1x64, .f32⟩
  | 42 => ⟨S1x64, .f32⟩
  | 43 => ⟨S2x64, .f32⟩
  | 44 => ⟨S1x64, .i1⟩
  | 45 => ⟨S1x64, .i1⟩
  | 46 => ⟨S2x64, .i1⟩
  | 47 => ⟨S2x64, .f32⟩
  | 48 => ⟨S_, .f32⟩
  | 49 => ⟨S_, .f32⟩
  | 50 => ⟨S_, .f32⟩
  | 51 => ⟨S_, .i1⟩
  | 52 => ⟨S2x64, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S64x1000, .i32⟩
  | 62 => ⟨S_, .i32⟩
  | 63 => ⟨S64, .i32⟩
  | 64 => ⟨S_, .i32⟩
  | 65 => ⟨S64, .i32⟩
  | 66 => ⟨S64, .i1⟩
  | 67 => ⟨S_, .f32⟩
  | 68 => ⟨S_, .f32⟩
  | 69 => ⟨S64x1000, .f32⟩
  | 70 => ⟨S64x1000, .f32⟩
  | 71 => ⟨S_, .f32⟩
  | 72 => ⟨S64, .f32⟩
  | 73 => ⟨S_, .i32⟩
  | 74 => ⟨S64, .i32⟩
  | 75 => ⟨S64, .i32⟩
  | 76 => ⟨S64, .f32⟩
  | 77 => ⟨S64, .f32⟩
  | 78 => ⟨S_, .f32⟩
  | 79 => ⟨S_, .f32⟩
  | 80 => ⟨S64, .f32⟩
  | 81 => ⟨S64, .f32⟩
  | 82 => ⟨S64x1000, .i32⟩
  | 83 => ⟨S_, .i32⟩
  | 84 => ⟨S64, .i32⟩
  | 85 => ⟨S_, .i32⟩
  | 86 => ⟨S64, .i32⟩
  | 87 => ⟨S64, .i1⟩
  | 88 => ⟨S_, .f32⟩
  | 89 => ⟨S_, .f32⟩
  | 90 => ⟨S64x1000, .f32⟩
  | 91 => ⟨S64x1000, .f32⟩
  | 92 => ⟨S_, .f32⟩
  | 93 => ⟨S64, .f32⟩
  | 94 => ⟨S_, .i32⟩
  | 95 => ⟨S64, .i32⟩
  | 96 => ⟨S64, .i32⟩
  | 97 => ⟨S64, .f32⟩
  | 98 => ⟨S64, .f32⟩
  | 99 => ⟨S_, .f32⟩
  | 100 => ⟨S_, .f32⟩
  | 101 => ⟨S64, .f32⟩
  | 102 => ⟨S64, .f32⟩
  | 103 => ⟨S1x64, .f32⟩
  | 104 => ⟨S1x64, .f32⟩
  | 105 => ⟨S2x64, .f32⟩
  | 106 => ⟨S1x64, .i1⟩
  | 107 => ⟨S1x64, .i1⟩
  | 108 => ⟨S2x64, .i1⟩
  | 109 => ⟨S2x64, .f32⟩
  | 110 => ⟨S_, .f32⟩
  | 111 => ⟨S_, .f32⟩
  | 112 => ⟨S_, .f32⟩
  | 113 => ⟨S_, .i1⟩
  | 114 => ⟨S2x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S1, .f32⟩
  | 126 => ⟨S1, .f32⟩
  | 127 => ⟨S1, .f32⟩
  | _ => ⟨S64x160000, .f32⟩

abbrev hbmTy0_5 (i : Nat) : BufTy := match i % 128 with
  | 0 => ⟨S1, .f32⟩
  | 1 => ⟨S1, .f32⟩
  | 2 => ⟨S1, .f32⟩
  | 3 => ⟨S1, .f32⟩
  | 4 => ⟨S1, .f32⟩
  | 5 => ⟨S1, .f32⟩
  | 6 => ⟨S1, .f32⟩
  | 7 => ⟨S10, .f32⟩
  | 8 => ⟨S64, .i32⟩
  | 9 => ⟨S_, .i32⟩
  | 10 => ⟨S_, .i32⟩
  | _ => ⟨S64x160000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S64x160000, .f32⟩

abbrev bufTy : (tb : Table) → Fin (tcTables nBuf tb) → BufTy
  | .hbm, ⟨i, _⟩ => hbmTy i
  | .local _ .vmem, ⟨0, _⟩ => ⟨S8x1000x160, .f32⟩
  | .local _ .vmem, ⟨1, _⟩ => ⟨S8x1000x160, .f32⟩
  | .local _ .vmem, ⟨2, _⟩ => ⟨S8x1000x160, .f32⟩
  | .local _ .vmem, ⟨3, _⟩ => ⟨S8x1000x160, .f32⟩
  | .local _ .vmem, ⟨4, _⟩ => ⟨S8x1000x160, .f32⟩
  | .local _ .vmem, ⟨5, _⟩ => ⟨S8x1000x160, .f32⟩
  | .local _ .vmem, ⟨6, _⟩ => ⟨S8x1000, .f32⟩
  | .local _ .vmem, ⟨7, _⟩ => ⟨S8x1000, .f32⟩
  | .local _ .vmem, ⟨8, _⟩ => ⟨S8x1000, .f32⟩
  | .local _ .vmem, ⟨9, _⟩ => ⟨S8x1000, .f32⟩
  | .local _ .vmem, ⟨10, _⟩ => ⟨S8x1000, .f32⟩
  | .local _ .vmem, ⟨11, _⟩ => ⟨S8x1000, .f32⟩
  | _, _ => ⟨S64x160000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_call0_v0 : Ref sig .tc := ⟨.hbm, 38, rfl⟩
abbrev main_call0_c : Ref sig .tc := ⟨.hbm, 39, rfl⟩
abbrev main_call0_c_0 : Ref sig .tc := ⟨.hbm, 40, rfl⟩
abbrev main_call0_v1_0 : Ref sig .tc := ⟨.hbm, 41, rfl⟩
abbrev main_v23 : Ref sig .tc := ⟨.hbm, 42, rfl⟩
abbrev main_call1_v0 : Ref sig .tc := ⟨.hbm, 43, rfl⟩
abbrev main_call1_c : Ref sig .tc := ⟨.hbm, 44, rfl⟩
abbrev main_call1_c_0 : Ref sig .tc := ⟨.hbm, 45, rfl⟩
abbrev main_call1_v1_0 : Ref sig .tc := ⟨.hbm, 46, rfl⟩
abbrev main_v24 : Ref sig .tc := ⟨.hbm, 47, rfl⟩
abbrev main_c_3 : Ref sig .tc := ⟨.hbm, 48, rfl⟩
abbrev main_v25 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_7 : Ref sig .tc := ⟨.hbm, 70, rfl⟩
abbrev main_v42 : Ref sig .tc := ⟨.hbm, 71, rfl⟩
abbrev main_v43 : Ref sig .tc := ⟨.hbm, 72, rfl⟩
abbrev main_c_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_10 : Ref sig .tc := ⟨.hbm, 83, rfl⟩
abbrev main_v52 : Ref sig .tc := ⟨.hbm, 84, rfl⟩
abbrev main_v53 : Ref sig .tc := ⟨.hbm, 85, rfl⟩
abbrev main_c_11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_12 : Ref sig .tc := ⟨.hbm, 92, rfl⟩
abbrev main_v59 : Ref sig .tc := ⟨.hbm, 93, rfl⟩
abbrev main_v60 : Ref sig .tc := ⟨.hbm, 94, rfl⟩
abbrev main_c_13 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_14 : Ref sig .tc := ⟨.hbm, 103, rfl⟩
abbrev main_v68 : Ref sig .tc := ⟨.hbm, 104, rfl⟩
abbrev main_v69 : Ref sig .tc := ⟨.hbm, 105, rfl⟩
abbrev main_c_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_16 : Ref sig .tc := ⟨.hbm, 112, rfl⟩
abbrev main_v75 : Ref sig .tc := ⟨.hbm, 113, rfl⟩
abbrev main_v76 : Ref sig .tc := ⟨.hbm, 114, rfl⟩
abbrev main_c_17 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_18 : Ref sig .tc := ⟨.hbm, 123, rfl⟩
abbrev main_v84 : Ref sig .tc := ⟨.hbm, 124, rfl⟩
abbrev main_v85 : Ref sig .tc := ⟨.hbm, 125, rfl⟩
abbrev main_c_19 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_c_20 : Ref sig .tc := ⟨.hbm, 132, rfl⟩
abbrev main_v91 : Ref sig .tc := ⟨.hbm, 133, rfl⟩
abbrev main_v92 : Ref sig .tc := ⟨.hbm, 134, rfl⟩
abbrev main_c_21 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_22 : Ref sig .tc := ⟨.hbm, 142, rfl⟩
abbrev main_v99 : Ref sig .tc := ⟨.hbm, 143, rfl⟩
abbrev main_v100 : Ref sig .tc := ⟨.hbm, 144, rfl⟩
abbrev main_c_23 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_24 : Ref sig .tc := ⟨.hbm, 151, rfl⟩
abbrev main_v106 : Ref sig .tc := ⟨.hbm, 152, rfl⟩
abbrev main_v107 : Ref sig .tc := ⟨.hbm, 153, rfl⟩
abbrev main_c_25 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_c_26 : Ref sig .tc := ⟨.hbm, 161, rfl⟩
abbrev main_v114 : Ref sig .tc := ⟨.hbm, 162, rfl⟩
abbrev main_v115 : Ref sig .tc := ⟨.hbm, 163, rfl⟩
abbrev main_c_27 : Ref sig .tc := ⟨.hbm, 164, rfl⟩
abbrev main_v116 : Ref sig .tc := ⟨.hbm, 165, rfl⟩
abbrev main_v117 : Ref sig .tc := ⟨.hbm, 166, rfl⟩
abbrev main_c_28 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_29 : Ref sig .tc := ⟨.hbm, 171, rfl⟩
abbrev main_v121 : Ref sig .tc := ⟨.hbm, 172, rfl⟩
abbrev main_v122 : Ref sig .tc := ⟨.hbm, 173, rfl⟩
abbrev main_call2_cst : Ref sig .tc := ⟨.hbm, 174, rfl⟩
abbrev main_call2_v0 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_c_30 : Ref sig .tc := ⟨.hbm, 179, rfl⟩
abbrev main_v126 : Ref sig .tc := ⟨.hbm, 180, rfl⟩
abbrev main_c_31 : Ref sig .tc := ⟨.hbm, 181, rfl⟩
abbrev main_v127 : Ref sig .tc := ⟨.hbm, 182, rfl⟩
abbrev main_v128 : Ref sig .tc := ⟨.hbm, 183, rfl⟩
abbrev main_cst_32 : Ref sig .tc := ⟨.hbm, 184, rfl⟩
abbrev main_call3_v0 : Ref sig .tc := ⟨.hbm, 185, rfl⟩
abbrev main_call3_v1 : Ref sig .tc := ⟨.hbm, 186, rfl⟩
abbrev main_v129 : Ref sig .tc := ⟨.hbm, 187, rfl⟩
abbrev main_cst_33 : Ref sig .tc := ⟨.hbm, 188, rfl⟩
abbrev main_v130 : Ref sig .tc := ⟨.hbm, 189, rfl⟩
abbrev main_c_34 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_35 : Ref sig .tc := ⟨.hbm, 195, rfl⟩
abbrev main_call4_v0 : Ref sig .tc := ⟨.hbm, 196, rfl⟩
abbrev main_call4_v1 : Ref sig .tc := ⟨.hbm, 197, rfl⟩
abbrev main_v135 : Ref sig .tc := ⟨.hbm, 198, rfl⟩
abbrev main_v136 : Ref sig .tc := ⟨.hbm, 199, rfl⟩
abbrev main_cst_36 : Ref sig .tc := ⟨.hbm, 200, rfl⟩
abbrev main_v137 : Ref sig .tc := ⟨.hbm, 201, rfl⟩
abbrev main_v138 : Ref sig .tc := ⟨.hbm, 202, rfl⟩
abbrev main_call5_cst : Ref sig .tc := ⟨.hbm, 203, rfl⟩
abbrev main_call5_v0 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_c_37 : Ref sig .tc := ⟨.hbm, 208, rfl⟩
abbrev main_v142 : Ref sig .tc := ⟨.hbm, 209, rfl⟩
abbrev main_c_38 : Ref sig .tc := ⟨.hbm, 210, rfl⟩
abbrev main_v143 : Ref sig .tc := ⟨.hbm, 211, rfl⟩
abbrev main_v144 : Ref sig .tc := ⟨.hbm, 212, rfl⟩
abbrev main_cst_39 : Ref sig .tc := ⟨.hbm, 213, rfl⟩
abbrev main_call6_v0 : Ref sig .tc := ⟨.hbm, 214, rfl⟩
abbrev main_call6_v1 : Ref sig .tc := ⟨.hbm, 215, rfl⟩
abbrev main_v145 : Ref sig .tc := ⟨.hbm, 216, rfl⟩
abbrev main_cst_40 : Ref sig .tc := ⟨.hbm, 217, rfl⟩
abbrev main_v146 : Ref sig .tc := ⟨.hbm, 218, rfl⟩
abbrev main_c_41 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_cst_42 : Ref sig .tc := ⟨.hbm, 224, rfl⟩
abbrev main_call7_v0 : Ref sig .tc := ⟨.hbm, 225, rfl⟩
abbrev main_call7_v1 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_c_43 : Ref sig .tc := ⟨.hbm, 230, rfl⟩
abbrev main_v154 : Ref sig .tc := ⟨.hbm, 231, rfl⟩
abbrev main_c_44 : Ref sig .tc := ⟨.hbm, 232, rfl⟩
abbrev main_v155 : Ref sig .tc := ⟨.hbm, 233, rfl⟩
abbrev main_v156 : Ref sig .tc := ⟨.hbm, 234, rfl⟩
abbrev main_cst_45 : Ref sig .tc := ⟨.hbm, 235, rfl⟩
abbrev main_call8_v0 : Ref sig .tc := ⟨.hbm, 236, rfl⟩
abbrev main_call8_v1 : Ref sig .tc := ⟨.hbm, 237, rfl⟩
abbrev main_v157 : Ref sig .tc := ⟨.hbm, 238, rfl⟩
abbrev main_cst_46 : Ref sig .tc := ⟨.hbm, 239, rfl⟩
abbrev main_v158 : Ref sig .tc := ⟨.hbm, 240, rfl⟩
abbrev main_c_47 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_cst_48 : Ref sig .tc := ⟨.hbm, 246, rfl⟩
abbrev main_call9_v0 : Ref sig .tc := ⟨.hbm, 247, rfl⟩
abbrev main_call9_v1 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_cst_49 : Ref sig .tc := ⟨.hbm, 259, rfl⟩
abbrev main_v173 : Ref sig .tc := ⟨.hbm, 260, rfl⟩
abbrev main_cst_50 : Ref sig .tc := ⟨.hbm, 261, rfl⟩
abbrev main_v174 : Ref sig .tc := ⟨.hbm, 262, rfl⟩
abbrev main_v175 : Ref sig .tc := ⟨.hbm, 263, rfl⟩
abbrev main_cst_51 : Ref sig .tc := ⟨.hbm, 264, rfl⟩
abbrev main_v176 : Ref sig .tc := ⟨.hbm, 265, rfl⟩
abbrev main_cst_52 : Ref sig .tc := ⟨.hbm, 266, rfl⟩
abbrev main_v177 : Ref sig .tc := ⟨.hbm, 267, rfl⟩
abbrev main_v178 : Ref sig .tc := ⟨.hbm, 268, rfl⟩
abbrev main_cst_53 : Ref sig .tc := ⟨.hbm, 269, rfl⟩
abbrev main_call10_v0 : Ref sig .tc := ⟨.hbm, 270, rfl⟩
abbrev main_v179 : Ref sig .tc := ⟨.hbm, 271, rfl⟩
abbrev main_c_54 : Ref sig .tc := ⟨.hbm, 272, rfl⟩
abbrev main_v180 : Ref sig .tc := ⟨.hbm, 273, rfl⟩
abbrev main_v181 : Ref sig .tc := ⟨.hbm, 274, rfl⟩
abbrev main_c_55 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_c_56 : Ref sig .tc := ⟨.hbm, 281, rfl⟩
abbrev main_v187 : Ref sig .tc := ⟨.hbm, 282, rfl⟩
abbrev main_v188 : Ref sig .tc := ⟨.hbm, 283, rfl⟩
abbrev main_c_57 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_cst_58 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_cst_59 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_cst_60 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_c_61 : Ref sig .tc := ⟨.hbm, 303, rfl⟩
abbrev main_v204 : Ref sig .tc := ⟨.hbm, 304, rfl⟩
abbrev main_v205 : Ref sig .tc := ⟨.hbm, 305, rfl⟩
abbrev main_c_62 : Ref sig .tc := ⟨.hbm, 306, rfl⟩
abbrev main_v206 : Ref sig .tc := ⟨.hbm, 307, rfl⟩
abbrev main_v207 : Ref sig .tc := ⟨.hbm, 308, rfl⟩
abbrev main_v208 : Ref sig .tc := ⟨.hbm, 309, rfl⟩
abbrev main_cst_63 : Ref sig .tc := ⟨.hbm, 310, rfl⟩
abbrev main_v209 : Ref sig .tc := ⟨.hbm, 311, rfl⟩
abbrev main_v210 : Ref sig .tc := ⟨.hbm, 312, rfl⟩
abbrev main_call11_cst : Ref sig .tc := ⟨.hbm, 313, rfl⟩
abbrev main_call11_v0 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_c_64 : Ref sig .tc := ⟨.hbm, 318, rfl⟩
abbrev main_v214 : Ref sig .tc := ⟨.hbm, 319, rfl⟩
abbrev main_c_65 : Ref sig .tc := ⟨.hbm, 320, rfl⟩
abbrev main_v215 : Ref sig .tc := ⟨.hbm, 321, rfl⟩
abbrev main_v216 : Ref sig .tc := ⟨.hbm, 322, rfl⟩
abbrev main_cst_66 : Ref sig .tc := ⟨.hbm, 323, rfl⟩
abbrev main_call12_v0 : Ref sig .tc := ⟨.hbm, 324, rfl⟩
abbrev main_call12_v1 : Ref sig .tc := ⟨.hbm, 325, rfl⟩
abbrev main_v217 : Ref sig .tc := ⟨.hbm, 326, rfl⟩
abbrev main_cst_67 : Ref sig .tc := ⟨.hbm, 327, rfl⟩
abbrev main_v218 : Ref sig .tc := ⟨.hbm, 328, rfl⟩
abbrev main_c_68 : Ref sig .tc := ⟨.hbm, 329, rfl⟩
abbrev main_v219 : Ref sig .tc := ⟨.hbm, 330, rfl⟩
abbrev main_v220 : Ref sig .tc := ⟨.hbm, 331, rfl⟩
abbrev main_v221 : Ref sig .tc := ⟨.hbm, 332, rfl⟩
abbrev main_v222 : Ref sig .tc := ⟨.hbm, 333, rfl⟩
abbrev main_cst_69 : Ref sig .tc := ⟨.hbm, 334, rfl⟩
abbrev main_call13_v0 : Ref sig .tc := ⟨.hbm, 335, rfl⟩
abbrev main_call13_v1 : Ref sig .tc := ⟨.hbm, 336, rfl⟩
abbrev main_v223 : Ref sig .tc := ⟨.hbm, 337, rfl⟩
abbrev main_v224 : Ref sig .tc := ⟨.hbm, 338, rfl⟩
abbrev main_cst_70 : Ref sig .tc := ⟨.hbm, 339, rfl⟩
abbrev main_v225 : Ref sig .tc := ⟨.hbm, 340, rfl⟩
abbrev main_v226 : Ref sig .tc := ⟨.hbm, 341, rfl⟩
abbrev main_call14_cst : Ref sig .tc := ⟨.hbm, 342, rfl⟩
abbrev main_call14_v0 : Ref sig .tc := ⟨.hbm, 343, rfl⟩
abbrev main_v227 : Ref sig .tc := ⟨.hbm, 344, rfl⟩
abbrev main_v228 : Ref sig .tc := ⟨.hbm, 345, rfl⟩
abbrev main_v229 : Ref sig .tc := ⟨.hbm, 346, rfl⟩
abbrev main_c_71 : Ref sig .tc := ⟨.hbm, 347, rfl⟩
abbrev main_v230 : Ref sig .tc := ⟨.hbm, 348, rfl⟩
abbrev main_c_72 : Ref sig .tc := ⟨.hbm, 349, rfl⟩
abbrev main_v231 : Ref sig .tc := ⟨.hbm, 350, rfl⟩
abbrev main_v232 : Ref sig .tc := ⟨.hbm, 351, rfl⟩
abbrev main_cst_73 : Ref sig .tc := ⟨.hbm, 352, rfl⟩
abbrev main_call15_v0 : Ref sig .tc := ⟨.hbm, 353, rfl⟩
abbrev main_call15_v1 : Ref sig .tc := ⟨.hbm, 354, rfl⟩
abbrev main_v233 : Ref sig .tc := ⟨.hbm, 355, rfl⟩
abbrev main_cst_74 : Ref sig .tc := ⟨.hbm, 356, rfl⟩
abbrev main_v234 : Ref sig .tc := ⟨.hbm, 357, rfl⟩
abbrev main_c_75 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_cst_76 : Ref sig .tc := ⟨.hbm, 363, rfl⟩
abbrev main_call16_v0 : Ref sig .tc := ⟨.hbm, 364, rfl⟩
abbrev main_call16_v1 : Ref sig .tc := ⟨.hbm, 365, rfl⟩
abbrev main_v239 : Ref sig .tc := ⟨.hbm, 366, rfl⟩
abbrev main_v240 : Ref sig .tc := ⟨.hbm, 367, rfl⟩
abbrev main_v241 : Ref sig .tc := ⟨.hbm, 368, rfl⟩
abbrev main_v242 : Ref sig .tc := ⟨.hbm, 369, rfl⟩
abbrev main_v243 : Ref sig .tc := ⟨.hbm, 370, rfl⟩
abbrev main_v244 : Ref sig .tc := ⟨.hbm, 371, rfl⟩
abbrev main_v245 : Ref sig .tc := ⟨.hbm, 372, rfl⟩
abbrev main_v246 : Ref sig .tc := ⟨.hbm, 373, rfl⟩
abbrev main_cst_77 : Ref sig .tc := ⟨.hbm, 374, rfl⟩
abbrev main_v247 : Ref sig .tc := ⟨.hbm, 375, rfl⟩
abbrev main_cst_78 : Ref sig .tc := ⟨.hbm, 376, rfl⟩
abbrev main_v248 : Ref sig .tc := ⟨.hbm, 377, rfl⟩
abbrev main_v249 : Ref sig .tc := ⟨.hbm, 378, rfl⟩
abbrev main_cst_79 : Ref sig .tc := ⟨.hbm, 379, rfl⟩
abbrev main_v250 : Ref sig .tc := ⟨.hbm, 380, rfl⟩
abbrev main_cst_80 : Ref sig .tc := ⟨.hbm, 381, rfl⟩
abbrev main_v251 : Ref sig .tc := ⟨.hbm, 382, rfl⟩
abbrev main_v252 : Ref sig .tc := ⟨.hbm, 383, rfl⟩
abbrev main_cst_81 : Ref sig .tc := ⟨.hbm, 384, rfl⟩
abbrev main_call17_v0 : Ref sig .tc := ⟨.hbm, 385, rfl⟩
abbrev main_v253 : Ref sig .tc := ⟨.hbm, 386, rfl⟩
abbrev main_v254 : Ref sig .tc := ⟨.hbm, 387, rfl⟩
abbrev main_c_82 : Ref sig .tc := ⟨.hbm, 388, rfl⟩
abbrev main_v255 : Ref sig .tc := ⟨.hbm, 389, rfl⟩
abbrev main_c_83 : Ref sig .tc := ⟨.hbm, 390, rfl⟩
abbrev main_v256 : Ref sig .tc := ⟨.hbm, 391, rfl⟩
abbrev main_v257 : Ref sig .tc := ⟨.hbm, 392, rfl⟩
abbrev main_cst_84 : Ref sig .tc := ⟨.hbm, 393, rfl⟩
abbrev main_call18_v0 : Ref sig .tc := ⟨.hbm, 394, rfl⟩
abbrev main_call18_v1 : Ref sig .tc := ⟨.hbm, 395, rfl⟩
abbrev main_v258 : Ref sig .tc := ⟨.hbm, 396, rfl⟩
abbrev main_cst_85 : Ref sig .tc := ⟨.hbm, 397, rfl⟩
abbrev main_v259 : Ref sig .tc := ⟨.hbm, 398, rfl⟩
abbrev main_c_86 : Ref sig .tc := ⟨.hbm, 399, rfl⟩
abbrev main_v260 : Ref sig .tc := ⟨.hbm, 400, rfl⟩
abbrev main_v261 : Ref sig .tc := ⟨.hbm, 401, rfl⟩
abbrev main_v262 : Ref sig .tc := ⟨.hbm, 402, rfl⟩
abbrev main_v263 : Ref sig .tc := ⟨.hbm, 403, rfl⟩
abbrev main_cst_87 : Ref sig .tc := ⟨.hbm, 404, rfl⟩
abbrev main_call19_v0 : Ref sig .tc := ⟨.hbm, 405, rfl⟩
abbrev main_call19_v1 : Ref sig .tc := ⟨.hbm, 406, rfl⟩
abbrev main_v264 : Ref sig .tc := ⟨.hbm, 407, rfl⟩
abbrev main_v265 : Ref sig .tc := ⟨.hbm, 408, rfl⟩
abbrev main_c_88 : Ref sig .tc := ⟨.hbm, 409, rfl⟩
abbrev main_v266 : Ref sig .tc := ⟨.hbm, 410, rfl⟩
abbrev main_c_89 : Ref sig .tc := ⟨.hbm, 411, rfl⟩
abbrev main_v267 : Ref sig .tc := ⟨.hbm, 412, rfl⟩
abbrev main_v268 : Ref sig .tc := ⟨.hbm, 413, rfl⟩
abbrev main_cst_90 : Ref sig .tc := ⟨.hbm, 414, rfl⟩
abbrev main_call20_v0 : Ref sig .tc := ⟨.hbm, 415, rfl⟩
abbrev main_call20_v1 : Ref sig .tc := ⟨.hbm, 416, rfl⟩
abbrev main_v269 : Ref sig .tc := ⟨.hbm, 417, rfl⟩
abbrev main_cst_91 : Ref sig .tc := ⟨.hbm, 418, rfl⟩
abbrev main_v270 : Ref sig .tc := ⟨.hbm, 419, rfl⟩
abbrev main_c_92 : Ref sig .tc := ⟨.hbm, 420, rfl⟩
abbrev main_v271 : Ref sig .tc := ⟨.hbm, 421, rfl⟩
abbrev main_v272 : Ref sig .tc := ⟨.hbm, 422, rfl⟩
abbrev main_v273 : Ref sig .tc := ⟨.hbm, 423, rfl⟩
abbrev main_v274 : Ref sig .tc := ⟨.hbm, 424, rfl⟩
abbrev main_cst_93 : Ref sig .tc := ⟨.hbm, 425, rfl⟩
abbrev main_call21_v0 : Ref sig .tc := ⟨.hbm, 426, rfl⟩
abbrev main_call21_v1 : Ref sig .tc := ⟨.hbm, 427, rfl⟩
abbrev main_v275 : Ref sig .tc := ⟨.hbm, 428, rfl⟩
abbrev main_v276 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_v280 : Ref sig .tc := ⟨.hbm, 433, rfl⟩
abbrev main_v281 : Ref sig .tc := ⟨.hbm, 434, rfl⟩
abbrev main_v282 : Ref sig .tc := ⟨.hbm, 435, rfl⟩
abbrev main_cst_94 : Ref sig .tc := ⟨.hbm, 436, rfl⟩
abbrev main_v283 : Ref sig .tc := ⟨.hbm, 437, rfl⟩
abbrev main_cst_95 : Ref sig .tc := ⟨.hbm, 438, rfl⟩
abbrev main_v284 : Ref sig .tc := ⟨.hbm, 439, rfl⟩
abbrev main_v285 : Ref sig .tc := ⟨.hbm, 440, rfl⟩
abbrev main_cst_96 : Ref sig .tc := ⟨.hbm, 441, rfl⟩
abbrev main_v286 : Ref sig .tc := ⟨.hbm, 442, rfl⟩
abbrev main_cst_97 : Ref sig .tc := ⟨.hbm, 443, rfl⟩
abbrev main_v287 : Ref sig .tc := ⟨.hbm, 444, rfl⟩
abbrev main_v288 : Ref sig .tc := ⟨.hbm, 445, rfl⟩
abbrev main_cst_98 : Ref sig .tc := ⟨.hbm, 446, rfl⟩
abbrev main_call22_v0 : Ref sig .tc := ⟨.hbm, 447, rfl⟩
abbrev main_v289 : Ref sig .tc := ⟨.hbm, 448, rfl⟩
abbrev main_v290 : Ref sig .tc := ⟨.hbm, 449, rfl⟩
abbrev main_c_99 : Ref sig .tc := ⟨.hbm, 450, rfl⟩
abbrev main_v291 : Ref sig .tc := ⟨.hbm, 451, rfl⟩
abbrev main_c_100 : Ref sig .tc := ⟨.hbm, 452, rfl⟩
abbrev main_v292 : Ref sig .tc := ⟨.hbm, 453, rfl⟩
abbrev main_v293 : Ref sig .tc := ⟨.hbm, 454, rfl⟩
abbrev main_cst_101 : Ref sig .tc := ⟨.hbm, 455, rfl⟩
abbrev main_call23_v0 : Ref sig .tc := ⟨.hbm, 456, rfl⟩
abbrev main_call23_v1 : Ref sig .tc := ⟨.hbm, 457, rfl⟩
abbrev main_v294 : Ref sig .tc := ⟨.hbm, 458, rfl⟩
abbrev main_cst_102 : Ref sig .tc := ⟨.hbm, 459, rfl⟩
abbrev main_v295 : Ref sig .tc := ⟨.hbm, 460, rfl⟩
abbrev main_c_103 : Ref sig .tc := ⟨.hbm, 461, rfl⟩
abbrev main_v296 : Ref sig .tc := ⟨.hbm, 462, rfl⟩
abbrev main_v297 : Ref sig .tc := ⟨.hbm, 463, rfl⟩
abbrev main_v298 : Ref sig .tc := ⟨.hbm, 464, rfl⟩
abbrev main_v299 : Ref sig .tc := ⟨.hbm, 465, rfl⟩
abbrev main_cst_104 : Ref sig .tc := ⟨.hbm, 466, rfl⟩
abbrev main_call24_v0 : Ref sig .tc := ⟨.hbm, 467, rfl⟩
abbrev main_call24_v1 : Ref sig .tc := ⟨.hbm, 468, rfl⟩
abbrev main_v300 : Ref sig .tc := ⟨.hbm, 469, rfl⟩
abbrev main_v301 : Ref sig .tc := ⟨.hbm, 470, rfl⟩
abbrev main_c_105 : Ref sig .tc := ⟨.hbm, 471, rfl⟩
abbrev main_v302 : Ref sig .tc := ⟨.hbm, 472, rfl⟩
abbrev main_c_106 : Ref sig .tc := ⟨.hbm, 473, rfl⟩
abbrev main_v303 : Ref sig .tc := ⟨.hbm, 474, rfl⟩
abbrev main_v304 : Ref sig .tc := ⟨.hbm, 475, rfl⟩
abbrev main_cst_107 : Ref sig .tc := ⟨.hbm, 476, rfl⟩
abbrev main_call25_v0 : Ref sig .tc := ⟨.hbm, 477, rfl⟩
abbrev main_call25_v1 : Ref sig .tc := ⟨.hbm, 478, rfl⟩
abbrev main_v305 : Ref sig .tc := ⟨.hbm, 479, rfl⟩
abbrev main_cst_108 : Ref sig .tc := ⟨.hbm, 480, rfl⟩
abbrev main_v306 : Ref sig .tc := ⟨.hbm, 481, rfl⟩
abbrev main_c_109 : Ref sig .tc := ⟨.hbm, 482, rfl⟩
abbrev main_v307 : Ref sig .tc := ⟨.hbm, 483, rfl⟩
abbrev main_v308 : Ref sig .tc := ⟨.hbm, 484, rfl⟩
abbrev main_v309 : Ref sig .tc := ⟨.hbm, 485, rfl⟩
abbrev main_v310 : Ref sig .tc := ⟨.hbm, 486, rfl⟩
abbrev main_cst_110 : Ref sig .tc := ⟨.hbm, 487, rfl⟩
abbrev main_call26_v0 : Ref sig .tc := ⟨.hbm, 488, rfl⟩
abbrev main_call26_v1 : Ref sig .tc := ⟨.hbm, 489, rfl⟩
abbrev main_v311 : Ref sig .tc := ⟨.hbm, 490, rfl⟩
abbrev main_v312 : Ref sig .tc := ⟨.hbm, 491, rfl⟩
abbrev main_v313 : Ref sig .tc := ⟨.hbm, 492, rfl⟩
abbrev main_v314 : Ref sig .tc := ⟨.hbm, 493, rfl⟩
abbrev main_v315 : Ref sig .tc := ⟨.hbm, 494, rfl⟩
abbrev main_v316 : Ref sig .tc := ⟨.hbm, 495, rfl⟩
abbrev main_v317 : Ref sig .tc := ⟨.hbm, 496, rfl⟩
abbrev main_v318 : Ref sig .tc := ⟨.hbm, 497, rfl⟩
abbrev main_cst_111 : Ref sig .tc := ⟨.hbm, 498, rfl⟩
abbrev main_v319 : Ref sig .tc := ⟨.hbm, 499, rfl⟩
abbrev main_cst_112 : Ref sig .tc := ⟨.hbm, 500, rfl⟩
abbrev main_v320 : Ref sig .tc := ⟨.hbm, 501, rfl⟩
abbrev main_v321 : Ref sig .tc := ⟨.hbm, 502, rfl⟩
abbrev main_cst_113 : Ref sig .tc := ⟨.hbm, 503, rfl⟩
abbrev main_v322 : Ref sig .tc := ⟨.hbm, 504, rfl⟩
abbrev main_cst_114 : Ref sig .tc := ⟨.hbm, 505, rfl⟩
abbrev main_v323 : Ref sig .tc := ⟨.hbm, 506, rfl⟩
abbrev main_v324 : Ref sig .tc := ⟨.hbm, 507, rfl⟩
abbrev main_cst_115 : Ref sig .tc := ⟨.hbm, 508, rfl⟩
abbrev main_call27_v0 : Ref sig .tc := ⟨.hbm, 509, rfl⟩
abbrev main_v325 : Ref sig .tc := ⟨.hbm, 510, rfl⟩
abbrev main_v326 : Ref sig .tc := ⟨.hbm, 511, rfl⟩
abbrev main_c_116 : Ref sig .tc := ⟨.hbm, 512, rfl⟩
abbrev main_v327 : Ref sig .tc := ⟨.hbm, 513, rfl⟩
abbrev main_c_117 : Ref sig .tc := ⟨.hbm, 514, rfl⟩
abbrev main_v328 : Ref sig .tc := ⟨.hbm, 515, rfl⟩
abbrev main_v329 : Ref sig .tc := ⟨.hbm, 516, rfl⟩
abbrev main_cst_118 : Ref sig .tc := ⟨.hbm, 517, rfl⟩
abbrev main_call28_v0 : Ref sig .tc := ⟨.hbm, 518, rfl⟩
abbrev main_call28_v1 : Ref sig .tc := ⟨.hbm, 519, rfl⟩
abbrev main_v330 : Ref sig .tc := ⟨.hbm, 520, rfl⟩
abbrev main_cst_119 : Ref sig .tc := ⟨.hbm, 521, rfl⟩
abbrev main_v331 : Ref sig .tc := ⟨.hbm, 522, rfl⟩
abbrev main_c_120 : Ref sig .tc := ⟨.hbm, 523, rfl⟩
abbrev main_v332 : Ref sig .tc := ⟨.hbm, 524, rfl⟩
abbrev main_v333 : Ref sig .tc := ⟨.hbm, 525, rfl⟩
abbrev main_v334 : Ref sig .tc := ⟨.hbm, 526, rfl⟩
abbrev main_v335 : Ref sig .tc := ⟨.hbm, 527, rfl⟩
abbrev main_cst_121 : Ref sig .tc := ⟨.hbm, 528, rfl⟩
abbrev main_call29_v0 : Ref sig .tc := ⟨.hbm, 529, rfl⟩
abbrev main_call29_v1 : Ref sig .tc := ⟨.hbm, 530, rfl⟩
abbrev main_v336 : Ref sig .tc := ⟨.hbm, 531, rfl⟩
abbrev main_v337 : Ref sig .tc := ⟨.hbm, 532, rfl⟩
abbrev main_c_122 : Ref sig .tc := ⟨.hbm, 533, rfl⟩
abbrev main_v338 : Ref sig .tc := ⟨.hbm, 534, rfl⟩
abbrev main_c_123 : Ref sig .tc := ⟨.hbm, 535, rfl⟩
abbrev main_v339 : Ref sig .tc := ⟨.hbm, 536, rfl⟩
abbrev main_v340 : Ref sig .tc := ⟨.hbm, 537, rfl⟩
abbrev main_cst_124 : Ref sig .tc := ⟨.hbm, 538, rfl⟩
abbrev main_call30_v0 : Ref sig .tc := ⟨.hbm, 539, rfl⟩
abbrev main_call30_v1 : Ref sig .tc := ⟨.hbm, 540, rfl⟩
abbrev main_v341 : Ref sig .tc := ⟨.hbm, 541, rfl⟩
abbrev main_cst_125 : Ref sig .tc := ⟨.hbm, 542, rfl⟩
abbrev main_v342 : Ref sig .tc := ⟨.hbm, 543, rfl⟩
abbrev main_c_126 : Ref sig .tc := ⟨.hbm, 544, rfl⟩
abbrev main_v343 : Ref sig .tc := ⟨.hbm, 545, rfl⟩
abbrev main_v344 : Ref sig .tc := ⟨.hbm, 546, rfl⟩
abbrev main_v345 : Ref sig .tc := ⟨.hbm, 547, rfl⟩
abbrev main_v346 : Ref sig .tc := ⟨.hbm, 548, rfl⟩
abbrev main_cst_127 : Ref sig .tc := ⟨.hbm, 549, rfl⟩
abbrev main_call31_v0 : Ref sig .tc := ⟨.hbm, 550, rfl⟩
abbrev main_call31_v1 : Ref sig .tc := ⟨.hbm, 551, rfl⟩
abbrev main_v347 : Ref sig .tc := ⟨.hbm, 552, rfl⟩
abbrev main_v348 : Ref sig .tc := ⟨.hbm, 553, rfl⟩
abbrev main_v349 : Ref sig .tc := ⟨.hbm, 554, rfl⟩
abbrev main_v350 : Ref sig .tc := ⟨.hbm, 555, rfl⟩
abbrev main_v351 : Ref sig .tc := ⟨.hbm, 556, rfl⟩
abbrev main_v352 : Ref sig .tc := ⟨.hbm, 557, rfl⟩
abbrev main_v353 : Ref sig .tc := ⟨.hbm, 558, rfl⟩
abbrev main_v354 : Ref sig .tc := ⟨.hbm, 559, rfl⟩
abbrev main_cst_128 : Ref sig .tc := ⟨.hbm, 560, rfl⟩
abbrev main_v355 : Ref sig .tc := ⟨.hbm, 561, rfl⟩
abbrev main_cst_129 : Ref sig .tc := ⟨.hbm, 562, rfl⟩
abbrev main_v356 : Ref sig .tc := ⟨.hbm, 563, rfl⟩
abbrev main_v357 : Ref sig .tc := ⟨.hbm, 564, rfl⟩
abbrev main_cst_130 : Ref sig .tc := ⟨.hbm, 565, rfl⟩
abbrev main_v358 : Ref sig .tc := ⟨.hbm, 566, rfl⟩
abbrev main_cst_131 : Ref sig .tc := ⟨.hbm, 567, rfl⟩
abbrev main_v359 : Ref sig .tc := ⟨.hbm, 568, rfl⟩
abbrev main_v360 : Ref sig .tc := ⟨.hbm, 569, rfl⟩
abbrev main_cst_132 : Ref sig .tc := ⟨.hbm, 570, rfl⟩
abbrev main_call32_v0 : Ref sig .tc := ⟨.hbm, 571, rfl⟩
abbrev main_v361 : Ref sig .tc := ⟨.hbm, 572, rfl⟩
abbrev main_v362 : Ref sig .tc := ⟨.hbm, 573, rfl⟩
abbrev main_c_133 : Ref sig .tc := ⟨.hbm, 574, rfl⟩
abbrev main_v363 : Ref sig .tc := ⟨.hbm, 575, rfl⟩
abbrev main_c_134 : Ref sig .tc := ⟨.hbm, 576, rfl⟩
abbrev main_v364 : Ref sig .tc := ⟨.hbm, 577, rfl⟩
abbrev main_v365 : Ref sig .tc := ⟨.hbm, 578, rfl⟩
abbrev main_cst_135 : Ref sig .tc := ⟨.hbm, 579, rfl⟩
abbrev main_call33_v0 : Ref sig .tc := ⟨.hbm, 580, rfl⟩
abbrev main_call33_v1 : Ref sig .tc := ⟨.hbm, 581, rfl⟩
abbrev main_v366 : Ref sig .tc := ⟨.hbm, 582, rfl⟩
abbrev main_cst_136 : Ref sig .tc := ⟨.hbm, 583, rfl⟩
abbrev main_v367 : Ref sig .tc := ⟨.hbm, 584, rfl⟩
abbrev main_c_137 : Ref sig .tc := ⟨.hbm, 585, rfl⟩
abbrev main_v368 : Ref sig .tc := ⟨.hbm, 586, rfl⟩
abbrev main_v369 : Ref sig .tc := ⟨.hbm, 587, rfl⟩
abbrev main_v370 : Ref sig .tc := ⟨.hbm, 588, rfl⟩
abbrev main_v371 : Ref sig .tc := ⟨.hbm, 589, rfl⟩
abbrev main_cst_138 : Ref sig .tc := ⟨.hbm, 590, rfl⟩
abbrev main_call34_v0 : Ref sig .tc := ⟨.hbm, 591, rfl⟩
abbrev main_call34_v1 : Ref sig .tc := ⟨.hbm, 592, rfl⟩
abbrev main_v372 : Ref sig .tc := ⟨.hbm, 593, rfl⟩
abbrev main_v373 : Ref sig .tc := ⟨.hbm, 594, rfl⟩
abbrev main_c_139 : Ref sig .tc := ⟨.hbm, 595, rfl⟩
abbrev main_v374 : Ref sig .tc := ⟨.hbm, 596, rfl⟩
abbrev main_c_140 : Ref sig .tc := ⟨.hbm, 597, rfl⟩
abbrev main_v375 : Ref sig .tc := ⟨.hbm, 598, rfl⟩
abbrev main_v376 : Ref sig .tc := ⟨.hbm, 599, rfl⟩
abbrev main_cst_141 : Ref sig .tc := ⟨.hbm, 600, rfl⟩
abbrev main_call35_v0 : Ref sig .tc := ⟨.hbm, 601, rfl⟩
abbrev main_call35_v1 : Ref sig .tc := ⟨.hbm, 602, rfl⟩
abbrev main_v377 : Ref sig .tc := ⟨.hbm, 603, rfl⟩
abbrev main_cst_142 : Ref sig .tc := ⟨.hbm, 604, rfl⟩
abbrev main_v378 : Ref sig .tc := ⟨.hbm, 605, rfl⟩
abbrev main_c_143 : Ref sig .tc := ⟨.hbm, 606, rfl⟩
abbrev main_v379 : Ref sig .tc := ⟨.hbm, 607, rfl⟩
abbrev main_v380 : Ref sig .tc := ⟨.hbm, 608, rfl⟩
abbrev main_v381 : Ref sig .tc := ⟨.hbm, 609, rfl⟩
abbrev main_v382 : Ref sig .tc := ⟨.hbm, 610, rfl⟩
abbrev main_cst_144 : Ref sig .tc := ⟨.hbm, 611, rfl⟩
abbrev main_call36_v0 : Ref sig .tc := ⟨.hbm, 612, rfl⟩
abbrev main_call36_v1 : Ref sig .tc := ⟨.hbm, 613, rfl⟩
abbrev main_v383 : Ref sig .tc := ⟨.hbm, 614, rfl⟩
abbrev main_v384 : Ref sig .tc := ⟨.hbm, 615, rfl⟩
abbrev main_v385 : Ref sig .tc := ⟨.hbm, 616, rfl⟩
abbrev main_v386 : Ref sig .tc := ⟨.hbm, 617, rfl⟩
abbrev main_v387 : Ref sig .tc := ⟨.hbm, 618, rfl⟩
abbrev main_v388 : Ref sig .tc := ⟨.hbm, 619, rfl⟩
abbrev main_v389 : Ref sig .tc := ⟨.hbm, 620, rfl⟩
abbrev main_v390 : Ref sig .tc := ⟨.hbm, 621, rfl⟩
abbrev main_cst_145 : Ref sig .tc := ⟨.hbm, 622, rfl⟩
abbrev main_v391 : Ref sig .tc := ⟨.hbm, 623, rfl⟩
abbrev main_cst_146 : Ref sig .tc := ⟨.hbm, 624, rfl⟩
abbrev main_v392 : Ref sig .tc := ⟨.hbm, 625, rfl⟩
abbrev main_v393 : Ref sig .tc := ⟨.hbm, 626, rfl⟩
abbrev main_cst_147 : Ref sig .tc := ⟨.hbm, 627, rfl⟩
abbrev main_v394 : Ref sig .tc := ⟨.hbm, 628, rfl⟩
abbrev main_cst_148 : Ref sig .tc := ⟨.hbm, 629, rfl⟩
abbrev main_v395 : Ref sig .tc := ⟨.hbm, 630, rfl⟩
abbrev main_v396 : Ref sig .tc := ⟨.hbm, 631, rfl⟩
abbrev main_cst_149 : Ref sig .tc := ⟨.hbm, 632, rfl⟩
abbrev main_call37_v0 : Ref sig .tc := ⟨.hbm, 633, rfl⟩
abbrev main_v397 : Ref sig .tc := ⟨.hbm, 634, rfl⟩
abbrev main_v398 : Ref sig .tc := ⟨.hbm, 635, rfl⟩
abbrev main_v399 : Ref sig .tc := ⟨.hbm, 636, rfl⟩
abbrev main_v400 : Ref sig .tc := ⟨.hbm, 637, rfl⟩
abbrev main_v401 : Ref sig .tc := ⟨.hbm, 638, rfl⟩
abbrev main_v402 : Ref sig .tc := ⟨.hbm, 639, rfl⟩
abbrev main_v403 : Ref sig .tc := ⟨.hbm, 640, rfl⟩
abbrev main_v404 : Ref sig .tc := ⟨.hbm, 641, rfl⟩
abbrev main_v405 : Ref sig .tc := ⟨.hbm, 642, rfl⟩
abbrev main_v406 : Ref sig .tc := ⟨.hbm, 643, rfl⟩
abbrev main_v407 : Ref sig .tc := ⟨.hbm, 644, rfl⟩
abbrev main_v408 : Ref sig .tc := ⟨.hbm, 645, rfl⟩
abbrev main_v409 : Ref sig .tc := ⟨.hbm, 646, rfl⟩
abbrev main_v410 : Ref sig .tc := ⟨.hbm, 647, rfl⟩
abbrev main_v411 : Ref sig .tc := ⟨.hbm, 648, rfl⟩
abbrev main_c_150 : Ref sig .tc := ⟨.hbm, 649, rfl⟩
abbrev main_v412 : Ref sig .tc := ⟨.hbm, 650, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1000x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1000x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x160000_S64x1000x160 : S64x160000.ShapeCasts S64x1000x160
  inb_S8x1000x160_S8x1000x160_0_0_0 : ∀ a, (![0, 0, 0] : Fin 3 → Nat) a + S8x1000x160.size a ≤ S8x1000x160.size a
  h_S8x1000x160 : 0 < S8x1000x160.numel
  shapeCasts_S8x1000x160_S8x1000x160 : S8x1000x160.ShapeCasts S8x1000x160
  reduces_S8x1000x160_S8x1000 : S8x1000x160.Reduces [2] S8x1000
  inb_S8x1000_S8x1000_0_0 : ∀ a, (![0, 0] : Fin 2 → Nat) a + S8x1000.size a ≤ S8x1000.size a
  h_S8x1000 : 0 < S8x1000.numel
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64 : S_.BroadcastsInDim S64 (![] : Fin 0 → Fin S64.rank)
  reducesTo_S64x64_S64_d1 : S64x64.ReducesTo [1] S64
  h_S_ : 0 < S_.numel
  bcast_S_S64x1000 : S_.BroadcastsInDim S64x1000 (![] : Fin 0 → Fin S64x1000.rank)
  reducesTo_S64x1000_S64_d1 : S64x1000.ReducesTo [1] S64
  natLt_1_32 : 1 < 32
  concatenates_S1x64_S1x64_S1x64_S3x64_d0 : Shape.Concatenates [S1x64, S1x64, S1x64] S3x64 0
  reducesTo_S3x64_S_d0_1 : S3x64.ReducesTo [0, 1] S_
  concatenates_S1x64_S1x64_S2x64_d0 : Shape.Concatenates [S1x64, S1x64] S2x64 0
  reducesTo_S2x64_S_d0_1 : S2x64.ReducesTo [0, 1] S_
  bcast_S_S1 : S_.BroadcastsInDim S1 (![] : Fin 0 → Fin S1.rank)
  concatenates_S1_S1_S1_S1_S1_S1_S1_S1_S1_S1_S10_d0 : Shape.Concatenates [S1, S1, S1, S1, S1, S1, S1, S1, S1, S1] S10 0
  reducesTo_S64_S_d0 : S64.ReducesTo [0] S_
  gather_S64x1000_S64x1_S64x1000_1_0_n_n_0_1_11000_wf : GatherDims.WF S64x1000 S64x1 S64x1000 [1] [0] [] [0] [] 1 ![1, 1000]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1000x160.size a ≤ S64x1000x160.size a
  hwx0_0 : ∀ i : grid0.Coords, EltTy.bits .f32 = 32 ∨ (Rect.block (s := S64x1000x160) S8x1000x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1000x160.size a ≤ S64x1000x160.size a
  hwx0_1 : ∀ i : grid0.Coords, EltTy.bits .f32 = 32 ∨ (Rect.block (s := S64x1000x160) S8x1000x160.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1000x160.size a ≤ S64x1000x160.size a
  hwx0_2 : ∀ i : grid0.Coords, EltTy.bits .f32 = 32 ∨ (Rect.block (s := S64x1000x160) S8x1000x160.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1000.size a ≤ S64x1000.size a
  hwx0_3 : ∀ i : grid0.Coords, EltTy.bits .f32 = 32 ∨ (Rect.block (s := S64x1000) S8x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1000.size a ≤ S64x1000.size a
  hwx0_4 : ∀ i : grid0.Coords, EltTy.bits .f32 = 32 ∨ (Rect.block (s := S64x1000) S8x1000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1000.size a ≤ S64x1000.size a
  hwx0_5 : ∀ i : grid0.Coords, EltTy.bits .f32 = 32 ∨ (Rect.block (s := S64x1000) S8x1000.size (cc0_transform_5 i) (hinb0_5 i)).WholeWords (EltTy.packing .f32)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S64x1000_S64x1_S64x1000_1_0_n_n_0_1_11000 : GatherDims S64x1000 S64x1 S64x1000 where
  offsetDims := [1]
  collapsedSliceDims := [0]
  operandBatchingDims := []
  startIndicesBatchingDims := []
  startIndexMap := [0]
  indexVectorDim := 1
  sliceSizes := ![1, 1000]
  wf := gather_S64x1000_S64x1_S64x1000_1_0_n_n_0_1_11000_wf

abbrev win0_0 : Pipeline.Window sig grid0 :=
  Pipeline.Window.ofSpec (Memref.whole main_v0) S8x1000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1000x160.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1000x160.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S8x1000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S8x1000.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S8x1000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x160000 : Shape := ⟨2, ![64, 160000]⟩
abbrev S64x1000 : Shape := ⟨2, ![64, 1000]⟩
abbrev S64 : Shape := ⟨1, ![64]⟩
abbrev S64x1000x160 : Shape := ⟨3, ![64, 1000, 160]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S3x64 : Shape := ⟨2, ![3, 64]⟩
abbrev S2x64 : Shape := ⟨2, ![2, 64]⟩
abbrev S1 : Shape := ⟨1, ![1]⟩
abbrev S10 : Shape := ⟨1, ![10]⟩

abbrev nBuf : Space → Nat
  | .hbm => 666
  | .vmem => 0
  | .smem => 0
  | _ => 0

abbrev hbmTy0_0 (i : Nat) : BufTy := match i % 128 with
  | 0 => ⟨S64x160000, .f32⟩
  | 1 => ⟨S64x160000, .f32⟩
  | 2 => ⟨S64x160000, .f32⟩
  | 3 => ⟨S64x1000, .i1⟩
  | 4 => ⟨S64x1000, .i1⟩
  | 5 => ⟨S64x1000, .i1⟩
  | 6 => ⟨S64x1000, .i1⟩
  | 7 => ⟨S64, .i32⟩
  | 8 => ⟨S64, .i32⟩
  | 9 => ⟨S64x1000x160, .f32⟩
  | 10 => ⟨S64x1000x160, .f32⟩
  | 11 => ⟨S_, .f32⟩
  | 12 => ⟨S64x1000, .f32⟩
  | 13 => ⟨S_, .f32⟩
  | 14 => ⟨S64x1000, .f32⟩
  | 15 => ⟨S64x1000, .f32⟩
  | 16 => ⟨S64x1000x160, .f32⟩
  | 17 => ⟨S64x1000x160, .f32⟩
  | 18 => ⟨S_, .f32⟩
  | 19 => ⟨S64x1000, .f32⟩
  | 20 => ⟨S_, .f32⟩
  | 21 => ⟨S64x1000, .f32⟩
  | 22 => ⟨S64x1000, .f32⟩
  | 23 => ⟨S64x1000x160, .f32⟩
  | 24 => ⟨S64x1000x160, .f32⟩
  | 25 => ⟨S_, .f32⟩
  | 26 => ⟨S64x1000, .f32⟩
  | 27 => ⟨S_, .f32⟩
  | 28 => ⟨S64x1000, .f32⟩
  | 29 => ⟨S64x1000, .f32⟩
  | 30 => ⟨S64, .i32⟩
  | 31 => ⟨S64x1, .i32⟩
  | 32 => ⟨S1x64, .i32⟩
  | 33 => ⟨S64x64, .i32⟩
  | 34 => ⟨S64x64, .i32⟩
  | 35 => ⟨S64x64, .i1⟩
  | 36 => ⟨S_, .i32⟩
  | 37 => ⟨S64, .i32⟩
  | 38 => ⟨S64, .i1⟩
  | 39 => ⟨S1x64, .i1⟩
  | 40 => ⟨S64x64, .i1⟩
  | 41 => ⟨S64x64, .i1⟩
  | 42 => ⟨S_, .i32⟩
  | 43 => ⟨S64, .i32⟩
  | 44 => ⟨S64, .i1⟩
  | 45 => ⟨S1x64, .i1⟩
  | 46 => ⟨S64x64, .i1⟩
  | 47 => ⟨S64x64, .i1⟩
  | 48 => ⟨S_, .i1⟩
  | 49 => ⟨S64, .i1⟩
  | 50 => ⟨S_, .i1⟩
  | 51 => ⟨S64, .i1⟩
  | 52 => ⟨S64, .i1⟩
  | 53 => ⟨S64x64, .i32⟩
  | 54 => ⟨S_, .i1⟩
  | 55 => ⟨S_, .i32⟩
  | 56 => ⟨S64, .i1⟩
  | 57 => ⟨S64, .i32⟩
  | 58 => ⟨S64x64, .i32⟩
  | 59 => ⟨S_, .i1⟩
  | 60 => ⟨S_, .i32⟩
  | 61 => ⟨S64, .i1⟩
  | 62 => ⟨S64, .i32⟩
  | 63 => ⟨S_, .i32⟩
  | 64 => ⟨S64, .i32⟩
  | 65 => ⟨S64, .i1⟩
  | 66 => ⟨S_, .i32⟩
  | 67 => ⟨S64, .i32⟩
  | 68 => ⟨S64, .i32⟩
  | 69 => ⟨S64, .i32⟩
  | 70 => ⟨S64x1, .i32⟩
  | 71 => ⟨S64x1000, .f32⟩
  | 72 => ⟨S_, .i32⟩
  | 73 => ⟨S64, .i32⟩
  | 74 => ⟨S64, .i1⟩
  | 75 => ⟨S_, .i32⟩
  | 76 => ⟨S64, .i32⟩
  | 77 => ⟨S64, .i32⟩
  | 78 => ⟨S64, .i32⟩
  | 79 => ⟨S64x1, .i32⟩
  | 80 => ⟨S64x1000, .f32⟩
  | 81 => ⟨S_, .f32⟩
  | 82 => ⟨S64x1000, .f32⟩
  | 83 => ⟨S64x1000, .f32⟩
  | 84 => ⟨S64x1000, .f32⟩
  | 85 => ⟨S_, .i32⟩
  | 86 => ⟨S64, .i32⟩
  | 87 => ⟨S64, .i1⟩
  | 88 => ⟨S_, .i32⟩
  | 89 => ⟨S64, .i32⟩
  | 90 => ⟨S64, .i32⟩
  | 91 => ⟨S64, .i32⟩
  | 92 => ⟨S64x1, .i32⟩
  | 93 => ⟨S64x1000, .f32⟩
  | 94 => ⟨S_, .f32⟩
  | 95 => ⟨S64x1000, .f32⟩
  | 96 => ⟨S64x1000, .f32⟩
  | 97 => ⟨S64x1000, .f32⟩
  | 98 => ⟨S_, .i32⟩
  | 99 => ⟨S64, .i32⟩
  | 100 => ⟨S64, .i1⟩
  | 101 => ⟨S_, .i32⟩
  | 102 => ⟨S64, .i32⟩
  | 103 => ⟨S64, .i32⟩
  | 104 => ⟨S64, .i32⟩
  | 105 => ⟨S64x1, .i32⟩
  | 106 => ⟨S64x1000, .i1⟩
  | 107 => ⟨S_, .i32⟩
  | 108 => ⟨S64, .i32⟩
  | 109 => ⟨S64, .i1⟩
  | 110 => ⟨S_, .i32⟩
  | 111 => ⟨S64, .i32⟩
  | 112 => ⟨S64, .i32⟩
  | 113 => ⟨S64, .i32⟩
  | 114 => ⟨S64x1, .i32⟩
  | 115 => ⟨S64x1000, .i1⟩
  | 116 => ⟨S64x1000, .i1⟩
  | 117 => ⟨S64x1000, .i1⟩
  | 118 => ⟨S_, .i32⟩
  | 119 => ⟨S64, .i32⟩
  | 120 => ⟨S64, .i1⟩
  | 121 => ⟨S_, .i32⟩
  | 122 => ⟨S64, .i32⟩
  | 123 => ⟨S64, .i32⟩
  | 124 => ⟨S64, .i32⟩
  | 125 => ⟨S64x1, .i32⟩
  | 126 => ⟨S64x1000, .i1⟩
  | 127 => ⟨S_, .i32⟩
  | _ => ⟨S64x160000, .f32⟩

abbrev hbmTy0_1 (i : Nat) : BufTy := match i % 128 with
  | 0 => ⟨S64, .i32⟩
  | 1 => ⟨S64, .i1⟩
  | 2 => ⟨S_, .i32⟩
  | 3 => ⟨S64, .i32⟩
  | 4 => ⟨S64, .i32⟩
  | 5 => ⟨S64, .i32⟩
  | 6 => ⟨S64x1, .i32⟩
  | 7 => ⟨S64x1000, .i1⟩
  | 8 => ⟨S64x1000, .i1⟩
  | 9 => ⟨S64x1000, .i1⟩
  | 10 => ⟨S_, .i32⟩
  | 11 => ⟨S64, .i32⟩
  | 12 => ⟨S64, .i1⟩
  | 13 => ⟨S_, .i32⟩
  | 14 => ⟨S64, .i32⟩
  | 15 => ⟨S64, .i32⟩
  | 16 => ⟨S64, .i32⟩
  | 17 => ⟨S64x1, .i32⟩
  | 18 => ⟨S64x1000, .i1⟩
  | 19 => ⟨S_, .i32⟩
  | 20 => ⟨S64, .i32⟩
  | 21 => ⟨S64, .i1⟩
  | 22 => ⟨S_, .i32⟩
  | 23 => ⟨S64, .i32⟩
  | 24 => ⟨S64, .i32⟩
  | 25 => ⟨S64, .i32⟩
  | 26 => ⟨S64x1, .i32⟩
  | 27 => ⟨S64x1000, .i1⟩
  | 28 => ⟨S64x1000, .i1⟩
  | 29 => ⟨S_, .i32⟩
  | 30 => ⟨S64, .i32⟩
  | 31 => ⟨S64, .i1⟩
  | 32 => ⟨S_, .i32⟩
  | 33 => ⟨S64, .i32⟩
  | 34 => ⟨S64, .i32⟩
  | 35 => ⟨S64, .i32⟩
  | 36 => ⟨S64x1, .i32⟩
  | 37 => ⟨S64x1000, .i1⟩
  | 38 => ⟨S_, .i32⟩
  | 39 => ⟨S64, .i32⟩
  | 40 => ⟨S64, .i1⟩
  | 41 => ⟨S_, .i32⟩
  | 42 => ⟨S64, .i32⟩
  | 43 => ⟨S64, .i32⟩
  | 44 => ⟨S64, .i32⟩
  | 45 => ⟨S64x1, .i32⟩
  | 46 => ⟨S64x1000, .i1⟩
  | 47 => ⟨S64x1000, .i1⟩
  | 48 => ⟨S_, .i1⟩
  | 49 => ⟨S64, .i1⟩
  | 50 => ⟨S64, .i1⟩
  | 51 => ⟨S_, .i1⟩
  | 52 => ⟨S64, .i1⟩
  | 53 => ⟨S64, .i1⟩
  | 54 => ⟨S_, .i1⟩
  | 55 => ⟨S64, .i1⟩
  | 56 => ⟨S64, .i1⟩
  | 57 => ⟨S64x1000, .f32⟩
  | 58 => ⟨S_, .f32⟩
  | 59 => ⟨S64x1000, .f32⟩
  | 60 => ⟨S64x1000, .f32⟩
  | 61 => ⟨S_, .f32⟩
  | 62 => ⟨S64x1000, .f32⟩
  | 63 => ⟨S64x1000, .f32⟩
  | 64 => ⟨S64x1000, .f32⟩
  | 65 => ⟨S64x1000, .i32⟩
  | 66 => ⟨S_, .i32⟩
  | 67 => ⟨S64, .i32⟩
  | 68 => ⟨S_, .i32⟩
  | 69 => ⟨S64, .i32⟩
  | 70 => ⟨S64, .i1⟩
  | 71 => ⟨S_, .f32⟩
  | 72 => ⟨S_, .f32⟩
  | 73 => ⟨S64x1000, .f32⟩
  | 74 => ⟨S64x1000, .f32⟩
  | 75 => ⟨S_, .f32⟩
  | 76 => ⟨S64, .f32⟩
  | 77 => ⟨S_, .i32⟩
  | 78 => ⟨S64, .i32⟩
  | 79 => ⟨S64, .i32⟩
  | 80 => ⟨S64, .f32⟩
  | 81 => ⟨S64, .f32⟩
  | 82 => ⟨S_, .f32⟩
  | 83 => ⟨S_, .f32⟩
  | 84 => ⟨S64, .f32⟩
  | 85 => ⟨S64, .f32⟩
  | 86 => ⟨S64x1000, .f32⟩
  | 87 => ⟨S_, .f32⟩
  | 88 => ⟨S64x1000, .f32⟩
  | 89 => ⟨S64x1000, .f32⟩
  | 90 => ⟨S_, .f32⟩
  | 91 => ⟨S64x1000, .f32⟩
  | 92 => ⟨S64x1000, .f32⟩
  | 93 => ⟨S64x1000, .f32⟩
  | 94 => ⟨S64x1000, .i32⟩
  | 95 => ⟨S_, .i32⟩
  | 96 => ⟨S64, .i32⟩
  | 97 => ⟨S_, .i32⟩
  | 98 => ⟨S64, .i32⟩
  | 99 => ⟨S64, .i1⟩
  | 100 => ⟨S_, .f32⟩
  | 101 => ⟨S_, .f32⟩
  | 102 => ⟨S64x1000, .f32⟩
  | 103 => ⟨S64x1000, .f32⟩
  | 104 => ⟨S_, .f32⟩
  | 105 => ⟨S64, .f32⟩
  | 106 => ⟨S_, .i32⟩
  | 107 => ⟨S64, .i32⟩
  | 108 => ⟨S64, .i32⟩
  | 109 => ⟨S64, .f32⟩
  | 110 => ⟨S64, .f32⟩
  | 111 => ⟨S_, .f32⟩
  | 112 => ⟨S_, .f32⟩
  | 113 => ⟨S64, .f32⟩
  | 114 => ⟨S64, .f32⟩
  | 115 => ⟨S64x1000, .f32⟩
  | 116 => ⟨S64x1000, .i32⟩
  | 117 => ⟨S_, .i32⟩
  | 118 => ⟨S64, .i32⟩
  | 119 => ⟨S_, .i32⟩
  | 120 => ⟨S64, .i32⟩
  | 121 => ⟨S64, .i1⟩
  | 122 => ⟨S_, .f32⟩
  | 123 => ⟨S_, .f32⟩
  | 124 => ⟨S64x1000, .f32⟩
  | 125 => ⟨S64x1000, .f32⟩
  | 126 => ⟨S_, .f32⟩
  | 127 => ⟨S64, .f32⟩
  | _ => ⟨S64x160000, .f32⟩

abbrev hbmTy0_2 (i : Nat) : BufTy := match i % 128 with
  | 0 => ⟨S_, .i32⟩
  | 1 => ⟨S64, .i32⟩
  | 2 => ⟨S64, .i32⟩
  | 3 => ⟨S64, .f32⟩
  | 4 => ⟨S64, .f32⟩
  | 5 => ⟨S_, .f32⟩
  | 6 => ⟨S_, .f32⟩
  | 7 => ⟨S64, .f32⟩
  | 8 => ⟨S64, .f32⟩
  | 9 => ⟨S1x64, .f32⟩
  | 10 => ⟨S1x64, .f32⟩
  | 11 => ⟨S1x64, .f32⟩
  | 12 => ⟨S3x64, .f32⟩
  | 13 => ⟨S1x64, .i1⟩
  | 14 => ⟨S1x64, .i1⟩
  | 15 => ⟨S1x64, .i1⟩
  | 16 => ⟨S3x64, .i1⟩
  | 17 => ⟨S3x64, .f32⟩
  | 18 => ⟨S_, .f32⟩
  | 19 => ⟨S_, .f32⟩
  | 20 => ⟨S_, .f32⟩
  | 21 => ⟨S_, .i1⟩
  | 22 => ⟨S3x64, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .i32⟩
  | 32 => ⟨S64, .i32⟩
  | 33 => ⟨S64, .i1⟩
  | 34 => ⟨S_, .i32⟩
  | 35 => ⟨S64, .i32⟩
  | 36 => ⟨S64, .i32⟩
  | 37 => ⟨S64, .i32⟩
  | 38 => ⟨S64x1, .i32⟩
  | 39 => ⟨S64x1000, .f32⟩
  | 40 => ⟨S_, .i32⟩
  | 41 => ⟨S64, .i32⟩
  | 42 => ⟨S64, .i1⟩
  | 43 => ⟨S_, .i32⟩
  | 44 => ⟨S64, .i32⟩
  | 45 => ⟨S64, .i32⟩
  | 46 => ⟨S64, .i32⟩
  | 47 => ⟨S64x1, .i32⟩
  | 48 => ⟨S64x1000, .f32⟩
  | 49 => ⟨S64x1000, .f32⟩
  | 50 => ⟨S_, .f32⟩
  | 51 => ⟨S64x1000, .f32⟩
  | 52 => ⟨S64x1000, .f32⟩
  | 53 => ⟨S64x1000, .f32⟩
  | 54 => ⟨S_, .f32⟩
  | 55 => ⟨S64x1000, .f32⟩
  | 56 => ⟨S64x1000, .i1⟩
  | 57 => ⟨S64x1000, .i1⟩
  | 58 => ⟨S_, .f32⟩
  | 59 => ⟨S64x1000, .f32⟩
  | 60 => ⟨S64x1000, .i1⟩
  | 61 => ⟨S64x1000, .i1⟩
  | 62 => ⟨S_, .i1⟩
  | 63 => ⟨S64, .i1⟩
  | 64 => ⟨S64, .i1⟩
  | 65 => ⟨S_, .i1⟩
  | 66 => ⟨S64, .i1⟩
  | 67 => ⟨S64, .i1⟩
  | 68 => ⟨S64x1000, .f32⟩
  | 69 => ⟨S_, .f32⟩
  | 70 => ⟨S64x1000, .f32⟩
  | 71 => ⟨S64x1000, .f32⟩
  | 72 => ⟨S_, .f32⟩
  | 73 => ⟨S64x1000, .f32⟩
  | 74 => ⟨S64x1000, .f32⟩
  | 75 => ⟨S64x1000, .f32⟩
  | 76 => ⟨S64x1000, .i32⟩
  | 77 => ⟨S_, .i32⟩
  | 78 => ⟨S64, .i32⟩
  | 79 => ⟨S_, .i32⟩
  | 80 => ⟨S64, .i32⟩
  | 81 => ⟨S64, .i1⟩
  | 82 => ⟨S_, .f32⟩
  | 83 => ⟨S_, .f32⟩
  | 84 => ⟨S64x1000, .f32⟩
  | 85 => ⟨S64x1000, .f32⟩
  | 86 => ⟨S_, .f32⟩
  | 87 => ⟨S64, .f32⟩
  | 88 => ⟨S_, .i32⟩
  | 89 => ⟨S64, .i32⟩
  | 90 => ⟨S64, .i32⟩
  | 91 => ⟨S64, .f32⟩
  | 92 => ⟨S64, .f32⟩
  | 93 => ⟨S_, .f32⟩
  | 94 => ⟨S_, .f32⟩
  | 95 => ⟨S64, .f32⟩
  | 96 => ⟨S64, .f32⟩
  | 97 => ⟨S64x1000, .f32⟩
  | 98 => ⟨S_, .f32⟩
  | 99 => ⟨S64x1000, .f32⟩
  | 100 => ⟨S64x1000, .f32⟩
  | 101 => ⟨S_, .f32⟩
  | 102 => ⟨S64x1000, .f32⟩
  | 103 => ⟨S64x1000, .f32⟩
  | 104 => ⟨S64x1000, .f32⟩
  | 105 => ⟨S64x1000, .i32⟩
  | 106 => ⟨S_, .i32⟩
  | 107 => ⟨S64, .i32⟩
  | 108 => ⟨S_, .i32⟩
  | 109 => ⟨S64, .i32⟩
  | 110 => ⟨S64, .i1⟩
  | 111 => ⟨S_, .f32⟩
  | 112 => ⟨S_, .f32⟩
  | 113 => ⟨S64x1000, .f32⟩
  | 114 => ⟨S64x1000, .f32⟩
  | 115 => ⟨S_, .f32⟩
  | 116 => ⟨S64, .f32⟩
  | 117 => ⟨S_, .i32⟩
  | 118 => ⟨S64, .i32⟩
  | 119 => ⟨S64, .i32⟩
  | 120 => ⟨S64, .f32⟩
  | 121 => ⟨S64, .f32⟩
  | 122 => ⟨S_, .f32⟩
  | 123 => ⟨S_, .f32⟩
  | 124 => ⟨S64, .f32⟩
  | 125 => ⟨S64, .f32⟩
  | 126 => ⟨S1x64, .f32⟩
  | 127 => ⟨S1x64, .f32⟩
  | _ => ⟨S64x160000, .f32⟩

abbrev hbmTy0_3 (i : Nat) : BufTy := match i % 128 with
  | 0 => ⟨S2x64, .f32⟩
  | 1 => ⟨S1x64, .i1⟩
  | 2 => ⟨S1x64, .i1⟩
  | 3 => ⟨S2x64, .i1⟩
  | 4 => ⟨S2x64, .f32⟩
  | 5 => ⟨S_, .f32⟩
  | 6 => ⟨S_, .f32⟩
  | 7 => ⟨S_, .f32⟩
  | 8 => ⟨S_, .i1⟩
  | 9 => ⟨S2x64, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S64x1000, .i32⟩
  | 19 => ⟨S_, .i32⟩
  | 20 => ⟨S64, .i32⟩
  | 21 => ⟨S_, .i32⟩
  | 22 => ⟨S64, .i32⟩
  | 23 => ⟨S64, .i1⟩
  | 24 => ⟨S_, .f32⟩
  | 25 => ⟨S_, .f32⟩
  | 26 => ⟨S64x1000, .f32⟩
  | 27 => ⟨S64x1000, .f32⟩
  | 28 => ⟨S_, .f32⟩
  | 29 => ⟨S64, .f32⟩
  | 30 => ⟨S_, .i32⟩
  | 31 => ⟨S64, .i32⟩
  | 32 => ⟨S64, .i32⟩
  | 33 => ⟨S64, .f32⟩
  | 34 => ⟨S64, .f32⟩
  | 35 => ⟨S_, .f32⟩
  | 36 => ⟨S_, .f32⟩
  | 37 => ⟨S64, .f32⟩
  | 38 => ⟨S64, .f32⟩
  | 39 => ⟨S64x1000, .i32⟩
  | 40 => ⟨S_, .i32⟩
  | 41 => ⟨S64, .i32⟩
  | 42 => ⟨S_, .i32⟩
  | 43 => ⟨S64, .i32⟩
  | 44 => ⟨S64, .i1⟩
  | 45 => ⟨S_, .f32⟩
  | 46 => ⟨S_, .f32⟩
  | 47 => ⟨S64x1000, .f32⟩
  | 48 => ⟨S64x1000, .f32⟩
  | 49 => ⟨S_, .f32⟩
  | 50 => ⟨S64, .f32⟩
  | 51 => ⟨S_, .i32⟩
  | 52 => ⟨S64, .i32⟩
  | 53 => ⟨S64, .i32⟩
  | 54 => ⟨S64, .f32⟩
  | 55 => ⟨S64, .f32⟩
  | 56 => ⟨S_, .f32⟩
  | 57 => ⟨S_, .f32⟩
  | 58 => ⟨S64, .f32⟩
  | 59 => ⟨S64, .f32⟩
  | 60 => ⟨S1x64, .f32⟩
  | 61 => ⟨S1x64, .f32⟩
  | 62 => ⟨S2x64, .f32⟩
  | 63 => ⟨S1x64, .i1⟩
  | 64 => ⟨S1x64, .i1⟩
  | 65 => ⟨S2x64, .i1⟩
  | 66 => ⟨S2x64, .f32⟩
  | 67 => ⟨S_, .f32⟩
  | 68 => ⟨S_, .f32⟩
  | 69 => ⟨S_, .f32⟩
  | 70 => ⟨S_, .i1⟩
  | 71 => ⟨S2x64, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S64x1000, .i32⟩
  | 81 => ⟨S_, .i32⟩
  | 82 => ⟨S64, .i32⟩
  | 83 => ⟨S_, .i32⟩
  | 84 => ⟨S64, .i32⟩
  | 85 => ⟨S64, .i1⟩
  | 86 => ⟨S_, .f32⟩
  | 87 => ⟨S_, .f32⟩
  | 88 => ⟨S64x1000, .f32⟩
  | 89 => ⟨S64x1000, .f32⟩
  | 90 => ⟨S_, .f32⟩
  | 91 => ⟨S64, .f32⟩
  | 92 => ⟨S_, .i32⟩
  | 93 => ⟨S64, .i32⟩
  | 94 => ⟨S64, .i32⟩
  | 95 => ⟨S64, .f32⟩
  | 96 => ⟨S64, .f32⟩
  | 97 => ⟨S_, .f32⟩
  | 98 => ⟨S_, .f32⟩
  | 99 => ⟨S64, .f32⟩
  | 100 => ⟨S64, .f32⟩
  | 101 => ⟨S64x1000, .i32⟩
  | 102 => ⟨S_, .i32⟩
  | 103 => ⟨S64, .i32⟩
  | 104 => ⟨S_, .i32⟩
  | 105 => ⟨S64, .i32⟩
  | 106 => ⟨S64, .i1⟩
  | 107 => ⟨S_, .f32⟩
  | 108 => ⟨S_, .f32⟩
  | 109 => ⟨S64x1000, .f32⟩
  | 110 => ⟨S64x1000, .f32⟩
  | 111 => ⟨S_, .f32⟩
  | 112 => ⟨S64, .f32⟩
  | 113 => ⟨S_, .i32⟩
  | 114 => ⟨S64, .i32⟩
  | 115 => ⟨S64, .i32⟩
  | 116 => ⟨S64, .f32⟩
  | 117 => ⟨S64, .f32⟩
  | 118 => ⟨S_, .f32⟩
  | 119 => ⟨S_, .f32⟩
  | 120 => ⟨S64, .f32⟩
  | 121 => ⟨S64, .f32⟩
  | 122 => ⟨S1x64, .f32⟩
  | 123 => ⟨S1x64, .f32⟩
  | 124 => ⟨S2x64, .f32⟩
  | 125 => ⟨S1x64, .i1⟩
  | 126 => ⟨S1x64, .i1⟩
  | 127 => ⟨S2x64, .i1⟩
  | _ => ⟨S64x160000, .f32⟩

abbrev hbmTy0_4 (i : Nat) : BufTy := match i % 128 with
  | 0 => ⟨S2x64, .f32⟩
  | 1 => ⟨S_, .f32⟩
  | 2 => ⟨S_, .f32⟩
  | 3 => ⟨S_, .f32⟩
  | 4 => ⟨S_, .i1⟩
  | 5 => ⟨S2x64, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S64x1000, .i32⟩
  | 15 => ⟨S_, .i32⟩
  | 16 => ⟨S64, .i32⟩
  | 17 => ⟨S_, .i32⟩
  | 18 => ⟨S64, .i32⟩
  | 19 => ⟨S64, .i1⟩
  | 20 => ⟨S_, .f32⟩
  | 21 => ⟨S_, .f32⟩
  | 22 => ⟨S64x1000, .f32⟩
  | 23 => ⟨S64x1000, .f32⟩
  | 24 => ⟨S_, .f32⟩
  | 25 => ⟨S64, .f32⟩
  | 26 => ⟨S_, .i32⟩
  | 27 => ⟨S64, .i32⟩
  | 28 => ⟨S64, .i32⟩
  | 29 => ⟨S64, .f32⟩
  | 30 => ⟨S64, .f32⟩
  | 31 => ⟨S_, .f32⟩
  | 32 => ⟨S_, .f32⟩
  | 33 => ⟨S64, .f32⟩
  | 34 => ⟨S64, .f32⟩
  | 35 => ⟨S64x1000, .i32⟩
  | 36 => ⟨S_, .i32⟩
  | 37 => ⟨S64, .i32⟩
  | 38 => ⟨S_, .i32⟩
  | 39 => ⟨S64, .i32⟩
  | 40 => ⟨S64, .i1⟩
  | 41 => ⟨S_, .f32⟩
  | 42 => ⟨S_, .f32⟩
  | 43 => ⟨S64x1000, .f32⟩
  | 44 => ⟨S64x1000, .f32⟩
  | 45 => ⟨S_, .f32⟩
  | 46 => ⟨S64, .f32⟩
  | 47 => ⟨S_, .i32⟩
  | 48 => ⟨S64, .i32⟩
  | 49 => ⟨S64, .i32⟩
  | 50 => ⟨S64, .f32⟩
  | 51 => ⟨S64, .f32⟩
  | 52 => ⟨S_, .f32⟩
  | 53 => ⟨S_, .f32⟩
  | 54 => ⟨S64, .f32⟩
  | 55 => ⟨S64, .f32⟩
  | 56 => ⟨S1x64, .f32⟩
  | 57 => ⟨S1x64, .f32⟩
  | 58 => ⟨S2x64, .f32⟩
  | 59 => ⟨S1x64, .i1⟩
  | 60 => ⟨S1x64, .i1⟩
  | 61 => ⟨S2x64, .i1⟩
  | 62 => ⟨S2x64, .f32⟩
  | 63 => ⟨S_, .f32⟩
  | 64 => ⟨S_, .f32⟩
  | 65 => ⟨S_, .f32⟩
  | 66 => ⟨S_, .i1⟩
  | 67 => ⟨S2x64, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S64x1000, .i32⟩
  | 77 => ⟨S_, .i32⟩
  | 78 => ⟨S64, .i32⟩
  | 79 => ⟨S_, .i32⟩
  | 80 => ⟨S64, .i32⟩
  | 81 => ⟨S64, .i1⟩
  | 82 => ⟨S_, .f32⟩
  | 83 => ⟨S_, .f32⟩
  | 84 => ⟨S64x1000, .f32⟩
  | 85 => ⟨S64x1000, .f32⟩
  | 86 => ⟨S_, .f32⟩
  | 87 => ⟨S64, .f32⟩
  | 88 => ⟨S_, .i32⟩
  | 89 => ⟨S64, .i32⟩
  | 90 => ⟨S64, .i32⟩
  | 91 => ⟨S64, .f32⟩
  | 92 => ⟨S64, .f32⟩
  | 93 => ⟨S_, .f32⟩
  | 94 => ⟨S_, .f32⟩
  | 95 => ⟨S64, .f32⟩
  | 96 => ⟨S64, .f32⟩
  | 97 => ⟨S64x1000, .i32⟩
  | 98 => ⟨S_, .i32⟩
  | 99 => ⟨S64, .i32⟩
  | 100 => ⟨S_, .i32⟩
  | 101 => ⟨S64, .i32⟩
  | 102 => ⟨S64, .i1⟩
  | 103 => ⟨S_, .f32⟩
  | 104 => ⟨S_, .f32⟩
  | 105 => ⟨S64x1000, .f32⟩
  | 106 => ⟨S64x1000, .f32⟩
  | 107 => ⟨S_, .f32⟩
  | 108 => ⟨S64, .f32⟩
  | 109 => ⟨S_, .i32⟩
  | 110 => ⟨S64, .i32⟩
  | 111 => ⟨S64, .i32⟩
  | 112 => ⟨S64, .f32⟩
  | 113 => ⟨S64, .f32⟩
  | 114 => ⟨S_, .f32⟩
  | 115 => ⟨S_, .f32⟩
  | 116 => ⟨S64, .f32⟩
  | 117 => ⟨S64, .f32⟩
  | 118 => ⟨S1x64, .f32⟩
  | 119 => ⟨S1x64, .f32⟩
  | 120 => ⟨S2x64, .f32⟩
  | 121 => ⟨S1x64, .i1⟩
  | 122 => ⟨S1x64, .i1⟩
  | 123 => ⟨S2x64, .i1⟩
  | 124 => ⟨S2x64, .f32⟩
  | 125 => ⟨S_, .f32⟩
  | 126 => ⟨S_, .f32⟩
  | 127 => ⟨S_, .f32⟩
  | _ => ⟨S64x160000, .f32⟩

abbrev hbmTy0_5 (i : Nat) : BufTy := match i % 128 with
  | 0 => ⟨S_, .i1⟩
  | 1 => ⟨S2x64, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1, .f32⟩
  | 13 => ⟨S1, .f32⟩
  | 14 => ⟨S1, .f32⟩
  | 15 => ⟨S1, .f32⟩
  | 16 => ⟨S1, .f32⟩
  | 17 => ⟨S1, .f32⟩
  | 18 => ⟨S1, .f32⟩
  | 19 => ⟨S1, .f32⟩
  | 20 => ⟨S1, .f32⟩
  | 21 => ⟨S1, .f32⟩
  | 22 => ⟨S10, .f32⟩
  | 23 => ⟨S64, .i32⟩
  | 24 => ⟨S_, .i32⟩
  | 25 => ⟨S_, .i32⟩
  | _ => ⟨S64x160000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S64x160000, .f32⟩

abbrev bufTy : (tb : Table) → Fin (tcTables nBuf tb) → BufTy
  | .hbm, ⟨i, _⟩ => hbmTy i
  | _, _ => ⟨S64x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_call0_v0 : Ref sig .tc := ⟨.hbm, 53, rfl⟩
abbrev main_call0_c : Ref sig .tc := ⟨.hbm, 54, rfl⟩
abbrev main_call0_c_0 : Ref sig .tc := ⟨.hbm, 55, rfl⟩
abbrev main_call0_v1_0 : Ref sig .tc := ⟨.hbm, 56, rfl⟩
abbrev main_v34 : Ref sig .tc := ⟨.hbm, 57, rfl⟩
abbrev main_call1_v0 : Ref sig .tc := ⟨.hbm, 58, rfl⟩
abbrev main_call1_c : Ref sig .tc := ⟨.hbm, 59, rfl⟩
abbrev main_call1_c_0 : Ref sig .tc := ⟨.hbm, 60, rfl⟩
abbrev main_call1_v1_0 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_10 : Ref sig .tc := ⟨.hbm, 72, rfl⟩
abbrev main_v43 : Ref sig .tc := ⟨.hbm, 73, rfl⟩
abbrev main_v44 : Ref sig .tc := ⟨.hbm, 74, rfl⟩
abbrev main_c_11 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_12 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_13 : Ref sig .tc := ⟨.hbm, 85, rfl⟩
abbrev main_v53 : Ref sig .tc := ⟨.hbm, 86, rfl⟩
abbrev main_v54 : Ref sig .tc := ⟨.hbm, 87, rfl⟩
abbrev main_c_14 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_15 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_16 : Ref sig .tc := ⟨.hbm, 98, rfl⟩
abbrev main_v63 : Ref sig .tc := ⟨.hbm, 99, rfl⟩
abbrev main_v64 : Ref sig .tc := ⟨.hbm, 100, rfl⟩
abbrev main_c_17 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_18 : Ref sig .tc := ⟨.hbm, 107, rfl⟩
abbrev main_v70 : Ref sig .tc := ⟨.hbm, 108, rfl⟩
abbrev main_v71 : Ref sig .tc := ⟨.hbm, 109, rfl⟩
abbrev main_c_19 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_20 : Ref sig .tc := ⟨.hbm, 118, rfl⟩
abbrev main_v79 : Ref sig .tc := ⟨.hbm, 119, rfl⟩
abbrev main_v80 : Ref sig .tc := ⟨.hbm, 120, rfl⟩
abbrev main_c_21 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c_22 : Ref sig .tc := ⟨.hbm, 127, rfl⟩
abbrev main_v86 : Ref sig .tc := ⟨.hbm, 128, rfl⟩
abbrev main_v87 : Ref sig .tc := ⟨.hbm, 129, rfl⟩
abbrev main_c_23 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_c_24 : Ref sig .tc := ⟨.hbm, 138, rfl⟩
abbrev main_v95 : Ref sig .tc := ⟨.hbm, 139, rfl⟩
abbrev main_v96 : Ref sig .tc := ⟨.hbm, 140, rfl⟩
abbrev main_c_25 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_c_26 : Ref sig .tc := ⟨.hbm, 147, rfl⟩
abbrev main_v102 : Ref sig .tc := ⟨.hbm, 148, rfl⟩
abbrev main_v103 : Ref sig .tc := ⟨.hbm, 149, rfl⟩
abbrev main_c_27 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_c_28 : Ref sig .tc := ⟨.hbm, 157, rfl⟩
abbrev main_v110 : Ref sig .tc := ⟨.hbm, 158, rfl⟩
abbrev main_v111 : Ref sig .tc := ⟨.hbm, 159, rfl⟩
abbrev main_c_29 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_c_30 : Ref sig .tc := ⟨.hbm, 166, rfl⟩
abbrev main_v117 : Ref sig .tc := ⟨.hbm, 167, rfl⟩
abbrev main_v118 : Ref sig .tc := ⟨.hbm, 168, rfl⟩
abbrev main_c_31 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_c_32 : Ref sig .tc := ⟨.hbm, 176, rfl⟩
abbrev main_v125 : Ref sig .tc := ⟨.hbm, 177, rfl⟩
abbrev main_v126 : Ref sig .tc := ⟨.hbm, 178, rfl⟩
abbrev main_c_33 : Ref sig .tc := ⟨.hbm, 179, rfl⟩
abbrev main_v127 : Ref sig .tc := ⟨.hbm, 180, rfl⟩
abbrev main_v128 : Ref sig .tc := ⟨.hbm, 181, rfl⟩
abbrev main_c_34 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_35 : Ref sig .tc := ⟨.hbm, 186, rfl⟩
abbrev main_v132 : Ref sig .tc := ⟨.hbm, 187, rfl⟩
abbrev main_v133 : Ref sig .tc := ⟨.hbm, 188, rfl⟩
abbrev main_call2_cst : Ref sig .tc := ⟨.hbm, 189, rfl⟩
abbrev main_call2_v0 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_c_36 : Ref sig .tc := ⟨.hbm, 194, rfl⟩
abbrev main_v137 : Ref sig .tc := ⟨.hbm, 195, rfl⟩
abbrev main_c_37 : Ref sig .tc := ⟨.hbm, 196, rfl⟩
abbrev main_v138 : Ref sig .tc := ⟨.hbm, 197, rfl⟩
abbrev main_v139 : Ref sig .tc := ⟨.hbm, 198, rfl⟩
abbrev main_cst_38 : Ref sig .tc := ⟨.hbm, 199, rfl⟩
abbrev main_call3_v0 : Ref sig .tc := ⟨.hbm, 200, rfl⟩
abbrev main_call3_v1 : Ref sig .tc := ⟨.hbm, 201, rfl⟩
abbrev main_v140 : Ref sig .tc := ⟨.hbm, 202, rfl⟩
abbrev main_cst_39 : Ref sig .tc := ⟨.hbm, 203, rfl⟩
abbrev main_v141 : Ref sig .tc := ⟨.hbm, 204, rfl⟩
abbrev main_c_40 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_cst_41 : Ref sig .tc := ⟨.hbm, 210, rfl⟩
abbrev main_call4_v0 : Ref sig .tc := ⟨.hbm, 211, rfl⟩
abbrev main_call4_v1 : Ref sig .tc := ⟨.hbm, 212, rfl⟩
abbrev main_v146 : Ref sig .tc := ⟨.hbm, 213, rfl⟩
abbrev main_v147 : Ref sig .tc := ⟨.hbm, 214, rfl⟩
abbrev main_cst_42 : Ref sig .tc := ⟨.hbm, 215, rfl⟩
abbrev main_v148 : Ref sig .tc := ⟨.hbm, 216, rfl⟩
abbrev main_v149 : Ref sig .tc := ⟨.hbm, 217, rfl⟩
abbrev main_call5_cst : Ref sig .tc := ⟨.hbm, 218, rfl⟩
abbrev main_call5_v0 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_c_43 : Ref sig .tc := ⟨.hbm, 223, rfl⟩
abbrev main_v153 : Ref sig .tc := ⟨.hbm, 224, rfl⟩
abbrev main_c_44 : Ref sig .tc := ⟨.hbm, 225, rfl⟩
abbrev main_v154 : Ref sig .tc := ⟨.hbm, 226, rfl⟩
abbrev main_v155 : Ref sig .tc := ⟨.hbm, 227, rfl⟩
abbrev main_cst_45 : Ref sig .tc := ⟨.hbm, 228, rfl⟩
abbrev main_call6_v0 : Ref sig .tc := ⟨.hbm, 229, rfl⟩
abbrev main_call6_v1 : Ref sig .tc := ⟨.hbm, 230, rfl⟩
abbrev main_v156 : Ref sig .tc := ⟨.hbm, 231, rfl⟩
abbrev main_cst_46 : Ref sig .tc := ⟨.hbm, 232, rfl⟩
abbrev main_v157 : Ref sig .tc := ⟨.hbm, 233, rfl⟩
abbrev main_c_47 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_cst_48 : Ref sig .tc := ⟨.hbm, 239, rfl⟩
abbrev main_call7_v0 : Ref sig .tc := ⟨.hbm, 240, rfl⟩
abbrev main_call7_v1 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_c_49 : Ref sig .tc := ⟨.hbm, 245, rfl⟩
abbrev main_v165 : Ref sig .tc := ⟨.hbm, 246, rfl⟩
abbrev main_c_50 : Ref sig .tc := ⟨.hbm, 247, rfl⟩
abbrev main_v166 : Ref sig .tc := ⟨.hbm, 248, rfl⟩
abbrev main_v167 : Ref sig .tc := ⟨.hbm, 249, rfl⟩
abbrev main_cst_51 : Ref sig .tc := ⟨.hbm, 250, rfl⟩
abbrev main_call8_v0 : Ref sig .tc := ⟨.hbm, 251, rfl⟩
abbrev main_call8_v1 : Ref sig .tc := ⟨.hbm, 252, rfl⟩
abbrev main_v168 : Ref sig .tc := ⟨.hbm, 253, rfl⟩
abbrev main_cst_52 : Ref sig .tc := ⟨.hbm, 254, rfl⟩
abbrev main_v169 : Ref sig .tc := ⟨.hbm, 255, rfl⟩
abbrev main_c_53 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_cst_54 : Ref sig .tc := ⟨.hbm, 261, rfl⟩
abbrev main_call9_v0 : Ref sig .tc := ⟨.hbm, 262, rfl⟩
abbrev main_call9_v1 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_cst_55 : Ref sig .tc := ⟨.hbm, 274, rfl⟩
abbrev main_v184 : Ref sig .tc := ⟨.hbm, 275, rfl⟩
abbrev main_cst_56 : Ref sig .tc := ⟨.hbm, 276, rfl⟩
abbrev main_v185 : Ref sig .tc := ⟨.hbm, 277, rfl⟩
abbrev main_v186 : Ref sig .tc := ⟨.hbm, 278, rfl⟩
abbrev main_cst_57 : Ref sig .tc := ⟨.hbm, 279, rfl⟩
abbrev main_v187 : Ref sig .tc := ⟨.hbm, 280, rfl⟩
abbrev main_cst_58 : Ref sig .tc := ⟨.hbm, 281, rfl⟩
abbrev main_v188 : Ref sig .tc := ⟨.hbm, 282, rfl⟩
abbrev main_v189 : Ref sig .tc := ⟨.hbm, 283, rfl⟩
abbrev main_cst_59 : Ref sig .tc := ⟨.hbm, 284, rfl⟩
abbrev main_call10_v0 : Ref sig .tc := ⟨.hbm, 285, rfl⟩
abbrev main_v190 : Ref sig .tc := ⟨.hbm, 286, rfl⟩
abbrev main_c_60 : Ref sig .tc := ⟨.hbm, 287, rfl⟩
abbrev main_v191 : Ref sig .tc := ⟨.hbm, 288, rfl⟩
abbrev main_v192 : Ref sig .tc := ⟨.hbm, 289, rfl⟩
abbrev main_c_61 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_c_62 : Ref sig .tc := ⟨.hbm, 296, rfl⟩
abbrev main_v198 : Ref sig .tc := ⟨.hbm, 297, rfl⟩
abbrev main_v199 : Ref sig .tc := ⟨.hbm, 298, rfl⟩
abbrev main_c_63 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_cst_64 : Ref sig .tc := ⟨.hbm, 306, rfl⟩
abbrev main_v206 : Ref sig .tc := ⟨.hbm, 307, rfl⟩
abbrev main_v207 : Ref sig .tc := ⟨.hbm, 308, rfl⟩
abbrev main_v208 : Ref sig .tc := ⟨.hbm, 309, rfl⟩
abbrev main_cst_65 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_cst_66 : Ref sig .tc := ⟨.hbm, 314, rfl⟩
abbrev main_v212 : Ref sig .tc := ⟨.hbm, 315, rfl⟩
abbrev main_v213 : Ref sig .tc := ⟨.hbm, 316, rfl⟩
abbrev main_v214 : Ref sig .tc := ⟨.hbm, 317, rfl⟩
abbrev main_c_67 : Ref sig .tc := ⟨.hbm, 318, rfl⟩
abbrev main_v215 : Ref sig .tc := ⟨.hbm, 319, rfl⟩
abbrev main_v216 : Ref sig .tc := ⟨.hbm, 320, rfl⟩
abbrev main_c_68 : Ref sig .tc := ⟨.hbm, 321, rfl⟩
abbrev main_v217 : Ref sig .tc := ⟨.hbm, 322, rfl⟩
abbrev main_v218 : Ref sig .tc := ⟨.hbm, 323, rfl⟩
abbrev main_v219 : Ref sig .tc := ⟨.hbm, 324, rfl⟩
abbrev main_cst_69 : Ref sig .tc := ⟨.hbm, 325, rfl⟩
abbrev main_v220 : Ref sig .tc := ⟨.hbm, 326, rfl⟩
abbrev main_v221 : Ref sig .tc := ⟨.hbm, 327, rfl⟩
abbrev main_call11_cst : Ref sig .tc := ⟨.hbm, 328, rfl⟩
abbrev main_call11_v0 : Ref sig .tc := ⟨.hbm, 329, rfl⟩
abbrev main_v222 : Ref sig .tc := ⟨.hbm, 330, rfl⟩
abbrev main_v223 : Ref sig .tc := ⟨.hbm, 331, rfl⟩
abbrev main_v224 : Ref sig .tc := ⟨.hbm, 332, rfl⟩
abbrev main_c_70 : Ref sig .tc := ⟨.hbm, 333, rfl⟩
abbrev main_v225 : Ref sig .tc := ⟨.hbm, 334, rfl⟩
abbrev main_c_71 : Ref sig .tc := ⟨.hbm, 335, rfl⟩
abbrev main_v226 : Ref sig .tc := ⟨.hbm, 336, rfl⟩
abbrev main_v227 : Ref sig .tc := ⟨.hbm, 337, rfl⟩
abbrev main_cst_72 : Ref sig .tc := ⟨.hbm, 338, rfl⟩
abbrev main_call12_v0 : Ref sig .tc := ⟨.hbm, 339, rfl⟩
abbrev main_call12_v1 : Ref sig .tc := ⟨.hbm, 340, rfl⟩
abbrev main_v228 : Ref sig .tc := ⟨.hbm, 341, rfl⟩
abbrev main_cst_73 : Ref sig .tc := ⟨.hbm, 342, rfl⟩
abbrev main_v229 : Ref sig .tc := ⟨.hbm, 343, rfl⟩
abbrev main_c_74 : Ref sig .tc := ⟨.hbm, 344, rfl⟩
abbrev main_v230 : Ref sig .tc := ⟨.hbm, 345, rfl⟩
abbrev main_v231 : Ref sig .tc := ⟨.hbm, 346, rfl⟩
abbrev main_v232 : Ref sig .tc := ⟨.hbm, 347, rfl⟩
abbrev main_v233 : Ref sig .tc := ⟨.hbm, 348, rfl⟩
abbrev main_cst_75 : Ref sig .tc := ⟨.hbm, 349, rfl⟩
abbrev main_call13_v0 : Ref sig .tc := ⟨.hbm, 350, rfl⟩
abbrev main_call13_v1 : Ref sig .tc := ⟨.hbm, 351, rfl⟩
abbrev main_v234 : Ref sig .tc := ⟨.hbm, 352, rfl⟩
abbrev main_v235 : Ref sig .tc := ⟨.hbm, 353, rfl⟩
abbrev main_cst_76 : Ref sig .tc := ⟨.hbm, 354, rfl⟩
abbrev main_v236 : Ref sig .tc := ⟨.hbm, 355, rfl⟩
abbrev main_v237 : Ref sig .tc := ⟨.hbm, 356, rfl⟩
abbrev main_call14_cst : Ref sig .tc := ⟨.hbm, 357, rfl⟩
abbrev main_call14_v0 : Ref sig .tc := ⟨.hbm, 358, rfl⟩
abbrev main_v238 : Ref sig .tc := ⟨.hbm, 359, rfl⟩
abbrev main_v239 : Ref sig .tc := ⟨.hbm, 360, rfl⟩
abbrev main_v240 : Ref sig .tc := ⟨.hbm, 361, rfl⟩
abbrev main_c_77 : Ref sig .tc := ⟨.hbm, 362, rfl⟩
abbrev main_v241 : Ref sig .tc := ⟨.hbm, 363, rfl⟩
abbrev main_c_78 : Ref sig .tc := ⟨.hbm, 364, rfl⟩
abbrev main_v242 : Ref sig .tc := ⟨.hbm, 365, rfl⟩
abbrev main_v243 : Ref sig .tc := ⟨.hbm, 366, rfl⟩
abbrev main_cst_79 : Ref sig .tc := ⟨.hbm, 367, rfl⟩
abbrev main_call15_v0 : Ref sig .tc := ⟨.hbm, 368, rfl⟩
abbrev main_call15_v1 : Ref sig .tc := ⟨.hbm, 369, rfl⟩
abbrev main_v244 : Ref sig .tc := ⟨.hbm, 370, rfl⟩
abbrev main_cst_80 : Ref sig .tc := ⟨.hbm, 371, rfl⟩
abbrev main_v245 : Ref sig .tc := ⟨.hbm, 372, rfl⟩
abbrev main_c_81 : Ref sig .tc := ⟨.hbm, 373, rfl⟩
abbrev main_v246 : Ref sig .tc := ⟨.hbm, 374, rfl⟩
abbrev main_v247 : Ref sig .tc := ⟨.hbm, 375, rfl⟩
abbrev main_v248 : Ref sig .tc := ⟨.hbm, 376, rfl⟩
abbrev main_v249 : Ref sig .tc := ⟨.hbm, 377, rfl⟩
abbrev main_cst_82 : Ref sig .tc := ⟨.hbm, 378, rfl⟩
abbrev main_call16_v0 : Ref sig .tc := ⟨.hbm, 379, rfl⟩
abbrev main_call16_v1 : Ref sig .tc := ⟨.hbm, 380, rfl⟩
abbrev main_v250 : Ref sig .tc := ⟨.hbm, 381, rfl⟩
abbrev main_v251 : Ref sig .tc := ⟨.hbm, 382, rfl⟩
abbrev main_v252 : Ref sig .tc := ⟨.hbm, 383, rfl⟩
abbrev main_v253 : Ref sig .tc := ⟨.hbm, 384, rfl⟩
abbrev main_v254 : Ref sig .tc := ⟨.hbm, 385, rfl⟩
abbrev main_v255 : Ref sig .tc := ⟨.hbm, 386, rfl⟩
abbrev main_v256 : Ref sig .tc := ⟨.hbm, 387, rfl⟩
abbrev main_v257 : Ref sig .tc := ⟨.hbm, 388, rfl⟩
abbrev main_cst_83 : Ref sig .tc := ⟨.hbm, 389, rfl⟩
abbrev main_v258 : Ref sig .tc := ⟨.hbm, 390, rfl⟩
abbrev main_cst_84 : Ref sig .tc := ⟨.hbm, 391, rfl⟩
abbrev main_v259 : Ref sig .tc := ⟨.hbm, 392, rfl⟩
abbrev main_v260 : Ref sig .tc := ⟨.hbm, 393, rfl⟩
abbrev main_cst_85 : Ref sig .tc := ⟨.hbm, 394, rfl⟩
abbrev main_v261 : Ref sig .tc := ⟨.hbm, 395, rfl⟩
abbrev main_cst_86 : Ref sig .tc := ⟨.hbm, 396, rfl⟩
abbrev main_v262 : Ref sig .tc := ⟨.hbm, 397, rfl⟩
abbrev main_v263 : Ref sig .tc := ⟨.hbm, 398, rfl⟩
abbrev main_cst_87 : Ref sig .tc := ⟨.hbm, 399, rfl⟩
abbrev main_call17_v0 : Ref sig .tc := ⟨.hbm, 400, rfl⟩
abbrev main_v264 : Ref sig .tc := ⟨.hbm, 401, rfl⟩
abbrev main_v265 : Ref sig .tc := ⟨.hbm, 402, rfl⟩
abbrev main_c_88 : Ref sig .tc := ⟨.hbm, 403, rfl⟩
abbrev main_v266 : Ref sig .tc := ⟨.hbm, 404, rfl⟩
abbrev main_c_89 : Ref sig .tc := ⟨.hbm, 405, rfl⟩
abbrev main_v267 : Ref sig .tc := ⟨.hbm, 406, rfl⟩
abbrev main_v268 : Ref sig .tc := ⟨.hbm, 407, rfl⟩
abbrev main_cst_90 : Ref sig .tc := ⟨.hbm, 408, rfl⟩
abbrev main_call18_v0 : Ref sig .tc := ⟨.hbm, 409, rfl⟩
abbrev main_call18_v1 : Ref sig .tc := ⟨.hbm, 410, rfl⟩
abbrev main_v269 : Ref sig .tc := ⟨.hbm, 411, rfl⟩
abbrev main_cst_91 : Ref sig .tc := ⟨.hbm, 412, rfl⟩
abbrev main_v270 : Ref sig .tc := ⟨.hbm, 413, rfl⟩
abbrev main_c_92 : Ref sig .tc := ⟨.hbm, 414, rfl⟩
abbrev main_v271 : Ref sig .tc := ⟨.hbm, 415, rfl⟩
abbrev main_v272 : Ref sig .tc := ⟨.hbm, 416, rfl⟩
abbrev main_v273 : Ref sig .tc := ⟨.hbm, 417, rfl⟩
abbrev main_v274 : Ref sig .tc := ⟨.hbm, 418, rfl⟩
abbrev main_cst_93 : Ref sig .tc := ⟨.hbm, 419, rfl⟩
abbrev main_call19_v0 : Ref sig .tc := ⟨.hbm, 420, rfl⟩
abbrev main_call19_v1 : Ref sig .tc := ⟨.hbm, 421, rfl⟩
abbrev main_v275 : Ref sig .tc := ⟨.hbm, 422, rfl⟩
abbrev main_v276 : Ref sig .tc := ⟨.hbm, 423, rfl⟩
abbrev main_c_94 : Ref sig .tc := ⟨.hbm, 424, rfl⟩
abbrev main_v277 : Ref sig .tc := ⟨.hbm, 425, rfl⟩
abbrev main_c_95 : Ref sig .tc := ⟨.hbm, 426, rfl⟩
abbrev main_v278 : Ref sig .tc := ⟨.hbm, 427, rfl⟩
abbrev main_v279 : Ref sig .tc := ⟨.hbm, 428, rfl⟩
abbrev main_cst_96 : Ref sig .tc := ⟨.hbm, 429, rfl⟩
abbrev main_call20_v0 : Ref sig .tc := ⟨.hbm, 430, rfl⟩
abbrev main_call20_v1 : Ref sig .tc := ⟨.hbm, 431, rfl⟩
abbrev main_v280 : Ref sig .tc := ⟨.hbm, 432, rfl⟩
abbrev main_cst_97 : Ref sig .tc := ⟨.hbm, 433, rfl⟩
abbrev main_v281 : Ref sig .tc := ⟨.hbm, 434, rfl⟩
abbrev main_c_98 : Ref sig .tc := ⟨.hbm, 435, rfl⟩
abbrev main_v282 : Ref sig .tc := ⟨.hbm, 436, rfl⟩
abbrev main_v283 : Ref sig .tc := ⟨.hbm, 437, rfl⟩
abbrev main_v284 : Ref sig .tc := ⟨.hbm, 438, rfl⟩
abbrev main_v285 : Ref sig .tc := ⟨.hbm, 439, rfl⟩
abbrev main_cst_99 : Ref sig .tc := ⟨.hbm, 440, rfl⟩
abbrev main_call21_v0 : Ref sig .tc := ⟨.hbm, 441, rfl⟩
abbrev main_call21_v1 : Ref sig .tc := ⟨.hbm, 442, rfl⟩
abbrev main_v286 : Ref sig .tc := ⟨.hbm, 443, rfl⟩
abbrev main_v287 : Ref sig .tc := ⟨.hbm, 444, rfl⟩
abbrev main_v288 : Ref sig .tc := ⟨.hbm, 445, rfl⟩
abbrev main_v289 : Ref sig .tc := ⟨.hbm, 446, rfl⟩
abbrev main_v290 : Ref sig .tc := ⟨.hbm, 447, rfl⟩
abbrev main_v291 : Ref sig .tc := ⟨.hbm, 448, rfl⟩
abbrev main_v292 : Ref sig .tc := ⟨.hbm, 449, rfl⟩
abbrev main_v293 : Ref sig .tc := ⟨.hbm, 450, rfl⟩
abbrev main_cst_100 : Ref sig .tc := ⟨.hbm, 451, rfl⟩
abbrev main_v294 : Ref sig .tc := ⟨.hbm, 452, rfl⟩
abbrev main_cst_101 : Ref sig .tc := ⟨.hbm, 453, rfl⟩
abbrev main_v295 : Ref sig .tc := ⟨.hbm, 454, rfl⟩
abbrev main_v296 : Ref sig .tc := ⟨.hbm, 455, rfl⟩
abbrev main_cst_102 : Ref sig .tc := ⟨.hbm, 456, rfl⟩
abbrev main_v297 : Ref sig .tc := ⟨.hbm, 457, rfl⟩
abbrev main_cst_103 : Ref sig .tc := ⟨.hbm, 458, rfl⟩
abbrev main_v298 : Ref sig .tc := ⟨.hbm, 459, rfl⟩
abbrev main_v299 : Ref sig .tc := ⟨.hbm, 460, rfl⟩
abbrev main_cst_104 : Ref sig .tc := ⟨.hbm, 461, rfl⟩
abbrev main_call22_v0 : Ref sig .tc := ⟨.hbm, 462, rfl⟩
abbrev main_v300 : Ref sig .tc := ⟨.hbm, 463, rfl⟩
abbrev main_v301 : Ref sig .tc := ⟨.hbm, 464, rfl⟩
abbrev main_c_105 : Ref sig .tc := ⟨.hbm, 465, rfl⟩
abbrev main_v302 : Ref sig .tc := ⟨.hbm, 466, rfl⟩
abbrev main_c_106 : Ref sig .tc := ⟨.hbm, 467, rfl⟩
abbrev main_v303 : Ref sig .tc := ⟨.hbm, 468, rfl⟩
abbrev main_v304 : Ref sig .tc := ⟨.hbm, 469, rfl⟩
abbrev main_cst_107 : Ref sig .tc := ⟨.hbm, 470, rfl⟩
abbrev main_call23_v0 : Ref sig .tc := ⟨.hbm, 471, rfl⟩
abbrev main_call23_v1 : Ref sig .tc := ⟨.hbm, 472, rfl⟩
abbrev main_v305 : Ref sig .tc := ⟨.hbm, 473, rfl⟩
abbrev main_cst_108 : Ref sig .tc := ⟨.hbm, 474, rfl⟩
abbrev main_v306 : Ref sig .tc := ⟨.hbm, 475, rfl⟩
abbrev main_c_109 : Ref sig .tc := ⟨.hbm, 476, rfl⟩
abbrev main_v307 : Ref sig .tc := ⟨.hbm, 477, rfl⟩
abbrev main_v308 : Ref sig .tc := ⟨.hbm, 478, rfl⟩
abbrev main_v309 : Ref sig .tc := ⟨.hbm, 479, rfl⟩
abbrev main_v310 : Ref sig .tc := ⟨.hbm, 480, rfl⟩
abbrev main_cst_110 : Ref sig .tc := ⟨.hbm, 481, rfl⟩
abbrev main_call24_v0 : Ref sig .tc := ⟨.hbm, 482, rfl⟩
abbrev main_call24_v1 : Ref sig .tc := ⟨.hbm, 483, rfl⟩
abbrev main_v311 : Ref sig .tc := ⟨.hbm, 484, rfl⟩
abbrev main_v312 : Ref sig .tc := ⟨.hbm, 485, rfl⟩
abbrev main_c_111 : Ref sig .tc := ⟨.hbm, 486, rfl⟩
abbrev main_v313 : Ref sig .tc := ⟨.hbm, 487, rfl⟩
abbrev main_c_112 : Ref sig .tc := ⟨.hbm, 488, rfl⟩
abbrev main_v314 : Ref sig .tc := ⟨.hbm, 489, rfl⟩
abbrev main_v315 : Ref sig .tc := ⟨.hbm, 490, rfl⟩
abbrev main_cst_113 : Ref sig .tc := ⟨.hbm, 491, rfl⟩
abbrev main_call25_v0 : Ref sig .tc := ⟨.hbm, 492, rfl⟩
abbrev main_call25_v1 : Ref sig .tc := ⟨.hbm, 493, rfl⟩
abbrev main_v316 : Ref sig .tc := ⟨.hbm, 494, rfl⟩
abbrev main_cst_114 : Ref sig .tc := ⟨.hbm, 495, rfl⟩
abbrev main_v317 : Ref sig .tc := ⟨.hbm, 496, rfl⟩
abbrev main_c_115 : Ref sig .tc := ⟨.hbm, 497, rfl⟩
abbrev main_v318 : Ref sig .tc := ⟨.hbm, 498, rfl⟩
abbrev main_v319 : Ref sig .tc := ⟨.hbm, 499, rfl⟩
abbrev main_v320 : Ref sig .tc := ⟨.hbm, 500, rfl⟩
abbrev main_v321 : Ref sig .tc := ⟨.hbm, 501, rfl⟩
abbrev main_cst_116 : Ref sig .tc := ⟨.hbm, 502, rfl⟩
abbrev main_call26_v0 : Ref sig .tc := ⟨.hbm, 503, rfl⟩
abbrev main_call26_v1 : Ref sig .tc := ⟨.hbm, 504, rfl⟩
abbrev main_v322 : Ref sig .tc := ⟨.hbm, 505, rfl⟩
abbrev main_v323 : Ref sig .tc := ⟨.hbm, 506, rfl⟩
abbrev main_v324 : Ref sig .tc := ⟨.hbm, 507, rfl⟩
abbrev main_v325 : Ref sig .tc := ⟨.hbm, 508, rfl⟩
abbrev main_v326 : Ref sig .tc := ⟨.hbm, 509, rfl⟩
abbrev main_v327 : Ref sig .tc := ⟨.hbm, 510, rfl⟩
abbrev main_v328 : Ref sig .tc := ⟨.hbm, 511, rfl⟩
abbrev main_v329 : Ref sig .tc := ⟨.hbm, 512, rfl⟩
abbrev main_cst_117 : Ref sig .tc := ⟨.hbm, 513, rfl⟩
abbrev main_v330 : Ref sig .tc := ⟨.hbm, 514, rfl⟩
abbrev main_cst_118 : Ref sig .tc := ⟨.hbm, 515, rfl⟩
abbrev main_v331 : Ref sig .tc := ⟨.hbm, 516, rfl⟩
abbrev main_v332 : Ref sig .tc := ⟨.hbm, 517, rfl⟩
abbrev main_cst_119 : Ref sig .tc := ⟨.hbm, 518, rfl⟩
abbrev main_v333 : Ref sig .tc := ⟨.hbm, 519, rfl⟩
abbrev main_cst_120 : Ref sig .tc := ⟨.hbm, 520, rfl⟩
abbrev main_v334 : Ref sig .tc := ⟨.hbm, 521, rfl⟩
abbrev main_v335 : Ref sig .tc := ⟨.hbm, 522, rfl⟩
abbrev main_cst_121 : Ref sig .tc := ⟨.hbm, 523, rfl⟩
abbrev main_call27_v0 : Ref sig .tc := ⟨.hbm, 524, rfl⟩
abbrev main_v336 : Ref sig .tc := ⟨.hbm, 525, rfl⟩
abbrev main_v337 : Ref sig .tc := ⟨.hbm, 526, rfl⟩
abbrev main_c_122 : Ref sig .tc := ⟨.hbm, 527, rfl⟩
abbrev main_v338 : Ref sig .tc := ⟨.hbm, 528, rfl⟩
abbrev main_c_123 : Ref sig .tc := ⟨.hbm, 529, rfl⟩
abbrev main_v339 : Ref sig .tc := ⟨.hbm, 530, rfl⟩
abbrev main_v340 : Ref sig .tc := ⟨.hbm, 531, rfl⟩
abbrev main_cst_124 : Ref sig .tc := ⟨.hbm, 532, rfl⟩
abbrev main_call28_v0 : Ref sig .tc := ⟨.hbm, 533, rfl⟩
abbrev main_call28_v1 : Ref sig .tc := ⟨.hbm, 534, rfl⟩
abbrev main_v341 : Ref sig .tc := ⟨.hbm, 535, rfl⟩
abbrev main_cst_125 : Ref sig .tc := ⟨.hbm, 536, rfl⟩
abbrev main_v342 : Ref sig .tc := ⟨.hbm, 537, rfl⟩
abbrev main_c_126 : Ref sig .tc := ⟨.hbm, 538, rfl⟩
abbrev main_v343 : Ref sig .tc := ⟨.hbm, 539, rfl⟩
abbrev main_v344 : Ref sig .tc := ⟨.hbm, 540, rfl⟩
abbrev main_v345 : Ref sig .tc := ⟨.hbm, 541, rfl⟩
abbrev main_v346 : Ref sig .tc := ⟨.hbm, 542, rfl⟩
abbrev main_cst_127 : Ref sig .tc := ⟨.hbm, 543, rfl⟩
abbrev main_call29_v0 : Ref sig .tc := ⟨.hbm, 544, rfl⟩
abbrev main_call29_v1 : Ref sig .tc := ⟨.hbm, 545, rfl⟩
abbrev main_v347 : Ref sig .tc := ⟨.hbm, 546, rfl⟩
abbrev main_v348 : Ref sig .tc := ⟨.hbm, 547, rfl⟩
abbrev main_c_128 : Ref sig .tc := ⟨.hbm, 548, rfl⟩
abbrev main_v349 : Ref sig .tc := ⟨.hbm, 549, rfl⟩
abbrev main_c_129 : Ref sig .tc := ⟨.hbm, 550, rfl⟩
abbrev main_v350 : Ref sig .tc := ⟨.hbm, 551, rfl⟩
abbrev main_v351 : Ref sig .tc := ⟨.hbm, 552, rfl⟩
abbrev main_cst_130 : Ref sig .tc := ⟨.hbm, 553, rfl⟩
abbrev main_call30_v0 : Ref sig .tc := ⟨.hbm, 554, rfl⟩
abbrev main_call30_v1 : Ref sig .tc := ⟨.hbm, 555, rfl⟩
abbrev main_v352 : Ref sig .tc := ⟨.hbm, 556, rfl⟩
abbrev main_cst_131 : Ref sig .tc := ⟨.hbm, 557, rfl⟩
abbrev main_v353 : Ref sig .tc := ⟨.hbm, 558, rfl⟩
abbrev main_c_132 : Ref sig .tc := ⟨.hbm, 559, rfl⟩
abbrev main_v354 : Ref sig .tc := ⟨.hbm, 560, rfl⟩
abbrev main_v355 : Ref sig .tc := ⟨.hbm, 561, rfl⟩
abbrev main_v356 : Ref sig .tc := ⟨.hbm, 562, rfl⟩
abbrev main_v357 : Ref sig .tc := ⟨.hbm, 563, rfl⟩
abbrev main_cst_133 : Ref sig .tc := ⟨.hbm, 564, rfl⟩
abbrev main_call31_v0 : Ref sig .tc := ⟨.hbm, 565, rfl⟩
abbrev main_call31_v1 : Ref sig .tc := ⟨.hbm, 566, rfl⟩
abbrev main_v358 : Ref sig .tc := ⟨.hbm, 567, rfl⟩
abbrev main_v359 : Ref sig .tc := ⟨.hbm, 568, rfl⟩
abbrev main_v360 : Ref sig .tc := ⟨.hbm, 569, rfl⟩
abbrev main_v361 : Ref sig .tc := ⟨.hbm, 570, rfl⟩
abbrev main_v362 : Ref sig .tc := ⟨.hbm, 571, rfl⟩
abbrev main_v363 : Ref sig .tc := ⟨.hbm, 572, rfl⟩
abbrev main_v364 : Ref sig .tc := ⟨.hbm, 573, rfl⟩
abbrev main_v365 : Ref sig .tc := ⟨.hbm, 574, rfl⟩
abbrev main_cst_134 : Ref sig .tc := ⟨.hbm, 575, rfl⟩
abbrev main_v366 : Ref sig .tc := ⟨.hbm, 576, rfl⟩
abbrev main_cst_135 : Ref sig .tc := ⟨.hbm, 577, rfl⟩
abbrev main_v367 : Ref sig .tc := ⟨.hbm, 578, rfl⟩
abbrev main_v368 : Ref sig .tc := ⟨.hbm, 579, rfl⟩
abbrev main_cst_136 : Ref sig .tc := ⟨.hbm, 580, rfl⟩
abbrev main_v369 : Ref sig .tc := ⟨.hbm, 581, rfl⟩
abbrev main_cst_137 : Ref sig .tc := ⟨.hbm, 582, rfl⟩
abbrev main_v370 : Ref sig .tc := ⟨.hbm, 583, rfl⟩
abbrev main_v371 : Ref sig .tc := ⟨.hbm, 584, rfl⟩
abbrev main_cst_138 : Ref sig .tc := ⟨.hbm, 585, rfl⟩
abbrev main_call32_v0 : Ref sig .tc := ⟨.hbm, 586, rfl⟩
abbrev main_v372 : Ref sig .tc := ⟨.hbm, 587, rfl⟩
abbrev main_v373 : Ref sig .tc := ⟨.hbm, 588, rfl⟩
abbrev main_c_139 : Ref sig .tc := ⟨.hbm, 589, rfl⟩
abbrev main_v374 : Ref sig .tc := ⟨.hbm, 590, rfl⟩
abbrev main_c_140 : Ref sig .tc := ⟨.hbm, 591, rfl⟩
abbrev main_v375 : Ref sig .tc := ⟨.hbm, 592, rfl⟩
abbrev main_v376 : Ref sig .tc := ⟨.hbm, 593, rfl⟩
abbrev main_cst_141 : Ref sig .tc := ⟨.hbm, 594, rfl⟩
abbrev main_call33_v0 : Ref sig .tc := ⟨.hbm, 595, rfl⟩
abbrev main_call33_v1 : Ref sig .tc := ⟨.hbm, 596, rfl⟩
abbrev main_v377 : Ref sig .tc := ⟨.hbm, 597, rfl⟩
abbrev main_cst_142 : Ref sig .tc := ⟨.hbm, 598, rfl⟩
abbrev main_v378 : Ref sig .tc := ⟨.hbm, 599, rfl⟩
abbrev main_c_143 : Ref sig .tc := ⟨.hbm, 600, rfl⟩
abbrev main_v379 : Ref sig .tc := ⟨.hbm, 601, rfl⟩
abbrev main_v380 : Ref sig .tc := ⟨.hbm, 602, rfl⟩
abbrev main_v381 : Ref sig .tc := ⟨.hbm, 603, rfl⟩
abbrev main_v382 : Ref sig .tc := ⟨.hbm, 604, rfl⟩
abbrev main_cst_144 : Ref sig .tc := ⟨.hbm, 605, rfl⟩
abbrev main_call34_v0 : Ref sig .tc := ⟨.hbm, 606, rfl⟩
abbrev main_call34_v1 : Ref sig .tc := ⟨.hbm, 607, rfl⟩
abbrev main_v383 : Ref sig .tc := ⟨.hbm, 608, rfl⟩
abbrev main_v384 : Ref sig .tc := ⟨.hbm, 609, rfl⟩
abbrev main_c_145 : Ref sig .tc := ⟨.hbm, 610, rfl⟩
abbrev main_v385 : Ref sig .tc := ⟨.hbm, 611, rfl⟩
abbrev main_c_146 : Ref sig .tc := ⟨.hbm, 612, rfl⟩
abbrev main_v386 : Ref sig .tc := ⟨.hbm, 613, rfl⟩
abbrev main_v387 : Ref sig .tc := ⟨.hbm, 614, rfl⟩
abbrev main_cst_147 : Ref sig .tc := ⟨.hbm, 615, rfl⟩
abbrev main_call35_v0 : Ref sig .tc := ⟨.hbm, 616, rfl⟩
abbrev main_call35_v1 : Ref sig .tc := ⟨.hbm, 617, rfl⟩
abbrev main_v388 : Ref sig .tc := ⟨.hbm, 618, rfl⟩
abbrev main_cst_148 : Ref sig .tc := ⟨.hbm, 619, rfl⟩
abbrev main_v389 : Ref sig .tc := ⟨.hbm, 620, rfl⟩
abbrev main_c_149 : Ref sig .tc := ⟨.hbm, 621, rfl⟩
abbrev main_v390 : Ref sig .tc := ⟨.hbm, 622, rfl⟩
abbrev main_v391 : Ref sig .tc := ⟨.hbm, 623, rfl⟩
abbrev main_v392 : Ref sig .tc := ⟨.hbm, 624, rfl⟩
abbrev main_v393 : Ref sig .tc := ⟨.hbm, 625, rfl⟩
abbrev main_cst_150 : Ref sig .tc := ⟨.hbm, 626, rfl⟩
abbrev main_call36_v0 : Ref sig .tc := ⟨.hbm, 627, rfl⟩
abbrev main_call36_v1 : Ref sig .tc := ⟨.hbm, 628, rfl⟩
abbrev main_v394 : Ref sig .tc := ⟨.hbm, 629, rfl⟩
abbrev main_v395 : Ref sig .tc := ⟨.hbm, 630, rfl⟩
abbrev main_v396 : Ref sig .tc := ⟨.hbm, 631, rfl⟩
abbrev main_v397 : Ref sig .tc := ⟨.hbm, 632, rfl⟩
abbrev main_v398 : Ref sig .tc := ⟨.hbm, 633, rfl⟩
abbrev main_v399 : Ref sig .tc := ⟨.hbm, 634, rfl⟩
abbrev main_v400 : Ref sig .tc := ⟨.hbm, 635, rfl⟩
abbrev main_v401 : Ref sig .tc := ⟨.hbm, 636, rfl⟩
abbrev main_cst_151 : Ref sig .tc := ⟨.hbm, 637, rfl⟩
abbrev main_v402 : Ref sig .tc := ⟨.hbm, 638, rfl⟩
abbrev main_cst_152 : Ref sig .tc := ⟨.hbm, 639, rfl⟩
abbrev main_v403 : Ref sig .tc := ⟨.hbm, 640, rfl⟩
abbrev main_v404 : Ref sig .tc := ⟨.hbm, 641, rfl⟩
abbrev main_cst_153 : Ref sig .tc := ⟨.hbm, 642, rfl⟩
abbrev main_v405 : Ref sig .tc := ⟨.hbm, 643, rfl⟩
abbrev main_cst_154 : Ref sig .tc := ⟨.hbm, 644, rfl⟩
abbrev main_v406 : Ref sig .tc := ⟨.hbm, 645, rfl⟩
abbrev main_v407 : Ref sig .tc := ⟨.hbm, 646, rfl⟩
abbrev main_cst_155 : Ref sig .tc := ⟨.hbm, 647, rfl⟩
abbrev main_call37_v0 : Ref sig .tc := ⟨.hbm, 648, rfl⟩
abbrev main_v408 : Ref sig .tc := ⟨.hbm, 649, rfl⟩
abbrev main_v409 : Ref sig .tc := ⟨.hbm, 650, rfl⟩
abbrev main_v410 : Ref sig .tc := ⟨.hbm, 651, rfl⟩
abbrev main_v411 : Ref sig .tc := ⟨.hbm, 652, rfl⟩
abbrev main_v412 : Ref sig .tc := ⟨.hbm, 653, rfl⟩
abbrev main_v413 : Ref sig .tc := ⟨.hbm, 654, rfl⟩
abbrev main_v414 : Ref sig .tc := ⟨.hbm, 655, rfl⟩
abbrev main_v415 : Ref sig .tc := ⟨.hbm, 656, rfl⟩
abbrev main_v416 : Ref sig .tc := ⟨.hbm, 657, rfl⟩
abbrev main_v417 : Ref sig .tc := ⟨.hbm, 658, rfl⟩
abbrev main_v418 : Ref sig .tc := ⟨.hbm, 659, rfl⟩
abbrev main_v419 : Ref sig .tc := ⟨.hbm, 660, rfl⟩
abbrev main_v420 : Ref sig .tc := ⟨.hbm, 661, rfl⟩
abbrev main_v421 : Ref sig .tc := ⟨.hbm, 662, rfl⟩
abbrev main_v422 : Ref sig .tc := ⟨.hbm, 663, rfl⟩
abbrev main_c_156 : Ref sig .tc := ⟨.hbm, 664, rfl⟩
abbrev main_v423 : Ref sig .tc := ⟨.hbm, 665, rfl⟩

abbrev nD : Nat := 1
abbrev τ : Topo := Topo.v7x

variable {F : FTy → Type} [FloatOps F]

class Facts₀ : Prop where
  shapeCasts_S64x160000_S64x1000x160 : S64x160000.ShapeCasts S64x1000x160
  reducesTo_S64x1000x160_S64x1000_d2 : S64x1000x160.ReducesTo [2] S64x1000
  h_S_ : 0 < S_.numel
  bcast_S_S64x1000 : S_.BroadcastsInDim S64x1000 (![] : Fin 0 → Fin S64x1000.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64 : S_.BroadcastsInDim S64 (![] : Fin 0 → Fin S64.rank)
  reducesTo_S64x64_S64_d1 : S64x64.ReducesTo [1] S64
  reducesTo_S64x1000_S64_d1 : S64x1000.ReducesTo [1] S64
  natLt_1_32 : 1 < 32
  concatenates_S1x64_S1x64_S1x64_S3x64_d0 : Shape.Concatenates [S1x64, S1x64, S1x64] S3x64 0
  reducesTo_S3x64_S_d0_1 : S3x64.ReducesTo [0, 1] S_
  concatenates_S1x64_S1x64_S2x64_d0 : Shape.Concatenates [S1x64, S1x64] S2x64 0
  reducesTo_S2x64_S_d0_1 : S2x64.ReducesTo [0, 1] S_
  bcast_S_S1 : S_.BroadcastsInDim S1 (![] : Fin 0 → Fin S1.rank)
  concatenates_S1_S1_S1_S1_S1_S1_S1_S1_S1_S1_S10_d0 : Shape.Concatenates [S1, S1, S1, S1, S1, S1, S1, S1, S1, S1] S10 0
  reducesTo_S64_S_d0 : S64.ReducesTo [0] S_
  gather_S64x1000_S64x1_S64x1000_1_0_n_n_0_1_11000_wf : GatherDims.WF S64x1000 S64x1 S64x1000 [1] [0] [] [0] [] 1 ![1, 1000]

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S64x1000_S64x1_S64x1000_1_0_n_n_0_1_11000 : GatherDims S64x1000 S64x1 S64x1000 where
  offsetDims := [1]
  collapsedSliceDims := [0]
  operandBatchingDims := []
  startIndicesBatchingDims := []
  startIndexMap := [0]
  indexVectorDim := 1
  sliceSizes := ![1, 1000]
  wf := gather_S64x1000_S64x1_S64x1000_1_0_n_n_0_1_11000_wf

class Facts : Prop extends Facts₀ where

variable [Facts]
-- ==== Proof.KFrameTail.lean ====
/- The host operations that follow the region of `Kernel`'s @main, 636 of them in 76 stretches: what they touch,
   that they allocate nothing, and which references none of them writes. Every later operation is a builder
   writing exactly one reference — its own result value — and that reference is never one of the six arrays the
   region's windows stage, nor one of the nine argument arrays. The facts are stated once per operation as
   `Spare`, proved stretch by stretch, and read back for any member of any stretch. -/
import proofs.«169849_j71803263254994_1_alg».proof.Proof.Gen.Kernel.Launch

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

/-- The stretches of host operations after the region, in program order. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60, hostOps1_61, hostOps1_62, hostOps1_63, hostOps1_64, hostOps1_65, hostOps1_66, hostOps1_67, hostOps1_68, hostOps1_69, hostOps1_70, hostOps1_71, hostOps1_72, hostOps1_73, hostOps1_74, hostOps1_75]

/-- The references the later operations must leave as they find them: the three input arrays and the three
    output arrays of the region's windows, then the nine argument arrays. -/
def Prot : List (Ref sig .tc) :=
  [main_v0, main_v1, main_v2, main_v3_0, main_v3_1, main_v3_2,
   main_arg0, main_arg1, main_arg2, main_arg3, main_arg4, main_arg5, main_arg6, main_arg7, main_arg8]

/-- An operation that writes exactly one reference `y`, with `y` outside `Prot`, and allocates nothing.
    Which reference is which is decided over references; the written SET is a singleton by unfolding the builder. -/
def Spare (op : HloOp τ sig (Elt F)) : Prop :=
  ∃ y : Ref sig .tc, op.writes = {Proc.devRef .tc y} ∧ y ∉ Prot ∧ op.fresh = ∅

/-- A spared operation writes no protected reference: its one written reference differs from each of them. -/
theorem Spare.not_writes {op : HloOp τ sig (Elt F)} (h : Spare op) {r : Ref sig .tc} (hr : r ∈ Prot) :
    Proc.devRef (τ := τ) .tc r ∉ op.writes := by
  obtain ⟨y, hw, hy, -⟩ := h
  rw [hw, Finset.mem_singleton]
  exact StableHlo.devRef_ne_of_ne fun e => hy (e ▸ hr)

theorem Spare.fresh_eq {op : HloOp τ sig (Elt F)} (h : Spare op) : op.fresh = ∅ := h.choose_spec.2.2

/-- One stretch: split the conjunction over its operations; each is a builder whose written set unfolds to the
    singleton of its result, and the result is compared with the fifteen protected references. -/
local macro "spare_stretch" : tactic =>
  `(tactic| (simp only [List.Forall]; (repeat' apply And.intro); (all_goals exact ⟨_, rfl, by decide, rfl⟩)))

theorem spare1 : (hostOps1 : List (HloOp τ sig (Elt F))).Forall Spare := by spare_stretch
theorem spare1_1 : (hostOps1_1 : List (HloOp τ sig (Elt F))).Forall Spare := by spare_stretch
theorem spare1_2 : (hostOps1_2 : List (HloOp τ sig (Elt F))).Forall Spare := by spare_stretch
set_option maxHeartbeats 4000000 in
theorem spare1_3 : (hostOps1_3 : List (HloOp τ sig (Elt F))).Forall Spare := by spare_stretch
theorem spare1_4 : (hostOps1_4 : List (HloOp τ sig (Elt F))).Forall Spare := by spare_stretch
theorem spare1_5 : (hostOps1_5 : List (HloOp τ sig (Elt F))).Forall Spare := by spare_stretch
theorem spare1_6 : (hostOps1_6 : List (HloOp τ sig (Elt F))).Forall Spare := by spare_stretch
theorem spare1_7 : (hostOps1_7 : List (HloOp τ sig (Elt F))).Forall Spare := by spare_stretch
theorem spare1_8 : (hostOps1_8 : List (HloOp τ sig (Elt F))).Forall Spare := by spare_stretch
theorem spare1_9 : (hostOps1_9 : List (HloOp τ sig (Elt F))).Forall Spare := by spare_stretch
theorem spare1_10 : (hostOps1_10 : List (HloOp τ sig (Elt F))).Forall Spare := by spare_stretch
theorem spare1_11 : (hostOps1_11 : List (HloOp τ sig (Elt F))).Forall Spare := by spare_stretch
theorem spare1_12 : (hostOps1_12 : List (HloOp τ sig (Elt F))).Forall Spare := by spare_stretch
theorem spare1_13 : (hostOps1_13 : List (HloOp τ sig (Elt F))).Forall Spare := by spare_stretch
theorem spare1_14 : (hostOps1_14 : List (HloOp τ sig (Elt F))).Forall Spare := by spare_stretch
theorem spare1_15 : (hostOps1_15 : List (HloOp τ sig (Elt F))).Forall Spare := by spare_stretch
theorem spare1_16 : (hostOps1_16 : List (HloOp τ sig (Elt F))).Forall Spare := by spare_stretch
theorem spare1_17 : (hostOps1_17 : List (HloOp τ sig (Elt F))).Forall Spare := by spare_stretch
theorem spare1_18 : (hostOps1_18 : List (HloOp τ sig (Elt F))).Forall Spare := by spare_stretch
theorem spare1_19 : (hostOps1_19 : List (HloOp τ sig (Elt F))).Forall Spare := by spare_stretch
theorem spare1_20 : (hostOps1_20 : List (HloOp τ sig (Elt F))).Forall Spare := by spare_stretch
theorem spare1_21 : (hostOps1_21 : List (HloOp τ sig (Elt F))).Forall Spare := by spare_stretch
theorem spare1_22 : (hostOps1_22 : List (HloOp τ sig (Elt F))).Forall Spare := by spare_stretch
theorem spare1_23 : (hostOps1_23 : List (HloOp τ sig (Elt F))).Forall Spare := by spare_stretch
theorem spare1_24 : (hostOps1_24 : List (HloOp τ sig (Elt F))).Forall Spare := by spare_stretch
theorem spare1_25 : (hostOps1_25 : List (HloOp τ sig (Elt F))).Forall Spare := by spare_stretch
theorem spare1_26 : (hostOps1_26 : List (HloOp τ sig (Elt F))).Forall Spare := by spare_stretch
theorem spare1_27 : (hostOps1_27 : List (HloOp τ sig (Elt F))).Forall Spare := by spare_stretch
theorem spare1_28 : (hostOps1_28 : List (HloOp τ sig (Elt F))).Forall Spare := by spare_stretch
theorem spare1_29 : (hostOps1_29 : List (HloOp τ sig (Elt F))).Forall Spare := by spare_stretch
theorem spare1_30 : (hostOps1_30 : List (HloOp τ sig (Elt F))).Forall Spare := by spare_stretch
theorem spare1_31 : (hostOps1_31 : List (HloOp τ sig (Elt F))).Forall Spare := by spare_stretch
theorem spare1_32 : (hostOps1_32 : List (HloOp τ sig (Elt F))).Forall Spare := by spare_stretch
theorem spare1_33 : (hostOps1_33 : List (HloOp τ sig (Elt F))).Forall Spare := by spare_stretch
theorem spare1_34 : (hostOps1_34 : List (HloOp τ sig (Elt F))).Forall Spare := by spare_stretch
theorem spare1_35 : (hostOps1_35 : List (HloOp τ sig (Elt F))).Forall Spare := by spare_stretch
theorem spare1_36 : (hostOps1_36 : List (HloOp τ sig (Elt F))).Forall Spare := by spare_stretch
theorem spare1_37 : (hostOps1_37 : List (HloOp τ sig (Elt F))).Forall Spare := by spare_stretch
theorem spare1_38 : (hostOps1_38 : List (HloOp τ sig (Elt F))).Forall Spare := by spare_stretch
theorem spare1_39 : (hostOps1_39 : List (HloOp τ sig (Elt F))).Forall Spare := by spare_stretch
theorem spare1_40 : (hostOps1_40 : List (HloOp τ sig (Elt F))).Forall Spare := by spare_stretch
theorem spare1_41 : (hostOps1_41 : List (HloOp τ sig (Elt F))).Forall Spare := by spare_stretch
theorem spare1_42 : (hostOps1_42 : List (HloOp τ sig (Elt F))).Forall Spare := by spare_stretch
theorem spare1_43 : (hostOps1_43 : List (HloOp τ sig (Elt F))).Forall Spare := by spare_stretch
theorem spare1_44 : (hostOps1_44 : List (HloOp τ sig (Elt F))).Forall Spare := by spare_stretch
theorem spare1_45 : (hostOps1_45 : List (HloOp τ sig (Elt F))).Forall Spare := by spare_stretch
theorem spare1_46 : (hostOps1_46 : List (HloOp τ sig (Elt F))).Forall Spare := by spare_stretch
theorem spare1_47 : (hostOps1_47 : List (HloOp τ sig (Elt F))).Forall Spare := by spare_stretch
theorem spare1_48 : (hostOps1_48 : List (HloOp τ sig (Elt F))).Forall Spare := by spare_stretch
theorem spare1_49 : (hostOps1_49 : List (HloOp τ sig (Elt F))).Forall Spare := by spare_stretch
theorem spare1_50 : (hostOps1_50 : List (HloOp τ sig (Elt F))).Forall Spare := by spare_stretch
theorem spare1_51 : (hostOps1_51 : List (HloOp τ sig (Elt F))).Forall Spare := by spare_stretch
theorem spare1_52 : (hostOps1_52 : List (HloOp τ sig (Elt F))).Forall Spare := by spare_stretch
theorem spare1_53 : (hostOps1_53 : List (HloOp τ sig (Elt F))).Forall Spare := by spare_stretch
theorem spare1_54 : (hostOps1_54 : List (HloOp τ sig (Elt F))).Forall Spare := by spare_stretch
theorem spare1_55 : (hostOps1_55 : List (HloOp τ sig (Elt F))).Forall Spare := by spare_stretch
theorem spare1_56 : (hostOps1_56 : List (HloOp τ sig (Elt F))).Forall Spare := by spare_stretch
theorem spare1_57 : (hostOps1_57 : List (HloOp τ sig (Elt F))).Forall Spare := by spare_stretch
theorem spare1_58 : (hostOps1_58 : List (HloOp τ sig (Elt F))).Forall Spare := by spare_stretch
theorem spare1_59 : (hostOps1_59 : List (HloOp τ sig (Elt F))).Forall Spare := by spare_stretch
theorem spare1_60 : (hostOps1_60 : List (HloOp τ sig (Elt F))).Forall Spare := by spare_stretch
theorem spare1_61 : (hostOps1_61 : List (HloOp τ sig (Elt F))).Forall Spare := by spare_stretch
theorem spare1_62 : (hostOps1_62 : List (HloOp τ sig (Elt F))).Forall Spare := by spare_stretch
theorem spare1_63 : (hostOps1_63 : List (HloOp τ sig (Elt F))).Forall Spare := by spare_stretch
theorem spare1_64 : (hostOps1_64 : List (HloOp τ sig (Elt F))).Forall Spare := by spare_stretch
theorem spare1_65 : (hostOps1_65 : List (HloOp τ sig (Elt F))).Forall Spare := by spare_stretch
theorem spare1_66 : (hostOps1_66 : List (HloOp τ sig (Elt F))).Forall Spare := by spare_stretch
theorem spare1_67 : (hostOps1_67 : List (HloOp τ sig (Elt F))).Forall Spare := by spare_stretch
theorem spare1_68 : (hostOps1_68 : List (HloOp τ sig (Elt F))).Forall Spare := by spare_stretch
theorem spare1_69 : (hostOps1_69 : List (HloOp τ sig (Elt F))).Forall Spare := by spare_stretch
theorem spare1_70 : (hostOps1_70 : List (HloOp τ sig (Elt F))).Forall Spare := by spare_stretch
theorem spare1_71 : (hostOps1_71 : List (HloOp τ sig (Elt F))).Forall Spare := by spare_stretch
theorem spare1_72 : (hostOps1_72 : List (HloOp τ sig (Elt F))).Forall Spare := by spare_stretch
theorem spare1_73 : (hostOps1_73 : List (HloOp τ sig (Elt F))).Forall Spare := by spare_stretch
theorem spare1_74 : (hostOps1_74 : List (HloOp τ sig (Elt F))).Forall Spare := by spare_stretch
theorem spare1_75 : (hostOps1_75 : List (HloOp τ sig (Elt F))).Forall Spare := by spare_stretch

/-- Every operation of every later stretch is spared. -/
theorem tail_spare : (tailOpss : List (List (HloOp τ sig (Elt F)))).Forall fun ops => ops.Forall Spare :=
  ⟨spare1, spare1_1, spare1_2, spare1_3, spare1_4, spare1_5, spare1_6, spare1_7, spare1_8, spare1_9, spare1_10, spare1_11, spare1_12, spare1_13, spare1_14, spare1_15, spare1_16, spare1_17, spare1_18, spare1_19, spare1_20, spare1_21, spare1_22, spare1_23, spare1_24, spare1_25, spare1_26, spare1_27, spare1_28, spare1_29, spare1_30, spare1_31, spare1_32, spare1_33, spare1_34, spare1_35, spare1_36, spare1_37, spare1_38, spare1_39, spare1_40, spare1_41, spare1_42, spare1_43, spare1_44, spare1_45, spare1_46, spare1_47, spare1_48, spare1_49, spare1_50, spare1_51, spare1_52, spare1_53, spare1_54, spare1_55, spare1_56, spare1_57, spare1_58, spare1_59, spare1_60, spare1_61, spare1_62, spare1_63, spare1_64, spare1_65, spare1_66, spare1_67, spare1_68, spare1_69, spare1_70, spare1_71, spare1_72, spare1_73, spare1_74, spare1_75⟩

/-- Every operation of every later stretch touches TensorCore references only (the generated per-stretch facts, collected). -/
theorem tail_tc : (tailOpss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub, hostOps1_31_sub, hostOps1_32_sub, hostOps1_33_sub, hostOps1_34_sub, hostOps1_35_sub, hostOps1_36_sub, hostOps1_37_sub, hostOps1_38_sub, hostOps1_39_sub, hostOps1_40_sub, hostOps1_41_sub, hostOps1_42_sub, hostOps1_43_sub, hostOps1_44_sub, hostOps1_45_sub, hostOps1_46_sub, hostOps1_47_sub, hostOps1_48_sub, hostOps1_49_sub, hostOps1_50_sub, hostOps1_51_sub, hostOps1_52_sub, hostOps1_53_sub, hostOps1_54_sub, hostOps1_55_sub, hostOps1_56_sub, hostOps1_57_sub, hostOps1_58_sub, hostOps1_59_sub, hostOps1_60_sub, hostOps1_61_sub, hostOps1_62_sub, hostOps1_63_sub, hostOps1_64_sub, hostOps1_65_sub, hostOps1_66_sub, hostOps1_67_sub, hostOps1_68_sub, hostOps1_69_sub, hostOps1_70_sub, hostOps1_71_sub, hostOps1_72_sub, hostOps1_73_sub, hostOps1_74_sub, hostOps1_75_sub⟩

theorem tail_mem_spare {ops : List (HloOp τ sig (Elt F))} (hops : ops ∈ (tailOpss : List (List (HloOp τ sig (Elt F)))))
    {op : HloOp τ sig (Elt F)} (hop : op ∈ ops) : Spare op :=
  List.forall_iff_forall_mem.mp (List.forall_iff_forall_mem.mp tail_spare ops hops) op hop

theorem tail_mem_tc {ops : List (HloOp τ sig (Elt F))} (hops : ops ∈ (tailOpss : List (List (HloOp τ sig (Elt F)))))
    {op : HloOp τ sig (Elt F)} (hop : op ∈ ops) : op.bufs ⊆ StableHlo.tcRefs τ sig :=
  List.forall_iff_forall_mem.mp (List.forall_iff_forall_mem.mp tail_tc ops hops) op hop

/-- A protected reference holds after all the later operations what it held before them. -/
theorem after_tail_of_prot (V : Valuation τ sig (Elt F)) {r : Ref sig .tc} (hr : r ∈ Prot) :
    StableHlo.after (tailOpss : List (List (HloOp τ sig (Elt F)))).flatten V (Proc.devRef .tc r) = V (Proc.devRef .tc r) :=
  StableHlo.after_of_forall_not_mem _ V fun op hop => by
    obtain ⟨ops, hops, hop'⟩ := List.mem_flatten.mp hop
    exact (tail_mem_spare hops hop').not_writes hr

end Cert.Kernel.Hand

end
-- ==== Proof.KFrame.lean ====
/- The frame run of `Kernel`'s @main: three reshapes, one region on a grid of eight points with three input windows
   and three output windows, then 636 host operations. The region's body loads each input block whole, loads each
   output buffer (the value is not used), and stores into each output buffer whole the mean over the last axis of the
   squared input block. Hence each output buffer ends at a value that depends on the matching input block only, each
   input buffer is left as found, and — the later operations writing neither a window's array nor an argument (KIFrameTail) —
   @main terminates with every argument array as launched. -/
import proofs.«169849_j71803263254994_1_alg».proof.Proof.Gen.Kernel.Launch
import proofs.«169849_j71803263254994_1_alg».proof.Proof.Gen.Kernel.Skeleton
import proofs.«169849_j71803263254994_1_alg».proof.Proof.Gen.Kernel.Points
import proofs.«169849_j71803263254994_1_alg».proof.Proof.KFrameTail
import Idealize.ShloMosaic.Lib.Pipeline.FrameBody
import Idealize.ShloMosaic.Lib.Pipeline.FrameSuffix
import Idealize.ShloMosaic.Lib.Ring
import Idealize.ShloMosaic.Lib.Tactic

-- membership of an index in a rectangle with an axis of a thousand coordinates recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s TensorCore buffers hold when the region is entered: the launch contents after the three reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The reshapes allocate nothing. -/
theorem hostOps0_fresh : (hostOps0 : List (HloOp τ sig (Elt F))).Forall fun op => op.fresh = ∅ := by
  simp only [List.Forall]; repeat' constructor

/-- Each reshape writes its own result, one of `main_v0`, `main_v1`, `main_v2`. -/
theorem hostOps0_writes : (List.flatten [hostOps0] : List (HloOp τ sig (Elt F))).Forall fun op =>
    op.writes ⊆ (([main_v0, main_v1, main_v2] : List (Ref sig .tc)).map (Proc.devRef (τ := τ) .tc)).toFinset := by
  simp only [hostOps0, List.flatten_cons, List.flatten_nil, List.append_nil, List.cons_append, List.nil_append, List.Forall,
    StableHlo.reshape_writes, List.map_cons, List.map_nil, List.toFinset_cons, List.toFinset_nil, Finset.singleton_subset_iff,
    Finset.mem_insert, Finset.mem_singleton, true_or, or_true, and_self]

/-- @main is the reshapes, the region, then the later stretches: it reduces to the region continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss : List (List (HloOp τ sig (Elt F)))).map StableHlo.seq)) :=
  Pipeline.hmain_around cfgs 0 defs₀ 𝒱₀ m main [hostOps0] tailOpss (by simp only [List.Forall]; exact hostOps0_sub)
    (by simp only [List.Forall]; exact hostOps0_fresh) main_chain

/-- The later operations touch the windows' arrays and the bypassing buffers only: each touches unscoped TensorCore
    references, and with nothing prefetched every such reference is one or the other. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_mem_tc hops hop)
/-- They allocate nothing. -/
theorem sfx_fresh : ∀ ops ∈ (tailOpss : List (List (HloOp τ sig (Elt F)))), ∀ op ∈ ops, op.fresh = ∅ :=
  fun ops hops op hop => (tail_mem_spare hops hop).fresh_eq
/-- Every window's array is a protected reference, -/
theorem arrRef_mem_Prot : ∀ w, Pipeline.arrRef spec0 w ∈ Prot := by decide
/-- so no later operation writes one. -/
theorem sfx_keeps : ∀ ops ∈ (tailOpss : List (List (HloOp τ sig (Elt F)))), ∀ op ∈ ops,
    ∀ w, Proc.devRef .tc (Pipeline.arrRef spec0 w) ∉ op.writes :=
  fun ops hops op hop w => (tail_mem_spare hops hop).not_writes (arrRef_mem_Prot w)

/-- No reshape writes an argument array: the region finds each as launched. -/
theorem V_of_not_reshaped (c : Dev nD) {r : Ref sig .tc} (hr : r ∉ ([main_v0, main_v1, main_v2] : List (Ref sig .tc))) :
    V m c r = m ((c : Thread nD τ).loc r) :=
  StableHlo.after_of_writes_sub _ _ hostOps0_writes hr

/-- An argument array after the later operations, for any proof data: no later operation writes it, it is no window's
    array, and no reshape wrote it. -/
theorem W_of_arg (dats : (p : Fin _) → (c : Dev nD) → Dat τ (Elt F) Unit ℕ (UR sig nD τ) ℕ (cfgs p) c) (c : Dev nD)
    {r : Ref sig .tc} (hp : r ∈ Prot) (ha : ∀ w, Pipeline.arrRef spec0 w ≠ r)
    (hr : r ∉ ([main_v0, main_v1, main_v2] : List (Ref sig .tc))) :
    Pipeline.afterTail₀ cfgs dats 0 (V0 m) tailOpss c r = m ((c : Thread nD τ).loc r) := by
  unfold Pipeline.afterTail₀
  rw [after_tail_of_prot _ hp, Pipeline.withArrays_of_ne _ c (V0 m c) _ r ha]
  exact V_of_not_reshaped m c hr

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place. The windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole input block and the whole output block, as the rectangles the body loads and stores through. -/
abbrev rIn : Rect S8x1000x160 := Rect.unit (s := S8x1000x160) ![0, 0, 0] S8x1000x160.size inb_S8x1000x160_S8x1000x160_0_0_0
abbrev rOut : Rect S8x1000 := Rect.unit (s := S8x1000) ![0, 0] S8x1000.size inb_S8x1000_S8x1000_0_0

/-! ## What the body leaves in each output window's buffer -/

/-- Window 3's staging buffer after the body: one whole-block store of the per-row mean square of input block 0. -/
def out0_3 (x : Vec F S8x1000x160 .f32) : Vec F S8x1000 .f32 :=
  View.canon [⟨rOut, k0_pay1 (View.ld x rIn)⟩]
/-- Window 4's, of input block 1. -/
def out0_4 (x : Vec F S8x1000x160 .f32) : Vec F S8x1000 .f32 :=
  View.canon [⟨rOut, k0_pay2 (View.ld x rIn)⟩]
/-- Window 5's, of input block 2. -/
def out0_5 (x : Vec F S8x1000x160 .f32) : Vec F S8x1000 .f32 :=
  View.canon [⟨rOut, k0_pay3 (View.ld x rIn)⟩]

/-- The one store is of the whole block, so it covers the buffer. -/
theorem cover_out (p0 : Vec F S8x1000 .f32) (y : S8x1000.Idx) :
    ∃ pc ∈ ([⟨rOut, p0⟩] : List (View.Piece (Elt F) S8x1000 .f32)), y ∈ pc.1.set :=
  View.cover_of_tiled [⟨rOut, p0⟩] S8x1000.size (by rfl) y

/-! ## The body's triple -/

set_option maxHeartbeats 4000000 in
/-- The body on whole staging memrefs — the inputs' at read contents `x0 x1 x2`, the outputs' at any contents — runs to
    the continuation with the inputs' as they were and each output's at `out0_W` of its input: three loads, then per
    output a load of the buffer as found (whatever it holds) and a store covering it. -/
theorem sound_kernel (c : Dev nD) (E : Set ℕ) (i : grid0.Coords)
    (arg1 : Memref sig .tc .vmem S8x1000x160 .f32) (harg1 : arg1.IsWhole) (arg2 : Memref sig .tc .vmem S8x1000x160 .f32) (harg2 : arg2.IsWhole)
    (arg3 : Memref sig .tc .vmem S8x1000x160 .f32) (harg3 : arg3.IsWhole) (arg4 : Memref sig .tc .vmem S8x1000 .f32) (harg4 : arg4.IsWhole)
    (arg5 : Memref sig .tc .vmem S8x1000 .f32) (harg5 : arg5.IsWhole) (arg6 : Memref sig .tc .vmem S8x1000 .f32) (harg6 : arg6.IsWhole)
    (x0 x1 x2 : Vec F S8x1000x160 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0) ∗ owns (c : Thread nD τ) arg5 fullShare (out0_4 x1)
            ∗ owns (c : Thread nD τ) arg6 fullShare (out0_5 x2)) -∗ K ⟨⟩))
      ⊢ wp frame (wpE (defs₀ (F := F)) Variants.none c none) E
          (cc0__frame_energy_kernel i arg1 harg1 arg2 harg2 arg3 harg3 arg4 harg4 arg5 harg5 arg6 harg6) K := by
  simp only [cc0__frame_energy_kernel_eq_skeleton]; unfold cc0__frame_energy_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_out _)
  isplitl [H4]
  · iexists _; isplitr
    swap; · iexact H4
    ipureintro
    exact View.read_writes_eq_canon _ _ _ (cover_out _)
  iexists _; isplitr
  swap; · iexact H5
  ipureintro
  exact View.read_writes_eq_canon _ _ _ (cover_out _)

/-! ## The pipeline's proof data -/

/-- The proof data of the one pipeline on core `c`: the arrays as the region finds them; after the body at point `t`
    each input's buffer at its block and each output's at `out0_W` of the matching input block; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t)
    | ⟨4, _⟩ => out0_4 (iblk m c 1 t)
    | ⟨5, _⟩ => out0_5 (iblk m c 2 t)
  Φ _ := Pipeline.ΦA spec0 c
  q _ := fullShare
  owed _ := 0

/-- The proof data's arrays are the region-entry contents (the definition projected; the fold over the reshapes is not unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) := by dsimp only [dats]
theorem after0_4 (c : Dev nD) (t : Fin cfg0.N) : (dats m 0 c).after 4 t = out0_4 (iblk m c 1 t) := by dsimp only [dats]
theorem after0_5 (c : Dev nD) (t : Fin cfg0.N) : (dats m 0 c).after 5 t = out0_5 (iblk m c 2 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, the outputs' hold something, so the triple applies;
    the invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which unfolds plain
-- definitions inside a metavariable's type
set_option backward.isDefEq.respectTransparency.types false in
/-- At the compiled mesh, for any values, from any memory with zero counters: every weakly fair execution of @main on
    the TensorCores terminates, and in every final state each window's array holds what the proof data's write-backs
    leave and every other unscoped buffer what the later operations leave of the region-entry contents. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- No later operation writes an argument array, none is a window's array, no reshape wrote one: each ends as launched. -/
theorem W_main_arg0 (c : Dev nD) : Pipeline.afterTail₀ cfgs (dats m) 0 (V0 m) tailOpss c main_arg0 = m ((c : Thread nD τ).loc main_arg0) :=
  W_of_arg m (dats m) c (by decide) (by decide) (by decide)
theorem W_main_arg1 (c : Dev nD) : Pipeline.afterTail₀ cfgs (dats m) 0 (V0 m) tailOpss c main_arg1 = m ((c : Thread nD τ).loc main_arg1) :=
  W_of_arg m (dats m) c (by decide) (by decide) (by decide)
theorem W_main_arg2 (c : Dev nD) : Pipeline.afterTail₀ cfgs (dats m) 0 (V0 m) tailOpss c main_arg2 = m ((c : Thread nD τ).loc main_arg2) :=
  W_of_arg m (dats m) c (by decide) (by decide) (by decide)
theorem W_main_arg3 (c : Dev nD) : Pipeline.afterTail₀ cfgs (dats m) 0 (V0 m) tailOpss c main_arg3 = m ((c : Thread nD τ).loc main_arg3) :=
  W_of_arg m (dats m) c (by decide) (by decide) (by decide)
theorem W_main_arg4 (c : Dev nD) : Pipeline.afterTail₀ cfgs (dats m) 0 (V0 m) tailOpss c main_arg4 = m ((c : Thread nD τ).loc main_arg4) :=
  W_of_arg m (dats m) c (by decide) (by decide) (by decide)
theorem W_main_arg5 (c : Dev nD) : Pipeline.afterTail₀ cfgs (dats m) 0 (V0 m) tailOpss c main_arg5 = m ((c : Thread nD τ).loc main_arg5) :=
  W_of_arg m (dats m) c (by decide) (by decide) (by decide)
theorem W_main_arg6 (c : Dev nD) : Pipeline.afterTail₀ cfgs (dats m) 0 (V0 m) tailOpss c main_arg6 = m ((c : Thread nD τ).loc main_arg6) :=
  W_of_arg m (dats m) c (by decide) (by decide) (by decide)
theorem W_main_arg7 (c : Dev nD) : Pipeline.afterTail₀ cfgs (dats m) 0 (V0 m) tailOpss c main_arg7 = m ((c : Thread nD τ).loc main_arg7) :=
  W_of_arg m (dats m) c (by decide) (by decide) (by decide)
theorem W_main_arg8 (c : Dev nD) : Pipeline.afterTail₀ cfgs (dats m) 0 (V0 m) tailOpss c main_arg8 = m ((c : Thread nD τ).loc main_arg8) :=
  W_of_arg m (dats m) c (by decide) (by decide) (by decide)

/-- The frame: the final state's second clause read at each argument array — an unscoped buffer no window stages —, then `W_main_argK`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(((h c).2 main_arg0 (Pipeline.mem_restRefs_of main_arg0 (by decide) (by decide))).trans (W_main_arg0 m c)),
      (((h c).2 main_arg1 (Pipeline.mem_restRefs_of main_arg1 (by decide) (by decide))).trans (W_main_arg1 m c)),
      (((h c).2 main_arg2 (Pipeline.mem_restRefs_of main_arg2 (by decide) (by decide))).trans (W_main_arg2 m c)),
      (((h c).2 main_arg3 (Pipeline.mem_restRefs_of main_arg3 (by decide) (by decide))).trans (W_main_arg3 m c)),
      (((h c).2 main_arg4 (Pipeline.mem_restRefs_of main_arg4 (by decide) (by decide))).trans (W_main_arg4 m c)),
      (((h c).2 main_arg5 (Pipeline.mem_restRefs_of main_arg5 (by decide) (by decide))).trans (W_main_arg5 m c)),
      (((h c).2 main_arg6 (Pipeline.mem_restRefs_of main_arg6 (by decide) (by decide))).trans (W_main_arg6 m c)),
      (((h c).2 main_arg7 (Pipeline.mem_restRefs_of main_arg7 (by decide) (by decide))).trans (W_main_arg7 m c)),
      (((h c).2 main_arg8 (Pipeline.mem_restRefs_of main_arg8 (by decide) (by decide))).trans (W_main_arg8 m c))⟩) (run_main m ρ)

end Cert.Kernel.Hand

end
-- ==== Proof.KIFrameTail.lean ====
/- The host operations that follow the region of `KernelIdeal`'s @main, 636 of them in 76 stretches: what they touch,
   that they allocate nothing, and which references none of them writes. Every later operation is a builder
   writing exactly one reference — its own result value — and that reference is never one of the six arrays the
   region's windows stage, nor one of the nine argument arrays. The facts are stated once per operation as
   `Spare`, proved stretch by stretch, and read back for any member of any stretch. -/
import proofs.«169849_j71803263254994_1_alg».proof.Proof.Gen.KernelIdeal.Launch

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- The stretches of host operations after the region, in program order. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60, hostOps1_61, hostOps1_62, hostOps1_63, hostOps1_64, hostOps1_65, hostOps1_66, hostOps1_67, hostOps1_68, hostOps1_69, hostOps1_70, hostOps1_71, hostOps1_72, hostOps1_73, hostOps1_74, hostOps1_75]

/-- The references the later operations must leave as they find them: the three input arrays and the three
    output arrays of the region's windows, then the nine argument arrays. -/
def Prot : List (Ref sig .tc) :=
  [main_v0, main_v1, main_v2, main_v3_0, main_v3_1, main_v3_2,
   main_arg0, main_arg1, main_arg2, main_arg3, main_arg4, main_arg5, main_arg6, main_arg7, main_arg8]

/-- An operation that writes exactly one reference `y`, with `y` outside `Prot`, and allocates nothing.
    Which reference is which is decided over references; the written SET is a singleton by unfolding the builder. -/
def Spare (op : HloOp τ sig (Elt F)) : Prop :=
  ∃ y : Ref sig .tc, op.writes = {Proc.devRef .tc y} ∧ y ∉ Prot ∧ op.fresh = ∅

/-- A spared operation writes no protected reference: its one written reference differs from each of them. -/
theorem Spare.not_writes {op : HloOp τ sig (Elt F)} (h : Spare op) {r : Ref sig .tc} (hr : r ∈ Prot) :
    Proc.devRef (τ := τ) .tc r ∉ op.writes := by
  obtain ⟨y, hw, hy, -⟩ := h
  rw [hw, Finset.mem_singleton]
  exact StableHlo.devRef_ne_of_ne fun e => hy (e ▸ hr)

theorem Spare.fresh_eq {op : HloOp τ sig (Elt F)} (h : Spare op) : op.fresh = ∅ := h.choose_spec.2.2

/-- One stretch: split the conjunction over its operations; each is a builder whose written set unfolds to the
    singleton of its result, and the result is compared with the fifteen protected references. -/
local macro "spare_stretch" : tactic =>
  `(tactic| (simp only [List.Forall]; (repeat' apply And.intro); (all_goals exact ⟨_, rfl, by decide, rfl⟩)))

theorem spare1 : (hostOps1 : List (HloOp τ sig (Elt F))).Forall Spare := by spare_stretch
theorem spare1_1 : (hostOps1_1 : List (HloOp τ sig (Elt F))).Forall Spare := by spare_stretch
theorem spare1_2 : (hostOps1_2 : List (HloOp τ sig (Elt F))).Forall Spare := by spare_stretch
set_option maxHeartbeats 4000000 in
theorem spare1_3 : (hostOps1_3 : List (HloOp τ sig (Elt F))).Forall Spare := by spare_stretch
theorem spare1_4 : (hostOps1_4 : List (HloOp τ sig (Elt F))).Forall Spare := by spare_stretch
theorem spare1_5 : (hostOps1_5 : List (HloOp τ sig (Elt F))).Forall Spare := by spare_stretch
theorem spare1_6 : (hostOps1_6 : List (HloOp τ sig (Elt F))).Forall Spare := by spare_stretch
theorem spare1_7 : (hostOps1_7 : List (HloOp τ sig (Elt F))).Forall Spare := by spare_stretch
theorem spare1_8 : (hostOps1_8 : List (HloOp τ sig (Elt F))).Forall Spare := by spare_stretch
theorem spare1_9 : (hostOps1_9 : List (HloOp τ sig (Elt F))).Forall Spare := by spare_stretch
theorem spare1_10 : (hostOps1_10 : List (HloOp τ sig (Elt F))).Forall Spare := by spare_stretch
theorem spare1_11 : (hostOps1_11 : List (HloOp τ sig (Elt F))).Forall Spare := by spare_stretch
theorem spare1_12 : (hostOps1_12 : List (HloOp τ sig (Elt F))).Forall Spare := by spare_stretch
theorem spare1_13 : (hostOps1_13 : List (HloOp τ sig (Elt F))).Forall Spare := by spare_stretch
theorem spare1_14 : (hostOps1_14 : List (HloOp τ sig (Elt F))).Forall Spare := by spare_stretch
theorem spare1_15 : (hostOps1_15 : List (HloOp τ sig (Elt F))).Forall Spare := by spare_stretch
theorem spare1_16 : (hostOps1_16 : List (HloOp τ sig (Elt F))).Forall Spare := by spare_stretch
theorem spare1_17 : (hostOps1_17 : List (HloOp τ sig (Elt F))).Forall Spare := by spare_stretch
theorem spare1_18 : (hostOps1_18 : List (HloOp τ sig (Elt F))).Forall Spare := by spare_stretch
theorem spare1_19 : (hostOps1_19 : List (HloOp τ sig (Elt F))).Forall Spare := by spare_stretch
theorem spare1_20 : (hostOps1_20 : List (HloOp τ sig (Elt F))).Forall Spare := by spare_stretch
theorem spare1_21 : (hostOps1_21 : List (HloOp τ sig (Elt F))).Forall Spare := by spare_stretch
theorem spare1_22 : (hostOps1_22 : List (HloOp τ sig (Elt F))).Forall Spare := by spare_stretch
theorem spare1_23 : (hostOps1_23 : List (HloOp τ sig (Elt F))).Forall Spare := by spare_stretch
theorem spare1_24 : (hostOps1_24 : List (HloOp τ sig (Elt F))).Forall Spare := by spare_stretch
theorem spare1_25 : (hostOps1_25 : List (HloOp τ sig (Elt F))).Forall Spare := by spare_stretch
theorem spare1_26 : (hostOps1_26 : List (HloOp τ sig (Elt F))).Forall Spare := by spare_stretch
theorem spare1_27 : (hostOps1_27 : List (HloOp τ sig (Elt F))).Forall Spare := by spare_stretch
theorem spare1_28 : (hostOps1_28 : List (HloOp τ sig (Elt F))).Forall Spare := by spare_stretch
theorem spare1_29 : (hostOps1_29 : List (HloOp τ sig (Elt F))).Forall Spare := by spare_stretch
theorem spare1_30 : (hostOps1_30 : List (HloOp τ sig (Elt F))).Forall Spare := by spare_stretch
theorem spare1_31 : (hostOps1_31 : List (HloOp τ sig (Elt F))).Forall Spare := by spare_stretch
theorem spare1_32 : (hostOps1_32 : List (HloOp τ sig (Elt F))).Forall Spare := by spare_stretch
theorem spare1_33 : (hostOps1_33 : List (HloOp τ sig (Elt F))).Forall Spare := by spare_stretch
theorem spare1_34 : (hostOps1_34 : List (HloOp τ sig (Elt F))).Forall Spare := by spare_stretch
theorem spare1_35 : (hostOps1_35 : List (HloOp τ sig (Elt F))).Forall Spare := by spare_stretch
theorem spare1_36 : (hostOps1_36 : List (HloOp τ sig (Elt F))).Forall Spare := by spare_stretch
theorem spare1_37 : (hostOps1_37 : List (HloOp τ sig (Elt F))).Forall Spare := by spare_stretch
theorem spare1_38 : (hostOps1_38 : List (HloOp τ sig (Elt F))).Forall Spare := by spare_stretch
theorem spare1_39 : (hostOps1_39 : List (HloOp τ sig (Elt F))).Forall Spare := by spare_stretch
theorem spare1_40 : (hostOps1_40 : List (HloOp τ sig (Elt F))).Forall Spare := by spare_stretch
theorem spare1_41 : (hostOps1_41 : List (HloOp τ sig (Elt F))).Forall Spare := by spare_stretch
theorem spare1_42 : (hostOps1_42 : List (HloOp τ sig (Elt F))).Forall Spare := by spare_stretch
theorem spare1_43 : (hostOps1_43 : List (HloOp τ sig (Elt F))).Forall Spare := by spare_stretch
theorem spare1_44 : (hostOps1_44 : List (HloOp τ sig (Elt F))).Forall Spare := by spare_stretch
theorem spare1_45 : (hostOps1_45 : List (HloOp τ sig (Elt F))).Forall Spare := by spare_stretch
theorem spare1_46 : (hostOps1_46 : List (HloOp τ sig (Elt F))).Forall Spare := by spare_stretch
theorem spare1_47 : (hostOps1_47 : List (HloOp τ sig (Elt F))).Forall Spare := by spare_stretch
theorem spare1_48 : (hostOps1_48 : List (HloOp τ sig (Elt F))).Forall Spare := by spare_stretch
theorem spare1_49 : (hostOps1_49 : List (HloOp τ sig (Elt F))).Forall Spare := by spare_stretch
theorem spare1_50 : (hostOps1_50 : List (HloOp τ sig (Elt F))).Forall Spare := by spare_stretch
theorem spare1_51 : (hostOps1_51 : List (HloOp τ sig (Elt F))).Forall Spare := by spare_stretch
theorem spare1_52 : (hostOps1_52 : List (HloOp τ sig (Elt F))).Forall Spare := by spare_stretch
theorem spare1_53 : (hostOps1_53 : List (HloOp τ sig (Elt F))).Forall Spare := by spare_stretch
theorem spare1_54 : (hostOps1_54 : List (HloOp τ sig (Elt F))).Forall Spare := by spare_stretch
theorem spare1_55 : (hostOps1_55 : List (HloOp τ sig (Elt F))).Forall Spare := by spare_stretch
theorem spare1_56 : (hostOps1_56 : List (HloOp τ sig (Elt F))).Forall Spare := by spare_stretch
theorem spare1_57 : (hostOps1_57 : List (HloOp τ sig (Elt F))).Forall Spare := by spare_stretch
theorem spare1_58 : (hostOps1_58 : List (HloOp τ sig (Elt F))).Forall Spare := by spare_stretch
theorem spare1_59 : (hostOps1_59 : List (HloOp τ sig (Elt F))).Forall Spare := by spare_stretch
theorem spare1_60 : (hostOps1_60 : List (HloOp τ sig (Elt F))).Forall Spare := by spare_stretch
theorem spare1_61 : (hostOps1_61 : List (HloOp τ sig (Elt F))).Forall Spare := by spare_stretch
theorem spare1_62 : (hostOps1_62 : List (HloOp τ sig (Elt F))).Forall Spare := by spare_stretch
theorem spare1_63 : (hostOps1_63 : List (HloOp τ sig (Elt F))).Forall Spare := by spare_stretch
theorem spare1_64 : (hostOps1_64 : List (HloOp τ sig (Elt F))).Forall Spare := by spare_stretch
theorem spare1_65 : (hostOps1_65 : List (HloOp τ sig (Elt F))).Forall Spare := by spare_stretch
theorem spare1_66 : (hostOps1_66 : List (HloOp τ sig (Elt F))).Forall Spare := by spare_stretch
theorem spare1_67 : (hostOps1_67 : List (HloOp τ sig (Elt F))).Forall Spare := by spare_stretch
theorem spare1_68 : (hostOps1_68 : List (HloOp τ sig (Elt F))).Forall Spare := by spare_stretch
theorem spare1_69 : (hostOps1_69 : List (HloOp τ sig (Elt F))).Forall Spare := by spare_stretch
theorem spare1_70 : (hostOps1_70 : List (HloOp τ sig (Elt F))).Forall Spare := by spare_stretch
theorem spare1_71 : (hostOps1_71 : List (HloOp τ sig (Elt F))).Forall Spare := by spare_stretch
theorem spare1_72 : (hostOps1_72 : List (HloOp τ sig (Elt F))).Forall Spare := by spare_stretch
theorem spare1_73 : (hostOps1_73 : List (HloOp τ sig (Elt F))).Forall Spare := by spare_stretch
theorem spare1_74 : (hostOps1_74 : List (HloOp τ sig (Elt F))).Forall Spare := by spare_stretch
theorem spare1_75 : (hostOps1_75 : List (HloOp τ sig (Elt F))).Forall Spare := by spare_stretch

/-- Every operation of every later stretch is spared. -/
theorem tail_spare : (tailOpss : List (List (HloOp τ sig (Elt F)))).Forall fun ops => ops.Forall Spare :=
  ⟨spare1, spare1_1, spare1_2, spare1_3, spare1_4, spare1_5, spare1_6, spare1_7, spare1_8, spare1_9, spare1_10, spare1_11, spare1_12, spare1_13, spare1_14, spare1_15, spare1_16, spare1_17, spare1_18, spare1_19, spare1_20, spare1_21, spare1_22, spare1_23, spare1_24, spare1_25, spare1_26, spare1_27, spare1_28, spare1_29, spare1_30, spare1_31, spare1_32, spare1_33, spare1_34, spare1_35, spare1_36, spare1_37, spare1_38, spare1_39, spare1_40, spare1_41, spare1_42, spare1_43, spare1_44, spare1_45, spare1_46, spare1_47, spare1_48, spare1_49, spare1_50, spare1_51, spare1_52, spare1_53, spare1_54, spare1_55, spare1_56, spare1_57, spare1_58, spare1_59, spare1_60, spare1_61, spare1_62, spare1_63, spare1_64, spare1_65, spare1_66, spare1_67, spare1_68, spare1_69, spare1_70, spare1_71, spare1_72, spare1_73, spare1_74, spare1_75⟩

/-- Every operation of every later stretch touches TensorCore references only (the generated per-stretch facts, collected). -/
theorem tail_tc : (tailOpss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub, hostOps1_31_sub, hostOps1_32_sub, hostOps1_33_sub, hostOps1_34_sub, hostOps1_35_sub, hostOps1_36_sub, hostOps1_37_sub, hostOps1_38_sub, hostOps1_39_sub, hostOps1_40_sub, hostOps1_41_sub, hostOps1_42_sub, hostOps1_43_sub, hostOps1_44_sub, hostOps1_45_sub, hostOps1_46_sub, hostOps1_47_sub, hostOps1_48_sub, hostOps1_49_sub, hostOps1_50_sub, hostOps1_51_sub, hostOps1_52_sub, hostOps1_53_sub, hostOps1_54_sub, hostOps1_55_sub, hostOps1_56_sub, hostOps1_57_sub, hostOps1_58_sub, hostOps1_59_sub, hostOps1_60_sub, hostOps1_61_sub, hostOps1_62_sub, hostOps1_63_sub, hostOps1_64_sub, hostOps1_65_sub, hostOps1_66_sub, hostOps1_67_sub, hostOps1_68_sub, hostOps1_69_sub, hostOps1_70_sub, hostOps1_71_sub, hostOps1_72_sub, hostOps1_73_sub, hostOps1_74_sub, hostOps1_75_sub⟩

theorem tail_mem_spare {ops : List (HloOp τ sig (Elt F))} (hops : ops ∈ (tailOpss : List (List (HloOp τ sig (Elt F)))))
    {op : HloOp τ sig (Elt F)} (hop : op ∈ ops) : Spare op :=
  List.forall_iff_forall_mem.mp (List.forall_iff_forall_mem.mp tail_spare ops hops) op hop

theorem tail_mem_tc {ops : List (HloOp τ sig (Elt F))} (hops : ops ∈ (tailOpss : List (List (HloOp τ sig (Elt F)))))
    {op : HloOp τ sig (Elt F)} (hop : op ∈ ops) : op.bufs ⊆ StableHlo.tcRefs τ sig :=
  List.forall_iff_forall_mem.mp (List.forall_iff_forall_mem.mp tail_tc ops hops) op hop

/-- A protected reference holds after all the later operations what it held before them. -/
theorem after_tail_of_prot (V : Valuation τ sig (Elt F)) {r : Ref sig .tc} (hr : r ∈ Prot) :
    StableHlo.after (tailOpss : List (List (HloOp τ sig (Elt F)))).flatten V (Proc.devRef .tc r) = V (Proc.devRef .tc r) :=
  StableHlo.after_of_forall_not_mem _ V fun op hop => by
    obtain ⟨ops, hops, hop'⟩ := List.mem_flatten.mp hop
    exact (tail_mem_spare hops hop').not_writes hr

end Cert.KernelIdeal.Hand

end
-- ==== Proof.KIFrame.lean ====
/- The frame run of `KernelIdeal`'s @main: three reshapes, one region on a grid of eight points with three input windows
   and three output windows, then 636 host operations. The region's body loads each input block whole, loads each
   output buffer (the value is not used), and stores into each output buffer whole the mean over the last axis of the
   squared input block. Hence each output buffer ends at a value that depends on the matching input block only, each
   input buffer is left as found, and — the later operations writing neither a window's array nor an argument (KIFrameTail) —
   @main terminates with every argument array as launched. -/
import proofs.«169849_j71803263254994_1_alg».proof.Proof.Gen.KernelIdeal.Launch
import proofs.«169849_j71803263254994_1_alg».proof.Proof.Gen.KernelIdeal.Skeleton
import proofs.«169849_j71803263254994_1_alg».proof.Proof.Gen.KernelIdeal.Points
import proofs.«169849_j71803263254994_1_alg».proof.Proof.KIFrameTail
import Idealize.ShloMosaic.Lib.Pipeline.FrameBody
import Idealize.ShloMosaic.Lib.Pipeline.FrameSuffix
import Idealize.ShloMosaic.Lib.Ring
import Idealize.ShloMosaic.Lib.Tactic

-- membership of an index in a rectangle with an axis of a thousand coordinates recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s TensorCore buffers hold when the region is entered: the launch contents after the three reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The reshapes allocate nothing. -/
theorem hostOps0_fresh : (hostOps0 : List (HloOp τ sig (Elt F))).Forall fun op => op.fresh = ∅ := by
  simp only [List.Forall]; repeat' constructor

/-- Each reshape writes its own result, one of `main_v0`, `main_v1`, `main_v2`. -/
theorem hostOps0_writes : (List.flatten [hostOps0] : List (HloOp τ sig (Elt F))).Forall fun op =>
    op.writes ⊆ (([main_v0, main_v1, main_v2] : List (Ref sig .tc)).map (Proc.devRef (τ := τ) .tc)).toFinset := by
  simp only [hostOps0, List.flatten_cons, List.flatten_nil, List.append_nil, List.cons_append, List.nil_append, List.Forall,
    StableHlo.reshape_writes, List.map_cons, List.map_nil, List.toFinset_cons, List.toFinset_nil, Finset.singleton_subset_iff,
    Finset.mem_insert, Finset.mem_singleton, true_or, or_true, and_self]

/-- @main is the reshapes, the region, then the later stretches: it reduces to the region continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss : List (List (HloOp τ sig (Elt F)))).map StableHlo.seq)) :=
  Pipeline.hmain_around cfgs 0 defs₀ 𝒱₀ m main [hostOps0] tailOpss (by simp only [List.Forall]; exact hostOps0_sub)
    (by simp only [List.Forall]; exact hostOps0_fresh) main_chain

/-- The later operations touch the windows' arrays and the bypassing buffers only: each touches unscoped TensorCore
    references, and with nothing prefetched every such reference is one or the other. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_mem_tc hops hop)
/-- They allocate nothing. -/
theorem sfx_fresh : ∀ ops ∈ (tailOpss : List (List (HloOp τ sig (Elt F)))), ∀ op ∈ ops, op.fresh = ∅ :=
  fun ops hops op hop => (tail_mem_spare hops hop).fresh_eq
/-- Every window's array is a protected reference, -/
theorem arrRef_mem_Prot : ∀ w, Pipeline.arrRef spec0 w ∈ Prot := by decide
/-- so no later operation writes one. -/
theorem sfx_keeps : ∀ ops ∈ (tailOpss : List (List (HloOp τ sig (Elt F)))), ∀ op ∈ ops,
    ∀ w, Proc.devRef .tc (Pipeline.arrRef spec0 w) ∉ op.writes :=
  fun ops hops op hop w => (tail_mem_spare hops hop).not_writes (arrRef_mem_Prot w)

/-- No reshape writes an argument array: the region finds each as launched. -/
theorem V_of_not_reshaped (c : Dev nD) {r : Ref sig .tc} (hr : r ∉ ([main_v0, main_v1, main_v2] : List (Ref sig .tc))) :
    V m c r = m ((c : Thread nD τ).loc r) :=
  StableHlo.after_of_writes_sub _ _ hostOps0_writes hr

/-- An argument array after the later operations, for any proof data: no later operation writes it, it is no window's
    array, and no reshape wrote it. -/
theorem W_of_arg (dats : (p : Fin _) → (c : Dev nD) → Dat τ (Elt F) Unit ℕ (UR sig nD τ) ℕ (cfgs p) c) (c : Dev nD)
    {r : Ref sig .tc} (hp : r ∈ Prot) (ha : ∀ w, Pipeline.arrRef spec0 w ≠ r)
    (hr : r ∉ ([main_v0, main_v1, main_v2] : List (Ref sig .tc))) :
    Pipeline.afterTail₀ cfgs dats 0 (V0 m) tailOpss c r = m ((c : Thread nD τ).loc r) := by
  unfold Pipeline.afterTail₀
  rw [after_tail_of_prot _ hp, Pipeline.withArrays_of_ne _ c (V0 m c) _ r ha]
  exact V_of_not_reshaped m c hr

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place. The windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole input block and the whole output block, as the rectangles the body loads and stores through. -/
abbrev rIn : Rect S8x1000x160 := Rect.unit (s := S8x1000x160) ![0, 0, 0] S8x1000x160.size inb_S8x1000x160_S8x1000x160_0_0_0
abbrev rOut : Rect S8x1000 := Rect.unit (s := S8x1000) ![0, 0] S8x1000.size inb_S8x1000_S8x1000_0_0

/-! ## What the body leaves in each output window's buffer -/

/-- Window 3's staging buffer after the body: one whole-block store of the per-row mean square of input block 0. -/
def out0_3 (x : Vec F S8x1000x160 .f32) : Vec F S8x1000 .f32 :=
  View.canon [⟨rOut, k0_pay1 (View.ld x rIn)⟩]
/-- Window 4's, of input block 1. -/
def out0_4 (x : Vec F S8x1000x160 .f32) : Vec F S8x1000 .f32 :=
  View.canon [⟨rOut, k0_pay2 (View.ld x rIn)⟩]
/-- Window 5's, of input block 2. -/
def out0_5 (x : Vec F S8x1000x160 .f32) : Vec F S8x1000 .f32 :=
  View.canon [⟨rOut, k0_pay3 (View.ld x rIn)⟩]

/-- The one store is of the whole block, so it covers the buffer. -/
theorem cover_out (p0 : Vec F S8x1000 .f32) (y : S8x1000.Idx) :
    ∃ pc ∈ ([⟨rOut, p0⟩] : List (View.Piece (Elt F) S8x1000 .f32)), y ∈ pc.1.set :=
  View.cover_of_tiled [⟨rOut, p0⟩] S8x1000.size (by rfl) y

/-! ## The body's triple -/

set_option maxHeartbeats 4000000 in
/-- The body on whole staging memrefs — the inputs' at read contents `x0 x1 x2`, the outputs' at any contents — runs to
    the continuation with the inputs' as they were and each output's at `out0_W` of its input: three loads, then per
    output a load of the buffer as found (whatever it holds) and a store covering it. -/
theorem sound_kernel (c : Dev nD) (E : Set ℕ) (i : grid0.Coords)
    (arg1 : Memref sig .tc .vmem S8x1000x160 .f32) (harg1 : arg1.IsWhole) (arg2 : Memref sig .tc .vmem S8x1000x160 .f32) (harg2 : arg2.IsWhole)
    (arg3 : Memref sig .tc .vmem S8x1000x160 .f32) (harg3 : arg3.IsWhole) (arg4 : Memref sig .tc .vmem S8x1000 .f32) (harg4 : arg4.IsWhole)
    (arg5 : Memref sig .tc .vmem S8x1000 .f32) (harg5 : arg5.IsWhole) (arg6 : Memref sig .tc .vmem S8x1000 .f32) (harg6 : arg6.IsWhole)
    (x0 x1 x2 : Vec F S8x1000x160 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0) ∗ owns (c : Thread nD τ) arg5 fullShare (out0_4 x1)
            ∗ owns (c : Thread nD τ) arg6 fullShare (out0_5 x2)) -∗ K ⟨⟩))
      ⊢ wp frame (wpE (defs₀ (F := F)) Variants.none c none) E
          (cc0__frame_energy_kernel i arg1 harg1 arg2 harg2 arg3 harg3 arg4 harg4 arg5 harg5 arg6 harg6) K := by
  simp only [cc0__frame_energy_kernel_eq_skeleton]; unfold cc0__frame_energy_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_out _)
  isplitl [H4]
  · iexists _; isplitr
    swap; · iexact H4
    ipureintro
    exact View.read_writes_eq_canon _ _ _ (cover_out _)
  iexists _; isplitr
  swap; · iexact H5
  ipureintro
  exact View.read_writes_eq_canon _ _ _ (cover_out _)

/-! ## The pipeline's proof data -/

/-- The proof data of the one pipeline on core `c`: the arrays as the region finds them; after the body at point `t`
    each input's buffer at its block and each output's at `out0_W` of the matching input block; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t)
    | ⟨4, _⟩ => out0_4 (iblk m c 1 t)
    | ⟨5, _⟩ => out0_5 (iblk m c 2 t)
  Φ _ := Pipeline.ΦA spec0 c
  q _ := fullShare
  owed _ := 0

/-- The proof data's arrays are the region-entry contents (the definition projected; the fold over the reshapes is not unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) := by dsimp only [dats]
theorem after0_4 (c : Dev nD) (t : Fin cfg0.N) : (dats m 0 c).after 4 t = out0_4 (iblk m c 1 t) := by dsimp only [dats]
theorem after0_5 (c : Dev nD) (t : Fin cfg0.N) : (dats m 0 c).after 5 t = out0_5 (iblk m c 2 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, the outputs' hold something, so the triple applies;
    the invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which unfolds plain
-- definitions inside a metavariable's type
set_option backward.isDefEq.respectTransparency.types false in
/-- At the compiled mesh, for any values, from any memory with zero counters: every weakly fair execution of @main on
    the TensorCores terminates, and in every final state each window's array holds what the proof data's write-backs
    leave and every other unscoped buffer what the later operations leave of the region-entry contents. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- No later operation writes an argument array, none is a window's array, no reshape wrote one: each ends as launched. -/
theorem W_main_arg0 (c : Dev nD) : Pipeline.afterTail₀ cfgs (dats m) 0 (V0 m) tailOpss c main_arg0 = m ((c : Thread nD τ).loc main_arg0) :=
  W_of_arg m (dats m) c (by decide) (by decide) (by decide)
theorem W_main_arg1 (c : Dev nD) : Pipeline.afterTail₀ cfgs (dats m) 0 (V0 m) tailOpss c main_arg1 = m ((c : Thread nD τ).loc main_arg1) :=
  W_of_arg m (dats m) c (by decide) (by decide) (by decide)
theorem W_main_arg2 (c : Dev nD) : Pipeline.afterTail₀ cfgs (dats m) 0 (V0 m) tailOpss c main_arg2 = m ((c : Thread nD τ).loc main_arg2) :=
  W_of_arg m (dats m) c (by decide) (by decide) (by decide)
theorem W_main_arg3 (c : Dev nD) : Pipeline.afterTail₀ cfgs (dats m) 0 (V0 m) tailOpss c main_arg3 = m ((c : Thread nD τ).loc main_arg3) :=
  W_of_arg m (dats m) c (by decide) (by decide) (by decide)
theorem W_main_arg4 (c : Dev nD) : Pipeline.afterTail₀ cfgs (dats m) 0 (V0 m) tailOpss c main_arg4 = m ((c : Thread nD τ).loc main_arg4) :=
  W_of_arg m (dats m) c (by decide) (by decide) (by decide)
theorem W_main_arg5 (c : Dev nD) : Pipeline.afterTail₀ cfgs (dats m) 0 (V0 m) tailOpss c main_arg5 = m ((c : Thread nD τ).loc main_arg5) :=
  W_of_arg m (dats m) c (by decide) (by decide) (by decide)
theorem W_main_arg6 (c : Dev nD) : Pipeline.afterTail₀ cfgs (dats m) 0 (V0 m) tailOpss c main_arg6 = m ((c : Thread nD τ).loc main_arg6) :=
  W_of_arg m (dats m) c (by decide) (by decide) (by decide)
theorem W_main_arg7 (c : Dev nD) : Pipeline.afterTail₀ cfgs (dats m) 0 (V0 m) tailOpss c main_arg7 = m ((c : Thread nD τ).loc main_arg7) :=
  W_of_arg m (dats m) c (by decide) (by decide) (by decide)
theorem W_main_arg8 (c : Dev nD) : Pipeline.afterTail₀ cfgs (dats m) 0 (V0 m) tailOpss c main_arg8 = m ((c : Thread nD τ).loc main_arg8) :=
  W_of_arg m (dats m) c (by decide) (by decide) (by decide)

/-- The frame: the final state's second clause read at each argument array — an unscoped buffer no window stages —, then `W_main_argK`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(((h c).2 main_arg0 (Pipeline.mem_restRefs_of main_arg0 (by decide) (by decide))).trans (W_main_arg0 m c)),
      (((h c).2 main_arg1 (Pipeline.mem_restRefs_of main_arg1 (by decide) (by decide))).trans (W_main_arg1 m c)),
      (((h c).2 main_arg2 (Pipeline.mem_restRefs_of main_arg2 (by decide) (by decide))).trans (W_main_arg2 m c)),
      (((h c).2 main_arg3 (Pipeline.mem_restRefs_of main_arg3 (by decide) (by decide))).trans (W_main_arg3 m c)),
      (((h c).2 main_arg4 (Pipeline.mem_restRefs_of main_arg4 (by decide) (by decide))).trans (W_main_arg4 m c)),
      (((h c).2 main_arg5 (Pipeline.mem_restRefs_of main_arg5 (by decide) (by decide))).trans (W_main_arg5 m c)),
      (((h c).2 main_arg6 (Pipeline.mem_restRefs_of main_arg6 (by decide) (by decide))).trans (W_main_arg6 m c)),
      (((h c).2 main_arg7 (Pipeline.mem_restRefs_of main_arg7 (by decide) (by decide))).trans (W_main_arg7 m c)),
      (((h c).2 main_arg8 (Pipeline.mem_restRefs_of main_arg8 (by decide) (by decide))).trans (W_main_arg8 m c))⟩) (run_main m ρ)

end Cert.KernelIdeal.Hand

end
-- ==== Proof.RefOps.lean ====
/-
  The reference's @main as a table: its 657 host operations in program order, one list per printed
  window of sixty statements; a call of a module-local function (argmax, relu, the three where forms) is
  written as that function's lines at the call's own buffers. Then the buffer each operation writes (rW):
  the program is in single-assignment form, so the list has no repetition and no argument is in it.
-/
import proofs.«169849_j71803263254994_1_alg».proof.ReferenceIdeal
import proofs.«169849_j71803263254994_1_alg».proof.Proof.Gen.ReferenceIdeal
import Idealize.ShloMosaic.Lib.StableHlo.Run

set_option maxRecDepth 16384

noncomputable section

namespace Cert.ReferenceIdeal.Hand

open Idealize.ShloMosaic Idealize.SL.Sem Cert.ReferenceIdeal Cert.ReferenceIdeal.Gen

variable {F : FTy → Type} [FloatOps F]

/-- Window 0: operations 0 … 67. -/
abbrev rOps0 : List (HloOp τ sig (Elt F)) :=
  ( StableHlo.reshape main_arg0 main_v0 rfl shapeCasts_S64x160000_S64x1000x160
  :: StableHlo.binary main_v0 main_v0 main_v1 (mulf : (⟨S64x1000x160, .f32⟩ : BufTy).Contents (Elt F) → (⟨S64x1000x160, .f32⟩ : BufTy).Contents (Elt F) → (⟨S64x1000x160, .f32⟩ : BufTy).Contents (Elt F))
  :: StableHlo.nullary main_cst (constant S_ .f32 0x00000000#32)
  :: StableHlo.binary main_v1 main_cst main_v2 ((fun x v => Host.reduceAdd x v reducesTo_S64x1000x160_S64x1000_d2 h_S_) : (⟨S64x1000x160, .f32⟩ : BufTy).Contents (Elt F) → (⟨S_, .f32⟩ : BufTy).Contents (Elt F) → (⟨S64x1000, .f32⟩ : BufTy).Contents (Elt F))
  :: StableHlo.nullary main_cst_0 (constant S_ .f32 0x43200000#32)
  :: StableHlo.unary main_cst_0 main_v3 (broadcastInDim S64x1000 ![] bcast_S_S64x1000 : (⟨S_, .f32⟩ : BufTy).Contents (Elt F) → (⟨S64x1000, .f32⟩ : BufTy).Contents (Elt F))
  :: StableHlo.binary main_v2 main_v3 main_v4 (Host.divf : (⟨S64x1000, .f32⟩ : BufTy).Contents (Elt F) → (⟨S64x1000, .f32⟩ : BufTy).Contents (Elt F) → (⟨S64x1000, .f32⟩ : BufTy).Contents (Elt F))
  :: StableHlo.reshape main_arg1 main_v5 rfl shapeCasts_S64x160000_S64x1000x160
  :: StableHlo.binary main_v5 main_v5 main_v6 (mulf : (⟨S64x1000x160, .f32⟩ : BufTy).Contents (Elt F) → (⟨S64x1000x160, .f32⟩ : BufTy).Contents (Elt F) → (⟨S64x1000x160, .f32⟩ : BufTy).Contents (Elt F))
  :: StableHlo.nullary main_cst_1 (constant S_ .f32 0x00000000#32)
  :: StableHlo.binary main_v6 main_cst_1 main_v7 ((fun x v => Host.reduceAdd x v reducesTo_S64x1000x160_S64x1000_d2 h_S_) : (⟨S64x1000x160, .f32⟩ : BufTy).Contents (Elt F) → (⟨S_, .f32⟩ : BufTy).Contents (Elt F) → (⟨S64x1000, .f32⟩ : BufTy).Contents (Elt F))
  :: StableHlo.nullary main_cst_2 (constant S_ .f32 0x43200000#32)
  :: StableHlo.unary main_cst_2 main_v8 (broadcastInDim S64x1000 ![] bcast_S_S64x1000 : (⟨S_, .f32⟩ : BufTy).Contents (Elt F) → (⟨S64x1000, .f32⟩ : BufTy).Contents (Elt F))
  :: StableHlo.binary main_v7 main_v8 main_v9 (Host.divf : (⟨S64x1000, .f32⟩ : BufTy).Contents (Elt F) → (⟨S64x1000, .f32⟩ : BufTy).Contents (Elt F) → (⟨S64x1000, .f32⟩ : BufTy).Contents (Elt F))
  :: StableHlo.reshape main_arg2 main_v10 rfl shapeCasts_S64x160000_S64x1000x160
  :: StableHlo.binary main_v10 main_v10 main_v11 (mulf : (⟨S64x1000x160, .f32⟩ : BufTy).Contents (Elt F) → (⟨S64x1000x160, .f32⟩ : BufTy).Contents (Elt F) → (⟨S64x1000x160, .f32⟩ : BufTy).Contents (Elt F))
  :: StableHlo.nullary main_cst_3 (constant S_ .f32 0x00000000#32)
  :: StableHlo.binary main_v11 main_cst_3 main_v12 ((fun x v => Host.reduceAdd x v reducesTo_S64x1000x160_S64x1000_d2 h_S_) : (⟨S64x1000x160, .f32⟩ : BufTy).Contents (Elt F) → (⟨S_, .f32⟩ : BufTy).Contents (Elt F) → (⟨S64x1000, .f32⟩ : BufTy).Contents (Elt F))
  :: StableHlo.nullary main_cst_4 (constant S_ .f32 0x43200000#32)
  :: StableHlo.unary main_cst_4 main_v13 (broadcastInDim S64x1000 ![] bcast_S_S64x1000 : (⟨S_, .f32⟩ : BufTy).Contents (Elt F) → (⟨S64x1000, .f32⟩ : BufTy).Contents (Elt F))
  :: StableHlo.binary main_v12 main_v13 main_v14 (Host.divf : (⟨S64x1000, .f32⟩ : BufTy).Contents (Elt F) → (⟨S64x1000, .f32⟩ : BufTy).Contents (Elt F) → (⟨S64x1000, .f32⟩ : BufTy).Contents (Elt F))
  :: StableHlo.nullary main_v15 (iotaInDim S64 32 0)
  :: StableHlo.unary main_v15 main_v16 (broadcastInDim S64x1 ![0] bcast_S64_S64x1_0 : (⟨S64, .i32⟩ : BufTy).Contents (Elt F) → (⟨S64x1, .i32⟩ : BufTy).Contents (Elt F))
  :: StableHlo.unary main_arg7 main_v17 (broadcastInDim S1x64 ![1] bcast_S64_S1x64_1 : (⟨S64, .i32⟩ : BufTy).Contents (Elt F) → (⟨S1x64, .i32⟩ : BufTy).Contents (Elt F))
  :: StableHlo.unary main_v16 main_v18 (broadcastInDim S64x64 ![0, 1] bcast_S64x1_S64x64_0_1 : (⟨S64x1, .i32⟩ : BufTy).Contents (Elt F) → (⟨S64x64, .i32⟩ : BufTy).Contents (Elt F))
  :: StableHlo.unary main_v17 main_v19 (broadcastInDim S64x64 ![0, 1] bcast_S1x64_S64x64_0_1 : (⟨S1x64, .i32⟩ : BufTy).Contents (Elt F) → (⟨S64x64, .i32⟩ : BufTy).Contents (Elt F))
  :: StableHlo.binary main_v18 main_v19 main_v20 (cmpi .eq : (⟨S64x64, .i32⟩ : BufTy).Contents (Elt F) → (⟨S64x64, .i32⟩ : BufTy).Contents (Elt F) → (⟨S64x64, .i1⟩ : BufTy).Contents (Elt F))
  :: StableHlo.nullary main_c (constantI S_ 32 0#32)
  :: StableHlo.unary main_c main_v21 (broadcastInDim S64 ![] bcast_S_S64 : (⟨S_, .i32⟩ : BufTy).Contents (Elt F) → (⟨S64, .i32⟩ : BufTy).Contents (Elt F))
  :: StableHlo.binary main_arg8 main_v21 main_v22 (cmpi .eq : (⟨S64, .i32⟩ : BufTy).Contents (Elt F) → (⟨S64, .i32⟩ : BufTy).Contents (Elt F) → (⟨S64, .i1⟩ : BufTy).Contents (Elt F))
  :: StableHlo.unary main_v22 main_v23 (broadcastInDim S1x64 ![1] bcast_S64_S1x64_1 : (⟨S64, .i1⟩ : BufTy).Contents (Elt F) → (⟨S1x64, .i1⟩ : BufTy).Contents (Elt F))
  :: StableHlo.unary main_v23 main_v24 (broadcastInDim S64x64 ![0, 1] bcast_S1x64_S64x64_0_1 : (⟨S1x64, .i1⟩ : BufTy).Contents (Elt F) → (⟨S64x64, .i1⟩ : BufTy).Contents (Elt F))
  :: StableHlo.binary main_v20 main_v24 main_v25 (andi : (⟨S64x64, .i1⟩ : BufTy).Contents (Elt F) → (⟨S64x64, .i1⟩ : BufTy).Contents (Elt F) → (⟨S64x64, .i1⟩ : BufTy).Contents (Elt F))
  :: StableHlo.nullary main_c_5 (constantI S_ 32 1#32)
  :: StableHlo.unary main_c_5 main_v26 (broadcastInDim S64 ![] bcast_S_S64 : (⟨S_, .i32⟩ : BufTy).Contents (Elt F) → (⟨S64, .i32⟩ : BufTy).Contents (Elt F))
  :: StableHlo.binary main_arg8 main_v26 main_v27 (cmpi .eq : (⟨S64, .i32⟩ : BufTy).Contents (Elt F) → (⟨S64, .i32⟩ : BufTy).Contents (Elt F) → (⟨S64, .i1⟩ : BufTy).Contents (Elt F))
  :: StableHlo.unary main_v27 main_v28 (broadcastInDim S1x64 ![1] bcast_S64_S1x64_1 : (⟨S64, .i1⟩ : BufTy).Contents (Elt F) → (⟨S1x64, .i1⟩ : BufTy).Contents (Elt F))
  :: StableHlo.unary main_v28 main_v29 (broadcastInDim S64x64 ![0, 1] bcast_S1x64_S64x64_0_1 : (⟨S1x64, .i1⟩ : BufTy).Contents (Elt F) → (⟨S64x64, .i1⟩ : BufTy).Contents (Elt F))
  :: StableHlo.binary main_v20 main_v29 main_v30 (andi : (⟨S64x64, .i1⟩ : BufTy).Contents (Elt F) → (⟨S64x64, .i1⟩ : BufTy).Contents (Elt F) → (⟨S64x64, .i1⟩ : BufTy).Contents (Elt F))
  :: StableHlo.nullary main_c_6 (constantI S_ 1 0#1)
  :: StableHlo.binary main_v25 main_c_6 main_v31 ((fun x v => Host.reduce IntOp.ori x v reducesTo_S64x64_S64_d1 h_S_) : (⟨S64x64, .i1⟩ : BufTy).Contents (Elt F) → (⟨S_, .i1⟩ : BufTy).Contents (Elt F) → (⟨S64, .i1⟩ : BufTy).Contents (Elt F))
  :: StableHlo.nullary main_c_7 (constantI S_ 1 0#1)
  :: StableHlo.binary main_v30 main_c_7 main_v32 ((fun x v => Host.reduce IntOp.ori x v reducesTo_S64x64_S64_d1 h_S_) : (⟨S64x64, .i1⟩ : BufTy).Contents (Elt F) → (⟨S_, .i1⟩ : BufTy).Contents (Elt F) → (⟨S64, .i1⟩ : BufTy).Contents (Elt F))
  :: StableHlo.binary main_v31 main_v32 main_v33 (andi : (⟨S64, .i1⟩ : BufTy).Contents (Elt F) → (⟨S64, .i1⟩ : BufTy).Contents (Elt F) → (⟨S64, .i1⟩ : BufTy).Contents (Elt F))
  :: StableHlo.TRef.nullary (.of main_call0_v0 : StableHlo.TRef sig ⟨S64x64, .i32⟩) (iotaInDim S64x64 32 1)
  :: StableHlo.TRef.nullary (.of main_call0_c : StableHlo.TRef sig ⟨S_, .i1⟩) (constantI S_ 1 0#1)
  :: StableHlo.TRef.nullary (.of main_call0_c_0 : StableHlo.TRef sig ⟨S_, .i32⟩) (constantI S_ 32 0#32)
  :: StableHlo.TRef.quaternary (.of main_v25 : StableHlo.TRef sig ⟨S64x64, .i1⟩) (.of main_call0_v0 : StableHlo.TRef sig ⟨S64x64, .i32⟩) (.of main_call0_c : StableHlo.TRef sig ⟨S_, .i1⟩) (.of main_call0_c_0 : StableHlo.TRef sig ⟨S_, .i32⟩) (.of main_call0_v1_0 : StableHlo.TRef sig ⟨S64, .i1⟩) (fun x y u v j => (Host.reduce2 reducer_argmax_i1_i32 x y u v reducesTo_S64x64_S64_d1 h_S_ j).1)
  :: StableHlo.TRef.quaternary (.of main_v25 : StableHlo.TRef sig ⟨S64x64, .i1⟩) (.of main_call0_v0 : StableHlo.TRef sig ⟨S64x64, .i32⟩) (.of main_call0_c : StableHlo.TRef sig ⟨S_, .i1⟩) (.of main_call0_c_0 : StableHlo.TRef sig ⟨S_, .i32⟩) (.of main_v34 : StableHlo.TRef sig ⟨S64, .i32⟩) (fun x y u v j => (Host.reduce2 reducer_argmax_i1_i32 x y u v reducesTo_S64x64_S64_d1 h_S_ j).2)
  :: StableHlo.TRef.nullary (.of main_call1_v0 : StableHlo.TRef sig ⟨S64x64, .i32⟩) (iotaInDim S64x64 32 1)
  :: StableHlo.TRef.nullary (.of main_call1_c : StableHlo.TRef sig ⟨S_, .i1⟩) (constantI S_ 1 0#1)
  :: StableHlo.TRef.nullary (.of main_call1_c_0 : StableHlo.TRef sig ⟨S_, .i32⟩) (constantI S_ 32 0#32)
  :: StableHlo.TRef.quaternary (.of main_v30 : StableHlo.TRef sig ⟨S64x64, .i1⟩) (.of main_call1_v0 : StableHlo.TRef sig ⟨S64x64, .i32⟩) (.of main_call1_c : StableHlo.TRef sig ⟨S_, .i1⟩) (.of main_call1_c_0 : StableHlo.TRef sig ⟨S_, .i32⟩) (.of main_call1_v1_0 : StableHlo.TRef sig ⟨S64, .i1⟩) (fun x y u v j => (Host.reduce2 reducer_argmax_i1_i32 x y u v reducesTo_S64x64_S64_d1 h_S_ j).1)
  :: StableHlo.TRef.quaternary (.of main_v30 : StableHlo.TRef sig ⟨S64x64, .i1⟩) (.of main_call1_v0 : StableHlo.TRef sig ⟨S64x64, .i32⟩) (.of main_call1_c : StableHlo.TRef sig ⟨S_, .i1⟩) (.of main_call1_c_0 : StableHlo.TRef sig ⟨S_, .i32⟩) (.of main_v35 : StableHlo.TRef sig ⟨S64, .i32⟩) (fun x y u v j => (Host.reduce2 reducer_argmax_i1_i32 x y u v reducesTo_S64x64_S64_d1 h_S_ j).2)
  :: StableHlo.nullary main_c_8 (constantI S_ 32 0#32)
  :: StableHlo.unary main_c_8 main_v36 (broadcastInDim S64 ![] bcast_S_S64 : (⟨S_, .i32⟩ : BufTy).Contents (Elt F) → (⟨S64, .i32⟩ : BufTy).Contents (Elt F))
  :: StableHlo.binary main_v34 main_v36 main_v37 (cmpi .slt : (⟨S64, .i32⟩ : BufTy).Contents (Elt F) → (⟨S64, .i32⟩ : BufTy).Contents (Elt F) → (⟨S64, .i1⟩ : BufTy).Contents (Elt F))
  :: StableHlo.nullary main_c_9 (constantI S_ 32 64#32)
  :: StableHlo.unary main_c_9 main_v38 (broadcastInDim S64 ![] bcast_S_S64 : (⟨S_, .i32⟩ : BufTy).Contents (Elt F) → (⟨S64, .i32⟩ : BufTy).Contents (Elt F))
  :: StableHlo.binary main_v34 main_v38 main_v39 (addi : (⟨S64, .i32⟩ : BufTy).Contents (Elt F) → (⟨S64, .i32⟩ : BufTy).Contents (Elt F) → (⟨S64, .i32⟩ : BufTy).Contents (Elt F))
  :: StableHlo.ternary main_v37 main_v39 main_v34 main_v40 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v40 main_v41 (broadcastInDim S64x1 ![0] bcast_S64_S64x1_0 : (⟨S64, .i32⟩ : BufTy).Contents (Elt F) → (⟨S64x1, .i32⟩ : BufTy).Contents (Elt F))
  :: StableHlo.binary main_v14 main_v41 main_v42 ((fun x i => Host.gather gather_S64x1000_S64x1_S64x1000_1_0_n_n_0_1_11000 x i) : (⟨S64x1000, .f32⟩ : BufTy).Contents (Elt F) → (⟨S64x1, .i32⟩ : BufTy).Contents (Elt F) → (⟨S64x1000, .f32⟩ : BufTy).Contents (Elt F))
  :: StableHlo.nullary main_c_10 (constantI S_ 32 0#32)
  :: StableHlo.unary main_c_10 main_v43 (broadcastInDim S64 ![] bcast_S_S64 : (⟨S_, .i32⟩ : BufTy).Contents (Elt F) → (⟨S64, .i32⟩ : BufTy).Contents (Elt F))
  :: StableHlo.binary main_v34 main_v43 main_v44 (cmpi .slt : (⟨S64, .i32⟩ : BufTy).Contents (Elt F) → (⟨S64, .i32⟩ : BufTy).Contents (Elt F) → (⟨S64, .i1⟩ : BufTy).Contents (Elt F))
  :: StableHlo.nullary main_c_11 (constantI S_ 32 64#32)
  :: StableHlo.unary main_c_11 main_v45 (broadcastInDim S64 ![] bcast_S_S64 : (⟨S_, .i32⟩ : BufTy).Contents (Elt F) → (⟨S64, .i32⟩ : BufTy).Contents (Elt F))
  :: [] )

set_option maxHeartbeats 40000000 in
/-- Each touches TensorCore references only. -/
theorem rOps0_sub : (rOps0 : List (HloOp τ sig (Elt F))).Forall fun op => op.bufs ⊆ StableHlo.tcRefs τ sig :=
  ⟨StableHlo.reshape_bufs_sub .., StableHlo.binary_bufs_sub .., StableHlo.nullary_bufs_sub .., StableHlo.binary_bufs_sub .., StableHlo.nullary_bufs_sub .., StableHlo.unary_bufs_sub .., StableHlo.binary_bufs_sub .., StableHlo.reshape_bufs_sub .., StableHlo.binary_bufs_sub .., StableHlo.nullary_bufs_sub .., StableHlo.binary_bufs_sub .., StableHlo.nullary_bufs_sub .., StableHlo.unary_bufs_sub .., StableHlo.binary_bufs_sub .., StableHlo.reshape_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.nullary_bufs_sub .., StableHlo.nullary_bufs_sub .., StableHlo.nullary_bufs_sub .., StableHlo.quaternary_bufs_sub .., StableHlo.quaternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub ..⟩

/-- Window 1: operations 68 … 127. -/
abbrev rOps1 : List (HloOp τ sig (Elt F)) :=
  ( StableHlo.binary main_v34 main_v45 main_v46 (addi : (⟨S64, .i32⟩ : BufTy).Contents (Elt F) → (⟨S64, .i32⟩ : BufTy).Contents (Elt F) → (⟨S64, .i32⟩ : BufTy).Contents (Elt F))
  :: StableHlo.ternary main_v44 main_v46 main_v34 main_v47 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v47 main_v48 (broadcastInDim S64x1 ![0] bcast_S64_S64x1_0 : (⟨S64, .i32⟩ : BufTy).Contents (Elt F) → (⟨S64x1, .i32⟩ : BufTy).Contents (Elt F))
  :: StableHlo.binary main_v4 main_v48 main_v49 ((fun x i => Host.gather gather_S64x1000_S64x1_S64x1000_1_0_n_n_0_1_11000 x i) : (⟨S64x1000, .f32⟩ : BufTy).Contents (Elt F) → (⟨S64x1, .i32⟩ : BufTy).Contents (Elt F) → (⟨S64x1000, .f32⟩ : BufTy).Contents (Elt F))
  :: StableHlo.nullary main_cst_12 (constant S_ .f32 0x322BCC77#32)
  :: StableHlo.unary main_cst_12 main_v50 (broadcastInDim S64x1000 ![] bcast_S_S64x1000 : (⟨S_, .f32⟩ : BufTy).Contents (Elt F) → (⟨S64x1000, .f32⟩ : BufTy).Contents (Elt F))
  :: StableHlo.binary main_v42 main_v50 main_v51 (addf : (⟨S64x1000, .f32⟩ : BufTy).Contents (Elt F) → (⟨S64x1000, .f32⟩ : BufTy).Contents (Elt F) → (⟨S64x1000, .f32⟩ : BufTy).Contents (Elt F))
  :: StableHlo.binary main_v49 main_v51 main_v52 (Host.divf : (⟨S64x1000, .f32⟩ : BufTy).Contents (Elt F) → (⟨S64x1000, .f32⟩ : BufTy).Contents (Elt F) → (⟨S64x1000, .f32⟩ : BufTy).Contents (Elt F))
  :: StableHlo.nullary main_c_13 (constantI S_ 32 0#32)
  :: StableHlo.unary main_c_13 main_v53 (broadcastInDim S64 ![] bcast_S_S64 : (⟨S_, .i32⟩ : BufTy).Contents (Elt F) → (⟨S64, .i32⟩ : BufTy).Contents (Elt F))
  :: StableHlo.binary main_v35 main_v53 main_v54 (cmpi .slt : (⟨S64, .i32⟩ : BufTy).Contents (Elt F) → (⟨S64, .i32⟩ : BufTy).Contents (Elt F) → (⟨S64, .i1⟩ : BufTy).Contents (Elt F))
  :: StableHlo.nullary main_c_14 (constantI S_ 32 64#32)
  :: StableHlo.unary main_c_14 main_v55 (broadcastInDim S64 ![] bcast_S_S64 : (⟨S_, .i32⟩ : BufTy).Contents (Elt F) → (⟨S64, .i32⟩ : BufTy).Contents (Elt F))
  :: StableHlo.binary main_v35 main_v55 main_v56 (addi : (⟨S64, .i32⟩ : BufTy).Contents (Elt F) → (⟨S64, .i32⟩ : BufTy).Contents (Elt F) → (⟨S64, .i32⟩ : BufTy).Contents (Elt F))
  :: StableHlo.ternary main_v54 main_v56 main_v35 main_v57 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v57 main_v58 (broadcastInDim S64x1 ![0] bcast_S64_S64x1_0 : (⟨S64, .i32⟩ : BufTy).Contents (Elt F) → (⟨S64x1, .i32⟩ : BufTy).Contents (Elt F))
  :: StableHlo.binary main_v4 main_v58 main_v59 ((fun x i => Host.gather gather_S64x1000_S64x1_S64x1000_1_0_n_n_0_1_11000 x i) : (⟨S64x1000, .f32⟩ : BufTy).Contents (Elt F) → (⟨S64x1, .i32⟩ : BufTy).Contents (Elt F) → (⟨S64x1000, .f32⟩ : BufTy).Contents (Elt F))
  :: StableHlo.nullary main_cst_15 (constant S_ .f32 0x322BCC77#32)
  :: StableHlo.unary main_cst_15 main_v60 (broadcastInDim S64x1000 ![] bcast_S_S64x1000 : (⟨S_, .f32⟩ : BufTy).Contents (Elt F) → (⟨S64x1000, .f32⟩ : BufTy).Contents (Elt F))
  :: StableHlo.binary main_v42 main_v60 main_v61 (addf : (⟨S64x1000, .f32⟩ : BufTy).Contents (Elt F) → (⟨S64x1000, .f32⟩ : BufTy).Contents (Elt F) → (⟨S64x1000, .f32⟩ : BufTy).Contents (Elt F))
  :: StableHlo.binary main_v59 main_v61 main_v62 (Host.divf : (⟨S64x1000, .f32⟩ : BufTy).Contents (Elt F) → (⟨S64x1000, .f32⟩ : BufTy).Contents (Elt F) → (⟨S64x1000, .f32⟩ : BufTy).Contents (Elt F))
  :: StableHlo.nullary main_c_16 (constantI S_ 32 0#32)
  :: StableHlo.unary main_c_16 main_v63 (broadcastInDim S64 ![] bcast_S_S64 : (⟨S_, .i32⟩ : BufTy).Contents (Elt F) → (⟨S64, .i32⟩ : BufTy).Contents (Elt F))
  :: StableHlo.binary main_v34 main_v63 main_v64 (cmpi .slt : (⟨S64, .i32⟩ : BufTy).Contents (Elt F) → (⟨S64, .i32⟩ : BufTy).Contents (Elt F) → (⟨S64, .i1⟩ : BufTy).Contents (Elt F))
  :: StableHlo.nullary main_c_17 (constantI S_ 32 64#32)
  :: StableHlo.unary main_c_17 main_v65 (broadcastInDim S64 ![] bcast_S_S64 : (⟨S_, .i32⟩ : BufTy).Contents (Elt F) → (⟨S64, .i32⟩ : BufTy).Contents (Elt F))
  :: StableHlo.binary main_v34 main_v65 main_v66 (addi : (⟨S64, .i32⟩ : BufTy).Contents (Elt F) → (⟨S64, .i32⟩ : BufTy).Contents (Elt F) → (⟨S64, .i32⟩ : BufTy).Contents (Elt F))
  :: StableHlo.ternary main_v64 main_v66 main_v34 main_v67 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v67 main_v68 (broadcastInDim S64x1 ![0] bcast_S64_S64x1_0 : (⟨S64, .i32⟩ : BufTy).Contents (Elt F) → (⟨S64x1, .i32⟩ : BufTy).Contents (Elt F))
  :: StableHlo.binary main_arg3 main_v68 main_v69 ((fun x i => Host.gather gather_S64x1000_S64x1_S64x1000_1_0_n_n_0_1_11000 x i) : (⟨S64x1000, .i1⟩ : BufTy).Contents (Elt F) → (⟨S64x1, .i32⟩ : BufTy).Contents (Elt F) → (⟨S64x1000, .i1⟩ : BufTy).Contents (Elt F))
  :: StableHlo.nullary main_c_18 (constantI S_ 32 0#32)
  :: StableHlo.unary main_c_18 main_v70 (broadcastInDim S64 ![] bcast_S_S64 : (⟨S_, .i32⟩ : BufTy).Contents (Elt F) → (⟨S64, .i32⟩ : BufTy).Contents (Elt F))
  :: StableHlo.binary main_v34 main_v70 main_v71 (cmpi .slt : (⟨S64, .i32⟩ : BufTy).Contents (Elt F) → (⟨S64, .i32⟩ : BufTy).Contents (Elt F) → (⟨S64, .i1⟩ : BufTy).Contents (Elt F))
  :: StableHlo.nullary main_c_19 (constantI S_ 32 64#32)
  :: StableHlo.unary main_c_19 main_v72 (broadcastInDim S64 ![] bcast_S_S64 : (⟨S_, .i32⟩ : BufTy).Contents (Elt F) → (⟨S64, .i32⟩ : BufTy).Contents (Elt F))
  :: StableHlo.binary main_v34 main_v72 main_v73 (addi : (⟨S64, .i32⟩ : BufTy).Contents (Elt F) → (⟨S64, .i32⟩ : BufTy).Contents (Elt F) → (⟨S64, .i32⟩ : BufTy).Contents (Elt F))
  :: StableHlo.ternary main_v71 main_v73 main_v34 main_v74 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v74 main_v75 (broadcastInDim S64x1 ![0] bcast_S64_S64x1_0 : (⟨S64, .i32⟩ : BufTy).Contents (Elt F) → (⟨S64x1, .i32⟩ : BufTy).Contents (Elt F))
  :: StableHlo.binary main_arg4 main_v75 main_v76 ((fun x i => Host.gather gather_S64x1000_S64x1_S64x1000_1_0_n_n_0_1_11000 x i) : (⟨S64x1000, .i1⟩ : BufTy).Contents (Elt F) → (⟨S64x1, .i32⟩ : BufTy).Contents (Elt F) → (⟨S64x1000, .i1⟩ : BufTy).Contents (Elt F))
  :: StableHlo.unary main_v76 main_v77 (noti : (⟨S64x1000, .i1⟩ : BufTy).Contents (Elt F) → (⟨S64x1000, .i1⟩ : BufTy).Contents (Elt F))
  :: StableHlo.binary main_v69 main_v77 main_v78 (andi : (⟨S64x1000, .i1⟩ : BufTy).Contents (Elt F) → (⟨S64x1000, .i1⟩ : BufTy).Contents (Elt F) → (⟨S64x1000, .i1⟩ : BufTy).Contents (Elt F))
  :: StableHlo.nullary main_c_20 (constantI S_ 32 0#32)
  :: StableHlo.unary main_c_20 main_v79 (broadcastInDim S64 ![] bcast_S_S64 : (⟨S_, .i32⟩ : BufTy).Contents (Elt F) → (⟨S64, .i32⟩ : BufTy).Contents (Elt F))
  :: StableHlo.binary main_v35 main_v79 main_v80 (cmpi .slt : (⟨S64, .i32⟩ : BufTy).Contents (Elt F) → (⟨S64, .i32⟩ : BufTy).Contents (Elt F) → (⟨S64, .i1⟩ : BufTy).Contents (Elt F))
  :: StableHlo.nullary main_c_21 (constantI S_ 32 64#32)
  :: StableHlo.unary main_c_21 main_v81 (broadcastInDim S64 ![] bcast_S_S64 : (⟨S_, .i32⟩ : BufTy).Contents (Elt F) → (⟨S64, .i32⟩ : BufTy).Contents (Elt F))
  :: StableHlo.binary main_v35 main_v81 main_v82 (addi : (⟨S64, .i32⟩ : BufTy).Contents (Elt F) → (⟨S64, .i32⟩ : BufTy).Contents (Elt F) → (⟨S64, .i32⟩ : BufTy).Contents (Elt F))
  :: StableHlo.ternary main_v80 main_v82 main_v35 main_v83 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v83 main_v84 (broadcastInDim S64x1 ![0] bcast_S64_S64x1_0 : (⟨S64, .i32⟩ : BufTy).Contents (Elt F) → (⟨S64x1, .i32⟩ : BufTy).Contents (Elt F))
  :: StableHlo.binary main_arg3 main_v84 main_v85 ((fun x i => Host.gather gather_S64x1000_S64x1_S64x1000_1_0_n_n_0_1_11000 x i) : (⟨S64x1000, .i1⟩ : BufTy).Contents (Elt F) → (⟨S64x1, .i32⟩ : BufTy).Contents (Elt F) → (⟨S64x1000, .i1⟩ : BufTy).Contents (Elt F))
  :: StableHlo.nullary main_c_22 (constantI S_ 32 0#32)
  :: StableHlo.unary main_c_22 main_v86 (broadcastInDim S64 ![] bcast_S_S64 : (⟨S_, .i32⟩ : BufTy).Contents (Elt F) → (⟨S64, .i32⟩ : BufTy).Contents (Elt F))
  :: StableHlo.binary main_v35 main_v86 main_v87 (cmpi .slt : (⟨S64, .i32⟩ : BufTy).Contents (Elt F) → (⟨S64, .i32⟩ : BufTy).Contents (Elt F) → (⟨S64, .i1⟩ : BufTy).Contents (Elt F))
  :: StableHlo.nullary main_c_23 (constantI S_ 32 64#32)
  :: StableHlo.unary main_c_23 main_v88 (broadcastInDim S64 ![] bcast_S_S64 : (⟨S_, .i32⟩ : BufTy).Contents (Elt F) → (⟨S64, .i32⟩ : BufTy).Contents (Elt F))
  :: StableHlo.binary main_v35 main_v88 main_v89 (addi : (⟨S64, .i32⟩ : BufTy).Contents (Elt F) → (⟨S64, .i32⟩ : BufTy).Contents (Elt F) → (⟨S64, .i32⟩ : BufTy).Contents (Elt F))
  :: StableHlo.ternary main_v87 main_v89 main_v35 main_v90 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v90 main_v91 (broadcastInDim S64x1 ![0] bcast_S64_S64x1_0 : (⟨S64, .i32⟩ : BufTy).Contents (Elt F) → (⟨S64x1, .i32⟩ : BufTy).Contents (Elt F))
  :: StableHlo.binary main_arg4 main_v91 main_v92 ((fun x i => Host.gather gather_S64x1000_S64x1_S64x1000_1_0_n_n_0_1_11000 x i) : (⟨S64x1000, .i1⟩ : BufTy).Contents (Elt F) → (⟨S64x1, .i32⟩ : BufTy).Contents (Elt F) → (⟨S64x1000, .i1⟩ : BufTy).Contents (Elt F))
  :: StableHlo.unary main_v92 main_v93 (noti : (⟨S64x1000, .i1⟩ : BufTy).Contents (Elt F) → (⟨S64x1000, .i1⟩ : BufTy).Contents (Elt F))
  :: [] )

set_option maxHeartbeats 40000000 in
/-- Each touches TensorCore references only. -/
theorem rOps1_sub : (rOps1 : List (HloOp τ sig (Elt F))).Forall fun op => op.bufs ⊆ StableHlo.tcRefs τ sig :=
  ⟨StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub ..⟩

/-- Window 2: operations 128 … 189. -/
abbrev rOps2 : List (HloOp τ sig (Elt F)) :=
  ( StableHlo.binary main_v85 main_v93 main_v94 (andi : (⟨S64x1000, .i1⟩ : BufTy).Contents (Elt F) → (⟨S64x1000, .i1⟩ : BufTy).Contents (Elt F) → (⟨S64x1000, .i1⟩ : BufTy).Contents (Elt F))
  :: StableHlo.nullary main_c_24 (constantI S_ 32 0#32)
  :: StableHlo.unary main_c_24 main_v95 (broadcastInDim S64 ![] bcast_S_S64 : (⟨S_, .i32⟩ : BufTy).Contents (Elt F) → (⟨S64, .i32⟩ : BufTy).Contents (Elt F))
  :: StableHlo.binary main_v34 main_v95 main_v96 (cmpi .slt : (⟨S64, .i32⟩ : BufTy).Contents (Elt F) → (⟨S64, .i32⟩ : BufTy).Contents (Elt F) → (⟨S64, .i1⟩ : BufTy).Contents (Elt F))
  :: StableHlo.nullary main_c_25 (constantI S_ 32 64#32)
  :: StableHlo.unary main_c_25 main_v97 (broadcastInDim S64 ![] bcast_S_S64 : (⟨S_, .i32⟩ : BufTy).Contents (Elt F) → (⟨S64, .i32⟩ : BufTy).Contents (Elt F))
  :: StableHlo.binary main_v34 main_v97 main_v98 (addi : (⟨S64, .i32⟩ : BufTy).Contents (Elt F) → (⟨S64, .i32⟩ : BufTy).Contents (Elt F) → (⟨S64, .i32⟩ : BufTy).Contents (Elt F))
  :: StableHlo.ternary main_v96 main_v98 main_v34 main_v99 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v99 main_v100 (broadcastInDim S64x1 ![0] bcast_S64_S64x1_0 : (⟨S64, .i32⟩ : BufTy).Contents (Elt F) → (⟨S64x1, .i32⟩ : BufTy).Contents (Elt F))
  :: StableHlo.binary main_arg6 main_v100 main_v101 ((fun x i => Host.gather gather_S64x1000_S64x1_S64x1000_1_0_n_n_0_1_11000 x i) : (⟨S64x1000, .i1⟩ : BufTy).Contents (Elt F) → (⟨S64x1, .i32⟩ : BufTy).Contents (Elt F) → (⟨S64x1000, .i1⟩ : BufTy).Contents (Elt F))
  :: StableHlo.nullary main_c_26 (constantI S_ 32 0#32)
  :: StableHlo.unary main_c_26 main_v102 (broadcastInDim S64 ![] bcast_S_S64 : (⟨S_, .i32⟩ : BufTy).Contents (Elt F) → (⟨S64, .i32⟩ : BufTy).Contents (Elt F))
  :: StableHlo.binary main_v35 main_v102 main_v103 (cmpi .slt : (⟨S64, .i32⟩ : BufTy).Contents (Elt F) → (⟨S64, .i32⟩ : BufTy).Contents (Elt F) → (⟨S64, .i1⟩ : BufTy).Contents (Elt F))
  :: StableHlo.nullary main_c_27 (constantI S_ 32 64#32)
  :: StableHlo.unary main_c_27 main_v104 (broadcastInDim S64 ![] bcast_S_S64 : (⟨S_, .i32⟩ : BufTy).Contents (Elt F) → (⟨S64, .i32⟩ : BufTy).Contents (Elt F))
  :: StableHlo.binary main_v35 main_v104 main_v105 (addi : (⟨S64, .i32⟩ : BufTy).Contents (Elt F) → (⟨S64, .i32⟩ : BufTy).Contents (Elt F) → (⟨S64, .i32⟩ : BufTy).Contents (Elt F))
  :: StableHlo.ternary main_v103 main_v105 main_v35 main_v106 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v106 main_v107 (broadcastInDim S64x1 ![0] bcast_S64_S64x1_0 : (⟨S64, .i32⟩ : BufTy).Contents (Elt F) → (⟨S64x1, .i32⟩ : BufTy).Contents (Elt F))
  :: StableHlo.binary main_arg6 main_v107 main_v108 ((fun x i => Host.gather gather_S64x1000_S64x1_S64x1000_1_0_n_n_0_1_11000 x i) : (⟨S64x1000, .i1⟩ : BufTy).Contents (Elt F) → (⟨S64x1, .i32⟩ : BufTy).Contents (Elt F) → (⟨S64x1000, .i1⟩ : BufTy).Contents (Elt F))
  :: StableHlo.binary main_v101 main_v108 main_v109 (andi : (⟨S64x1000, .i1⟩ : BufTy).Contents (Elt F) → (⟨S64x1000, .i1⟩ : BufTy).Contents (Elt F) → (⟨S64x1000, .i1⟩ : BufTy).Contents (Elt F))
  :: StableHlo.nullary main_c_28 (constantI S_ 32 0#32)
  :: StableHlo.unary main_c_28 main_v110 (broadcastInDim S64 ![] bcast_S_S64 : (⟨S_, .i32⟩ : BufTy).Contents (Elt F) → (⟨S64, .i32⟩ : BufTy).Contents (Elt F))
  :: StableHlo.binary main_v34 main_v110 main_v111 (cmpi .slt : (⟨S64, .i32⟩ : BufTy).Contents (Elt F) → (⟨S64, .i32⟩ : BufTy).Contents (Elt F) → (⟨S64, .i1⟩ : BufTy).Contents (Elt F))
  :: StableHlo.nullary main_c_29 (constantI S_ 32 64#32)
  :: StableHlo.unary main_c_29 main_v112 (broadcastInDim S64 ![] bcast_S_S64 : (⟨S_, .i32⟩ : BufTy).Contents (Elt F) → (⟨S64, .i32⟩ : BufTy).Contents (Elt F))
  :: StableHlo.binary main_v34 main_v112 main_v113 (addi : (⟨S64, .i32⟩ : BufTy).Contents (Elt F) → (⟨S64, .i32⟩ : BufTy).Contents (Elt F) → (⟨S64, .i32⟩ : BufTy).Contents (Elt F))
  :: StableHlo.ternary main_v111 main_v113 main_v34 main_v114 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v114 main_v115 (broadcastInDim S64x1 ![0] bcast_S64_S64x1_0 : (⟨S64, .i32⟩ : BufTy).Contents (Elt F) → (⟨S64x1, .i32⟩ : BufTy).Contents (Elt F))
  :: StableHlo.binary main_arg5 main_v115 main_v116 ((fun x i => Host.gather gather_S64x1000_S64x1_S64x1000_1_0_n_n_0_1_11000 x i) : (⟨S64x1000, .i1⟩ : BufTy).Contents (Elt F) → (⟨S64x1, .i32⟩ : BufTy).Contents (Elt F) → (⟨S64x1000, .i1⟩ : BufTy).Contents (Elt F))
  :: StableHlo.nullary main_c_30 (constantI S_ 32 0#32)
  :: StableHlo.unary main_c_30 main_v117 (broadcastInDim S64 ![] bcast_S_S64 : (⟨S_, .i32⟩ : BufTy).Contents (Elt F) → (⟨S64, .i32⟩ : BufTy).Contents (Elt F))
  :: StableHlo.binary main_v35 main_v117 main_v118 (cmpi .slt : (⟨S64, .i32⟩ : BufTy).Contents (Elt F) → (⟨S64, .i32⟩ : BufTy).Contents (Elt F) → (⟨S64, .i1⟩ : BufTy).Contents (Elt F))
  :: StableHlo.nullary main_c_31 (constantI S_ 32 64#32)
  :: StableHlo.unary main_c_31 main_v119 (broadcastInDim S64 ![] bcast_S_S64 : (⟨S_, .i32⟩ : BufTy).Contents (Elt F) → (⟨S64, .i32⟩ : BufTy).Contents (Elt F))
  :: StableHlo.binary main_v35 main_v119 main_v120 (addi : (⟨S64, .i32⟩ : BufTy).Contents (Elt F) → (⟨S64, .i32⟩ : BufTy).Contents (Elt F) → (⟨S64, .i32⟩ : BufTy).Contents (Elt F))
  :: StableHlo.ternary main_v118 main_v120 main_v35 main_v121 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v121 main_v122 (broadcastInDim S64x1 ![0] bcast_S64_S64x1_0 : (⟨S64, .i32⟩ : BufTy).Contents (Elt F) → (⟨S64x1, .i32⟩ : BufTy).Contents (Elt F))
  :: StableHlo.binary main_arg5 main_v122 main_v123 ((fun x i => Host.gather gather_S64x1000_S64x1_S64x1000_1_0_n_n_0_1_11000 x i) : (⟨S64x1000, .i1⟩ : BufTy).Contents (Elt F) → (⟨S64x1, .i32⟩ : BufTy).Contents (Elt F) → (⟨S64x1000, .i1⟩ : BufTy).Contents (Elt F))
  :: StableHlo.binary main_v116 main_v123 main_v124 (andi : (⟨S64x1000, .i1⟩ : BufTy).Contents (Elt F) → (⟨S64x1000, .i1⟩ : BufTy).Contents (Elt F) → (⟨S64x1000, .i1⟩ : BufTy).Contents (Elt F))
  :: StableHlo.nullary main_c_32 (constantI S_ 1 0#1)
  :: StableHlo.binary main_v78 main_c_32 main_v125 ((fun x v => Host.reduce IntOp.ori x v reducesTo_S64x1000_S64_d1 h_S_) : (⟨S64x1000, .i1⟩ : BufTy).Contents (Elt F) → (⟨S_, .i1⟩ : BufTy).Contents (Elt F) → (⟨S64, .i1⟩ : BufTy).Contents (Elt F))
  :: StableHlo.binary main_v33 main_v125 main_v126 (andi : (⟨S64, .i1⟩ : BufTy).Contents (Elt F) → (⟨S64, .i1⟩ : BufTy).Contents (Elt F) → (⟨S64, .i1⟩ : BufTy).Contents (Elt F))
  :: StableHlo.nullary main_c_33 (constantI S_ 1 0#1)
  :: StableHlo.binary main_v94 main_c_33 main_v127 ((fun x v => Host.reduce IntOp.ori x v reducesTo_S64x1000_S64_d1 h_S_) : (⟨S64x1000, .i1⟩ : BufTy).Contents (Elt F) → (⟨S_, .i1⟩ : BufTy).Contents (Elt F) → (⟨S64, .i1⟩ : BufTy).Contents (Elt F))
  :: StableHlo.binary main_v33 main_v127 main_v128 (andi : (⟨S64, .i1⟩ : BufTy).Contents (Elt F) → (⟨S64, .i1⟩ : BufTy).Contents (Elt F) → (⟨S64, .i1⟩ : BufTy).Contents (Elt F))
  :: StableHlo.nullary main_c_34 (constantI S_ 1 0#1)
  :: StableHlo.binary main_v109 main_c_34 main_v129 ((fun x v => Host.reduce IntOp.ori x v reducesTo_S64x1000_S64_d1 h_S_) : (⟨S64x1000, .i1⟩ : BufTy).Contents (Elt F) → (⟨S_, .i1⟩ : BufTy).Contents (Elt F) → (⟨S64, .i1⟩ : BufTy).Contents (Elt F))
  :: StableHlo.binary main_v33 main_v129 main_v130 (andi : (⟨S64, .i1⟩ : BufTy).Contents (Elt F) → (⟨S64, .i1⟩ : BufTy).Contents (Elt F) → (⟨S64, .i1⟩ : BufTy).Contents (Elt F))
  :: StableHlo.binary main_v52 main_v62 main_v131 (subf : (⟨S64x1000, .f32⟩ : BufTy).Contents (Elt F) → (⟨S64x1000, .f32⟩ : BufTy).Contents (Elt F) → (⟨S64x1000, .f32⟩ : BufTy).Contents (Elt F))
  :: StableHlo.nullary main_cst_35 (constant S_ .f32 0x3D4CCCCD#32)
  :: StableHlo.unary main_cst_35 main_v132 (broadcastInDim S64x1000 ![] bcast_S_S64x1000 : (⟨S_, .f32⟩ : BufTy).Contents (Elt F) → (⟨S64x1000, .f32⟩ : BufTy).Contents (Elt F))
  :: StableHlo.binary main_v132 main_v131 main_v133 (subf : (⟨S64x1000, .f32⟩ : BufTy).Contents (Elt F) → (⟨S64x1000, .f32⟩ : BufTy).Contents (Elt F) → (⟨S64x1000, .f32⟩ : BufTy).Contents (Elt F))
  :: StableHlo.TRef.nullary (.of main_call2_cst : StableHlo.TRef sig ⟨S_, .f32⟩) (constant S_ .f32 0x00000000#32)
  :: StableHlo.TRef.unary (.of main_call2_cst : StableHlo.TRef sig ⟨S_, .f32⟩) (.of main_call2_v0 : StableHlo.TRef sig ⟨S64x1000, .f32⟩) (broadcastInDim S64x1000 ![] bcast_S_S64x1000)
  :: StableHlo.TRef.binary (.of main_v133 : StableHlo.TRef sig ⟨S64x1000, .f32⟩) (.of main_call2_v0 : StableHlo.TRef sig ⟨S64x1000, .f32⟩) (.of main_v134 : StableHlo.TRef sig ⟨S64x1000, .f32⟩) maximumf
  :: StableHlo.binary main_v134 main_v134 main_v135 (mulf : (⟨S64x1000, .f32⟩ : BufTy).Contents (Elt F) → (⟨S64x1000, .f32⟩ : BufTy).Contents (Elt F) → (⟨S64x1000, .f32⟩ : BufTy).Contents (Elt F))
  :: StableHlo.unary main_v78 main_v136 ((extui 32 · natLt_1_32) : (⟨S64x1000, .i1⟩ : BufTy).Contents (Elt F) → (⟨S64x1000, .i32⟩ : BufTy).Contents (Elt F))
  :: StableHlo.nullary main_c_36 (constantI S_ 32 0#32)
  :: StableHlo.binary main_v136 main_c_36 main_v137 ((fun x v => Host.reduce IntOp.addi x v reducesTo_S64x1000_S64_d1 h_S_) : (⟨S64x1000, .i32⟩ : BufTy).Contents (Elt F) → (⟨S_, .i32⟩ : BufTy).Contents (Elt F) → (⟨S64, .i32⟩ : BufTy).Contents (Elt F))
  :: StableHlo.nullary main_c_37 (constantI S_ 32 0#32)
  :: StableHlo.unary main_c_37 main_v138 (broadcastInDim S64 ![] bcast_S_S64 : (⟨S_, .i32⟩ : BufTy).Contents (Elt F) → (⟨S64, .i32⟩ : BufTy).Contents (Elt F))
  :: StableHlo.binary main_v137 main_v138 main_v139 (cmpi .sgt : (⟨S64, .i32⟩ : BufTy).Contents (Elt F) → (⟨S64, .i32⟩ : BufTy).Contents (Elt F) → (⟨S64, .i1⟩ : BufTy).Contents (Elt F))
  :: [] )

set_option maxHeartbeats 40000000 in
/-- Each touches TensorCore references only. -/
theorem rOps2_sub : (rOps2 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub ..⟩

/-- Window 3: operations 190 … 263. -/
abbrev rOps3 : List (HloOp τ sig (Elt F)) :=
  ( StableHlo.nullary main_cst_38 (constant S_ .f32 0x00000000#32)
  :: StableHlo.TRef.unary (.of main_cst_38 : StableHlo.TRef sig ⟨S_, .f32⟩) (.of main_call3_v0 : StableHlo.TRef sig ⟨S_, .f32⟩) id
  :: StableHlo.TRef.unary (.of main_call3_v0 : StableHlo.TRef sig ⟨S_, .f32⟩) (.of main_call3_v1 : StableHlo.TRef sig ⟨S64x1000, .f32⟩) (broadcastInDim S64x1000 ![] bcast_S_S64x1000)
  :: StableHlo.TRef.ternary (.of main_v78 : StableHlo.TRef sig ⟨S64x1000, .i1⟩) (.of main_v135 : StableHlo.TRef sig ⟨S64x1000, .f32⟩) (.of main_call3_v1 : StableHlo.TRef sig ⟨S64x1000, .f32⟩) (.of main_v140 : StableHlo.TRef sig ⟨S64x1000, .f32⟩) select
  :: StableHlo.nullary main_cst_39 (constant S_ .f32 0x00000000#32)
  :: StableHlo.binary main_v140 main_cst_39 main_v141 ((fun x v => Host.reduceAdd x v reducesTo_S64x1000_S64_d1 h_S_) : (⟨S64x1000, .f32⟩ : BufTy).Contents (Elt F) → (⟨S_, .f32⟩ : BufTy).Contents (Elt F) → (⟨S64, .f32⟩ : BufTy).Contents (Elt F))
  :: StableHlo.nullary main_c_40 (constantI S_ 32 1#32)
  :: StableHlo.unary main_c_40 main_v142 (broadcastInDim S64 ![] bcast_S_S64 : (⟨S_, .i32⟩ : BufTy).Contents (Elt F) → (⟨S64, .i32⟩ : BufTy).Contents (Elt F))
  :: StableHlo.binary main_v137 main_v142 main_v143 (maxsi : (⟨S64, .i32⟩ : BufTy).Contents (Elt F) → (⟨S64, .i32⟩ : BufTy).Contents (Elt F) → (⟨S64, .i32⟩ : BufTy).Contents (Elt F))
  :: StableHlo.unary main_v143 main_v144 (sitofp .f32 : (⟨S64, .i32⟩ : BufTy).Contents (Elt F) → (⟨S64, .f32⟩ : BufTy).Contents (Elt F))
  :: StableHlo.binary main_v141 main_v144 main_v145 (Host.divf : (⟨S64, .f32⟩ : BufTy).Contents (Elt F) → (⟨S64, .f32⟩ : BufTy).Contents (Elt F) → (⟨S64, .f32⟩ : BufTy).Contents (Elt F))
  :: StableHlo.nullary main_cst_41 (constant S_ .f32 0x00000000#32)
  :: StableHlo.TRef.unary (.of main_cst_41 : StableHlo.TRef sig ⟨S_, .f32⟩) (.of main_call4_v0 : StableHlo.TRef sig ⟨S_, .f32⟩) id
  :: StableHlo.TRef.unary (.of main_call4_v0 : StableHlo.TRef sig ⟨S_, .f32⟩) (.of main_call4_v1 : StableHlo.TRef sig ⟨S64, .f32⟩) (broadcastInDim S64 ![] bcast_S_S64)
  :: StableHlo.TRef.ternary (.of main_v139 : StableHlo.TRef sig ⟨S64, .i1⟩) (.of main_v145 : StableHlo.TRef sig ⟨S64, .f32⟩) (.of main_call4_v1 : StableHlo.TRef sig ⟨S64, .f32⟩) (.of main_v146 : StableHlo.TRef sig ⟨S64, .f32⟩) select
  :: StableHlo.binary main_v62 main_v52 main_v147 (subf : (⟨S64x1000, .f32⟩ : BufTy).Contents (Elt F) → (⟨S64x1000, .f32⟩ : BufTy).Contents (Elt F) → (⟨S64x1000, .f32⟩ : BufTy).Contents (Elt F))
  :: StableHlo.nullary main_cst_42 (constant S_ .f32 0x3D4CCCCD#32)
  :: StableHlo.unary main_cst_42 main_v148 (broadcastInDim S64x1000 ![] bcast_S_S64x1000 : (⟨S_, .f32⟩ : BufTy).Contents (Elt F) → (⟨S64x1000, .f32⟩ : BufTy).Contents (Elt F))
  :: StableHlo.binary main_v148 main_v147 main_v149 (subf : (⟨S64x1000, .f32⟩ : BufTy).Contents (Elt F) → (⟨S64x1000, .f32⟩ : BufTy).Contents (Elt F) → (⟨S64x1000, .f32⟩ : BufTy).Contents (Elt F))
  :: StableHlo.TRef.nullary (.of main_call5_cst : StableHlo.TRef sig ⟨S_, .f32⟩) (constant S_ .f32 0x00000000#32)
  :: StableHlo.TRef.unary (.of main_call5_cst : StableHlo.TRef sig ⟨S_, .f32⟩) (.of main_call5_v0 : StableHlo.TRef sig ⟨S64x1000, .f32⟩) (broadcastInDim S64x1000 ![] bcast_S_S64x1000)
  :: StableHlo.TRef.binary (.of main_v149 : StableHlo.TRef sig ⟨S64x1000, .f32⟩) (.of main_call5_v0 : StableHlo.TRef sig ⟨S64x1000, .f32⟩) (.of main_v150 : StableHlo.TRef sig ⟨S64x1000, .f32⟩) maximumf
  :: StableHlo.binary main_v150 main_v150 main_v151 (mulf : (⟨S64x1000, .f32⟩ : BufTy).Contents (Elt F) → (⟨S64x1000, .f32⟩ : BufTy).Contents (Elt F) → (⟨S64x1000, .f32⟩ : BufTy).Contents (Elt F))
  :: StableHlo.unary main_v94 main_v152 ((extui 32 · natLt_1_32) : (⟨S64x1000, .i1⟩ : BufTy).Contents (Elt F) → (⟨S64x1000, .i32⟩ : BufTy).Contents (Elt F))
  :: StableHlo.nullary main_c_43 (constantI S_ 32 0#32)
  :: StableHlo.binary main_v152 main_c_43 main_v153 ((fun x v => Host.reduce IntOp.addi x v reducesTo_S64x1000_S64_d1 h_S_) : (⟨S64x1000, .i32⟩ : BufTy).Contents (Elt F) → (⟨S_, .i32⟩ : BufTy).Contents (Elt F) → (⟨S64, .i32⟩ : BufTy).Contents (Elt F))
  :: StableHlo.nullary main_c_44 (constantI S_ 32 0#32)
  :: StableHlo.unary main_c_44 main_v154 (broadcastInDim S64 ![] bcast_S_S64 : (⟨S_, .i32⟩ : BufTy).Contents (Elt F) → (⟨S64, .i32⟩ : BufTy).Contents (Elt F))
  :: StableHlo.binary main_v153 main_v154 main_v155 (cmpi .sgt : (⟨S64, .i32⟩ : BufTy).Contents (Elt F) → (⟨S64, .i32⟩ : BufTy).Contents (Elt F) → (⟨S64, .i1⟩ : BufTy).Contents (Elt F))
  :: StableHlo.nullary main_cst_45 (constant S_ .f32 0x00000000#32)
  :: StableHlo.TRef.unary (.of main_cst_45 : StableHlo.TRef sig ⟨S_, .f32⟩) (.of main_call6_v0 : StableHlo.TRef sig ⟨S_, .f32⟩) id
  :: StableHlo.TRef.unary (.of main_call6_v0 : StableHlo.TRef sig ⟨S_, .f32⟩) (.of main_call6_v1 : StableHlo.TRef sig ⟨S64x1000, .f32⟩) (broadcastInDim S64x1000 ![] bcast_S_S64x1000)
  :: StableHlo.TRef.ternary (.of main_v94 : StableHlo.TRef sig ⟨S64x1000, .i1⟩) (.of main_v151 : StableHlo.TRef sig ⟨S64x1000, .f32⟩) (.of main_call6_v1 : StableHlo.TRef sig ⟨S64x1000, .f32⟩) (.of main_v156 : StableHlo.TRef sig ⟨S64x1000, .f32⟩) select
  :: StableHlo.nullary main_cst_46 (constant S_ .f32 0x00000000#32)
  :: StableHlo.binary main_v156 main_cst_46 main_v157 ((fun x v => Host.reduceAdd x v reducesTo_S64x1000_S64_d1 h_S_) : (⟨S64x1000, .f32⟩ : BufTy).Contents (Elt F) → (⟨S_, .f32⟩ : BufTy).Contents (Elt F) → (⟨S64, .f32⟩ : BufTy).Contents (Elt F))
  :: StableHlo.nullary main_c_47 (constantI S_ 32 1#32)
  :: StableHlo.unary main_c_47 main_v158 (broadcastInDim S64 ![] bcast_S_S64 : (⟨S_, .i32⟩ : BufTy).Contents (Elt F) → (⟨S64, .i32⟩ : BufTy).Contents (Elt F))
  :: StableHlo.binary main_v153 main_v158 main_v159 (maxsi : (⟨S64, .i32⟩ : BufTy).Contents (Elt F) → (⟨S64, .i32⟩ : BufTy).Contents (Elt F) → (⟨S64, .i32⟩ : BufTy).Contents (Elt F))
  :: StableHlo.unary main_v159 main_v160 (sitofp .f32 : (⟨S64, .i32⟩ : BufTy).Contents (Elt F) → (⟨S64, .f32⟩ : BufTy).Contents (Elt F))
  :: StableHlo.binary main_v157 main_v160 main_v161 (Host.divf : (⟨S64, .f32⟩ : BufTy).Contents (Elt F) → (⟨S64, .f32⟩ : BufTy).Contents (Elt F) → (⟨S64, .f32⟩ : BufTy).Contents (Elt F))
  :: StableHlo.nullary main_cst_48 (constant S_ .f32 0x00000000#32)
  :: StableHlo.TRef.unary (.of main_cst_48 : StableHlo.TRef sig ⟨S_, .f32⟩) (.of main_call7_v0 : StableHlo.TRef sig ⟨S_, .f32⟩) id
  :: StableHlo.TRef.unary (.of main_call7_v0 : StableHlo.TRef sig ⟨S_, .f32⟩) (.of main_call7_v1 : StableHlo.TRef sig ⟨S64, .f32⟩) (broadcastInDim S64 ![] bcast_S_S64)
  :: StableHlo.TRef.ternary (.of main_v155 : StableHlo.TRef sig ⟨S64, .i1⟩) (.of main_v161 : StableHlo.TRef sig ⟨S64, .f32⟩) (.of main_call7_v1 : StableHlo.TRef sig ⟨S64, .f32⟩) (.of main_v162 : StableHlo.TRef sig ⟨S64, .f32⟩) select
  :: StableHlo.binary main_v52 main_v62 main_v163 (addf : (⟨S64x1000, .f32⟩ : BufTy).Contents (Elt F) → (⟨S64x1000, .f32⟩ : BufTy).Contents (Elt F) → (⟨S64x1000, .f32⟩ : BufTy).Contents (Elt F))
  :: StableHlo.unary main_v109 main_v164 ((extui 32 · natLt_1_32) : (⟨S64x1000, .i1⟩ : BufTy).Contents (Elt F) → (⟨S64x1000, .i32⟩ : BufTy).Contents (Elt F))
  :: StableHlo.nullary main_c_49 (constantI S_ 32 0#32)
  :: StableHlo.binary main_v164 main_c_49 main_v165 ((fun x v => Host.reduce IntOp.addi x v reducesTo_S64x1000_S64_d1 h_S_) : (⟨S64x1000, .i32⟩ : BufTy).Contents (Elt F) → (⟨S_, .i32⟩ : BufTy).Contents (Elt F) → (⟨S64, .i32⟩ : BufTy).Contents (Elt F))
  :: StableHlo.nullary main_c_50 (constantI S_ 32 0#32)
  :: StableHlo.unary main_c_50 main_v166 (broadcastInDim S64 ![] bcast_S_S64 : (⟨S_, .i32⟩ : BufTy).Contents (Elt F) → (⟨S64, .i32⟩ : BufTy).Contents (Elt F))
  :: StableHlo.binary main_v165 main_v166 main_v167 (cmpi .sgt : (⟨S64, .i32⟩ : BufTy).Contents (Elt F) → (⟨S64, .i32⟩ : BufTy).Contents (Elt F) → (⟨S64, .i1⟩ : BufTy).Contents (Elt F))
  :: StableHlo.nullary main_cst_51 (constant S_ .f32 0x00000000#32)
  :: StableHlo.TRef.unary (.of main_cst_51 : StableHlo.TRef sig ⟨S_, .f32⟩) (.of main_call8_v0 : StableHlo.TRef sig ⟨S_, .f32⟩) id
  :: StableHlo.TRef.unary (.of main_call8_v0 : StableHlo.TRef sig ⟨S_, .f32⟩) (.of main_call8_v1 : StableHlo.TRef sig ⟨S64x1000, .f32⟩) (broadcastInDim S64x1000 ![] bcast_S_S64x1000)
  :: StableHlo.TRef.ternary (.of main_v109 : StableHlo.TRef sig ⟨S64x1000, .i1⟩) (.of main_v163 : StableHlo.TRef sig ⟨S64x1000, .f32⟩) (.of main_call8_v1 : StableHlo.TRef sig ⟨S64x1000, .f32⟩) (.of main_v168 : StableHlo.TRef sig ⟨S64x1000, .f32⟩) select
  :: StableHlo.nullary main_cst_52 (constant S_ .f32 0x00000000#32)
  :: StableHlo.binary main_v168 main_cst_52 main_v169 ((fun x v => Host.reduceAdd x v reducesTo_S64x1000_S64_d1 h_S_) : (⟨S64x1000, .f32⟩ : BufTy).Contents (Elt F) → (⟨S_, .f32⟩ : BufTy).Contents (Elt F) → (⟨S64, .f32⟩ : BufTy).Contents (Elt F))
  :: StableHlo.nullary main_c_53 (constantI S_ 32 1#32)
  :: StableHlo.unary main_c_53 main_v170 (broadcastInDim S64 ![] bcast_S_S64 : (⟨S_, .i32⟩ : BufTy).Contents (Elt F) → (⟨S64, .i32⟩ : BufTy).Contents (Elt F))
  :: StableHlo.binary main_v165 main_v170 main_v171 (maxsi : (⟨S64, .i32⟩ : BufTy).Contents (Elt F) → (⟨S64, .i32⟩ : BufTy).Contents (Elt F) → (⟨S64, .i32⟩ : BufTy).Contents (Elt F))
  :: StableHlo.unary main_v171 main_v172 (sitofp .f32 : (⟨S64, .i32⟩ : BufTy).Contents (Elt F) → (⟨S64, .f32⟩ : BufTy).Contents (Elt F))
  :: StableHlo.binary main_v169 main_v172 main_v173 (Host.divf : (⟨S64, .f32⟩ : BufTy).Contents (Elt F) → (⟨S64, .f32⟩ : BufTy).Contents (Elt F) → (⟨S64, .f32⟩ : BufTy).Contents (Elt F))
  :: StableHlo.nullary main_cst_54 (constant S_ .f32 0x00000000#32)
  :: StableHlo.TRef.unary (.of main_cst_54 : StableHlo.TRef sig ⟨S_, .f32⟩) (.of main_call9_v0 : StableHlo.TRef sig ⟨S_, .f32⟩) id
  :: StableHlo.TRef.unary (.of main_call9_v0 : StableHlo.TRef sig ⟨S_, .f32⟩) (.of main_call9_v1 : StableHlo.TRef sig ⟨S64, .f32⟩) (broadcastInDim S64 ![] bcast_S_S64)
  :: StableHlo.TRef.ternary (.of main_v167 : StableHlo.TRef sig ⟨S64, .i1⟩) (.of main_v173 : StableHlo.TRef sig ⟨S64, .f32⟩) (.of main_call9_v1 : StableHlo.TRef sig ⟨S64, .f32⟩) (.of main_v174 : StableHlo.TRef sig ⟨S64, .f32⟩) select
  :: StableHlo.unary main_v146 main_v175 (broadcastInDim S1x64 ![1] bcast_S64_S1x64_1 : (⟨S64, .f32⟩ : BufTy).Contents (Elt F) → (⟨S1x64, .f32⟩ : BufTy).Contents (Elt F))
  :: StableHlo.unary main_v162 main_v176 (broadcastInDim S1x64 ![1] bcast_S64_S1x64_1 : (⟨S64, .f32⟩ : BufTy).Contents (Elt F) → (⟨S1x64, .f32⟩ : BufTy).Contents (Elt F))
  :: StableHlo.unary main_v174 main_v177 (broadcastInDim S1x64 ![1] bcast_S64_S1x64_1 : (⟨S64, .f32⟩ : BufTy).Contents (Elt F) → (⟨S1x64, .f32⟩ : BufTy).Contents (Elt F))
  :: StableHlo.nary ![main_v175, main_v176, main_v177] main_v178 (fun u => concatenate S3x64 0 [⟨S1x64, u 0⟩, ⟨S1x64, u 1⟩, ⟨S1x64, u 2⟩] concatenates_S1x64_S1x64_S1x64_S3x64_d0)
  :: StableHlo.unary main_v126 main_v179 (broadcastInDim S1x64 ![1] bcast_S64_S1x64_1 : (⟨S64, .i1⟩ : BufTy).Contents (Elt F) → (⟨S1x64, .i1⟩ : BufTy).Contents (Elt F))
  :: StableHlo.unary main_v128 main_v180 (broadcastInDim S1x64 ![1] bcast_S64_S1x64_1 : (⟨S64, .i1⟩ : BufTy).Contents (Elt F) → (⟨S1x64, .i1⟩ : BufTy).Contents (Elt F))
  :: StableHlo.unary main_v130 main_v181 (broadcastInDim S1x64 ![1] bcast_S64_S1x64_1 : (⟨S64, .i1⟩ : BufTy).Contents (Elt F) → (⟨S1x64, .i1⟩ : BufTy).Contents (Elt F))
  :: StableHlo.nary ![main_v179, main_v180, main_v181] main_v182 (fun u => concatenate S3x64 0 [⟨S1x64, u 0⟩, ⟨S1x64, u 1⟩, ⟨S1x64, u 2⟩] concatenates_S1x64_S1x64_S1x64_S3x64_d0)
  :: [] )

set_option maxHeartbeats 40000000 in
/-- Each touches TensorCore references only. -/
theorem rOps3_sub : (rOps3 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.nary_bufs_sub ..⟩

/-- Window 4: operations 264 … 326. -/
abbrev rOps4 : List (HloOp τ sig (Elt F)) :=
  ( StableHlo.unary main_v182 main_v183 (uitofp .f32 : (⟨S3x64, .i1⟩ : BufTy).Contents (Elt F) → (⟨S3x64, .f32⟩ : BufTy).Contents (Elt F))
  :: StableHlo.nullary main_cst_55 (constant S_ .f32 0x00000000#32)
  :: StableHlo.binary main_v183 main_cst_55 main_v184 ((fun x v => Host.reduceAdd x v reducesTo_S3x64_S_d0_1 h_S_) : (⟨S3x64, .f32⟩ : BufTy).Contents (Elt F) → (⟨S_, .f32⟩ : BufTy).Contents (Elt F) → (⟨S_, .f32⟩ : BufTy).Contents (Elt F))
  :: StableHlo.nullary main_cst_56 (constant S_ .f32 0x00000000#32)
  :: StableHlo.binary main_v184 main_cst_56 main_v185 (cmpf .ogt : (⟨S_, .f32⟩ : BufTy).Contents (Elt F) → (⟨S_, .f32⟩ : BufTy).Contents (Elt F) → (⟨S_, .i1⟩ : BufTy).Contents (Elt F))
  :: StableHlo.binary main_v178 main_v183 main_v186 (mulf : (⟨S3x64, .f32⟩ : BufTy).Contents (Elt F) → (⟨S3x64, .f32⟩ : BufTy).Contents (Elt F) → (⟨S3x64, .f32⟩ : BufTy).Contents (Elt F))
  :: StableHlo.nullary main_cst_57 (constant S_ .f32 0x00000000#32)
  :: StableHlo.binary main_v186 main_cst_57 main_v187 ((fun x v => Host.reduceAdd x v reducesTo_S3x64_S_d0_1 h_S_) : (⟨S3x64, .f32⟩ : BufTy).Contents (Elt F) → (⟨S_, .f32⟩ : BufTy).Contents (Elt F) → (⟨S_, .f32⟩ : BufTy).Contents (Elt F))
  :: StableHlo.nullary main_cst_58 (constant S_ .f32 0x3F800000#32)
  :: StableHlo.binary main_v184 main_cst_58 main_v188 (maximumf : (⟨S_, .f32⟩ : BufTy).Contents (Elt F) → (⟨S_, .f32⟩ : BufTy).Contents (Elt F) → (⟨S_, .f32⟩ : BufTy).Contents (Elt F))
  :: StableHlo.binary main_v187 main_v188 main_v189 (Host.divf : (⟨S_, .f32⟩ : BufTy).Contents (Elt F) → (⟨S_, .f32⟩ : BufTy).Contents (Elt F) → (⟨S_, .f32⟩ : BufTy).Contents (Elt F))
  :: StableHlo.nullary main_cst_59 (constant S_ .f32 0x00000000#32)
  :: StableHlo.TRef.unary (.of main_cst_59 : StableHlo.TRef sig ⟨S_, .f32⟩) (.of main_call10_v0 : StableHlo.TRef sig ⟨S_, .f32⟩) id
  :: StableHlo.TRef.ternary (.of main_v185 : StableHlo.TRef sig ⟨S_, .i1⟩) (.of main_v189 : StableHlo.TRef sig ⟨S_, .f32⟩) (.of main_call10_v0 : StableHlo.TRef sig ⟨S_, .f32⟩) (.of main_v190 : StableHlo.TRef sig ⟨S_, .f32⟩) select
  :: StableHlo.nullary main_c_60 (constantI S_ 32 0#32)
  :: StableHlo.unary main_c_60 main_v191 (broadcastInDim S64 ![] bcast_S_S64 : (⟨S_, .i32⟩ : BufTy).Contents (Elt F) → (⟨S64, .i32⟩ : BufTy).Contents (Elt F))
  :: StableHlo.binary main_v34 main_v191 main_v192 (cmpi .slt : (⟨S64, .i32⟩ : BufTy).Contents (Elt F) → (⟨S64, .i32⟩ : BufTy).Contents (Elt F) → (⟨S64, .i1⟩ : BufTy).Contents (Elt F))
  :: StableHlo.nullary main_c_61 (constantI S_ 32 64#32)
  :: StableHlo.unary main_c_61 main_v193 (broadcastInDim S64 ![] bcast_S_S64 : (⟨S_, .i32⟩ : BufTy).Contents (Elt F) → (⟨S64, .i32⟩ : BufTy).Contents (Elt F))
  :: StableHlo.binary main_v34 main_v193 main_v194 (addi : (⟨S64, .i32⟩ : BufTy).Contents (Elt F) → (⟨S64, .i32⟩ : BufTy).Contents (Elt F) → (⟨S64, .i32⟩ : BufTy).Contents (Elt F))
  :: StableHlo.ternary main_v192 main_v194 main_v34 main_v195 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v195 main_v196 (broadcastInDim S64x1 ![0] bcast_S64_S64x1_0 : (⟨S64, .i32⟩ : BufTy).Contents (Elt F) → (⟨S64x1, .i32⟩ : BufTy).Contents (Elt F))
  :: StableHlo.binary main_v9 main_v196 main_v197 ((fun x i => Host.gather gather_S64x1000_S64x1_S64x1000_1_0_n_n_0_1_11000 x i) : (⟨S64x1000, .f32⟩ : BufTy).Contents (Elt F) → (⟨S64x1, .i32⟩ : BufTy).Contents (Elt F) → (⟨S64x1000, .f32⟩ : BufTy).Contents (Elt F))
  :: StableHlo.nullary main_c_62 (constantI S_ 32 0#32)
  :: StableHlo.unary main_c_62 main_v198 (broadcastInDim S64 ![] bcast_S_S64 : (⟨S_, .i32⟩ : BufTy).Contents (Elt F) → (⟨S64, .i32⟩ : BufTy).Contents (Elt F))
  :: StableHlo.binary main_v35 main_v198 main_v199 (cmpi .slt : (⟨S64, .i32⟩ : BufTy).Contents (Elt F) → (⟨S64, .i32⟩ : BufTy).Contents (Elt F) → (⟨S64, .i1⟩ : BufTy).Contents (Elt F))
  :: StableHlo.nullary main_c_63 (constantI S_ 32 64#32)
  :: StableHlo.unary main_c_63 main_v200 (broadcastInDim S64 ![] bcast_S_S64 : (⟨S_, .i32⟩ : BufTy).Contents (Elt F) → (⟨S64, .i32⟩ : BufTy).Contents (Elt F))
  :: StableHlo.binary main_v35 main_v200 main_v201 (addi : (⟨S64, .i32⟩ : BufTy).Contents (Elt F) → (⟨S64, .i32⟩ : BufTy).Contents (Elt F) → (⟨S64, .i32⟩ : BufTy).Contents (Elt F))
  :: StableHlo.ternary main_v199 main_v201 main_v35 main_v202 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v202 main_v203 (broadcastInDim S64x1 ![0] bcast_S64_S64x1_0 : (⟨S64, .i32⟩ : BufTy).Contents (Elt F) → (⟨S64x1, .i32⟩ : BufTy).Contents (Elt F))
  :: StableHlo.binary main_v9 main_v203 main_v204 ((fun x i => Host.gather gather_S64x1000_S64x1_S64x1000_1_0_n_n_0_1_11000 x i) : (⟨S64x1000, .f32⟩ : BufTy).Contents (Elt F) → (⟨S64x1, .i32⟩ : BufTy).Contents (Elt F) → (⟨S64x1000, .f32⟩ : BufTy).Contents (Elt F))
  :: StableHlo.binary main_v197 main_v204 main_v205 (subf : (⟨S64x1000, .f32⟩ : BufTy).Contents (Elt F) → (⟨S64x1000, .f32⟩ : BufTy).Contents (Elt F) → (⟨S64x1000, .f32⟩ : BufTy).Contents (Elt F))
  :: StableHlo.nullary main_cst_64 (constant S_ .f32 0x322BCC77#32)
  :: StableHlo.unary main_cst_64 main_v206 (broadcastInDim S64x1000 ![] bcast_S_S64x1000 : (⟨S_, .f32⟩ : BufTy).Contents (Elt F) → (⟨S64x1000, .f32⟩ : BufTy).Contents (Elt F))
  :: StableHlo.binary main_v42 main_v206 main_v207 (addf : (⟨S64x1000, .f32⟩ : BufTy).Contents (Elt F) → (⟨S64x1000, .f32⟩ : BufTy).Contents (Elt F) → (⟨S64x1000, .f32⟩ : BufTy).Contents (Elt F))
  :: StableHlo.binary main_v205 main_v207 main_v208 (Host.divf : (⟨S64x1000, .f32⟩ : BufTy).Contents (Elt F) → (⟨S64x1000, .f32⟩ : BufTy).Contents (Elt F) → (⟨S64x1000, .f32⟩ : BufTy).Contents (Elt F))
  :: StableHlo.nullary main_cst_65 (constant S_ .f32 0x3CA3D70A#32)
  :: StableHlo.unary main_cst_65 main_v209 (broadcastInDim S64x1000 ![] bcast_S_S64x1000 : (⟨S_, .f32⟩ : BufTy).Contents (Elt F) → (⟨S64x1000, .f32⟩ : BufTy).Contents (Elt F))
  :: StableHlo.binary main_v208 main_v209 main_v210 (cmpf .ogt : (⟨S64x1000, .f32⟩ : BufTy).Contents (Elt F) → (⟨S64x1000, .f32⟩ : BufTy).Contents (Elt F) → (⟨S64x1000, .i1⟩ : BufTy).Contents (Elt F))
  :: StableHlo.binary main_v124 main_v210 main_v211 (andi : (⟨S64x1000, .i1⟩ : BufTy).Contents (Elt F) → (⟨S64x1000, .i1⟩ : BufTy).Contents (Elt F) → (⟨S64x1000, .i1⟩ : BufTy).Contents (Elt F))
  :: StableHlo.nullary main_cst_66 (constant S_ .f32 0xBCA3D70A#32)
  :: StableHlo.unary main_cst_66 main_v212 (broadcastInDim S64x1000 ![] bcast_S_S64x1000 : (⟨S_, .f32⟩ : BufTy).Contents (Elt F) → (⟨S64x1000, .f32⟩ : BufTy).Contents (Elt F))
  :: StableHlo.binary main_v208 main_v212 main_v213 (cmpf .olt : (⟨S64x1000, .f32⟩ : BufTy).Contents (Elt F) → (⟨S64x1000, .f32⟩ : BufTy).Contents (Elt F) → (⟨S64x1000, .i1⟩ : BufTy).Contents (Elt F))
  :: StableHlo.binary main_v124 main_v213 main_v214 (andi : (⟨S64x1000, .i1⟩ : BufTy).Contents (Elt F) → (⟨S64x1000, .i1⟩ : BufTy).Contents (Elt F) → (⟨S64x1000, .i1⟩ : BufTy).Contents (Elt F))
  :: StableHlo.nullary main_c_67 (constantI S_ 1 0#1)
  :: StableHlo.binary main_v211 main_c_67 main_v215 ((fun x v => Host.reduce IntOp.ori x v reducesTo_S64x1000_S64_d1 h_S_) : (⟨S64x1000, .i1⟩ : BufTy).Contents (Elt F) → (⟨S_, .i1⟩ : BufTy).Contents (Elt F) → (⟨S64, .i1⟩ : BufTy).Contents (Elt F))
  :: StableHlo.binary main_v33 main_v215 main_v216 (andi : (⟨S64, .i1⟩ : BufTy).Contents (Elt F) → (⟨S64, .i1⟩ : BufTy).Contents (Elt F) → (⟨S64, .i1⟩ : BufTy).Contents (Elt F))
  :: StableHlo.nullary main_c_68 (constantI S_ 1 0#1)
  :: StableHlo.binary main_v214 main_c_68 main_v217 ((fun x v => Host.reduce IntOp.ori x v reducesTo_S64x1000_S64_d1 h_S_) : (⟨S64x1000, .i1⟩ : BufTy).Contents (Elt F) → (⟨S_, .i1⟩ : BufTy).Contents (Elt F) → (⟨S64, .i1⟩ : BufTy).Contents (Elt F))
  :: StableHlo.binary main_v33 main_v217 main_v218 (andi : (⟨S64, .i1⟩ : BufTy).Contents (Elt F) → (⟨S64, .i1⟩ : BufTy).Contents (Elt F) → (⟨S64, .i1⟩ : BufTy).Contents (Elt F))
  :: StableHlo.binary main_v52 main_v62 main_v219 (subf : (⟨S64x1000, .f32⟩ : BufTy).Contents (Elt F) → (⟨S64x1000, .f32⟩ : BufTy).Contents (Elt F) → (⟨S64x1000, .f32⟩ : BufTy).Contents (Elt F))
  :: StableHlo.nullary main_cst_69 (constant S_ .f32 0x3CA3D70A#32)
  :: StableHlo.unary main_cst_69 main_v220 (broadcastInDim S64x1000 ![] bcast_S_S64x1000 : (⟨S_, .f32⟩ : BufTy).Contents (Elt F) → (⟨S64x1000, .f32⟩ : BufTy).Contents (Elt F))
  :: StableHlo.binary main_v220 main_v219 main_v221 (subf : (⟨S64x1000, .f32⟩ : BufTy).Contents (Elt F) → (⟨S64x1000, .f32⟩ : BufTy).Contents (Elt F) → (⟨S64x1000, .f32⟩ : BufTy).Contents (Elt F))
  :: StableHlo.TRef.nullary (.of main_call11_cst : StableHlo.TRef sig ⟨S_, .f32⟩) (constant S_ .f32 0x00000000#32)
  :: StableHlo.TRef.unary (.of main_call11_cst : StableHlo.TRef sig ⟨S_, .f32⟩) (.of main_call11_v0 : StableHlo.TRef sig ⟨S64x1000, .f32⟩) (broadcastInDim S64x1000 ![] bcast_S_S64x1000)
  :: StableHlo.TRef.binary (.of main_v221 : StableHlo.TRef sig ⟨S64x1000, .f32⟩) (.of main_call11_v0 : StableHlo.TRef sig ⟨S64x1000, .f32⟩) (.of main_v222 : StableHlo.TRef sig ⟨S64x1000, .f32⟩) maximumf
  :: StableHlo.binary main_v222 main_v222 main_v223 (mulf : (⟨S64x1000, .f32⟩ : BufTy).Contents (Elt F) → (⟨S64x1000, .f32⟩ : BufTy).Contents (Elt F) → (⟨S64x1000, .f32⟩ : BufTy).Contents (Elt F))
  :: StableHlo.unary main_v211 main_v224 ((extui 32 · natLt_1_32) : (⟨S64x1000, .i1⟩ : BufTy).Contents (Elt F) → (⟨S64x1000, .i32⟩ : BufTy).Contents (Elt F))
  :: StableHlo.nullary main_c_70 (constantI S_ 32 0#32)
  :: StableHlo.binary main_v224 main_c_70 main_v225 ((fun x v => Host.reduce IntOp.addi x v reducesTo_S64x1000_S64_d1 h_S_) : (⟨S64x1000, .i32⟩ : BufTy).Contents (Elt F) → (⟨S_, .i32⟩ : BufTy).Contents (Elt F) → (⟨S64, .i32⟩ : BufTy).Contents (Elt F))
  :: StableHlo.nullary main_c_71 (constantI S_ 32 0#32)
  :: [] )

set_option maxHeartbeats 40000000 in
/-- Each touches TensorCore references only. -/
theorem rOps4_sub : (rOps4 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub ..⟩

/-- Window 5: operations 327 … 397. -/
abbrev rOps5 : List (HloOp τ sig (Elt F)) :=
  ( StableHlo.unary main_c_71 main_v226 (broadcastInDim S64 ![] bcast_S_S64 : (⟨S_, .i32⟩ : BufTy).Contents (Elt F) → (⟨S64, .i32⟩ : BufTy).Contents (Elt F))
  :: StableHlo.binary main_v225 main_v226 main_v227 (cmpi .sgt : (⟨S64, .i32⟩ : BufTy).Contents (Elt F) → (⟨S64, .i32⟩ : BufTy).Contents (Elt F) → (⟨S64, .i1⟩ : BufTy).Contents (Elt F))
  :: StableHlo.nullary main_cst_72 (constant S_ .f32 0x00000000#32)
  :: StableHlo.TRef.unary (.of main_cst_72 : StableHlo.TRef sig ⟨S_, .f32⟩) (.of main_call12_v0 : StableHlo.TRef sig ⟨S_, .f32⟩) id
  :: StableHlo.TRef.unary (.of main_call12_v0 : StableHlo.TRef sig ⟨S_, .f32⟩) (.of main_call12_v1 : StableHlo.TRef sig ⟨S64x1000, .f32⟩) (broadcastInDim S64x1000 ![] bcast_S_S64x1000)
  :: StableHlo.TRef.ternary (.of main_v211 : StableHlo.TRef sig ⟨S64x1000, .i1⟩) (.of main_v223 : StableHlo.TRef sig ⟨S64x1000, .f32⟩) (.of main_call12_v1 : StableHlo.TRef sig ⟨S64x1000, .f32⟩) (.of main_v228 : StableHlo.TRef sig ⟨S64x1000, .f32⟩) select
  :: StableHlo.nullary main_cst_73 (constant S_ .f32 0x00000000#32)
  :: StableHlo.binary main_v228 main_cst_73 main_v229 ((fun x v => Host.reduceAdd x v reducesTo_S64x1000_S64_d1 h_S_) : (⟨S64x1000, .f32⟩ : BufTy).Contents (Elt F) → (⟨S_, .f32⟩ : BufTy).Contents (Elt F) → (⟨S64, .f32⟩ : BufTy).Contents (Elt F))
  :: StableHlo.nullary main_c_74 (constantI S_ 32 1#32)
  :: StableHlo.unary main_c_74 main_v230 (broadcastInDim S64 ![] bcast_S_S64 : (⟨S_, .i32⟩ : BufTy).Contents (Elt F) → (⟨S64, .i32⟩ : BufTy).Contents (Elt F))
  :: StableHlo.binary main_v225 main_v230 main_v231 (maxsi : (⟨S64, .i32⟩ : BufTy).Contents (Elt F) → (⟨S64, .i32⟩ : BufTy).Contents (Elt F) → (⟨S64, .i32⟩ : BufTy).Contents (Elt F))
  :: StableHlo.unary main_v231 main_v232 (sitofp .f32 : (⟨S64, .i32⟩ : BufTy).Contents (Elt F) → (⟨S64, .f32⟩ : BufTy).Contents (Elt F))
  :: StableHlo.binary main_v229 main_v232 main_v233 (Host.divf : (⟨S64, .f32⟩ : BufTy).Contents (Elt F) → (⟨S64, .f32⟩ : BufTy).Contents (Elt F) → (⟨S64, .f32⟩ : BufTy).Contents (Elt F))
  :: StableHlo.nullary main_cst_75 (constant S_ .f32 0x00000000#32)
  :: StableHlo.TRef.unary (.of main_cst_75 : StableHlo.TRef sig ⟨S_, .f32⟩) (.of main_call13_v0 : StableHlo.TRef sig ⟨S_, .f32⟩) id
  :: StableHlo.TRef.unary (.of main_call13_v0 : StableHlo.TRef sig ⟨S_, .f32⟩) (.of main_call13_v1 : StableHlo.TRef sig ⟨S64, .f32⟩) (broadcastInDim S64 ![] bcast_S_S64)
  :: StableHlo.TRef.ternary (.of main_v227 : StableHlo.TRef sig ⟨S64, .i1⟩) (.of main_v233 : StableHlo.TRef sig ⟨S64, .f32⟩) (.of main_call13_v1 : StableHlo.TRef sig ⟨S64, .f32⟩) (.of main_v234 : StableHlo.TRef sig ⟨S64, .f32⟩) select
  :: StableHlo.binary main_v62 main_v52 main_v235 (subf : (⟨S64x1000, .f32⟩ : BufTy).Contents (Elt F) → (⟨S64x1000, .f32⟩ : BufTy).Contents (Elt F) → (⟨S64x1000, .f32⟩ : BufTy).Contents (Elt F))
  :: StableHlo.nullary main_cst_76 (constant S_ .f32 0x3CA3D70A#32)
  :: StableHlo.unary main_cst_76 main_v236 (broadcastInDim S64x1000 ![] bcast_S_S64x1000 : (⟨S_, .f32⟩ : BufTy).Contents (Elt F) → (⟨S64x1000, .f32⟩ : BufTy).Contents (Elt F))
  :: StableHlo.binary main_v236 main_v235 main_v237 (subf : (⟨S64x1000, .f32⟩ : BufTy).Contents (Elt F) → (⟨S64x1000, .f32⟩ : BufTy).Contents (Elt F) → (⟨S64x1000, .f32⟩ : BufTy).Contents (Elt F))
  :: StableHlo.TRef.nullary (.of main_call14_cst : StableHlo.TRef sig ⟨S_, .f32⟩) (constant S_ .f32 0x00000000#32)
  :: StableHlo.TRef.unary (.of main_call14_cst : StableHlo.TRef sig ⟨S_, .f32⟩) (.of main_call14_v0 : StableHlo.TRef sig ⟨S64x1000, .f32⟩) (broadcastInDim S64x1000 ![] bcast_S_S64x1000)
  :: StableHlo.TRef.binary (.of main_v237 : StableHlo.TRef sig ⟨S64x1000, .f32⟩) (.of main_call14_v0 : StableHlo.TRef sig ⟨S64x1000, .f32⟩) (.of main_v238 : StableHlo.TRef sig ⟨S64x1000, .f32⟩) maximumf
  :: StableHlo.binary main_v238 main_v238 main_v239 (mulf : (⟨S64x1000, .f32⟩ : BufTy).Contents (Elt F) → (⟨S64x1000, .f32⟩ : BufTy).Contents (Elt F) → (⟨S64x1000, .f32⟩ : BufTy).Contents (Elt F))
  :: StableHlo.unary main_v214 main_v240 ((extui 32 · natLt_1_32) : (⟨S64x1000, .i1⟩ : BufTy).Contents (Elt F) → (⟨S64x1000, .i32⟩ : BufTy).Contents (Elt F))
  :: StableHlo.nullary main_c_77 (constantI S_ 32 0#32)
  :: StableHlo.binary main_v240 main_c_77 main_v241 ((fun x v => Host.reduce IntOp.addi x v reducesTo_S64x1000_S64_d1 h_S_) : (⟨S64x1000, .i32⟩ : BufTy).Contents (Elt F) → (⟨S_, .i32⟩ : BufTy).Contents (Elt F) → (⟨S64, .i32⟩ : BufTy).Contents (Elt F))
  :: StableHlo.nullary main_c_78 (constantI S_ 32 0#32)
  :: StableHlo.unary main_c_78 main_v242 (broadcastInDim S64 ![] bcast_S_S64 : (⟨S_, .i32⟩ : BufTy).Contents (Elt F) → (⟨S64, .i32⟩ : BufTy).Contents (Elt F))
  :: StableHlo.binary main_v241 main_v242 main_v243 (cmpi .sgt : (⟨S64, .i32⟩ : BufTy).Contents (Elt F) → (⟨S64, .i32⟩ : BufTy).Contents (Elt F) → (⟨S64, .i1⟩ : BufTy).Contents (Elt F))
  :: StableHlo.nullary main_cst_79 (constant S_ .f32 0x00000000#32)
  :: StableHlo.TRef.unary (.of main_cst_79 : StableHlo.TRef sig ⟨S_, .f32⟩) (.of main_call15_v0 : StableHlo.TRef sig ⟨S_, .f32⟩) id
  :: StableHlo.TRef.unary (.of main_call15_v0 : StableHlo.TRef sig ⟨S_, .f32⟩) (.of main_call15_v1 : StableHlo.TRef sig ⟨S64x1000, .f32⟩) (broadcastInDim S64x1000 ![] bcast_S_S64x1000)
  :: StableHlo.TRef.ternary (.of main_v214 : StableHlo.TRef sig ⟨S64x1000, .i1⟩) (.of main_v239 : StableHlo.TRef sig ⟨S64x1000, .f32⟩) (.of main_call15_v1 : StableHlo.TRef sig ⟨S64x1000, .f32⟩) (.of main_v244 : StableHlo.TRef sig ⟨S64x1000, .f32⟩) select
  :: StableHlo.nullary main_cst_80 (constant S_ .f32 0x00000000#32)
  :: StableHlo.binary main_v244 main_cst_80 main_v245 ((fun x v => Host.reduceAdd x v reducesTo_S64x1000_S64_d1 h_S_) : (⟨S64x1000, .f32⟩ : BufTy).Contents (Elt F) → (⟨S_, .f32⟩ : BufTy).Contents (Elt F) → (⟨S64, .f32⟩ : BufTy).Contents (Elt F))
  :: StableHlo.nullary main_c_81 (constantI S_ 32 1#32)
  :: StableHlo.unary main_c_81 main_v246 (broadcastInDim S64 ![] bcast_S_S64 : (⟨S_, .i32⟩ : BufTy).Contents (Elt F) → (⟨S64, .i32⟩ : BufTy).Contents (Elt F))
  :: StableHlo.binary main_v241 main_v246 main_v247 (maxsi : (⟨S64, .i32⟩ : BufTy).Contents (Elt F) → (⟨S64, .i32⟩ : BufTy).Contents (Elt F) → (⟨S64, .i32⟩ : BufTy).Contents (Elt F))
  :: StableHlo.unary main_v247 main_v248 (sitofp .f32 : (⟨S64, .i32⟩ : BufTy).Contents (Elt F) → (⟨S64, .f32⟩ : BufTy).Contents (Elt F))
  :: StableHlo.binary main_v245 main_v248 main_v249 (Host.divf : (⟨S64, .f32⟩ : BufTy).Contents (Elt F) → (⟨S64, .f32⟩ : BufTy).Contents (Elt F) → (⟨S64, .f32⟩ : BufTy).Contents (Elt F))
  :: StableHlo.nullary main_cst_82 (constant S_ .f32 0x00000000#32)
  :: StableHlo.TRef.unary (.of main_cst_82 : StableHlo.TRef sig ⟨S_, .f32⟩) (.of main_call16_v0 : StableHlo.TRef sig ⟨S_, .f32⟩) id
  :: StableHlo.TRef.unary (.of main_call16_v0 : StableHlo.TRef sig ⟨S_, .f32⟩) (.of main_call16_v1 : StableHlo.TRef sig ⟨S64, .f32⟩) (broadcastInDim S64 ![] bcast_S_S64)
  :: StableHlo.TRef.ternary (.of main_v243 : StableHlo.TRef sig ⟨S64, .i1⟩) (.of main_v249 : StableHlo.TRef sig ⟨S64, .f32⟩) (.of main_call16_v1 : StableHlo.TRef sig ⟨S64, .f32⟩) (.of main_v250 : StableHlo.TRef sig ⟨S64, .f32⟩) select
  :: StableHlo.unary main_v234 main_v251 (broadcastInDim S1x64 ![1] bcast_S64_S1x64_1 : (⟨S64, .f32⟩ : BufTy).Contents (Elt F) → (⟨S1x64, .f32⟩ : BufTy).Contents (Elt F))
  :: StableHlo.unary main_v250 main_v252 (broadcastInDim S1x64 ![1] bcast_S64_S1x64_1 : (⟨S64, .f32⟩ : BufTy).Contents (Elt F) → (⟨S1x64, .f32⟩ : BufTy).Contents (Elt F))
  :: StableHlo.binary main_v251 main_v252 main_v253 ((fun a b => concatenate S2x64 0 [⟨S1x64, a⟩, ⟨S1x64, b⟩] concatenates_S1x64_S1x64_S2x64_d0) : (⟨S1x64, .f32⟩ : BufTy).Contents (Elt F) → (⟨S1x64, .f32⟩ : BufTy).Contents (Elt F) → (⟨S2x64, .f32⟩ : BufTy).Contents (Elt F))
  :: StableHlo.unary main_v216 main_v254 (broadcastInDim S1x64 ![1] bcast_S64_S1x64_1 : (⟨S64, .i1⟩ : BufTy).Contents (Elt F) → (⟨S1x64, .i1⟩ : BufTy).Contents (Elt F))
  :: StableHlo.unary main_v218 main_v255 (broadcastInDim S1x64 ![1] bcast_S64_S1x64_1 : (⟨S64, .i1⟩ : BufTy).Contents (Elt F) → (⟨S1x64, .i1⟩ : BufTy).Contents (Elt F))
  :: StableHlo.binary main_v254 main_v255 main_v256 ((fun a b => concatenate S2x64 0 [⟨S1x64, a⟩, ⟨S1x64, b⟩] concatenates_S1x64_S1x64_S2x64_d0) : (⟨S1x64, .i1⟩ : BufTy).Contents (Elt F) → (⟨S1x64, .i1⟩ : BufTy).Contents (Elt F) → (⟨S2x64, .i1⟩ : BufTy).Contents (Elt F))
  :: StableHlo.unary main_v256 main_v257 (uitofp .f32 : (⟨S2x64, .i1⟩ : BufTy).Contents (Elt F) → (⟨S2x64, .f32⟩ : BufTy).Contents (Elt F))
  :: StableHlo.nullary main_cst_83 (constant S_ .f32 0x00000000#32)
  :: StableHlo.binary main_v257 main_cst_83 main_v258 ((fun x v => Host.reduceAdd x v reducesTo_S2x64_S_d0_1 h_S_) : (⟨S2x64, .f32⟩ : BufTy).Contents (Elt F) → (⟨S_, .f32⟩ : BufTy).Contents (Elt F) → (⟨S_, .f32⟩ : BufTy).Contents (Elt F))
  :: StableHlo.nullary main_cst_84 (constant S_ .f32 0x00000000#32)
  :: StableHlo.binary main_v258 main_cst_84 main_v259 (cmpf .ogt : (⟨S_, .f32⟩ : BufTy).Contents (Elt F) → (⟨S_, .f32⟩ : BufTy).Contents (Elt F) → (⟨S_, .i1⟩ : BufTy).Contents (Elt F))
  :: StableHlo.binary main_v253 main_v257 main_v260 (mulf : (⟨S2x64, .f32⟩ : BufTy).Contents (Elt F) → (⟨S2x64, .f32⟩ : BufTy).Contents (Elt F) → (⟨S2x64, .f32⟩ : BufTy).Contents (Elt F))
  :: StableHlo.nullary main_cst_85 (constant S_ .f32 0x00000000#32)
  :: StableHlo.binary main_v260 main_cst_85 main_v261 ((fun x v => Host.reduceAdd x v reducesTo_S2x64_S_d0_1 h_S_) : (⟨S2x64, .f32⟩ : BufTy).Contents (Elt F) → (⟨S_, .f32⟩ : BufTy).Contents (Elt F) → (⟨S_, .f32⟩ : BufTy).Contents (Elt F))
  :: StableHlo.nullary main_cst_86 (constant S_ .f32 0x3F800000#32)
  :: StableHlo.binary main_v258 main_cst_86 main_v262 (maximumf : (⟨S_, .f32⟩ : BufTy).Contents (Elt F) → (⟨S_, .f32⟩ : BufTy).Contents (Elt F) → (⟨S_, .f32⟩ : BufTy).Contents (Elt F))
  :: StableHlo.binary main_v261 main_v262 main_v263 (Host.divf : (⟨S_, .f32⟩ : BufTy).Contents (Elt F) → (⟨S_, .f32⟩ : BufTy).Contents (Elt F) → (⟨S_, .f32⟩ : BufTy).Contents (Elt F))
  :: StableHlo.nullary main_cst_87 (constant S_ .f32 0x00000000#32)
  :: StableHlo.TRef.unary (.of main_cst_87 : StableHlo.TRef sig ⟨S_, .f32⟩) (.of main_call17_v0 : StableHlo.TRef sig ⟨S_, .f32⟩) id
  :: StableHlo.TRef.ternary (.of main_v259 : StableHlo.TRef sig ⟨S_, .i1⟩) (.of main_v263 : StableHlo.TRef sig ⟨S_, .f32⟩) (.of main_call17_v0 : StableHlo.TRef sig ⟨S_, .f32⟩) (.of main_v264 : StableHlo.TRef sig ⟨S_, .f32⟩) select
  :: StableHlo.unary main_v78 main_v265 ((extui 32 · natLt_1_32) : (⟨S64x1000, .i1⟩ : BufTy).Contents (Elt F) → (⟨S64x1000, .i32⟩ : BufTy).Contents (Elt F))
  :: StableHlo.nullary main_c_88 (constantI S_ 32 0#32)
  :: StableHlo.binary main_v265 main_c_88 main_v266 ((fun x v => Host.reduce IntOp.addi x v reducesTo_S64x1000_S64_d1 h_S_) : (⟨S64x1000, .i32⟩ : BufTy).Contents (Elt F) → (⟨S_, .i32⟩ : BufTy).Contents (Elt F) → (⟨S64, .i32⟩ : BufTy).Contents (Elt F))
  :: StableHlo.nullary main_c_89 (constantI S_ 32 0#32)
  :: StableHlo.unary main_c_89 main_v267 (broadcastInDim S64 ![] bcast_S_S64 : (⟨S_, .i32⟩ : BufTy).Contents (Elt F) → (⟨S64, .i32⟩ : BufTy).Contents (Elt F))
  :: [] )

set_option maxHeartbeats 40000000 in
/-- Each touches TensorCore references only. -/
theorem rOps5_sub : (rOps5 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.unary_bufs_sub .., StableHlo.nullary_bufs_sub .., StableHlo.binary_bufs_sub .., StableHlo.nullary_bufs_sub .., StableHlo.unary_bufs_sub ..⟩

/-- Window 6: operations 398 … 468. -/
abbrev rOps6 : List (HloOp τ sig (Elt F)) :=
  ( StableHlo.binary main_v266 main_v267 main_v268 (cmpi .sgt : (⟨S64, .i32⟩ : BufTy).Contents (Elt F) → (⟨S64, .i32⟩ : BufTy).Contents (Elt F) → (⟨S64, .i1⟩ : BufTy).Contents (Elt F))
  :: StableHlo.nullary main_cst_90 (constant S_ .f32 0x00000000#32)
  :: StableHlo.TRef.unary (.of main_cst_90 : StableHlo.TRef sig ⟨S_, .f32⟩) (.of main_call18_v0 : StableHlo.TRef sig ⟨S_, .f32⟩) id
  :: StableHlo.TRef.unary (.of main_call18_v0 : StableHlo.TRef sig ⟨S_, .f32⟩) (.of main_call18_v1 : StableHlo.TRef sig ⟨S64x1000, .f32⟩) (broadcastInDim S64x1000 ![] bcast_S_S64x1000)
  :: StableHlo.TRef.ternary (.of main_v78 : StableHlo.TRef sig ⟨S64x1000, .i1⟩) (.of main_v52 : StableHlo.TRef sig ⟨S64x1000, .f32⟩) (.of main_call18_v1 : StableHlo.TRef sig ⟨S64x1000, .f32⟩) (.of main_v269 : StableHlo.TRef sig ⟨S64x1000, .f32⟩) select
  :: StableHlo.nullary main_cst_91 (constant S_ .f32 0x00000000#32)
  :: StableHlo.binary main_v269 main_cst_91 main_v270 ((fun x v => Host.reduceAdd x v reducesTo_S64x1000_S64_d1 h_S_) : (⟨S64x1000, .f32⟩ : BufTy).Contents (Elt F) → (⟨S_, .f32⟩ : BufTy).Contents (Elt F) → (⟨S64, .f32⟩ : BufTy).Contents (Elt F))
  :: StableHlo.nullary main_c_92 (constantI S_ 32 1#32)
  :: StableHlo.unary main_c_92 main_v271 (broadcastInDim S64 ![] bcast_S_S64 : (⟨S_, .i32⟩ : BufTy).Contents (Elt F) → (⟨S64, .i32⟩ : BufTy).Contents (Elt F))
  :: StableHlo.binary main_v266 main_v271 main_v272 (maxsi : (⟨S64, .i32⟩ : BufTy).Contents (Elt F) → (⟨S64, .i32⟩ : BufTy).Contents (Elt F) → (⟨S64, .i32⟩ : BufTy).Contents (Elt F))
  :: StableHlo.unary main_v272 main_v273 (sitofp .f32 : (⟨S64, .i32⟩ : BufTy).Contents (Elt F) → (⟨S64, .f32⟩ : BufTy).Contents (Elt F))
  :: StableHlo.binary main_v270 main_v273 main_v274 (Host.divf : (⟨S64, .f32⟩ : BufTy).Contents (Elt F) → (⟨S64, .f32⟩ : BufTy).Contents (Elt F) → (⟨S64, .f32⟩ : BufTy).Contents (Elt F))
  :: StableHlo.nullary main_cst_93 (constant S_ .f32 0x00000000#32)
  :: StableHlo.TRef.unary (.of main_cst_93 : StableHlo.TRef sig ⟨S_, .f32⟩) (.of main_call19_v0 : StableHlo.TRef sig ⟨S_, .f32⟩) id
  :: StableHlo.TRef.unary (.of main_call19_v0 : StableHlo.TRef sig ⟨S_, .f32⟩) (.of main_call19_v1 : StableHlo.TRef sig ⟨S64, .f32⟩) (broadcastInDim S64 ![] bcast_S_S64)
  :: StableHlo.TRef.ternary (.of main_v268 : StableHlo.TRef sig ⟨S64, .i1⟩) (.of main_v274 : StableHlo.TRef sig ⟨S64, .f32⟩) (.of main_call19_v1 : StableHlo.TRef sig ⟨S64, .f32⟩) (.of main_v275 : StableHlo.TRef sig ⟨S64, .f32⟩) select
  :: StableHlo.unary main_v94 main_v276 ((extui 32 · natLt_1_32) : (⟨S64x1000, .i1⟩ : BufTy).Contents (Elt F) → (⟨S64x1000, .i32⟩ : BufTy).Contents (Elt F))
  :: StableHlo.nullary main_c_94 (constantI S_ 32 0#32)
  :: StableHlo.binary main_v276 main_c_94 main_v277 ((fun x v => Host.reduce IntOp.addi x v reducesTo_S64x1000_S64_d1 h_S_) : (⟨S64x1000, .i32⟩ : BufTy).Contents (Elt F) → (⟨S_, .i32⟩ : BufTy).Contents (Elt F) → (⟨S64, .i32⟩ : BufTy).Contents (Elt F))
  :: StableHlo.nullary main_c_95 (constantI S_ 32 0#32)
  :: StableHlo.unary main_c_95 main_v278 (broadcastInDim S64 ![] bcast_S_S64 : (⟨S_, .i32⟩ : BufTy).Contents (Elt F) → (⟨S64, .i32⟩ : BufTy).Contents (Elt F))
  :: StableHlo.binary main_v277 main_v278 main_v279 (cmpi .sgt : (⟨S64, .i32⟩ : BufTy).Contents (Elt F) → (⟨S64, .i32⟩ : BufTy).Contents (Elt F) → (⟨S64, .i1⟩ : BufTy).Contents (Elt F))
  :: StableHlo.nullary main_cst_96 (constant S_ .f32 0x00000000#32)
  :: StableHlo.TRef.unary (.of main_cst_96 : StableHlo.TRef sig ⟨S_, .f32⟩) (.of main_call20_v0 : StableHlo.TRef sig ⟨S_, .f32⟩) id
  :: StableHlo.TRef.unary (.of main_call20_v0 : StableHlo.TRef sig ⟨S_, .f32⟩) (.of main_call20_v1 : StableHlo.TRef sig ⟨S64x1000, .f32⟩) (broadcastInDim S64x1000 ![] bcast_S_S64x1000)
  :: StableHlo.TRef.ternary (.of main_v94 : StableHlo.TRef sig ⟨S64x1000, .i1⟩) (.of main_v62 : StableHlo.TRef sig ⟨S64x1000, .f32⟩) (.of main_call20_v1 : StableHlo.TRef sig ⟨S64x1000, .f32⟩) (.of main_v280 : StableHlo.TRef sig ⟨S64x1000, .f32⟩) select
  :: StableHlo.nullary main_cst_97 (constant S_ .f32 0x00000000#32)
  :: StableHlo.binary main_v280 main_cst_97 main_v281 ((fun x v => Host.reduceAdd x v reducesTo_S64x1000_S64_d1 h_S_) : (⟨S64x1000, .f32⟩ : BufTy).Contents (Elt F) → (⟨S_, .f32⟩ : BufTy).Contents (Elt F) → (⟨S64, .f32⟩ : BufTy).Contents (Elt F))
  :: StableHlo.nullary main_c_98 (constantI S_ 32 1#32)
  :: StableHlo.unary main_c_98 main_v282 (broadcastInDim S64 ![] bcast_S_S64 : (⟨S_, .i32⟩ : BufTy).Contents (Elt F) → (⟨S64, .i32⟩ : BufTy).Contents (Elt F))
  :: StableHlo.binary main_v277 main_v282 main_v283 (maxsi : (⟨S64, .i32⟩ : BufTy).Contents (Elt F) → (⟨S64, .i32⟩ : BufTy).Contents (Elt F) → (⟨S64, .i32⟩ : BufTy).Contents (Elt F))
  :: StableHlo.unary main_v283 main_v284 (sitofp .f32 : (⟨S64, .i32⟩ : BufTy).Contents (Elt F) → (⟨S64, .f32⟩ : BufTy).Contents (Elt F))
  :: StableHlo.binary main_v281 main_v284 main_v285 (Host.divf : (⟨S64, .f32⟩ : BufTy).Contents (Elt F) → (⟨S64, .f32⟩ : BufTy).Contents (Elt F) → (⟨S64, .f32⟩ : BufTy).Contents (Elt F))
  :: StableHlo.nullary main_cst_99 (constant S_ .f32 0x00000000#32)
  :: StableHlo.TRef.unary (.of main_cst_99 : StableHlo.TRef sig ⟨S_, .f32⟩) (.of main_call21_v0 : StableHlo.TRef sig ⟨S_, .f32⟩) id
  :: StableHlo.TRef.unary (.of main_call21_v0 : StableHlo.TRef sig ⟨S_, .f32⟩) (.of main_call21_v1 : StableHlo.TRef sig ⟨S64, .f32⟩) (broadcastInDim S64 ![] bcast_S_S64)
  :: StableHlo.TRef.ternary (.of main_v279 : StableHlo.TRef sig ⟨S64, .i1⟩) (.of main_v285 : StableHlo.TRef sig ⟨S64, .f32⟩) (.of main_call21_v1 : StableHlo.TRef sig ⟨S64, .f32⟩) (.of main_v286 : StableHlo.TRef sig ⟨S64, .f32⟩) select
  :: StableHlo.unary main_v275 main_v287 (broadcastInDim S1x64 ![1] bcast_S64_S1x64_1 : (⟨S64, .f32⟩ : BufTy).Contents (Elt F) → (⟨S1x64, .f32⟩ : BufTy).Contents (Elt F))
  :: StableHlo.unary main_v286 main_v288 (broadcastInDim S1x64 ![1] bcast_S64_S1x64_1 : (⟨S64, .f32⟩ : BufTy).Contents (Elt F) → (⟨S1x64, .f32⟩ : BufTy).Contents (Elt F))
  :: StableHlo.binary main_v287 main_v288 main_v289 ((fun a b => concatenate S2x64 0 [⟨S1x64, a⟩, ⟨S1x64, b⟩] concatenates_S1x64_S1x64_S2x64_d0) : (⟨S1x64, .f32⟩ : BufTy).Contents (Elt F) → (⟨S1x64, .f32⟩ : BufTy).Contents (Elt F) → (⟨S2x64, .f32⟩ : BufTy).Contents (Elt F))
  :: StableHlo.unary main_v126 main_v290 (broadcastInDim S1x64 ![1] bcast_S64_S1x64_1 : (⟨S64, .i1⟩ : BufTy).Contents (Elt F) → (⟨S1x64, .i1⟩ : BufTy).Contents (Elt F))
  :: StableHlo.unary main_v128 main_v291 (broadcastInDim S1x64 ![1] bcast_S64_S1x64_1 : (⟨S64, .i1⟩ : BufTy).Contents (Elt F) → (⟨S1x64, .i1⟩ : BufTy).Contents (Elt F))
  :: StableHlo.binary main_v290 main_v291 main_v292 ((fun a b => concatenate S2x64 0 [⟨S1x64, a⟩, ⟨S1x64, b⟩] concatenates_S1x64_S1x64_S2x64_d0) : (⟨S1x64, .i1⟩ : BufTy).Contents (Elt F) → (⟨S1x64, .i1⟩ : BufTy).Contents (Elt F) → (⟨S2x64, .i1⟩ : BufTy).Contents (Elt F))
  :: StableHlo.unary main_v292 main_v293 (uitofp .f32 : (⟨S2x64, .i1⟩ : BufTy).Contents (Elt F) → (⟨S2x64, .f32⟩ : BufTy).Contents (Elt F))
  :: StableHlo.nullary main_cst_100 (constant S_ .f32 0x00000000#32)
  :: StableHlo.binary main_v293 main_cst_100 main_v294 ((fun x v => Host.reduceAdd x v reducesTo_S2x64_S_d0_1 h_S_) : (⟨S2x64, .f32⟩ : BufTy).Contents (Elt F) → (⟨S_, .f32⟩ : BufTy).Contents (Elt F) → (⟨S_, .f32⟩ : BufTy).Contents (Elt F))
  :: StableHlo.nullary main_cst_101 (constant S_ .f32 0x00000000#32)
  :: StableHlo.binary main_v294 main_cst_101 main_v295 (cmpf .ogt : (⟨S_, .f32⟩ : BufTy).Contents (Elt F) → (⟨S_, .f32⟩ : BufTy).Contents (Elt F) → (⟨S_, .i1⟩ : BufTy).Contents (Elt F))
  :: StableHlo.binary main_v289 main_v293 main_v296 (mulf : (⟨S2x64, .f32⟩ : BufTy).Contents (Elt F) → (⟨S2x64, .f32⟩ : BufTy).Contents (Elt F) → (⟨S2x64, .f32⟩ : BufTy).Contents (Elt F))
  :: StableHlo.nullary main_cst_102 (constant S_ .f32 0x00000000#32)
  :: StableHlo.binary main_v296 main_cst_102 main_v297 ((fun x v => Host.reduceAdd x v reducesTo_S2x64_S_d0_1 h_S_) : (⟨S2x64, .f32⟩ : BufTy).Contents (Elt F) → (⟨S_, .f32⟩ : BufTy).Contents (Elt F) → (⟨S_, .f32⟩ : BufTy).Contents (Elt F))
  :: StableHlo.nullary main_cst_103 (constant S_ .f32 0x3F800000#32)
  :: StableHlo.binary main_v294 main_cst_103 main_v298 (maximumf : (⟨S_, .f32⟩ : BufTy).Contents (Elt F) → (⟨S_, .f32⟩ : BufTy).Contents (Elt F) → (⟨S_, .f32⟩ : BufTy).Contents (Elt F))
  :: StableHlo.binary main_v297 main_v298 main_v299 (Host.divf : (⟨S_, .f32⟩ : BufTy).Contents (Elt F) → (⟨S_, .f32⟩ : BufTy).Contents (Elt F) → (⟨S_, .f32⟩ : BufTy).Contents (Elt F))
  :: StableHlo.nullary main_cst_104 (constant S_ .f32 0x00000000#32)
  :: StableHlo.TRef.unary (.of main_cst_104 : StableHlo.TRef sig ⟨S_, .f32⟩) (.of main_call22_v0 : StableHlo.TRef sig ⟨S_, .f32⟩) id
  :: StableHlo.TRef.ternary (.of main_v295 : StableHlo.TRef sig ⟨S_, .i1⟩) (.of main_v299 : StableHlo.TRef sig ⟨S_, .f32⟩) (.of main_call22_v0 : StableHlo.TRef sig ⟨S_, .f32⟩) (.of main_v300 : StableHlo.TRef sig ⟨S_, .f32⟩) select
  :: StableHlo.unary main_v78 main_v301 ((extui 32 · natLt_1_32) : (⟨S64x1000, .i1⟩ : BufTy).Contents (Elt F) → (⟨S64x1000, .i32⟩ : BufTy).Contents (Elt F))
  :: StableHlo.nullary main_c_105 (constantI S_ 32 0#32)
  :: StableHlo.binary main_v301 main_c_105 main_v302 ((fun x v => Host.reduce IntOp.addi x v reducesTo_S64x1000_S64_d1 h_S_) : (⟨S64x1000, .i32⟩ : BufTy).Contents (Elt F) → (⟨S_, .i32⟩ : BufTy).Contents (Elt F) → (⟨S64, .i32⟩ : BufTy).Contents (Elt F))
  :: StableHlo.nullary main_c_106 (constantI S_ 32 0#32)
  :: StableHlo.unary main_c_106 main_v303 (broadcastInDim S64 ![] bcast_S_S64 : (⟨S_, .i32⟩ : BufTy).Contents (Elt F) → (⟨S64, .i32⟩ : BufTy).Contents (Elt F))
  :: StableHlo.binary main_v302 main_v303 main_v304 (cmpi .sgt : (⟨S64, .i32⟩ : BufTy).Contents (Elt F) → (⟨S64, .i32⟩ : BufTy).Contents (Elt F) → (⟨S64, .i1⟩ : BufTy).Contents (Elt F))
  :: StableHlo.nullary main_cst_107 (constant S_ .f32 0x00000000#32)
  :: StableHlo.TRef.unary (.of main_cst_107 : StableHlo.TRef sig ⟨S_, .f32⟩) (.of main_call23_v0 : StableHlo.TRef sig ⟨S_, .f32⟩) id
  :: StableHlo.TRef.unary (.of main_call23_v0 : StableHlo.TRef sig ⟨S_, .f32⟩) (.of main_call23_v1 : StableHlo.TRef sig ⟨S64x1000, .f32⟩) (broadcastInDim S64x1000 ![] bcast_S_S64x1000)
  :: StableHlo.TRef.ternary (.of main_v78 : StableHlo.TRef sig ⟨S64x1000, .i1⟩) (.of main_v62 : StableHlo.TRef sig ⟨S64x1000, .f32⟩) (.of main_call23_v1 : StableHlo.TRef sig ⟨S64x1000, .f32⟩) (.of main_v305 : StableHlo.TRef sig ⟨S64x1000, .f32⟩) select
  :: StableHlo.nullary main_cst_108 (constant S_ .f32 0x00000000#32)
  :: StableHlo.binary main_v305 main_cst_108 main_v306 ((fun x v => Host.reduceAdd x v reducesTo_S64x1000_S64_d1 h_S_) : (⟨S64x1000, .f32⟩ : BufTy).Contents (Elt F) → (⟨S_, .f32⟩ : BufTy).Contents (Elt F) → (⟨S64, .f32⟩ : BufTy).Contents (Elt F))
  :: StableHlo.nullary main_c_109 (constantI S_ 32 1#32)
  :: StableHlo.unary main_c_109 main_v307 (broadcastInDim S64 ![] bcast_S_S64 : (⟨S_, .i32⟩ : BufTy).Contents (Elt F) → (⟨S64, .i32⟩ : BufTy).Contents (Elt F))
  :: [] )

set_option maxHeartbeats 40000000 in
/-- Each touches TensorCore references only. -/
theorem rOps6_sub : (rOps6 : List (HloOp τ sig (Elt F))).Forall fun op => op.bufs ⊆ StableHlo.tcRefs τ sig :=
  ⟨StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub ..⟩

/-- Window 7: operations 469 … 539. -/
abbrev rOps7 : List (HloOp τ sig (Elt F)) :=
  ( StableHlo.binary main_v302 main_v307 main_v308 (maxsi : (⟨S64, .i32⟩ : BufTy).Contents (Elt F) → (⟨S64, .i32⟩ : BufTy).Contents (Elt F) → (⟨S64, .i32⟩ : BufTy).Contents (Elt F))
  :: StableHlo.unary main_v308 main_v309 (sitofp .f32 : (⟨S64, .i32⟩ : BufTy).Contents (Elt F) → (⟨S64, .f32⟩ : BufTy).Contents (Elt F))
  :: StableHlo.binary main_v306 main_v309 main_v310 (Host.divf : (⟨S64, .f32⟩ : BufTy).Contents (Elt F) → (⟨S64, .f32⟩ : BufTy).Contents (Elt F) → (⟨S64, .f32⟩ : BufTy).Contents (Elt F))
  :: StableHlo.nullary main_cst_110 (constant S_ .f32 0x00000000#32)
  :: StableHlo.TRef.unary (.of main_cst_110 : StableHlo.TRef sig ⟨S_, .f32⟩) (.of main_call24_v0 : StableHlo.TRef sig ⟨S_, .f32⟩) id
  :: StableHlo.TRef.unary (.of main_call24_v0 : StableHlo.TRef sig ⟨S_, .f32⟩) (.of main_call24_v1 : StableHlo.TRef sig ⟨S64, .f32⟩) (broadcastInDim S64 ![] bcast_S_S64)
  :: StableHlo.TRef.ternary (.of main_v304 : StableHlo.TRef sig ⟨S64, .i1⟩) (.of main_v310 : StableHlo.TRef sig ⟨S64, .f32⟩) (.of main_call24_v1 : StableHlo.TRef sig ⟨S64, .f32⟩) (.of main_v311 : StableHlo.TRef sig ⟨S64, .f32⟩) select
  :: StableHlo.unary main_v94 main_v312 ((extui 32 · natLt_1_32) : (⟨S64x1000, .i1⟩ : BufTy).Contents (Elt F) → (⟨S64x1000, .i32⟩ : BufTy).Contents (Elt F))
  :: StableHlo.nullary main_c_111 (constantI S_ 32 0#32)
  :: StableHlo.binary main_v312 main_c_111 main_v313 ((fun x v => Host.reduce IntOp.addi x v reducesTo_S64x1000_S64_d1 h_S_) : (⟨S64x1000, .i32⟩ : BufTy).Contents (Elt F) → (⟨S_, .i32⟩ : BufTy).Contents (Elt F) → (⟨S64, .i32⟩ : BufTy).Contents (Elt F))
  :: StableHlo.nullary main_c_112 (constantI S_ 32 0#32)
  :: StableHlo.unary main_c_112 main_v314 (broadcastInDim S64 ![] bcast_S_S64 : (⟨S_, .i32⟩ : BufTy).Contents (Elt F) → (⟨S64, .i32⟩ : BufTy).Contents (Elt F))
  :: StableHlo.binary main_v313 main_v314 main_v315 (cmpi .sgt : (⟨S64, .i32⟩ : BufTy).Contents (Elt F) → (⟨S64, .i32⟩ : BufTy).Contents (Elt F) → (⟨S64, .i1⟩ : BufTy).Contents (Elt F))
  :: StableHlo.nullary main_cst_113 (constant S_ .f32 0x00000000#32)
  :: StableHlo.TRef.unary (.of main_cst_113 : StableHlo.TRef sig ⟨S_, .f32⟩) (.of main_call25_v0 : StableHlo.TRef sig ⟨S_, .f32⟩) id
  :: StableHlo.TRef.unary (.of main_call25_v0 : StableHlo.TRef sig ⟨S_, .f32⟩) (.of main_call25_v1 : StableHlo.TRef sig ⟨S64x1000, .f32⟩) (broadcastInDim S64x1000 ![] bcast_S_S64x1000)
  :: StableHlo.TRef.ternary (.of main_v94 : StableHlo.TRef sig ⟨S64x1000, .i1⟩) (.of main_v52 : StableHlo.TRef sig ⟨S64x1000, .f32⟩) (.of main_call25_v1 : StableHlo.TRef sig ⟨S64x1000, .f32⟩) (.of main_v316 : StableHlo.TRef sig ⟨S64x1000, .f32⟩) select
  :: StableHlo.nullary main_cst_114 (constant S_ .f32 0x00000000#32)
  :: StableHlo.binary main_v316 main_cst_114 main_v317 ((fun x v => Host.reduceAdd x v reducesTo_S64x1000_S64_d1 h_S_) : (⟨S64x1000, .f32⟩ : BufTy).Contents (Elt F) → (⟨S_, .f32⟩ : BufTy).Contents (Elt F) → (⟨S64, .f32⟩ : BufTy).Contents (Elt F))
  :: StableHlo.nullary main_c_115 (constantI S_ 32 1#32)
  :: StableHlo.unary main_c_115 main_v318 (broadcastInDim S64 ![] bcast_S_S64 : (⟨S_, .i32⟩ : BufTy).Contents (Elt F) → (⟨S64, .i32⟩ : BufTy).Contents (Elt F))
  :: StableHlo.binary main_v313 main_v318 main_v319 (maxsi : (⟨S64, .i32⟩ : BufTy).Contents (Elt F) → (⟨S64, .i32⟩ : BufTy).Contents (Elt F) → (⟨S64, .i32⟩ : BufTy).Contents (Elt F))
  :: StableHlo.unary main_v319 main_v320 (sitofp .f32 : (⟨S64, .i32⟩ : BufTy).Contents (Elt F) → (⟨S64, .f32⟩ : BufTy).Contents (Elt F))
  :: StableHlo.binary main_v317 main_v320 main_v321 (Host.divf : (⟨S64, .f32⟩ : BufTy).Contents (Elt F) → (⟨S64, .f32⟩ : BufTy).Contents (Elt F) → (⟨S64, .f32⟩ : BufTy).Contents (Elt F))
  :: StableHlo.nullary main_cst_116 (constant S_ .f32 0x00000000#32)
  :: StableHlo.TRef.unary (.of main_cst_116 : StableHlo.TRef sig ⟨S_, .f32⟩) (.of main_call26_v0 : StableHlo.TRef sig ⟨S_, .f32⟩) id
  :: StableHlo.TRef.unary (.of main_call26_v0 : StableHlo.TRef sig ⟨S_, .f32⟩) (.of main_call26_v1 : StableHlo.TRef sig ⟨S64, .f32⟩) (broadcastInDim S64 ![] bcast_S_S64)
  :: StableHlo.TRef.ternary (.of main_v315 : StableHlo.TRef sig ⟨S64, .i1⟩) (.of main_v321 : StableHlo.TRef sig ⟨S64, .f32⟩) (.of main_call26_v1 : StableHlo.TRef sig ⟨S64, .f32⟩) (.of main_v322 : StableHlo.TRef sig ⟨S64, .f32⟩) select
  :: StableHlo.unary main_v311 main_v323 (broadcastInDim S1x64 ![1] bcast_S64_S1x64_1 : (⟨S64, .f32⟩ : BufTy).Contents (Elt F) → (⟨S1x64, .f32⟩ : BufTy).Contents (Elt F))
  :: StableHlo.unary main_v322 main_v324 (broadcastInDim S1x64 ![1] bcast_S64_S1x64_1 : (⟨S64, .f32⟩ : BufTy).Contents (Elt F) → (⟨S1x64, .f32⟩ : BufTy).Contents (Elt F))
  :: StableHlo.binary main_v323 main_v324 main_v325 ((fun a b => concatenate S2x64 0 [⟨S1x64, a⟩, ⟨S1x64, b⟩] concatenates_S1x64_S1x64_S2x64_d0) : (⟨S1x64, .f32⟩ : BufTy).Contents (Elt F) → (⟨S1x64, .f32⟩ : BufTy).Contents (Elt F) → (⟨S2x64, .f32⟩ : BufTy).Contents (Elt F))
  :: StableHlo.unary main_v126 main_v326 (broadcastInDim S1x64 ![1] bcast_S64_S1x64_1 : (⟨S64, .i1⟩ : BufTy).Contents (Elt F) → (⟨S1x64, .i1⟩ : BufTy).Contents (Elt F))
  :: StableHlo.unary main_v128 main_v327 (broadcastInDim S1x64 ![1] bcast_S64_S1x64_1 : (⟨S64, .i1⟩ : BufTy).Contents (Elt F) → (⟨S1x64, .i1⟩ : BufTy).Contents (Elt F))
  :: StableHlo.binary main_v326 main_v327 main_v328 ((fun a b => concatenate S2x64 0 [⟨S1x64, a⟩, ⟨S1x64, b⟩] concatenates_S1x64_S1x64_S2x64_d0) : (⟨S1x64, .i1⟩ : BufTy).Contents (Elt F) → (⟨S1x64, .i1⟩ : BufTy).Contents (Elt F) → (⟨S2x64, .i1⟩ : BufTy).Contents (Elt F))
  :: StableHlo.unary main_v328 main_v329 (uitofp .f32 : (⟨S2x64, .i1⟩ : BufTy).Contents (Elt F) → (⟨S2x64, .f32⟩ : BufTy).Contents (Elt F))
  :: StableHlo.nullary main_cst_117 (constant S_ .f32 0x00000000#32)
  :: StableHlo.binary main_v329 main_cst_117 main_v330 ((fun x v => Host.reduceAdd x v reducesTo_S2x64_S_d0_1 h_S_) : (⟨S2x64, .f32⟩ : BufTy).Contents (Elt F) → (⟨S_, .f32⟩ : BufTy).Contents (Elt F) → (⟨S_, .f32⟩ : BufTy).Contents (Elt F))
  :: StableHlo.nullary main_cst_118 (constant S_ .f32 0x00000000#32)
  :: StableHlo.binary main_v330 main_cst_118 main_v331 (cmpf .ogt : (⟨S_, .f32⟩ : BufTy).Contents (Elt F) → (⟨S_, .f32⟩ : BufTy).Contents (Elt F) → (⟨S_, .i1⟩ : BufTy).Contents (Elt F))
  :: StableHlo.binary main_v325 main_v329 main_v332 (mulf : (⟨S2x64, .f32⟩ : BufTy).Contents (Elt F) → (⟨S2x64, .f32⟩ : BufTy).Contents (Elt F) → (⟨S2x64, .f32⟩ : BufTy).Contents (Elt F))
  :: StableHlo.nullary main_cst_119 (constant S_ .f32 0x00000000#32)
  :: StableHlo.binary main_v332 main_cst_119 main_v333 ((fun x v => Host.reduceAdd x v reducesTo_S2x64_S_d0_1 h_S_) : (⟨S2x64, .f32⟩ : BufTy).Contents (Elt F) → (⟨S_, .f32⟩ : BufTy).Contents (Elt F) → (⟨S_, .f32⟩ : BufTy).Contents (Elt F))
  :: StableHlo.nullary main_cst_120 (constant S_ .f32 0x3F800000#32)
  :: StableHlo.binary main_v330 main_cst_120 main_v334 (maximumf : (⟨S_, .f32⟩ : BufTy).Contents (Elt F) → (⟨S_, .f32⟩ : BufTy).Contents (Elt F) → (⟨S_, .f32⟩ : BufTy).Contents (Elt F))
  :: StableHlo.binary main_v333 main_v334 main_v335 (Host.divf : (⟨S_, .f32⟩ : BufTy).Contents (Elt F) → (⟨S_, .f32⟩ : BufTy).Contents (Elt F) → (⟨S_, .f32⟩ : BufTy).Contents (Elt F))
  :: StableHlo.nullary main_cst_121 (constant S_ .f32 0x00000000#32)
  :: StableHlo.TRef.unary (.of main_cst_121 : StableHlo.TRef sig ⟨S_, .f32⟩) (.of main_call27_v0 : StableHlo.TRef sig ⟨S_, .f32⟩) id
  :: StableHlo.TRef.ternary (.of main_v331 : StableHlo.TRef sig ⟨S_, .i1⟩) (.of main_v335 : StableHlo.TRef sig ⟨S_, .f32⟩) (.of main_call27_v0 : StableHlo.TRef sig ⟨S_, .f32⟩) (.of main_v336 : StableHlo.TRef sig ⟨S_, .f32⟩) select
  :: StableHlo.unary main_v211 main_v337 ((extui 32 · natLt_1_32) : (⟨S64x1000, .i1⟩ : BufTy).Contents (Elt F) → (⟨S64x1000, .i32⟩ : BufTy).Contents (Elt F))
  :: StableHlo.nullary main_c_122 (constantI S_ 32 0#32)
  :: StableHlo.binary main_v337 main_c_122 main_v338 ((fun x v => Host.reduce IntOp.addi x v reducesTo_S64x1000_S64_d1 h_S_) : (⟨S64x1000, .i32⟩ : BufTy).Contents (Elt F) → (⟨S_, .i32⟩ : BufTy).Contents (Elt F) → (⟨S64, .i32⟩ : BufTy).Contents (Elt F))
  :: StableHlo.nullary main_c_123 (constantI S_ 32 0#32)
  :: StableHlo.unary main_c_123 main_v339 (broadcastInDim S64 ![] bcast_S_S64 : (⟨S_, .i32⟩ : BufTy).Contents (Elt F) → (⟨S64, .i32⟩ : BufTy).Contents (Elt F))
  :: StableHlo.binary main_v338 main_v339 main_v340 (cmpi .sgt : (⟨S64, .i32⟩ : BufTy).Contents (Elt F) → (⟨S64, .i32⟩ : BufTy).Contents (Elt F) → (⟨S64, .i1⟩ : BufTy).Contents (Elt F))
  :: StableHlo.nullary main_cst_124 (constant S_ .f32 0x00000000#32)
  :: StableHlo.TRef.unary (.of main_cst_124 : StableHlo.TRef sig ⟨S_, .f32⟩) (.of main_call28_v0 : StableHlo.TRef sig ⟨S_, .f32⟩) id
  :: StableHlo.TRef.unary (.of main_call28_v0 : StableHlo.TRef sig ⟨S_, .f32⟩) (.of main_call28_v1 : StableHlo.TRef sig ⟨S64x1000, .f32⟩) (broadcastInDim S64x1000 ![] bcast_S_S64x1000)
  :: StableHlo.TRef.ternary (.of main_v211 : StableHlo.TRef sig ⟨S64x1000, .i1⟩) (.of main_v52 : StableHlo.TRef sig ⟨S64x1000, .f32⟩) (.of main_call28_v1 : StableHlo.TRef sig ⟨S64x1000, .f32⟩) (.of main_v341 : StableHlo.TRef sig ⟨S64x1000, .f32⟩) select
  :: StableHlo.nullary main_cst_125 (constant S_ .f32 0x00000000#32)
  :: StableHlo.binary main_v341 main_cst_125 main_v342 ((fun x v => Host.reduceAdd x v reducesTo_S64x1000_S64_d1 h_S_) : (⟨S64x1000, .f32⟩ : BufTy).Contents (Elt F) → (⟨S_, .f32⟩ : BufTy).Contents (Elt F) → (⟨S64, .f32⟩ : BufTy).Contents (Elt F))
  :: StableHlo.nullary main_c_126 (constantI S_ 32 1#32)
  :: StableHlo.unary main_c_126 main_v343 (broadcastInDim S64 ![] bcast_S_S64 : (⟨S_, .i32⟩ : BufTy).Contents (Elt F) → (⟨S64, .i32⟩ : BufTy).Contents (Elt F))
  :: StableHlo.binary main_v338 main_v343 main_v344 (maxsi : (⟨S64, .i32⟩ : BufTy).Contents (Elt F) → (⟨S64, .i32⟩ : BufTy).Contents (Elt F) → (⟨S64, .i32⟩ : BufTy).Contents (Elt F))
  :: StableHlo.unary main_v344 main_v345 (sitofp .f32 : (⟨S64, .i32⟩ : BufTy).Contents (Elt F) → (⟨S64, .f32⟩ : BufTy).Contents (Elt F))
  :: StableHlo.binary main_v342 main_v345 main_v346 (Host.divf : (⟨S64, .f32⟩ : BufTy).Contents (Elt F) → (⟨S64, .f32⟩ : BufTy).Contents (Elt F) → (⟨S64, .f32⟩ : BufTy).Contents (Elt F))
  :: StableHlo.nullary main_cst_127 (constant S_ .f32 0x00000000#32)
  :: StableHlo.TRef.unary (.of main_cst_127 : StableHlo.TRef sig ⟨S_, .f32⟩) (.of main_call29_v0 : StableHlo.TRef sig ⟨S_, .f32⟩) id
  :: StableHlo.TRef.unary (.of main_call29_v0 : StableHlo.TRef sig ⟨S_, .f32⟩) (.of main_call29_v1 : StableHlo.TRef sig ⟨S64, .f32⟩) (broadcastInDim S64 ![] bcast_S_S64)
  :: StableHlo.TRef.ternary (.of main_v340 : StableHlo.TRef sig ⟨S64, .i1⟩) (.of main_v346 : StableHlo.TRef sig ⟨S64, .f32⟩) (.of main_call29_v1 : StableHlo.TRef sig ⟨S64, .f32⟩) (.of main_v347 : StableHlo.TRef sig ⟨S64, .f32⟩) select
  :: StableHlo.unary main_v214 main_v348 ((extui 32 · natLt_1_32) : (⟨S64x1000, .i1⟩ : BufTy).Contents (Elt F) → (⟨S64x1000, .i32⟩ : BufTy).Contents (Elt F))
  :: StableHlo.nullary main_c_128 (constantI S_ 32 0#32)
  :: [] )

set_option maxHeartbeats 40000000 in
/-- Each touches TensorCore references only. -/
theorem rOps7_sub : (rOps7 : List (HloOp τ sig (Elt F))).Forall fun op => op.bufs ⊆ StableHlo.tcRefs τ sig :=
  ⟨StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub ..⟩

/-- Window 8: operations 540 … 610. -/
abbrev rOps8 : List (HloOp τ sig (Elt F)) :=
  ( StableHlo.binary main_v348 main_c_128 main_v349 ((fun x v => Host.reduce IntOp.addi x v reducesTo_S64x1000_S64_d1 h_S_) : (⟨S64x1000, .i32⟩ : BufTy).Contents (Elt F) → (⟨S_, .i32⟩ : BufTy).Contents (Elt F) → (⟨S64, .i32⟩ : BufTy).Contents (Elt F))
  :: StableHlo.nullary main_c_129 (constantI S_ 32 0#32)
  :: StableHlo.unary main_c_129 main_v350 (broadcastInDim S64 ![] bcast_S_S64 : (⟨S_, .i32⟩ : BufTy).Contents (Elt F) → (⟨S64, .i32⟩ : BufTy).Contents (Elt F))
  :: StableHlo.binary main_v349 main_v350 main_v351 (cmpi .sgt : (⟨S64, .i32⟩ : BufTy).Contents (Elt F) → (⟨S64, .i32⟩ : BufTy).Contents (Elt F) → (⟨S64, .i1⟩ : BufTy).Contents (Elt F))
  :: StableHlo.nullary main_cst_130 (constant S_ .f32 0x00000000#32)
  :: StableHlo.TRef.unary (.of main_cst_130 : StableHlo.TRef sig ⟨S_, .f32⟩) (.of main_call30_v0 : StableHlo.TRef sig ⟨S_, .f32⟩) id
  :: StableHlo.TRef.unary (.of main_call30_v0 : StableHlo.TRef sig ⟨S_, .f32⟩) (.of main_call30_v1 : StableHlo.TRef sig ⟨S64x1000, .f32⟩) (broadcastInDim S64x1000 ![] bcast_S_S64x1000)
  :: StableHlo.TRef.ternary (.of main_v214 : StableHlo.TRef sig ⟨S64x1000, .i1⟩) (.of main_v62 : StableHlo.TRef sig ⟨S64x1000, .f32⟩) (.of main_call30_v1 : StableHlo.TRef sig ⟨S64x1000, .f32⟩) (.of main_v352 : StableHlo.TRef sig ⟨S64x1000, .f32⟩) select
  :: StableHlo.nullary main_cst_131 (constant S_ .f32 0x00000000#32)
  :: StableHlo.binary main_v352 main_cst_131 main_v353 ((fun x v => Host.reduceAdd x v reducesTo_S64x1000_S64_d1 h_S_) : (⟨S64x1000, .f32⟩ : BufTy).Contents (Elt F) → (⟨S_, .f32⟩ : BufTy).Contents (Elt F) → (⟨S64, .f32⟩ : BufTy).Contents (Elt F))
  :: StableHlo.nullary main_c_132 (constantI S_ 32 1#32)
  :: StableHlo.unary main_c_132 main_v354 (broadcastInDim S64 ![] bcast_S_S64 : (⟨S_, .i32⟩ : BufTy).Contents (Elt F) → (⟨S64, .i32⟩ : BufTy).Contents (Elt F))
  :: StableHlo.binary main_v349 main_v354 main_v355 (maxsi : (⟨S64, .i32⟩ : BufTy).Contents (Elt F) → (⟨S64, .i32⟩ : BufTy).Contents (Elt F) → (⟨S64, .i32⟩ : BufTy).Contents (Elt F))
  :: StableHlo.unary main_v355 main_v356 (sitofp .f32 : (⟨S64, .i32⟩ : BufTy).Contents (Elt F) → (⟨S64, .f32⟩ : BufTy).Contents (Elt F))
  :: StableHlo.binary main_v353 main_v356 main_v357 (Host.divf : (⟨S64, .f32⟩ : BufTy).Contents (Elt F) → (⟨S64, .f32⟩ : BufTy).Contents (Elt F) → (⟨S64, .f32⟩ : BufTy).Contents (Elt F))
  :: StableHlo.nullary main_cst_133 (constant S_ .f32 0x00000000#32)
  :: StableHlo.TRef.unary (.of main_cst_133 : StableHlo.TRef sig ⟨S_, .f32⟩) (.of main_call31_v0 : StableHlo.TRef sig ⟨S_, .f32⟩) id
  :: StableHlo.TRef.unary (.of main_call31_v0 : StableHlo.TRef sig ⟨S_, .f32⟩) (.of main_call31_v1 : StableHlo.TRef sig ⟨S64, .f32⟩) (broadcastInDim S64 ![] bcast_S_S64)
  :: StableHlo.TRef.ternary (.of main_v351 : StableHlo.TRef sig ⟨S64, .i1⟩) (.of main_v357 : StableHlo.TRef sig ⟨S64, .f32⟩) (.of main_call31_v1 : StableHlo.TRef sig ⟨S64, .f32⟩) (.of main_v358 : StableHlo.TRef sig ⟨S64, .f32⟩) select
  :: StableHlo.unary main_v347 main_v359 (broadcastInDim S1x64 ![1] bcast_S64_S1x64_1 : (⟨S64, .f32⟩ : BufTy).Contents (Elt F) → (⟨S1x64, .f32⟩ : BufTy).Contents (Elt F))
  :: StableHlo.unary main_v358 main_v360 (broadcastInDim S1x64 ![1] bcast_S64_S1x64_1 : (⟨S64, .f32⟩ : BufTy).Contents (Elt F) → (⟨S1x64, .f32⟩ : BufTy).Contents (Elt F))
  :: StableHlo.binary main_v359 main_v360 main_v361 ((fun a b => concatenate S2x64 0 [⟨S1x64, a⟩, ⟨S1x64, b⟩] concatenates_S1x64_S1x64_S2x64_d0) : (⟨S1x64, .f32⟩ : BufTy).Contents (Elt F) → (⟨S1x64, .f32⟩ : BufTy).Contents (Elt F) → (⟨S2x64, .f32⟩ : BufTy).Contents (Elt F))
  :: StableHlo.unary main_v216 main_v362 (broadcastInDim S1x64 ![1] bcast_S64_S1x64_1 : (⟨S64, .i1⟩ : BufTy).Contents (Elt F) → (⟨S1x64, .i1⟩ : BufTy).Contents (Elt F))
  :: StableHlo.unary main_v218 main_v363 (broadcastInDim S1x64 ![1] bcast_S64_S1x64_1 : (⟨S64, .i1⟩ : BufTy).Contents (Elt F) → (⟨S1x64, .i1⟩ : BufTy).Contents (Elt F))
  :: StableHlo.binary main_v362 main_v363 main_v364 ((fun a b => concatenate S2x64 0 [⟨S1x64, a⟩, ⟨S1x64, b⟩] concatenates_S1x64_S1x64_S2x64_d0) : (⟨S1x64, .i1⟩ : BufTy).Contents (Elt F) → (⟨S1x64, .i1⟩ : BufTy).Contents (Elt F) → (⟨S2x64, .i1⟩ : BufTy).Contents (Elt F))
  :: StableHlo.unary main_v364 main_v365 (uitofp .f32 : (⟨S2x64, .i1⟩ : BufTy).Contents (Elt F) → (⟨S2x64, .f32⟩ : BufTy).Contents (Elt F))
  :: StableHlo.nullary main_cst_134 (constant S_ .f32 0x00000000#32)
  :: StableHlo.binary main_v365 main_cst_134 main_v366 ((fun x v => Host.reduceAdd x v reducesTo_S2x64_S_d0_1 h_S_) : (⟨S2x64, .f32⟩ : BufTy).Contents (Elt F) → (⟨S_, .f32⟩ : BufTy).Contents (Elt F) → (⟨S_, .f32⟩ : BufTy).Contents (Elt F))
  :: StableHlo.nullary main_cst_135 (constant S_ .f32 0x00000000#32)
  :: StableHlo.binary main_v366 main_cst_135 main_v367 (cmpf .ogt : (⟨S_, .f32⟩ : BufTy).Contents (Elt F) → (⟨S_, .f32⟩ : BufTy).Contents (Elt F) → (⟨S_, .i1⟩ : BufTy).Contents (Elt F))
  :: StableHlo.binary main_v361 main_v365 main_v368 (mulf : (⟨S2x64, .f32⟩ : BufTy).Contents (Elt F) → (⟨S2x64, .f32⟩ : BufTy).Contents (Elt F) → (⟨S2x64, .f32⟩ : BufTy).Contents (Elt F))
  :: StableHlo.nullary main_cst_136 (constant S_ .f32 0x00000000#32)
  :: StableHlo.binary main_v368 main_cst_136 main_v369 ((fun x v => Host.reduceAdd x v reducesTo_S2x64_S_d0_1 h_S_) : (⟨S2x64, .f32⟩ : BufTy).Contents (Elt F) → (⟨S_, .f32⟩ : BufTy).Contents (Elt F) → (⟨S_, .f32⟩ : BufTy).Contents (Elt F))
  :: StableHlo.nullary main_cst_137 (constant S_ .f32 0x3F800000#32)
  :: StableHlo.binary main_v366 main_cst_137 main_v370 (maximumf : (⟨S_, .f32⟩ : BufTy).Contents (Elt F) → (⟨S_, .f32⟩ : BufTy).Contents (Elt F) → (⟨S_, .f32⟩ : BufTy).Contents (Elt F))
  :: StableHlo.binary main_v369 main_v370 main_v371 (Host.divf : (⟨S_, .f32⟩ : BufTy).Contents (Elt F) → (⟨S_, .f32⟩ : BufTy).Contents (Elt F) → (⟨S_, .f32⟩ : BufTy).Contents (Elt F))
  :: StableHlo.nullary main_cst_138 (constant S_ .f32 0x00000000#32)
  :: StableHlo.TRef.unary (.of main_cst_138 : StableHlo.TRef sig ⟨S_, .f32⟩) (.of main_call32_v0 : StableHlo.TRef sig ⟨S_, .f32⟩) id
  :: StableHlo.TRef.ternary (.of main_v367 : StableHlo.TRef sig ⟨S_, .i1⟩) (.of main_v371 : StableHlo.TRef sig ⟨S_, .f32⟩) (.of main_call32_v0 : StableHlo.TRef sig ⟨S_, .f32⟩) (.of main_v372 : StableHlo.TRef sig ⟨S_, .f32⟩) select
  :: StableHlo.unary main_v211 main_v373 ((extui 32 · natLt_1_32) : (⟨S64x1000, .i1⟩ : BufTy).Contents (Elt F) → (⟨S64x1000, .i32⟩ : BufTy).Contents (Elt F))
  :: StableHlo.nullary main_c_139 (constantI S_ 32 0#32)
  :: StableHlo.binary main_v373 main_c_139 main_v374 ((fun x v => Host.reduce IntOp.addi x v reducesTo_S64x1000_S64_d1 h_S_) : (⟨S64x1000, .i32⟩ : BufTy).Contents (Elt F) → (⟨S_, .i32⟩ : BufTy).Contents (Elt F) → (⟨S64, .i32⟩ : BufTy).Contents (Elt F))
  :: StableHlo.nullary main_c_140 (constantI S_ 32 0#32)
  :: StableHlo.unary main_c_140 main_v375 (broadcastInDim S64 ![] bcast_S_S64 : (⟨S_, .i32⟩ : BufTy).Contents (Elt F) → (⟨S64, .i32⟩ : BufTy).Contents (Elt F))
  :: StableHlo.binary main_v374 main_v375 main_v376 (cmpi .sgt : (⟨S64, .i32⟩ : BufTy).Contents (Elt F) → (⟨S64, .i32⟩ : BufTy).Contents (Elt F) → (⟨S64, .i1⟩ : BufTy).Contents (Elt F))
  :: StableHlo.nullary main_cst_141 (constant S_ .f32 0x00000000#32)
  :: StableHlo.TRef.unary (.of main_cst_141 : StableHlo.TRef sig ⟨S_, .f32⟩) (.of main_call33_v0 : StableHlo.TRef sig ⟨S_, .f32⟩) id
  :: StableHlo.TRef.unary (.of main_call33_v0 : StableHlo.TRef sig ⟨S_, .f32⟩) (.of main_call33_v1 : StableHlo.TRef sig ⟨S64x1000, .f32⟩) (broadcastInDim S64x1000 ![] bcast_S_S64x1000)
  :: StableHlo.TRef.ternary (.of main_v211 : StableHlo.TRef sig ⟨S64x1000, .i1⟩) (.of main_v62 : StableHlo.TRef sig ⟨S64x1000, .f32⟩) (.of main_call33_v1 : StableHlo.TRef sig ⟨S64x1000, .f32⟩) (.of main_v377 : StableHlo.TRef sig ⟨S64x1000, .f32⟩) select
  :: StableHlo.nullary main_cst_142 (constant S_ .f32 0x00000000#32)
  :: StableHlo.binary main_v377 main_cst_142 main_v378 ((fun x v => Host.reduceAdd x v reducesTo_S64x1000_S64_d1 h_S_) : (⟨S64x1000, .f32⟩ : BufTy).Contents (Elt F) → (⟨S_, .f32⟩ : BufTy).Contents (Elt F) → (⟨S64, .f32⟩ : BufTy).Contents (Elt F))
  :: StableHlo.nullary main_c_143 (constantI S_ 32 1#32)
  :: StableHlo.unary main_c_143 main_v379 (broadcastInDim S64 ![] bcast_S_S64 : (⟨S_, .i32⟩ : BufTy).Contents (Elt F) → (⟨S64, .i32⟩ : BufTy).Contents (Elt F))
  :: StableHlo.binary main_v374 main_v379 main_v380 (maxsi : (⟨S64, .i32⟩ : BufTy).Contents (Elt F) → (⟨S64, .i32⟩ : BufTy).Contents (Elt F) → (⟨S64, .i32⟩ : BufTy).Contents (Elt F))
  :: StableHlo.unary main_v380 main_v381 (sitofp .f32 : (⟨S64, .i32⟩ : BufTy).Contents (Elt F) → (⟨S64, .f32⟩ : BufTy).Contents (Elt F))
  :: StableHlo.binary main_v378 main_v381 main_v382 (Host.divf : (⟨S64, .f32⟩ : BufTy).Contents (Elt F) → (⟨S64, .f32⟩ : BufTy).Contents (Elt F) → (⟨S64, .f32⟩ : BufTy).Contents (Elt F))
  :: StableHlo.nullary main_cst_144 (constant S_ .f32 0x00000000#32)
  :: StableHlo.TRef.unary (.of main_cst_144 : StableHlo.TRef sig ⟨S_, .f32⟩) (.of main_call34_v0 : StableHlo.TRef sig ⟨S_, .f32⟩) id
  :: StableHlo.TRef.unary (.of main_call34_v0 : StableHlo.TRef sig ⟨S_, .f32⟩) (.of main_call34_v1 : StableHlo.TRef sig ⟨S64, .f32⟩) (broadcastInDim S64 ![] bcast_S_S64)
  :: StableHlo.TRef.ternary (.of main_v376 : StableHlo.TRef sig ⟨S64, .i1⟩) (.of main_v382 : StableHlo.TRef sig ⟨S64, .f32⟩) (.of main_call34_v1 : StableHlo.TRef sig ⟨S64, .f32⟩) (.of main_v383 : StableHlo.TRef sig ⟨S64, .f32⟩) select
  :: StableHlo.unary main_v214 main_v384 ((extui 32 · natLt_1_32) : (⟨S64x1000, .i1⟩ : BufTy).Contents (Elt F) → (⟨S64x1000, .i32⟩ : BufTy).Contents (Elt F))
  :: StableHlo.nullary main_c_145 (constantI S_ 32 0#32)
  :: StableHlo.binary main_v384 main_c_145 main_v385 ((fun x v => Host.reduce IntOp.addi x v reducesTo_S64x1000_S64_d1 h_S_) : (⟨S64x1000, .i32⟩ : BufTy).Contents (Elt F) → (⟨S_, .i32⟩ : BufTy).Contents (Elt F) → (⟨S64, .i32⟩ : BufTy).Contents (Elt F))
  :: StableHlo.nullary main_c_146 (constantI S_ 32 0#32)
  :: StableHlo.unary main_c_146 main_v386 (broadcastInDim S64 ![] bcast_S_S64 : (⟨S_, .i32⟩ : BufTy).Contents (Elt F) → (⟨S64, .i32⟩ : BufTy).Contents (Elt F))
  :: StableHlo.binary main_v385 main_v386 main_v387 (cmpi .sgt : (⟨S64, .i32⟩ : BufTy).Contents (Elt F) → (⟨S64, .i32⟩ : BufTy).Contents (Elt F) → (⟨S64, .i1⟩ : BufTy).Contents (Elt F))
  :: StableHlo.nullary main_cst_147 (constant S_ .f32 0x00000000#32)
  :: StableHlo.TRef.unary (.of main_cst_147 : StableHlo.TRef sig ⟨S_, .f32⟩) (.of main_call35_v0 : StableHlo.TRef sig ⟨S_, .f32⟩) id
  :: StableHlo.TRef.unary (.of main_call35_v0 : StableHlo.TRef sig ⟨S_, .f32⟩) (.of main_call35_v1 : StableHlo.TRef sig ⟨S64x1000, .f32⟩) (broadcastInDim S64x1000 ![] bcast_S_S64x1000)
  :: StableHlo.TRef.ternary (.of main_v214 : StableHlo.TRef sig ⟨S64x1000, .i1⟩) (.of main_v52 : StableHlo.TRef sig ⟨S64x1000, .f32⟩) (.of main_call35_v1 : StableHlo.TRef sig ⟨S64x1000, .f32⟩) (.of main_v388 : StableHlo.TRef sig ⟨S64x1000, .f32⟩) select
  :: StableHlo.nullary main_cst_148 (constant S_ .f32 0x00000000#32)
  :: [] )

set_option maxHeartbeats 40000000 in
/-- Each touches TensorCore references only. -/
theorem rOps8_sub : (rOps8 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub ..⟩

/-- Window 9: operations 611 … 656. -/
abbrev rOps9 : List (HloOp τ sig (Elt F)) :=
  ( StableHlo.binary main_v388 main_cst_148 main_v389 ((fun x v => Host.reduceAdd x v reducesTo_S64x1000_S64_d1 h_S_) : (⟨S64x1000, .f32⟩ : BufTy).Contents (Elt F) → (⟨S_, .f32⟩ : BufTy).Contents (Elt F) → (⟨S64, .f32⟩ : BufTy).Contents (Elt F))
  :: StableHlo.nullary main_c_149 (constantI S_ 32 1#32)
  :: StableHlo.unary main_c_149 main_v390 (broadcastInDim S64 ![] bcast_S_S64 : (⟨S_, .i32⟩ : BufTy).Contents (Elt F) → (⟨S64, .i32⟩ : BufTy).Contents (Elt F))
  :: StableHlo.binary main_v385 main_v390 main_v391 (maxsi : (⟨S64, .i32⟩ : BufTy).Contents (Elt F) → (⟨S64, .i32⟩ : BufTy).Contents (Elt F) → (⟨S64, .i32⟩ : BufTy).Contents (Elt F))
  :: StableHlo.unary main_v391 main_v392 (sitofp .f32 : (⟨S64, .i32⟩ : BufTy).Contents (Elt F) → (⟨S64, .f32⟩ : BufTy).Contents (Elt F))
  :: StableHlo.binary main_v389 main_v392 main_v393 (Host.divf : (⟨S64, .f32⟩ : BufTy).Contents (Elt F) → (⟨S64, .f32⟩ : BufTy).Contents (Elt F) → (⟨S64, .f32⟩ : BufTy).Contents (Elt F))
  :: StableHlo.nullary main_cst_150 (constant S_ .f32 0x00000000#32)
  :: StableHlo.TRef.unary (.of main_cst_150 : StableHlo.TRef sig ⟨S_, .f32⟩) (.of main_call36_v0 : StableHlo.TRef sig ⟨S_, .f32⟩) id
  :: StableHlo.TRef.unary (.of main_call36_v0 : StableHlo.TRef sig ⟨S_, .f32⟩) (.of main_call36_v1 : StableHlo.TRef sig ⟨S64, .f32⟩) (broadcastInDim S64 ![] bcast_S_S64)
  :: StableHlo.TRef.ternary (.of main_v387 : StableHlo.TRef sig ⟨S64, .i1⟩) (.of main_v393 : StableHlo.TRef sig ⟨S64, .f32⟩) (.of main_call36_v1 : StableHlo.TRef sig ⟨S64, .f32⟩) (.of main_v394 : StableHlo.TRef sig ⟨S64, .f32⟩) select
  :: StableHlo.unary main_v383 main_v395 (broadcastInDim S1x64 ![1] bcast_S64_S1x64_1 : (⟨S64, .f32⟩ : BufTy).Contents (Elt F) → (⟨S1x64, .f32⟩ : BufTy).Contents (Elt F))
  :: StableHlo.unary main_v394 main_v396 (broadcastInDim S1x64 ![1] bcast_S64_S1x64_1 : (⟨S64, .f32⟩ : BufTy).Contents (Elt F) → (⟨S1x64, .f32⟩ : BufTy).Contents (Elt F))
  :: StableHlo.binary main_v395 main_v396 main_v397 ((fun a b => concatenate S2x64 0 [⟨S1x64, a⟩, ⟨S1x64, b⟩] concatenates_S1x64_S1x64_S2x64_d0) : (⟨S1x64, .f32⟩ : BufTy).Contents (Elt F) → (⟨S1x64, .f32⟩ : BufTy).Contents (Elt F) → (⟨S2x64, .f32⟩ : BufTy).Contents (Elt F))
  :: StableHlo.unary main_v216 main_v398 (broadcastInDim S1x64 ![1] bcast_S64_S1x64_1 : (⟨S64, .i1⟩ : BufTy).Contents (Elt F) → (⟨S1x64, .i1⟩ : BufTy).Contents (Elt F))
  :: StableHlo.unary main_v218 main_v399 (broadcastInDim S1x64 ![1] bcast_S64_S1x64_1 : (⟨S64, .i1⟩ : BufTy).Contents (Elt F) → (⟨S1x64, .i1⟩ : BufTy).Contents (Elt F))
  :: StableHlo.binary main_v398 main_v399 main_v400 ((fun a b => concatenate S2x64 0 [⟨S1x64, a⟩, ⟨S1x64, b⟩] concatenates_S1x64_S1x64_S2x64_d0) : (⟨S1x64, .i1⟩ : BufTy).Contents (Elt F) → (⟨S1x64, .i1⟩ : BufTy).Contents (Elt F) → (⟨S2x64, .i1⟩ : BufTy).Contents (Elt F))
  :: StableHlo.unary main_v400 main_v401 (uitofp .f32 : (⟨S2x64, .i1⟩ : BufTy).Contents (Elt F) → (⟨S2x64, .f32⟩ : BufTy).Contents (Elt F))
  :: StableHlo.nullary main_cst_151 (constant S_ .f32 0x00000000#32)
  :: StableHlo.binary main_v401 main_cst_151 main_v402 ((fun x v => Host.reduceAdd x v reducesTo_S2x64_S_d0_1 h_S_) : (⟨S2x64, .f32⟩ : BufTy).Contents (Elt F) → (⟨S_, .f32⟩ : BufTy).Contents (Elt F) → (⟨S_, .f32⟩ : BufTy).Contents (Elt F))
  :: StableHlo.nullary main_cst_152 (constant S_ .f32 0x00000000#32)
  :: StableHlo.binary main_v402 main_cst_152 main_v403 (cmpf .ogt : (⟨S_, .f32⟩ : BufTy).Contents (Elt F) → (⟨S_, .f32⟩ : BufTy).Contents (Elt F) → (⟨S_, .i1⟩ : BufTy).Contents (Elt F))
  :: StableHlo.binary main_v397 main_v401 main_v404 (mulf : (⟨S2x64, .f32⟩ : BufTy).Contents (Elt F) → (⟨S2x64, .f32⟩ : BufTy).Contents (Elt F) → (⟨S2x64, .f32⟩ : BufTy).Contents (Elt F))
  :: StableHlo.nullary main_cst_153 (constant S_ .f32 0x00000000#32)
  :: StableHlo.binary main_v404 main_cst_153 main_v405 ((fun x v => Host.reduceAdd x v reducesTo_S2x64_S_d0_1 h_S_) : (⟨S2x64, .f32⟩ : BufTy).Contents (Elt F) → (⟨S_, .f32⟩ : BufTy).Contents (Elt F) → (⟨S_, .f32⟩ : BufTy).Contents (Elt F))
  :: StableHlo.nullary main_cst_154 (constant S_ .f32 0x3F800000#32)
  :: StableHlo.binary main_v402 main_cst_154 main_v406 (maximumf : (⟨S_, .f32⟩ : BufTy).Contents (Elt F) → (⟨S_, .f32⟩ : BufTy).Contents (Elt F) → (⟨S_, .f32⟩ : BufTy).Contents (Elt F))
  :: StableHlo.binary main_v405 main_v406 main_v407 (Host.divf : (⟨S_, .f32⟩ : BufTy).Contents (Elt F) → (⟨S_, .f32⟩ : BufTy).Contents (Elt F) → (⟨S_, .f32⟩ : BufTy).Contents (Elt F))
  :: StableHlo.nullary main_cst_155 (constant S_ .f32 0x00000000#32)
  :: StableHlo.TRef.unary (.of main_cst_155 : StableHlo.TRef sig ⟨S_, .f32⟩) (.of main_call37_v0 : StableHlo.TRef sig ⟨S_, .f32⟩) id
  :: StableHlo.TRef.ternary (.of main_v403 : StableHlo.TRef sig ⟨S_, .i1⟩) (.of main_v407 : StableHlo.TRef sig ⟨S_, .f32⟩) (.of main_call37_v0 : StableHlo.TRef sig ⟨S_, .f32⟩) (.of main_v408 : StableHlo.TRef sig ⟨S_, .f32⟩) select
  :: StableHlo.binary main_v300 main_v336 main_v409 (subf : (⟨S_, .f32⟩ : BufTy).Contents (Elt F) → (⟨S_, .f32⟩ : BufTy).Contents (Elt F) → (⟨S_, .f32⟩ : BufTy).Contents (Elt F))
  :: StableHlo.binary main_v372 main_v408 main_v410 (subf : (⟨S_, .f32⟩ : BufTy).Contents (Elt F) → (⟨S_, .f32⟩ : BufTy).Contents (Elt F) → (⟨S_, .f32⟩ : BufTy).Contents (Elt F))
  :: StableHlo.unary main_v190 main_v411 (broadcastInDim S1 ![] bcast_S_S1 : (⟨S_, .f32⟩ : BufTy).Contents (Elt F) → (⟨S1, .f32⟩ : BufTy).Contents (Elt F))
  :: StableHlo.unary main_v264 main_v412 (broadcastInDim S1 ![] bcast_S_S1 : (⟨S_, .f32⟩ : BufTy).Contents (Elt F) → (⟨S1, .f32⟩ : BufTy).Contents (Elt F))
  :: StableHlo.unary main_v300 main_v413 (broadcastInDim S1 ![] bcast_S_S1 : (⟨S_, .f32⟩ : BufTy).Contents (Elt F) → (⟨S1, .f32⟩ : BufTy).Contents (Elt F))
  :: StableHlo.unary main_v336 main_v414 (broadcastInDim S1 ![] bcast_S_S1 : (⟨S_, .f32⟩ : BufTy).Contents (Elt F) → (⟨S1, .f32⟩ : BufTy).Contents (Elt F))
  :: StableHlo.unary main_v336 main_v415 (broadcastInDim S1 ![] bcast_S_S1 : (⟨S_, .f32⟩ : BufTy).Contents (Elt F) → (⟨S1, .f32⟩ : BufTy).Contents (Elt F))
  :: StableHlo.unary main_v372 main_v416 (broadcastInDim S1 ![] bcast_S_S1 : (⟨S_, .f32⟩ : BufTy).Contents (Elt F) → (⟨S1, .f32⟩ : BufTy).Contents (Elt F))
  :: StableHlo.unary main_v408 main_v417 (broadcastInDim S1 ![] bcast_S_S1 : (⟨S_, .f32⟩ : BufTy).Contents (Elt F) → (⟨S1, .f32⟩ : BufTy).Contents (Elt F))
  :: StableHlo.unary main_v409 main_v418 (broadcastInDim S1 ![] bcast_S_S1 : (⟨S_, .f32⟩ : BufTy).Contents (Elt F) → (⟨S1, .f32⟩ : BufTy).Contents (Elt F))
  :: StableHlo.unary main_v410 main_v419 (broadcastInDim S1 ![] bcast_S_S1 : (⟨S_, .f32⟩ : BufTy).Contents (Elt F) → (⟨S1, .f32⟩ : BufTy).Contents (Elt F))
  :: StableHlo.unary main_v336 main_v420 (broadcastInDim S1 ![] bcast_S_S1 : (⟨S_, .f32⟩ : BufTy).Contents (Elt F) → (⟨S1, .f32⟩ : BufTy).Contents (Elt F))
  :: StableHlo.nary ![main_v411, main_v412, main_v413, main_v414, main_v415, main_v416, main_v417, main_v418, main_v419, main_v420] main_v421 (fun u => concatenate S10 0 [⟨S1, u 0⟩, ⟨S1, u 1⟩, ⟨S1, u 2⟩, ⟨S1, u 3⟩, ⟨S1, u 4⟩, ⟨S1, u 5⟩, ⟨S1, u 6⟩, ⟨S1, u 7⟩, ⟨S1, u 8⟩, ⟨S1, u 9⟩] concatenates_S1_S1_S1_S1_S1_S1_S1_S1_S1_S1_S10_d0)
  :: StableHlo.unary main_v33 main_v422 ((extui 32 · natLt_1_32) : (⟨S64, .i1⟩ : BufTy).Contents (Elt F) → (⟨S64, .i32⟩ : BufTy).Contents (Elt F))
  :: StableHlo.nullary main_c_156 (constantI S_ 32 0#32)
  :: StableHlo.binary main_v422 main_c_156 main_v423 ((fun x v => Host.reduce IntOp.addi x v reducesTo_S64_S_d0 h_S_) : (⟨S64, .i32⟩ : BufTy).Contents (Elt F) → (⟨S_, .i32⟩ : BufTy).Contents (Elt F) → (⟨S_, .i32⟩ : BufTy).Contents (Elt F))
  :: [] )

set_option maxHeartbeats 40000000 in
/-- Each touches TensorCore references only. -/
theorem rOps9_sub : (rOps9 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.nullary_bufs_sub .., StableHlo.binary_bufs_sub ..⟩

/-- The whole program's operations, in order. -/
abbrev rOps : List (HloOp τ sig (Elt F)) :=
  rOps0 ++ rOps1 ++ rOps2 ++ rOps3 ++ rOps4 ++ rOps5 ++ rOps6 ++ rOps7 ++ rOps8 ++ rOps9

end Cert.ReferenceIdeal.Hand

end
-- ==== Proof.LibHostLine.lean ====
/-
  Reading a straight line of host operations at ONE buffer.

  A line in single-assignment form writes each of its result buffers exactly once. Then the contents
  of the k-th result after the WHOLE line are the k-th operation's function applied to the contents,
  again after the whole line, of its operands: an operand is either written earlier in the line or
  not at all, so nothing from position k on changes it. The lemmas here state that once, for the
  builders of host operations (no operand, one to four operands, a reshape, a family of operands),
  over a list `W` naming the buffer each operation writes.
-/
import Idealize.ShloMosaic.Lib.StableHlo.Run
import Mathlib.Data.List.Forall2
import Mathlib.Data.List.Nodup

namespace Idealize.ShloMosaic.StableHlo.Line

open Idealize.ShloMosaic Idealize.ShloMosaic.StableHlo

variable {τ : Topo} {sig : RefSig} {Val : EltTy → Type}

/-- The fold over two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih _

/-- Position `off + i` of several lists laid end to end, `off` the total length of the first `q`, is position `i` of list `q`. -/
theorem getElem?_flatten_at {α : Type _} (L : List (List α)) (q : Nat) (l : List α) (hq : L[q]? = some l) (off : Nat)
    (hoff : ((L.take q).map List.length).sum = off) (i : Nat) (hi : i < l.length) :
    L.flatten[off + i]? = l[i]? := by
  subst hoff
  induction L generalizing q with
  | nil => simp at hq
  | cons a L ih =>
    cases q with
    | zero =>
      simp only [List.getElem?_cons_zero, Option.some.injEq] at hq
      subst hq
      simp only [List.take_zero, List.map_nil, List.sum_nil, Nat.zero_add, List.flatten_cons]
      exact List.getElem?_append_left hi
    | succ q =>
      simp only [List.getElem?_cons_succ] at hq
      simp only [List.take_succ_cons, List.map_cons, List.sum_cons, List.flatten_cons]
      rw [Nat.add_assoc, List.getElem?_append_right (Nat.le_add_right _ _), Nat.add_sub_cancel_left]
      exact ih q hq

/-- The same with the lists' lengths given as a list of numbers, so that the offset is a sum of numbers. -/
theorem getElem?_flatten_lens {α : Type _} (L : List (List α)) (lens : List Nat) (hl : L.map List.length = lens)
    (q : Nat) (l : List α) (hq : L[q]? = some l) (off : Nat) (hoff : (lens.take q).sum = off)
    (n : Nat) (hn : lens[q]? = some n) (i : Nat) (hi : i < n) : L.flatten[off + i]? = l[i]? := by
  subst hl
  have hlen : (L.map List.length)[q]? = some l.length := by rw [List.getElem?_map, hq]; rfl
  rw [hlen] at hn
  cases hn
  exact getElem?_flatten_at L q l hq off (by rw [List.map_take]; exact hoff) i hi

/-- `W` names, position by position, the one buffer each operation of the line writes. -/
def WritesAre (ops : List (HloOp τ sig Val)) (W : List (Ref sig .tc)) : Prop :=
  List.Forall₂ (fun op w => op.writes = {Proc.devRef (τ := τ) .tc w}) ops W

theorem WritesAre.drop {ops : List (HloOp τ sig Val)} {W : List (Ref sig .tc)} (h : WritesAre ops W) (k : Nat) :
    WritesAre (ops.drop k) (W.drop k) := List.forall₂_drop k h

/-- Lines run one after the other write what each writes, in order. -/
theorem WritesAre.append {l₁ l₂ : List (HloOp τ sig Val)} {W₁ W₂ : List (Ref sig .tc)} (h₁ : WritesAre l₁ W₁) (h₂ : WritesAre l₂ W₂) :
    WritesAre (l₁ ++ l₂) (W₁ ++ W₂) := List.rel_append h₁ h₂

theorem WritesAre.flatten {opss : List (List (HloOp τ sig Val))} {Ws : List (List (Ref sig .tc))}
    (h : List.Forall₂ WritesAre opss Ws) : WritesAre opss.flatten Ws.flatten := by
  induction h with
  | nil => exact List.Forall₂.nil
  | cons h _ ih => rw [List.flatten_cons, List.flatten_cons]; exact h.append ih

/-- A buffer that is not among the written ones is written by no operation of the line. -/
theorem WritesAre.not_written {ops : List (HloOp τ sig Val)} {W : List (Ref sig .tc)} (h : WritesAre ops W)
    {r : Ref sig .tc} (hr : r ∉ W) : ∀ op ∈ ops, Proc.devRef (τ := τ) .tc r ∉ op.writes := by
  induction h with
  | nil => intro op hop; cases hop
  | @cons op w ops W hw _ ih =>
    intro op' hop'
    rcases List.mem_cons.mp hop' with rfl | hop'
    · rw [hw, Finset.mem_singleton]
      intro he
      have e : r = w := Proc.devRef_injective _ he
      exact hr (e ▸ List.mem_cons_self)
    · exact ih (fun h' => hr (List.mem_cons_of_mem _ h')) op' hop'

/-- Such a buffer keeps its contents through the line. -/
theorem after_keep {ops : List (HloOp τ sig Val)} {W : List (Ref sig .tc)} (h : WritesAre ops W)
    {r : Ref sig .tc} (hr : r ∉ W) (V : Valuation τ sig Val) :
    after ops V (Proc.devRef .tc r) = V (Proc.devRef .tc r) :=
  after_of_forall_not_mem ops V (h.not_written hr)

/-- A buffer not written from position `k` on holds after the first `k` operations what it holds after all. -/
theorem after_take {ops : List (HloOp τ sig Val)} {W : List (Ref sig .tc)} (h : WritesAre ops W) {k : Nat}
    {a : Ref sig .tc} (ha : a ∉ W.drop k) (V : Valuation τ sig Val) :
    after (ops.take k) V (Proc.devRef .tc a) = after ops V (Proc.devRef .tc a) := by
  conv_rhs => rw [← List.take_append_drop k ops, after_append]
  exact (after_keep (h.drop k) ha _).symm

/-- The `k`-th result after the whole line is the `k`-th operation's result from the contents after the first `k`. -/
theorem after_at {ops : List (HloOp τ sig Val)} {W : List (Ref sig .tc)} (h : WritesAre ops W) (hnd : W.Nodup)
    {k : Nat} {op : HloOp τ sig Val} {y : Ref sig .tc} (hk : ops[k]? = some op) (hy : W[k]? = some y)
    (V : Valuation τ sig Val) :
    after ops V (Proc.devRef .tc y) = op.result (after (ops.take k) V) (Proc.devRef .tc y) := by
  obtain ⟨hlt, hop⟩ := List.getElem?_eq_some_iff.mp hk
  obtain ⟨hltW, hyW⟩ := List.getElem?_eq_some_iff.mp hy
  have hy' : y ∉ W.drop (k + 1) := by
    intro hm
    obtain ⟨i, hi, e⟩ := List.mem_drop_iff_getElem.mp hm
    have := hnd.getElem_inj_iff.mp (e.trans hyW.symm)
    omega
  conv_lhs => rw [← List.take_append_drop k ops, after_append, List.drop_eq_getElem_cons hlt, after_cons, hop]
  exact after_keep (h.drop (k + 1)) hy' _

/-- A reference's number among its space's buffers. -/
def num (r : Ref sig .tc) : Nat := r.idx.val

/-- Written buffers whose numbers are consecutive are pairwise distinct. -/
theorem nodup_of_nums {W : List (Ref sig .tc)} {s n : Nat} (h : W.map num = List.range' s n) : W.Nodup :=
  List.Nodup.of_map num (h ▸ List.nodup_range')

/-- A buffer numbered below the first written one is not written. -/
theorem not_mem_of_num_lt {W : List (Ref sig .tc)} {s n : Nat} (h : W.map num = List.range' s n) {a : Ref sig .tc}
    (ha : num a < s) : a ∉ W := by
  intro hm
  have hm' : num a ∈ W.map num := List.mem_map_of_mem hm
  rw [h, List.mem_range'_1] at hm'
  omega

/-- An operand written at an EARLIER position is not written from position `k` on. -/
theorem not_mem_drop_of_lt {W : List (Ref sig .tc)} (hnd : W.Nodup) {j k : Nat} {a : Ref sig .tc}
    (hj : W[j]? = some a) (hjk : j < k) : a ∉ W.drop k := by
  obtain ⟨hltW, haW⟩ := List.getElem?_eq_some_iff.mp hj
  intro hm
  obtain ⟨i, hi, e⟩ := List.mem_drop_iff_getElem.mp hm
  have := hnd.getElem_inj_iff.mp (e.trans haW.symm)
  omega

/-- An operand the line never writes is not written from position `k` on. -/
theorem not_mem_drop_of_not_mem {W : List (Ref sig .tc)} {a : Ref sig .tc} (h : a ∉ W) (k : Nat) : a ∉ W.drop k :=
  fun h' => h (List.mem_of_mem_drop h')

section Builders

variable {ops : List (HloOp τ sig Val)} {W : List (Ref sig .tc)} (h : WritesAre ops W) (hnd : W.Nodup) (k : Nat)
variable {x a b c e y : Ref sig .tc}
include h hnd

theorem at_nullary {v : y.ty.Contents Val} {hy'} (hk : ops[k]? = some (nullary (τ := τ) y v hy')) (hy : W[k]? = some y)
    (V : Valuation τ sig Val) : after ops V (Proc.devRef .tc y) = v :=
  (after_at h hnd hk hy V).trans (nullary_result y v hy' _)

theorem at_unary {f : x.ty.Contents Val → y.ty.Contents Val} {hx' hy'}
    (hk : ops[k]? = some (unary (τ := τ) x y f hx' hy')) (hy : W[k]? = some y) (hx : x ∉ W.drop k)
    (V : Valuation τ sig Val) : after ops V (Proc.devRef .tc y) = f (after ops V (Proc.devRef .tc x)) :=
  (after_at h hnd hk hy V).trans ((unary_result x y f hx' hy' _).trans (by rw [after_take h hx]))

theorem at_reshape {he : x.ty.elt = y.ty.elt} {hn : x.ty.shape.ShapeCasts y.ty.shape} {hx' hy'}
    (hk : ops[k]? = some (reshape (τ := τ) (Val := Val) x y he hn hx' hy')) (hy : W[k]? = some y) (hx : x ∉ W.drop k)
    (V : Valuation τ sig Val) :
    after ops V (Proc.devRef .tc y) = fun i => he ▸ shapeCast y.ty.shape (after ops V (Proc.devRef .tc x)) hn i :=
  (after_at h hnd hk hy V).trans ((reshape_result x y he hn hx' hy' _).trans (by rw [after_take h hx]))

theorem at_binary {f : a.ty.Contents Val → b.ty.Contents Val → y.ty.Contents Val} {ha' hb' hy'}
    (hk : ops[k]? = some (binary (τ := τ) a b y f ha' hb' hy')) (hy : W[k]? = some y)
    (ha : a ∉ W.drop k) (hb : b ∉ W.drop k) (V : Valuation τ sig Val) :
    after ops V (Proc.devRef .tc y) = f (after ops V (Proc.devRef .tc a)) (after ops V (Proc.devRef .tc b)) :=
  (after_at h hnd hk hy V).trans ((binary_result a b y f ha' hb' hy' _).trans (by rw [after_take h ha, after_take h hb]))

theorem at_ternary {f : c.ty.Contents Val → a.ty.Contents Val → b.ty.Contents Val → y.ty.Contents Val} {hc' ha' hb' hy'}
    (hk : ops[k]? = some (ternary (τ := τ) c a b y f hc' ha' hb' hy')) (hy : W[k]? = some y)
    (hc : c ∉ W.drop k) (ha : a ∉ W.drop k) (hb : b ∉ W.drop k) (V : Valuation τ sig Val) :
    after ops V (Proc.devRef .tc y)
      = f (after ops V (Proc.devRef .tc c)) (after ops V (Proc.devRef .tc a)) (after ops V (Proc.devRef .tc b)) :=
  (after_at h hnd hk hy V).trans ((ternary_result c a b y f hc' ha' hb' hy' _).trans
    (by rw [after_take h hc, after_take h ha, after_take h hb]))

theorem at_quaternary {f : a.ty.Contents Val → b.ty.Contents Val → c.ty.Contents Val → e.ty.Contents Val → y.ty.Contents Val}
    {ha' hb' hc' he' hy'}
    (hk : ops[k]? = some (quaternary (τ := τ) a b c e y f ha' hb' hc' he' hy')) (hy : W[k]? = some y)
    (ha : a ∉ W.drop k) (hb : b ∉ W.drop k) (hc : c ∉ W.drop k) (he : e ∉ W.drop k) (V : Valuation τ sig Val) :
    after ops V (Proc.devRef .tc y)
      = f (after ops V (Proc.devRef .tc a)) (after ops V (Proc.devRef .tc b)) (after ops V (Proc.devRef .tc c))
          (after ops V (Proc.devRef .tc e)) :=
  (after_at h hnd hk hy V).trans ((quaternary_result a b c e y f ha' hb' hc' he' hy' _).trans
    (by rw [after_take h ha, after_take h hb, after_take h hc, after_take h he]))

theorem at_nary {n : Nat} {xs : Fin n → Ref sig .tc} {f : ((i : Fin n) → (xs i).ty.Contents Val) → y.ty.Contents Val} {hxs' hy'}
    (hk : ops[k]? = some (nary (τ := τ) xs y f hxs' hy')) (hy : W[k]? = some y)
    (hxs : ∀ i, xs i ∉ W.drop k) (V : Valuation τ sig Val) :
    after ops V (Proc.devRef .tc y) = f (fun i => after ops V (Proc.devRef .tc (xs i))) :=
  (after_at h hnd hk hy V).trans ((nary_result xs y f hxs' hy' _).trans
    (congrArg f (funext fun i => after_take h (hxs i) V)))

end Builders

end Idealize.ShloMosaic.StableHlo.Line
-- ==== Proof.RefTab.lean ====
/-
  The buffer each operation of the reference writes (rW), window by window: the program is in
  single-assignment form and its result buffers are numbered consecutively from 9, after the nine
  arguments, so the list has no repetition and no argument is in it.
-/
import proofs.«169849_j71803263254994_1_alg».proof.Proof.RefOps
import proofs.«169849_j71803263254994_1_alg».proof.Proof.LibHostLine

set_option maxRecDepth 16384

noncomputable section

namespace Cert.ReferenceIdeal.Hand

open Idealize.ShloMosaic Idealize.SL.Sem Idealize.ShloMosaic.StableHlo.Line Cert.ReferenceIdeal Cert.ReferenceIdeal.Gen

variable {F : FTy → Type} [FloatOps F]

/-- The buffer each operation of window 0 writes. -/
abbrev rW0 : List (Ref sig .tc) :=
  [ main_v0, main_v1, main_cst, main_v2, main_cst_0, main_v3, main_v4, main_v5, main_v6, main_cst_1, main_v7,
    main_cst_2, main_v8, main_v9, main_v10, main_v11, main_cst_3, main_v12, main_cst_4, main_v13, main_v14, main_v15,
    main_v16, main_v17, main_v18, main_v19, main_v20, main_c, main_v21, main_v22, main_v23, main_v24, main_v25,
    main_c_5, main_v26, main_v27, main_v28, main_v29, main_v30, main_c_6, main_v31, main_c_7, main_v32, main_v33,
    main_call0_v0, main_call0_c, main_call0_c_0, main_call0_v1_0, main_v34, main_call1_v0, main_call1_c,
    main_call1_c_0, main_call1_v1_0, main_v35, main_c_8, main_v36, main_v37, main_c_9, main_v38, main_v39, main_v40,
    main_v41, main_v42, main_c_10, main_v43, main_v44, main_c_11, main_v45 ]

set_option maxHeartbeats 40000000 in
theorem rWA0 : WritesAre (τ := τ) (rOps0 (F := F)) rW0 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))))))))

/-- The buffer each operation of window 1 writes. -/
abbrev rW1 : List (Ref sig .tc) :=
  [ main_v46, main_v47, main_v48, main_v49, main_cst_12, main_v50, main_v51, main_v52, main_c_13, main_v53, main_v54,
    main_c_14, main_v55, main_v56, main_v57, main_v58, main_v59, main_cst_15, main_v60, main_v61, main_v62,
    main_c_16, main_v63, main_v64, main_c_17, main_v65, main_v66, main_v67, main_v68, main_v69, main_c_18, main_v70,
    main_v71, main_c_19, main_v72, main_v73, main_v74, main_v75, main_v76, main_v77, main_v78, main_c_20, main_v79,
    main_v80, main_c_21, main_v81, main_v82, main_v83, main_v84, main_v85, main_c_22, main_v86, main_v87, main_c_23,
    main_v88, main_v89, main_v90, main_v91, main_v92, main_v93 ]

set_option maxHeartbeats 40000000 in
theorem rWA1 : WritesAre (τ := τ) (rOps1 (F := F)) rW1 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))

/-- The buffer each operation of window 2 writes. -/
abbrev rW2 : List (Ref sig .tc) :=
  [ main_v94, main_c_24, main_v95, main_v96, main_c_25, main_v97, main_v98, main_v99, main_v100, main_v101,
    main_c_26, main_v102, main_v103, main_c_27, main_v104, main_v105, main_v106, main_v107, main_v108, main_v109,
    main_c_28, main_v110, main_v111, main_c_29, main_v112, main_v113, main_v114, main_v115, main_v116, main_c_30,
    main_v117, main_v118, main_c_31, main_v119, main_v120, main_v121, main_v122, main_v123, main_v124, main_c_32,
    main_v125, main_v126, main_c_33, main_v127, main_v128, main_c_34, main_v129, main_v130, main_v131, main_cst_35,
    main_v132, main_v133, main_call2_cst, main_call2_v0, main_v134, main_v135, main_v136, main_c_36, main_v137,
    main_c_37, main_v138, main_v139 ]

set_option maxHeartbeats 40000000 in
theorem rWA2 : WritesAre (τ := τ) (rOps2 (F := F)) rW2 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))

/-- The buffer each operation of window 3 writes. -/
abbrev rW3 : List (Ref sig .tc) :=
  [ main_cst_38, main_call3_v0, main_call3_v1, main_v140, main_cst_39, main_v141, main_c_40, main_v142, main_v143,
    main_v144, main_v145, main_cst_41, main_call4_v0, main_call4_v1, main_v146, main_v147, main_cst_42, main_v148,
    main_v149, main_call5_cst, main_call5_v0, main_v150, main_v151, main_v152, main_c_43, main_v153, main_c_44,
    main_v154, main_v155, main_cst_45, main_call6_v0, main_call6_v1, main_v156, main_cst_46, main_v157, main_c_47,
    main_v158, main_v159, main_v160, main_v161, main_cst_48, main_call7_v0, main_call7_v1, main_v162, main_v163,
    main_v164, main_c_49, main_v165, main_c_50, main_v166, main_v167, main_cst_51, main_call8_v0, main_call8_v1,
    main_v168, main_cst_52, main_v169, main_c_53, main_v170, main_v171, main_v172, main_v173, main_cst_54,
    main_call9_v0, main_call9_v1, main_v174, main_v175, main_v176, main_v177, main_v178, main_v179, main_v180,
    main_v181, main_v182 ]

set_option maxHeartbeats 40000000 in
theorem rWA3 : WritesAre (τ := τ) (rOps3 (F := F)) rW3 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))))))))))))))

/-- The buffer each operation of window 4 writes. -/
abbrev rW4 : List (Ref sig .tc) :=
  [ main_v183, main_cst_55, main_v184, main_cst_56, main_v185, main_v186, main_cst_57, main_v187, main_cst_58,
    main_v188, main_v189, main_cst_59, main_call10_v0, main_v190, main_c_60, main_v191, main_v192, main_c_61,
    main_v193, main_v194, main_v195, main_v196, main_v197, main_c_62, main_v198, main_v199, main_c_63, main_v200,
    main_v201, main_v202, main_v203, main_v204, main_v205, main_cst_64, main_v206, main_v207, main_v208, main_cst_65,
    main_v209, main_v210, main_v211, main_cst_66, main_v212, main_v213, main_v214, main_c_67, main_v215, main_v216,
    main_c_68, main_v217, main_v218, main_v219, main_cst_69, main_v220, main_v221, main_call11_cst, main_call11_v0,
    main_v222, main_v223, main_v224, main_c_70, main_v225, main_c_71 ]

set_option maxHeartbeats 40000000 in
theorem rWA4 : WritesAre (τ := τ) (rOps4 (F := F)) rW4 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))))))))))))))))))))))))))))))))))))))))))))))))))

/-- The buffer each operation of window 5 writes. -/
abbrev rW5 : List (Ref sig .tc) :=
  [ main_v226, main_v227, main_cst_72, main_call12_v0, main_call12_v1, main_v228, main_cst_73, main_v229, main_c_74,
    main_v230, main_v231, main_v232, main_v233, main_cst_75, main_call13_v0, main_call13_v1, main_v234, main_v235,
    main_cst_76, main_v236, main_v237, main_call14_cst, main_call14_v0, main_v238, main_v239, main_v240, main_c_77,
    main_v241, main_c_78, main_v242, main_v243, main_cst_79, main_call15_v0, main_call15_v1, main_v244, main_cst_80,
    main_v245, main_c_81, main_v246, main_v247, main_v248, main_v249, main_cst_82, main_call16_v0, main_call16_v1,
    main_v250, main_v251, main_v252, main_v253, main_v254, main_v255, main_v256, main_v257, main_cst_83, main_v258,
    main_cst_84, main_v259, main_v260, main_cst_85, main_v261, main_cst_86, main_v262, main_v263, main_cst_87,
    main_call17_v0, main_v264, main_v265, main_c_88, main_v266, main_c_89, main_v267 ]

set_option maxHeartbeats 40000000 in
theorem rWA5 : WritesAre (τ := τ) (rOps5 (F := F)) rW5 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))))))))))))))))))))))))))))))))))))))))))))))))))))))))))

/-- The buffer each operation of window 6 writes. -/
abbrev rW6 : List (Ref sig .tc) :=
  [ main_v268, main_cst_90, main_call18_v0, main_call18_v1, main_v269, main_cst_91, main_v270, main_c_92, main_v271,
    main_v272, main_v273, main_v274, main_cst_93, main_call19_v0, main_call19_v1, main_v275, main_v276, main_c_94,
    main_v277, main_c_95, main_v278, main_v279, main_cst_96, main_call20_v0, main_call20_v1, main_v280, main_cst_97,
    main_v281, main_c_98, main_v282, main_v283, main_v284, main_v285, main_cst_99, main_call21_v0, main_call21_v1,
    main_v286, main_v287, main_v288, main_v289, main_v290, main_v291, main_v292, main_v293, main_cst_100, main_v294,
    main_cst_101, main_v295, main_v296, main_cst_102, main_v297, main_cst_103, main_v298, main_v299, main_cst_104,
    main_call22_v0, main_v300, main_v301, main_c_105, main_v302, main_c_106, main_v303, main_v304, main_cst_107,
    main_call23_v0, main_call23_v1, main_v305, main_cst_108, main_v306, main_c_109, main_v307 ]

set_option maxHeartbeats 40000000 in
theorem rWA6 : WritesAre (τ := τ) (rOps6 (F := F)) rW6 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))))))))))))))))))))))))))))))))))))))))))))))))))))))))))

/-- The buffer each operation of window 7 writes. -/
abbrev rW7 : List (Ref sig .tc) :=
  [ main_v308, main_v309, main_v310, main_cst_110, main_call24_v0, main_call24_v1, main_v311, main_v312, main_c_111,
    main_v313, main_c_112, main_v314, main_v315, main_cst_113, main_call25_v0, main_call25_v1, main_v316,
    main_cst_114, main_v317, main_c_115, main_v318, main_v319, main_v320, main_v321, main_cst_116, main_call26_v0,
    main_call26_v1, main_v322, main_v323, main_v324, main_v325, main_v326, main_v327, main_v328, main_v329,
    main_cst_117, main_v330, main_cst_118, main_v331, main_v332, main_cst_119, main_v333, main_cst_120, main_v334,
    main_v335, main_cst_121, main_call27_v0, main_v336, main_v337, main_c_122, main_v338, main_c_123, main_v339,
    main_v340, main_cst_124, main_call28_v0, main_call28_v1, main_v341, main_cst_125, main_v342, main_c_126,
    main_v343, main_v344, main_v345, main_v346, main_cst_127, main_call29_v0, main_call29_v1, main_v347, main_v348,
    main_c_128 ]

set_option maxHeartbeats 40000000 in
theorem rWA7 : WritesAre (τ := τ) (rOps7 (F := F)) rW7 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))))))))))))))))))))))))))))))))))))))))))))))))))))))))))

/-- The buffer each operation of window 8 writes. -/
abbrev rW8 : List (Ref sig .tc) :=
  [ main_v349, main_c_129, main_v350, main_v351, main_cst_130, main_call30_v0, main_call30_v1, main_v352,
    main_cst_131, main_v353, main_c_132, main_v354, main_v355, main_v356, main_v357, main_cst_133, main_call31_v0,
    main_call31_v1, main_v358, main_v359, main_v360, main_v361, main_v362, main_v363, main_v364, main_v365,
    main_cst_134, main_v366, main_cst_135, main_v367, main_v368, main_cst_136, main_v369, main_cst_137, main_v370,
    main_v371, main_cst_138, main_call32_v0, main_v372, main_v373, main_c_139, main_v374, main_c_140, main_v375,
    main_v376, main_cst_141, main_call33_v0, main_call33_v1, main_v377, main_cst_142, main_v378, main_c_143,
    main_v379, main_v380, main_v381, main_v382, main_cst_144, main_call34_v0, main_call34_v1, main_v383, main_v384,
    main_c_145, main_v385, main_c_146, main_v386, main_v387, main_cst_147, main_call35_v0, main_call35_v1, main_v388,
    main_cst_148 ]

set_option maxHeartbeats 40000000 in
theorem rWA8 : WritesAre (τ := τ) (rOps8 (F := F)) rW8 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))))))))))))))))))))))))))))))))))))))))))))))))))))))))))

/-- The buffer each operation of window 9 writes. -/
abbrev rW9 : List (Ref sig .tc) :=
  [ main_v389, main_c_149, main_v390, main_v391, main_v392, main_v393, main_cst_150, main_call36_v0, main_call36_v1,
    main_v394, main_v395, main_v396, main_v397, main_v398, main_v399, main_v400, main_v401, main_cst_151, main_v402,
    main_cst_152, main_v403, main_v404, main_cst_153, main_v405, main_cst_154, main_v406, main_v407, main_cst_155,
    main_call37_v0, main_v408, main_v409, main_v410, main_v411, main_v412, main_v413, main_v414, main_v415,
    main_v416, main_v417, main_v418, main_v419, main_v420, main_v421, main_v422, main_c_156, main_v423 ]

set_option maxHeartbeats 40000000 in
theorem rWA9 : WritesAre (τ := τ) (rOps9 (F := F)) rW9 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))

/-- The buffer each operation writes, in order. -/
abbrev rW : List (Ref sig .tc) :=
  rW0 ++ rW1 ++ rW2 ++ rW3 ++ rW4 ++ rW5 ++ rW6 ++ rW7 ++ rW8 ++ rW9

theorem rWA : WritesAre (τ := τ) (rOps (F := F)) rW :=
  (((((((((rWA0).append rWA1).append rWA2).append rWA3).append rWA4).append rWA5).append rWA6).append rWA7).append rWA8).append rWA9

/-- The windows as a list of lists, and the program as that list laid end to end. -/
abbrev rOpss : List (List (HloOp τ sig (Elt F))) :=
  [rOps0, rOps1, rOps2, rOps3, rOps4, rOps5, rOps6, rOps7, rOps8, rOps9]
abbrev rOpsF : List (HloOp τ sig (Elt F)) := (rOpss (F := F)).flatten

theorem rOps_eq : (rOps (F := F)) = rOpsF := by
  simp only [List.flatten_cons, List.flatten_nil, List.append_nil, List.append_assoc]

theorem rLen_0 : (rOps0 (F := F)).length = 68 := rfl
theorem rLen_1 : (rOps1 (F := F)).length = 60 := rfl
theorem rLen_2 : (rOps2 (F := F)).length = 62 := rfl
theorem rLen_3 : (rOps3 (F := F)).length = 74 := rfl
theorem rLen_4 : (rOps4 (F := F)).length = 63 := rfl
theorem rLen_5 : (rOps5 (F := F)).length = 71 := rfl
theorem rLen_6 : (rOps6 (F := F)).length = 71 := rfl
theorem rLen_7 : (rOps7 (F := F)).length = 71 := rfl
theorem rLen_8 : (rOps8 (F := F)).length = 71 := rfl
theorem rLen_9 : (rOps9 (F := F)).length = 46 := rfl

/-- The windows' lengths. -/
abbrev rLens : List Nat := [68, 60, 62, 74, 63, 71, 71, 71, 71, 46]

theorem rLens_eq : (rOpss (F := F)).map List.length = rLens := by
  simp only [List.map_cons, List.map_nil, rLen_0, rLen_1, rLen_2, rLen_3, rLen_4, rLen_5, rLen_6, rLen_7, rLen_8, rLen_9]

theorem rAt_0 (i : Nat) (hi : i < 68) : (rOpsF (F := F))[0 + i]? = (rOps0 (F := F))[i]? :=
  getElem?_flatten_lens (rOpss (F := F)) rLens rLens_eq 0 _ rfl 0 (by decide +kernel) 68 (by decide +kernel) i hi
theorem rAt_1 (i : Nat) (hi : i < 60) : (rOpsF (F := F))[68 + i]? = (rOps1 (F := F))[i]? :=
  getElem?_flatten_lens (rOpss (F := F)) rLens rLens_eq 1 _ rfl 68 (by decide +kernel) 60 (by decide +kernel) i hi
theorem rAt_2 (i : Nat) (hi : i < 62) : (rOpsF (F := F))[128 + i]? = (rOps2 (F := F))[i]? :=
  getElem?_flatten_lens (rOpss (F := F)) rLens rLens_eq 2 _ rfl 128 (by decide +kernel) 62 (by decide +kernel) i hi
theorem rAt_3 (i : Nat) (hi : i < 74) : (rOpsF (F := F))[190 + i]? = (rOps3 (F := F))[i]? :=
  getElem?_flatten_lens (rOpss (F := F)) rLens rLens_eq 3 _ rfl 190 (by decide +kernel) 74 (by decide +kernel) i hi
theorem rAt_4 (i : Nat) (hi : i < 63) : (rOpsF (F := F))[264 + i]? = (rOps4 (F := F))[i]? :=
  getElem?_flatten_lens (rOpss (F := F)) rLens rLens_eq 4 _ rfl 264 (by decide +kernel) 63 (by decide +kernel) i hi
theorem rAt_5 (i : Nat) (hi : i < 71) : (rOpsF (F := F))[327 + i]? = (rOps5 (F := F))[i]? :=
  getElem?_flatten_lens (rOpss (F := F)) rLens rLens_eq 5 _ rfl 327 (by decide +kernel) 71 (by decide +kernel) i hi
theorem rAt_6 (i : Nat) (hi : i < 71) : (rOpsF (F := F))[398 + i]? = (rOps6 (F := F))[i]? :=
  getElem?_flatten_lens (rOpss (F := F)) rLens rLens_eq 6 _ rfl 398 (by decide +kernel) 71 (by decide +kernel) i hi
theorem rAt_7 (i : Nat) (hi : i < 71) : (rOpsF (F := F))[469 + i]? = (rOps7 (F := F))[i]? :=
  getElem?_flatten_lens (rOpss (F := F)) rLens rLens_eq 7 _ rfl 469 (by decide +kernel) 71 (by decide +kernel) i hi
theorem rAt_8 (i : Nat) (hi : i < 71) : (rOpsF (F := F))[540 + i]? = (rOps8 (F := F))[i]? :=
  getElem?_flatten_lens (rOpss (F := F)) rLens rLens_eq 8 _ rfl 540 (by decide +kernel) 71 (by decide +kernel) i hi
theorem rAt_9 (i : Nat) (hi : i < 46) : (rOpsF (F := F))[611 + i]? = (rOps9 (F := F))[i]? :=
  getElem?_flatten_lens (rOpss (F := F)) rLens rLens_eq 9 _ rfl 611 (by decide +kernel) 46 (by decide +kernel) i hi

abbrev rWs : List (List (Ref sig .tc)) :=
  [rW0, rW1, rW2, rW3, rW4, rW5, rW6, rW7, rW8, rW9]
abbrev rWF : List (Ref sig .tc) := rWs.flatten

theorem rWAF : WritesAre (τ := τ) (rOpsF (F := F)) rWF :=
  WritesAre.flatten (List.Forall₂.cons rWA0 (List.Forall₂.cons rWA1 (List.Forall₂.cons rWA2 (List.Forall₂.cons rWA3 (List.Forall₂.cons rWA4 (List.Forall₂.cons rWA5 (List.Forall₂.cons rWA6 (List.Forall₂.cons rWA7 (List.Forall₂.cons rWA8 (List.Forall₂.cons rWA9 (List.Forall₂.nil)))))))))))

theorem rNumsF : rWF.map num = List.range' 9 657 := by decide +kernel

theorem rNDF : rWF.Nodup := nodup_of_nums rNumsF

theorem rinF_main_arg0 : main_arg0 ∉ rWF := not_mem_of_num_lt rNumsF (by decide)
theorem rinF_main_arg1 : main_arg1 ∉ rWF := not_mem_of_num_lt rNumsF (by decide)
theorem rinF_main_arg2 : main_arg2 ∉ rWF := not_mem_of_num_lt rNumsF (by decide)
theorem rinF_main_arg3 : main_arg3 ∉ rWF := not_mem_of_num_lt rNumsF (by decide)
theorem rinF_main_arg4 : main_arg4 ∉ rWF := not_mem_of_num_lt rNumsF (by decide)
theorem rinF_main_arg5 : main_arg5 ∉ rWF := not_mem_of_num_lt rNumsF (by decide)
theorem rinF_main_arg6 : main_arg6 ∉ rWF := not_mem_of_num_lt rNumsF (by decide)
theorem rinF_main_arg7 : main_arg7 ∉ rWF := not_mem_of_num_lt rNumsF (by decide)
theorem rinF_main_arg8 : main_arg8 ∉ rWF := not_mem_of_num_lt rNumsF (by decide)

/-- Their numbers: 9, 10, …. -/
theorem rNums : rW.map num = List.range' 9 657 := by decide +kernel

theorem rND : rW.Nodup := nodup_of_nums rNums

theorem rin_main_arg0 : main_arg0 ∉ rW := not_mem_of_num_lt rNums (by decide)
theorem rin_main_arg1 : main_arg1 ∉ rW := not_mem_of_num_lt rNums (by decide)
theorem rin_main_arg2 : main_arg2 ∉ rW := not_mem_of_num_lt rNums (by decide)
theorem rin_main_arg3 : main_arg3 ∉ rW := not_mem_of_num_lt rNums (by decide)
theorem rin_main_arg4 : main_arg4 ∉ rW := not_mem_of_num_lt rNums (by decide)
theorem rin_main_arg5 : main_arg5 ∉ rW := not_mem_of_num_lt rNums (by decide)
theorem rin_main_arg6 : main_arg6 ∉ rW := not_mem_of_num_lt rNums (by decide)
theorem rin_main_arg7 : main_arg7 ∉ rW := not_mem_of_num_lt rNums (by decide)
theorem rin_main_arg8 : main_arg8 ∉ rW := not_mem_of_num_lt rNums (by decide)

end Cert.ReferenceIdeal.Hand

end
-- ==== Proof.RefRun.lean ====
/-
  The run of the reference program. Its entry function is printed as ten windows of at most sixty
  statements; a statement is one host operation or a call of a module-local function, whose body is
  again a straight line of host operations ending in a returned unit. Each window is therefore the
  straight line of its operations (the table of the operations module), the program is the line of
  the ten lists appended, and the run lemma for straight lines gives: every weakly fair execution
  terminates, and every buffer ends at the fold of the operations over its launch contents. No
  operation writes an argument, so the arguments end as they were launched.
-/
import proofs.«169849_j71803263254994_1_alg».proof.Proof.RefOps
import proofs.«169849_j71803263254994_1_alg».proof.Proof.RefTab
import Idealize.ShloMosaic.Lib.Pipeline.Regions

set_option maxRecDepth 16384

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## The windows and the program as straight lines -/

/-- Window 0 is the straight line of its operations: a call's body unfolds to its own lines at the call's
    buffers, and sequencing after a returned unit is the rest of the line. Both sides reduce, statement by
    statement, to the same chain of operation steps. -/
theorem part0_eq (d : Dev nD) : main_part0 (F := F) d = StableHlo.seq (rOps0 (F := F)) := by
  chain_rfl

/-- Window 1 is the straight line of its operations: a call's body unfolds to its own lines at the call's
    buffers, and sequencing after a returned unit is the rest of the line. Both sides reduce, statement by
    statement, to the same chain of operation steps. -/
theorem part1_eq (d : Dev nD) : main_part1 (F := F) d = StableHlo.seq (rOps1 (F := F)) := by
  chain_rfl

/-- Window 2 is the straight line of its operations: a call's body unfolds to its own lines at the call's
    buffers, and sequencing after a returned unit is the rest of the line. Both sides reduce, statement by
    statement, to the same chain of operation steps. -/
theorem part2_eq (d : Dev nD) : main_part2 (F := F) d = StableHlo.seq (rOps2 (F := F)) := by
  chain_rfl

/-- Window 3 is the straight line of its operations: a call's body unfolds to its own lines at the call's
    buffers, and sequencing after a returned unit is the rest of the line. Both sides reduce, statement by
    statement, to the same chain of operation steps. -/
theorem part3_eq (d : Dev nD) : main_part3 (F := F) d = StableHlo.seq (rOps3 (F := F)) := by
  chain_rfl

/-- Window 4 is the straight line of its operations: a call's body unfolds to its own lines at the call's
    buffers, and sequencing after a returned unit is the rest of the line. Both sides reduce, statement by
    statement, to the same chain of operation steps. -/
theorem part4_eq (d : Dev nD) : main_part4 (F := F) d = StableHlo.seq (rOps4 (F := F)) := by
  chain_rfl

/-- Window 5 is the straight line of its operations: a call's body unfolds to its own lines at the call's
    buffers, and sequencing after a returned unit is the rest of the line. Both sides reduce, statement by
    statement, to the same chain of operation steps. -/
theorem part5_eq (d : Dev nD) : main_part5 (F := F) d = StableHlo.seq (rOps5 (F := F)) := by
  chain_rfl

/-- Window 6 is the straight line of its operations: a call's body unfolds to its own lines at the call's
    buffers, and sequencing after a returned unit is the rest of the line. Both sides reduce, statement by
    statement, to the same chain of operation steps. -/
theorem part6_eq (d : Dev nD) : main_part6 (F := F) d = StableHlo.seq (rOps6 (F := F)) := by
  chain_rfl

/-- Window 7 is the straight line of its operations: a call's body unfolds to its own lines at the call's
    buffers, and sequencing after a returned unit is the rest of the line. Both sides reduce, statement by
    statement, to the same chain of operation steps. -/
theorem part7_eq (d : Dev nD) : main_part7 (F := F) d = StableHlo.seq (rOps7 (F := F)) := by
  chain_rfl

/-- Window 8 is the straight line of its operations: a call's body unfolds to its own lines at the call's
    buffers, and sequencing after a returned unit is the rest of the line. Both sides reduce, statement by
    statement, to the same chain of operation steps. -/
theorem part8_eq (d : Dev nD) : main_part8 (F := F) d = StableHlo.seq (rOps8 (F := F)) := by
  chain_rfl

/-- Window 9 is the straight line of its operations: a call's body unfolds to its own lines at the call's
    buffers, and sequencing after a returned unit is the rest of the line. Both sides reduce, statement by
    statement, to the same chain of operation steps. -/
theorem part9_eq (d : Dev nD) : main_part9 (F := F) d = StableHlo.seq (rOps9 (F := F)) := by
  chain_rfl

/-- The program runs its ten windows in order; two lines run one after the other are the line of their
    concatenation, so the program is the line of the ten lists appended. -/
theorem main_eq (d : Dev nD) : main (F := F) d = StableHlo.seq (rOps (F := F)) := by
  have h : main (F := F) d = (main_part0 (F := F) d >>= fun _ => main_part1 (F := F) d >>= fun _ => main_part2 (F := F) d >>= fun _ =>
      main_part3 (F := F) d >>= fun _ => main_part4 (F := F) d >>= fun _ => main_part5 (F := F) d >>= fun _ => main_part6 (F := F) d >>= fun _ =>
      main_part7 (F := F) d >>= fun _ => main_part8 (F := F) d >>= fun _ => main_part9 (F := F) d) := rfl
  rw [h, part0_eq, part1_eq, part2_eq, part3_eq, part4_eq, part5_eq, part6_eq, part7_eq, part8_eq, part9_eq]
  unfold rOps
  simp only [seq_append, bind_assoc]

/-! ## The side conditions of the run lemma -/

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- Every operation of the program touches TensorCore references only. -/
theorem rOps_sub : (rOps : List (HloOp τ sig (Elt F))).Forall fun op => op.bufs ⊆ StableHlo.tcRefs τ sig :=
  forall_append (forall_append (forall_append (forall_append (forall_append (forall_append (forall_append (forall_append (forall_append
    rOps0_sub rOps1_sub) rOps2_sub) rOps3_sub) rOps4_sub) rOps5_sub) rOps6_sub) rOps7_sub) rOps8_sub) rOps9_sub

/-- No operation of window 0 leaves a result undetermined: each is a builder whose set of such buffers is empty. -/
theorem rOps0_fresh : (rOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- No operation of window 1 leaves a result undetermined: each is a builder whose set of such buffers is empty. -/
theorem rOps1_fresh : (rOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- No operation of window 2 leaves a result undetermined: each is a builder whose set of such buffers is empty. -/
theorem rOps2_fresh : (rOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- No operation of window 3 leaves a result undetermined: each is a builder whose set of such buffers is empty. -/
theorem rOps3_fresh : (rOps3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- No operation of window 4 leaves a result undetermined: each is a builder whose set of such buffers is empty. -/
theorem rOps4_fresh : (rOps4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- No operation of window 5 leaves a result undetermined: each is a builder whose set of such buffers is empty. -/
theorem rOps5_fresh : (rOps5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- No operation of window 6 leaves a result undetermined: each is a builder whose set of such buffers is empty. -/
theorem rOps6_fresh : (rOps6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- No operation of window 7 leaves a result undetermined: each is a builder whose set of such buffers is empty. -/
theorem rOps7_fresh : (rOps7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- No operation of window 8 leaves a result undetermined: each is a builder whose set of such buffers is empty. -/
theorem rOps8_fresh : (rOps8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- No operation of window 9 leaves a result undetermined: each is a builder whose set of such buffers is empty. -/
theorem rOps9_fresh : (rOps9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- No operation of the program leaves a result undetermined. -/
theorem rOps_fresh : ∀ op ∈ (rOps : List (HloOp τ sig (Elt F))), op.fresh = ∅ :=
  List.forall_iff_forall_mem.1
    (forall_append (forall_append (forall_append (forall_append (forall_append (forall_append (forall_append (forall_append (forall_append
      rOps0_fresh rOps1_fresh) rOps2_fresh) rOps3_fresh) rOps4_fresh) rOps5_fresh) rOps6_fresh) rOps7_fresh) rOps8_fresh) rOps9_fresh)

/-- The signature scopes no TensorCore buffer: every table's scope flag is false, and the tables a TensorCore
    does not name are empty. -/
theorem scopedRefs_eq : (Finset.univ.filter fun b : Ref sig .tc => b.isScoped) = ∅ := by decide
/-- The signature has no semaphore at all. -/
theorem scopedSems_eq : (Finset.univ.filter fun sm : SemLoc sig => sm.isScoped .tc) = ∅ := by decide

/-! ## The run -/

/-- On every device, for any float values, from any memory with zero counters: every weakly fair execution of
    the program on the TensorCores terminates, and every final state has each TensorCore buffer at the fold of
    the program's operations over the device's launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b)
        = StableHlo.after (rOps (F := F)) (StableHlo.launchContents m d) (Proc.devRef .tc b) :=
  run_seq scopedRefs_eq scopedSems_eq (defs (F := F)) (main (F := F)) (fun _ => rOps) main_eq (fun _ => rOps_sub) m ρ
    (fun _ => rOps_fresh)

/-! ## The arguments are kept -/

/-- No operation writes argument 0: it is not among the written references, so the fold leaves it at its launch contents. -/
theorem kept_arg0 (m : (ℓ : Loc nD τ sig) → Buf (Elt F) ℓ) (d : Dev nD) :
    StableHlo.after (rOps (F := F)) (StableHlo.launchContents m d) (Proc.devRef .tc main_arg0)
      = m ((d.tc : Thread nD τ).loc main_arg0) :=
  Line.after_keep rWA rin_main_arg0 _

/-- No operation writes argument 1: it is not among the written references, so the fold leaves it at its launch contents. -/
theorem kept_arg1 (m : (ℓ : Loc nD τ sig) → Buf (Elt F) ℓ) (d : Dev nD) :
    StableHlo.after (rOps (F := F)) (StableHlo.launchContents m d) (Proc.devRef .tc main_arg1)
      = m ((d.tc : Thread nD τ).loc main_arg1) :=
  Line.after_keep rWA rin_main_arg1 _

/-- No operation writes argument 2: it is not among the written references, so the fold leaves it at its launch contents. -/
theorem kept_arg2 (m : (ℓ : Loc nD τ sig) → Buf (Elt F) ℓ) (d : Dev nD) :
    StableHlo.after (rOps (F := F)) (StableHlo.launchContents m d) (Proc.devRef .tc main_arg2)
      = m ((d.tc : Thread nD τ).loc main_arg2) :=
  Line.after_keep rWA rin_main_arg2 _

/-- No operation writes argument 3: it is not among the written references, so the fold leaves it at its launch contents. -/
theorem kept_arg3 (m : (ℓ : Loc nD τ sig) → Buf (Elt F) ℓ) (d : Dev nD) :
    StableHlo.after (rOps (F := F)) (StableHlo.launchContents m d) (Proc.devRef .tc main_arg3)
      = m ((d.tc : Thread nD τ).loc main_arg3) :=
  Line.after_keep rWA rin_main_arg3 _

/-- No operation writes argument 4: it is not among the written references, so the fold leaves it at its launch contents. -/
theorem kept_arg4 (m : (ℓ : Loc nD τ sig) → Buf (Elt F) ℓ) (d : Dev nD) :
    StableHlo.after (rOps (F := F)) (StableHlo.launchContents m d) (Proc.devRef .tc main_arg4)
      = m ((d.tc : Thread nD τ).loc main_arg4) :=
  Line.after_keep rWA rin_main_arg4 _

/-- No operation writes argument 5: it is not among the written references, so the fold leaves it at its launch contents. -/
theorem kept_arg5 (m : (ℓ : Loc nD τ sig) → Buf (Elt F) ℓ) (d : Dev nD) :
    StableHlo.after (rOps (F := F)) (StableHlo.launchContents m d) (Proc.devRef .tc main_arg5)
      = m ((d.tc : Thread nD τ).loc main_arg5) :=
  Line.after_keep rWA rin_main_arg5 _

/-- No operation writes argument 6: it is not among the written references, so the fold leaves it at its launch contents. -/
theorem kept_arg6 (m : (ℓ : Loc nD τ sig) → Buf (Elt F) ℓ) (d : Dev nD) :
    StableHlo.after (rOps (F := F)) (StableHlo.launchContents m d) (Proc.devRef .tc main_arg6)
      = m ((d.tc : Thread nD τ).loc main_arg6) :=
  Line.after_keep rWA rin_main_arg6 _

/-- No operation writes argument 7: it is not among the written references, so the fold leaves it at its launch contents. -/
theorem kept_arg7 (m : (ℓ : Loc nD τ sig) → Buf (Elt F) ℓ) (d : Dev nD) :
    StableHlo.after (rOps (F := F)) (StableHlo.launchContents m d) (Proc.devRef .tc main_arg7)
      = m ((d.tc : Thread nD τ).loc main_arg7) :=
  Line.after_keep rWA rin_main_arg7 _

/-- No operation writes argument 8: it is not among the written references, so the fold leaves it at its launch contents. -/
theorem kept_arg8 (m : (ℓ : Loc nD τ sig) → Buf (Elt F) ℓ) (d : Dev nD) :
    StableHlo.after (rOps (F := F)) (StableHlo.launchContents m d) (Proc.devRef .tc main_arg8)
      = m ((d.tc : Thread nD τ).loc main_arg8) :=
  Line.after_keep rWA rin_main_arg8 _

/-- The program runs, and its nine argument arrays end unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := F)) _ _).mono (fun _ h c => ⟨(h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c)⟩)
    (run m ρ)

end Cert.ReferenceIdeal.Hand

end
-- ==== Proof.Energy.lean ====
/-
  The frame energy, as one function of a signal.

  A signal of 160000 samples is cut into 1000 frames of 160 samples (a re-reading of the same row-major
  elements at the shape [64, 1000, 160]); the energy of a frame is the sum of the squares of its samples,
  taken from zero, divided by 160. This is the reference's own term for it, so the reference's three
  energies are this function of its three signal arguments by definition, and the kernel's region has
  to be shown to leave the same function of the same arguments in its three result arrays.
-/
import proofs.«169849_j71803263254994_1_alg».proof.ReferenceIdeal
import proofs.«169849_j71803263254994_1_alg».proof.Proof.Gen.ReferenceIdeal

noncomputable section

namespace Cert.ReferenceIdeal.Hand

open Idealize.ShloMosaic Cert.ReferenceIdeal Cert.ReferenceIdeal.Gen

variable {F : FTy → Type} [FloatOps F]

/-- A signal's samples read frame by frame. -/
def framed (x : (⟨S64x160000, .f32⟩ : BufTy).Contents (Elt F)) : (⟨S64x1000x160, .f32⟩ : BufTy).Contents (Elt F) :=
  shapeCast S64x1000x160 x shapeCasts_S64x160000_S64x1000x160

/-- Per frame: the squares summed over the frame's 160 samples, from zero, divided by 160. -/
def energy (x : (⟨S64x1000x160, .f32⟩ : BufTy).Contents (Elt F)) : (⟨S64x1000, .f32⟩ : BufTy).Contents (Elt F) :=
  Host.divf (Host.reduceAdd (mulf x x) (constant S_ .f32 0x00000000#32) reducesTo_S64x1000x160_S64x1000_d2 h_S_)
    (broadcastInDim S64x1000 ![] bcast_S_S64x1000 (constant S_ .f32 0x43200000#32))

/-- The frame energies of a signal. -/
def frameEnergy (x : (⟨S64x160000, .f32⟩ : BufTy).Contents (Elt F)) : (⟨S64x1000, .f32⟩ : BufTy).Contents (Elt F) :=
  energy (framed x)

end Cert.ReferenceIdeal.Hand

end
-- ==== Proof.KIValue.lean ====
/- The three result arrays of the region, at the ideal values, as functions of the three signal arguments.
   An entry of an output block is the sum over a frame's 160 samples of the squared sample, divided by 160; the host's
   frame energy at an entry is the same expression over the framed argument. A block of the region's input arrays is
   eight consecutive signals of the framed argument, so what each point writes back is its block of the frame energies,
   and the eight blocks cover the 64 rows: the array ends at the frame energies of its argument. -/
import proofs.«169849_j71803263254994_1_alg».proof.Proof.KIFrame
import proofs.«169849_j71803263254994_1_alg».proof.Proof.Energy
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! ## One frame's mean square, on the kernel's side -/

/-- The mean square of one frame: the 160 squares summed, divided by 160 (the word 0x43200000). -/
def meanSq (s : Fin 160 → EReal) : EReal :=
  Ideal.div (∑ k : Fin 160, s k * s k) (Ideal.ofBits .f32 0x43200000#32)

theorem lift_in (p : Fin 8) (f : Fin 1000) (k : Fin 160) :
    reduces_S8x1000x160_S8x1000.lift (ix2 p f) k = ix3 p f k := by
  funext a; apply Fin.ext
  match a with
  | ⟨0, _⟩ => rfl
  | ⟨1, _⟩ => rfl
  | ⟨2, _⟩ => rfl

/-- The body's payload at row p, frame f: the mean square of that frame of the loaded block. -/
theorem pay1_apply (x0 : Vec Ideal S8x1000x160 .f32) (p : Fin 8) (f : Fin 1000) :
    k0_pay1 (F := Ideal) x0 (ix2 p f) = meanSq fun k => x0 (ix3 p f k) := by
  unfold k0_pay1 meanSq
  show Ideal.div (multiReduction (F := Ideal) .add [2] S8x1000 (mulf (shapeCast S8x1000x160 x0 shapeCasts_S8x1000x160_S8x1000x160) (shapeCast S8x1000x160 x0 shapeCasts_S8x1000x160_S8x1000x160)) 0x00000000#32 reduces_S8x1000x160_S8x1000 (.inl rfl) rfl (ix2 p f)) (Ideal.ofBits .f32 0x43200000#32) = _
  refine congrArg (fun z => Ideal.div z (Ideal.ofBits .f32 0x43200000#32)) ?_
  refine (Ideal.multiReduction_add_single _ _ reduces_S8x1000x160_S8x1000 (.inl rfl) rfl (ix2 p f)).trans ?_
  refine Finset.sum_congr rfl fun k _ => ?_
  rw [shapeCast_self]
  have e := lift_in p f k
  show x0 _ * x0 _ = x0 (ix3 p f k) * x0 (ix3 p f k)
  rw [e]

theorem pay2_eq_pay1 (x : Vec Ideal S8x1000x160 .f32) : k0_pay2 (F := Ideal) x = k0_pay1 x := rfl
theorem pay3_eq_pay1 (x : Vec Ideal S8x1000x160 .f32) : k0_pay3 (F := Ideal) x = k0_pay1 x := rfl

/-! ## The host side's energy at an index -/

theorem hRed : Cert.ReferenceIdeal.S64x1000x160.Reduces [2] Cert.ReferenceIdeal.S64x1000 := by decide

theorem lift_host (b : Fin 64) (f : Fin 1000) (k : Fin 160) :
    hRed.lift (ix2 b f) k = ix3 b f k := by
  funext a; apply Fin.ext
  match a with
  | ⟨0, _⟩ => rfl
  | ⟨1, _⟩ => rfl
  | ⟨2, _⟩ => rfl

/-- The host's frame energy at signal b, frame f: the mean square of that frame. -/
theorem energy_apply (X : (⟨Cert.ReferenceIdeal.S64x1000x160, .f32⟩ : BufTy).Contents (Elt Ideal)) (b : Fin 64) (f : Fin 1000) :
    Cert.ReferenceIdeal.Hand.energy (F := Ideal) X (ix2 b f) = meanSq fun k => X (ix3 b f k) := by
  unfold Cert.ReferenceIdeal.Hand.energy meanSq
  show Ideal.div (Ideal.hostReduceAdd Cert.ReferenceIdeal.Gen.reducesTo_S64x1000x160_S64x1000_d2 (mulf (F := Ideal) X X) (Ideal.ofBits .f32 0x00000000#32) (ix2 b f)) (Ideal.ofBits .f32 0x43200000#32) = _
  refine congrArg (fun z => Ideal.div z (Ideal.ofBits .f32 0x43200000#32)) ?_
  refine (Ideal.hostReduceAdd_single _ hRed (mulf (F := Ideal) X X) _ (ix2 b f)).trans ?_
  rw [Ideal.ofBits_zero_f32, zero_add]
  refine Finset.sum_congr rfl fun k _ => ?_
  have e := lift_host b f k
  show X _ * X _ = X (ix3 b f k) * X (ix3 b f k)
  rw [e]

/-- One entry of an output block against one entry of the host's energies: equal as soon as the two frames agree sample by sample. -/
theorem frame_value (X : (⟨Cert.ReferenceIdeal.S64x1000x160, .f32⟩ : BufTy).Contents (Elt Ideal)) (x0 : Vec Ideal S8x1000x160 .f32)
    (y : S8x1000.Idx) (i : S64x1000.Idx)
    (hx : ∀ k : Fin 160, x0 (ix3 (y 0) (y 1) k) = X (ix3 (i 0) (i 1) k)) :
    k0_pay1 (F := Ideal) x0 y = Cert.ReferenceIdeal.Hand.energy (F := Ideal) X i := by
  obtain ⟨p, f, rfl⟩ : ∃ (p : Fin 8) (f : Fin 1000), y = ix2 p f := ⟨y 0, y 1, eq_ix2 y⟩
  obtain ⟨b, g, rfl⟩ : ∃ (b : Fin 64) (g : Fin 1000), i = ix2 b g := ⟨i 0, i 1, eq_ix2 i⟩
  exact (pay1_apply x0 p f).trans ((congrArg meanSq (funext fun k => hx k)).trans (energy_apply X b g).symm)

variable (m : (ℓ : Loc nD τ sig) → Buf (Elt Ideal) ℓ)

/-! ## Zero offsets, and the windows' block indices over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: at point t every window is on block t of the leading axis and on
    block 0 of the others (the three output windows share one index map up to its name). -/
theorem idx_in : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0) :=
  (by decide +kernel : ∀ t : Fin grid0.N, _)
theorem idx_out4 : ∀ t : Fin cfg0.N, win0_4.index t 0 = t.val ∧ win0_4.index t 1 = 0 :=
  (by decide +kernel : ∀ t : Fin grid0.N, _)
theorem idx_out5 : ∀ t : Fin cfg0.N, win0_5.index t 0 = t.val ∧ win0_5.index t 1 = 0 :=
  (by decide +kernel : ∀ t : Fin grid0.N, _)

/-! ## Output window 3: what it writes back, and the array it leaves -/

/-- The region finds window 0's array at the framed first argument: the reshape before the region is that re-reading. -/
theorem V_main_v0 (c : Dev nD) : (V m c main_v0 : S64x1000x160.Idx → EReal)
    = Cert.ReferenceIdeal.Hand.framed (F := Ideal) (m ((c : Thread nD τ).loc main_arg0)) := by
  show StableHlo.after hostOps0 (fun b => m (c, b)) (Proc.devRef .tc main_v0) = _
  after_results
  rfl

/-- Input window 0's block at point t is rows 8t … 8t+7 of its array, all frames, all samples. -/
theorem iblk0_apply (c : Dev nD) (t : Fin cfg0.N) (x : S8x1000x160.Idx) (k : S64x1000x160.Idx)
    (hk0 : (k 0).val = 8 * t.val + (x 0).val) (hk1 : (k 1).val = (x 1).val) (hk2 : (k 2).val = (x 2).val) :
    (iblk m c 0 t : Vec Ideal S8x1000x160 .f32) x = (V m c main_v0 : S64x1000x160.Idx → EReal) k := by
  obtain ⟨e0, e1, e2⟩ := (idx_in t).1
  unfold iblk
  rw [View.read_apply]
  show V m c main_v0 _ = V m c main_v0 _
  congr 1
  funext a
  apply Fin.ext
  match a with
  | ⟨0, _⟩ => show win0_0.index t 0 * 8 + 1 * (x 0).val = (k 0).val; rw [e0, hk0]; omega
  | ⟨1, _⟩ => show win0_0.index t 1 * 1000 + 1 * (x 1).val = (k 1).val; rw [e1, hk1]; omega
  | ⟨2, _⟩ => show win0_0.index t 2 * 160 + 1 * (x 2).val = (k 2).val; rw [e2, hk2]; omega

/-- What point t writes back through window 3 is block t of the frame energies of main_arg0. -/
theorem flushed3_eq (c : Dev nD) (t : Fin cfg0.N) :
    (dats (F := Ideal) m 0 c).flushed 3 t = ((cfg0.win 3).blk t).view.read (Elt Ideal)
      (Cert.ReferenceIdeal.Hand.frameEnergy (F := Ideal) (m ((c : Thread nD τ).loc main_arg0))) := by
  show (cfg0.win 3).cut (grid0.coords t) ((dats m 0 c).after 3 t) = _
  rw [after0_3]
  unfold out0_3
  rw [View.canon_unit_zero hz2]
  simp only [View.ld_unit_zero (S := S8x1000x160) hz3]
  obtain ⟨e0, e1⟩ := (idx_in t).2.2.2
  funext j
  show k0_pay1 (F := Ideal) (iblk m c 0 t) j = Cert.ReferenceIdeal.Hand.energy (F := Ideal)
    (Cert.ReferenceIdeal.Hand.framed (F := Ideal) (m ((c : Thread nD τ).loc main_arg0))) (((cfg0.win 3).blk t).view.emb j)
  refine frame_value _ (iblk m c 0 t) j _ fun k => ?_
  refine (iblk0_apply m c t _ (ix3 ((((cfg0.win 3).blk t).view.emb j) 0) ((((cfg0.win 3).blk t).view.emb j) 1) k) ?_ ?_ rfl).trans (congrFun (V_main_v0 m c) _)
  · show win0_3.index t 0 * 8 + 1 * (j 0).val = 8 * t.val + (j 0).val
    rw [e0]; omega
  · show win0_3.index t 1 * 1000 + 1 * (j 1).val = (j 1).val
    rw [e1]; omega

/-- An index of window 3's array is in point t's block iff each coordinate is in the block's range on its axis. -/
theorem mem_blk3 (t : Fin cfg0.N) (i : S64x1000.Idx) :
    i ∈ ((cfg0.win 3).blk t).view.set ↔ ∀ a : Fin 2, win0_3.index t a * S8x1000.size a ≤ (i a).val ∧ (i a).val < win0_3.index t a * S8x1000.size a + S8x1000.size a := by
  show i ∈ ((View.whole main_v3_0).slice (win0_3.rect t)).set ↔ _
  rw [View.set_slice_whole, Rect.mem_set_unit]
  exact Iff.rfl

/-- Row r of the array is written back by point r / 8. -/
theorem cover3 (i : S64x1000.Idx) : ∃ t : Fin cfg0.N, (cfg0.win 3).flush t = true ∧ i ∈ ((cfg0.win 3).blk t).view.set := by
  have hi0 : (i 0).val < 64 := (i 0).isLt
  have hi1 : (i 1).val < 1000 := (i 1).isLt
  have hN : cfg0.N = 8 := N_0
  refine ⟨⟨(i 0).val / 8, by rw [hN]; omega⟩, flush0_3 _, ?_⟩
  rw [mem_blk3]
  obtain ⟨e0, e1⟩ := (idx_in (⟨(i 0).val / 8, by rw [hN]; omega⟩ : Fin cfg0.N)).2.2.2
  intro a
  match a with
  | ⟨0, _⟩ => show win0_3.index _ 0 * 8 ≤ (i 0).val ∧ (i 0).val < win0_3.index _ 0 * 8 + 8; rw [e0]; show (i 0).val / 8 * 8 ≤ (i 0).val ∧ (i 0).val < (i 0).val / 8 * 8 + 8; omega
  | ⟨1, _⟩ => show win0_3.index _ 1 * 1000 ≤ (i 1).val ∧ (i 1).val < win0_3.index _ 1 * 1000 + 1000; rw [e1]; omega

/-- So the array of window 3 ends at the frame energies of main_arg0. -/
theorem final3 (c : Dev nD) : (dats (F := Ideal) m 0 c).arrAt 3 cfg0.N
    = Cert.ReferenceIdeal.Hand.frameEnergy (F := Ideal) (m ((c : Thread nD τ).loc main_arg0)) :=
  (dats m 0 c).arrAt_eq_of_cover 3 _ (fun t _ => flushed3_eq m c t) cover3

/-! ## Output window 4: what it writes back, and the array it leaves -/

/-- The region finds window 1's array at the framed second argument. -/
theorem V_main_v1 (c : Dev nD) : (V m c main_v1 : S64x1000x160.Idx → EReal)
    = Cert.ReferenceIdeal.Hand.framed (F := Ideal) (m ((c : Thread nD τ).loc main_arg1)) := by
  show StableHlo.after hostOps0 (fun b => m (c, b)) (Proc.devRef .tc main_v1) = _
  after_results
  rfl

/-- Input window 1's block at point t is rows 8t … 8t+7 of its array, all frames, all samples. -/
theorem iblk1_apply (c : Dev nD) (t : Fin cfg0.N) (x : S8x1000x160.Idx) (k : S64x1000x160.Idx)
    (hk0 : (k 0).val = 8 * t.val + (x 0).val) (hk1 : (k 1).val = (x 1).val) (hk2 : (k 2).val = (x 2).val) :
    (iblk m c 1 t : Vec Ideal S8x1000x160 .f32) x = (V m c main_v1 : S64x1000x160.Idx → EReal) k := by
  obtain ⟨e0, e1, e2⟩ := (idx_in t).2.1
  unfold iblk
  rw [View.read_apply]
  show V m c main_v1 _ = V m c main_v1 _
  congr 1
  funext a
  apply Fin.ext
  match a with
  | ⟨0, _⟩ => show win0_1.index t 0 * 8 + 1 * (x 0).val = (k 0).val; rw [e0, hk0]; omega
  | ⟨1, _⟩ => show win0_1.index t 1 * 1000 + 1 * (x 1).val = (k 1).val; rw [e1, hk1]; omega
  | ⟨2, _⟩ => show win0_1.index t 2 * 160 + 1 * (x 2).val = (k 2).val; rw [e2, hk2]; omega

/-- What point t writes back through window 4 is block t of the frame energies of main_arg1. -/
theorem flushed4_eq (c : Dev nD) (t : Fin cfg0.N) :
    (dats (F := Ideal) m 0 c).flushed 4 t = ((cfg0.win 4).blk t).view.read (Elt Ideal)
      (Cert.ReferenceIdeal.Hand.frameEnergy (F := Ideal) (m ((c : Thread nD τ).loc main_arg1))) := by
  show (cfg0.win 4).cut (grid0.coords t) ((dats m 0 c).after 4 t) = _
  rw [after0_4]
  unfold out0_4
  rw [View.canon_unit_zero hz2]
  simp only [View.ld_unit_zero (S := S8x1000x160) hz3]
  obtain ⟨e0, e1⟩ := idx_out4 t
  funext j
  show k0_pay2 (F := Ideal) (iblk m c 1 t) j = Cert.ReferenceIdeal.Hand.energy (F := Ideal)
    (Cert.ReferenceIdeal.Hand.framed (F := Ideal) (m ((c : Thread nD τ).loc main_arg1))) (((cfg0.win 4).blk t).view.emb j)
  rw [pay2_eq_pay1]
  refine frame_value _ (iblk m c 1 t) j _ fun k => ?_
  refine (iblk1_apply m c t _ (ix3 ((((cfg0.win 4).blk t).view.emb j) 0) ((((cfg0.win 4).blk t).view.emb j) 1) k) ?_ ?_ rfl).trans (congrFun (V_main_v1 m c) _)
  · show win0_4.index t 0 * 8 + 1 * (j 0).val = 8 * t.val + (j 0).val
    rw [e0]; omega
  · show win0_4.index t 1 * 1000 + 1 * (j 1).val = (j 1).val
    rw [e1]; omega

/-- An index of window 4's array is in point t's block iff each coordinate is in the block's range on its axis. -/
theorem mem_blk4 (t : Fin cfg0.N) (i : S64x1000.Idx) :
    i ∈ ((cfg0.win 4).blk t).view.set ↔ ∀ a : Fin 2, win0_4.index t a * S8x1000.size a ≤ (i a).val ∧ (i a).val < win0_4.index t a * S8x1000.size a + S8x1000.size a := by
  show i ∈ ((View.whole main_v3_1).slice (win0_4.rect t)).set ↔ _
  rw [View.set_slice_whole, Rect.mem_set_unit]
  exact Iff.rfl

/-- Row r of the array is written back by point r / 8. -/
theorem cover4 (i : S64x1000.Idx) : ∃ t : Fin cfg0.N, (cfg0.win 4).flush t = true ∧ i ∈ ((cfg0.win 4).blk t).view.set := by
  have hi0 : (i 0).val < 64 := (i 0).isLt
  have hi1 : (i 1).val < 1000 := (i 1).isLt
  have hN : cfg0.N = 8 := N_0
  refine ⟨⟨(i 0).val / 8, by rw [hN]; omega⟩, flush0_4 _, ?_⟩
  rw [mem_blk4]
  obtain ⟨e0, e1⟩ := idx_out4 (⟨(i 0).val / 8, by rw [hN]; omega⟩ : Fin cfg0.N)
  intro a
  match a with
  | ⟨0, _⟩ => show win0_4.index _ 0 * 8 ≤ (i 0).val ∧ (i 0).val < win0_4.index _ 0 * 8 + 8; rw [e0]; show (i 0).val / 8 * 8 ≤ (i 0).val ∧ (i 0).val < (i 0).val / 8 * 8 + 8; omega
  | ⟨1, _⟩ => show win0_4.index _ 1 * 1000 ≤ (i 1).val ∧ (i 1).val < win0_4.index _ 1 * 1000 + 1000; rw [e1]; omega

/-- So the array of window 4 ends at the frame energies of main_arg1. -/
theorem final4 (c : Dev nD) : (dats (F := Ideal) m 0 c).arrAt 4 cfg0.N
    = Cert.ReferenceIdeal.Hand.frameEnergy (F := Ideal) (m ((c : Thread nD τ).loc main_arg1)) :=
  (dats m 0 c).arrAt_eq_of_cover 4 _ (fun t _ => flushed4_eq m c t) cover4

/-! ## Output window 5: what it writes back, and the array it leaves -/

/-- The region finds window 2's array at the framed third argument. -/
theorem V_main_v2 (c : Dev nD) : (V m c main_v2 : S64x1000x160.Idx → EReal)
    = Cert.ReferenceIdeal.Hand.framed (F := Ideal) (m ((c : Thread nD τ).loc main_arg2)) := by
  show StableHlo.after hostOps0 (fun b => m (c, b)) (Proc.devRef .tc main_v2) = _
  after_results
  rfl

/-- Input window 2's block at point t is rows 8t … 8t+7 of its array, all frames, all samples. -/
theorem iblk2_apply (c : Dev nD) (t : Fin cfg0.N) (x : S8x1000x160.Idx) (k : S64x1000x160.Idx)
    (hk0 : (k 0).val = 8 * t.val + (x 0).val) (hk1 : (k 1).val = (x 1).val) (hk2 : (k 2).val = (x 2).val) :
    (iblk m c 2 t : Vec Ideal S8x1000x160 .f32) x = (V m c main_v2 : S64x1000x160.Idx → EReal) k := by
  obtain ⟨e0, e1, e2⟩ := (idx_in t).2.2.1
  unfold iblk
  rw [View.read_apply]
  show V m c main_v2 _ = V m c main_v2 _
  congr 1
  funext a
  apply Fin.ext
  match a with
  | ⟨0, _⟩ => show win0_2.index t 0 * 8 + 1 * (x 0).val = (k 0).val; rw [e0, hk0]; omega
  | ⟨1, _⟩ => show win0_2.index t 1 * 1000 + 1 * (x 1).val = (k 1).val; rw [e1, hk1]; omega
  | ⟨2, _⟩ => show win0_2.index t 2 * 160 + 1 * (x 2).val = (k 2).val; rw [e2, hk2]; omega

/-- What point t writes back through window 5 is block t of the frame energies of main_arg2. -/
theorem flushed5_eq (c : Dev nD) (t : Fin cfg0.N) :
    (dats (F := Ideal) m 0 c).flushed 5 t = ((cfg0.win 5).blk t).view.read (Elt Ideal)
      (Cert.ReferenceIdeal.Hand.frameEnergy (F := Ideal) (m ((c : Thread nD τ).loc main_arg2))) := by
  show (cfg0.win 5).cut (grid0.coords t) ((dats m 0 c).after 5 t) = _
  rw [after0_5]
  unfold out0_5
  rw [View.canon_unit_zero hz2]
  simp only [View.ld_unit_zero (S := S8x1000x160) hz3]
  obtain ⟨e0, e1⟩ := idx_out5 t
  funext j
  show k0_pay3 (F := Ideal) (iblk m c 2 t) j = Cert.ReferenceIdeal.Hand.energy (F := Ideal)
    (Cert.ReferenceIdeal.Hand.framed (F := Ideal) (m ((c : Thread nD τ).loc main_arg2))) (((cfg0.win 5).blk t).view.emb j)
  rw [pay3_eq_pay1]
  refine frame_value _ (iblk m c 2 t) j _ fun k => ?_
  refine (iblk2_apply m c t _ (ix3 ((((cfg0.win 5).blk t).view.emb j) 0) ((((cfg0.win 5).blk t).view.emb j) 1) k) ?_ ?_ rfl).trans (congrFun (V_main_v2 m c) _)
  · show win0_5.index t 0 * 8 + 1 * (j 0).val = 8 * t.val + (j 0).val
    rw [e0]; omega
  · show win0_5.index t 1 * 1000 + 1 * (j 1).val = (j 1).val
    rw [e1]; omega

/-- An index of window 5's array is in point t's block iff each coordinate is in the block's range on its axis. -/
theorem mem_blk5 (t : Fin cfg0.N) (i : S64x1000.Idx) :
    i ∈ ((cfg0.win 5).blk t).view.set ↔ ∀ a : Fin 2, win0_5.index t a * S8x1000.size a ≤ (i a).val ∧ (i a).val < win0_5.index t a * S8x1000.size a + S8x1000.size a := by
  show i ∈ ((View.whole main_v3_2).slice (win0_5.rect t)).set ↔ _
  rw [View.set_slice_whole, Rect.mem_set_unit]
  exact Iff.rfl

/-- Row r of the array is written back by point r / 8. -/
theorem cover5 (i : S64x1000.Idx) : ∃ t : Fin cfg0.N, (cfg0.win 5).flush t = true ∧ i ∈ ((cfg0.win 5).blk t).view.set := by
  have hi0 : (i 0).val < 64 := (i 0).isLt
  have hi1 : (i 1).val < 1000 := (i 1).isLt
  have hN : cfg0.N = 8 := N_0
  refine ⟨⟨(i 0).val / 8, by rw [hN]; omega⟩, flush0_5 _, ?_⟩
  rw [mem_blk5]
  obtain ⟨e0, e1⟩ := idx_out5 (⟨(i 0).val / 8, by rw [hN]; omega⟩ : Fin cfg0.N)
  intro a
  match a with
  | ⟨0, _⟩ => show win0_5.index _ 0 * 8 ≤ (i 0).val ∧ (i 0).val < win0_5.index _ 0 * 8 + 8; rw [e0]; show (i 0).val / 8 * 8 ≤ (i 0).val ∧ (i 0).val < (i 0).val / 8 * 8 + 8; omega
  | ⟨1, _⟩ => show win0_5.index _ 1 * 1000 ≤ (i 1).val ∧ (i 1).val < win0_5.index _ 1 * 1000 + 1000; rw [e1]; omega

/-- So the array of window 5 ends at the frame energies of main_arg2. -/
theorem final5 (c : Dev nD) : (dats (F := Ideal) m 0 c).arrAt 5 cfg0.N
    = Cert.ReferenceIdeal.Hand.frameEnergy (F := Ideal) (m ((c : Thread nD τ).loc main_arg2)) :=
  (dats m 0 c).arrAt_eq_of_cover 5 _ (fun t _ => flushed5_eq m c t) cover5

end Cert.KernelIdeal.Hand
end
-- ==== Proof.KTab.lean ====
/-
  The kernel program's 636 host operations after its region (the launch module's stretches, in order)
  and the buffer each writes (kW): single assignment again, and neither an argument nor an array of the
  region's windows is among them.
-/
import proofs.«169849_j71803263254994_1_alg».proof.KernelIdeal
import proofs.«169849_j71803263254994_1_alg».proof.Proof.Gen.KernelIdeal
import proofs.«169849_j71803263254994_1_alg».proof.Proof.Gen.KernelIdeal.Launch
import proofs.«169849_j71803263254994_1_alg».proof.Proof.LibHostLine

set_option maxRecDepth 16384

noncomputable section

namespace Cert.KernelIdeal.Tab

open Idealize.ShloMosaic Idealize.SL.Sem Idealize.ShloMosaic.StableHlo.Line Cert.KernelIdeal Cert.KernelIdeal.Gen

variable {F : FTy → Type} [FloatOps F]

/-- The stretches after the region, in order. -/
abbrev kOpss : List (List (HloOp τ sig (Elt F))) :=
  [ hostOps1, hostOps1_1, hostOps1_2, hostOps1_3, hostOps1_4, hostOps1_5, hostOps1_6, hostOps1_7, hostOps1_8,
    hostOps1_9, hostOps1_10, hostOps1_11, hostOps1_12, hostOps1_13, hostOps1_14, hostOps1_15, hostOps1_16,
    hostOps1_17, hostOps1_18, hostOps1_19, hostOps1_20, hostOps1_21, hostOps1_22, hostOps1_23, hostOps1_24,
    hostOps1_25, hostOps1_26, hostOps1_27, hostOps1_28, hostOps1_29, hostOps1_30, hostOps1_31, hostOps1_32,
    hostOps1_33, hostOps1_34, hostOps1_35, hostOps1_36, hostOps1_37, hostOps1_38, hostOps1_39, hostOps1_40,
    hostOps1_41, hostOps1_42, hostOps1_43, hostOps1_44, hostOps1_45, hostOps1_46, hostOps1_47, hostOps1_48,
    hostOps1_49, hostOps1_50, hostOps1_51, hostOps1_52, hostOps1_53, hostOps1_54, hostOps1_55, hostOps1_56,
    hostOps1_57, hostOps1_58, hostOps1_59, hostOps1_60, hostOps1_61, hostOps1_62, hostOps1_63, hostOps1_64,
    hostOps1_65, hostOps1_66, hostOps1_67, hostOps1_68, hostOps1_69, hostOps1_70, hostOps1_71, hostOps1_72,
    hostOps1_73, hostOps1_74, hostOps1_75 ]

/-- The same as one line. -/
abbrev kOps : List (HloOp τ sig (Elt F)) := (kOpss (F := F)).flatten

abbrev kW_0 : List (Ref sig .tc) :=
  [ main_v4, main_v5, main_v6, main_v7, main_v8, main_v9, main_c, main_v10, main_v11, main_v12, main_v13, main_v14,
    main_c_0, main_v15, main_v16, main_v17, main_v18, main_v19, main_c_1, main_v20, main_c_2, main_v21, main_v22 ]
set_option maxHeartbeats 40000000 in
theorem kWA_0 : WritesAre (τ := τ) (hostOps1 (F := F)) kW_0 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))))))))))

abbrev kW_1 : List (Ref sig .tc) :=
  [ main_call0_v0, main_call0_c, main_call0_c_0, main_call0_v1_0, main_v23 ]
set_option maxHeartbeats 40000000 in
theorem kWA_1 : WritesAre (τ := τ) (hostOps1_1 (F := F)) kW_1 :=
  List.Forall₂.cons rfl (List.Forall₂.cons rfl (List.Forall₂.cons rfl (List.Forall₂.cons rfl (List.Forall₂.cons rfl (List.Forall₂.nil)))))

abbrev kW_2 : List (Ref sig .tc) :=
  [ main_call1_v0, main_call1_c, main_call1_c_0, main_call1_v1_0, main_v24 ]
set_option maxHeartbeats 40000000 in
theorem kWA_2 : WritesAre (τ := τ) (hostOps1_2 (F := F)) kW_2 :=
  List.Forall₂.cons rfl (List.Forall₂.cons rfl (List.Forall₂.cons rfl (List.Forall₂.cons rfl (List.Forall₂.cons rfl (List.Forall₂.nil)))))

abbrev kW_3 : List (Ref sig .tc) :=
  [ main_c_3, main_v25, main_v26, main_c_4, main_v27, main_v28, main_v29, main_v30, main_v31, main_c_5, main_v32,
    main_v33, main_c_6, main_v34, main_v35, main_v36, main_v37, main_v38, main_cst, main_v39, main_v40, main_v41,
    main_c_7, main_v42, main_v43, main_c_8, main_v44, main_v45, main_v46, main_v47, main_v48, main_cst_9, main_v49,
    main_v50, main_v51, main_c_10, main_v52, main_v53, main_c_11, main_v54, main_v55, main_v56, main_v57, main_v58,
    main_c_12, main_v59, main_v60, main_c_13, main_v61, main_v62, main_v63, main_v64, main_v65, main_v66, main_v67,
    main_c_14, main_v68, main_v69, main_c_15, main_v70, main_v71, main_v72, main_v73, main_v74, main_c_16, main_v75,
    main_v76, main_c_17, main_v77, main_v78, main_v79, main_v80, main_v81, main_v82, main_v83, main_c_18, main_v84,
    main_v85, main_c_19, main_v86, main_v87, main_v88, main_v89, main_v90, main_c_20, main_v91, main_v92, main_c_21,
    main_v93, main_v94, main_v95, main_v96, main_v97, main_v98, main_c_22, main_v99, main_v100, main_c_23, main_v101,
    main_v102, main_v103, main_v104, main_v105, main_c_24, main_v106, main_v107, main_c_25, main_v108, main_v109,
    main_v110, main_v111, main_v112, main_v113, main_c_26, main_v114, main_v115, main_c_27, main_v116, main_v117,
    main_c_28, main_v118, main_v119, main_v120, main_cst_29, main_v121, main_v122 ]
set_option maxHeartbeats 40000000 in
theorem kWA_3 : WritesAre (τ := τ) (hostOps1_3 (F := F)) kW_3 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))))))))))))))))))))))))))))))))))))))))))))))))))))))))))))))))))

abbrev kW_4 : List (Ref sig .tc) :=
  [ main_call2_cst, main_call2_v0, main_v123 ]
set_option maxHeartbeats 40000000 in
theorem kWA_4 : WritesAre (τ := τ) (hostOps1_4 (F := F)) kW_4 :=
  List.Forall₂.cons rfl (List.Forall₂.cons rfl (List.Forall₂.cons rfl (List.Forall₂.nil)))

abbrev kW_5 : List (Ref sig .tc) :=
  [ main_v124, main_v125, main_c_30, main_v126, main_c_31, main_v127, main_v128, main_cst_32 ]
set_option maxHeartbeats 40000000 in
theorem kWA_5 : WritesAre (τ := τ) (hostOps1_5 (F := F)) kW_5 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_6 : List (Ref sig .tc) :=
  [ main_call3_v0, main_call3_v1, main_v129 ]
set_option maxHeartbeats 40000000 in
theorem kWA_6 : WritesAre (τ := τ) (hostOps1_6 (F := F)) kW_6 :=
  List.Forall₂.cons rfl (List.Forall₂.cons rfl (List.Forall₂.cons rfl (List.Forall₂.nil)))

abbrev kW_7 : List (Ref sig .tc) :=
  [ main_cst_33, main_v130, main_c_34, main_v131, main_v132, main_v133, main_v134, main_cst_35 ]
set_option maxHeartbeats 40000000 in
theorem kWA_7 : WritesAre (τ := τ) (hostOps1_7 (F := F)) kW_7 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_8 : List (Ref sig .tc) :=
  [ main_call4_v0, main_call4_v1, main_v135 ]
set_option maxHeartbeats 40000000 in
theorem kWA_8 : WritesAre (τ := τ) (hostOps1_8 (F := F)) kW_8 :=
  List.Forall₂.cons rfl (List.Forall₂.cons rfl (List.Forall₂.cons rfl (List.Forall₂.nil)))

abbrev kW_9 : List (Ref sig .tc) :=
  [ main_v136, main_cst_36, main_v137, main_v138 ]
set_option maxHeartbeats 40000000 in
theorem kWA_9 : WritesAre (τ := τ) (hostOps1_9 (F := F)) kW_9 :=
  List.Forall₂.cons rfl (List.Forall₂.cons rfl (List.Forall₂.cons rfl (List.Forall₂.cons rfl (List.Forall₂.nil))))

abbrev kW_10 : List (Ref sig .tc) :=
  [ main_call5_cst, main_call5_v0, main_v139 ]
set_option maxHeartbeats 40000000 in
theorem kWA_10 : WritesAre (τ := τ) (hostOps1_10 (F := F)) kW_10 :=
  List.Forall₂.cons rfl (List.Forall₂.cons rfl (List.Forall₂.cons rfl (List.Forall₂.nil)))

abbrev kW_11 : List (Ref sig .tc) :=
  [ main_v140, main_v141, main_c_37, main_v142, main_c_38, main_v143, main_v144, main_cst_39 ]
set_option maxHeartbeats 40000000 in
theorem kWA_11 : WritesAre (τ := τ) (hostOps1_11 (F := F)) kW_11 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_12 : List (Ref sig .tc) :=
  [ main_call6_v0, main_call6_v1, main_v145 ]
set_option maxHeartbeats 40000000 in
theorem kWA_12 : WritesAre (τ := τ) (hostOps1_12 (F := F)) kW_12 :=
  List.Forall₂.cons rfl (List.Forall₂.cons rfl (List.Forall₂.cons rfl (List.Forall₂.nil)))

abbrev kW_13 : List (Ref sig .tc) :=
  [ main_cst_40, main_v146, main_c_41, main_v147, main_v148, main_v149, main_v150, main_cst_42 ]
set_option maxHeartbeats 40000000 in
theorem kWA_13 : WritesAre (τ := τ) (hostOps1_13 (F := F)) kW_13 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_14 : List (Ref sig .tc) :=
  [ main_call7_v0, main_call7_v1, main_v151 ]
set_option maxHeartbeats 40000000 in
theorem kWA_14 : WritesAre (τ := τ) (hostOps1_14 (F := F)) kW_14 :=
  List.Forall₂.cons rfl (List.Forall₂.cons rfl (List.Forall₂.cons rfl (List.Forall₂.nil)))

abbrev kW_15 : List (Ref sig .tc) :=
  [ main_v152, main_v153, main_c_43, main_v154, main_c_44, main_v155, main_v156, main_cst_45 ]
set_option maxHeartbeats 40000000 in
theorem kWA_15 : WritesAre (τ := τ) (hostOps1_15 (F := F)) kW_15 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_16 : List (Ref sig .tc) :=
  [ main_call8_v0, main_call8_v1, main_v157 ]
set_option maxHeartbeats 40000000 in
theorem kWA_16 : WritesAre (τ := τ) (hostOps1_16 (F := F)) kW_16 :=
  List.Forall₂.cons rfl (List.Forall₂.cons rfl (List.Forall₂.cons rfl (List.Forall₂.nil)))

abbrev kW_17 : List (Ref sig .tc) :=
  [ main_cst_46, main_v158, main_c_47, main_v159, main_v160, main_v161, main_v162, main_cst_48 ]
set_option maxHeartbeats 40000000 in
theorem kWA_17 : WritesAre (τ := τ) (hostOps1_17 (F := F)) kW_17 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_18 : List (Ref sig .tc) :=
  [ main_call9_v0, main_call9_v1, main_v163 ]
set_option maxHeartbeats 40000000 in
theorem kWA_18 : WritesAre (τ := τ) (hostOps1_18 (F := F)) kW_18 :=
  List.Forall₂.cons rfl (List.Forall₂.cons rfl (List.Forall₂.cons rfl (List.Forall₂.nil)))

abbrev kW_19 : List (Ref sig .tc) :=
  [ main_v164, main_v165, main_v166, main_v167, main_v168, main_v169, main_v170, main_v171, main_v172, main_cst_49,
    main_v173, main_cst_50, main_v174, main_v175, main_cst_51, main_v176, main_cst_52, main_v177, main_v178,
    main_cst_53 ]
set_option maxHeartbeats 40000000 in
theorem kWA_19 : WritesAre (τ := τ) (hostOps1_19 (F := F)) kW_19 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))

abbrev kW_20 : List (Ref sig .tc) :=
  [ main_call10_v0, main_v179 ]
set_option maxHeartbeats 40000000 in
theorem kWA_20 : WritesAre (τ := τ) (hostOps1_20 (F := F)) kW_20 :=
  List.Forall₂.cons rfl (List.Forall₂.cons rfl (List.Forall₂.nil))

abbrev kW_21 : List (Ref sig .tc) :=
  [ main_c_54, main_v180, main_v181, main_c_55, main_v182, main_v183, main_v184, main_v185, main_v186, main_c_56,
    main_v187, main_v188, main_c_57, main_v189, main_v190, main_v191, main_v192, main_v193, main_v194, main_cst_58,
    main_v195, main_v196, main_v197, main_cst_59, main_v198, main_v199, main_v200, main_cst_60, main_v201, main_v202,
    main_v203, main_c_61, main_v204, main_v205, main_c_62, main_v206, main_v207, main_v208, main_cst_63, main_v209,
    main_v210 ]
set_option maxHeartbeats 40000000 in
theorem kWA_21 : WritesAre (τ := τ) (hostOps1_21 (F := F)) kW_21 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))))))))))))))))))))))))))))

abbrev kW_22 : List (Ref sig .tc) :=
  [ main_call11_cst, main_call11_v0, main_v211 ]
set_option maxHeartbeats 40000000 in
theorem kWA_22 : WritesAre (τ := τ) (hostOps1_22 (F := F)) kW_22 :=
  List.Forall₂.cons rfl (List.Forall₂.cons rfl (List.Forall₂.cons rfl (List.Forall₂.nil)))

abbrev kW_23 : List (Ref sig .tc) :=
  [ main_v212, main_v213, main_c_64, main_v214, main_c_65, main_v215, main_v216, main_cst_66 ]
set_option maxHeartbeats 40000000 in
theorem kWA_23 : WritesAre (τ := τ) (hostOps1_23 (F := F)) kW_23 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_24 : List (Ref sig .tc) :=
  [ main_call12_v0, main_call12_v1, main_v217 ]
set_option maxHeartbeats 40000000 in
theorem kWA_24 : WritesAre (τ := τ) (hostOps1_24 (F := F)) kW_24 :=
  List.Forall₂.cons rfl (List.Forall₂.cons rfl (List.Forall₂.cons rfl (List.Forall₂.nil)))

abbrev kW_25 : List (Ref sig .tc) :=
  [ main_cst_67, main_v218, main_c_68, main_v219, main_v220, main_v221, main_v222, main_cst_69 ]
set_option maxHeartbeats 40000000 in
theorem kWA_25 : WritesAre (τ := τ) (hostOps1_25 (F := F)) kW_25 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_26 : List (Ref sig .tc) :=
  [ main_call13_v0, main_call13_v1, main_v223 ]
set_option maxHeartbeats 40000000 in
theorem kWA_26 : WritesAre (τ := τ) (hostOps1_26 (F := F)) kW_26 :=
  List.Forall₂.cons rfl (List.Forall₂.cons rfl (List.Forall₂.cons rfl (List.Forall₂.nil)))

abbrev kW_27 : List (Ref sig .tc) :=
  [ main_v224, main_cst_70, main_v225, main_v226 ]
set_option maxHeartbeats 40000000 in
theorem kWA_27 : WritesAre (τ := τ) (hostOps1_27 (F := F)) kW_27 :=
  List.Forall₂.cons rfl (List.Forall₂.cons rfl (List.Forall₂.cons rfl (List.Forall₂.cons rfl (List.Forall₂.nil))))

abbrev kW_28 : List (Ref sig .tc) :=
  [ main_call14_cst, main_call14_v0, main_v227 ]
set_option maxHeartbeats 40000000 in
theorem kWA_28 : WritesAre (τ := τ) (hostOps1_28 (F := F)) kW_28 :=
  List.Forall₂.cons rfl (List.Forall₂.cons rfl (List.Forall₂.cons rfl (List.Forall₂.nil)))

abbrev kW_29 : List (Ref sig .tc) :=
  [ main_v228, main_v229, main_c_71, main_v230, main_c_72, main_v231, main_v232, main_cst_73 ]
set_option maxHeartbeats 40000000 in
theorem kWA_29 : WritesAre (τ := τ) (hostOps1_29 (F := F)) kW_29 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_30 : List (Ref sig .tc) :=
  [ main_call15_v0, main_call15_v1, main_v233 ]
set_option maxHeartbeats 40000000 in
theorem kWA_30 : WritesAre (τ := τ) (hostOps1_30 (F := F)) kW_30 :=
  List.Forall₂.cons rfl (List.Forall₂.cons rfl (List.Forall₂.cons rfl (List.Forall₂.nil)))

abbrev kW_31 : List (Ref sig .tc) :=
  [ main_cst_74, main_v234, main_c_75, main_v235, main_v236, main_v237, main_v238, main_cst_76 ]
set_option maxHeartbeats 40000000 in
theorem kWA_31 : WritesAre (τ := τ) (hostOps1_31 (F := F)) kW_31 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_32 : List (Ref sig .tc) :=
  [ main_call16_v0, main_call16_v1, main_v239 ]
set_option maxHeartbeats 40000000 in
theorem kWA_32 : WritesAre (τ := τ) (hostOps1_32 (F := F)) kW_32 :=
  List.Forall₂.cons rfl (List.Forall₂.cons rfl (List.Forall₂.cons rfl (List.Forall₂.nil)))

abbrev kW_33 : List (Ref sig .tc) :=
  [ main_v240, main_v241, main_v242, main_v243, main_v244, main_v245, main_v246, main_cst_77, main_v247, main_cst_78,
    main_v248, main_v249, main_cst_79, main_v250, main_cst_80, main_v251, main_v252, main_cst_81 ]
set_option maxHeartbeats 40000000 in
theorem kWA_33 : WritesAre (τ := τ) (hostOps1_33 (F := F)) kW_33 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))

abbrev kW_34 : List (Ref sig .tc) :=
  [ main_call17_v0, main_v253 ]
set_option maxHeartbeats 40000000 in
theorem kWA_34 : WritesAre (τ := τ) (hostOps1_34 (F := F)) kW_34 :=
  List.Forall₂.cons rfl (List.Forall₂.cons rfl (List.Forall₂.nil))

abbrev kW_35 : List (Ref sig .tc) :=
  [ main_v254, main_c_82, main_v255, main_c_83, main_v256, main_v257, main_cst_84 ]
set_option maxHeartbeats 40000000 in
theorem kWA_35 : WritesAre (τ := τ) (hostOps1_35 (F := F)) kW_35 :=
  List.Forall₂.cons rfl (List.Forall₂.cons rfl (List.Forall₂.cons rfl (List.Forall₂.cons rfl (List.Forall₂.cons rfl (List.Forall₂.cons rfl (List.Forall₂.cons rfl (List.Forall₂.nil)))))))

abbrev kW_36 : List (Ref sig .tc) :=
  [ main_call18_v0, main_call18_v1, main_v258 ]
set_option maxHeartbeats 40000000 in
theorem kWA_36 : WritesAre (τ := τ) (hostOps1_36 (F := F)) kW_36 :=
  List.Forall₂.cons rfl (List.Forall₂.cons rfl (List.Forall₂.cons rfl (List.Forall₂.nil)))

abbrev kW_37 : List (Ref sig .tc) :=
  [ main_cst_85, main_v259, main_c_86, main_v260, main_v261, main_v262, main_v263, main_cst_87 ]
set_option maxHeartbeats 40000000 in
theorem kWA_37 : WritesAre (τ := τ) (hostOps1_37 (F := F)) kW_37 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_38 : List (Ref sig .tc) :=
  [ main_call19_v0, main_call19_v1, main_v264 ]
set_option maxHeartbeats 40000000 in
theorem kWA_38 : WritesAre (τ := τ) (hostOps1_38 (F := F)) kW_38 :=
  List.Forall₂.cons rfl (List.Forall₂.cons rfl (List.Forall₂.cons rfl (List.Forall₂.nil)))

abbrev kW_39 : List (Ref sig .tc) :=
  [ main_v265, main_c_88, main_v266, main_c_89, main_v267, main_v268, main_cst_90 ]
set_option maxHeartbeats 40000000 in
theorem kWA_39 : WritesAre (τ := τ) (hostOps1_39 (F := F)) kW_39 :=
  List.Forall₂.cons rfl (List.Forall₂.cons rfl (List.Forall₂.cons rfl (List.Forall₂.cons rfl (List.Forall₂.cons rfl (List.Forall₂.cons rfl (List.Forall₂.cons rfl (List.Forall₂.nil)))))))

abbrev kW_40 : List (Ref sig .tc) :=
  [ main_call20_v0, main_call20_v1, main_v269 ]
set_option maxHeartbeats 40000000 in
theorem kWA_40 : WritesAre (τ := τ) (hostOps1_40 (F := F)) kW_40 :=
  List.Forall₂.cons rfl (List.Forall₂.cons rfl (List.Forall₂.cons rfl (List.Forall₂.nil)))

abbrev kW_41 : List (Ref sig .tc) :=
  [ main_cst_91, main_v270, main_c_92, main_v271, main_v272, main_v273, main_v274, main_cst_93 ]
set_option maxHeartbeats 40000000 in
theorem kWA_41 : WritesAre (τ := τ) (hostOps1_41 (F := F)) kW_41 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_42 : List (Ref sig .tc) :=
  [ main_call21_v0, main_call21_v1, main_v275 ]
set_option maxHeartbeats 40000000 in
theorem kWA_42 : WritesAre (τ := τ) (hostOps1_42 (F := F)) kW_42 :=
  List.Forall₂.cons rfl (List.Forall₂.cons rfl (List.Forall₂.cons rfl (List.Forall₂.nil)))

abbrev kW_43 : List (Ref sig .tc) :=
  [ main_v276, main_v277, main_v278, main_v279, main_v280, main_v281, main_v282, main_cst_94, main_v283, main_cst_95,
    main_v284, main_v285, main_cst_96, main_v286, main_cst_97, main_v287, main_v288, main_cst_98 ]
set_option maxHeartbeats 40000000 in
theorem kWA_43 : WritesAre (τ := τ) (hostOps1_43 (F := F)) kW_43 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))

abbrev kW_44 : List (Ref sig .tc) :=
  [ main_call22_v0, main_v289 ]
set_option maxHeartbeats 40000000 in
theorem kWA_44 : WritesAre (τ := τ) (hostOps1_44 (F := F)) kW_44 :=
  List.Forall₂.cons rfl (List.Forall₂.cons rfl (List.Forall₂.nil))

abbrev kW_45 : List (Ref sig .tc) :=
  [ main_v290, main_c_99, main_v291, main_c_100, main_v292, main_v293, main_cst_101 ]
set_option maxHeartbeats 40000000 in
theorem kWA_45 : WritesAre (τ := τ) (hostOps1_45 (F := F)) kW_45 :=
  List.Forall₂.cons rfl (List.Forall₂.cons rfl (List.Forall₂.cons rfl (List.Forall₂.cons rfl (List.Forall₂.cons rfl (List.Forall₂.cons rfl (List.Forall₂.cons rfl (List.Forall₂.nil)))))))

abbrev kW_46 : List (Ref sig .tc) :=
  [ main_call23_v0, main_call23_v1, main_v294 ]
set_option maxHeartbeats 40000000 in
theorem kWA_46 : WritesAre (τ := τ) (hostOps1_46 (F := F)) kW_46 :=
  List.Forall₂.cons rfl (List.Forall₂.cons rfl (List.Forall₂.cons rfl (List.Forall₂.nil)))

abbrev kW_47 : List (Ref sig .tc) :=
  [ main_cst_102, main_v295, main_c_103, main_v296, main_v297, main_v298, main_v299, main_cst_104 ]
set_option maxHeartbeats 40000000 in
theorem kWA_47 : WritesAre (τ := τ) (hostOps1_47 (F := F)) kW_47 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_48 : List (Ref sig .tc) :=
  [ main_call24_v0, main_call24_v1, main_v300 ]
set_option maxHeartbeats 40000000 in
theorem kWA_48 : WritesAre (τ := τ) (hostOps1_48 (F := F)) kW_48 :=
  List.Forall₂.cons rfl (List.Forall₂.cons rfl (List.Forall₂.cons rfl (List.Forall₂.nil)))

abbrev kW_49 : List (Ref sig .tc) :=
  [ main_v301, main_c_105, main_v302, main_c_106, main_v303, main_v304, main_cst_107 ]
set_option maxHeartbeats 40000000 in
theorem kWA_49 : WritesAre (τ := τ) (hostOps1_49 (F := F)) kW_49 :=
  List.Forall₂.cons rfl (List.Forall₂.cons rfl (List.Forall₂.cons rfl (List.Forall₂.cons rfl (List.Forall₂.cons rfl (List.Forall₂.cons rfl (List.Forall₂.cons rfl (List.Forall₂.nil)))))))

abbrev kW_50 : List (Ref sig .tc) :=
  [ main_call25_v0, main_call25_v1, main_v305 ]
set_option maxHeartbeats 40000000 in
theorem kWA_50 : WritesAre (τ := τ) (hostOps1_50 (F := F)) kW_50 :=
  List.Forall₂.cons rfl (List.Forall₂.cons rfl (List.Forall₂.cons rfl (List.Forall₂.nil)))

abbrev kW_51 : List (Ref sig .tc) :=
  [ main_cst_108, main_v306, main_c_109, main_v307, main_v308, main_v309, main_v310, main_cst_110 ]
set_option maxHeartbeats 40000000 in
theorem kWA_51 : WritesAre (τ := τ) (hostOps1_51 (F := F)) kW_51 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_52 : List (Ref sig .tc) :=
  [ main_call26_v0, main_call26_v1, main_v311 ]
set_option maxHeartbeats 40000000 in
theorem kWA_52 : WritesAre (τ := τ) (hostOps1_52 (F := F)) kW_52 :=
  List.Forall₂.cons rfl (List.Forall₂.cons rfl (List.Forall₂.cons rfl (List.Forall₂.nil)))

abbrev kW_53 : List (Ref sig .tc) :=
  [ main_v312, main_v313, main_v314, main_v315, main_v316, main_v317, main_v318, main_cst_111, main_v319,
    main_cst_112, main_v320, main_v321, main_cst_113, main_v322, main_cst_114, main_v323, main_v324, main_cst_115 ]
set_option maxHeartbeats 40000000 in
theorem kWA_53 : WritesAre (τ := τ) (hostOps1_53 (F := F)) kW_53 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))

abbrev kW_54 : List (Ref sig .tc) :=
  [ main_call27_v0, main_v325 ]
set_option maxHeartbeats 40000000 in
theorem kWA_54 : WritesAre (τ := τ) (hostOps1_54 (F := F)) kW_54 :=
  List.Forall₂.cons rfl (List.Forall₂.cons rfl (List.Forall₂.nil))

abbrev kW_55 : List (Ref sig .tc) :=
  [ main_v326, main_c_116, main_v327, main_c_117, main_v328, main_v329, main_cst_118 ]
set_option maxHeartbeats 40000000 in
theorem kWA_55 : WritesAre (τ := τ) (hostOps1_55 (F := F)) kW_55 :=
  List.Forall₂.cons rfl (List.Forall₂.cons rfl (List.Forall₂.cons rfl (List.Forall₂.cons rfl (List.Forall₂.cons rfl (List.Forall₂.cons rfl (List.Forall₂.cons rfl (List.Forall₂.nil)))))))

abbrev kW_56 : List (Ref sig .tc) :=
  [ main_call28_v0, main_call28_v1, main_v330 ]
set_option maxHeartbeats 40000000 in
theorem kWA_56 : WritesAre (τ := τ) (hostOps1_56 (F := F)) kW_56 :=
  List.Forall₂.cons rfl (List.Forall₂.cons rfl (List.Forall₂.cons rfl (List.Forall₂.nil)))

abbrev kW_57 : List (Ref sig .tc) :=
  [ main_cst_119, main_v331, main_c_120, main_v332, main_v333, main_v334, main_v335, main_cst_121 ]
set_option maxHeartbeats 40000000 in
theorem kWA_57 : WritesAre (τ := τ) (hostOps1_57 (F := F)) kW_57 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_58 : List (Ref sig .tc) :=
  [ main_call29_v0, main_call29_v1, main_v336 ]
set_option maxHeartbeats 40000000 in
theorem kWA_58 : WritesAre (τ := τ) (hostOps1_58 (F := F)) kW_58 :=
  List.Forall₂.cons rfl (List.Forall₂.cons rfl (List.Forall₂.cons rfl (List.Forall₂.nil)))

abbrev kW_59 : List (Ref sig .tc) :=
  [ main_v337, main_c_122, main_v338, main_c_123, main_v339, main_v340, main_cst_124 ]
set_option maxHeartbeats 40000000 in
theorem kWA_59 : WritesAre (τ := τ) (hostOps1_59 (F := F)) kW_59 :=
  List.Forall₂.cons rfl (List.Forall₂.cons rfl (List.Forall₂.cons rfl (List.Forall₂.cons rfl (List.Forall₂.cons rfl (List.Forall₂.cons rfl (List.Forall₂.cons rfl (List.Forall₂.nil)))))))

abbrev kW_60 : List (Ref sig .tc) :=
  [ main_call30_v0, main_call30_v1, main_v341 ]
set_option maxHeartbeats 40000000 in
theorem kWA_60 : WritesAre (τ := τ) (hostOps1_60 (F := F)) kW_60 :=
  List.Forall₂.cons rfl (List.Forall₂.cons rfl (List.Forall₂.cons rfl (List.Forall₂.nil)))

abbrev kW_61 : List (Ref sig .tc) :=
  [ main_cst_125, main_v342, main_c_126, main_v343, main_v344, main_v345, main_v346, main_cst_127 ]
set_option maxHeartbeats 40000000 in
theorem kWA_61 : WritesAre (τ := τ) (hostOps1_61 (F := F)) kW_61 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_62 : List (Ref sig .tc) :=
  [ main_call31_v0, main_call31_v1, main_v347 ]
set_option maxHeartbeats 40000000 in
theorem kWA_62 : WritesAre (τ := τ) (hostOps1_62 (F := F)) kW_62 :=
  List.Forall₂.cons rfl (List.Forall₂.cons rfl (List.Forall₂.cons rfl (List.Forall₂.nil)))

abbrev kW_63 : List (Ref sig .tc) :=
  [ main_v348, main_v349, main_v350, main_v351, main_v352, main_v353, main_v354, main_cst_128, main_v355,
    main_cst_129, main_v356, main_v357, main_cst_130, main_v358, main_cst_131, main_v359, main_v360, main_cst_132 ]
set_option maxHeartbeats 40000000 in
theorem kWA_63 : WritesAre (τ := τ) (hostOps1_63 (F := F)) kW_63 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))

abbrev kW_64 : List (Ref sig .tc) :=
  [ main_call32_v0, main_v361 ]
set_option maxHeartbeats 40000000 in
theorem kWA_64 : WritesAre (τ := τ) (hostOps1_64 (F := F)) kW_64 :=
  List.Forall₂.cons rfl (List.Forall₂.cons rfl (List.Forall₂.nil))

abbrev kW_65 : List (Ref sig .tc) :=
  [ main_v362, main_c_133, main_v363, main_c_134, main_v364, main_v365, main_cst_135 ]
set_option maxHeartbeats 40000000 in
theorem kWA_65 : WritesAre (τ := τ) (hostOps1_65 (F := F)) kW_65 :=
  List.Forall₂.cons rfl (List.Forall₂.cons rfl (List.Forall₂.cons rfl (List.Forall₂.cons rfl (List.Forall₂.cons rfl (List.Forall₂.cons rfl (List.Forall₂.cons rfl (List.Forall₂.nil)))))))

abbrev kW_66 : List (Ref sig .tc) :=
  [ main_call33_v0, main_call33_v1, main_v366 ]
set_option maxHeartbeats 40000000 in
theorem kWA_66 : WritesAre (τ := τ) (hostOps1_66 (F := F)) kW_66 :=
  List.Forall₂.cons rfl (List.Forall₂.cons rfl (List.Forall₂.cons rfl (List.Forall₂.nil)))

abbrev kW_67 : List (Ref sig .tc) :=
  [ main_cst_136, main_v367, main_c_137, main_v368, main_v369, main_v370, main_v371, main_cst_138 ]
set_option maxHeartbeats 40000000 in
theorem kWA_67 : WritesAre (τ := τ) (hostOps1_67 (F := F)) kW_67 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_68 : List (Ref sig .tc) :=
  [ main_call34_v0, main_call34_v1, main_v372 ]
set_option maxHeartbeats 40000000 in
theorem kWA_68 : WritesAre (τ := τ) (hostOps1_68 (F := F)) kW_68 :=
  List.Forall₂.cons rfl (List.Forall₂.cons rfl (List.Forall₂.cons rfl (List.Forall₂.nil)))

abbrev kW_69 : List (Ref sig .tc) :=
  [ main_v373, main_c_139, main_v374, main_c_140, main_v375, main_v376, main_cst_141 ]
set_option maxHeartbeats 40000000 in
theorem kWA_69 : WritesAre (τ := τ) (hostOps1_69 (F := F)) kW_69 :=
  List.Forall₂.cons rfl (List.Forall₂.cons rfl (List.Forall₂.cons rfl (List.Forall₂.cons rfl (List.Forall₂.cons rfl (List.Forall₂.cons rfl (List.Forall₂.cons rfl (List.Forall₂.nil)))))))

abbrev kW_70 : List (Ref sig .tc) :=
  [ main_call35_v0, main_call35_v1, main_v377 ]
set_option maxHeartbeats 40000000 in
theorem kWA_70 : WritesAre (τ := τ) (hostOps1_70 (F := F)) kW_70 :=
  List.Forall₂.cons rfl (List.Forall₂.cons rfl (List.Forall₂.cons rfl (List.Forall₂.nil)))

abbrev kW_71 : List (Ref sig .tc) :=
  [ main_cst_142, main_v378, main_c_143, main_v379, main_v380, main_v381, main_v382, main_cst_144 ]
set_option maxHeartbeats 40000000 in
theorem kWA_71 : WritesAre (τ := τ) (hostOps1_71 (F := F)) kW_71 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))

abbrev kW_72 : List (Ref sig .tc) :=
  [ main_call36_v0, main_call36_v1, main_v383 ]
set_option maxHeartbeats 40000000 in
theorem kWA_72 : WritesAre (τ := τ) (hostOps1_72 (F := F)) kW_72 :=
  List.Forall₂.cons rfl (List.Forall₂.cons rfl (List.Forall₂.cons rfl (List.Forall₂.nil)))

abbrev kW_73 : List (Ref sig .tc) :=
  [ main_v384, main_v385, main_v386, main_v387, main_v388, main_v389, main_v390, main_cst_145, main_v391,
    main_cst_146, main_v392, main_v393, main_cst_147, main_v394, main_cst_148, main_v395, main_v396, main_cst_149 ]
set_option maxHeartbeats 40000000 in
theorem kWA_73 : WritesAre (τ := τ) (hostOps1_73 (F := F)) kW_73 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))

abbrev kW_74 : List (Ref sig .tc) :=
  [ main_call37_v0, main_v397 ]
set_option maxHeartbeats 40000000 in
theorem kWA_74 : WritesAre (τ := τ) (hostOps1_74 (F := F)) kW_74 :=
  List.Forall₂.cons rfl (List.Forall₂.cons rfl (List.Forall₂.nil))

abbrev kW_75 : List (Ref sig .tc) :=
  [ main_v398, main_v399, main_v400, main_v401, main_v402, main_v403, main_v404, main_v405, main_v406, main_v407,
    main_v408, main_v409, main_v410, main_v411, main_c_150, main_v412 ]
set_option maxHeartbeats 40000000 in
theorem kWA_75 : WritesAre (τ := τ) (hostOps1_75 (F := F)) kW_75 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))

/-- The buffer each operation writes, stretch by stretch. -/
abbrev kWs : List (List (Ref sig .tc)) :=
  [ kW_0, kW_1, kW_2, kW_3, kW_4, kW_5, kW_6, kW_7, kW_8, kW_9, kW_10, kW_11, kW_12, kW_13, kW_14, kW_15, kW_16,
    kW_17, kW_18, kW_19, kW_20, kW_21, kW_22, kW_23, kW_24, kW_25, kW_26, kW_27, kW_28, kW_29, kW_30, kW_31, kW_32,
    kW_33, kW_34, kW_35, kW_36, kW_37, kW_38, kW_39, kW_40, kW_41, kW_42, kW_43, kW_44, kW_45, kW_46, kW_47, kW_48,
    kW_49, kW_50, kW_51, kW_52, kW_53, kW_54, kW_55, kW_56, kW_57, kW_58, kW_59, kW_60, kW_61, kW_62, kW_63, kW_64,
    kW_65, kW_66, kW_67, kW_68, kW_69, kW_70, kW_71, kW_72, kW_73, kW_74, kW_75 ]

/-- The same as one list. -/
abbrev kW : List (Ref sig .tc) := kWs.flatten

theorem kLen_0 : (hostOps1 (F := F)).length = 23 := rfl
theorem kLen_1 : (hostOps1_1 (F := F)).length = 5 := rfl
theorem kLen_2 : (hostOps1_2 (F := F)).length = 5 := rfl
theorem kLen_3 : (hostOps1_3 (F := F)).length = 126 := rfl
theorem kLen_4 : (hostOps1_4 (F := F)).length = 3 := rfl
theorem kLen_5 : (hostOps1_5 (F := F)).length = 8 := rfl
theorem kLen_6 : (hostOps1_6 (F := F)).length = 3 := rfl
theorem kLen_7 : (hostOps1_7 (F := F)).length = 8 := rfl
theorem kLen_8 : (hostOps1_8 (F := F)).length = 3 := rfl
theorem kLen_9 : (hostOps1_9 (F := F)).length = 4 := rfl
theorem kLen_10 : (hostOps1_10 (F := F)).length = 3 := rfl
theorem kLen_11 : (hostOps1_11 (F := F)).length = 8 := rfl
theorem kLen_12 : (hostOps1_12 (F := F)).length = 3 := rfl
theorem kLen_13 : (hostOps1_13 (F := F)).length = 8 := rfl
theorem kLen_14 : (hostOps1_14 (F := F)).length = 3 := rfl
theorem kLen_15 : (hostOps1_15 (F := F)).length = 8 := rfl
theorem kLen_16 : (hostOps1_16 (F := F)).length = 3 := rfl
theorem kLen_17 : (hostOps1_17 (F := F)).length = 8 := rfl
theorem kLen_18 : (hostOps1_18 (F := F)).length = 3 := rfl
theorem kLen_19 : (hostOps1_19 (F := F)).length = 20 := rfl
theorem kLen_20 : (hostOps1_20 (F := F)).length = 2 := rfl
theorem kLen_21 : (hostOps1_21 (F := F)).length = 41 := rfl
theorem kLen_22 : (hostOps1_22 (F := F)).length = 3 := rfl
theorem kLen_23 : (hostOps1_23 (F := F)).length = 8 := rfl
theorem kLen_24 : (hostOps1_24 (F := F)).length = 3 := rfl
theorem kLen_25 : (hostOps1_25 (F := F)).length = 8 := rfl
theorem kLen_26 : (hostOps1_26 (F := F)).length = 3 := rfl
theorem kLen_27 : (hostOps1_27 (F := F)).length = 4 := rfl
theorem kLen_28 : (hostOps1_28 (F := F)).length = 3 := rfl
theorem kLen_29 : (hostOps1_29 (F := F)).length = 8 := rfl
theorem kLen_30 : (hostOps1_30 (F := F)).length = 3 := rfl
theorem kLen_31 : (hostOps1_31 (F := F)).length = 8 := rfl
theorem kLen_32 : (hostOps1_32 (F := F)).length = 3 := rfl
theorem kLen_33 : (hostOps1_33 (F := F)).length = 18 := rfl
theorem kLen_34 : (hostOps1_34 (F := F)).length = 2 := rfl
theorem kLen_35 : (hostOps1_35 (F := F)).length = 7 := rfl
theorem kLen_36 : (hostOps1_36 (F := F)).length = 3 := rfl
theorem kLen_37 : (hostOps1_37 (F := F)).length = 8 := rfl
theorem kLen_38 : (hostOps1_38 (F := F)).length = 3 := rfl
theorem kLen_39 : (hostOps1_39 (F := F)).length = 7 := rfl
theorem kLen_40 : (hostOps1_40 (F := F)).length = 3 := rfl
theorem kLen_41 : (hostOps1_41 (F := F)).length = 8 := rfl
theorem kLen_42 : (hostOps1_42 (F := F)).length = 3 := rfl
theorem kLen_43 : (hostOps1_43 (F := F)).length = 18 := rfl
theorem kLen_44 : (hostOps1_44 (F := F)).length = 2 := rfl
theorem kLen_45 : (hostOps1_45 (F := F)).length = 7 := rfl
theorem kLen_46 : (hostOps1_46 (F := F)).length = 3 := rfl
theorem kLen_47 : (hostOps1_47 (F := F)).length = 8 := rfl
theorem kLen_48 : (hostOps1_48 (F := F)).length = 3 := rfl
theorem kLen_49 : (hostOps1_49 (F := F)).length = 7 := rfl
theorem kLen_50 : (hostOps1_50 (F := F)).length = 3 := rfl
theorem kLen_51 : (hostOps1_51 (F := F)).length = 8 := rfl
theorem kLen_52 : (hostOps1_52 (F := F)).length = 3 := rfl
theorem kLen_53 : (hostOps1_53 (F := F)).length = 18 := rfl
theorem kLen_54 : (hostOps1_54 (F := F)).length = 2 := rfl
theorem kLen_55 : (hostOps1_55 (F := F)).length = 7 := rfl
theorem kLen_56 : (hostOps1_56 (F := F)).length = 3 := rfl
theorem kLen_57 : (hostOps1_57 (F := F)).length = 8 := rfl
theorem kLen_58 : (hostOps1_58 (F := F)).length = 3 := rfl
theorem kLen_59 : (hostOps1_59 (F := F)).length = 7 := rfl
theorem kLen_60 : (hostOps1_60 (F := F)).length = 3 := rfl
theorem kLen_61 : (hostOps1_61 (F := F)).length = 8 := rfl
theorem kLen_62 : (hostOps1_62 (F := F)).length = 3 := rfl
theorem kLen_63 : (hostOps1_63 (F := F)).length = 18 := rfl
theorem kLen_64 : (hostOps1_64 (F := F)).length = 2 := rfl
theorem kLen_65 : (hostOps1_65 (F := F)).length = 7 := rfl
theorem kLen_66 : (hostOps1_66 (F := F)).length = 3 := rfl
theorem kLen_67 : (hostOps1_67 (F := F)).length = 8 := rfl
theorem kLen_68 : (hostOps1_68 (F := F)).length = 3 := rfl
theorem kLen_69 : (hostOps1_69 (F := F)).length = 7 := rfl
theorem kLen_70 : (hostOps1_70 (F := F)).length = 3 := rfl
theorem kLen_71 : (hostOps1_71 (F := F)).length = 8 := rfl
theorem kLen_72 : (hostOps1_72 (F := F)).length = 3 := rfl
theorem kLen_73 : (hostOps1_73 (F := F)).length = 18 := rfl
theorem kLen_74 : (hostOps1_74 (F := F)).length = 2 := rfl
theorem kLen_75 : (hostOps1_75 (F := F)).length = 16 := rfl

/-- The stretches' lengths. -/
abbrev kLens : List Nat :=
  [ 23, 5, 5, 126, 3, 8, 3, 8, 3, 4, 3, 8, 3, 8, 3, 8, 3, 8, 3, 20, 2, 41, 3, 8, 3, 8, 3, 4, 3, 8, 3, 8, 3, 18, 2, 7,
    3, 8, 3, 7, 3, 8, 3, 18, 2, 7, 3, 8, 3, 7, 3, 8, 3, 18, 2, 7, 3, 8, 3, 7, 3, 8, 3, 18, 2, 7, 3, 8, 3, 7, 3, 8, 3,
    18, 2, 16 ]

theorem kLens_eq : (kOpss (F := F)).map List.length = kLens := by
  simp only [List.map_cons, List.map_nil, kLen_0, kLen_1, kLen_2, kLen_3, kLen_4, kLen_5, kLen_6, kLen_7, kLen_8, kLen_9, kLen_10, kLen_11, kLen_12, kLen_13, kLen_14, kLen_15, kLen_16, kLen_17, kLen_18, kLen_19, kLen_20, kLen_21, kLen_22, kLen_23, kLen_24, kLen_25, kLen_26, kLen_27, kLen_28, kLen_29, kLen_30, kLen_31, kLen_32, kLen_33, kLen_34, kLen_35, kLen_36, kLen_37, kLen_38, kLen_39, kLen_40, kLen_41, kLen_42, kLen_43, kLen_44, kLen_45, kLen_46, kLen_47, kLen_48, kLen_49, kLen_50, kLen_51, kLen_52, kLen_53, kLen_54, kLen_55, kLen_56, kLen_57, kLen_58, kLen_59, kLen_60, kLen_61, kLen_62, kLen_63, kLen_64, kLen_65, kLen_66, kLen_67, kLen_68, kLen_69, kLen_70, kLen_71, kLen_72, kLen_73, kLen_74, kLen_75]

theorem kAt_0 (i : Nat) (hi : i < 23) : (kOps (F := F))[0 + i]? = (hostOps1 (F := F))[i]? :=
  getElem?_flatten_lens (kOpss (F := F)) kLens kLens_eq 0 _ rfl 0 (by decide +kernel) 23 (by decide +kernel) i hi
theorem kAt_1 (i : Nat) (hi : i < 5) : (kOps (F := F))[23 + i]? = (hostOps1_1 (F := F))[i]? :=
  getElem?_flatten_lens (kOpss (F := F)) kLens kLens_eq 1 _ rfl 23 (by decide +kernel) 5 (by decide +kernel) i hi
theorem kAt_2 (i : Nat) (hi : i < 5) : (kOps (F := F))[28 + i]? = (hostOps1_2 (F := F))[i]? :=
  getElem?_flatten_lens (kOpss (F := F)) kLens kLens_eq 2 _ rfl 28 (by decide +kernel) 5 (by decide +kernel) i hi
theorem kAt_3 (i : Nat) (hi : i < 126) : (kOps (F := F))[33 + i]? = (hostOps1_3 (F := F))[i]? :=
  getElem?_flatten_lens (kOpss (F := F)) kLens kLens_eq 3 _ rfl 33 (by decide +kernel) 126 (by decide +kernel) i hi
theorem kAt_4 (i : Nat) (hi : i < 3) : (kOps (F := F))[159 + i]? = (hostOps1_4 (F := F))[i]? :=
  getElem?_flatten_lens (kOpss (F := F)) kLens kLens_eq 4 _ rfl 159 (by decide +kernel) 3 (by decide +kernel) i hi
theorem kAt_5 (i : Nat) (hi : i < 8) : (kOps (F := F))[162 + i]? = (hostOps1_5 (F := F))[i]? :=
  getElem?_flatten_lens (kOpss (F := F)) kLens kLens_eq 5 _ rfl 162 (by decide +kernel) 8 (by decide +kernel) i hi
theorem kAt_6 (i : Nat) (hi : i < 3) : (kOps (F := F))[170 + i]? = (hostOps1_6 (F := F))[i]? :=
  getElem?_flatten_lens (kOpss (F := F)) kLens kLens_eq 6 _ rfl 170 (by decide +kernel) 3 (by decide +kernel) i hi
theorem kAt_7 (i : Nat) (hi : i < 8) : (kOps (F := F))[173 + i]? = (hostOps1_7 (F := F))[i]? :=
  getElem?_flatten_lens (kOpss (F := F)) kLens kLens_eq 7 _ rfl 173 (by decide +kernel) 8 (by decide +kernel) i hi
theorem kAt_8 (i : Nat) (hi : i < 3) : (kOps (F := F))[181 + i]? = (hostOps1_8 (F := F))[i]? :=
  getElem?_flatten_lens (kOpss (F := F)) kLens kLens_eq 8 _ rfl 181 (by decide +kernel) 3 (by decide +kernel) i hi
theorem kAt_9 (i : Nat) (hi : i < 4) : (kOps (F := F))[184 + i]? = (hostOps1_9 (F := F))[i]? :=
  getElem?_flatten_lens (kOpss (F := F)) kLens kLens_eq 9 _ rfl 184 (by decide +kernel) 4 (by decide +kernel) i hi
theorem kAt_10 (i : Nat) (hi : i < 3) : (kOps (F := F))[188 + i]? = (hostOps1_10 (F := F))[i]? :=
  getElem?_flatten_lens (kOpss (F := F)) kLens kLens_eq 10 _ rfl 188 (by decide +kernel) 3 (by decide +kernel) i hi
theorem kAt_11 (i : Nat) (hi : i < 8) : (kOps (F := F))[191 + i]? = (hostOps1_11 (F := F))[i]? :=
  getElem?_flatten_lens (kOpss (F := F)) kLens kLens_eq 11 _ rfl 191 (by decide +kernel) 8 (by decide +kernel) i hi
theorem kAt_12 (i : Nat) (hi : i < 3) : (kOps (F := F))[199 + i]? = (hostOps1_12 (F := F))[i]? :=
  getElem?_flatten_lens (kOpss (F := F)) kLens kLens_eq 12 _ rfl 199 (by decide +kernel) 3 (by decide +kernel) i hi
theorem kAt_13 (i : Nat) (hi : i < 8) : (kOps (F := F))[202 + i]? = (hostOps1_13 (F := F))[i]? :=
  getElem?_flatten_lens (kOpss (F := F)) kLens kLens_eq 13 _ rfl 202 (by decide +kernel) 8 (by decide +kernel) i hi
theorem kAt_14 (i : Nat) (hi : i < 3) : (kOps (F := F))[210 + i]? = (hostOps1_14 (F := F))[i]? :=
  getElem?_flatten_lens (kOpss (F := F)) kLens kLens_eq 14 _ rfl 210 (by decide +kernel) 3 (by decide +kernel) i hi
theorem kAt_15 (i : Nat) (hi : i < 8) : (kOps (F := F))[213 + i]? = (hostOps1_15 (F := F))[i]? :=
  getElem?_flatten_lens (kOpss (F := F)) kLens kLens_eq 15 _ rfl 213 (by decide +kernel) 8 (by decide +kernel) i hi
theorem kAt_16 (i : Nat) (hi : i < 3) : (kOps (F := F))[221 + i]? = (hostOps1_16 (F := F))[i]? :=
  getElem?_flatten_lens (kOpss (F := F)) kLens kLens_eq 16 _ rfl 221 (by decide +kernel) 3 (by decide +kernel) i hi
theorem kAt_17 (i : Nat) (hi : i < 8) : (kOps (F := F))[224 + i]? = (hostOps1_17 (F := F))[i]? :=
  getElem?_flatten_lens (kOpss (F := F)) kLens kLens_eq 17 _ rfl 224 (by decide +kernel) 8 (by decide +kernel) i hi
theorem kAt_18 (i : Nat) (hi : i < 3) : (kOps (F := F))[232 + i]? = (hostOps1_18 (F := F))[i]? :=
  getElem?_flatten_lens (kOpss (F := F)) kLens kLens_eq 18 _ rfl 232 (by decide +kernel) 3 (by decide +kernel) i hi
theorem kAt_19 (i : Nat) (hi : i < 20) : (kOps (F := F))[235 + i]? = (hostOps1_19 (F := F))[i]? :=
  getElem?_flatten_lens (kOpss (F := F)) kLens kLens_eq 19 _ rfl 235 (by decide +kernel) 20 (by decide +kernel) i hi
theorem kAt_20 (i : Nat) (hi : i < 2) : (kOps (F := F))[255 + i]? = (hostOps1_20 (F := F))[i]? :=
  getElem?_flatten_lens (kOpss (F := F)) kLens kLens_eq 20 _ rfl 255 (by decide +kernel) 2 (by decide +kernel) i hi
theorem kAt_21 (i : Nat) (hi : i < 41) : (kOps (F := F))[257 + i]? = (hostOps1_21 (F := F))[i]? :=
  getElem?_flatten_lens (kOpss (F := F)) kLens kLens_eq 21 _ rfl 257 (by decide +kernel) 41 (by decide +kernel) i hi
theorem kAt_22 (i : Nat) (hi : i < 3) : (kOps (F := F))[298 + i]? = (hostOps1_22 (F := F))[i]? :=
  getElem?_flatten_lens (kOpss (F := F)) kLens kLens_eq 22 _ rfl 298 (by decide +kernel) 3 (by decide +kernel) i hi
theorem kAt_23 (i : Nat) (hi : i < 8) : (kOps (F := F))[301 + i]? = (hostOps1_23 (F := F))[i]? :=
  getElem?_flatten_lens (kOpss (F := F)) kLens kLens_eq 23 _ rfl 301 (by decide +kernel) 8 (by decide +kernel) i hi
theorem kAt_24 (i : Nat) (hi : i < 3) : (kOps (F := F))[309 + i]? = (hostOps1_24 (F := F))[i]? :=
  getElem?_flatten_lens (kOpss (F := F)) kLens kLens_eq 24 _ rfl 309 (by decide +kernel) 3 (by decide +kernel) i hi
theorem kAt_25 (i : Nat) (hi : i < 8) : (kOps (F := F))[312 + i]? = (hostOps1_25 (F := F))[i]? :=
  getElem?_flatten_lens (kOpss (F := F)) kLens kLens_eq 25 _ rfl 312 (by decide +kernel) 8 (by decide +kernel) i hi
theorem kAt_26 (i : Nat) (hi : i < 3) : (kOps (F := F))[320 + i]? = (hostOps1_26 (F := F))[i]? :=
  getElem?_flatten_lens (kOpss (F := F)) kLens kLens_eq 26 _ rfl 320 (by decide +kernel) 3 (by decide +kernel) i hi
theorem kAt_27 (i : Nat) (hi : i < 4) : (kOps (F := F))[323 + i]? = (hostOps1_27 (F := F))[i]? :=
  getElem?_flatten_lens (kOpss (F := F)) kLens kLens_eq 27 _ rfl 323 (by decide +kernel) 4 (by decide +kernel) i hi
theorem kAt_28 (i : Nat) (hi : i < 3) : (kOps (F := F))[327 + i]? = (hostOps1_28 (F := F))[i]? :=
  getElem?_flatten_lens (kOpss (F := F)) kLens kLens_eq 28 _ rfl 327 (by decide +kernel) 3 (by decide +kernel) i hi
theorem kAt_29 (i : Nat) (hi : i < 8) : (kOps (F := F))[330 + i]? = (hostOps1_29 (F := F))[i]? :=
  getElem?_flatten_lens (kOpss (F := F)) kLens kLens_eq 29 _ rfl 330 (by decide +kernel) 8 (by decide +kernel) i hi
theorem kAt_30 (i : Nat) (hi : i < 3) : (kOps (F := F))[338 + i]? = (hostOps1_30 (F := F))[i]? :=
  getElem?_flatten_lens (kOpss (F := F)) kLens kLens_eq 30 _ rfl 338 (by decide +kernel) 3 (by decide +kernel) i hi
theorem kAt_31 (i : Nat) (hi : i < 8) : (kOps (F := F))[341 + i]? = (hostOps1_31 (F := F))[i]? :=
  getElem?_flatten_lens (kOpss (F := F)) kLens kLens_eq 31 _ rfl 341 (by decide +kernel) 8 (by decide +kernel) i hi
theorem kAt_32 (i : Nat) (hi : i < 3) : (kOps (F := F))[349 + i]? = (hostOps1_32 (F := F))[i]? :=
  getElem?_flatten_lens (kOpss (F := F)) kLens kLens_eq 32 _ rfl 349 (by decide +kernel) 3 (by decide +kernel) i hi
theorem kAt_33 (i : Nat) (hi : i < 18) : (kOps (F := F))[352 + i]? = (hostOps1_33 (F := F))[i]? :=
  getElem?_flatten_lens (kOpss (F := F)) kLens kLens_eq 33 _ rfl 352 (by decide +kernel) 18 (by decide +kernel) i hi
theorem kAt_34 (i : Nat) (hi : i < 2) : (kOps (F := F))[370 + i]? = (hostOps1_34 (F := F))[i]? :=
  getElem?_flatten_lens (kOpss (F := F)) kLens kLens_eq 34 _ rfl 370 (by decide +kernel) 2 (by decide +kernel) i hi
theorem kAt_35 (i : Nat) (hi : i < 7) : (kOps (F := F))[372 + i]? = (hostOps1_35 (F := F))[i]? :=
  getElem?_flatten_lens (kOpss (F := F)) kLens kLens_eq 35 _ rfl 372 (by decide +kernel) 7 (by decide +kernel) i hi
theorem kAt_36 (i : Nat) (hi : i < 3) : (kOps (F := F))[379 + i]? = (hostOps1_36 (F := F))[i]? :=
  getElem?_flatten_lens (kOpss (F := F)) kLens kLens_eq 36 _ rfl 379 (by decide +kernel) 3 (by decide +kernel) i hi
theorem kAt_37 (i : Nat) (hi : i < 8) : (kOps (F := F))[382 + i]? = (hostOps1_37 (F := F))[i]? :=
  getElem?_flatten_lens (kOpss (F := F)) kLens kLens_eq 37 _ rfl 382 (by decide +kernel) 8 (by decide +kernel) i hi
theorem kAt_38 (i : Nat) (hi : i < 3) : (kOps (F := F))[390 + i]? = (hostOps1_38 (F := F))[i]? :=
  getElem?_flatten_lens (kOpss (F := F)) kLens kLens_eq 38 _ rfl 390 (by decide +kernel) 3 (by decide +kernel) i hi
theorem kAt_39 (i : Nat) (hi : i < 7) : (kOps (F := F))[393 + i]? = (hostOps1_39 (F := F))[i]? :=
  getElem?_flatten_lens (kOpss (F := F)) kLens kLens_eq 39 _ rfl 393 (by decide +kernel) 7 (by decide +kernel) i hi
theorem kAt_40 (i : Nat) (hi : i < 3) : (kOps (F := F))[400 + i]? = (hostOps1_40 (F := F))[i]? :=
  getElem?_flatten_lens (kOpss (F := F)) kLens kLens_eq 40 _ rfl 400 (by decide +kernel) 3 (by decide +kernel) i hi
theorem kAt_41 (i : Nat) (hi : i < 8) : (kOps (F := F))[403 + i]? = (hostOps1_41 (F := F))[i]? :=
  getElem?_flatten_lens (kOpss (F := F)) kLens kLens_eq 41 _ rfl 403 (by decide +kernel) 8 (by decide +kernel) i hi
theorem kAt_42 (i : Nat) (hi : i < 3) : (kOps (F := F))[411 + i]? = (hostOps1_42 (F := F))[i]? :=
  getElem?_flatten_lens (kOpss (F := F)) kLens kLens_eq 42 _ rfl 411 (by decide +kernel) 3 (by decide +kernel) i hi
theorem kAt_43 (i : Nat) (hi : i < 18) : (kOps (F := F))[414 + i]? = (hostOps1_43 (F := F))[i]? :=
  getElem?_flatten_lens (kOpss (F := F)) kLens kLens_eq 43 _ rfl 414 (by decide +kernel) 18 (by decide +kernel) i hi
theorem kAt_44 (i : Nat) (hi : i < 2) : (kOps (F := F))[432 + i]? = (hostOps1_44 (F := F))[i]? :=
  getElem?_flatten_lens (kOpss (F := F)) kLens kLens_eq 44 _ rfl 432 (by decide +kernel) 2 (by decide +kernel) i hi
theorem kAt_45 (i : Nat) (hi : i < 7) : (kOps (F := F))[434 + i]? = (hostOps1_45 (F := F))[i]? :=
  getElem?_flatten_lens (kOpss (F := F)) kLens kLens_eq 45 _ rfl 434 (by decide +kernel) 7 (by decide +kernel) i hi
theorem kAt_46 (i : Nat) (hi : i < 3) : (kOps (F := F))[441 + i]? = (hostOps1_46 (F := F))[i]? :=
  getElem?_flatten_lens (kOpss (F := F)) kLens kLens_eq 46 _ rfl 441 (by decide +kernel) 3 (by decide +kernel) i hi
theorem kAt_47 (i : Nat) (hi : i < 8) : (kOps (F := F))[444 + i]? = (hostOps1_47 (F := F))[i]? :=
  getElem?_flatten_lens (kOpss (F := F)) kLens kLens_eq 47 _ rfl 444 (by decide +kernel) 8 (by decide +kernel) i hi
theorem kAt_48 (i : Nat) (hi : i < 3) : (kOps (F := F))[452 + i]? = (hostOps1_48 (F := F))[i]? :=
  getElem?_flatten_lens (kOpss (F := F)) kLens kLens_eq 48 _ rfl 452 (by decide +kernel) 3 (by decide +kernel) i hi
theorem kAt_49 (i : Nat) (hi : i < 7) : (kOps (F := F))[455 + i]? = (hostOps1_49 (F := F))[i]? :=
  getElem?_flatten_lens (kOpss (F := F)) kLens kLens_eq 49 _ rfl 455 (by decide +kernel) 7 (by decide +kernel) i hi
theorem kAt_50 (i : Nat) (hi : i < 3) : (kOps (F := F))[462 + i]? = (hostOps1_50 (F := F))[i]? :=
  getElem?_flatten_lens (kOpss (F := F)) kLens kLens_eq 50 _ rfl 462 (by decide +kernel) 3 (by decide +kernel) i hi
theorem kAt_51 (i : Nat) (hi : i < 8) : (kOps (F := F))[465 + i]? = (hostOps1_51 (F := F))[i]? :=
  getElem?_flatten_lens (kOpss (F := F)) kLens kLens_eq 51 _ rfl 465 (by decide +kernel) 8 (by decide +kernel) i hi
theorem kAt_52 (i : Nat) (hi : i < 3) : (kOps (F := F))[473 + i]? = (hostOps1_52 (F := F))[i]? :=
  getElem?_flatten_lens (kOpss (F := F)) kLens kLens_eq 52 _ rfl 473 (by decide +kernel) 3 (by decide +kernel) i hi
theorem kAt_53 (i : Nat) (hi : i < 18) : (kOps (F := F))[476 + i]? = (hostOps1_53 (F := F))[i]? :=
  getElem?_flatten_lens (kOpss (F := F)) kLens kLens_eq 53 _ rfl 476 (by decide +kernel) 18 (by decide +kernel) i hi
theorem kAt_54 (i : Nat) (hi : i < 2) : (kOps (F := F))[494 + i]? = (hostOps1_54 (F := F))[i]? :=
  getElem?_flatten_lens (kOpss (F := F)) kLens kLens_eq 54 _ rfl 494 (by decide +kernel) 2 (by decide +kernel) i hi
theorem kAt_55 (i : Nat) (hi : i < 7) : (kOps (F := F))[496 + i]? = (hostOps1_55 (F := F))[i]? :=
  getElem?_flatten_lens (kOpss (F := F)) kLens kLens_eq 55 _ rfl 496 (by decide +kernel) 7 (by decide +kernel) i hi
theorem kAt_56 (i : Nat) (hi : i < 3) : (kOps (F := F))[503 + i]? = (hostOps1_56 (F := F))[i]? :=
  getElem?_flatten_lens (kOpss (F := F)) kLens kLens_eq 56 _ rfl 503 (by decide +kernel) 3 (by decide +kernel) i hi
theorem kAt_57 (i : Nat) (hi : i < 8) : (kOps (F := F))[506 + i]? = (hostOps1_57 (F := F))[i]? :=
  getElem?_flatten_lens (kOpss (F := F)) kLens kLens_eq 57 _ rfl 506 (by decide +kernel) 8 (by decide +kernel) i hi
theorem kAt_58 (i : Nat) (hi : i < 3) : (kOps (F := F))[514 + i]? = (hostOps1_58 (F := F))[i]? :=
  getElem?_flatten_lens (kOpss (F := F)) kLens kLens_eq 58 _ rfl 514 (by decide +kernel) 3 (by decide +kernel) i hi
theorem kAt_59 (i : Nat) (hi : i < 7) : (kOps (F := F))[517 + i]? = (hostOps1_59 (F := F))[i]? :=
  getElem?_flatten_lens (kOpss (F := F)) kLens kLens_eq 59 _ rfl 517 (by decide +kernel) 7 (by decide +kernel) i hi
theorem kAt_60 (i : Nat) (hi : i < 3) : (kOps (F := F))[524 + i]? = (hostOps1_60 (F := F))[i]? :=
  getElem?_flatten_lens (kOpss (F := F)) kLens kLens_eq 60 _ rfl 524 (by decide +kernel) 3 (by decide +kernel) i hi
theorem kAt_61 (i : Nat) (hi : i < 8) : (kOps (F := F))[527 + i]? = (hostOps1_61 (F := F))[i]? :=
  getElem?_flatten_lens (kOpss (F := F)) kLens kLens_eq 61 _ rfl 527 (by decide +kernel) 8 (by decide +kernel) i hi
theorem kAt_62 (i : Nat) (hi : i < 3) : (kOps (F := F))[535 + i]? = (hostOps1_62 (F := F))[i]? :=
  getElem?_flatten_lens (kOpss (F := F)) kLens kLens_eq 62 _ rfl 535 (by decide +kernel) 3 (by decide +kernel) i hi
theorem kAt_63 (i : Nat) (hi : i < 18) : (kOps (F := F))[538 + i]? = (hostOps1_63 (F := F))[i]? :=
  getElem?_flatten_lens (kOpss (F := F)) kLens kLens_eq 63 _ rfl 538 (by decide +kernel) 18 (by decide +kernel) i hi
theorem kAt_64 (i : Nat) (hi : i < 2) : (kOps (F := F))[556 + i]? = (hostOps1_64 (F := F))[i]? :=
  getElem?_flatten_lens (kOpss (F := F)) kLens kLens_eq 64 _ rfl 556 (by decide +kernel) 2 (by decide +kernel) i hi
theorem kAt_65 (i : Nat) (hi : i < 7) : (kOps (F := F))[558 + i]? = (hostOps1_65 (F := F))[i]? :=
  getElem?_flatten_lens (kOpss (F := F)) kLens kLens_eq 65 _ rfl 558 (by decide +kernel) 7 (by decide +kernel) i hi
theorem kAt_66 (i : Nat) (hi : i < 3) : (kOps (F := F))[565 + i]? = (hostOps1_66 (F := F))[i]? :=
  getElem?_flatten_lens (kOpss (F := F)) kLens kLens_eq 66 _ rfl 565 (by decide +kernel) 3 (by decide +kernel) i hi
theorem kAt_67 (i : Nat) (hi : i < 8) : (kOps (F := F))[568 + i]? = (hostOps1_67 (F := F))[i]? :=
  getElem?_flatten_lens (kOpss (F := F)) kLens kLens_eq 67 _ rfl 568 (by decide +kernel) 8 (by decide +kernel) i hi
theorem kAt_68 (i : Nat) (hi : i < 3) : (kOps (F := F))[576 + i]? = (hostOps1_68 (F := F))[i]? :=
  getElem?_flatten_lens (kOpss (F := F)) kLens kLens_eq 68 _ rfl 576 (by decide +kernel) 3 (by decide +kernel) i hi
theorem kAt_69 (i : Nat) (hi : i < 7) : (kOps (F := F))[579 + i]? = (hostOps1_69 (F := F))[i]? :=
  getElem?_flatten_lens (kOpss (F := F)) kLens kLens_eq 69 _ rfl 579 (by decide +kernel) 7 (by decide +kernel) i hi
theorem kAt_70 (i : Nat) (hi : i < 3) : (kOps (F := F))[586 + i]? = (hostOps1_70 (F := F))[i]? :=
  getElem?_flatten_lens (kOpss (F := F)) kLens kLens_eq 70 _ rfl 586 (by decide +kernel) 3 (by decide +kernel) i hi
theorem kAt_71 (i : Nat) (hi : i < 8) : (kOps (F := F))[589 + i]? = (hostOps1_71 (F := F))[i]? :=
  getElem?_flatten_lens (kOpss (F := F)) kLens kLens_eq 71 _ rfl 589 (by decide +kernel) 8 (by decide +kernel) i hi
theorem kAt_72 (i : Nat) (hi : i < 3) : (kOps (F := F))[597 + i]? = (hostOps1_72 (F := F))[i]? :=
  getElem?_flatten_lens (kOpss (F := F)) kLens kLens_eq 72 _ rfl 597 (by decide +kernel) 3 (by decide +kernel) i hi
theorem kAt_73 (i : Nat) (hi : i < 18) : (kOps (F := F))[600 + i]? = (hostOps1_73 (F := F))[i]? :=
  getElem?_flatten_lens (kOpss (F := F)) kLens kLens_eq 73 _ rfl 600 (by decide +kernel) 18 (by decide +kernel) i hi
theorem kAt_74 (i : Nat) (hi : i < 2) : (kOps (F := F))[618 + i]? = (hostOps1_74 (F := F))[i]? :=
  getElem?_flatten_lens (kOpss (F := F)) kLens kLens_eq 74 _ rfl 618 (by decide +kernel) 2 (by decide +kernel) i hi
theorem kAt_75 (i : Nat) (hi : i < 16) : (kOps (F := F))[620 + i]? = (hostOps1_75 (F := F))[i]? :=
  getElem?_flatten_lens (kOpss (F := F)) kLens kLens_eq 75 _ rfl 620 (by decide +kernel) 16 (by decide +kernel) i hi

theorem kWA : WritesAre (τ := τ) (kOps (F := F)) kW :=
  WritesAre.flatten (List.Forall₂.cons kWA_0 (List.Forall₂.cons kWA_1 (List.Forall₂.cons kWA_2 (List.Forall₂.cons kWA_3 (List.Forall₂.cons kWA_4 (List.Forall₂.cons kWA_5 (List.Forall₂.cons kWA_6 (List.Forall₂.cons kWA_7 (List.Forall₂.cons kWA_8 (List.Forall₂.cons kWA_9 (List.Forall₂.cons kWA_10 (List.Forall₂.cons kWA_11 (List.Forall₂.cons kWA_12 (List.Forall₂.cons kWA_13 (List.Forall₂.cons kWA_14 (List.Forall₂.cons kWA_15 (List.Forall₂.cons kWA_16 (List.Forall₂.cons kWA_17 (List.Forall₂.cons kWA_18 (List.Forall₂.cons kWA_19 (List.Forall₂.cons kWA_20 (List.Forall₂.cons kWA_21 (List.Forall₂.cons kWA_22 (List.Forall₂.cons kWA_23 (List.Forall₂.cons kWA_24 (List.Forall₂.cons kWA_25 (List.Forall₂.cons kWA_26 (List.Forall₂.cons kWA_27 (List.Forall₂.cons kWA_28 (List.Forall₂.cons kWA_29 (List.Forall₂.cons kWA_30 (List.Forall₂.cons kWA_31 (List.Forall₂.cons kWA_32 (List.Forall₂.cons kWA_33 (List.Forall₂.cons kWA_34 (List.Forall₂.cons kWA_35 (List.Forall₂.cons kWA_36 (List.Forall₂.cons kWA_37 (List.Forall₂.cons kWA_38 (List.Forall₂.cons kWA_39 (List.Forall₂.cons kWA_40 (List.Forall₂.cons kWA_41 (List.Forall₂.cons kWA_42 (List.Forall₂.cons kWA_43 (List.Forall₂.cons kWA_44 (List.Forall₂.cons kWA_45 (List.Forall₂.cons kWA_46 (List.Forall₂.cons kWA_47 (List.Forall₂.cons kWA_48 (List.Forall₂.cons kWA_49 (List.Forall₂.cons kWA_50 (List.Forall₂.cons kWA_51 (List.Forall₂.cons kWA_52 (List.Forall₂.cons kWA_53 (List.Forall₂.cons kWA_54 (List.Forall₂.cons kWA_55 (List.Forall₂.cons kWA_56 (List.Forall₂.cons kWA_57 (List.Forall₂.cons kWA_58 (List.Forall₂.cons kWA_59 (List.Forall₂.cons kWA_60 (List.Forall₂.cons kWA_61 (List.Forall₂.cons kWA_62 (List.Forall₂.cons kWA_63 (List.Forall₂.cons kWA_64 (List.Forall₂.cons kWA_65 (List.Forall₂.cons kWA_66 (List.Forall₂.cons kWA_67 (List.Forall₂.cons kWA_68 (List.Forall₂.cons kWA_69 (List.Forall₂.cons kWA_70 (List.Forall₂.cons kWA_71 (List.Forall₂.cons kWA_72 (List.Forall₂.cons kWA_73 (List.Forall₂.cons kWA_74 (List.Forall₂.cons kWA_75 (List.Forall₂.nil)))))))))))))))))))))))))))))))))))))))))))))))))))))))))))))))))))))))))))))

/-- Their numbers: 15, 16, …. -/
theorem kNums : kW.map num = List.range' 15 636 := by decide +kernel

theorem kND : kW.Nodup := nodup_of_nums kNums

theorem kin_main_v3_0 : main_v3_0 ∉ kW := not_mem_of_num_lt kNums (by decide)
theorem kin_main_v3_1 : main_v3_1 ∉ kW := not_mem_of_num_lt kNums (by decide)
theorem kin_main_v3_2 : main_v3_2 ∉ kW := not_mem_of_num_lt kNums (by decide)
theorem kin_main_arg3 : main_arg3 ∉ kW := not_mem_of_num_lt kNums (by decide)
theorem kin_main_arg4 : main_arg4 ∉ kW := not_mem_of_num_lt kNums (by decide)
theorem kin_main_arg5 : main_arg5 ∉ kW := not_mem_of_num_lt kNums (by decide)
theorem kin_main_arg6 : main_arg6 ∉ kW := not_mem_of_num_lt kNums (by decide)
theorem kin_main_arg7 : main_arg7 ∉ kW := not_mem_of_num_lt kNums (by decide)
theorem kin_main_arg8 : main_arg8 ∉ kW := not_mem_of_num_lt kNums (by decide)
theorem kin_main_arg0 : main_arg0 ∉ kW := not_mem_of_num_lt kNums (by decide)
theorem kin_main_arg1 : main_arg1 ∉ kW := not_mem_of_num_lt kNums (by decide)
theorem kin_main_arg2 : main_arg2 ∉ kW := not_mem_of_num_lt kNums (by decide)
theorem kin_main_v0 : main_v0 ∉ kW := not_mem_of_num_lt kNums (by decide)
theorem kin_main_v1 : main_v1 ∉ kW := not_mem_of_num_lt kNums (by decide)
theorem kin_main_v2 : main_v2 ∉ kW := not_mem_of_num_lt kNums (by decide)

end Cert.KernelIdeal.Tab

end
-- ==== Proof.RefHead.lean ====
/-
  The reference's three frame energies, read off its own line.

  Its first seven operations re-read the first signal frame by frame, square it, sum each frame's squares
  from zero, and divide by 160: the result buffer holds `frameEnergy` of the first argument. The next
  seven do the same for the second signal and the seven after those for the third. Each buffer is written
  once, so its contents after the whole program are its operation's value of its operands' contents.
-/
import proofs.«169849_j71803263254994_1_alg».proof.Proof.RefTab
import proofs.«169849_j71803263254994_1_alg».proof.Proof.Energy

noncomputable section

namespace Cert.ReferenceIdeal.Hand

open Idealize.ShloMosaic Idealize.SL.Sem Idealize.ShloMosaic.StableHlo Idealize.ShloMosaic.StableHlo.Line
open Cert.ReferenceIdeal Cert.ReferenceIdeal.Gen

variable {F : FTy → Type} [FloatOps F]

/-- The estimate's frame energies. -/
theorem head_estimate (XR : Valuation τ sig (Elt F)) :
    after (rOps (F := F)) XR (Proc.devRef .tc main_v4) = frameEnergy (XR (Proc.devRef .tc main_arg0)) := by
  rw [at_binary rWA rND 6 rfl rfl (not_mem_drop_of_lt rND (j := 3) rfl (by decide)) (not_mem_drop_of_lt rND (j := 5) rfl (by decide)) XR,
    at_binary rWA rND 3 rfl rfl (not_mem_drop_of_lt rND (j := 1) rfl (by decide)) (not_mem_drop_of_lt rND (j := 2) rfl (by decide)) XR,
    at_binary rWA rND 1 rfl rfl (not_mem_drop_of_lt rND (j := 0) rfl (by decide)) (not_mem_drop_of_lt rND (j := 0) rfl (by decide)) XR,
    at_reshape rWA rND 0 rfl rfl (not_mem_drop_of_not_mem rin_main_arg0 0) XR,
    at_nullary rWA rND 2 rfl rfl XR,
    at_unary rWA rND 5 rfl rfl (not_mem_drop_of_lt rND (j := 4) rfl (by decide)) XR,
    at_nullary rWA rND 4 rfl rfl XR]
  rfl

/-- The target's. -/
theorem head_target (XR : Valuation τ sig (Elt F)) :
    after (rOps (F := F)) XR (Proc.devRef .tc main_v9) = frameEnergy (XR (Proc.devRef .tc main_arg1)) := by
  rw [at_binary rWA rND 13 rfl rfl (not_mem_drop_of_lt rND (j := 10) rfl (by decide)) (not_mem_drop_of_lt rND (j := 12) rfl (by decide)) XR,
    at_binary rWA rND 10 rfl rfl (not_mem_drop_of_lt rND (j := 8) rfl (by decide)) (not_mem_drop_of_lt rND (j := 9) rfl (by decide)) XR,
    at_binary rWA rND 8 rfl rfl (not_mem_drop_of_lt rND (j := 7) rfl (by decide)) (not_mem_drop_of_lt rND (j := 7) rfl (by decide)) XR,
    at_reshape rWA rND 7 rfl rfl (not_mem_drop_of_not_mem rin_main_arg1 7) XR,
    at_nullary rWA rND 9 rfl rfl XR,
    at_unary rWA rND 12 rfl rfl (not_mem_drop_of_lt rND (j := 11) rfl (by decide)) XR,
    at_nullary rWA rND 11 rfl rfl XR]
  rfl

/-- The mixture's. -/
theorem head_mixture (XR : Valuation τ sig (Elt F)) :
    after (rOps (F := F)) XR (Proc.devRef .tc main_v14) = frameEnergy (XR (Proc.devRef .tc main_arg2)) := by
  rw [at_binary rWA rND 20 rfl rfl (not_mem_drop_of_lt rND (j := 17) rfl (by decide)) (not_mem_drop_of_lt rND (j := 19) rfl (by decide)) XR,
    at_binary rWA rND 17 rfl rfl (not_mem_drop_of_lt rND (j := 15) rfl (by decide)) (not_mem_drop_of_lt rND (j := 16) rfl (by decide)) XR,
    at_binary rWA rND 15 rfl rfl (not_mem_drop_of_lt rND (j := 14) rfl (by decide)) (not_mem_drop_of_lt rND (j := 14) rfl (by decide)) XR,
    at_reshape rWA rND 14 rfl rfl (not_mem_drop_of_not_mem rin_main_arg2 14) XR,
    at_nullary rWA rND 16 rfl rfl XR,
    at_unary rWA rND 19 rfl rfl (not_mem_drop_of_lt rND (j := 18) rfl (by decide)) XR,
    at_nullary rWA rND 18 rfl rfl XR]
  rfl

end Cert.ReferenceIdeal.Hand

end
-- ==== Proof.PairsEntry.lean ====
/-
  What the two lines start from: the contents, after each whole line, of the nine buffers the shared
  operations read without writing — the three frame energies and the six mask and index arguments —
  agree between the two programs.
-/
import proofs.«169849_j71803263254994_1_alg».proof.Proof.KTab
import proofs.«169849_j71803263254994_1_alg».proof.Proof.RefTab

noncomputable section

namespace Cert.Bridge

open Idealize.ShloMosaic Idealize.SL.Sem Idealize.ShloMosaic.StableHlo Idealize.ShloMosaic.StableHlo.Line
open Cert.KernelIdeal.Tab Cert.ReferenceIdeal.Hand

variable {F : FTy → Type} [FloatOps F]

/-- Concatenating equal lists of pieces gives equal results. -/
theorem concatenate_congr {α : Type} {t : Shape} {a : Fin t.rank} {xs ys : List ((s : Shape) × (s.Idx → α))} (e : xs = ys)
    (h : Shape.Concatenates (xs.map (·.1)) t a) (h' : Shape.Concatenates (ys.map (·.1)) t a) :
    concatenate t a xs h = concatenate t a ys h' := by
  subst e; rfl

/-- The two lines' starting contents agree on what the shared operations read. -/
structure Entry (XK : Valuation Cert.KernelIdeal.τ Cert.KernelIdeal.sig (Elt F)) (XR : Valuation Cert.ReferenceIdeal.τ Cert.ReferenceIdeal.sig (Elt F)) : Prop where
  main_v3_0 : after kOps XK (Proc.devRef .tc Cert.KernelIdeal.main_v3_0) = after rOpsF XR (Proc.devRef .tc Cert.ReferenceIdeal.main_v4)
  main_v3_1 : after kOps XK (Proc.devRef .tc Cert.KernelIdeal.main_v3_1) = after rOpsF XR (Proc.devRef .tc Cert.ReferenceIdeal.main_v9)
  main_v3_2 : after kOps XK (Proc.devRef .tc Cert.KernelIdeal.main_v3_2) = after rOpsF XR (Proc.devRef .tc Cert.ReferenceIdeal.main_v14)
  main_arg3 : after kOps XK (Proc.devRef .tc Cert.KernelIdeal.main_arg3) = after rOpsF XR (Proc.devRef .tc Cert.ReferenceIdeal.main_arg3)
  main_arg4 : after kOps XK (Proc.devRef .tc Cert.KernelIdeal.main_arg4) = after rOpsF XR (Proc.devRef .tc Cert.ReferenceIdeal.main_arg4)
  main_arg5 : after kOps XK (Proc.devRef .tc Cert.KernelIdeal.main_arg5) = after rOpsF XR (Proc.devRef .tc Cert.ReferenceIdeal.main_arg5)
  main_arg6 : after kOps XK (Proc.devRef .tc Cert.KernelIdeal.main_arg6) = after rOpsF XR (Proc.devRef .tc Cert.ReferenceIdeal.main_arg6)
  main_arg7 : after kOps XK (Proc.devRef .tc Cert.KernelIdeal.main_arg7) = after rOpsF XR (Proc.devRef .tc Cert.ReferenceIdeal.main_arg7)
  main_arg8 : after kOps XK (Proc.devRef .tc Cert.KernelIdeal.main_arg8) = after rOpsF XR (Proc.devRef .tc Cert.ReferenceIdeal.main_arg8)

end Cert.Bridge

end
-- ==== Proof.Pairs00.lean ====
/-
  Operations 0 … 105 of the shared line: each pair of corresponding results agrees, because the two
  operations are one function and their operands agree (earlier equations, or the starting agreement).
-/
import proofs.«169849_j71803263254994_1_alg».proof.Proof.PairsEntry

set_option maxRecDepth 16384
set_option maxHeartbeats 2000000

noncomputable section

namespace Cert.Bridge

open Idealize.ShloMosaic Idealize.SL.Sem Idealize.ShloMosaic.StableHlo Idealize.ShloMosaic.StableHlo.Line
open Cert.KernelIdeal.Tab Cert.ReferenceIdeal.Hand

variable {F : FTy → Type} [FloatOps F]

theorem e0 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v4) = after rOpsF XR (Proc.devRef .tc Cert.ReferenceIdeal.main_v15) := by
  refine (at_nullary kWA kND 0 (y := Cert.KernelIdeal.main_v4) ((kAt_0 0 (by decide)).trans rfl) (by decide +kernel) XK).trans
    (Eq.trans ?_ (at_nullary rWAF rNDF 21 (y := Cert.ReferenceIdeal.main_v15) ((rAt_0 21 (by decide)).trans rfl) (by decide +kernel) XR).symm)
  rfl

theorem e1 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v5) = after rOpsF XR (Proc.devRef .tc Cert.ReferenceIdeal.main_v16) := by
  refine (at_unary kWA kND 1 (y := Cert.KernelIdeal.main_v5) ((kAt_0 1 (by decide)).trans rfl) (by decide +kernel) (not_mem_drop_of_lt kND (j := 0) (by decide +kernel) (by decide)) XK).trans
    (Eq.trans ?_ (at_unary rWAF rNDF 22 (y := Cert.ReferenceIdeal.main_v16) ((rAt_0 22 (by decide)).trans rfl) (by decide +kernel) (not_mem_drop_of_lt rNDF (j := 21) (by decide +kernel) (by decide)) XR).symm)
  rw [e0 H]
  all_goals rfl

theorem e2 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v6) = after rOpsF XR (Proc.devRef .tc Cert.ReferenceIdeal.main_v17) := by
  refine (at_unary kWA kND 2 (y := Cert.KernelIdeal.main_v6) ((kAt_0 2 (by decide)).trans rfl) (by decide +kernel) (not_mem_drop_of_not_mem kin_main_arg7 2) XK).trans
    (Eq.trans ?_ (at_unary rWAF rNDF 23 (y := Cert.ReferenceIdeal.main_v17) ((rAt_0 23 (by decide)).trans rfl) (by decide +kernel) (not_mem_drop_of_not_mem rinF_main_arg7 23) XR).symm)
  rw [H.main_arg7]
  all_goals rfl

theorem e3 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v7) = after rOpsF XR (Proc.devRef .tc Cert.ReferenceIdeal.main_v18) := by
  refine (at_unary kWA kND 3 (y := Cert.KernelIdeal.main_v7) ((kAt_0 3 (by decide)).trans rfl) (by decide +kernel) (not_mem_drop_of_lt kND (j := 1) (by decide +kernel) (by decide)) XK).trans
    (Eq.trans ?_ (at_unary rWAF rNDF 24 (y := Cert.ReferenceIdeal.main_v18) ((rAt_0 24 (by decide)).trans rfl) (by decide +kernel) (not_mem_drop_of_lt rNDF (j := 22) (by decide +kernel) (by decide)) XR).symm)
  rw [e1 H]
  all_goals rfl

theorem e4 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v8) = after rOpsF XR (Proc.devRef .tc Cert.ReferenceIdeal.main_v19) := by
  refine (at_unary kWA kND 4 (y := Cert.KernelIdeal.main_v8) ((kAt_0 4 (by decide)).trans rfl) (by decide +kernel) (not_mem_drop_of_lt kND (j := 2) (by decide +kernel) (by decide)) XK).trans
    (Eq.trans ?_ (at_unary rWAF rNDF 25 (y := Cert.ReferenceIdeal.main_v19) ((rAt_0 25 (by decide)).trans rfl) (by decide +kernel) (not_mem_drop_of_lt rNDF (j := 23) (by decide +kernel) (by decide)) XR).symm)
  rw [e2 H]
  all_goals rfl

theorem e5 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v9) = after rOpsF XR (Proc.devRef .tc Cert.ReferenceIdeal.main_v20) := by
  refine (at_binary kWA kND 5 (y := Cert.KernelIdeal.main_v9) ((kAt_0 5 (by decide)).trans rfl) (by decide +kernel) (not_mem_drop_of_lt kND (j := 3) (by decide +kernel) (by decide)) (not_mem_drop_of_lt kND (j := 4) (by decide +kernel) (by decide)) XK).trans
    (Eq.trans ?_ (at_binary rWAF rNDF 26 (y := Cert.ReferenceIdeal.main_v20) ((rAt_0 26 (by decide)).trans rfl) (by decide +kernel) (not_mem_drop_of_lt rNDF (j := 24) (by decide +kernel) (by decide)) (not_mem_drop_of_lt rNDF (j := 25) (by decide +kernel) (by decide)) XR).symm)
  rw [e3 H, e4 H]
  all_goals rfl

theorem e6 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c) = after rOpsF XR (Proc.devRef .tc Cert.ReferenceIdeal.main_c) := by
  refine (at_nullary kWA kND 6 (y := Cert.KernelIdeal.main_c) ((kAt_0 6 (by decide)).trans rfl) (by decide +kernel) XK).trans
    (Eq.trans ?_ (at_nullary rWAF rNDF 27 (y := Cert.ReferenceIdeal.main_c) ((rAt_0 27 (by decide)).trans rfl) (by decide +kernel) XR).symm)
  rfl

theorem e7 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v10) = after rOpsF XR (Proc.devRef .tc Cert.ReferenceIdeal.main_v21) := by
  refine (at_unary kWA kND 7 (y := Cert.KernelIdeal.main_v10) ((kAt_0 7 (by decide)).trans rfl) (by decide +kernel) (not_mem_drop_of_lt kND (j := 6) (by decide +kernel) (by decide)) XK).trans
    (Eq.trans ?_ (at_unary rWAF rNDF 28 (y := Cert.ReferenceIdeal.main_v21) ((rAt_0 28 (by decide)).trans rfl) (by decide +kernel) (not_mem_drop_of_lt rNDF (j := 27) (by decide +kernel) (by decide)) XR).symm)
  rw [e6 H]
  all_goals rfl

theorem e8 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v11) = after rOpsF XR (Proc.devRef .tc Cert.ReferenceIdeal.main_v22) := by
  refine (at_binary kWA kND 8 (y := Cert.KernelIdeal.main_v11) ((kAt_0 8 (by decide)).trans rfl) (by decide +kernel) (not_mem_drop_of_not_mem kin_main_arg8 8) (not_mem_drop_of_lt kND (j := 7) (by decide +kernel) (by decide)) XK).trans
    (Eq.trans ?_ (at_binary rWAF rNDF 29 (y := Cert.ReferenceIdeal.main_v22) ((rAt_0 29 (by decide)).trans rfl) (by decide +kernel) (not_mem_drop_of_not_mem rinF_main_arg8 29) (not_mem_drop_of_lt rNDF (j := 28) (by decide +kernel) (by decide)) XR).symm)
  rw [H.main_arg8, e7 H]
  all_goals rfl

theorem e9 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v12) = after rOpsF XR (Proc.devRef .tc Cert.ReferenceIdeal.main_v23) := by
  refine (at_unary kWA kND 9 (y := Cert.KernelIdeal.main_v12) ((kAt_0 9 (by decide)).trans rfl) (by decide +kernel) (not_mem_drop_of_lt kND (j := 8) (by decide +kernel) (by decide)) XK).trans
    (Eq.trans ?_ (at_unary rWAF rNDF 30 (y := Cert.ReferenceIdeal.main_v23) ((rAt_0 30 (by decide)).trans rfl) (by decide +kernel) (not_mem_drop_of_lt rNDF (j := 29) (by decide +kernel) (by decide)) XR).symm)
  rw [e8 H]
  all_goals rfl

theorem e10 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v13) = after rOpsF XR (Proc.devRef .tc Cert.ReferenceIdeal.main_v24) := by
  refine (at_unary kWA kND 10 (y := Cert.KernelIdeal.main_v13) ((kAt_0 10 (by decide)).trans rfl) (by decide +kernel) (not_mem_drop_of_lt kND (j := 9) (by decide +kernel) (by decide)) XK).trans
    (Eq.trans ?_ (at_unary rWAF rNDF 31 (y := Cert.ReferenceIdeal.main_v24) ((rAt_0 31 (by decide)).trans rfl) (by decide +kernel) (not_mem_drop_of_lt rNDF (j := 30) (by decide +kernel) (by decide)) XR).symm)
  rw [e9 H]
  all_goals rfl

theorem e11 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v14) = after rOpsF XR (Proc.devRef .tc Cert.ReferenceIdeal.main_v25) := by
  refine (at_binary kWA kND 11 (y := Cert.KernelIdeal.main_v14) ((kAt_0 11 (by decide)).trans rfl) (by decide +kernel) (not_mem_drop_of_lt kND (j := 5) (by decide +kernel) (by decide)) (not_mem_drop_of_lt kND (j := 10) (by decide +kernel) (by decide)) XK).trans
    (Eq.trans ?_ (at_binary rWAF rNDF 32 (y := Cert.ReferenceIdeal.main_v25) ((rAt_0 32 (by decide)).trans rfl) (by decide +kernel) (not_mem_drop_of_lt rNDF (j := 26) (by decide +kernel) (by decide)) (not_mem_drop_of_lt rNDF (j := 31) (by decide +kernel) (by decide)) XR).symm)
  rw [e5 H, e10 H]
  all_goals rfl

theorem e12 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_0) = after rOpsF XR (Proc.devRef .tc Cert.ReferenceIdeal.main_c_5) := by
  refine (at_nullary kWA kND 12 (y := Cert.KernelIdeal.main_c_0) ((kAt_0 12 (by decide)).trans rfl) (by decide +kernel) XK).trans
    (Eq.trans ?_ (at_nullary rWAF rNDF 33 (y := Cert.ReferenceIdeal.main_c_5) ((rAt_0 33 (by decide)).trans rfl) (by decide +kernel) XR).symm)
  rfl

theorem e13 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v15) = after rOpsF XR (Proc.devRef .tc Cert.ReferenceIdeal.main_v26) := by
  refine (at_unary kWA kND 13 (y := Cert.KernelIdeal.main_v15) ((kAt_0 13 (by decide)).trans rfl) (by decide +kernel) (not_mem_drop_of_lt kND (j := 12) (by decide +kernel) (by decide)) XK).trans
    (Eq.trans ?_ (at_unary rWAF rNDF 34 (y := Cert.ReferenceIdeal.main_v26) ((rAt_0 34 (by decide)).trans rfl) (by decide +kernel) (not_mem_drop_of_lt rNDF (j := 33) (by decide +kernel) (by decide)) XR).symm)
  rw [e12 H]
  all_goals rfl

theorem e14 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v16) = after rOpsF XR (Proc.devRef .tc Cert.ReferenceIdeal.main_v27) := by
  refine (at_binary kWA kND 14 (y := Cert.KernelIdeal.main_v16) ((kAt_0 14 (by decide)).trans rfl) (by decide +kernel) (not_mem_drop_of_not_mem kin_main_arg8 14) (not_mem_drop_of_lt kND (j := 13) (by decide +kernel) (by decide)) XK).trans
    (Eq.trans ?_ (at_binary rWAF rNDF 35 (y := Cert.ReferenceIdeal.main_v27) ((rAt_0 35 (by decide)).trans rfl) (by decide +kernel) (not_mem_drop_of_not_mem rinF_main_arg8 35) (not_mem_drop_of_lt rNDF (j := 34) (by decide +kernel) (by decide)) XR).symm)
  rw [H.main_arg8, e13 H]
  all_goals rfl

theorem e15 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v17) = after rOpsF XR (Proc.devRef .tc Cert.ReferenceIdeal.main_v28) := by
  refine (at_unary kWA kND 15 (y := Cert.KernelIdeal.main_v17) ((kAt_0 15 (by decide)).trans rfl) (by decide +kernel) (not_mem_drop_of_lt kND (j := 14) (by decide +kernel) (by decide)) XK).trans
    (Eq.trans ?_ (at_unary rWAF rNDF 36 (y := Cert.ReferenceIdeal.main_v28) ((rAt_0 36 (by decide)).trans rfl) (by decide +kernel) (not_mem_drop_of_lt rNDF (j := 35) (by decide +kernel) (by decide)) XR).symm)
  rw [e14 H]
  all_goals rfl

theorem e16 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v18) = after rOpsF XR (Proc.devRef .tc Cert.ReferenceIdeal.main_v29) := by
  refine (at_unary kWA kND 16 (y := Cert.KernelIdeal.main_v18) ((kAt_0 16 (by decide)).trans rfl) (by decide +kernel) (not_mem_drop_of_lt kND (j := 15) (by decide +kernel) (by decide)) XK).trans
    (Eq.trans ?_ (at_unary rWAF rNDF 37 (y := Cert.ReferenceIdeal.main_v29) ((rAt_0 37 (by decide)).trans rfl) (by decide +kernel) (not_mem_drop_of_lt rNDF (j := 36) (by decide +kernel) (by decide)) XR).symm)
  rw [e15 H]
  all_goals rfl

theorem e17 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v19) = after rOpsF XR (Proc.devRef .tc Cert.ReferenceIdeal.main_v30) := by
  refine (at_binary kWA kND 17 (y := Cert.KernelIdeal.main_v19) ((kAt_0 17 (by decide)).trans rfl) (by decide +kernel) (not_mem_drop_of_lt kND (j := 5) (by decide +kernel) (by decide)) (not_mem_drop_of_lt kND (j := 16) (by decide +kernel) (by decide)) XK).trans
    (Eq.trans ?_ (at_binary rWAF rNDF 38 (y := Cert.ReferenceIdeal.main_v30) ((rAt_0 38 (by decide)).trans rfl) (by decide +kernel) (not_mem_drop_of_lt rNDF (j := 26) (by decide +kernel) (by decide)) (not_mem_drop_of_lt rNDF (j := 37) (by decide +kernel) (by decide)) XR).symm)
  rw [e5 H, e16 H]
  all_goals rfl

theorem e18 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_1) = after rOpsF XR (Proc.devRef .tc Cert.ReferenceIdeal.main_c_6) := by
  refine (at_nullary kWA kND 18 (y := Cert.KernelIdeal.main_c_1) ((kAt_0 18 (by decide)).trans rfl) (by decide +kernel) XK).trans
    (Eq.trans ?_ (at_nullary rWAF rNDF 39 (y := Cert.ReferenceIdeal.main_c_6) ((rAt_0 39 (by decide)).trans rfl) (by decide +kernel) XR).symm)
  rfl

theorem e19 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v20) = after rOpsF XR (Proc.devRef .tc Cert.ReferenceIdeal.main_v31) := by
  refine (at_binary kWA kND 19 (y := Cert.KernelIdeal.main_v20) ((kAt_0 19 (by decide)).trans rfl) (by decide +kernel) (not_mem_drop_of_lt kND (j := 11) (by decide +kernel) (by decide)) (not_mem_drop_of_lt kND (j := 18) (by decide +kernel) (by decide)) XK).trans
    (Eq.trans ?_ (at_binary rWAF rNDF 40 (y := Cert.ReferenceIdeal.main_v31) ((rAt_0 40 (by decide)).trans rfl) (by decide +kernel) (not_mem_drop_of_lt rNDF (j := 32) (by decide +kernel) (by decide)) (not_mem_drop_of_lt rNDF (j := 39) (by decide +kernel) (by decide)) XR).symm)
  rw [e11 H, e18 H]
  all_goals rfl

theorem e20 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_2) = after rOpsF XR (Proc.devRef .tc Cert.ReferenceIdeal.main_c_7) := by
  refine (at_nullary kWA kND 20 (y := Cert.KernelIdeal.main_c_2) ((kAt_0 20 (by decide)).trans rfl) (by decide +kernel) XK).trans
    (Eq.trans ?_ (at_nullary rWAF rNDF 41 (y := Cert.ReferenceIdeal.main_c_7) ((rAt_0 41 (by decide)).trans rfl) (by decide +kernel) XR).symm)
  rfl

theorem e21 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v21) = after rOpsF XR (Proc.devRef .tc Cert.ReferenceIdeal.main_v32) := by
  refine (at_binary kWA kND 21 (y := Cert.KernelIdeal.main_v21) ((kAt_0 21 (by decide)).trans rfl) (by decide +kernel) (not_mem_drop_of_lt kND (j := 17) (by decide +kernel) (by decide)) (not_mem_drop_of_lt kND (j := 20) (by decide +kernel) (by decide)) XK).trans
    (Eq.trans ?_ (at_binary rWAF rNDF 42 (y := Cert.ReferenceIdeal.main_v32) ((rAt_0 42 (by decide)).trans rfl) (by decide +kernel) (not_mem_drop_of_lt rNDF (j := 38) (by decide +kernel) (by decide)) (not_mem_drop_of_lt rNDF (j := 41) (by decide +kernel) (by decide)) XR).symm)
  rw [e17 H, e20 H]
  all_goals rfl

theorem e22 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v22) = after rOpsF XR (Proc.devRef .tc Cert.ReferenceIdeal.main_v33) := by
  refine (at_binary kWA kND 22 (y := Cert.KernelIdeal.main_v22) ((kAt_0 22 (by decide)).trans rfl) (by decide +kernel) (not_mem_drop_of_lt kND (j := 19) (by decide +kernel) (by decide)) (not_mem_drop_of_lt kND (j := 21) (by decide +kernel) (by decide)) XK).trans
    (Eq.trans ?_ (at_binary rWAF rNDF 43 (y := Cert.ReferenceIdeal.main_v33) ((rAt_0 43 (by decide)).trans rfl) (by decide +kernel) (not_mem_drop_of_lt rNDF (j := 40) (by decide +kernel) (by decide)) (not_mem_drop_of_lt rNDF (j := 42) (by decide +kernel) (by decide)) XR).symm)
  rw [e19 H, e21 H]
  all_goals rfl

theorem e23 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call0_v0) = after rOpsF XR (Proc.devRef .tc Cert.ReferenceIdeal.main_call0_v0) := by
  refine (at_nullary kWA kND 23 (y := Cert.KernelIdeal.main_call0_v0) ((kAt_1 0 (by decide)).trans rfl) (by decide +kernel) XK).trans
    (Eq.trans ?_ (at_nullary rWAF rNDF 44 (y := Cert.ReferenceIdeal.main_call0_v0) ((rAt_0 44 (by decide)).trans rfl) (by decide +kernel) XR).symm)
  rfl

theorem e24 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call0_c) = after rOpsF XR (Proc.devRef .tc Cert.ReferenceIdeal.main_call0_c) := by
  refine (at_nullary kWA kND 24 (y := Cert.KernelIdeal.main_call0_c) ((kAt_1 1 (by decide)).trans rfl) (by decide +kernel) XK).trans
    (Eq.trans ?_ (at_nullary rWAF rNDF 45 (y := Cert.ReferenceIdeal.main_call0_c) ((rAt_0 45 (by decide)).trans rfl) (by decide +kernel) XR).symm)
  rfl

theorem e25 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call0_c_0) = after rOpsF XR (Proc.devRef .tc Cert.ReferenceIdeal.main_call0_c_0) := by
  refine (at_nullary kWA kND 25 (y := Cert.KernelIdeal.main_call0_c_0) ((kAt_1 2 (by decide)).trans rfl) (by decide +kernel) XK).trans
    (Eq.trans ?_ (at_nullary rWAF rNDF 46 (y := Cert.ReferenceIdeal.main_call0_c_0) ((rAt_0 46 (by decide)).trans rfl) (by decide +kernel) XR).symm)
  rfl

theorem e26 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call0_v1_0) = after rOpsF XR (Proc.devRef .tc Cert.ReferenceIdeal.main_call0_v1_0) := by
  refine (at_quaternary kWA kND 26 (y := Cert.KernelIdeal.main_call0_v1_0) ((kAt_1 3 (by decide)).trans rfl) (by decide +kernel) (not_mem_drop_of_lt kND (j := 11) (by decide +kernel) (by decide)) (not_mem_drop_of_lt kND (j := 23) (by decide +kernel) (by decide)) (not_mem_drop_of_lt kND (j := 24) (by decide +kernel) (by decide)) (not_mem_drop_of_lt kND (j := 25) (by decide +kernel) (by decide)) XK).trans
    (Eq.trans ?_ (at_quaternary rWAF rNDF 47 (y := Cert.ReferenceIdeal.main_call0_v1_0) ((rAt_0 47 (by decide)).trans rfl) (by decide +kernel) (not_mem_drop_of_lt rNDF (j := 32) (by decide +kernel) (by decide)) (not_mem_drop_of_lt rNDF (j := 44) (by decide +kernel) (by decide)) (not_mem_drop_of_lt rNDF (j := 45) (by decide +kernel) (by decide)) (not_mem_drop_of_lt rNDF (j := 46) (by decide +kernel) (by decide)) XR).symm)
  rw [e11 H, e23 H, e24 H, e25 H]
  all_goals rfl

theorem e27 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v23) = after rOpsF XR (Proc.devRef .tc Cert.ReferenceIdeal.main_v34) := by
  refine (at_quaternary kWA kND 27 (y := Cert.KernelIdeal.main_v23) ((kAt_1 4 (by decide)).trans rfl) (by decide +kernel) (not_mem_drop_of_lt kND (j := 11) (by decide +kernel) (by decide)) (not_mem_drop_of_lt kND (j := 23) (by decide +kernel) (by decide)) (not_mem_drop_of_lt kND (j := 24) (by decide +kernel) (by decide)) (not_mem_drop_of_lt kND (j := 25) (by decide +kernel) (by decide)) XK).trans
    (Eq.trans ?_ (at_quaternary rWAF rNDF 48 (y := Cert.ReferenceIdeal.main_v34) ((rAt_0 48 (by decide)).trans rfl) (by decide +kernel) (not_mem_drop_of_lt rNDF (j := 32) (by decide +kernel) (by decide)) (not_mem_drop_of_lt rNDF (j := 44) (by decide +kernel) (by decide)) (not_mem_drop_of_lt rNDF (j := 45) (by decide +kernel) (by decide)) (not_mem_drop_of_lt rNDF (j := 46) (by decide +kernel) (by decide)) XR).symm)
  rw [e11 H, e23 H, e24 H, e25 H]
  all_goals rfl

theorem e28 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call1_v0) = after rOpsF XR (Proc.devRef .tc Cert.ReferenceIdeal.main_call1_v0) := by
  refine (at_nullary kWA kND 28 (y := Cert.KernelIdeal.main_call1_v0) ((kAt_2 0 (by decide)).trans rfl) (by decide +kernel) XK).trans
    (Eq.trans ?_ (at_nullary rWAF rNDF 49 (y := Cert.ReferenceIdeal.main_call1_v0) ((rAt_0 49 (by decide)).trans rfl) (by decide +kernel) XR).symm)
  rfl

theorem e29 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call1_c) = after rOpsF XR (Proc.devRef .tc Cert.ReferenceIdeal.main_call1_c) := by
  refine (at_nullary kWA kND 29 (y := Cert.KernelIdeal.main_call1_c) ((kAt_2 1 (by decide)).trans rfl) (by decide +kernel) XK).trans
    (Eq.trans ?_ (at_nullary rWAF rNDF 50 (y := Cert.ReferenceIdeal.main_call1_c) ((rAt_0 50 (by decide)).trans rfl) (by decide +kernel) XR).symm)
  rfl

theorem e30 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call1_c_0) = after rOpsF XR (Proc.devRef .tc Cert.ReferenceIdeal.main_call1_c_0) := by
  refine (at_nullary kWA kND 30 (y := Cert.KernelIdeal.main_call1_c_0) ((kAt_2 2 (by decide)).trans rfl) (by decide +kernel) XK).trans
    (Eq.trans ?_ (at_nullary rWAF rNDF 51 (y := Cert.ReferenceIdeal.main_call1_c_0) ((rAt_0 51 (by decide)).trans rfl) (by decide +kernel) XR).symm)
  rfl

theorem e31 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call1_v1_0) = after rOpsF XR (Proc.devRef .tc Cert.ReferenceIdeal.main_call1_v1_0) := by
  refine (at_quaternary kWA kND 31 (y := Cert.KernelIdeal.main_call1_v1_0) ((kAt_2 3 (by decide)).trans rfl) (by decide +kernel) (not_mem_drop_of_lt kND (j := 17) (by decide +kernel) (by decide)) (not_mem_drop_of_lt kND (j := 28) (by decide +kernel) (by decide)) (not_mem_drop_of_lt kND (j := 29) (by decide +kernel) (by decide)) (not_mem_drop_of_lt kND (j := 30) (by decide +kernel) (by decide)) XK).trans
    (Eq.trans ?_ (at_quaternary rWAF rNDF 52 (y := Cert.ReferenceIdeal.main_call1_v1_0) ((rAt_0 52 (by decide)).trans rfl) (by decide +kernel) (not_mem_drop_of_lt rNDF (j := 38) (by decide +kernel) (by decide)) (not_mem_drop_of_lt rNDF (j := 49) (by decide +kernel) (by decide)) (not_mem_drop_of_lt rNDF (j := 50) (by decide +kernel) (by decide)) (not_mem_drop_of_lt rNDF (j := 51) (by decide +kernel) (by decide)) XR).symm)
  rw [e17 H, e28 H, e29 H, e30 H]
  all_goals rfl

theorem e32 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v24) = after rOpsF XR (Proc.devRef .tc Cert.ReferenceIdeal.main_v35) := by
  refine (at_quaternary kWA kND 32 (y := Cert.KernelIdeal.main_v24) ((kAt_2 4 (by decide)).trans rfl) (by decide +kernel) (not_mem_drop_of_lt kND (j := 17) (by decide +kernel) (by decide)) (not_mem_drop_of_lt kND (j := 28) (by decide +kernel) (by decide)) (not_mem_drop_of_lt kND (j := 29) (by decide +kernel) (by decide)) (not_mem_drop_of_lt kND (j := 30) (by decide +kernel) (by decide)) XK).trans
    (Eq.trans ?_ (at_quaternary rWAF rNDF 53 (y := Cert.ReferenceIdeal.main_v35) ((rAt_0 53 (by decide)).trans rfl) (by decide +kernel) (not_mem_drop_of_lt rNDF (j := 38) (by decide +kernel) (by decide)) (not_mem_drop_of_lt rNDF (j := 49) (by decide +kernel) (by decide)) (not_mem_drop_of_lt rNDF (j := 50) (by decide +kernel) (by decide)) (not_mem_drop_of_lt rNDF (j := 51) (by decide +kernel) (by decide)) XR).symm)
  rw [e17 H, e28 H, e29 H, e30 H]
  all_goals rfl

theorem e33 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_3) = after rOpsF XR (Proc.devRef .tc Cert.ReferenceIdeal.main_c_8) := by
  refine (at_nullary kWA kND 33 (y := Cert.KernelIdeal.main_c_3) ((kAt_3 0 (by decide)).trans rfl) (by decide +kernel) XK).trans
    (Eq.trans ?_ (at_nullary rWAF rNDF 54 (y := Cert.ReferenceIdeal.main_c_8) ((rAt_0 54 (by decide)).trans rfl) (by decide +kernel) XR).symm)
  rfl

theorem e34 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v25) = after rOpsF XR (Proc.devRef .tc Cert.ReferenceIdeal.main_v36) := by
  refine (at_unary kWA kND 34 (y := Cert.KernelIdeal.main_v25) ((kAt_3 1 (by decide)).trans rfl) (by decide +kernel) (not_mem_drop_of_lt kND (j := 33) (by decide +kernel) (by decide)) XK).trans
    (Eq.trans ?_ (at_unary rWAF rNDF 55 (y := Cert.ReferenceIdeal.main_v36) ((rAt_0 55 (by decide)).trans rfl) (by decide +kernel) (not_mem_drop_of_lt rNDF (j := 54) (by decide +kernel) (by decide)) XR).symm)
  rw [e33 H]
  all_goals rfl

theorem e35 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v26) = after rOpsF XR (Proc.devRef .tc Cert.ReferenceIdeal.main_v37) := by
  refine (at_binary kWA kND 35 (y := Cert.KernelIdeal.main_v26) ((kAt_3 2 (by decide)).trans rfl) (by decide +kernel) (not_mem_drop_of_lt kND (j := 27) (by decide +kernel) (by decide)) (not_mem_drop_of_lt kND (j := 34) (by decide +kernel) (by decide)) XK).trans
    (Eq.trans ?_ (at_binary rWAF rNDF 56 (y := Cert.ReferenceIdeal.main_v37) ((rAt_0 56 (by decide)).trans rfl) (by decide +kernel) (not_mem_drop_of_lt rNDF (j := 48) (by decide +kernel) (by decide)) (not_mem_drop_of_lt rNDF (j := 55) (by decide +kernel) (by decide)) XR).symm)
  rw [e27 H, e34 H]
  all_goals rfl

theorem e36 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_4) = after rOpsF XR (Proc.devRef .tc Cert.ReferenceIdeal.main_c_9) := by
  refine (at_nullary kWA kND 36 (y := Cert.KernelIdeal.main_c_4) ((kAt_3 3 (by decide)).trans rfl) (by decide +kernel) XK).trans
    (Eq.trans ?_ (at_nullary rWAF rNDF 57 (y := Cert.ReferenceIdeal.main_c_9) ((rAt_0 57 (by decide)).trans rfl) (by decide +kernel) XR).symm)
  rfl

theorem e37 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v27) = after rOpsF XR (Proc.devRef .tc Cert.ReferenceIdeal.main_v38) := by
  refine (at_unary kWA kND 37 (y := Cert.KernelIdeal.main_v27) ((kAt_3 4 (by decide)).trans rfl) (by decide +kernel) (not_mem_drop_of_lt kND (j := 36) (by decide +kernel) (by decide)) XK).trans
    (Eq.trans ?_ (at_unary rWAF rNDF 58 (y := Cert.ReferenceIdeal.main_v38) ((rAt_0 58 (by decide)).trans rfl) (by decide +kernel) (not_mem_drop_of_lt rNDF (j := 57) (by decide +kernel) (by decide)) XR).symm)
  rw [e36 H]
  all_goals rfl

theorem e38 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v28) = after rOpsF XR (Proc.devRef .tc Cert.ReferenceIdeal.main_v39) := by
  refine (at_binary kWA kND 38 (y := Cert.KernelIdeal.main_v28) ((kAt_3 5 (by decide)).trans rfl) (by decide +kernel) (not_mem_drop_of_lt kND (j := 27) (by decide +kernel) (by decide)) (not_mem_drop_of_lt kND (j := 37) (by decide +kernel) (by decide)) XK).trans
    (Eq.trans ?_ (at_binary rWAF rNDF 59 (y := Cert.ReferenceIdeal.main_v39) ((rAt_0 59 (by decide)).trans rfl) (by decide +kernel) (not_mem_drop_of_lt rNDF (j := 48) (by decide +kernel) (by decide)) (not_mem_drop_of_lt rNDF (j := 58) (by decide +kernel) (by decide)) XR).symm)
  rw [e27 H, e37 H]
  all_goals rfl

theorem e39 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v29) = after rOpsF XR (Proc.devRef .tc Cert.ReferenceIdeal.main_v40) := by
  refine (at_ternary kWA kND 39 (y := Cert.KernelIdeal.main_v29) ((kAt_3 6 (by decide)).trans rfl) (by decide +kernel) (not_mem_drop_of_lt kND (j := 35) (by decide +kernel) (by decide)) (not_mem_drop_of_lt kND (j := 38) (by decide +kernel) (by decide)) (not_mem_drop_of_lt kND (j := 27) (by decide +kernel) (by decide)) XK).trans
    (Eq.trans ?_ (at_ternary rWAF rNDF 60 (y := Cert.ReferenceIdeal.main_v40) ((rAt_0 60 (by decide)).trans rfl) (by decide +kernel) (not_mem_drop_of_lt rNDF (j := 56) (by decide +kernel) (by decide)) (not_mem_drop_of_lt rNDF (j := 59) (by decide +kernel) (by decide)) (not_mem_drop_of_lt rNDF (j := 48) (by decide +kernel) (by decide)) XR).symm)
  rw [e35 H, e38 H, e27 H]
  all_goals rfl

theorem e40 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v30) = after rOpsF XR (Proc.devRef .tc Cert.ReferenceIdeal.main_v41) := by
  refine (at_unary kWA kND 40 (y := Cert.KernelIdeal.main_v30) ((kAt_3 7 (by decide)).trans rfl) (by decide +kernel) (not_mem_drop_of_lt kND (j := 39) (by decide +kernel) (by decide)) XK).trans
    (Eq.trans ?_ (at_unary rWAF rNDF 61 (y := Cert.ReferenceIdeal.main_v41) ((rAt_0 61 (by decide)).trans rfl) (by decide +kernel) (not_mem_drop_of_lt rNDF (j := 60) (by decide +kernel) (by decide)) XR).symm)
  rw [e39 H]
  all_goals rfl

theorem e41 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v31) = after rOpsF XR (Proc.devRef .tc Cert.ReferenceIdeal.main_v42) := by
  refine (at_binary kWA kND 41 (y := Cert.KernelIdeal.main_v31) ((kAt_3 8 (by decide)).trans rfl) (by decide +kernel) (not_mem_drop_of_not_mem kin_main_v3_2 41) (not_mem_drop_of_lt kND (j := 40) (by decide +kernel) (by decide)) XK).trans
    (Eq.trans ?_ (at_binary rWAF rNDF 62 (y := Cert.ReferenceIdeal.main_v42) ((rAt_0 62 (by decide)).trans rfl) (by decide +kernel) (not_mem_drop_of_lt rNDF (j := 20) (by decide +kernel) (by decide)) (not_mem_drop_of_lt rNDF (j := 61) (by decide +kernel) (by decide)) XR).symm)
  rw [H.main_v3_2, e40 H]
  all_goals rfl

theorem e42 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_5) = after rOpsF XR (Proc.devRef .tc Cert.ReferenceIdeal.main_c_10) := by
  refine (at_nullary kWA kND 42 (y := Cert.KernelIdeal.main_c_5) ((kAt_3 9 (by decide)).trans rfl) (by decide +kernel) XK).trans
    (Eq.trans ?_ (at_nullary rWAF rNDF 63 (y := Cert.ReferenceIdeal.main_c_10) ((rAt_0 63 (by decide)).trans rfl) (by decide +kernel) XR).symm)
  rfl

theorem e43 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v32) = after rOpsF XR (Proc.devRef .tc Cert.ReferenceIdeal.main_v43) := by
  refine (at_unary kWA kND 43 (y := Cert.KernelIdeal.main_v32) ((kAt_3 10 (by decide)).trans rfl) (by decide +kernel) (not_mem_drop_of_lt kND (j := 42) (by decide +kernel) (by decide)) XK).trans
    (Eq.trans ?_ (at_unary rWAF rNDF 64 (y := Cert.ReferenceIdeal.main_v43) ((rAt_0 64 (by decide)).trans rfl) (by decide +kernel) (not_mem_drop_of_lt rNDF (j := 63) (by decide +kernel) (by decide)) XR).symm)
  rw [e42 H]
  all_goals rfl

theorem e44 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v33) = after rOpsF XR (Proc.devRef .tc Cert.ReferenceIdeal.main_v44) := by
  refine (at_binary kWA kND 44 (y := Cert.KernelIdeal.main_v33) ((kAt_3 11 (by decide)).trans rfl) (by decide +kernel) (not_mem_drop_of_lt kND (j := 27) (by decide +kernel) (by decide)) (not_mem_drop_of_lt kND (j := 43) (by decide +kernel) (by decide)) XK).trans
    (Eq.trans ?_ (at_binary rWAF rNDF 65 (y := Cert.ReferenceIdeal.main_v44) ((rAt_0 65 (by decide)).trans rfl) (by decide +kernel) (not_mem_drop_of_lt rNDF (j := 48) (by decide +kernel) (by decide)) (not_mem_drop_of_lt rNDF (j := 64) (by decide +kernel) (by decide)) XR).symm)
  rw [e27 H, e43 H]
  all_goals rfl

theorem e45 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_6) = after rOpsF XR (Proc.devRef .tc Cert.ReferenceIdeal.main_c_11) := by
  refine (at_nullary kWA kND 45 (y := Cert.KernelIdeal.main_c_6) ((kAt_3 12 (by decide)).trans rfl) (by decide +kernel) XK).trans
    (Eq.trans ?_ (at_nullary rWAF rNDF 66 (y := Cert.ReferenceIdeal.main_c_11) ((rAt_0 66 (by decide)).trans rfl) (by decide +kernel) XR).symm)
  rfl

theorem e46 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v34) = after rOpsF XR (Proc.devRef .tc Cert.ReferenceIdeal.main_v45) := by
  refine (at_unary kWA kND 46 (y := Cert.KernelIdeal.main_v34) ((kAt_3 13 (by decide)).trans rfl) (by decide +kernel) (not_mem_drop_of_lt kND (j := 45) (by decide +kernel) (by decide)) XK).trans
    (Eq.trans ?_ (at_unary rWAF rNDF 67 (y := Cert.ReferenceIdeal.main_v45) ((rAt_0 67 (by decide)).trans rfl) (by decide +kernel) (not_mem_drop_of_lt rNDF (j := 66) (by decide +kernel) (by decide)) XR).symm)
  rw [e45 H]
  all_goals rfl

theorem e47 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v35) = after rOpsF XR (Proc.devRef .tc Cert.ReferenceIdeal.main_v46) := by
  refine (at_binary kWA kND 47 (y := Cert.KernelIdeal.main_v35) ((kAt_3 14 (by decide)).trans rfl) (by decide +kernel) (not_mem_drop_of_lt kND (j := 27) (by decide +kernel) (by decide)) (not_mem_drop_of_lt kND (j := 46) (by decide +kernel) (by decide)) XK).trans
    (Eq.trans ?_ (at_binary rWAF rNDF 68 (y := Cert.ReferenceIdeal.main_v46) ((rAt_1 0 (by decide)).trans rfl) (by decide +kernel) (not_mem_drop_of_lt rNDF (j := 48) (by decide +kernel) (by decide)) (not_mem_drop_of_lt rNDF (j := 67) (by decide +kernel) (by decide)) XR).symm)
  rw [e27 H, e46 H]
  all_goals rfl

theorem e48 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v36) = after rOpsF XR (Proc.devRef .tc Cert.ReferenceIdeal.main_v47) := by
  refine (at_ternary kWA kND 48 (y := Cert.KernelIdeal.main_v36) ((kAt_3 15 (by decide)).trans rfl) (by decide +kernel) (not_mem_drop_of_lt kND (j := 44) (by decide +kernel) (by decide)) (not_mem_drop_of_lt kND (j := 47) (by decide +kernel) (by decide)) (not_mem_drop_of_lt kND (j := 27) (by decide +kernel) (by decide)) XK).trans
    (Eq.trans ?_ (at_ternary rWAF rNDF 69 (y := Cert.ReferenceIdeal.main_v47) ((rAt_1 1 (by decide)).trans rfl) (by decide +kernel) (not_mem_drop_of_lt rNDF (j := 65) (by decide +kernel) (by decide)) (not_mem_drop_of_lt rNDF (j := 68) (by decide +kernel) (by decide)) (not_mem_drop_of_lt rNDF (j := 48) (by decide +kernel) (by decide)) XR).symm)
  rw [e44 H, e47 H, e27 H]
  all_goals rfl

theorem e49 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v37) = after rOpsF XR (Proc.devRef .tc Cert.ReferenceIdeal.main_v48) := by
  refine (at_unary kWA kND 49 (y := Cert.KernelIdeal.main_v37) ((kAt_3 16 (by decide)).trans rfl) (by decide +kernel) (not_mem_drop_of_lt kND (j := 48) (by decide +kernel) (by decide)) XK).trans
    (Eq.trans ?_ (at_unary rWAF rNDF 70 (y := Cert.ReferenceIdeal.main_v48) ((rAt_1 2 (by decide)).trans rfl) (by decide +kernel) (not_mem_drop_of_lt rNDF (j := 69) (by decide +kernel) (by decide)) XR).symm)
  rw [e48 H]
  all_goals rfl

theorem e50 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v38) = after rOpsF XR (Proc.devRef .tc Cert.ReferenceIdeal.main_v49) := by
  refine (at_binary kWA kND 50 (y := Cert.KernelIdeal.main_v38) ((kAt_3 17 (by decide)).trans rfl) (by decide +kernel) (not_mem_drop_of_not_mem kin_main_v3_0 50) (not_mem_drop_of_lt kND (j := 49) (by decide +kernel) (by decide)) XK).trans
    (Eq.trans ?_ (at_binary rWAF rNDF 71 (y := Cert.ReferenceIdeal.main_v49) ((rAt_1 3 (by decide)).trans rfl) (by decide +kernel) (not_mem_drop_of_lt rNDF (j := 6) (by decide +kernel) (by decide)) (not_mem_drop_of_lt rNDF (j := 70) (by decide +kernel) (by decide)) XR).symm)
  rw [H.main_v3_0, e49 H]
  all_goals rfl

theorem e51 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst) = after rOpsF XR (Proc.devRef .tc Cert.ReferenceIdeal.main_cst_12) := by
  refine (at_nullary kWA kND 51 (y := Cert.KernelIdeal.main_cst) ((kAt_3 18 (by decide)).trans rfl) (by decide +kernel) XK).trans
    (Eq.trans ?_ (at_nullary rWAF rNDF 72 (y := Cert.ReferenceIdeal.main_cst_12) ((rAt_1 4 (by decide)).trans rfl) (by decide +kernel) XR).symm)
  rfl

theorem e52 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v39) = after rOpsF XR (Proc.devRef .tc Cert.ReferenceIdeal.main_v50) := by
  refine (at_unary kWA kND 52 (y := Cert.KernelIdeal.main_v39) ((kAt_3 19 (by decide)).trans rfl) (by decide +kernel) (not_mem_drop_of_lt kND (j := 51) (by decide +kernel) (by decide)) XK).trans
    (Eq.trans ?_ (at_unary rWAF rNDF 73 (y := Cert.ReferenceIdeal.main_v50) ((rAt_1 5 (by decide)).trans rfl) (by decide +kernel) (not_mem_drop_of_lt rNDF (j := 72) (by decide +kernel) (by decide)) XR).symm)
  rw [e51 H]
  all_goals rfl

theorem e53 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v40) = after rOpsF XR (Proc.devRef .tc Cert.ReferenceIdeal.main_v51) := by
  refine (at_binary kWA kND 53 (y := Cert.KernelIdeal.main_v40) ((kAt_3 20 (by decide)).trans rfl) (by decide +kernel) (not_mem_drop_of_lt kND (j := 41) (by decide +kernel) (by decide)) (not_mem_drop_of_lt kND (j := 52) (by decide +kernel) (by decide)) XK).trans
    (Eq.trans ?_ (at_binary rWAF rNDF 74 (y := Cert.ReferenceIdeal.main_v51) ((rAt_1 6 (by decide)).trans rfl) (by decide +kernel) (not_mem_drop_of_lt rNDF (j := 62) (by decide +kernel) (by decide)) (not_mem_drop_of_lt rNDF (j := 73) (by decide +kernel) (by decide)) XR).symm)
  rw [e41 H, e52 H]
  all_goals rfl

theorem e54 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v41) = after rOpsF XR (Proc.devRef .tc Cert.ReferenceIdeal.main_v52) := by
  refine (at_binary kWA kND 54 (y := Cert.KernelIdeal.main_v41) ((kAt_3 21 (by decide)).trans rfl) (by decide +kernel) (not_mem_drop_of_lt kND (j := 50) (by decide +kernel) (by decide)) (not_mem_drop_of_lt kND (j := 53) (by decide +kernel) (by decide)) XK).trans
    (Eq.trans ?_ (at_binary rWAF rNDF 75 (y := Cert.ReferenceIdeal.main_v52) ((rAt_1 7 (by decide)).trans rfl) (by decide +kernel) (not_mem_drop_of_lt rNDF (j := 71) (by decide +kernel) (by decide)) (not_mem_drop_of_lt rNDF (j := 74) (by decide +kernel) (by decide)) XR).symm)
  rw [e50 H, e53 H]
  all_goals rfl

theorem e55 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_7) = after rOpsF XR (Proc.devRef .tc Cert.ReferenceIdeal.main_c_13) := by
  refine (at_nullary kWA kND 55 (y := Cert.KernelIdeal.main_c_7) ((kAt_3 22 (by decide)).trans rfl) (by decide +kernel) XK).trans
    (Eq.trans ?_ (at_nullary rWAF rNDF 76 (y := Cert.ReferenceIdeal.main_c_13) ((rAt_1 8 (by decide)).trans rfl) (by decide +kernel) XR).symm)
  rfl

theorem e56 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v42) = after rOpsF XR (Proc.devRef .tc Cert.ReferenceIdeal.main_v53) := by
  refine (at_unary kWA kND 56 (y := Cert.KernelIdeal.main_v42) ((kAt_3 23 (by decide)).trans rfl) (by decide +kernel) (not_mem_drop_of_lt kND (j := 55) (by decide +kernel) (by decide)) XK).trans
    (Eq.trans ?_ (at_unary rWAF rNDF 77 (y := Cert.ReferenceIdeal.main_v53) ((rAt_1 9 (by decide)).trans rfl) (by decide +kernel) (not_mem_drop_of_lt rNDF (j := 76) (by decide +kernel) (by decide)) XR).symm)
  rw [e55 H]
  all_goals rfl

theorem e57 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v43) = after rOpsF XR (Proc.devRef .tc Cert.ReferenceIdeal.main_v54) := by
  refine (at_binary kWA kND 57 (y := Cert.KernelIdeal.main_v43) ((kAt_3 24 (by decide)).trans rfl) (by decide +kernel) (not_mem_drop_of_lt kND (j := 32) (by decide +kernel) (by decide)) (not_mem_drop_of_lt kND (j := 56) (by decide +kernel) (by decide)) XK).trans
    (Eq.trans ?_ (at_binary rWAF rNDF 78 (y := Cert.ReferenceIdeal.main_v54) ((rAt_1 10 (by decide)).trans rfl) (by decide +kernel) (not_mem_drop_of_lt rNDF (j := 53) (by decide +kernel) (by decide)) (not_mem_drop_of_lt rNDF (j := 77) (by decide +kernel) (by decide)) XR).symm)
  rw [e32 H, e56 H]
  all_goals rfl

theorem e58 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_8) = after rOpsF XR (Proc.devRef .tc Cert.ReferenceIdeal.main_c_14) := by
  refine (at_nullary kWA kND 58 (y := Cert.KernelIdeal.main_c_8) ((kAt_3 25 (by decide)).trans rfl) (by decide +kernel) XK).trans
    (Eq.trans ?_ (at_nullary rWAF rNDF 79 (y := Cert.ReferenceIdeal.main_c_14) ((rAt_1 11 (by decide)).trans rfl) (by decide +kernel) XR).symm)
  rfl

theorem e59 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v44) = after rOpsF XR (Proc.devRef .tc Cert.ReferenceIdeal.main_v55) := by
  refine (at_unary kWA kND 59 (y := Cert.KernelIdeal.main_v44) ((kAt_3 26 (by decide)).trans rfl) (by decide +kernel) (not_mem_drop_of_lt kND (j := 58) (by decide +kernel) (by decide)) XK).trans
    (Eq.trans ?_ (at_unary rWAF rNDF 80 (y := Cert.ReferenceIdeal.main_v55) ((rAt_1 12 (by decide)).trans rfl) (by decide +kernel) (not_mem_drop_of_lt rNDF (j := 79) (by decide +kernel) (by decide)) XR).symm)
  rw [e58 H]
  all_goals rfl

theorem e60 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v45) = after rOpsF XR (Proc.devRef .tc Cert.ReferenceIdeal.main_v56) := by
  refine (at_binary kWA kND 60 (y := Cert.KernelIdeal.main_v45) ((kAt_3 27 (by decide)).trans rfl) (by decide +kernel) (not_mem_drop_of_lt kND (j := 32) (by decide +kernel) (by decide)) (not_mem_drop_of_lt kND (j := 59) (by decide +kernel) (by decide)) XK).trans
    (Eq.trans ?_ (at_binary rWAF rNDF 81 (y := Cert.ReferenceIdeal.main_v56) ((rAt_1 13 (by decide)).trans rfl) (by decide +kernel) (not_mem_drop_of_lt rNDF (j := 53) (by decide +kernel) (by decide)) (not_mem_drop_of_lt rNDF (j := 80) (by decide +kernel) (by decide)) XR).symm)
  rw [e32 H, e59 H]
  all_goals rfl

theorem e61 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v46) = after rOpsF XR (Proc.devRef .tc Cert.ReferenceIdeal.main_v57) := by
  refine (at_ternary kWA kND 61 (y := Cert.KernelIdeal.main_v46) ((kAt_3 28 (by decide)).trans rfl) (by decide +kernel) (not_mem_drop_of_lt kND (j := 57) (by decide +kernel) (by decide)) (not_mem_drop_of_lt kND (j := 60) (by decide +kernel) (by decide)) (not_mem_drop_of_lt kND (j := 32) (by decide +kernel) (by decide)) XK).trans
    (Eq.trans ?_ (at_ternary rWAF rNDF 82 (y := Cert.ReferenceIdeal.main_v57) ((rAt_1 14 (by decide)).trans rfl) (by decide +kernel) (not_mem_drop_of_lt rNDF (j := 78) (by decide +kernel) (by decide)) (not_mem_drop_of_lt rNDF (j := 81) (by decide +kernel) (by decide)) (not_mem_drop_of_lt rNDF (j := 53) (by decide +kernel) (by decide)) XR).symm)
  rw [e57 H, e60 H, e32 H]
  all_goals rfl

theorem e62 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v47) = after rOpsF XR (Proc.devRef .tc Cert.ReferenceIdeal.main_v58) := by
  refine (at_unary kWA kND 62 (y := Cert.KernelIdeal.main_v47) ((kAt_3 29 (by decide)).trans rfl) (by decide +kernel) (not_mem_drop_of_lt kND (j := 61) (by decide +kernel) (by decide)) XK).trans
    (Eq.trans ?_ (at_unary rWAF rNDF 83 (y := Cert.ReferenceIdeal.main_v58) ((rAt_1 15 (by decide)).trans rfl) (by decide +kernel) (not_mem_drop_of_lt rNDF (j := 82) (by decide +kernel) (by decide)) XR).symm)
  rw [e61 H]
  all_goals rfl

theorem e63 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v48) = after rOpsF XR (Proc.devRef .tc Cert.ReferenceIdeal.main_v59) := by
  refine (at_binary kWA kND 63 (y := Cert.KernelIdeal.main_v48) ((kAt_3 30 (by decide)).trans rfl) (by decide +kernel) (not_mem_drop_of_not_mem kin_main_v3_0 63) (not_mem_drop_of_lt kND (j := 62) (by decide +kernel) (by decide)) XK).trans
    (Eq.trans ?_ (at_binary rWAF rNDF 84 (y := Cert.ReferenceIdeal.main_v59) ((rAt_1 16 (by decide)).trans rfl) (by decide +kernel) (not_mem_drop_of_lt rNDF (j := 6) (by decide +kernel) (by decide)) (not_mem_drop_of_lt rNDF (j := 83) (by decide +kernel) (by decide)) XR).symm)
  rw [H.main_v3_0, e62 H]
  all_goals rfl

theorem e64 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_9) = after rOpsF XR (Proc.devRef .tc Cert.ReferenceIdeal.main_cst_15) := by
  refine (at_nullary kWA kND 64 (y := Cert.KernelIdeal.main_cst_9) ((kAt_3 31 (by decide)).trans rfl) (by decide +kernel) XK).trans
    (Eq.trans ?_ (at_nullary rWAF rNDF 85 (y := Cert.ReferenceIdeal.main_cst_15) ((rAt_1 17 (by decide)).trans rfl) (by decide +kernel) XR).symm)
  rfl

theorem e65 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v49) = after rOpsF XR (Proc.devRef .tc Cert.ReferenceIdeal.main_v60) := by
  refine (at_unary kWA kND 65 (y := Cert.KernelIdeal.main_v49) ((kAt_3 32 (by decide)).trans rfl) (by decide +kernel) (not_mem_drop_of_lt kND (j := 64) (by decide +kernel) (by decide)) XK).trans
    (Eq.trans ?_ (at_unary rWAF rNDF 86 (y := Cert.ReferenceIdeal.main_v60) ((rAt_1 18 (by decide)).trans rfl) (by decide +kernel) (not_mem_drop_of_lt rNDF (j := 85) (by decide +kernel) (by decide)) XR).symm)
  rw [e64 H]
  all_goals rfl

theorem e66 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v50) = after rOpsF XR (Proc.devRef .tc Cert.ReferenceIdeal.main_v61) := by
  refine (at_binary kWA kND 66 (y := Cert.KernelIdeal.main_v50) ((kAt_3 33 (by decide)).trans rfl) (by decide +kernel) (not_mem_drop_of_lt kND (j := 41) (by decide +kernel) (by decide)) (not_mem_drop_of_lt kND (j := 65) (by decide +kernel) (by decide)) XK).trans
    (Eq.trans ?_ (at_binary rWAF rNDF 87 (y := Cert.ReferenceIdeal.main_v61) ((rAt_1 19 (by decide)).trans rfl) (by decide +kernel) (not_mem_drop_of_lt rNDF (j := 62) (by decide +kernel) (by decide)) (not_mem_drop_of_lt rNDF (j := 86) (by decide +kernel) (by decide)) XR).symm)
  rw [e41 H, e65 H]
  all_goals rfl

theorem e67 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v51) = after rOpsF XR (Proc.devRef .tc Cert.ReferenceIdeal.main_v62) := by
  refine (at_binary kWA kND 67 (y := Cert.KernelIdeal.main_v51) ((kAt_3 34 (by decide)).trans rfl) (by decide +kernel) (not_mem_drop_of_lt kND (j := 63) (by decide +kernel) (by decide)) (not_mem_drop_of_lt kND (j := 66) (by decide +kernel) (by decide)) XK).trans
    (Eq.trans ?_ (at_binary rWAF rNDF 88 (y := Cert.ReferenceIdeal.main_v62) ((rAt_1 20 (by decide)).trans rfl) (by decide +kernel) (not_mem_drop_of_lt rNDF (j := 84) (by decide +kernel) (by decide)) (not_mem_drop_of_lt rNDF (j := 87) (by decide +kernel) (by decide)) XR).symm)
  rw [e63 H, e66 H]
  all_goals rfl

theorem e68 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_10) = after rOpsF XR (Proc.devRef .tc Cert.ReferenceIdeal.main_c_16) := by
  refine (at_nullary kWA kND 68 (y := Cert.KernelIdeal.main_c_10) ((kAt_3 35 (by decide)).trans rfl) (by decide +kernel) XK).trans
    (Eq.trans ?_ (at_nullary rWAF rNDF 89 (y := Cert.ReferenceIdeal.main_c_16) ((rAt_1 21 (by decide)).trans rfl) (by decide +kernel) XR).symm)
  rfl

theorem e69 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v52) = after rOpsF XR (Proc.devRef .tc Cert.ReferenceIdeal.main_v63) := by
  refine (at_unary kWA kND 69 (y := Cert.KernelIdeal.main_v52) ((kAt_3 36 (by decide)).trans rfl) (by decide +kernel) (not_mem_drop_of_lt kND (j := 68) (by decide +kernel) (by decide)) XK).trans
    (Eq.trans ?_ (at_unary rWAF rNDF 90 (y := Cert.ReferenceIdeal.main_v63) ((rAt_1 22 (by decide)).trans rfl) (by decide +kernel) (not_mem_drop_of_lt rNDF (j := 89) (by decide +kernel) (by decide)) XR).symm)
  rw [e68 H]
  all_goals rfl

theorem e70 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v53) = after rOpsF XR (Proc.devRef .tc Cert.ReferenceIdeal.main_v64) := by
  refine (at_binary kWA kND 70 (y := Cert.KernelIdeal.main_v53) ((kAt_3 37 (by decide)).trans rfl) (by decide +kernel) (not_mem_drop_of_lt kND (j := 27) (by decide +kernel) (by decide)) (not_mem_drop_of_lt kND (j := 69) (by decide +kernel) (by decide)) XK).trans
    (Eq.trans ?_ (at_binary rWAF rNDF 91 (y := Cert.ReferenceIdeal.main_v64) ((rAt_1 23 (by decide)).trans rfl) (by decide +kernel) (not_mem_drop_of_lt rNDF (j := 48) (by decide +kernel) (by decide)) (not_mem_drop_of_lt rNDF (j := 90) (by decide +kernel) (by decide)) XR).symm)
  rw [e27 H, e69 H]
  all_goals rfl

theorem e71 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_11) = after rOpsF XR (Proc.devRef .tc Cert.ReferenceIdeal.main_c_17) := by
  refine (at_nullary kWA kND 71 (y := Cert.KernelIdeal.main_c_11) ((kAt_3 38 (by decide)).trans rfl) (by decide +kernel) XK).trans
    (Eq.trans ?_ (at_nullary rWAF rNDF 92 (y := Cert.ReferenceIdeal.main_c_17) ((rAt_1 24 (by decide)).trans rfl) (by decide +kernel) XR).symm)
  rfl

theorem e72 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v54) = after rOpsF XR (Proc.devRef .tc Cert.ReferenceIdeal.main_v65) := by
  refine (at_unary kWA kND 72 (y := Cert.KernelIdeal.main_v54) ((kAt_3 39 (by decide)).trans rfl) (by decide +kernel) (not_mem_drop_of_lt kND (j := 71) (by decide +kernel) (by decide)) XK).trans
    (Eq.trans ?_ (at_unary rWAF rNDF 93 (y := Cert.ReferenceIdeal.main_v65) ((rAt_1 25 (by decide)).trans rfl) (by decide +kernel) (not_mem_drop_of_lt rNDF (j := 92) (by decide +kernel) (by decide)) XR).symm)
  rw [e71 H]
  all_goals rfl

theorem e73 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v55) = after rOpsF XR (Proc.devRef .tc Cert.ReferenceIdeal.main_v66) := by
  refine (at_binary kWA kND 73 (y := Cert.KernelIdeal.main_v55) ((kAt_3 40 (by decide)).trans rfl) (by decide +kernel) (not_mem_drop_of_lt kND (j := 27) (by decide +kernel) (by decide)) (not_mem_drop_of_lt kND (j := 72) (by decide +kernel) (by decide)) XK).trans
    (Eq.trans ?_ (at_binary rWAF rNDF 94 (y := Cert.ReferenceIdeal.main_v66) ((rAt_1 26 (by decide)).trans rfl) (by decide +kernel) (not_mem_drop_of_lt rNDF (j := 48) (by decide +kernel) (by decide)) (not_mem_drop_of_lt rNDF (j := 93) (by decide +kernel) (by decide)) XR).symm)
  rw [e27 H, e72 H]
  all_goals rfl

theorem e74 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v56) = after rOpsF XR (Proc.devRef .tc Cert.ReferenceIdeal.main_v67) := by
  refine (at_ternary kWA kND 74 (y := Cert.KernelIdeal.main_v56) ((kAt_3 41 (by decide)).trans rfl) (by decide +kernel) (not_mem_drop_of_lt kND (j := 70) (by decide +kernel) (by decide)) (not_mem_drop_of_lt kND (j := 73) (by decide +kernel) (by decide)) (not_mem_drop_of_lt kND (j := 27) (by decide +kernel) (by decide)) XK).trans
    (Eq.trans ?_ (at_ternary rWAF rNDF 95 (y := Cert.ReferenceIdeal.main_v67) ((rAt_1 27 (by decide)).trans rfl) (by decide +kernel) (not_mem_drop_of_lt rNDF (j := 91) (by decide +kernel) (by decide)) (not_mem_drop_of_lt rNDF (j := 94) (by decide +kernel) (by decide)) (not_mem_drop_of_lt rNDF (j := 48) (by decide +kernel) (by decide)) XR).symm)
  rw [e70 H, e73 H, e27 H]
  all_goals rfl

theorem e75 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v57) = after rOpsF XR (Proc.devRef .tc Cert.ReferenceIdeal.main_v68) := by
  refine (at_unary kWA kND 75 (y := Cert.KernelIdeal.main_v57) ((kAt_3 42 (by decide)).trans rfl) (by decide +kernel) (not_mem_drop_of_lt kND (j := 74) (by decide +kernel) (by decide)) XK).trans
    (Eq.trans ?_ (at_unary rWAF rNDF 96 (y := Cert.ReferenceIdeal.main_v68) ((rAt_1 28 (by decide)).trans rfl) (by decide +kernel) (not_mem_drop_of_lt rNDF (j := 95) (by decide +kernel) (by decide)) XR).symm)
  rw [e74 H]
  all_goals rfl

theorem e76 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v58) = after rOpsF XR (Proc.devRef .tc Cert.ReferenceIdeal.main_v69) := by
  refine (at_binary kWA kND 76 (y := Cert.KernelIdeal.main_v58) ((kAt_3 43 (by decide)).trans rfl) (by decide +kernel) (not_mem_drop_of_not_mem kin_main_arg3 76) (not_mem_drop_of_lt kND (j := 75) (by decide +kernel) (by decide)) XK).trans
    (Eq.trans ?_ (at_binary rWAF rNDF 97 (y := Cert.ReferenceIdeal.main_v69) ((rAt_1 29 (by decide)).trans rfl) (by decide +kernel) (not_mem_drop_of_not_mem rinF_main_arg3 97) (not_mem_drop_of_lt rNDF (j := 96) (by decide +kernel) (by decide)) XR).symm)
  rw [H.main_arg3, e75 H]
  all_goals rfl

theorem e77 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_12) = after rOpsF XR (Proc.devRef .tc Cert.ReferenceIdeal.main_c_18) := by
  refine (at_nullary kWA kND 77 (y := Cert.KernelIdeal.main_c_12) ((kAt_3 44 (by decide)).trans rfl) (by decide +kernel) XK).trans
    (Eq.trans ?_ (at_nullary rWAF rNDF 98 (y := Cert.ReferenceIdeal.main_c_18) ((rAt_1 30 (by decide)).trans rfl) (by decide +kernel) XR).symm)
  rfl

theorem e78 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v59) = after rOpsF XR (Proc.devRef .tc Cert.ReferenceIdeal.main_v70) := by
  refine (at_unary kWA kND 78 (y := Cert.KernelIdeal.main_v59) ((kAt_3 45 (by decide)).trans rfl) (by decide +kernel) (not_mem_drop_of_lt kND (j := 77) (by decide +kernel) (by decide)) XK).trans
    (Eq.trans ?_ (at_unary rWAF rNDF 99 (y := Cert.ReferenceIdeal.main_v70) ((rAt_1 31 (by decide)).trans rfl) (by decide +kernel) (not_mem_drop_of_lt rNDF (j := 98) (by decide +kernel) (by decide)) XR).symm)
  rw [e77 H]
  all_goals rfl

theorem e79 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v60) = after rOpsF XR (Proc.devRef .tc Cert.ReferenceIdeal.main_v71) := by
  refine (at_binary kWA kND 79 (y := Cert.KernelIdeal.main_v60) ((kAt_3 46 (by decide)).trans rfl) (by decide +kernel) (not_mem_drop_of_lt kND (j := 27) (by decide +kernel) (by decide)) (not_mem_drop_of_lt kND (j := 78) (by decide +kernel) (by decide)) XK).trans
    (Eq.trans ?_ (at_binary rWAF rNDF 100 (y := Cert.ReferenceIdeal.main_v71) ((rAt_1 32 (by decide)).trans rfl) (by decide +kernel) (not_mem_drop_of_lt rNDF (j := 48) (by decide +kernel) (by decide)) (not_mem_drop_of_lt rNDF (j := 99) (by decide +kernel) (by decide)) XR).symm)
  rw [e27 H, e78 H]
  all_goals rfl

theorem e80 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_13) = after rOpsF XR (Proc.devRef .tc Cert.ReferenceIdeal.main_c_19) := by
  refine (at_nullary kWA kND 80 (y := Cert.KernelIdeal.main_c_13) ((kAt_3 47 (by decide)).trans rfl) (by decide +kernel) XK).trans
    (Eq.trans ?_ (at_nullary rWAF rNDF 101 (y := Cert.ReferenceIdeal.main_c_19) ((rAt_1 33 (by decide)).trans rfl) (by decide +kernel) XR).symm)
  rfl

theorem e81 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v61) = after rOpsF XR (Proc.devRef .tc Cert.ReferenceIdeal.main_v72) := by
  refine (at_unary kWA kND 81 (y := Cert.KernelIdeal.main_v61) ((kAt_3 48 (by decide)).trans rfl) (by decide +kernel) (not_mem_drop_of_lt kND (j := 80) (by decide +kernel) (by decide)) XK).trans
    (Eq.trans ?_ (at_unary rWAF rNDF 102 (y := Cert.ReferenceIdeal.main_v72) ((rAt_1 34 (by decide)).trans rfl) (by decide +kernel) (not_mem_drop_of_lt rNDF (j := 101) (by decide +kernel) (by decide)) XR).symm)
  rw [e80 H]
  all_goals rfl

theorem e82 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v62) = after rOpsF XR (Proc.devRef .tc Cert.ReferenceIdeal.main_v73) := by
  refine (at_binary kWA kND 82 (y := Cert.KernelIdeal.main_v62) ((kAt_3 49 (by decide)).trans rfl) (by decide +kernel) (not_mem_drop_of_lt kND (j := 27) (by decide +kernel) (by decide)) (not_mem_drop_of_lt kND (j := 81) (by decide +kernel) (by decide)) XK).trans
    (Eq.trans ?_ (at_binary rWAF rNDF 103 (y := Cert.ReferenceIdeal.main_v73) ((rAt_1 35 (by decide)).trans rfl) (by decide +kernel) (not_mem_drop_of_lt rNDF (j := 48) (by decide +kernel) (by decide)) (not_mem_drop_of_lt rNDF (j := 102) (by decide +kernel) (by decide)) XR).symm)
  rw [e27 H, e81 H]
  all_goals rfl

theorem e83 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v63) = after rOpsF XR (Proc.devRef .tc Cert.ReferenceIdeal.main_v74) := by
  refine (at_ternary kWA kND 83 (y := Cert.KernelIdeal.main_v63) ((kAt_3 50 (by decide)).trans rfl) (by decide +kernel) (not_mem_drop_of_lt kND (j := 79) (by decide +kernel) (by decide)) (not_mem_drop_of_lt kND (j := 82) (by decide +kernel) (by decide)) (not_mem_drop_of_lt kND (j := 27) (by decide +kernel) (by decide)) XK).trans
    (Eq.trans ?_ (at_ternary rWAF rNDF 104 (y := Cert.ReferenceIdeal.main_v74) ((rAt_1 36 (by decide)).trans rfl) (by decide +kernel) (not_mem_drop_of_lt rNDF (j := 100) (by decide +kernel) (by decide)) (not_mem_drop_of_lt rNDF (j := 103) (by decide +kernel) (by decide)) (not_mem_drop_of_lt rNDF (j := 48) (by decide +kernel) (by decide)) XR).symm)
  rw [e79 H, e82 H, e27 H]
  all_goals rfl

theorem e84 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v64) = after rOpsF XR (Proc.devRef .tc Cert.ReferenceIdeal.main_v75) := by
  refine (at_unary kWA kND 84 (y := Cert.KernelIdeal.main_v64) ((kAt_3 51 (by decide)).trans rfl) (by decide +kernel) (not_mem_drop_of_lt kND (j := 83) (by decide +kernel) (by decide)) XK).trans
    (Eq.trans ?_ (at_unary rWAF rNDF 105 (y := Cert.ReferenceIdeal.main_v75) ((rAt_1 37 (by decide)).trans rfl) (by decide +kernel) (not_mem_drop_of_lt rNDF (j := 104) (by decide +kernel) (by decide)) XR).symm)
  rw [e83 H]
  all_goals rfl

theorem e85 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v65) = after rOpsF XR (Proc.devRef .tc Cert.ReferenceIdeal.main_v76) := by
  refine (at_binary kWA kND 85 (y := Cert.KernelIdeal.main_v65) ((kAt_3 52 (by decide)).trans rfl) (by decide +kernel) (not_mem_drop_of_not_mem kin_main_arg4 85) (not_mem_drop_of_lt kND (j := 84) (by decide +kernel) (by decide)) XK).trans
    (Eq.trans ?_ (at_binary rWAF rNDF 106 (y := Cert.ReferenceIdeal.main_v76) ((rAt_1 38 (by decide)).trans rfl) (by decide +kernel) (not_mem_drop_of_not_mem rinF_main_arg4 106) (not_mem_drop_of_lt rNDF (j := 105) (by decide +kernel) (by decide)) XR).symm)
  rw [H.main_arg4, e84 H]
  all_goals rfl

theorem e86 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v66) = after rOpsF XR (Proc.devRef .tc Cert.ReferenceIdeal.main_v77) := by
  refine (at_unary kWA kND 86 (y := Cert.KernelIdeal.main_v66) ((kAt_3 53 (by decide)).trans rfl) (by decide +kernel) (not_mem_drop_of_lt kND (j := 85) (by decide +kernel) (by decide)) XK).trans
    (Eq.trans ?_ (at_unary rWAF rNDF 107 (y := Cert.ReferenceIdeal.main_v77) ((rAt_1 39 (by decide)).trans rfl) (by decide +kernel) (not_mem_drop_of_lt rNDF (j := 106) (by decide +kernel) (by decide)) XR).symm)
  rw [e85 H]
  all_goals rfl

theorem e87 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v67) = after rOpsF XR (Proc.devRef .tc Cert.ReferenceIdeal.main_v78) := by
  refine (at_binary kWA kND 87 (y := Cert.KernelIdeal.main_v67) ((kAt_3 54 (by decide)).trans rfl) (by decide +kernel) (not_mem_drop_of_lt kND (j := 76) (by decide +kernel) (by decide)) (not_mem_drop_of_lt kND (j := 86) (by decide +kernel) (by decide)) XK).trans
    (Eq.trans ?_ (at_binary rWAF rNDF 108 (y := Cert.ReferenceIdeal.main_v78) ((rAt_1 40 (by decide)).trans rfl) (by decide +kernel) (not_mem_drop_of_lt rNDF (j := 97) (by decide +kernel) (by decide)) (not_mem_drop_of_lt rNDF (j := 107) (by decide +kernel) (by decide)) XR).symm)
  rw [e76 H, e86 H]
  all_goals rfl

theorem e88 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_14) = after rOpsF XR (Proc.devRef .tc Cert.ReferenceIdeal.main_c_20) := by
  refine (at_nullary kWA kND 88 (y := Cert.KernelIdeal.main_c_14) ((kAt_3 55 (by decide)).trans rfl) (by decide +kernel) XK).trans
    (Eq.trans ?_ (at_nullary rWAF rNDF 109 (y := Cert.ReferenceIdeal.main_c_20) ((rAt_1 41 (by decide)).trans rfl) (by decide +kernel) XR).symm)
  rfl

theorem e89 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v68) = after rOpsF XR (Proc.devRef .tc Cert.ReferenceIdeal.main_v79) := by
  refine (at_unary kWA kND 89 (y := Cert.KernelIdeal.main_v68) ((kAt_3 56 (by decide)).trans rfl) (by decide +kernel) (not_mem_drop_of_lt kND (j := 88) (by decide +kernel) (by decide)) XK).trans
    (Eq.trans ?_ (at_unary rWAF rNDF 110 (y := Cert.ReferenceIdeal.main_v79) ((rAt_1 42 (by decide)).trans rfl) (by decide +kernel) (not_mem_drop_of_lt rNDF (j := 109) (by decide +kernel) (by decide)) XR).symm)
  rw [e88 H]
  all_goals rfl

theorem e90 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v69) = after rOpsF XR (Proc.devRef .tc Cert.ReferenceIdeal.main_v80) := by
  refine (at_binary kWA kND 90 (y := Cert.KernelIdeal.main_v69) ((kAt_3 57 (by decide)).trans rfl) (by decide +kernel) (not_mem_drop_of_lt kND (j := 32) (by decide +kernel) (by decide)) (not_mem_drop_of_lt kND (j := 89) (by decide +kernel) (by decide)) XK).trans
    (Eq.trans ?_ (at_binary rWAF rNDF 111 (y := Cert.ReferenceIdeal.main_v80) ((rAt_1 43 (by decide)).trans rfl) (by decide +kernel) (not_mem_drop_of_lt rNDF (j := 53) (by decide +kernel) (by decide)) (not_mem_drop_of_lt rNDF (j := 110) (by decide +kernel) (by decide)) XR).symm)
  rw [e32 H, e89 H]
  all_goals rfl

theorem e91 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_15) = after rOpsF XR (Proc.devRef .tc Cert.ReferenceIdeal.main_c_21) := by
  refine (at_nullary kWA kND 91 (y := Cert.KernelIdeal.main_c_15) ((kAt_3 58 (by decide)).trans rfl) (by decide +kernel) XK).trans
    (Eq.trans ?_ (at_nullary rWAF rNDF 112 (y := Cert.ReferenceIdeal.main_c_21) ((rAt_1 44 (by decide)).trans rfl) (by decide +kernel) XR).symm)
  rfl

theorem e92 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v70) = after rOpsF XR (Proc.devRef .tc Cert.ReferenceIdeal.main_v81) := by
  refine (at_unary kWA kND 92 (y := Cert.KernelIdeal.main_v70) ((kAt_3 59 (by decide)).trans rfl) (by decide +kernel) (not_mem_drop_of_lt kND (j := 91) (by decide +kernel) (by decide)) XK).trans
    (Eq.trans ?_ (at_unary rWAF rNDF 113 (y := Cert.ReferenceIdeal.main_v81) ((rAt_1 45 (by decide)).trans rfl) (by decide +kernel) (not_mem_drop_of_lt rNDF (j := 112) (by decide +kernel) (by decide)) XR).symm)
  rw [e91 H]
  all_goals rfl

theorem e93 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v71) = after rOpsF XR (Proc.devRef .tc Cert.ReferenceIdeal.main_v82) := by
  refine (at_binary kWA kND 93 (y := Cert.KernelIdeal.main_v71) ((kAt_3 60 (by decide)).trans rfl) (by decide +kernel) (not_mem_drop_of_lt kND (j := 32) (by decide +kernel) (by decide)) (not_mem_drop_of_lt kND (j := 92) (by decide +kernel) (by decide)) XK).trans
    (Eq.trans ?_ (at_binary rWAF rNDF 114 (y := Cert.ReferenceIdeal.main_v82) ((rAt_1 46 (by decide)).trans rfl) (by decide +kernel) (not_mem_drop_of_lt rNDF (j := 53) (by decide +kernel) (by decide)) (not_mem_drop_of_lt rNDF (j := 113) (by decide +kernel) (by decide)) XR).symm)
  rw [e32 H, e92 H]
  all_goals rfl

theorem e94 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v72) = after rOpsF XR (Proc.devRef .tc Cert.ReferenceIdeal.main_v83) := by
  refine (at_ternary kWA kND 94 (y := Cert.KernelIdeal.main_v72) ((kAt_3 61 (by decide)).trans rfl) (by decide +kernel) (not_mem_drop_of_lt kND (j := 90) (by decide +kernel) (by decide)) (not_mem_drop_of_lt kND (j := 93) (by decide +kernel) (by decide)) (not_mem_drop_of_lt kND (j := 32) (by decide +kernel) (by decide)) XK).trans
    (Eq.trans ?_ (at_ternary rWAF rNDF 115 (y := Cert.ReferenceIdeal.main_v83) ((rAt_1 47 (by decide)).trans rfl) (by decide +kernel) (not_mem_drop_of_lt rNDF (j := 111) (by decide +kernel) (by decide)) (not_mem_drop_of_lt rNDF (j := 114) (by decide +kernel) (by decide)) (not_mem_drop_of_lt rNDF (j := 53) (by decide +kernel) (by decide)) XR).symm)
  rw [e90 H, e93 H, e32 H]
  all_goals rfl

theorem e95 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v73) = after rOpsF XR (Proc.devRef .tc Cert.ReferenceIdeal.main_v84) := by
  refine (at_unary kWA kND 95 (y := Cert.KernelIdeal.main_v73) ((kAt_3 62 (by decide)).trans rfl) (by decide +kernel) (not_mem_drop_of_lt kND (j := 94) (by decide +kernel) (by decide)) XK).trans
    (Eq.trans ?_ (at_unary rWAF rNDF 116 (y := Cert.ReferenceIdeal.main_v84) ((rAt_1 48 (by decide)).trans rfl) (by decide +kernel) (not_mem_drop_of_lt rNDF (j := 115) (by decide +kernel) (by decide)) XR).symm)
  rw [e94 H]
  all_goals rfl

theorem e96 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v74) = after rOpsF XR (Proc.devRef .tc Cert.ReferenceIdeal.main_v85) := by
  refine (at_binary kWA kND 96 (y := Cert.KernelIdeal.main_v74) ((kAt_3 63 (by decide)).trans rfl) (by decide +kernel) (not_mem_drop_of_not_mem kin_main_arg3 96) (not_mem_drop_of_lt kND (j := 95) (by decide +kernel) (by decide)) XK).trans
    (Eq.trans ?_ (at_binary rWAF rNDF 117 (y := Cert.ReferenceIdeal.main_v85) ((rAt_1 49 (by decide)).trans rfl) (by decide +kernel) (not_mem_drop_of_not_mem rinF_main_arg3 117) (not_mem_drop_of_lt rNDF (j := 116) (by decide +kernel) (by decide)) XR).symm)
  rw [H.main_arg3, e95 H]
  all_goals rfl

theorem e97 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_16) = after rOpsF XR (Proc.devRef .tc Cert.ReferenceIdeal.main_c_22) := by
  refine (at_nullary kWA kND 97 (y := Cert.KernelIdeal.main_c_16) ((kAt_3 64 (by decide)).trans rfl) (by decide +kernel) XK).trans
    (Eq.trans ?_ (at_nullary rWAF rNDF 118 (y := Cert.ReferenceIdeal.main_c_22) ((rAt_1 50 (by decide)).trans rfl) (by decide +kernel) XR).symm)
  rfl

theorem e98 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v75) = after rOpsF XR (Proc.devRef .tc Cert.ReferenceIdeal.main_v86) := by
  refine (at_unary kWA kND 98 (y := Cert.KernelIdeal.main_v75) ((kAt_3 65 (by decide)).trans rfl) (by decide +kernel) (not_mem_drop_of_lt kND (j := 97) (by decide +kernel) (by decide)) XK).trans
    (Eq.trans ?_ (at_unary rWAF rNDF 119 (y := Cert.ReferenceIdeal.main_v86) ((rAt_1 51 (by decide)).trans rfl) (by decide +kernel) (not_mem_drop_of_lt rNDF (j := 118) (by decide +kernel) (by decide)) XR).symm)
  rw [e97 H]
  all_goals rfl

theorem e99 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v76) = after rOpsF XR (Proc.devRef .tc Cert.ReferenceIdeal.main_v87) := by
  refine (at_binary kWA kND 99 (y := Cert.KernelIdeal.main_v76) ((kAt_3 66 (by decide)).trans rfl) (by decide +kernel) (not_mem_drop_of_lt kND (j := 32) (by decide +kernel) (by decide)) (not_mem_drop_of_lt kND (j := 98) (by decide +kernel) (by decide)) XK).trans
    (Eq.trans ?_ (at_binary rWAF rNDF 120 (y := Cert.ReferenceIdeal.main_v87) ((rAt_1 52 (by decide)).trans rfl) (by decide +kernel) (not_mem_drop_of_lt rNDF (j := 53) (by decide +kernel) (by decide)) (not_mem_drop_of_lt rNDF (j := 119) (by decide +kernel) (by decide)) XR).symm)
  rw [e32 H, e98 H]
  all_goals rfl

theorem e100 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_17) = after rOpsF XR (Proc.devRef .tc Cert.ReferenceIdeal.main_c_23) := by
  refine (at_nullary kWA kND 100 (y := Cert.KernelIdeal.main_c_17) ((kAt_3 67 (by decide)).trans rfl) (by decide +kernel) XK).trans
    (Eq.trans ?_ (at_nullary rWAF rNDF 121 (y := Cert.ReferenceIdeal.main_c_23) ((rAt_1 53 (by decide)).trans rfl) (by decide +kernel) XR).symm)
  rfl

theorem e101 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v77) = after rOpsF XR (Proc.devRef .tc Cert.ReferenceIdeal.main_v88) := by
  refine (at_unary kWA kND 101 (y := Cert.KernelIdeal.main_v77) ((kAt_3 68 (by decide)).trans rfl) (by decide +kernel) (not_mem_drop_of_lt kND (j := 100) (by decide +kernel) (by decide)) XK).trans
    (Eq.trans ?_ (at_unary rWAF rNDF 122 (y := Cert.ReferenceIdeal.main_v88) ((rAt_1 54 (by decide)).trans rfl) (by decide +kernel) (not_mem_drop_of_lt rNDF (j := 121) (by decide +kernel) (by decide)) XR).symm)
  rw [e100 H]
  all_goals rfl

theorem e102 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v78) = after rOpsF XR (Proc.devRef .tc Cert.ReferenceIdeal.main_v89) := by
  refine (at_binary kWA kND 102 (y := Cert.KernelIdeal.main_v78) ((kAt_3 69 (by decide)).trans rfl) (by decide +kernel) (not_mem_drop_of_lt kND (j := 32) (by decide +kernel) (by decide)) (not_mem_drop_of_lt kND (j := 101) (by decide +kernel) (by decide)) XK).trans
    (Eq.trans ?_ (at_binary rWAF rNDF 123 (y := Cert.ReferenceIdeal.main_v89) ((rAt_1 55 (by decide)).trans rfl) (by decide +kernel) (not_mem_drop_of_lt rNDF (j := 53) (by decide +kernel) (by decide)) (not_mem_drop_of_lt rNDF (j := 122) (by decide +kernel) (by decide)) XR).symm)
  rw [e32 H, e101 H]
  all_goals rfl

theorem e103 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v79) = after rOpsF XR (Proc.devRef .tc Cert.ReferenceIdeal.main_v90) := by
  refine (at_ternary kWA kND 103 (y := Cert.KernelIdeal.main_v79) ((kAt_3 70 (by decide)).trans rfl) (by decide +kernel) (not_mem_drop_of_lt kND (j := 99) (by decide +kernel) (by decide)) (not_mem_drop_of_lt kND (j := 102) (by decide +kernel) (by decide)) (not_mem_drop_of_lt kND (j := 32) (by decide +kernel) (by decide)) XK).trans
    (Eq.trans ?_ (at_ternary rWAF rNDF 124 (y := Cert.ReferenceIdeal.main_v90) ((rAt_1 56 (by decide)).trans rfl) (by decide +kernel) (not_mem_drop_of_lt rNDF (j := 120) (by decide +kernel) (by decide)) (not_mem_drop_of_lt rNDF (j := 123) (by decide +kernel) (by decide)) (not_mem_drop_of_lt rNDF (j := 53) (by decide +kernel) (by decide)) XR).symm)
  rw [e99 H, e102 H, e32 H]
  all_goals rfl

theorem e104 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v80) = after rOpsF XR (Proc.devRef .tc Cert.ReferenceIdeal.main_v91) := by
  refine (at_unary kWA kND 104 (y := Cert.KernelIdeal.main_v80) ((kAt_3 71 (by decide)).trans rfl) (by decide +kernel) (not_mem_drop_of_lt kND (j := 103) (by decide +kernel) (by decide)) XK).trans
    (Eq.trans ?_ (at_unary rWAF rNDF 125 (y := Cert.ReferenceIdeal.main_v91) ((rAt_1 57 (by decide)).trans rfl) (by decide +kernel) (not_mem_drop_of_lt rNDF (j := 124) (by decide +kernel) (by decide)) XR).symm)
  rw [e103 H]
  all_goals rfl

theorem e105 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v81) = after rOpsF XR (Proc.devRef .tc Cert.ReferenceIdeal.main_v92) := by
  refine (at_binary kWA kND 105 (y := Cert.KernelIdeal.main_v81) ((kAt_3 72 (by decide)).trans rfl) (by decide +kernel) (not_mem_drop_of_not_mem kin_main_arg4 105) (not_mem_drop_of_lt kND (j := 104) (by decide +kernel) (by decide)) XK).trans
    (Eq.trans ?_ (at_binary rWAF rNDF 126 (y := Cert.ReferenceIdeal.main_v92) ((rAt_1 58 (by decide)).trans rfl) (by decide +kernel) (not_mem_drop_of_not_mem rinF_main_arg4 126) (not_mem_drop_of_lt rNDF (j := 125) (by decide +kernel) (by decide)) XR).symm)
  rw [H.main_arg4, e104 H]
  all_goals rfl

end Cert.Bridge

end
-- ==== Proof.Pairs01.lean ====
/-
  Operations 106 … 211 of the shared line: each pair of corresponding results agrees, because the two
  operations are one function and their operands agree (earlier equations, or the starting agreement).
-/
import proofs.«169849_j71803263254994_1_alg».proof.Proof.Pairs00

set_option maxRecDepth 16384
set_option maxHeartbeats 2000000

noncomputable section

namespace Cert.Bridge

open Idealize.ShloMosaic Idealize.SL.Sem Idealize.ShloMosaic.StableHlo Idealize.ShloMosaic.StableHlo.Line
open Cert.KernelIdeal.Tab Cert.ReferenceIdeal.Hand

variable {F : FTy → Type} [FloatOps F]

theorem e106 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v82) = after rOpsF XR (Proc.devRef .tc Cert.ReferenceIdeal.main_v93) := by
  refine (at_unary kWA kND 106 (y := Cert.KernelIdeal.main_v82) ((kAt_3 73 (by decide)).trans rfl) (by decide +kernel) (not_mem_drop_of_lt kND (j := 105) (by decide +kernel) (by decide)) XK).trans
    (Eq.trans ?_ (at_unary rWAF rNDF 127 (y := Cert.ReferenceIdeal.main_v93) ((rAt_1 59 (by decide)).trans rfl) (by decide +kernel) (not_mem_drop_of_lt rNDF (j := 126) (by decide +kernel) (by decide)) XR).symm)
  rw [e105 H]
  all_goals rfl

theorem e107 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v83) = after rOpsF XR (Proc.devRef .tc Cert.ReferenceIdeal.main_v94) := by
  refine (at_binary kWA kND 107 (y := Cert.KernelIdeal.main_v83) ((kAt_3 74 (by decide)).trans rfl) (by decide +kernel) (not_mem_drop_of_lt kND (j := 96) (by decide +kernel) (by decide)) (not_mem_drop_of_lt kND (j := 106) (by decide +kernel) (by decide)) XK).trans
    (Eq.trans ?_ (at_binary rWAF rNDF 128 (y := Cert.ReferenceIdeal.main_v94) ((rAt_2 0 (by decide)).trans rfl) (by decide +kernel) (not_mem_drop_of_lt rNDF (j := 117) (by decide +kernel) (by decide)) (not_mem_drop_of_lt rNDF (j := 127) (by decide +kernel) (by decide)) XR).symm)
  rw [e96 H, e106 H]
  all_goals rfl

theorem e108 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_18) = after rOpsF XR (Proc.devRef .tc Cert.ReferenceIdeal.main_c_24) := by
  refine (at_nullary kWA kND 108 (y := Cert.KernelIdeal.main_c_18) ((kAt_3 75 (by decide)).trans rfl) (by decide +kernel) XK).trans
    (Eq.trans ?_ (at_nullary rWAF rNDF 129 (y := Cert.ReferenceIdeal.main_c_24) ((rAt_2 1 (by decide)).trans rfl) (by decide +kernel) XR).symm)
  rfl

theorem e109 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v84) = after rOpsF XR (Proc.devRef .tc Cert.ReferenceIdeal.main_v95) := by
  refine (at_unary kWA kND 109 (y := Cert.KernelIdeal.main_v84) ((kAt_3 76 (by decide)).trans rfl) (by decide +kernel) (not_mem_drop_of_lt kND (j := 108) (by decide +kernel) (by decide)) XK).trans
    (Eq.trans ?_ (at_unary rWAF rNDF 130 (y := Cert.ReferenceIdeal.main_v95) ((rAt_2 2 (by decide)).trans rfl) (by decide +kernel) (not_mem_drop_of_lt rNDF (j := 129) (by decide +kernel) (by decide)) XR).symm)
  rw [e108 H]
  all_goals rfl

theorem e110 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v85) = after rOpsF XR (Proc.devRef .tc Cert.ReferenceIdeal.main_v96) := by
  refine (at_binary kWA kND 110 (y := Cert.KernelIdeal.main_v85) ((kAt_3 77 (by decide)).trans rfl) (by decide +kernel) (not_mem_drop_of_lt kND (j := 27) (by decide +kernel) (by decide)) (not_mem_drop_of_lt kND (j := 109) (by decide +kernel) (by decide)) XK).trans
    (Eq.trans ?_ (at_binary rWAF rNDF 131 (y := Cert.ReferenceIdeal.main_v96) ((rAt_2 3 (by decide)).trans rfl) (by decide +kernel) (not_mem_drop_of_lt rNDF (j := 48) (by decide +kernel) (by decide)) (not_mem_drop_of_lt rNDF (j := 130) (by decide +kernel) (by decide)) XR).symm)
  rw [e27 H, e109 H]
  all_goals rfl

theorem e111 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_19) = after rOpsF XR (Proc.devRef .tc Cert.ReferenceIdeal.main_c_25) := by
  refine (at_nullary kWA kND 111 (y := Cert.KernelIdeal.main_c_19) ((kAt_3 78 (by decide)).trans rfl) (by decide +kernel) XK).trans
    (Eq.trans ?_ (at_nullary rWAF rNDF 132 (y := Cert.ReferenceIdeal.main_c_25) ((rAt_2 4 (by decide)).trans rfl) (by decide +kernel) XR).symm)
  rfl

theorem e112 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v86) = after rOpsF XR (Proc.devRef .tc Cert.ReferenceIdeal.main_v97) := by
  refine (at_unary kWA kND 112 (y := Cert.KernelIdeal.main_v86) ((kAt_3 79 (by decide)).trans rfl) (by decide +kernel) (not_mem_drop_of_lt kND (j := 111) (by decide +kernel) (by decide)) XK).trans
    (Eq.trans ?_ (at_unary rWAF rNDF 133 (y := Cert.ReferenceIdeal.main_v97) ((rAt_2 5 (by decide)).trans rfl) (by decide +kernel) (not_mem_drop_of_lt rNDF (j := 132) (by decide +kernel) (by decide)) XR).symm)
  rw [e111 H]
  all_goals rfl

theorem e113 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v87) = after rOpsF XR (Proc.devRef .tc Cert.ReferenceIdeal.main_v98) := by
  refine (at_binary kWA kND 113 (y := Cert.KernelIdeal.main_v87) ((kAt_3 80 (by decide)).trans rfl) (by decide +kernel) (not_mem_drop_of_lt kND (j := 27) (by decide +kernel) (by decide)) (not_mem_drop_of_lt kND (j := 112) (by decide +kernel) (by decide)) XK).trans
    (Eq.trans ?_ (at_binary rWAF rNDF 134 (y := Cert.ReferenceIdeal.main_v98) ((rAt_2 6 (by decide)).trans rfl) (by decide +kernel) (not_mem_drop_of_lt rNDF (j := 48) (by decide +kernel) (by decide)) (not_mem_drop_of_lt rNDF (j := 133) (by decide +kernel) (by decide)) XR).symm)
  rw [e27 H, e112 H]
  all_goals rfl

theorem e114 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v88) = after rOpsF XR (Proc.devRef .tc Cert.ReferenceIdeal.main_v99) := by
  refine (at_ternary kWA kND 114 (y := Cert.KernelIdeal.main_v88) ((kAt_3 81 (by decide)).trans rfl) (by decide +kernel) (not_mem_drop_of_lt kND (j := 110) (by decide +kernel) (by decide)) (not_mem_drop_of_lt kND (j := 113) (by decide +kernel) (by decide)) (not_mem_drop_of_lt kND (j := 27) (by decide +kernel) (by decide)) XK).trans
    (Eq.trans ?_ (at_ternary rWAF rNDF 135 (y := Cert.ReferenceIdeal.main_v99) ((rAt_2 7 (by decide)).trans rfl) (by decide +kernel) (not_mem_drop_of_lt rNDF (j := 131) (by decide +kernel) (by decide)) (not_mem_drop_of_lt rNDF (j := 134) (by decide +kernel) (by decide)) (not_mem_drop_of_lt rNDF (j := 48) (by decide +kernel) (by decide)) XR).symm)
  rw [e110 H, e113 H, e27 H]
  all_goals rfl

theorem e115 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v89) = after rOpsF XR (Proc.devRef .tc Cert.ReferenceIdeal.main_v100) := by
  refine (at_unary kWA kND 115 (y := Cert.KernelIdeal.main_v89) ((kAt_3 82 (by decide)).trans rfl) (by decide +kernel) (not_mem_drop_of_lt kND (j := 114) (by decide +kernel) (by decide)) XK).trans
    (Eq.trans ?_ (at_unary rWAF rNDF 136 (y := Cert.ReferenceIdeal.main_v100) ((rAt_2 8 (by decide)).trans rfl) (by decide +kernel) (not_mem_drop_of_lt rNDF (j := 135) (by decide +kernel) (by decide)) XR).symm)
  rw [e114 H]
  all_goals rfl

theorem e116 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v90) = after rOpsF XR (Proc.devRef .tc Cert.ReferenceIdeal.main_v101) := by
  refine (at_binary kWA kND 116 (y := Cert.KernelIdeal.main_v90) ((kAt_3 83 (by decide)).trans rfl) (by decide +kernel) (not_mem_drop_of_not_mem kin_main_arg6 116) (not_mem_drop_of_lt kND (j := 115) (by decide +kernel) (by decide)) XK).trans
    (Eq.trans ?_ (at_binary rWAF rNDF 137 (y := Cert.ReferenceIdeal.main_v101) ((rAt_2 9 (by decide)).trans rfl) (by decide +kernel) (not_mem_drop_of_not_mem rinF_main_arg6 137) (not_mem_drop_of_lt rNDF (j := 136) (by decide +kernel) (by decide)) XR).symm)
  rw [H.main_arg6, e115 H]
  all_goals rfl

theorem e117 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_20) = after rOpsF XR (Proc.devRef .tc Cert.ReferenceIdeal.main_c_26) := by
  refine (at_nullary kWA kND 117 (y := Cert.KernelIdeal.main_c_20) ((kAt_3 84 (by decide)).trans rfl) (by decide +kernel) XK).trans
    (Eq.trans ?_ (at_nullary rWAF rNDF 138 (y := Cert.ReferenceIdeal.main_c_26) ((rAt_2 10 (by decide)).trans rfl) (by decide +kernel) XR).symm)
  rfl

theorem e118 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v91) = after rOpsF XR (Proc.devRef .tc Cert.ReferenceIdeal.main_v102) := by
  refine (at_unary kWA kND 118 (y := Cert.KernelIdeal.main_v91) ((kAt_3 85 (by decide)).trans rfl) (by decide +kernel) (not_mem_drop_of_lt kND (j := 117) (by decide +kernel) (by decide)) XK).trans
    (Eq.trans ?_ (at_unary rWAF rNDF 139 (y := Cert.ReferenceIdeal.main_v102) ((rAt_2 11 (by decide)).trans rfl) (by decide +kernel) (not_mem_drop_of_lt rNDF (j := 138) (by decide +kernel) (by decide)) XR).symm)
  rw [e117 H]
  all_goals rfl

theorem e119 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v92) = after rOpsF XR (Proc.devRef .tc Cert.ReferenceIdeal.main_v103) := by
  refine (at_binary kWA kND 119 (y := Cert.KernelIdeal.main_v92) ((kAt_3 86 (by decide)).trans rfl) (by decide +kernel) (not_mem_drop_of_lt kND (j := 32) (by decide +kernel) (by decide)) (not_mem_drop_of_lt kND (j := 118) (by decide +kernel) (by decide)) XK).trans
    (Eq.trans ?_ (at_binary rWAF rNDF 140 (y := Cert.ReferenceIdeal.main_v103) ((rAt_2 12 (by decide)).trans rfl) (by decide +kernel) (not_mem_drop_of_lt rNDF (j := 53) (by decide +kernel) (by decide)) (not_mem_drop_of_lt rNDF (j := 139) (by decide +kernel) (by decide)) XR).symm)
  rw [e32 H, e118 H]
  all_goals rfl

theorem e120 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_21) = after rOpsF XR (Proc.devRef .tc Cert.ReferenceIdeal.main_c_27) := by
  refine (at_nullary kWA kND 120 (y := Cert.KernelIdeal.main_c_21) ((kAt_3 87 (by decide)).trans rfl) (by decide +kernel) XK).trans
    (Eq.trans ?_ (at_nullary rWAF rNDF 141 (y := Cert.ReferenceIdeal.main_c_27) ((rAt_2 13 (by decide)).trans rfl) (by decide +kernel) XR).symm)
  rfl

theorem e121 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v93) = after rOpsF XR (Proc.devRef .tc Cert.ReferenceIdeal.main_v104) := by
  refine (at_unary kWA kND 121 (y := Cert.KernelIdeal.main_v93) ((kAt_3 88 (by decide)).trans rfl) (by decide +kernel) (not_mem_drop_of_lt kND (j := 120) (by decide +kernel) (by decide)) XK).trans
    (Eq.trans ?_ (at_unary rWAF rNDF 142 (y := Cert.ReferenceIdeal.main_v104) ((rAt_2 14 (by decide)).trans rfl) (by decide +kernel) (not_mem_drop_of_lt rNDF (j := 141) (by decide +kernel) (by decide)) XR).symm)
  rw [e120 H]
  all_goals rfl

theorem e122 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v94) = after rOpsF XR (Proc.devRef .tc Cert.ReferenceIdeal.main_v105) := by
  refine (at_binary kWA kND 122 (y := Cert.KernelIdeal.main_v94) ((kAt_3 89 (by decide)).trans rfl) (by decide +kernel) (not_mem_drop_of_lt kND (j := 32) (by decide +kernel) (by decide)) (not_mem_drop_of_lt kND (j := 121) (by decide +kernel) (by decide)) XK).trans
    (Eq.trans ?_ (at_binary rWAF rNDF 143 (y := Cert.ReferenceIdeal.main_v105) ((rAt_2 15 (by decide)).trans rfl) (by decide +kernel) (not_mem_drop_of_lt rNDF (j := 53) (by decide +kernel) (by decide)) (not_mem_drop_of_lt rNDF (j := 142) (by decide +kernel) (by decide)) XR).symm)
  rw [e32 H, e121 H]
  all_goals rfl

theorem e123 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v95) = after rOpsF XR (Proc.devRef .tc Cert.ReferenceIdeal.main_v106) := by
  refine (at_ternary kWA kND 123 (y := Cert.KernelIdeal.main_v95) ((kAt_3 90 (by decide)).trans rfl) (by decide +kernel) (not_mem_drop_of_lt kND (j := 119) (by decide +kernel) (by decide)) (not_mem_drop_of_lt kND (j := 122) (by decide +kernel) (by decide)) (not_mem_drop_of_lt kND (j := 32) (by decide +kernel) (by decide)) XK).trans
    (Eq.trans ?_ (at_ternary rWAF rNDF 144 (y := Cert.ReferenceIdeal.main_v106) ((rAt_2 16 (by decide)).trans rfl) (by decide +kernel) (not_mem_drop_of_lt rNDF (j := 140) (by decide +kernel) (by decide)) (not_mem_drop_of_lt rNDF (j := 143) (by decide +kernel) (by decide)) (not_mem_drop_of_lt rNDF (j := 53) (by decide +kernel) (by decide)) XR).symm)
  rw [e119 H, e122 H, e32 H]
  all_goals rfl

theorem e124 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v96) = after rOpsF XR (Proc.devRef .tc Cert.ReferenceIdeal.main_v107) := by
  refine (at_unary kWA kND 124 (y := Cert.KernelIdeal.main_v96) ((kAt_3 91 (by decide)).trans rfl) (by decide +kernel) (not_mem_drop_of_lt kND (j := 123) (by decide +kernel) (by decide)) XK).trans
    (Eq.trans ?_ (at_unary rWAF rNDF 145 (y := Cert.ReferenceIdeal.main_v107) ((rAt_2 17 (by decide)).trans rfl) (by decide +kernel) (not_mem_drop_of_lt rNDF (j := 144) (by decide +kernel) (by decide)) XR).symm)
  rw [e123 H]
  all_goals rfl

theorem e125 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v97) = after rOpsF XR (Proc.devRef .tc Cert.ReferenceIdeal.main_v108) := by
  refine (at_binary kWA kND 125 (y := Cert.KernelIdeal.main_v97) ((kAt_3 92 (by decide)).trans rfl) (by decide +kernel) (not_mem_drop_of_not_mem kin_main_arg6 125) (not_mem_drop_of_lt kND (j := 124) (by decide +kernel) (by decide)) XK).trans
    (Eq.trans ?_ (at_binary rWAF rNDF 146 (y := Cert.ReferenceIdeal.main_v108) ((rAt_2 18 (by decide)).trans rfl) (by decide +kernel) (not_mem_drop_of_not_mem rinF_main_arg6 146) (not_mem_drop_of_lt rNDF (j := 145) (by decide +kernel) (by decide)) XR).symm)
  rw [H.main_arg6, e124 H]
  all_goals rfl

theorem e126 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v98) = after rOpsF XR (Proc.devRef .tc Cert.ReferenceIdeal.main_v109) := by
  refine (at_binary kWA kND 126 (y := Cert.KernelIdeal.main_v98) ((kAt_3 93 (by decide)).trans rfl) (by decide +kernel) (not_mem_drop_of_lt kND (j := 116) (by decide +kernel) (by decide)) (not_mem_drop_of_lt kND (j := 125) (by decide +kernel) (by decide)) XK).trans
    (Eq.trans ?_ (at_binary rWAF rNDF 147 (y := Cert.ReferenceIdeal.main_v109) ((rAt_2 19 (by decide)).trans rfl) (by decide +kernel) (not_mem_drop_of_lt rNDF (j := 137) (by decide +kernel) (by decide)) (not_mem_drop_of_lt rNDF (j := 146) (by decide +kernel) (by decide)) XR).symm)
  rw [e116 H, e125 H]
  all_goals rfl

theorem e127 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_22) = after rOpsF XR (Proc.devRef .tc Cert.ReferenceIdeal.main_c_28) := by
  refine (at_nullary kWA kND 127 (y := Cert.KernelIdeal.main_c_22) ((kAt_3 94 (by decide)).trans rfl) (by decide +kernel) XK).trans
    (Eq.trans ?_ (at_nullary rWAF rNDF 148 (y := Cert.ReferenceIdeal.main_c_28) ((rAt_2 20 (by decide)).trans rfl) (by decide +kernel) XR).symm)
  rfl

theorem e128 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v99) = after rOpsF XR (Proc.devRef .tc Cert.ReferenceIdeal.main_v110) := by
  refine (at_unary kWA kND 128 (y := Cert.KernelIdeal.main_v99) ((kAt_3 95 (by decide)).trans rfl) (by decide +kernel) (not_mem_drop_of_lt kND (j := 127) (by decide +kernel) (by decide)) XK).trans
    (Eq.trans ?_ (at_unary rWAF rNDF 149 (y := Cert.ReferenceIdeal.main_v110) ((rAt_2 21 (by decide)).trans rfl) (by decide +kernel) (not_mem_drop_of_lt rNDF (j := 148) (by decide +kernel) (by decide)) XR).symm)
  rw [e127 H]
  all_goals rfl

theorem e129 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v100) = after rOpsF XR (Proc.devRef .tc Cert.ReferenceIdeal.main_v111) := by
  refine (at_binary kWA kND 129 (y := Cert.KernelIdeal.main_v100) ((kAt_3 96 (by decide)).trans rfl) (by decide +kernel) (not_mem_drop_of_lt kND (j := 27) (by decide +kernel) (by decide)) (not_mem_drop_of_lt kND (j := 128) (by decide +kernel) (by decide)) XK).trans
    (Eq.trans ?_ (at_binary rWAF rNDF 150 (y := Cert.ReferenceIdeal.main_v111) ((rAt_2 22 (by decide)).trans rfl) (by decide +kernel) (not_mem_drop_of_lt rNDF (j := 48) (by decide +kernel) (by decide)) (not_mem_drop_of_lt rNDF (j := 149) (by decide +kernel) (by decide)) XR).symm)
  rw [e27 H, e128 H]
  all_goals rfl

theorem e130 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_23) = after rOpsF XR (Proc.devRef .tc Cert.ReferenceIdeal.main_c_29) := by
  refine (at_nullary kWA kND 130 (y := Cert.KernelIdeal.main_c_23) ((kAt_3 97 (by decide)).trans rfl) (by decide +kernel) XK).trans
    (Eq.trans ?_ (at_nullary rWAF rNDF 151 (y := Cert.ReferenceIdeal.main_c_29) ((rAt_2 23 (by decide)).trans rfl) (by decide +kernel) XR).symm)
  rfl

theorem e131 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v101) = after rOpsF XR (Proc.devRef .tc Cert.ReferenceIdeal.main_v112) := by
  refine (at_unary kWA kND 131 (y := Cert.KernelIdeal.main_v101) ((kAt_3 98 (by decide)).trans rfl) (by decide +kernel) (not_mem_drop_of_lt kND (j := 130) (by decide +kernel) (by decide)) XK).trans
    (Eq.trans ?_ (at_unary rWAF rNDF 152 (y := Cert.ReferenceIdeal.main_v112) ((rAt_2 24 (by decide)).trans rfl) (by decide +kernel) (not_mem_drop_of_lt rNDF (j := 151) (by decide +kernel) (by decide)) XR).symm)
  rw [e130 H]
  all_goals rfl

theorem e132 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v102) = after rOpsF XR (Proc.devRef .tc Cert.ReferenceIdeal.main_v113) := by
  refine (at_binary kWA kND 132 (y := Cert.KernelIdeal.main_v102) ((kAt_3 99 (by decide)).trans rfl) (by decide +kernel) (not_mem_drop_of_lt kND (j := 27) (by decide +kernel) (by decide)) (not_mem_drop_of_lt kND (j := 131) (by decide +kernel) (by decide)) XK).trans
    (Eq.trans ?_ (at_binary rWAF rNDF 153 (y := Cert.ReferenceIdeal.main_v113) ((rAt_2 25 (by decide)).trans rfl) (by decide +kernel) (not_mem_drop_of_lt rNDF (j := 48) (by decide +kernel) (by decide)) (not_mem_drop_of_lt rNDF (j := 152) (by decide +kernel) (by decide)) XR).symm)
  rw [e27 H, e131 H]
  all_goals rfl

theorem e133 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v103) = after rOpsF XR (Proc.devRef .tc Cert.ReferenceIdeal.main_v114) := by
  refine (at_ternary kWA kND 133 (y := Cert.KernelIdeal.main_v103) ((kAt_3 100 (by decide)).trans rfl) (by decide +kernel) (not_mem_drop_of_lt kND (j := 129) (by decide +kernel) (by decide)) (not_mem_drop_of_lt kND (j := 132) (by decide +kernel) (by decide)) (not_mem_drop_of_lt kND (j := 27) (by decide +kernel) (by decide)) XK).trans
    (Eq.trans ?_ (at_ternary rWAF rNDF 154 (y := Cert.ReferenceIdeal.main_v114) ((rAt_2 26 (by decide)).trans rfl) (by decide +kernel) (not_mem_drop_of_lt rNDF (j := 150) (by decide +kernel) (by decide)) (not_mem_drop_of_lt rNDF (j := 153) (by decide +kernel) (by decide)) (not_mem_drop_of_lt rNDF (j := 48) (by decide +kernel) (by decide)) XR).symm)
  rw [e129 H, e132 H, e27 H]
  all_goals rfl

theorem e134 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v104) = after rOpsF XR (Proc.devRef .tc Cert.ReferenceIdeal.main_v115) := by
  refine (at_unary kWA kND 134 (y := Cert.KernelIdeal.main_v104) ((kAt_3 101 (by decide)).trans rfl) (by decide +kernel) (not_mem_drop_of_lt kND (j := 133) (by decide +kernel) (by decide)) XK).trans
    (Eq.trans ?_ (at_unary rWAF rNDF 155 (y := Cert.ReferenceIdeal.main_v115) ((rAt_2 27 (by decide)).trans rfl) (by decide +kernel) (not_mem_drop_of_lt rNDF (j := 154) (by decide +kernel) (by decide)) XR).symm)
  rw [e133 H]
  all_goals rfl

theorem e135 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v105) = after rOpsF XR (Proc.devRef .tc Cert.ReferenceIdeal.main_v116) := by
  refine (at_binary kWA kND 135 (y := Cert.KernelIdeal.main_v105) ((kAt_3 102 (by decide)).trans rfl) (by decide +kernel) (not_mem_drop_of_not_mem kin_main_arg5 135) (not_mem_drop_of_lt kND (j := 134) (by decide +kernel) (by decide)) XK).trans
    (Eq.trans ?_ (at_binary rWAF rNDF 156 (y := Cert.ReferenceIdeal.main_v116) ((rAt_2 28 (by decide)).trans rfl) (by decide +kernel) (not_mem_drop_of_not_mem rinF_main_arg5 156) (not_mem_drop_of_lt rNDF (j := 155) (by decide +kernel) (by decide)) XR).symm)
  rw [H.main_arg5, e134 H]
  all_goals rfl

theorem e136 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_24) = after rOpsF XR (Proc.devRef .tc Cert.ReferenceIdeal.main_c_30) := by
  refine (at_nullary kWA kND 136 (y := Cert.KernelIdeal.main_c_24) ((kAt_3 103 (by decide)).trans rfl) (by decide +kernel) XK).trans
    (Eq.trans ?_ (at_nullary rWAF rNDF 157 (y := Cert.ReferenceIdeal.main_c_30) ((rAt_2 29 (by decide)).trans rfl) (by decide +kernel) XR).symm)
  rfl

theorem e137 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v106) = after rOpsF XR (Proc.devRef .tc Cert.ReferenceIdeal.main_v117) := by
  refine (at_unary kWA kND 137 (y := Cert.KernelIdeal.main_v106) ((kAt_3 104 (by decide)).trans rfl) (by decide +kernel) (not_mem_drop_of_lt kND (j := 136) (by decide +kernel) (by decide)) XK).trans
    (Eq.trans ?_ (at_unary rWAF rNDF 158 (y := Cert.ReferenceIdeal.main_v117) ((rAt_2 30 (by decide)).trans rfl) (by decide +kernel) (not_mem_drop_of_lt rNDF (j := 157) (by decide +kernel) (by decide)) XR).symm)
  rw [e136 H]
  all_goals rfl

theorem e138 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v107) = after rOpsF XR (Proc.devRef .tc Cert.ReferenceIdeal.main_v118) := by
  refine (at_binary kWA kND 138 (y := Cert.KernelIdeal.main_v107) ((kAt_3 105 (by decide)).trans rfl) (by decide +kernel) (not_mem_drop_of_lt kND (j := 32) (by decide +kernel) (by decide)) (not_mem_drop_of_lt kND (j := 137) (by decide +kernel) (by decide)) XK).trans
    (Eq.trans ?_ (at_binary rWAF rNDF 159 (y := Cert.ReferenceIdeal.main_v118) ((rAt_2 31 (by decide)).trans rfl) (by decide +kernel) (not_mem_drop_of_lt rNDF (j := 53) (by decide +kernel) (by decide)) (not_mem_drop_of_lt rNDF (j := 158) (by decide +kernel) (by decide)) XR).symm)
  rw [e32 H, e137 H]
  all_goals rfl

theorem e139 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_25) = after rOpsF XR (Proc.devRef .tc Cert.ReferenceIdeal.main_c_31) := by
  refine (at_nullary kWA kND 139 (y := Cert.KernelIdeal.main_c_25) ((kAt_3 106 (by decide)).trans rfl) (by decide +kernel) XK).trans
    (Eq.trans ?_ (at_nullary rWAF rNDF 160 (y := Cert.ReferenceIdeal.main_c_31) ((rAt_2 32 (by decide)).trans rfl) (by decide +kernel) XR).symm)
  rfl

theorem e140 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v108) = after rOpsF XR (Proc.devRef .tc Cert.ReferenceIdeal.main_v119) := by
  refine (at_unary kWA kND 140 (y := Cert.KernelIdeal.main_v108) ((kAt_3 107 (by decide)).trans rfl) (by decide +kernel) (not_mem_drop_of_lt kND (j := 139) (by decide +kernel) (by decide)) XK).trans
    (Eq.trans ?_ (at_unary rWAF rNDF 161 (y := Cert.ReferenceIdeal.main_v119) ((rAt_2 33 (by decide)).trans rfl) (by decide +kernel) (not_mem_drop_of_lt rNDF (j := 160) (by decide +kernel) (by decide)) XR).symm)
  rw [e139 H]
  all_goals rfl

theorem e141 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v109) = after rOpsF XR (Proc.devRef .tc Cert.ReferenceIdeal.main_v120) := by
  refine (at_binary kWA kND 141 (y := Cert.KernelIdeal.main_v109) ((kAt_3 108 (by decide)).trans rfl) (by decide +kernel) (not_mem_drop_of_lt kND (j := 32) (by decide +kernel) (by decide)) (not_mem_drop_of_lt kND (j := 140) (by decide +kernel) (by decide)) XK).trans
    (Eq.trans ?_ (at_binary rWAF rNDF 162 (y := Cert.ReferenceIdeal.main_v120) ((rAt_2 34 (by decide)).trans rfl) (by decide +kernel) (not_mem_drop_of_lt rNDF (j := 53) (by decide +kernel) (by decide)) (not_mem_drop_of_lt rNDF (j := 161) (by decide +kernel) (by decide)) XR).symm)
  rw [e32 H, e140 H]
  all_goals rfl

theorem e142 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v110) = after rOpsF XR (Proc.devRef .tc Cert.ReferenceIdeal.main_v121) := by
  refine (at_ternary kWA kND 142 (y := Cert.KernelIdeal.main_v110) ((kAt_3 109 (by decide)).trans rfl) (by decide +kernel) (not_mem_drop_of_lt kND (j := 138) (by decide +kernel) (by decide)) (not_mem_drop_of_lt kND (j := 141) (by decide +kernel) (by decide)) (not_mem_drop_of_lt kND (j := 32) (by decide +kernel) (by decide)) XK).trans
    (Eq.trans ?_ (at_ternary rWAF rNDF 163 (y := Cert.ReferenceIdeal.main_v121) ((rAt_2 35 (by decide)).trans rfl) (by decide +kernel) (not_mem_drop_of_lt rNDF (j := 159) (by decide +kernel) (by decide)) (not_mem_drop_of_lt rNDF (j := 162) (by decide +kernel) (by decide)) (not_mem_drop_of_lt rNDF (j := 53) (by decide +kernel) (by decide)) XR).symm)
  rw [e138 H, e141 H, e32 H]
  all_goals rfl

theorem e143 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v111) = after rOpsF XR (Proc.devRef .tc Cert.ReferenceIdeal.main_v122) := by
  refine (at_unary kWA kND 143 (y := Cert.KernelIdeal.main_v111) ((kAt_3 110 (by decide)).trans rfl) (by decide +kernel) (not_mem_drop_of_lt kND (j := 142) (by decide +kernel) (by decide)) XK).trans
    (Eq.trans ?_ (at_unary rWAF rNDF 164 (y := Cert.ReferenceIdeal.main_v122) ((rAt_2 36 (by decide)).trans rfl) (by decide +kernel) (not_mem_drop_of_lt rNDF (j := 163) (by decide +kernel) (by decide)) XR).symm)
  rw [e142 H]
  all_goals rfl

theorem e144 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v112) = after rOpsF XR (Proc.devRef .tc Cert.ReferenceIdeal.main_v123) := by
  refine (at_binary kWA kND 144 (y := Cert.KernelIdeal.main_v112) ((kAt_3 111 (by decide)).trans rfl) (by decide +kernel) (not_mem_drop_of_not_mem kin_main_arg5 144) (not_mem_drop_of_lt kND (j := 143) (by decide +kernel) (by decide)) XK).trans
    (Eq.trans ?_ (at_binary rWAF rNDF 165 (y := Cert.ReferenceIdeal.main_v123) ((rAt_2 37 (by decide)).trans rfl) (by decide +kernel) (not_mem_drop_of_not_mem rinF_main_arg5 165) (not_mem_drop_of_lt rNDF (j := 164) (by decide +kernel) (by decide)) XR).symm)
  rw [H.main_arg5, e143 H]
  all_goals rfl

theorem e145 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v113) = after rOpsF XR (Proc.devRef .tc Cert.ReferenceIdeal.main_v124) := by
  refine (at_binary kWA kND 145 (y := Cert.KernelIdeal.main_v113) ((kAt_3 112 (by decide)).trans rfl) (by decide +kernel) (not_mem_drop_of_lt kND (j := 135) (by decide +kernel) (by decide)) (not_mem_drop_of_lt kND (j := 144) (by decide +kernel) (by decide)) XK).trans
    (Eq.trans ?_ (at_binary rWAF rNDF 166 (y := Cert.ReferenceIdeal.main_v124) ((rAt_2 38 (by decide)).trans rfl) (by decide +kernel) (not_mem_drop_of_lt rNDF (j := 156) (by decide +kernel) (by decide)) (not_mem_drop_of_lt rNDF (j := 165) (by decide +kernel) (by decide)) XR).symm)
  rw [e135 H, e144 H]
  all_goals rfl

theorem e146 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_26) = after rOpsF XR (Proc.devRef .tc Cert.ReferenceIdeal.main_c_32) := by
  refine (at_nullary kWA kND 146 (y := Cert.KernelIdeal.main_c_26) ((kAt_3 113 (by decide)).trans rfl) (by decide +kernel) XK).trans
    (Eq.trans ?_ (at_nullary rWAF rNDF 167 (y := Cert.ReferenceIdeal.main_c_32) ((rAt_2 39 (by decide)).trans rfl) (by decide +kernel) XR).symm)
  rfl

theorem e147 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v114) = after rOpsF XR (Proc.devRef .tc Cert.ReferenceIdeal.main_v125) := by
  refine (at_binary kWA kND 147 (y := Cert.KernelIdeal.main_v114) ((kAt_3 114 (by decide)).trans rfl) (by decide +kernel) (not_mem_drop_of_lt kND (j := 87) (by decide +kernel) (by decide)) (not_mem_drop_of_lt kND (j := 146) (by decide +kernel) (by decide)) XK).trans
    (Eq.trans ?_ (at_binary rWAF rNDF 168 (y := Cert.ReferenceIdeal.main_v125) ((rAt_2 40 (by decide)).trans rfl) (by decide +kernel) (not_mem_drop_of_lt rNDF (j := 108) (by decide +kernel) (by decide)) (not_mem_drop_of_lt rNDF (j := 167) (by decide +kernel) (by decide)) XR).symm)
  rw [e87 H, e146 H]
  all_goals rfl

theorem e148 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v115) = after rOpsF XR (Proc.devRef .tc Cert.ReferenceIdeal.main_v126) := by
  refine (at_binary kWA kND 148 (y := Cert.KernelIdeal.main_v115) ((kAt_3 115 (by decide)).trans rfl) (by decide +kernel) (not_mem_drop_of_lt kND (j := 22) (by decide +kernel) (by decide)) (not_mem_drop_of_lt kND (j := 147) (by decide +kernel) (by decide)) XK).trans
    (Eq.trans ?_ (at_binary rWAF rNDF 169 (y := Cert.ReferenceIdeal.main_v126) ((rAt_2 41 (by decide)).trans rfl) (by decide +kernel) (not_mem_drop_of_lt rNDF (j := 43) (by decide +kernel) (by decide)) (not_mem_drop_of_lt rNDF (j := 168) (by decide +kernel) (by decide)) XR).symm)
  rw [e22 H, e147 H]
  all_goals rfl

theorem e149 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_27) = after rOpsF XR (Proc.devRef .tc Cert.ReferenceIdeal.main_c_33) := by
  refine (at_nullary kWA kND 149 (y := Cert.KernelIdeal.main_c_27) ((kAt_3 116 (by decide)).trans rfl) (by decide +kernel) XK).trans
    (Eq.trans ?_ (at_nullary rWAF rNDF 170 (y := Cert.ReferenceIdeal.main_c_33) ((rAt_2 42 (by decide)).trans rfl) (by decide +kernel) XR).symm)
  rfl

theorem e150 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v116) = after rOpsF XR (Proc.devRef .tc Cert.ReferenceIdeal.main_v127) := by
  refine (at_binary kWA kND 150 (y := Cert.KernelIdeal.main_v116) ((kAt_3 117 (by decide)).trans rfl) (by decide +kernel) (not_mem_drop_of_lt kND (j := 107) (by decide +kernel) (by decide)) (not_mem_drop_of_lt kND (j := 149) (by decide +kernel) (by decide)) XK).trans
    (Eq.trans ?_ (at_binary rWAF rNDF 171 (y := Cert.ReferenceIdeal.main_v127) ((rAt_2 43 (by decide)).trans rfl) (by decide +kernel) (not_mem_drop_of_lt rNDF (j := 128) (by decide +kernel) (by decide)) (not_mem_drop_of_lt rNDF (j := 170) (by decide +kernel) (by decide)) XR).symm)
  rw [e107 H, e149 H]
  all_goals rfl

theorem e151 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v117) = after rOpsF XR (Proc.devRef .tc Cert.ReferenceIdeal.main_v128) := by
  refine (at_binary kWA kND 151 (y := Cert.KernelIdeal.main_v117) ((kAt_3 118 (by decide)).trans rfl) (by decide +kernel) (not_mem_drop_of_lt kND (j := 22) (by decide +kernel) (by decide)) (not_mem_drop_of_lt kND (j := 150) (by decide +kernel) (by decide)) XK).trans
    (Eq.trans ?_ (at_binary rWAF rNDF 172 (y := Cert.ReferenceIdeal.main_v128) ((rAt_2 44 (by decide)).trans rfl) (by decide +kernel) (not_mem_drop_of_lt rNDF (j := 43) (by decide +kernel) (by decide)) (not_mem_drop_of_lt rNDF (j := 171) (by decide +kernel) (by decide)) XR).symm)
  rw [e22 H, e150 H]
  all_goals rfl

theorem e152 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_28) = after rOpsF XR (Proc.devRef .tc Cert.ReferenceIdeal.main_c_34) := by
  refine (at_nullary kWA kND 152 (y := Cert.KernelIdeal.main_c_28) ((kAt_3 119 (by decide)).trans rfl) (by decide +kernel) XK).trans
    (Eq.trans ?_ (at_nullary rWAF rNDF 173 (y := Cert.ReferenceIdeal.main_c_34) ((rAt_2 45 (by decide)).trans rfl) (by decide +kernel) XR).symm)
  rfl

theorem e153 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v118) = after rOpsF XR (Proc.devRef .tc Cert.ReferenceIdeal.main_v129) := by
  refine (at_binary kWA kND 153 (y := Cert.KernelIdeal.main_v118) ((kAt_3 120 (by decide)).trans rfl) (by decide +kernel) (not_mem_drop_of_lt kND (j := 126) (by decide +kernel) (by decide)) (not_mem_drop_of_lt kND (j := 152) (by decide +kernel) (by decide)) XK).trans
    (Eq.trans ?_ (at_binary rWAF rNDF 174 (y := Cert.ReferenceIdeal.main_v129) ((rAt_2 46 (by decide)).trans rfl) (by decide +kernel) (not_mem_drop_of_lt rNDF (j := 147) (by decide +kernel) (by decide)) (not_mem_drop_of_lt rNDF (j := 173) (by decide +kernel) (by decide)) XR).symm)
  rw [e126 H, e152 H]
  all_goals rfl

theorem e154 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v119) = after rOpsF XR (Proc.devRef .tc Cert.ReferenceIdeal.main_v130) := by
  refine (at_binary kWA kND 154 (y := Cert.KernelIdeal.main_v119) ((kAt_3 121 (by decide)).trans rfl) (by decide +kernel) (not_mem_drop_of_lt kND (j := 22) (by decide +kernel) (by decide)) (not_mem_drop_of_lt kND (j := 153) (by decide +kernel) (by decide)) XK).trans
    (Eq.trans ?_ (at_binary rWAF rNDF 175 (y := Cert.ReferenceIdeal.main_v130) ((rAt_2 47 (by decide)).trans rfl) (by decide +kernel) (not_mem_drop_of_lt rNDF (j := 43) (by decide +kernel) (by decide)) (not_mem_drop_of_lt rNDF (j := 174) (by decide +kernel) (by decide)) XR).symm)
  rw [e22 H, e153 H]
  all_goals rfl

theorem e155 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v120) = after rOpsF XR (Proc.devRef .tc Cert.ReferenceIdeal.main_v131) := by
  refine (at_binary kWA kND 155 (y := Cert.KernelIdeal.main_v120) ((kAt_3 122 (by decide)).trans rfl) (by decide +kernel) (not_mem_drop_of_lt kND (j := 54) (by decide +kernel) (by decide)) (not_mem_drop_of_lt kND (j := 67) (by decide +kernel) (by decide)) XK).trans
    (Eq.trans ?_ (at_binary rWAF rNDF 176 (y := Cert.ReferenceIdeal.main_v131) ((rAt_2 48 (by decide)).trans rfl) (by decide +kernel) (not_mem_drop_of_lt rNDF (j := 75) (by decide +kernel) (by decide)) (not_mem_drop_of_lt rNDF (j := 88) (by decide +kernel) (by decide)) XR).symm)
  rw [e54 H, e67 H]
  all_goals rfl

theorem e156 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_29) = after rOpsF XR (Proc.devRef .tc Cert.ReferenceIdeal.main_cst_35) := by
  refine (at_nullary kWA kND 156 (y := Cert.KernelIdeal.main_cst_29) ((kAt_3 123 (by decide)).trans rfl) (by decide +kernel) XK).trans
    (Eq.trans ?_ (at_nullary rWAF rNDF 177 (y := Cert.ReferenceIdeal.main_cst_35) ((rAt_2 49 (by decide)).trans rfl) (by decide +kernel) XR).symm)
  rfl

theorem e157 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v121) = after rOpsF XR (Proc.devRef .tc Cert.ReferenceIdeal.main_v132) := by
  refine (at_unary kWA kND 157 (y := Cert.KernelIdeal.main_v121) ((kAt_3 124 (by decide)).trans rfl) (by decide +kernel) (not_mem_drop_of_lt kND (j := 156) (by decide +kernel) (by decide)) XK).trans
    (Eq.trans ?_ (at_unary rWAF rNDF 178 (y := Cert.ReferenceIdeal.main_v132) ((rAt_2 50 (by decide)).trans rfl) (by decide +kernel) (not_mem_drop_of_lt rNDF (j := 177) (by decide +kernel) (by decide)) XR).symm)
  rw [e156 H]
  all_goals rfl

theorem e158 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v122) = after rOpsF XR (Proc.devRef .tc Cert.ReferenceIdeal.main_v133) := by
  refine (at_binary kWA kND 158 (y := Cert.KernelIdeal.main_v122) ((kAt_3 125 (by decide)).trans rfl) (by decide +kernel) (not_mem_drop_of_lt kND (j := 157) (by decide +kernel) (by decide)) (not_mem_drop_of_lt kND (j := 155) (by decide +kernel) (by decide)) XK).trans
    (Eq.trans ?_ (at_binary rWAF rNDF 179 (y := Cert.ReferenceIdeal.main_v133) ((rAt_2 51 (by decide)).trans rfl) (by decide +kernel) (not_mem_drop_of_lt rNDF (j := 178) (by decide +kernel) (by decide)) (not_mem_drop_of_lt rNDF (j := 176) (by decide +kernel) (by decide)) XR).symm)
  rw [e157 H, e155 H]
  all_goals rfl

theorem e159 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call2_cst) = after rOpsF XR (Proc.devRef .tc Cert.ReferenceIdeal.main_call2_cst) := by
  refine (at_nullary kWA kND 159 (y := Cert.KernelIdeal.main_call2_cst) ((kAt_4 0 (by decide)).trans rfl) (by decide +kernel) XK).trans
    (Eq.trans ?_ (at_nullary rWAF rNDF 180 (y := Cert.ReferenceIdeal.main_call2_cst) ((rAt_2 52 (by decide)).trans rfl) (by decide +kernel) XR).symm)
  rfl

theorem e160 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call2_v0) = after rOpsF XR (Proc.devRef .tc Cert.ReferenceIdeal.main_call2_v0) := by
  refine (at_unary kWA kND 160 (y := Cert.KernelIdeal.main_call2_v0) ((kAt_4 1 (by decide)).trans rfl) (by decide +kernel) (not_mem_drop_of_lt kND (j := 159) (by decide +kernel) (by decide)) XK).trans
    (Eq.trans ?_ (at_unary rWAF rNDF 181 (y := Cert.ReferenceIdeal.main_call2_v0) ((rAt_2 53 (by decide)).trans rfl) (by decide +kernel) (not_mem_drop_of_lt rNDF (j := 180) (by decide +kernel) (by decide)) XR).symm)
  rw [e159 H]
  all_goals rfl

theorem e161 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v123) = after rOpsF XR (Proc.devRef .tc Cert.ReferenceIdeal.main_v134) := by
  refine (at_binary kWA kND 161 (y := Cert.KernelIdeal.main_v123) ((kAt_4 2 (by decide)).trans rfl) (by decide +kernel) (not_mem_drop_of_lt kND (j := 158) (by decide +kernel) (by decide)) (not_mem_drop_of_lt kND (j := 160) (by decide +kernel) (by decide)) XK).trans
    (Eq.trans ?_ (at_binary rWAF rNDF 182 (y := Cert.ReferenceIdeal.main_v134) ((rAt_2 54 (by decide)).trans rfl) (by decide +kernel) (not_mem_drop_of_lt rNDF (j := 179) (by decide +kernel) (by decide)) (not_mem_drop_of_lt rNDF (j := 181) (by decide +kernel) (by decide)) XR).symm)
  rw [e158 H, e160 H]
  all_goals rfl

theorem e162 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v124) = after rOpsF XR (Proc.devRef .tc Cert.ReferenceIdeal.main_v135) := by
  refine (at_binary kWA kND 162 (y := Cert.KernelIdeal.main_v124) ((kAt_5 0 (by decide)).trans rfl) (by decide +kernel) (not_mem_drop_of_lt kND (j := 161) (by decide +kernel) (by decide)) (not_mem_drop_of_lt kND (j := 161) (by decide +kernel) (by decide)) XK).trans
    (Eq.trans ?_ (at_binary rWAF rNDF 183 (y := Cert.ReferenceIdeal.main_v135) ((rAt_2 55 (by decide)).trans rfl) (by decide +kernel) (not_mem_drop_of_lt rNDF (j := 182) (by decide +kernel) (by decide)) (not_mem_drop_of_lt rNDF (j := 182) (by decide +kernel) (by decide)) XR).symm)
  rw [e161 H]
  all_goals rfl

theorem e163 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v125) = after rOpsF XR (Proc.devRef .tc Cert.ReferenceIdeal.main_v136) := by
  refine (at_unary kWA kND 163 (y := Cert.KernelIdeal.main_v125) ((kAt_5 1 (by decide)).trans rfl) (by decide +kernel) (not_mem_drop_of_lt kND (j := 87) (by decide +kernel) (by decide)) XK).trans
    (Eq.trans ?_ (at_unary rWAF rNDF 184 (y := Cert.ReferenceIdeal.main_v136) ((rAt_2 56 (by decide)).trans rfl) (by decide +kernel) (not_mem_drop_of_lt rNDF (j := 108) (by decide +kernel) (by decide)) XR).symm)
  rw [e87 H]
  all_goals rfl

theorem e164 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_30) = after rOpsF XR (Proc.devRef .tc Cert.ReferenceIdeal.main_c_36) := by
  refine (at_nullary kWA kND 164 (y := Cert.KernelIdeal.main_c_30) ((kAt_5 2 (by decide)).trans rfl) (by decide +kernel) XK).trans
    (Eq.trans ?_ (at_nullary rWAF rNDF 185 (y := Cert.ReferenceIdeal.main_c_36) ((rAt_2 57 (by decide)).trans rfl) (by decide +kernel) XR).symm)
  rfl

theorem e165 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v126) = after rOpsF XR (Proc.devRef .tc Cert.ReferenceIdeal.main_v137) := by
  refine (at_binary kWA kND 165 (y := Cert.KernelIdeal.main_v126) ((kAt_5 3 (by decide)).trans rfl) (by decide +kernel) (not_mem_drop_of_lt kND (j := 163) (by decide +kernel) (by decide)) (not_mem_drop_of_lt kND (j := 164) (by decide +kernel) (by decide)) XK).trans
    (Eq.trans ?_ (at_binary rWAF rNDF 186 (y := Cert.ReferenceIdeal.main_v137) ((rAt_2 58 (by decide)).trans rfl) (by decide +kernel) (not_mem_drop_of_lt rNDF (j := 184) (by decide +kernel) (by decide)) (not_mem_drop_of_lt rNDF (j := 185) (by decide +kernel) (by decide)) XR).symm)
  rw [e163 H, e164 H]
  all_goals rfl

theorem e166 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_31) = after rOpsF XR (Proc.devRef .tc Cert.ReferenceIdeal.main_c_37) := by
  refine (at_nullary kWA kND 166 (y := Cert.KernelIdeal.main_c_31) ((kAt_5 4 (by decide)).trans rfl) (by decide +kernel) XK).trans
    (Eq.trans ?_ (at_nullary rWAF rNDF 187 (y := Cert.ReferenceIdeal.main_c_37) ((rAt_2 59 (by decide)).trans rfl) (by decide +kernel) XR).symm)
  rfl

theorem e167 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v127) = after rOpsF XR (Proc.devRef .tc Cert.ReferenceIdeal.main_v138) := by
  refine (at_unary kWA kND 167 (y := Cert.KernelIdeal.main_v127) ((kAt_5 5 (by decide)).trans rfl) (by decide +kernel) (not_mem_drop_of_lt kND (j := 166) (by decide +kernel) (by decide)) XK).trans
    (Eq.trans ?_ (at_unary rWAF rNDF 188 (y := Cert.ReferenceIdeal.main_v138) ((rAt_2 60 (by decide)).trans rfl) (by decide +kernel) (not_mem_drop_of_lt rNDF (j := 187) (by decide +kernel) (by decide)) XR).symm)
  rw [e166 H]
  all_goals rfl

theorem e168 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v128) = after rOpsF XR (Proc.devRef .tc Cert.ReferenceIdeal.main_v139) := by
  refine (at_binary kWA kND 168 (y := Cert.KernelIdeal.main_v128) ((kAt_5 6 (by decide)).trans rfl) (by decide +kernel) (not_mem_drop_of_lt kND (j := 165) (by decide +kernel) (by decide)) (not_mem_drop_of_lt kND (j := 167) (by decide +kernel) (by decide)) XK).trans
    (Eq.trans ?_ (at_binary rWAF rNDF 189 (y := Cert.ReferenceIdeal.main_v139) ((rAt_2 61 (by decide)).trans rfl) (by decide +kernel) (not_mem_drop_of_lt rNDF (j := 186) (by decide +kernel) (by decide)) (not_mem_drop_of_lt rNDF (j := 188) (by decide +kernel) (by decide)) XR).symm)
  rw [e165 H, e167 H]
  all_goals rfl

theorem e169 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_32) = after rOpsF XR (Proc.devRef .tc Cert.ReferenceIdeal.main_cst_38) := by
  refine (at_nullary kWA kND 169 (y := Cert.KernelIdeal.main_cst_32) ((kAt_5 7 (by decide)).trans rfl) (by decide +kernel) XK).trans
    (Eq.trans ?_ (at_nullary rWAF rNDF 190 (y := Cert.ReferenceIdeal.main_cst_38) ((rAt_3 0 (by decide)).trans rfl) (by decide +kernel) XR).symm)
  rfl

theorem e170 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call3_v0) = after rOpsF XR (Proc.devRef .tc Cert.ReferenceIdeal.main_call3_v0) := by
  refine (at_unary kWA kND 170 (y := Cert.KernelIdeal.main_call3_v0) ((kAt_6 0 (by decide)).trans rfl) (by decide +kernel) (not_mem_drop_of_lt kND (j := 169) (by decide +kernel) (by decide)) XK).trans
    (Eq.trans ?_ (at_unary rWAF rNDF 191 (y := Cert.ReferenceIdeal.main_call3_v0) ((rAt_3 1 (by decide)).trans rfl) (by decide +kernel) (not_mem_drop_of_lt rNDF (j := 190) (by decide +kernel) (by decide)) XR).symm)
  rw [e169 H]
  all_goals rfl

theorem e171 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call3_v1) = after rOpsF XR (Proc.devRef .tc Cert.ReferenceIdeal.main_call3_v1) := by
  refine (at_unary kWA kND 171 (y := Cert.KernelIdeal.main_call3_v1) ((kAt_6 1 (by decide)).trans rfl) (by decide +kernel) (not_mem_drop_of_lt kND (j := 170) (by decide +kernel) (by decide)) XK).trans
    (Eq.trans ?_ (at_unary rWAF rNDF 192 (y := Cert.ReferenceIdeal.main_call3_v1) ((rAt_3 2 (by decide)).trans rfl) (by decide +kernel) (not_mem_drop_of_lt rNDF (j := 191) (by decide +kernel) (by decide)) XR).symm)
  rw [e170 H]
  all_goals rfl

theorem e172 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v129) = after rOpsF XR (Proc.devRef .tc Cert.ReferenceIdeal.main_v140) := by
  refine (at_ternary kWA kND 172 (y := Cert.KernelIdeal.main_v129) ((kAt_6 2 (by decide)).trans rfl) (by decide +kernel) (not_mem_drop_of_lt kND (j := 87) (by decide +kernel) (by decide)) (not_mem_drop_of_lt kND (j := 162) (by decide +kernel) (by decide)) (not_mem_drop_of_lt kND (j := 171) (by decide +kernel) (by decide)) XK).trans
    (Eq.trans ?_ (at_ternary rWAF rNDF 193 (y := Cert.ReferenceIdeal.main_v140) ((rAt_3 3 (by decide)).trans rfl) (by decide +kernel) (not_mem_drop_of_lt rNDF (j := 108) (by decide +kernel) (by decide)) (not_mem_drop_of_lt rNDF (j := 183) (by decide +kernel) (by decide)) (not_mem_drop_of_lt rNDF (j := 192) (by decide +kernel) (by decide)) XR).symm)
  rw [e87 H, e162 H, e171 H]
  all_goals rfl

theorem e173 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_33) = after rOpsF XR (Proc.devRef .tc Cert.ReferenceIdeal.main_cst_39) := by
  refine (at_nullary kWA kND 173 (y := Cert.KernelIdeal.main_cst_33) ((kAt_7 0 (by decide)).trans rfl) (by decide +kernel) XK).trans
    (Eq.trans ?_ (at_nullary rWAF rNDF 194 (y := Cert.ReferenceIdeal.main_cst_39) ((rAt_3 4 (by decide)).trans rfl) (by decide +kernel) XR).symm)
  rfl

theorem e174 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v130) = after rOpsF XR (Proc.devRef .tc Cert.ReferenceIdeal.main_v141) := by
  refine (at_binary kWA kND 174 (y := Cert.KernelIdeal.main_v130) ((kAt_7 1 (by decide)).trans rfl) (by decide +kernel) (not_mem_drop_of_lt kND (j := 172) (by decide +kernel) (by decide)) (not_mem_drop_of_lt kND (j := 173) (by decide +kernel) (by decide)) XK).trans
    (Eq.trans ?_ (at_binary rWAF rNDF 195 (y := Cert.ReferenceIdeal.main_v141) ((rAt_3 5 (by decide)).trans rfl) (by decide +kernel) (not_mem_drop_of_lt rNDF (j := 193) (by decide +kernel) (by decide)) (not_mem_drop_of_lt rNDF (j := 194) (by decide +kernel) (by decide)) XR).symm)
  rw [e172 H, e173 H]
  all_goals rfl

theorem e175 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_34) = after rOpsF XR (Proc.devRef .tc Cert.ReferenceIdeal.main_c_40) := by
  refine (at_nullary kWA kND 175 (y := Cert.KernelIdeal.main_c_34) ((kAt_7 2 (by decide)).trans rfl) (by decide +kernel) XK).trans
    (Eq.trans ?_ (at_nullary rWAF rNDF 196 (y := Cert.ReferenceIdeal.main_c_40) ((rAt_3 6 (by decide)).trans rfl) (by decide +kernel) XR).symm)
  rfl

theorem e176 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v131) = after rOpsF XR (Proc.devRef .tc Cert.ReferenceIdeal.main_v142) := by
  refine (at_unary kWA kND 176 (y := Cert.KernelIdeal.main_v131) ((kAt_7 3 (by decide)).trans rfl) (by decide +kernel) (not_mem_drop_of_lt kND (j := 175) (by decide +kernel) (by decide)) XK).trans
    (Eq.trans ?_ (at_unary rWAF rNDF 197 (y := Cert.ReferenceIdeal.main_v142) ((rAt_3 7 (by decide)).trans rfl) (by decide +kernel) (not_mem_drop_of_lt rNDF (j := 196) (by decide +kernel) (by decide)) XR).symm)
  rw [e175 H]
  all_goals rfl

theorem e177 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v132) = after rOpsF XR (Proc.devRef .tc Cert.ReferenceIdeal.main_v143) := by
  refine (at_binary kWA kND 177 (y := Cert.KernelIdeal.main_v132) ((kAt_7 4 (by decide)).trans rfl) (by decide +kernel) (not_mem_drop_of_lt kND (j := 165) (by decide +kernel) (by decide)) (not_mem_drop_of_lt kND (j := 176) (by decide +kernel) (by decide)) XK).trans
    (Eq.trans ?_ (at_binary rWAF rNDF 198 (y := Cert.ReferenceIdeal.main_v143) ((rAt_3 8 (by decide)).trans rfl) (by decide +kernel) (not_mem_drop_of_lt rNDF (j := 186) (by decide +kernel) (by decide)) (not_mem_drop_of_lt rNDF (j := 197) (by decide +kernel) (by decide)) XR).symm)
  rw [e165 H, e176 H]
  all_goals rfl

theorem e178 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v133) = after rOpsF XR (Proc.devRef .tc Cert.ReferenceIdeal.main_v144) := by
  refine (at_unary kWA kND 178 (y := Cert.KernelIdeal.main_v133) ((kAt_7 5 (by decide)).trans rfl) (by decide +kernel) (not_mem_drop_of_lt kND (j := 177) (by decide +kernel) (by decide)) XK).trans
    (Eq.trans ?_ (at_unary rWAF rNDF 199 (y := Cert.ReferenceIdeal.main_v144) ((rAt_3 9 (by decide)).trans rfl) (by decide +kernel) (not_mem_drop_of_lt rNDF (j := 198) (by decide +kernel) (by decide)) XR).symm)
  rw [e177 H]
  all_goals rfl

theorem e179 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v134) = after rOpsF XR (Proc.devRef .tc Cert.ReferenceIdeal.main_v145) := by
  refine (at_binary kWA kND 179 (y := Cert.KernelIdeal.main_v134) ((kAt_7 6 (by decide)).trans rfl) (by decide +kernel) (not_mem_drop_of_lt kND (j := 174) (by decide +kernel) (by decide)) (not_mem_drop_of_lt kND (j := 178) (by decide +kernel) (by decide)) XK).trans
    (Eq.trans ?_ (at_binary rWAF rNDF 200 (y := Cert.ReferenceIdeal.main_v145) ((rAt_3 10 (by decide)).trans rfl) (by decide +kernel) (not_mem_drop_of_lt rNDF (j := 195) (by decide +kernel) (by decide)) (not_mem_drop_of_lt rNDF (j := 199) (by decide +kernel) (by decide)) XR).symm)
  rw [e174 H, e178 H]
  all_goals rfl

theorem e180 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_35) = after rOpsF XR (Proc.devRef .tc Cert.ReferenceIdeal.main_cst_41) := by
  refine (at_nullary kWA kND 180 (y := Cert.KernelIdeal.main_cst_35) ((kAt_7 7 (by decide)).trans rfl) (by decide +kernel) XK).trans
    (Eq.trans ?_ (at_nullary rWAF rNDF 201 (y := Cert.ReferenceIdeal.main_cst_41) ((rAt_3 11 (by decide)).trans rfl) (by decide +kernel) XR).symm)
  rfl

theorem e181 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call4_v0) = after rOpsF XR (Proc.devRef .tc Cert.ReferenceIdeal.main_call4_v0) := by
  refine (at_unary kWA kND 181 (y := Cert.KernelIdeal.main_call4_v0) ((kAt_8 0 (by decide)).trans rfl) (by decide +kernel) (not_mem_drop_of_lt kND (j := 180) (by decide +kernel) (by decide)) XK).trans
    (Eq.trans ?_ (at_unary rWAF rNDF 202 (y := Cert.ReferenceIdeal.main_call4_v0) ((rAt_3 12 (by decide)).trans rfl) (by decide +kernel) (not_mem_drop_of_lt rNDF (j := 201) (by decide +kernel) (by decide)) XR).symm)
  rw [e180 H]
  all_goals rfl

theorem e182 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call4_v1) = after rOpsF XR (Proc.devRef .tc Cert.ReferenceIdeal.main_call4_v1) := by
  refine (at_unary kWA kND 182 (y := Cert.KernelIdeal.main_call4_v1) ((kAt_8 1 (by decide)).trans rfl) (by decide +kernel) (not_mem_drop_of_lt kND (j := 181) (by decide +kernel) (by decide)) XK).trans
    (Eq.trans ?_ (at_unary rWAF rNDF 203 (y := Cert.ReferenceIdeal.main_call4_v1) ((rAt_3 13 (by decide)).trans rfl) (by decide +kernel) (not_mem_drop_of_lt rNDF (j := 202) (by decide +kernel) (by decide)) XR).symm)
  rw [e181 H]
  all_goals rfl

theorem e183 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v135) = after rOpsF XR (Proc.devRef .tc Cert.ReferenceIdeal.main_v146) := by
  refine (at_ternary kWA kND 183 (y := Cert.KernelIdeal.main_v135) ((kAt_8 2 (by decide)).trans rfl) (by decide +kernel) (not_mem_drop_of_lt kND (j := 168) (by decide +kernel) (by decide)) (not_mem_drop_of_lt kND (j := 179) (by decide +kernel) (by decide)) (not_mem_drop_of_lt kND (j := 182) (by decide +kernel) (by decide)) XK).trans
    (Eq.trans ?_ (at_ternary rWAF rNDF 204 (y := Cert.ReferenceIdeal.main_v146) ((rAt_3 14 (by decide)).trans rfl) (by decide +kernel) (not_mem_drop_of_lt rNDF (j := 189) (by decide +kernel) (by decide)) (not_mem_drop_of_lt rNDF (j := 200) (by decide +kernel) (by decide)) (not_mem_drop_of_lt rNDF (j := 203) (by decide +kernel) (by decide)) XR).symm)
  rw [e168 H, e179 H, e182 H]
  all_goals rfl

theorem e184 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v136) = after rOpsF XR (Proc.devRef .tc Cert.ReferenceIdeal.main_v147) := by
  refine (at_binary kWA kND 184 (y := Cert.KernelIdeal.main_v136) ((kAt_9 0 (by decide)).trans rfl) (by decide +kernel) (not_mem_drop_of_lt kND (j := 67) (by decide +kernel) (by decide)) (not_mem_drop_of_lt kND (j := 54) (by decide +kernel) (by decide)) XK).trans
    (Eq.trans ?_ (at_binary rWAF rNDF 205 (y := Cert.ReferenceIdeal.main_v147) ((rAt_3 15 (by decide)).trans rfl) (by decide +kernel) (not_mem_drop_of_lt rNDF (j := 88) (by decide +kernel) (by decide)) (not_mem_drop_of_lt rNDF (j := 75) (by decide +kernel) (by decide)) XR).symm)
  rw [e67 H, e54 H]
  all_goals rfl

theorem e185 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_36) = after rOpsF XR (Proc.devRef .tc Cert.ReferenceIdeal.main_cst_42) := by
  refine (at_nullary kWA kND 185 (y := Cert.KernelIdeal.main_cst_36) ((kAt_9 1 (by decide)).trans rfl) (by decide +kernel) XK).trans
    (Eq.trans ?_ (at_nullary rWAF rNDF 206 (y := Cert.ReferenceIdeal.main_cst_42) ((rAt_3 16 (by decide)).trans rfl) (by decide +kernel) XR).symm)
  rfl

theorem e186 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v137) = after rOpsF XR (Proc.devRef .tc Cert.ReferenceIdeal.main_v148) := by
  refine (at_unary kWA kND 186 (y := Cert.KernelIdeal.main_v137) ((kAt_9 2 (by decide)).trans rfl) (by decide +kernel) (not_mem_drop_of_lt kND (j := 185) (by decide +kernel) (by decide)) XK).trans
    (Eq.trans ?_ (at_unary rWAF rNDF 207 (y := Cert.ReferenceIdeal.main_v148) ((rAt_3 17 (by decide)).trans rfl) (by decide +kernel) (not_mem_drop_of_lt rNDF (j := 206) (by decide +kernel) (by decide)) XR).symm)
  rw [e185 H]
  all_goals rfl

theorem e187 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v138) = after rOpsF XR (Proc.devRef .tc Cert.ReferenceIdeal.main_v149) := by
  refine (at_binary kWA kND 187 (y := Cert.KernelIdeal.main_v138) ((kAt_9 3 (by decide)).trans rfl) (by decide +kernel) (not_mem_drop_of_lt kND (j := 186) (by decide +kernel) (by decide)) (not_mem_drop_of_lt kND (j := 184) (by decide +kernel) (by decide)) XK).trans
    (Eq.trans ?_ (at_binary rWAF rNDF 208 (y := Cert.ReferenceIdeal.main_v149) ((rAt_3 18 (by decide)).trans rfl) (by decide +kernel) (not_mem_drop_of_lt rNDF (j := 207) (by decide +kernel) (by decide)) (not_mem_drop_of_lt rNDF (j := 205) (by decide +kernel) (by decide)) XR).symm)
  rw [e186 H, e184 H]
  all_goals rfl

theorem e188 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call5_cst) = after rOpsF XR (Proc.devRef .tc Cert.ReferenceIdeal.main_call5_cst) := by
  refine (at_nullary kWA kND 188 (y := Cert.KernelIdeal.main_call5_cst) ((kAt_10 0 (by decide)).trans rfl) (by decide +kernel) XK).trans
    (Eq.trans ?_ (at_nullary rWAF rNDF 209 (y := Cert.ReferenceIdeal.main_call5_cst) ((rAt_3 19 (by decide)).trans rfl) (by decide +kernel) XR).symm)
  rfl

theorem e189 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call5_v0) = after rOpsF XR (Proc.devRef .tc Cert.ReferenceIdeal.main_call5_v0) := by
  refine (at_unary kWA kND 189 (y := Cert.KernelIdeal.main_call5_v0) ((kAt_10 1 (by decide)).trans rfl) (by decide +kernel) (not_mem_drop_of_lt kND (j := 188) (by decide +kernel) (by decide)) XK).trans
    (Eq.trans ?_ (at_unary rWAF rNDF 210 (y := Cert.ReferenceIdeal.main_call5_v0) ((rAt_3 20 (by decide)).trans rfl) (by decide +kernel) (not_mem_drop_of_lt rNDF (j := 209) (by decide +kernel) (by decide)) XR).symm)
  rw [e188 H]
  all_goals rfl

theorem e190 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v139) = after rOpsF XR (Proc.devRef .tc Cert.ReferenceIdeal.main_v150) := by
  refine (at_binary kWA kND 190 (y := Cert.KernelIdeal.main_v139) ((kAt_10 2 (by decide)).trans rfl) (by decide +kernel) (not_mem_drop_of_lt kND (j := 187) (by decide +kernel) (by decide)) (not_mem_drop_of_lt kND (j := 189) (by decide +kernel) (by decide)) XK).trans
    (Eq.trans ?_ (at_binary rWAF rNDF 211 (y := Cert.ReferenceIdeal.main_v150) ((rAt_3 21 (by decide)).trans rfl) (by decide +kernel) (not_mem_drop_of_lt rNDF (j := 208) (by decide +kernel) (by decide)) (not_mem_drop_of_lt rNDF (j := 210) (by decide +kernel) (by decide)) XR).symm)
  rw [e187 H, e189 H]
  all_goals rfl

theorem e191 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v140) = after rOpsF XR (Proc.devRef .tc Cert.ReferenceIdeal.main_v151) := by
  refine (at_binary kWA kND 191 (y := Cert.KernelIdeal.main_v140) ((kAt_11 0 (by decide)).trans rfl) (by decide +kernel) (not_mem_drop_of_lt kND (j := 190) (by decide +kernel) (by decide)) (not_mem_drop_of_lt kND (j := 190) (by decide +kernel) (by decide)) XK).trans
    (Eq.trans ?_ (at_binary rWAF rNDF 212 (y := Cert.ReferenceIdeal.main_v151) ((rAt_3 22 (by decide)).trans rfl) (by decide +kernel) (not_mem_drop_of_lt rNDF (j := 211) (by decide +kernel) (by decide)) (not_mem_drop_of_lt rNDF (j := 211) (by decide +kernel) (by decide)) XR).symm)
  rw [e190 H]
  all_goals rfl

theorem e192 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v141) = after rOpsF XR (Proc.devRef .tc Cert.ReferenceIdeal.main_v152) := by
  refine (at_unary kWA kND 192 (y := Cert.KernelIdeal.main_v141) ((kAt_11 1 (by decide)).trans rfl) (by decide +kernel) (not_mem_drop_of_lt kND (j := 107) (by decide +kernel) (by decide)) XK).trans
    (Eq.trans ?_ (at_unary rWAF rNDF 213 (y := Cert.ReferenceIdeal.main_v152) ((rAt_3 23 (by decide)).trans rfl) (by decide +kernel) (not_mem_drop_of_lt rNDF (j := 128) (by decide +kernel) (by decide)) XR).symm)
  rw [e107 H]
  all_goals rfl

theorem e193 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_37) = after rOpsF XR (Proc.devRef .tc Cert.ReferenceIdeal.main_c_43) := by
  refine (at_nullary kWA kND 193 (y := Cert.KernelIdeal.main_c_37) ((kAt_11 2 (by decide)).trans rfl) (by decide +kernel) XK).trans
    (Eq.trans ?_ (at_nullary rWAF rNDF 214 (y := Cert.ReferenceIdeal.main_c_43) ((rAt_3 24 (by decide)).trans rfl) (by decide +kernel) XR).symm)
  rfl

theorem e194 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v142) = after rOpsF XR (Proc.devRef .tc Cert.ReferenceIdeal.main_v153) := by
  refine (at_binary kWA kND 194 (y := Cert.KernelIdeal.main_v142) ((kAt_11 3 (by decide)).trans rfl) (by decide +kernel) (not_mem_drop_of_lt kND (j := 192) (by decide +kernel) (by decide)) (not_mem_drop_of_lt kND (j := 193) (by decide +kernel) (by decide)) XK).trans
    (Eq.trans ?_ (at_binary rWAF rNDF 215 (y := Cert.ReferenceIdeal.main_v153) ((rAt_3 25 (by decide)).trans rfl) (by decide +kernel) (not_mem_drop_of_lt rNDF (j := 213) (by decide +kernel) (by decide)) (not_mem_drop_of_lt rNDF (j := 214) (by decide +kernel) (by decide)) XR).symm)
  rw [e192 H, e193 H]
  all_goals rfl

theorem e195 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_38) = after rOpsF XR (Proc.devRef .tc Cert.ReferenceIdeal.main_c_44) := by
  refine (at_nullary kWA kND 195 (y := Cert.KernelIdeal.main_c_38) ((kAt_11 4 (by decide)).trans rfl) (by decide +kernel) XK).trans
    (Eq.trans ?_ (at_nullary rWAF rNDF 216 (y := Cert.ReferenceIdeal.main_c_44) ((rAt_3 26 (by decide)).trans rfl) (by decide +kernel) XR).symm)
  rfl

theorem e196 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v143) = after rOpsF XR (Proc.devRef .tc Cert.ReferenceIdeal.main_v154) := by
  refine (at_unary kWA kND 196 (y := Cert.KernelIdeal.main_v143) ((kAt_11 5 (by decide)).trans rfl) (by decide +kernel) (not_mem_drop_of_lt kND (j := 195) (by decide +kernel) (by decide)) XK).trans
    (Eq.trans ?_ (at_unary rWAF rNDF 217 (y := Cert.ReferenceIdeal.main_v154) ((rAt_3 27 (by decide)).trans rfl) (by decide +kernel) (not_mem_drop_of_lt rNDF (j := 216) (by decide +kernel) (by decide)) XR).symm)
  rw [e195 H]
  all_goals rfl

theorem e197 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v144) = after rOpsF XR (Proc.devRef .tc Cert.ReferenceIdeal.main_v155) := by
  refine (at_binary kWA kND 197 (y := Cert.KernelIdeal.main_v144) ((kAt_11 6 (by decide)).trans rfl) (by decide +kernel) (not_mem_drop_of_lt kND (j := 194) (by decide +kernel) (by decide)) (not_mem_drop_of_lt kND (j := 196) (by decide +kernel) (by decide)) XK).trans
    (Eq.trans ?_ (at_binary rWAF rNDF 218 (y := Cert.ReferenceIdeal.main_v155) ((rAt_3 28 (by decide)).trans rfl) (by decide +kernel) (not_mem_drop_of_lt rNDF (j := 215) (by decide +kernel) (by decide)) (not_mem_drop_of_lt rNDF (j := 217) (by decide +kernel) (by decide)) XR).symm)
  rw [e194 H, e196 H]
  all_goals rfl

theorem e198 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_39) = after rOpsF XR (Proc.devRef .tc Cert.ReferenceIdeal.main_cst_45) := by
  refine (at_nullary kWA kND 198 (y := Cert.KernelIdeal.main_cst_39) ((kAt_11 7 (by decide)).trans rfl) (by decide +kernel) XK).trans
    (Eq.trans ?_ (at_nullary rWAF rNDF 219 (y := Cert.ReferenceIdeal.main_cst_45) ((rAt_3 29 (by decide)).trans rfl) (by decide +kernel) XR).symm)
  rfl

theorem e199 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call6_v0) = after rOpsF XR (Proc.devRef .tc Cert.ReferenceIdeal.main_call6_v0) := by
  refine (at_unary kWA kND 199 (y := Cert.KernelIdeal.main_call6_v0) ((kAt_12 0 (by decide)).trans rfl) (by decide +kernel) (not_mem_drop_of_lt kND (j := 198) (by decide +kernel) (by decide)) XK).trans
    (Eq.trans ?_ (at_unary rWAF rNDF 220 (y := Cert.ReferenceIdeal.main_call6_v0) ((rAt_3 30 (by decide)).trans rfl) (by decide +kernel) (not_mem_drop_of_lt rNDF (j := 219) (by decide +kernel) (by decide)) XR).symm)
  rw [e198 H]
  all_goals rfl

theorem e200 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call6_v1) = after rOpsF XR (Proc.devRef .tc Cert.ReferenceIdeal.main_call6_v1) := by
  refine (at_unary kWA kND 200 (y := Cert.KernelIdeal.main_call6_v1) ((kAt_12 1 (by decide)).trans rfl) (by decide +kernel) (not_mem_drop_of_lt kND (j := 199) (by decide +kernel) (by decide)) XK).trans
    (Eq.trans ?_ (at_unary rWAF rNDF 221 (y := Cert.ReferenceIdeal.main_call6_v1) ((rAt_3 31 (by decide)).trans rfl) (by decide +kernel) (not_mem_drop_of_lt rNDF (j := 220) (by decide +kernel) (by decide)) XR).symm)
  rw [e199 H]
  all_goals rfl

theorem e201 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v145) = after rOpsF XR (Proc.devRef .tc Cert.ReferenceIdeal.main_v156) := by
  refine (at_ternary kWA kND 201 (y := Cert.KernelIdeal.main_v145) ((kAt_12 2 (by decide)).trans rfl) (by decide +kernel) (not_mem_drop_of_lt kND (j := 107) (by decide +kernel) (by decide)) (not_mem_drop_of_lt kND (j := 191) (by decide +kernel) (by decide)) (not_mem_drop_of_lt kND (j := 200) (by decide +kernel) (by decide)) XK).trans
    (Eq.trans ?_ (at_ternary rWAF rNDF 222 (y := Cert.ReferenceIdeal.main_v156) ((rAt_3 32 (by decide)).trans rfl) (by decide +kernel) (not_mem_drop_of_lt rNDF (j := 128) (by decide +kernel) (by decide)) (not_mem_drop_of_lt rNDF (j := 212) (by decide +kernel) (by decide)) (not_mem_drop_of_lt rNDF (j := 221) (by decide +kernel) (by decide)) XR).symm)
  rw [e107 H, e191 H, e200 H]
  all_goals rfl

theorem e202 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_40) = after rOpsF XR (Proc.devRef .tc Cert.ReferenceIdeal.main_cst_46) := by
  refine (at_nullary kWA kND 202 (y := Cert.KernelIdeal.main_cst_40) ((kAt_13 0 (by decide)).trans rfl) (by decide +kernel) XK).trans
    (Eq.trans ?_ (at_nullary rWAF rNDF 223 (y := Cert.ReferenceIdeal.main_cst_46) ((rAt_3 33 (by decide)).trans rfl) (by decide +kernel) XR).symm)
  rfl

theorem e203 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v146) = after rOpsF XR (Proc.devRef .tc Cert.ReferenceIdeal.main_v157) := by
  refine (at_binary kWA kND 203 (y := Cert.KernelIdeal.main_v146) ((kAt_13 1 (by decide)).trans rfl) (by decide +kernel) (not_mem_drop_of_lt kND (j := 201) (by decide +kernel) (by decide)) (not_mem_drop_of_lt kND (j := 202) (by decide +kernel) (by decide)) XK).trans
    (Eq.trans ?_ (at_binary rWAF rNDF 224 (y := Cert.ReferenceIdeal.main_v157) ((rAt_3 34 (by decide)).trans rfl) (by decide +kernel) (not_mem_drop_of_lt rNDF (j := 222) (by decide +kernel) (by decide)) (not_mem_drop_of_lt rNDF (j := 223) (by decide +kernel) (by decide)) XR).symm)
  rw [e201 H, e202 H]
  all_goals rfl

theorem e204 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_41) = after rOpsF XR (Proc.devRef .tc Cert.ReferenceIdeal.main_c_47) := by
  refine (at_nullary kWA kND 204 (y := Cert.KernelIdeal.main_c_41) ((kAt_13 2 (by decide)).trans rfl) (by decide +kernel) XK).trans
    (Eq.trans ?_ (at_nullary rWAF rNDF 225 (y := Cert.ReferenceIdeal.main_c_47) ((rAt_3 35 (by decide)).trans rfl) (by decide +kernel) XR).symm)
  rfl

theorem e205 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v147) = after rOpsF XR (Proc.devRef .tc Cert.ReferenceIdeal.main_v158) := by
  refine (at_unary kWA kND 205 (y := Cert.KernelIdeal.main_v147) ((kAt_13 3 (by decide)).trans rfl) (by decide +kernel) (not_mem_drop_of_lt kND (j := 204) (by decide +kernel) (by decide)) XK).trans
    (Eq.trans ?_ (at_unary rWAF rNDF 226 (y := Cert.ReferenceIdeal.main_v158) ((rAt_3 36 (by decide)).trans rfl) (by decide +kernel) (not_mem_drop_of_lt rNDF (j := 225) (by decide +kernel) (by decide)) XR).symm)
  rw [e204 H]
  all_goals rfl

theorem e206 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v148) = after rOpsF XR (Proc.devRef .tc Cert.ReferenceIdeal.main_v159) := by
  refine (at_binary kWA kND 206 (y := Cert.KernelIdeal.main_v148) ((kAt_13 4 (by decide)).trans rfl) (by decide +kernel) (not_mem_drop_of_lt kND (j := 194) (by decide +kernel) (by decide)) (not_mem_drop_of_lt kND (j := 205) (by decide +kernel) (by decide)) XK).trans
    (Eq.trans ?_ (at_binary rWAF rNDF 227 (y := Cert.ReferenceIdeal.main_v159) ((rAt_3 37 (by decide)).trans rfl) (by decide +kernel) (not_mem_drop_of_lt rNDF (j := 215) (by decide +kernel) (by decide)) (not_mem_drop_of_lt rNDF (j := 226) (by decide +kernel) (by decide)) XR).symm)
  rw [e194 H, e205 H]
  all_goals rfl

theorem e207 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v149) = after rOpsF XR (Proc.devRef .tc Cert.ReferenceIdeal.main_v160) := by
  refine (at_unary kWA kND 207 (y := Cert.KernelIdeal.main_v149) ((kAt_13 5 (by decide)).trans rfl) (by decide +kernel) (not_mem_drop_of_lt kND (j := 206) (by decide +kernel) (by decide)) XK).trans
    (Eq.trans ?_ (at_unary rWAF rNDF 228 (y := Cert.ReferenceIdeal.main_v160) ((rAt_3 38 (by decide)).trans rfl) (by decide +kernel) (not_mem_drop_of_lt rNDF (j := 227) (by decide +kernel) (by decide)) XR).symm)
  rw [e206 H]
  all_goals rfl

theorem e208 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v150) = after rOpsF XR (Proc.devRef .tc Cert.ReferenceIdeal.main_v161) := by
  refine (at_binary kWA kND 208 (y := Cert.KernelIdeal.main_v150) ((kAt_13 6 (by decide)).trans rfl) (by decide +kernel) (not_mem_drop_of_lt kND (j := 203) (by decide +kernel) (by decide)) (not_mem_drop_of_lt kND (j := 207) (by decide +kernel) (by decide)) XK).trans
    (Eq.trans ?_ (at_binary rWAF rNDF 229 (y := Cert.ReferenceIdeal.main_v161) ((rAt_3 39 (by decide)).trans rfl) (by decide +kernel) (not_mem_drop_of_lt rNDF (j := 224) (by decide +kernel) (by decide)) (not_mem_drop_of_lt rNDF (j := 228) (by decide +kernel) (by decide)) XR).symm)
  rw [e203 H, e207 H]
  all_goals rfl

theorem e209 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_42) = after rOpsF XR (Proc.devRef .tc Cert.ReferenceIdeal.main_cst_48) := by
  refine (at_nullary kWA kND 209 (y := Cert.KernelIdeal.main_cst_42) ((kAt_13 7 (by decide)).trans rfl) (by decide +kernel) XK).trans
    (Eq.trans ?_ (at_nullary rWAF rNDF 230 (y := Cert.ReferenceIdeal.main_cst_48) ((rAt_3 40 (by decide)).trans rfl) (by decide +kernel) XR).symm)
  rfl

theorem e210 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call7_v0) = after rOpsF XR (Proc.devRef .tc Cert.ReferenceIdeal.main_call7_v0) := by
  refine (at_unary kWA kND 210 (y := Cert.KernelIdeal.main_call7_v0) ((kAt_14 0 (by decide)).trans rfl) (by decide +kernel) (not_mem_drop_of_lt kND (j := 209) (by decide +kernel) (by decide)) XK).trans
    (Eq.trans ?_ (at_unary rWAF rNDF 231 (y := Cert.ReferenceIdeal.main_call7_v0) ((rAt_3 41 (by decide)).trans rfl) (by decide +kernel) (not_mem_drop_of_lt rNDF (j := 230) (by decide +kernel) (by decide)) XR).symm)
  rw [e209 H]
  all_goals rfl

theorem e211 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call7_v1) = after rOpsF XR (Proc.devRef .tc Cert.ReferenceIdeal.main_call7_v1) := by
  refine (at_unary kWA kND 211 (y := Cert.KernelIdeal.main_call7_v1) ((kAt_14 1 (by decide)).trans rfl) (by decide +kernel) (not_mem_drop_of_lt kND (j := 210) (by decide +kernel) (by decide)) XK).trans
    (Eq.trans ?_ (at_unary rWAF rNDF 232 (y := Cert.ReferenceIdeal.main_call7_v1) ((rAt_3 42 (by decide)).trans rfl) (by decide +kernel) (not_mem_drop_of_lt rNDF (j := 231) (by decide +kernel) (by decide)) XR).symm)
  rw [e210 H]
  all_goals rfl

end Cert.Bridge

end
-- ==== Proof.Pairs02.lean ====
/-
  Operations 212 … 317 of the shared line: each pair of corresponding results agrees, because the two
  operations are one function and their operands agree (earlier equations, or the starting agreement).
-/
import proofs.«169849_j71803263254994_1_alg».proof.Proof.Pairs01

set_option maxRecDepth 16384
set_option maxHeartbeats 2000000

noncomputable section

namespace Cert.Bridge

open Idealize.ShloMosaic Idealize.SL.Sem Idealize.ShloMosaic.StableHlo Idealize.ShloMosaic.StableHlo.Line
open Cert.KernelIdeal.Tab Cert.ReferenceIdeal.Hand

variable {F : FTy → Type} [FloatOps F]

theorem e212 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v151) = after rOpsF XR (Proc.devRef .tc Cert.ReferenceIdeal.main_v162) := by
  refine (at_ternary kWA kND 212 (y := Cert.KernelIdeal.main_v151) ((kAt_14 2 (by decide)).trans rfl) (by decide +kernel) (not_mem_drop_of_lt kND (j := 197) (by decide +kernel) (by decide)) (not_mem_drop_of_lt kND (j := 208) (by decide +kernel) (by decide)) (not_mem_drop_of_lt kND (j := 211) (by decide +kernel) (by decide)) XK).trans
    (Eq.trans ?_ (at_ternary rWAF rNDF 233 (y := Cert.ReferenceIdeal.main_v162) ((rAt_3 43 (by decide)).trans rfl) (by decide +kernel) (not_mem_drop_of_lt rNDF (j := 218) (by decide +kernel) (by decide)) (not_mem_drop_of_lt rNDF (j := 229) (by decide +kernel) (by decide)) (not_mem_drop_of_lt rNDF (j := 232) (by decide +kernel) (by decide)) XR).symm)
  rw [e197 H, e208 H, e211 H]
  all_goals rfl

theorem e213 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v152) = after rOpsF XR (Proc.devRef .tc Cert.ReferenceIdeal.main_v163) := by
  refine (at_binary kWA kND 213 (y := Cert.KernelIdeal.main_v152) ((kAt_15 0 (by decide)).trans rfl) (by decide +kernel) (not_mem_drop_of_lt kND (j := 54) (by decide +kernel) (by decide)) (not_mem_drop_of_lt kND (j := 67) (by decide +kernel) (by decide)) XK).trans
    (Eq.trans ?_ (at_binary rWAF rNDF 234 (y := Cert.ReferenceIdeal.main_v163) ((rAt_3 44 (by decide)).trans rfl) (by decide +kernel) (not_mem_drop_of_lt rNDF (j := 75) (by decide +kernel) (by decide)) (not_mem_drop_of_lt rNDF (j := 88) (by decide +kernel) (by decide)) XR).symm)
  rw [e54 H, e67 H]
  all_goals rfl

theorem e214 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v153) = after rOpsF XR (Proc.devRef .tc Cert.ReferenceIdeal.main_v164) := by
  refine (at_unary kWA kND 214 (y := Cert.KernelIdeal.main_v153) ((kAt_15 1 (by decide)).trans rfl) (by decide +kernel) (not_mem_drop_of_lt kND (j := 126) (by decide +kernel) (by decide)) XK).trans
    (Eq.trans ?_ (at_unary rWAF rNDF 235 (y := Cert.ReferenceIdeal.main_v164) ((rAt_3 45 (by decide)).trans rfl) (by decide +kernel) (not_mem_drop_of_lt rNDF (j := 147) (by decide +kernel) (by decide)) XR).symm)
  rw [e126 H]
  all_goals rfl

theorem e215 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_43) = after rOpsF XR (Proc.devRef .tc Cert.ReferenceIdeal.main_c_49) := by
  refine (at_nullary kWA kND 215 (y := Cert.KernelIdeal.main_c_43) ((kAt_15 2 (by decide)).trans rfl) (by decide +kernel) XK).trans
    (Eq.trans ?_ (at_nullary rWAF rNDF 236 (y := Cert.ReferenceIdeal.main_c_49) ((rAt_3 46 (by decide)).trans rfl) (by decide +kernel) XR).symm)
  rfl

theorem e216 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v154) = after rOpsF XR (Proc.devRef .tc Cert.ReferenceIdeal.main_v165) := by
  refine (at_binary kWA kND 216 (y := Cert.KernelIdeal.main_v154) ((kAt_15 3 (by decide)).trans rfl) (by decide +kernel) (not_mem_drop_of_lt kND (j := 214) (by decide +kernel) (by decide)) (not_mem_drop_of_lt kND (j := 215) (by decide +kernel) (by decide)) XK).trans
    (Eq.trans ?_ (at_binary rWAF rNDF 237 (y := Cert.ReferenceIdeal.main_v165) ((rAt_3 47 (by decide)).trans rfl) (by decide +kernel) (not_mem_drop_of_lt rNDF (j := 235) (by decide +kernel) (by decide)) (not_mem_drop_of_lt rNDF (j := 236) (by decide +kernel) (by decide)) XR).symm)
  rw [e214 H, e215 H]
  all_goals rfl

theorem e217 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_44) = after rOpsF XR (Proc.devRef .tc Cert.ReferenceIdeal.main_c_50) := by
  refine (at_nullary kWA kND 217 (y := Cert.KernelIdeal.main_c_44) ((kAt_15 4 (by decide)).trans rfl) (by decide +kernel) XK).trans
    (Eq.trans ?_ (at_nullary rWAF rNDF 238 (y := Cert.ReferenceIdeal.main_c_50) ((rAt_3 48 (by decide)).trans rfl) (by decide +kernel) XR).symm)
  rfl

theorem e218 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v155) = after rOpsF XR (Proc.devRef .tc Cert.ReferenceIdeal.main_v166) := by
  refine (at_unary kWA kND 218 (y := Cert.KernelIdeal.main_v155) ((kAt_15 5 (by decide)).trans rfl) (by decide +kernel) (not_mem_drop_of_lt kND (j := 217) (by decide +kernel) (by decide)) XK).trans
    (Eq.trans ?_ (at_unary rWAF rNDF 239 (y := Cert.ReferenceIdeal.main_v166) ((rAt_3 49 (by decide)).trans rfl) (by decide +kernel) (not_mem_drop_of_lt rNDF (j := 238) (by decide +kernel) (by decide)) XR).symm)
  rw [e217 H]
  all_goals rfl

theorem e219 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v156) = after rOpsF XR (Proc.devRef .tc Cert.ReferenceIdeal.main_v167) := by
  refine (at_binary kWA kND 219 (y := Cert.KernelIdeal.main_v156) ((kAt_15 6 (by decide)).trans rfl) (by decide +kernel) (not_mem_drop_of_lt kND (j := 216) (by decide +kernel) (by decide)) (not_mem_drop_of_lt kND (j := 218) (by decide +kernel) (by decide)) XK).trans
    (Eq.trans ?_ (at_binary rWAF rNDF 240 (y := Cert.ReferenceIdeal.main_v167) ((rAt_3 50 (by decide)).trans rfl) (by decide +kernel) (not_mem_drop_of_lt rNDF (j := 237) (by decide +kernel) (by decide)) (not_mem_drop_of_lt rNDF (j := 239) (by decide +kernel) (by decide)) XR).symm)
  rw [e216 H, e218 H]
  all_goals rfl

theorem e220 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_45) = after rOpsF XR (Proc.devRef .tc Cert.ReferenceIdeal.main_cst_51) := by
  refine (at_nullary kWA kND 220 (y := Cert.KernelIdeal.main_cst_45) ((kAt_15 7 (by decide)).trans rfl) (by decide +kernel) XK).trans
    (Eq.trans ?_ (at_nullary rWAF rNDF 241 (y := Cert.ReferenceIdeal.main_cst_51) ((rAt_3 51 (by decide)).trans rfl) (by decide +kernel) XR).symm)
  rfl

theorem e221 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call8_v0) = after rOpsF XR (Proc.devRef .tc Cert.ReferenceIdeal.main_call8_v0) := by
  refine (at_unary kWA kND 221 (y := Cert.KernelIdeal.main_call8_v0) ((kAt_16 0 (by decide)).trans rfl) (by decide +kernel) (not_mem_drop_of_lt kND (j := 220) (by decide +kernel) (by decide)) XK).trans
    (Eq.trans ?_ (at_unary rWAF rNDF 242 (y := Cert.ReferenceIdeal.main_call8_v0) ((rAt_3 52 (by decide)).trans rfl) (by decide +kernel) (not_mem_drop_of_lt rNDF (j := 241) (by decide +kernel) (by decide)) XR).symm)
  rw [e220 H]
  all_goals rfl

theorem e222 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call8_v1) = after rOpsF XR (Proc.devRef .tc Cert.ReferenceIdeal.main_call8_v1) := by
  refine (at_unary kWA kND 222 (y := Cert.KernelIdeal.main_call8_v1) ((kAt_16 1 (by decide)).trans rfl) (by decide +kernel) (not_mem_drop_of_lt kND (j := 221) (by decide +kernel) (by decide)) XK).trans
    (Eq.trans ?_ (at_unary rWAF rNDF 243 (y := Cert.ReferenceIdeal.main_call8_v1) ((rAt_3 53 (by decide)).trans rfl) (by decide +kernel) (not_mem_drop_of_lt rNDF (j := 242) (by decide +kernel) (by decide)) XR).symm)
  rw [e221 H]
  all_goals rfl

theorem e223 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v157) = after rOpsF XR (Proc.devRef .tc Cert.ReferenceIdeal.main_v168) := by
  refine (at_ternary kWA kND 223 (y := Cert.KernelIdeal.main_v157) ((kAt_16 2 (by decide)).trans rfl) (by decide +kernel) (not_mem_drop_of_lt kND (j := 126) (by decide +kernel) (by decide)) (not_mem_drop_of_lt kND (j := 213) (by decide +kernel) (by decide)) (not_mem_drop_of_lt kND (j := 222) (by decide +kernel) (by decide)) XK).trans
    (Eq.trans ?_ (at_ternary rWAF rNDF 244 (y := Cert.ReferenceIdeal.main_v168) ((rAt_3 54 (by decide)).trans rfl) (by decide +kernel) (not_mem_drop_of_lt rNDF (j := 147) (by decide +kernel) (by decide)) (not_mem_drop_of_lt rNDF (j := 234) (by decide +kernel) (by decide)) (not_mem_drop_of_lt rNDF (j := 243) (by decide +kernel) (by decide)) XR).symm)
  rw [e126 H, e213 H, e222 H]
  all_goals rfl

theorem e224 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_46) = after rOpsF XR (Proc.devRef .tc Cert.ReferenceIdeal.main_cst_52) := by
  refine (at_nullary kWA kND 224 (y := Cert.KernelIdeal.main_cst_46) ((kAt_17 0 (by decide)).trans rfl) (by decide +kernel) XK).trans
    (Eq.trans ?_ (at_nullary rWAF rNDF 245 (y := Cert.ReferenceIdeal.main_cst_52) ((rAt_3 55 (by decide)).trans rfl) (by decide +kernel) XR).symm)
  rfl

theorem e225 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v158) = after rOpsF XR (Proc.devRef .tc Cert.ReferenceIdeal.main_v169) := by
  refine (at_binary kWA kND 225 (y := Cert.KernelIdeal.main_v158) ((kAt_17 1 (by decide)).trans rfl) (by decide +kernel) (not_mem_drop_of_lt kND (j := 223) (by decide +kernel) (by decide)) (not_mem_drop_of_lt kND (j := 224) (by decide +kernel) (by decide)) XK).trans
    (Eq.trans ?_ (at_binary rWAF rNDF 246 (y := Cert.ReferenceIdeal.main_v169) ((rAt_3 56 (by decide)).trans rfl) (by decide +kernel) (not_mem_drop_of_lt rNDF (j := 244) (by decide +kernel) (by decide)) (not_mem_drop_of_lt rNDF (j := 245) (by decide +kernel) (by decide)) XR).symm)
  rw [e223 H, e224 H]
  all_goals rfl

theorem e226 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_47) = after rOpsF XR (Proc.devRef .tc Cert.ReferenceIdeal.main_c_53) := by
  refine (at_nullary kWA kND 226 (y := Cert.KernelIdeal.main_c_47) ((kAt_17 2 (by decide)).trans rfl) (by decide +kernel) XK).trans
    (Eq.trans ?_ (at_nullary rWAF rNDF 247 (y := Cert.ReferenceIdeal.main_c_53) ((rAt_3 57 (by decide)).trans rfl) (by decide +kernel) XR).symm)
  rfl

theorem e227 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v159) = after rOpsF XR (Proc.devRef .tc Cert.ReferenceIdeal.main_v170) := by
  refine (at_unary kWA kND 227 (y := Cert.KernelIdeal.main_v159) ((kAt_17 3 (by decide)).trans rfl) (by decide +kernel) (not_mem_drop_of_lt kND (j := 226) (by decide +kernel) (by decide)) XK).trans
    (Eq.trans ?_ (at_unary rWAF rNDF 248 (y := Cert.ReferenceIdeal.main_v170) ((rAt_3 58 (by decide)).trans rfl) (by decide +kernel) (not_mem_drop_of_lt rNDF (j := 247) (by decide +kernel) (by decide)) XR).symm)
  rw [e226 H]
  all_goals rfl

theorem e228 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v160) = after rOpsF XR (Proc.devRef .tc Cert.ReferenceIdeal.main_v171) := by
  refine (at_binary kWA kND 228 (y := Cert.KernelIdeal.main_v160) ((kAt_17 4 (by decide)).trans rfl) (by decide +kernel) (not_mem_drop_of_lt kND (j := 216) (by decide +kernel) (by decide)) (not_mem_drop_of_lt kND (j := 227) (by decide +kernel) (by decide)) XK).trans
    (Eq.trans ?_ (at_binary rWAF rNDF 249 (y := Cert.ReferenceIdeal.main_v171) ((rAt_3 59 (by decide)).trans rfl) (by decide +kernel) (not_mem_drop_of_lt rNDF (j := 237) (by decide +kernel) (by decide)) (not_mem_drop_of_lt rNDF (j := 248) (by decide +kernel) (by decide)) XR).symm)
  rw [e216 H, e227 H]
  all_goals rfl

theorem e229 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v161) = after rOpsF XR (Proc.devRef .tc Cert.ReferenceIdeal.main_v172) := by
  refine (at_unary kWA kND 229 (y := Cert.KernelIdeal.main_v161) ((kAt_17 5 (by decide)).trans rfl) (by decide +kernel) (not_mem_drop_of_lt kND (j := 228) (by decide +kernel) (by decide)) XK).trans
    (Eq.trans ?_ (at_unary rWAF rNDF 250 (y := Cert.ReferenceIdeal.main_v172) ((rAt_3 60 (by decide)).trans rfl) (by decide +kernel) (not_mem_drop_of_lt rNDF (j := 249) (by decide +kernel) (by decide)) XR).symm)
  rw [e228 H]
  all_goals rfl

theorem e230 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v162) = after rOpsF XR (Proc.devRef .tc Cert.ReferenceIdeal.main_v173) := by
  refine (at_binary kWA kND 230 (y := Cert.KernelIdeal.main_v162) ((kAt_17 6 (by decide)).trans rfl) (by decide +kernel) (not_mem_drop_of_lt kND (j := 225) (by decide +kernel) (by decide)) (not_mem_drop_of_lt kND (j := 229) (by decide +kernel) (by decide)) XK).trans
    (Eq.trans ?_ (at_binary rWAF rNDF 251 (y := Cert.ReferenceIdeal.main_v173) ((rAt_3 61 (by decide)).trans rfl) (by decide +kernel) (not_mem_drop_of_lt rNDF (j := 246) (by decide +kernel) (by decide)) (not_mem_drop_of_lt rNDF (j := 250) (by decide +kernel) (by decide)) XR).symm)
  rw [e225 H, e229 H]
  all_goals rfl

theorem e231 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_48) = after rOpsF XR (Proc.devRef .tc Cert.ReferenceIdeal.main_cst_54) := by
  refine (at_nullary kWA kND 231 (y := Cert.KernelIdeal.main_cst_48) ((kAt_17 7 (by decide)).trans rfl) (by decide +kernel) XK).trans
    (Eq.trans ?_ (at_nullary rWAF rNDF 252 (y := Cert.ReferenceIdeal.main_cst_54) ((rAt_3 62 (by decide)).trans rfl) (by decide +kernel) XR).symm)
  rfl

theorem e232 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call9_v0) = after rOpsF XR (Proc.devRef .tc Cert.ReferenceIdeal.main_call9_v0) := by
  refine (at_unary kWA kND 232 (y := Cert.KernelIdeal.main_call9_v0) ((kAt_18 0 (by decide)).trans rfl) (by decide +kernel) (not_mem_drop_of_lt kND (j := 231) (by decide +kernel) (by decide)) XK).trans
    (Eq.trans ?_ (at_unary rWAF rNDF 253 (y := Cert.ReferenceIdeal.main_call9_v0) ((rAt_3 63 (by decide)).trans rfl) (by decide +kernel) (not_mem_drop_of_lt rNDF (j := 252) (by decide +kernel) (by decide)) XR).symm)
  rw [e231 H]
  all_goals rfl

theorem e233 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call9_v1) = after rOpsF XR (Proc.devRef .tc Cert.ReferenceIdeal.main_call9_v1) := by
  refine (at_unary kWA kND 233 (y := Cert.KernelIdeal.main_call9_v1) ((kAt_18 1 (by decide)).trans rfl) (by decide +kernel) (not_mem_drop_of_lt kND (j := 232) (by decide +kernel) (by decide)) XK).trans
    (Eq.trans ?_ (at_unary rWAF rNDF 254 (y := Cert.ReferenceIdeal.main_call9_v1) ((rAt_3 64 (by decide)).trans rfl) (by decide +kernel) (not_mem_drop_of_lt rNDF (j := 253) (by decide +kernel) (by decide)) XR).symm)
  rw [e232 H]
  all_goals rfl

theorem e234 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v163) = after rOpsF XR (Proc.devRef .tc Cert.ReferenceIdeal.main_v174) := by
  refine (at_ternary kWA kND 234 (y := Cert.KernelIdeal.main_v163) ((kAt_18 2 (by decide)).trans rfl) (by decide +kernel) (not_mem_drop_of_lt kND (j := 219) (by decide +kernel) (by decide)) (not_mem_drop_of_lt kND (j := 230) (by decide +kernel) (by decide)) (not_mem_drop_of_lt kND (j := 233) (by decide +kernel) (by decide)) XK).trans
    (Eq.trans ?_ (at_ternary rWAF rNDF 255 (y := Cert.ReferenceIdeal.main_v174) ((rAt_3 65 (by decide)).trans rfl) (by decide +kernel) (not_mem_drop_of_lt rNDF (j := 240) (by decide +kernel) (by decide)) (not_mem_drop_of_lt rNDF (j := 251) (by decide +kernel) (by decide)) (not_mem_drop_of_lt rNDF (j := 254) (by decide +kernel) (by decide)) XR).symm)
  rw [e219 H, e230 H, e233 H]
  all_goals rfl

theorem e235 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v164) = after rOpsF XR (Proc.devRef .tc Cert.ReferenceIdeal.main_v175) := by
  refine (at_unary kWA kND 235 (y := Cert.KernelIdeal.main_v164) ((kAt_19 0 (by decide)).trans rfl) (by decide +kernel) (not_mem_drop_of_lt kND (j := 183) (by decide +kernel) (by decide)) XK).trans
    (Eq.trans ?_ (at_unary rWAF rNDF 256 (y := Cert.ReferenceIdeal.main_v175) ((rAt_3 66 (by decide)).trans rfl) (by decide +kernel) (not_mem_drop_of_lt rNDF (j := 204) (by decide +kernel) (by decide)) XR).symm)
  rw [e183 H]
  all_goals rfl

theorem e236 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v165) = after rOpsF XR (Proc.devRef .tc Cert.ReferenceIdeal.main_v176) := by
  refine (at_unary kWA kND 236 (y := Cert.KernelIdeal.main_v165) ((kAt_19 1 (by decide)).trans rfl) (by decide +kernel) (not_mem_drop_of_lt kND (j := 212) (by decide +kernel) (by decide)) XK).trans
    (Eq.trans ?_ (at_unary rWAF rNDF 257 (y := Cert.ReferenceIdeal.main_v176) ((rAt_3 67 (by decide)).trans rfl) (by decide +kernel) (not_mem_drop_of_lt rNDF (j := 233) (by decide +kernel) (by decide)) XR).symm)
  rw [e212 H]
  all_goals rfl

theorem e237 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v166) = after rOpsF XR (Proc.devRef .tc Cert.ReferenceIdeal.main_v177) := by
  refine (at_unary kWA kND 237 (y := Cert.KernelIdeal.main_v166) ((kAt_19 2 (by decide)).trans rfl) (by decide +kernel) (not_mem_drop_of_lt kND (j := 234) (by decide +kernel) (by decide)) XK).trans
    (Eq.trans ?_ (at_unary rWAF rNDF 258 (y := Cert.ReferenceIdeal.main_v177) ((rAt_3 68 (by decide)).trans rfl) (by decide +kernel) (not_mem_drop_of_lt rNDF (j := 255) (by decide +kernel) (by decide)) XR).symm)
  rw [e234 H]
  all_goals rfl

theorem e238 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v167) = after rOpsF XR (Proc.devRef .tc Cert.ReferenceIdeal.main_v178) := by
  refine (at_nary kWA kND 238 (y := Cert.KernelIdeal.main_v167) ((kAt_19 3 (by decide)).trans rfl) (by decide +kernel) (fun i => by fin_cases i <;> [exact (not_mem_drop_of_lt kND (j := 235) (by decide +kernel) (by decide)); exact (not_mem_drop_of_lt kND (j := 236) (by decide +kernel) (by decide)); exact (not_mem_drop_of_lt kND (j := 237) (by decide +kernel) (by decide))]) XK).trans
    (Eq.trans ?_ (at_nary rWAF rNDF 259 (y := Cert.ReferenceIdeal.main_v178) ((rAt_3 69 (by decide)).trans rfl) (by decide +kernel) (fun i => by fin_cases i <;> [exact (not_mem_drop_of_lt rNDF (j := 256) (by decide +kernel) (by decide)); exact (not_mem_drop_of_lt rNDF (j := 257) (by decide +kernel) (by decide)); exact (not_mem_drop_of_lt rNDF (j := 258) (by decide +kernel) (by decide))]) XR).symm)
  exact concatenate_congr (congr (congrArg List.cons (congrArg (Sigma.mk _) (e235 H))) (congr (congrArg List.cons (congrArg (Sigma.mk _) (e236 H))) (congr (congrArg List.cons (congrArg (Sigma.mk _) (e237 H))) rfl))) _ _

theorem e239 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v168) = after rOpsF XR (Proc.devRef .tc Cert.ReferenceIdeal.main_v179) := by
  refine (at_unary kWA kND 239 (y := Cert.KernelIdeal.main_v168) ((kAt_19 4 (by decide)).trans rfl) (by decide +kernel) (not_mem_drop_of_lt kND (j := 148) (by decide +kernel) (by decide)) XK).trans
    (Eq.trans ?_ (at_unary rWAF rNDF 260 (y := Cert.ReferenceIdeal.main_v179) ((rAt_3 70 (by decide)).trans rfl) (by decide +kernel) (not_mem_drop_of_lt rNDF (j := 169) (by decide +kernel) (by decide)) XR).symm)
  rw [e148 H]
  all_goals rfl

theorem e240 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v169) = after rOpsF XR (Proc.devRef .tc Cert.ReferenceIdeal.main_v180) := by
  refine (at_unary kWA kND 240 (y := Cert.KernelIdeal.main_v169) ((kAt_19 5 (by decide)).trans rfl) (by decide +kernel) (not_mem_drop_of_lt kND (j := 151) (by decide +kernel) (by decide)) XK).trans
    (Eq.trans ?_ (at_unary rWAF rNDF 261 (y := Cert.ReferenceIdeal.main_v180) ((rAt_3 71 (by decide)).trans rfl) (by decide +kernel) (not_mem_drop_of_lt rNDF (j := 172) (by decide +kernel) (by decide)) XR).symm)
  rw [e151 H]
  all_goals rfl

theorem e241 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v170) = after rOpsF XR (Proc.devRef .tc Cert.ReferenceIdeal.main_v181) := by
  refine (at_unary kWA kND 241 (y := Cert.KernelIdeal.main_v170) ((kAt_19 6 (by decide)).trans rfl) (by decide +kernel) (not_mem_drop_of_lt kND (j := 154) (by decide +kernel) (by decide)) XK).trans
    (Eq.trans ?_ (at_unary rWAF rNDF 262 (y := Cert.ReferenceIdeal.main_v181) ((rAt_3 72 (by decide)).trans rfl) (by decide +kernel) (not_mem_drop_of_lt rNDF (j := 175) (by decide +kernel) (by decide)) XR).symm)
  rw [e154 H]
  all_goals rfl

theorem e242 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v171) = after rOpsF XR (Proc.devRef .tc Cert.ReferenceIdeal.main_v182) := by
  refine (at_nary kWA kND 242 (y := Cert.KernelIdeal.main_v171) ((kAt_19 7 (by decide)).trans rfl) (by decide +kernel) (fun i => by fin_cases i <;> [exact (not_mem_drop_of_lt kND (j := 239) (by decide +kernel) (by decide)); exact (not_mem_drop_of_lt kND (j := 240) (by decide +kernel) (by decide)); exact (not_mem_drop_of_lt kND (j := 241) (by decide +kernel) (by decide))]) XK).trans
    (Eq.trans ?_ (at_nary rWAF rNDF 263 (y := Cert.ReferenceIdeal.main_v182) ((rAt_3 73 (by decide)).trans rfl) (by decide +kernel) (fun i => by fin_cases i <;> [exact (not_mem_drop_of_lt rNDF (j := 260) (by decide +kernel) (by decide)); exact (not_mem_drop_of_lt rNDF (j := 261) (by decide +kernel) (by decide)); exact (not_mem_drop_of_lt rNDF (j := 262) (by decide +kernel) (by decide))]) XR).symm)
  exact concatenate_congr (congr (congrArg List.cons (congrArg (Sigma.mk _) (e239 H))) (congr (congrArg List.cons (congrArg (Sigma.mk _) (e240 H))) (congr (congrArg List.cons (congrArg (Sigma.mk _) (e241 H))) rfl))) _ _

theorem e243 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v172) = after rOpsF XR (Proc.devRef .tc Cert.ReferenceIdeal.main_v183) := by
  refine (at_unary kWA kND 243 (y := Cert.KernelIdeal.main_v172) ((kAt_19 8 (by decide)).trans rfl) (by decide +kernel) (not_mem_drop_of_lt kND (j := 242) (by decide +kernel) (by decide)) XK).trans
    (Eq.trans ?_ (at_unary rWAF rNDF 264 (y := Cert.ReferenceIdeal.main_v183) ((rAt_4 0 (by decide)).trans rfl) (by decide +kernel) (not_mem_drop_of_lt rNDF (j := 263) (by decide +kernel) (by decide)) XR).symm)
  rw [e242 H]
  all_goals rfl

theorem e244 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_49) = after rOpsF XR (Proc.devRef .tc Cert.ReferenceIdeal.main_cst_55) := by
  refine (at_nullary kWA kND 244 (y := Cert.KernelIdeal.main_cst_49) ((kAt_19 9 (by decide)).trans rfl) (by decide +kernel) XK).trans
    (Eq.trans ?_ (at_nullary rWAF rNDF 265 (y := Cert.ReferenceIdeal.main_cst_55) ((rAt_4 1 (by decide)).trans rfl) (by decide +kernel) XR).symm)
  rfl

theorem e245 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v173) = after rOpsF XR (Proc.devRef .tc Cert.ReferenceIdeal.main_v184) := by
  refine (at_binary kWA kND 245 (y := Cert.KernelIdeal.main_v173) ((kAt_19 10 (by decide)).trans rfl) (by decide +kernel) (not_mem_drop_of_lt kND (j := 243) (by decide +kernel) (by decide)) (not_mem_drop_of_lt kND (j := 244) (by decide +kernel) (by decide)) XK).trans
    (Eq.trans ?_ (at_binary rWAF rNDF 266 (y := Cert.ReferenceIdeal.main_v184) ((rAt_4 2 (by decide)).trans rfl) (by decide +kernel) (not_mem_drop_of_lt rNDF (j := 264) (by decide +kernel) (by decide)) (not_mem_drop_of_lt rNDF (j := 265) (by decide +kernel) (by decide)) XR).symm)
  rw [e243 H, e244 H]
  all_goals rfl

theorem e246 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_50) = after rOpsF XR (Proc.devRef .tc Cert.ReferenceIdeal.main_cst_56) := by
  refine (at_nullary kWA kND 246 (y := Cert.KernelIdeal.main_cst_50) ((kAt_19 11 (by decide)).trans rfl) (by decide +kernel) XK).trans
    (Eq.trans ?_ (at_nullary rWAF rNDF 267 (y := Cert.ReferenceIdeal.main_cst_56) ((rAt_4 3 (by decide)).trans rfl) (by decide +kernel) XR).symm)
  rfl

theorem e247 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v174) = after rOpsF XR (Proc.devRef .tc Cert.ReferenceIdeal.main_v185) := by
  refine (at_binary kWA kND 247 (y := Cert.KernelIdeal.main_v174) ((kAt_19 12 (by decide)).trans rfl) (by decide +kernel) (not_mem_drop_of_lt kND (j := 245) (by decide +kernel) (by decide)) (not_mem_drop_of_lt kND (j := 246) (by decide +kernel) (by decide)) XK).trans
    (Eq.trans ?_ (at_binary rWAF rNDF 268 (y := Cert.ReferenceIdeal.main_v185) ((rAt_4 4 (by decide)).trans rfl) (by decide +kernel) (not_mem_drop_of_lt rNDF (j := 266) (by decide +kernel) (by decide)) (not_mem_drop_of_lt rNDF (j := 267) (by decide +kernel) (by decide)) XR).symm)
  rw [e245 H, e246 H]
  all_goals rfl

theorem e248 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v175) = after rOpsF XR (Proc.devRef .tc Cert.ReferenceIdeal.main_v186) := by
  refine (at_binary kWA kND 248 (y := Cert.KernelIdeal.main_v175) ((kAt_19 13 (by decide)).trans rfl) (by decide +kernel) (not_mem_drop_of_lt kND (j := 238) (by decide +kernel) (by decide)) (not_mem_drop_of_lt kND (j := 243) (by decide +kernel) (by decide)) XK).trans
    (Eq.trans ?_ (at_binary rWAF rNDF 269 (y := Cert.ReferenceIdeal.main_v186) ((rAt_4 5 (by decide)).trans rfl) (by decide +kernel) (not_mem_drop_of_lt rNDF (j := 259) (by decide +kernel) (by decide)) (not_mem_drop_of_lt rNDF (j := 264) (by decide +kernel) (by decide)) XR).symm)
  rw [e238 H, e243 H]
  all_goals rfl

theorem e249 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_51) = after rOpsF XR (Proc.devRef .tc Cert.ReferenceIdeal.main_cst_57) := by
  refine (at_nullary kWA kND 249 (y := Cert.KernelIdeal.main_cst_51) ((kAt_19 14 (by decide)).trans rfl) (by decide +kernel) XK).trans
    (Eq.trans ?_ (at_nullary rWAF rNDF 270 (y := Cert.ReferenceIdeal.main_cst_57) ((rAt_4 6 (by decide)).trans rfl) (by decide +kernel) XR).symm)
  rfl

theorem e250 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v176) = after rOpsF XR (Proc.devRef .tc Cert.ReferenceIdeal.main_v187) := by
  refine (at_binary kWA kND 250 (y := Cert.KernelIdeal.main_v176) ((kAt_19 15 (by decide)).trans rfl) (by decide +kernel) (not_mem_drop_of_lt kND (j := 248) (by decide +kernel) (by decide)) (not_mem_drop_of_lt kND (j := 249) (by decide +kernel) (by decide)) XK).trans
    (Eq.trans ?_ (at_binary rWAF rNDF 271 (y := Cert.ReferenceIdeal.main_v187) ((rAt_4 7 (by decide)).trans rfl) (by decide +kernel) (not_mem_drop_of_lt rNDF (j := 269) (by decide +kernel) (by decide)) (not_mem_drop_of_lt rNDF (j := 270) (by decide +kernel) (by decide)) XR).symm)
  rw [e248 H, e249 H]
  all_goals rfl

theorem e251 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_52) = after rOpsF XR (Proc.devRef .tc Cert.ReferenceIdeal.main_cst_58) := by
  refine (at_nullary kWA kND 251 (y := Cert.KernelIdeal.main_cst_52) ((kAt_19 16 (by decide)).trans rfl) (by decide +kernel) XK).trans
    (Eq.trans ?_ (at_nullary rWAF rNDF 272 (y := Cert.ReferenceIdeal.main_cst_58) ((rAt_4 8 (by decide)).trans rfl) (by decide +kernel) XR).symm)
  rfl

theorem e252 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v177) = after rOpsF XR (Proc.devRef .tc Cert.ReferenceIdeal.main_v188) := by
  refine (at_binary kWA kND 252 (y := Cert.KernelIdeal.main_v177) ((kAt_19 17 (by decide)).trans rfl) (by decide +kernel) (not_mem_drop_of_lt kND (j := 245) (by decide +kernel) (by decide)) (not_mem_drop_of_lt kND (j := 251) (by decide +kernel) (by decide)) XK).trans
    (Eq.trans ?_ (at_binary rWAF rNDF 273 (y := Cert.ReferenceIdeal.main_v188) ((rAt_4 9 (by decide)).trans rfl) (by decide +kernel) (not_mem_drop_of_lt rNDF (j := 266) (by decide +kernel) (by decide)) (not_mem_drop_of_lt rNDF (j := 272) (by decide +kernel) (by decide)) XR).symm)
  rw [e245 H, e251 H]
  all_goals rfl

theorem e253 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v178) = after rOpsF XR (Proc.devRef .tc Cert.ReferenceIdeal.main_v189) := by
  refine (at_binary kWA kND 253 (y := Cert.KernelIdeal.main_v178) ((kAt_19 18 (by decide)).trans rfl) (by decide +kernel) (not_mem_drop_of_lt kND (j := 250) (by decide +kernel) (by decide)) (not_mem_drop_of_lt kND (j := 252) (by decide +kernel) (by decide)) XK).trans
    (Eq.trans ?_ (at_binary rWAF rNDF 274 (y := Cert.ReferenceIdeal.main_v189) ((rAt_4 10 (by decide)).trans rfl) (by decide +kernel) (not_mem_drop_of_lt rNDF (j := 271) (by decide +kernel) (by decide)) (not_mem_drop_of_lt rNDF (j := 273) (by decide +kernel) (by decide)) XR).symm)
  rw [e250 H, e252 H]
  all_goals rfl

theorem e254 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_53) = after rOpsF XR (Proc.devRef .tc Cert.ReferenceIdeal.main_cst_59) := by
  refine (at_nullary kWA kND 254 (y := Cert.KernelIdeal.main_cst_53) ((kAt_19 19 (by decide)).trans rfl) (by decide +kernel) XK).trans
    (Eq.trans ?_ (at_nullary rWAF rNDF 275 (y := Cert.ReferenceIdeal.main_cst_59) ((rAt_4 11 (by decide)).trans rfl) (by decide +kernel) XR).symm)
  rfl

theorem e255 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call10_v0) = after rOpsF XR (Proc.devRef .tc Cert.ReferenceIdeal.main_call10_v0) := by
  refine (at_unary kWA kND 255 (y := Cert.KernelIdeal.main_call10_v0) ((kAt_20 0 (by decide)).trans rfl) (by decide +kernel) (not_mem_drop_of_lt kND (j := 254) (by decide +kernel) (by decide)) XK).trans
    (Eq.trans ?_ (at_unary rWAF rNDF 276 (y := Cert.ReferenceIdeal.main_call10_v0) ((rAt_4 12 (by decide)).trans rfl) (by decide +kernel) (not_mem_drop_of_lt rNDF (j := 275) (by decide +kernel) (by decide)) XR).symm)
  rw [e254 H]
  all_goals rfl

theorem e256 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v179) = after rOpsF XR (Proc.devRef .tc Cert.ReferenceIdeal.main_v190) := by
  refine (at_ternary kWA kND 256 (y := Cert.KernelIdeal.main_v179) ((kAt_20 1 (by decide)).trans rfl) (by decide +kernel) (not_mem_drop_of_lt kND (j := 247) (by decide +kernel) (by decide)) (not_mem_drop_of_lt kND (j := 253) (by decide +kernel) (by decide)) (not_mem_drop_of_lt kND (j := 255) (by decide +kernel) (by decide)) XK).trans
    (Eq.trans ?_ (at_ternary rWAF rNDF 277 (y := Cert.ReferenceIdeal.main_v190) ((rAt_4 13 (by decide)).trans rfl) (by decide +kernel) (not_mem_drop_of_lt rNDF (j := 268) (by decide +kernel) (by decide)) (not_mem_drop_of_lt rNDF (j := 274) (by decide +kernel) (by decide)) (not_mem_drop_of_lt rNDF (j := 276) (by decide +kernel) (by decide)) XR).symm)
  rw [e247 H, e253 H, e255 H]
  all_goals rfl

theorem e257 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_54) = after rOpsF XR (Proc.devRef .tc Cert.ReferenceIdeal.main_c_60) := by
  refine (at_nullary kWA kND 257 (y := Cert.KernelIdeal.main_c_54) ((kAt_21 0 (by decide)).trans rfl) (by decide +kernel) XK).trans
    (Eq.trans ?_ (at_nullary rWAF rNDF 278 (y := Cert.ReferenceIdeal.main_c_60) ((rAt_4 14 (by decide)).trans rfl) (by decide +kernel) XR).symm)
  rfl

theorem e258 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v180) = after rOpsF XR (Proc.devRef .tc Cert.ReferenceIdeal.main_v191) := by
  refine (at_unary kWA kND 258 (y := Cert.KernelIdeal.main_v180) ((kAt_21 1 (by decide)).trans rfl) (by decide +kernel) (not_mem_drop_of_lt kND (j := 257) (by decide +kernel) (by decide)) XK).trans
    (Eq.trans ?_ (at_unary rWAF rNDF 279 (y := Cert.ReferenceIdeal.main_v191) ((rAt_4 15 (by decide)).trans rfl) (by decide +kernel) (not_mem_drop_of_lt rNDF (j := 278) (by decide +kernel) (by decide)) XR).symm)
  rw [e257 H]
  all_goals rfl

theorem e259 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v181) = after rOpsF XR (Proc.devRef .tc Cert.ReferenceIdeal.main_v192) := by
  refine (at_binary kWA kND 259 (y := Cert.KernelIdeal.main_v181) ((kAt_21 2 (by decide)).trans rfl) (by decide +kernel) (not_mem_drop_of_lt kND (j := 27) (by decide +kernel) (by decide)) (not_mem_drop_of_lt kND (j := 258) (by decide +kernel) (by decide)) XK).trans
    (Eq.trans ?_ (at_binary rWAF rNDF 280 (y := Cert.ReferenceIdeal.main_v192) ((rAt_4 16 (by decide)).trans rfl) (by decide +kernel) (not_mem_drop_of_lt rNDF (j := 48) (by decide +kernel) (by decide)) (not_mem_drop_of_lt rNDF (j := 279) (by decide +kernel) (by decide)) XR).symm)
  rw [e27 H, e258 H]
  all_goals rfl

theorem e260 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_55) = after rOpsF XR (Proc.devRef .tc Cert.ReferenceIdeal.main_c_61) := by
  refine (at_nullary kWA kND 260 (y := Cert.KernelIdeal.main_c_55) ((kAt_21 3 (by decide)).trans rfl) (by decide +kernel) XK).trans
    (Eq.trans ?_ (at_nullary rWAF rNDF 281 (y := Cert.ReferenceIdeal.main_c_61) ((rAt_4 17 (by decide)).trans rfl) (by decide +kernel) XR).symm)
  rfl

theorem e261 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v182) = after rOpsF XR (Proc.devRef .tc Cert.ReferenceIdeal.main_v193) := by
  refine (at_unary kWA kND 261 (y := Cert.KernelIdeal.main_v182) ((kAt_21 4 (by decide)).trans rfl) (by decide +kernel) (not_mem_drop_of_lt kND (j := 260) (by decide +kernel) (by decide)) XK).trans
    (Eq.trans ?_ (at_unary rWAF rNDF 282 (y := Cert.ReferenceIdeal.main_v193) ((rAt_4 18 (by decide)).trans rfl) (by decide +kernel) (not_mem_drop_of_lt rNDF (j := 281) (by decide +kernel) (by decide)) XR).symm)
  rw [e260 H]
  all_goals rfl

theorem e262 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v183) = after rOpsF XR (Proc.devRef .tc Cert.ReferenceIdeal.main_v194) := by
  refine (at_binary kWA kND 262 (y := Cert.KernelIdeal.main_v183) ((kAt_21 5 (by decide)).trans rfl) (by decide +kernel) (not_mem_drop_of_lt kND (j := 27) (by decide +kernel) (by decide)) (not_mem_drop_of_lt kND (j := 261) (by decide +kernel) (by decide)) XK).trans
    (Eq.trans ?_ (at_binary rWAF rNDF 283 (y := Cert.ReferenceIdeal.main_v194) ((rAt_4 19 (by decide)).trans rfl) (by decide +kernel) (not_mem_drop_of_lt rNDF (j := 48) (by decide +kernel) (by decide)) (not_mem_drop_of_lt rNDF (j := 282) (by decide +kernel) (by decide)) XR).symm)
  rw [e27 H, e261 H]
  all_goals rfl

theorem e263 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v184) = after rOpsF XR (Proc.devRef .tc Cert.ReferenceIdeal.main_v195) := by
  refine (at_ternary kWA kND 263 (y := Cert.KernelIdeal.main_v184) ((kAt_21 6 (by decide)).trans rfl) (by decide +kernel) (not_mem_drop_of_lt kND (j := 259) (by decide +kernel) (by decide)) (not_mem_drop_of_lt kND (j := 262) (by decide +kernel) (by decide)) (not_mem_drop_of_lt kND (j := 27) (by decide +kernel) (by decide)) XK).trans
    (Eq.trans ?_ (at_ternary rWAF rNDF 284 (y := Cert.ReferenceIdeal.main_v195) ((rAt_4 20 (by decide)).trans rfl) (by decide +kernel) (not_mem_drop_of_lt rNDF (j := 280) (by decide +kernel) (by decide)) (not_mem_drop_of_lt rNDF (j := 283) (by decide +kernel) (by decide)) (not_mem_drop_of_lt rNDF (j := 48) (by decide +kernel) (by decide)) XR).symm)
  rw [e259 H, e262 H, e27 H]
  all_goals rfl

theorem e264 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v185) = after rOpsF XR (Proc.devRef .tc Cert.ReferenceIdeal.main_v196) := by
  refine (at_unary kWA kND 264 (y := Cert.KernelIdeal.main_v185) ((kAt_21 7 (by decide)).trans rfl) (by decide +kernel) (not_mem_drop_of_lt kND (j := 263) (by decide +kernel) (by decide)) XK).trans
    (Eq.trans ?_ (at_unary rWAF rNDF 285 (y := Cert.ReferenceIdeal.main_v196) ((rAt_4 21 (by decide)).trans rfl) (by decide +kernel) (not_mem_drop_of_lt rNDF (j := 284) (by decide +kernel) (by decide)) XR).symm)
  rw [e263 H]
  all_goals rfl

theorem e265 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v186) = after rOpsF XR (Proc.devRef .tc Cert.ReferenceIdeal.main_v197) := by
  refine (at_binary kWA kND 265 (y := Cert.KernelIdeal.main_v186) ((kAt_21 8 (by decide)).trans rfl) (by decide +kernel) (not_mem_drop_of_not_mem kin_main_v3_1 265) (not_mem_drop_of_lt kND (j := 264) (by decide +kernel) (by decide)) XK).trans
    (Eq.trans ?_ (at_binary rWAF rNDF 286 (y := Cert.ReferenceIdeal.main_v197) ((rAt_4 22 (by decide)).trans rfl) (by decide +kernel) (not_mem_drop_of_lt rNDF (j := 13) (by decide +kernel) (by decide)) (not_mem_drop_of_lt rNDF (j := 285) (by decide +kernel) (by decide)) XR).symm)
  rw [H.main_v3_1, e264 H]
  all_goals rfl

theorem e266 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_56) = after rOpsF XR (Proc.devRef .tc Cert.ReferenceIdeal.main_c_62) := by
  refine (at_nullary kWA kND 266 (y := Cert.KernelIdeal.main_c_56) ((kAt_21 9 (by decide)).trans rfl) (by decide +kernel) XK).trans
    (Eq.trans ?_ (at_nullary rWAF rNDF 287 (y := Cert.ReferenceIdeal.main_c_62) ((rAt_4 23 (by decide)).trans rfl) (by decide +kernel) XR).symm)
  rfl

theorem e267 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v187) = after rOpsF XR (Proc.devRef .tc Cert.ReferenceIdeal.main_v198) := by
  refine (at_unary kWA kND 267 (y := Cert.KernelIdeal.main_v187) ((kAt_21 10 (by decide)).trans rfl) (by decide +kernel) (not_mem_drop_of_lt kND (j := 266) (by decide +kernel) (by decide)) XK).trans
    (Eq.trans ?_ (at_unary rWAF rNDF 288 (y := Cert.ReferenceIdeal.main_v198) ((rAt_4 24 (by decide)).trans rfl) (by decide +kernel) (not_mem_drop_of_lt rNDF (j := 287) (by decide +kernel) (by decide)) XR).symm)
  rw [e266 H]
  all_goals rfl

theorem e268 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v188) = after rOpsF XR (Proc.devRef .tc Cert.ReferenceIdeal.main_v199) := by
  refine (at_binary kWA kND 268 (y := Cert.KernelIdeal.main_v188) ((kAt_21 11 (by decide)).trans rfl) (by decide +kernel) (not_mem_drop_of_lt kND (j := 32) (by decide +kernel) (by decide)) (not_mem_drop_of_lt kND (j := 267) (by decide +kernel) (by decide)) XK).trans
    (Eq.trans ?_ (at_binary rWAF rNDF 289 (y := Cert.ReferenceIdeal.main_v199) ((rAt_4 25 (by decide)).trans rfl) (by decide +kernel) (not_mem_drop_of_lt rNDF (j := 53) (by decide +kernel) (by decide)) (not_mem_drop_of_lt rNDF (j := 288) (by decide +kernel) (by decide)) XR).symm)
  rw [e32 H, e267 H]
  all_goals rfl

theorem e269 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_57) = after rOpsF XR (Proc.devRef .tc Cert.ReferenceIdeal.main_c_63) := by
  refine (at_nullary kWA kND 269 (y := Cert.KernelIdeal.main_c_57) ((kAt_21 12 (by decide)).trans rfl) (by decide +kernel) XK).trans
    (Eq.trans ?_ (at_nullary rWAF rNDF 290 (y := Cert.ReferenceIdeal.main_c_63) ((rAt_4 26 (by decide)).trans rfl) (by decide +kernel) XR).symm)
  rfl

theorem e270 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v189) = after rOpsF XR (Proc.devRef .tc Cert.ReferenceIdeal.main_v200) := by
  refine (at_unary kWA kND 270 (y := Cert.KernelIdeal.main_v189) ((kAt_21 13 (by decide)).trans rfl) (by decide +kernel) (not_mem_drop_of_lt kND (j := 269) (by decide +kernel) (by decide)) XK).trans
    (Eq.trans ?_ (at_unary rWAF rNDF 291 (y := Cert.ReferenceIdeal.main_v200) ((rAt_4 27 (by decide)).trans rfl) (by decide +kernel) (not_mem_drop_of_lt rNDF (j := 290) (by decide +kernel) (by decide)) XR).symm)
  rw [e269 H]
  all_goals rfl

theorem e271 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v190) = after rOpsF XR (Proc.devRef .tc Cert.ReferenceIdeal.main_v201) := by
  refine (at_binary kWA kND 271 (y := Cert.KernelIdeal.main_v190) ((kAt_21 14 (by decide)).trans rfl) (by decide +kernel) (not_mem_drop_of_lt kND (j := 32) (by decide +kernel) (by decide)) (not_mem_drop_of_lt kND (j := 270) (by decide +kernel) (by decide)) XK).trans
    (Eq.trans ?_ (at_binary rWAF rNDF 292 (y := Cert.ReferenceIdeal.main_v201) ((rAt_4 28 (by decide)).trans rfl) (by decide +kernel) (not_mem_drop_of_lt rNDF (j := 53) (by decide +kernel) (by decide)) (not_mem_drop_of_lt rNDF (j := 291) (by decide +kernel) (by decide)) XR).symm)
  rw [e32 H, e270 H]
  all_goals rfl

theorem e272 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v191) = after rOpsF XR (Proc.devRef .tc Cert.ReferenceIdeal.main_v202) := by
  refine (at_ternary kWA kND 272 (y := Cert.KernelIdeal.main_v191) ((kAt_21 15 (by decide)).trans rfl) (by decide +kernel) (not_mem_drop_of_lt kND (j := 268) (by decide +kernel) (by decide)) (not_mem_drop_of_lt kND (j := 271) (by decide +kernel) (by decide)) (not_mem_drop_of_lt kND (j := 32) (by decide +kernel) (by decide)) XK).trans
    (Eq.trans ?_ (at_ternary rWAF rNDF 293 (y := Cert.ReferenceIdeal.main_v202) ((rAt_4 29 (by decide)).trans rfl) (by decide +kernel) (not_mem_drop_of_lt rNDF (j := 289) (by decide +kernel) (by decide)) (not_mem_drop_of_lt rNDF (j := 292) (by decide +kernel) (by decide)) (not_mem_drop_of_lt rNDF (j := 53) (by decide +kernel) (by decide)) XR).symm)
  rw [e268 H, e271 H, e32 H]
  all_goals rfl

theorem e273 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v192) = after rOpsF XR (Proc.devRef .tc Cert.ReferenceIdeal.main_v203) := by
  refine (at_unary kWA kND 273 (y := Cert.KernelIdeal.main_v192) ((kAt_21 16 (by decide)).trans rfl) (by decide +kernel) (not_mem_drop_of_lt kND (j := 272) (by decide +kernel) (by decide)) XK).trans
    (Eq.trans ?_ (at_unary rWAF rNDF 294 (y := Cert.ReferenceIdeal.main_v203) ((rAt_4 30 (by decide)).trans rfl) (by decide +kernel) (not_mem_drop_of_lt rNDF (j := 293) (by decide +kernel) (by decide)) XR).symm)
  rw [e272 H]
  all_goals rfl

theorem e274 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v193) = after rOpsF XR (Proc.devRef .tc Cert.ReferenceIdeal.main_v204) := by
  refine (at_binary kWA kND 274 (y := Cert.KernelIdeal.main_v193) ((kAt_21 17 (by decide)).trans rfl) (by decide +kernel) (not_mem_drop_of_not_mem kin_main_v3_1 274) (not_mem_drop_of_lt kND (j := 273) (by decide +kernel) (by decide)) XK).trans
    (Eq.trans ?_ (at_binary rWAF rNDF 295 (y := Cert.ReferenceIdeal.main_v204) ((rAt_4 31 (by decide)).trans rfl) (by decide +kernel) (not_mem_drop_of_lt rNDF (j := 13) (by decide +kernel) (by decide)) (not_mem_drop_of_lt rNDF (j := 294) (by decide +kernel) (by decide)) XR).symm)
  rw [H.main_v3_1, e273 H]
  all_goals rfl

theorem e275 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v194) = after rOpsF XR (Proc.devRef .tc Cert.ReferenceIdeal.main_v205) := by
  refine (at_binary kWA kND 275 (y := Cert.KernelIdeal.main_v194) ((kAt_21 18 (by decide)).trans rfl) (by decide +kernel) (not_mem_drop_of_lt kND (j := 265) (by decide +kernel) (by decide)) (not_mem_drop_of_lt kND (j := 274) (by decide +kernel) (by decide)) XK).trans
    (Eq.trans ?_ (at_binary rWAF rNDF 296 (y := Cert.ReferenceIdeal.main_v205) ((rAt_4 32 (by decide)).trans rfl) (by decide +kernel) (not_mem_drop_of_lt rNDF (j := 286) (by decide +kernel) (by decide)) (not_mem_drop_of_lt rNDF (j := 295) (by decide +kernel) (by decide)) XR).symm)
  rw [e265 H, e274 H]
  all_goals rfl

theorem e276 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_58) = after rOpsF XR (Proc.devRef .tc Cert.ReferenceIdeal.main_cst_64) := by
  refine (at_nullary kWA kND 276 (y := Cert.KernelIdeal.main_cst_58) ((kAt_21 19 (by decide)).trans rfl) (by decide +kernel) XK).trans
    (Eq.trans ?_ (at_nullary rWAF rNDF 297 (y := Cert.ReferenceIdeal.main_cst_64) ((rAt_4 33 (by decide)).trans rfl) (by decide +kernel) XR).symm)
  rfl

theorem e277 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v195) = after rOpsF XR (Proc.devRef .tc Cert.ReferenceIdeal.main_v206) := by
  refine (at_unary kWA kND 277 (y := Cert.KernelIdeal.main_v195) ((kAt_21 20 (by decide)).trans rfl) (by decide +kernel) (not_mem_drop_of_lt kND (j := 276) (by decide +kernel) (by decide)) XK).trans
    (Eq.trans ?_ (at_unary rWAF rNDF 298 (y := Cert.ReferenceIdeal.main_v206) ((rAt_4 34 (by decide)).trans rfl) (by decide +kernel) (not_mem_drop_of_lt rNDF (j := 297) (by decide +kernel) (by decide)) XR).symm)
  rw [e276 H]
  all_goals rfl

theorem e278 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v196) = after rOpsF XR (Proc.devRef .tc Cert.ReferenceIdeal.main_v207) := by
  refine (at_binary kWA kND 278 (y := Cert.KernelIdeal.main_v196) ((kAt_21 21 (by decide)).trans rfl) (by decide +kernel) (not_mem_drop_of_lt kND (j := 41) (by decide +kernel) (by decide)) (not_mem_drop_of_lt kND (j := 277) (by decide +kernel) (by decide)) XK).trans
    (Eq.trans ?_ (at_binary rWAF rNDF 299 (y := Cert.ReferenceIdeal.main_v207) ((rAt_4 35 (by decide)).trans rfl) (by decide +kernel) (not_mem_drop_of_lt rNDF (j := 62) (by decide +kernel) (by decide)) (not_mem_drop_of_lt rNDF (j := 298) (by decide +kernel) (by decide)) XR).symm)
  rw [e41 H, e277 H]
  all_goals rfl

theorem e279 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v197) = after rOpsF XR (Proc.devRef .tc Cert.ReferenceIdeal.main_v208) := by
  refine (at_binary kWA kND 279 (y := Cert.KernelIdeal.main_v197) ((kAt_21 22 (by decide)).trans rfl) (by decide +kernel) (not_mem_drop_of_lt kND (j := 275) (by decide +kernel) (by decide)) (not_mem_drop_of_lt kND (j := 278) (by decide +kernel) (by decide)) XK).trans
    (Eq.trans ?_ (at_binary rWAF rNDF 300 (y := Cert.ReferenceIdeal.main_v208) ((rAt_4 36 (by decide)).trans rfl) (by decide +kernel) (not_mem_drop_of_lt rNDF (j := 296) (by decide +kernel) (by decide)) (not_mem_drop_of_lt rNDF (j := 299) (by decide +kernel) (by decide)) XR).symm)
  rw [e275 H, e278 H]
  all_goals rfl

theorem e280 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_59) = after rOpsF XR (Proc.devRef .tc Cert.ReferenceIdeal.main_cst_65) := by
  refine (at_nullary kWA kND 280 (y := Cert.KernelIdeal.main_cst_59) ((kAt_21 23 (by decide)).trans rfl) (by decide +kernel) XK).trans
    (Eq.trans ?_ (at_nullary rWAF rNDF 301 (y := Cert.ReferenceIdeal.main_cst_65) ((rAt_4 37 (by decide)).trans rfl) (by decide +kernel) XR).symm)
  rfl

theorem e281 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v198) = after rOpsF XR (Proc.devRef .tc Cert.ReferenceIdeal.main_v209) := by
  refine (at_unary kWA kND 281 (y := Cert.KernelIdeal.main_v198) ((kAt_21 24 (by decide)).trans rfl) (by decide +kernel) (not_mem_drop_of_lt kND (j := 280) (by decide +kernel) (by decide)) XK).trans
    (Eq.trans ?_ (at_unary rWAF rNDF 302 (y := Cert.ReferenceIdeal.main_v209) ((rAt_4 38 (by decide)).trans rfl) (by decide +kernel) (not_mem_drop_of_lt rNDF (j := 301) (by decide +kernel) (by decide)) XR).symm)
  rw [e280 H]
  all_goals rfl

theorem e282 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v199) = after rOpsF XR (Proc.devRef .tc Cert.ReferenceIdeal.main_v210) := by
  refine (at_binary kWA kND 282 (y := Cert.KernelIdeal.main_v199) ((kAt_21 25 (by decide)).trans rfl) (by decide +kernel) (not_mem_drop_of_lt kND (j := 279) (by decide +kernel) (by decide)) (not_mem_drop_of_lt kND (j := 281) (by decide +kernel) (by decide)) XK).trans
    (Eq.trans ?_ (at_binary rWAF rNDF 303 (y := Cert.ReferenceIdeal.main_v210) ((rAt_4 39 (by decide)).trans rfl) (by decide +kernel) (not_mem_drop_of_lt rNDF (j := 300) (by decide +kernel) (by decide)) (not_mem_drop_of_lt rNDF (j := 302) (by decide +kernel) (by decide)) XR).symm)
  rw [e279 H, e281 H]
  all_goals rfl

theorem e283 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v200) = after rOpsF XR (Proc.devRef .tc Cert.ReferenceIdeal.main_v211) := by
  refine (at_binary kWA kND 283 (y := Cert.KernelIdeal.main_v200) ((kAt_21 26 (by decide)).trans rfl) (by decide +kernel) (not_mem_drop_of_lt kND (j := 145) (by decide +kernel) (by decide)) (not_mem_drop_of_lt kND (j := 282) (by decide +kernel) (by decide)) XK).trans
    (Eq.trans ?_ (at_binary rWAF rNDF 304 (y := Cert.ReferenceIdeal.main_v211) ((rAt_4 40 (by decide)).trans rfl) (by decide +kernel) (not_mem_drop_of_lt rNDF (j := 166) (by decide +kernel) (by decide)) (not_mem_drop_of_lt rNDF (j := 303) (by decide +kernel) (by decide)) XR).symm)
  rw [e145 H, e282 H]
  all_goals rfl

theorem e284 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_60) = after rOpsF XR (Proc.devRef .tc Cert.ReferenceIdeal.main_cst_66) := by
  refine (at_nullary kWA kND 284 (y := Cert.KernelIdeal.main_cst_60) ((kAt_21 27 (by decide)).trans rfl) (by decide +kernel) XK).trans
    (Eq.trans ?_ (at_nullary rWAF rNDF 305 (y := Cert.ReferenceIdeal.main_cst_66) ((rAt_4 41 (by decide)).trans rfl) (by decide +kernel) XR).symm)
  rfl

theorem e285 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v201) = after rOpsF XR (Proc.devRef .tc Cert.ReferenceIdeal.main_v212) := by
  refine (at_unary kWA kND 285 (y := Cert.KernelIdeal.main_v201) ((kAt_21 28 (by decide)).trans rfl) (by decide +kernel) (not_mem_drop_of_lt kND (j := 284) (by decide +kernel) (by decide)) XK).trans
    (Eq.trans ?_ (at_unary rWAF rNDF 306 (y := Cert.ReferenceIdeal.main_v212) ((rAt_4 42 (by decide)).trans rfl) (by decide +kernel) (not_mem_drop_of_lt rNDF (j := 305) (by decide +kernel) (by decide)) XR).symm)
  rw [e284 H]
  all_goals rfl

theorem e286 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v202) = after rOpsF XR (Proc.devRef .tc Cert.ReferenceIdeal.main_v213) := by
  refine (at_binary kWA kND 286 (y := Cert.KernelIdeal.main_v202) ((kAt_21 29 (by decide)).trans rfl) (by decide +kernel) (not_mem_drop_of_lt kND (j := 279) (by decide +kernel) (by decide)) (not_mem_drop_of_lt kND (j := 285) (by decide +kernel) (by decide)) XK).trans
    (Eq.trans ?_ (at_binary rWAF rNDF 307 (y := Cert.ReferenceIdeal.main_v213) ((rAt_4 43 (by decide)).trans rfl) (by decide +kernel) (not_mem_drop_of_lt rNDF (j := 300) (by decide +kernel) (by decide)) (not_mem_drop_of_lt rNDF (j := 306) (by decide +kernel) (by decide)) XR).symm)
  rw [e279 H, e285 H]
  all_goals rfl

theorem e287 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v203) = after rOpsF XR (Proc.devRef .tc Cert.ReferenceIdeal.main_v214) := by
  refine (at_binary kWA kND 287 (y := Cert.KernelIdeal.main_v203) ((kAt_21 30 (by decide)).trans rfl) (by decide +kernel) (not_mem_drop_of_lt kND (j := 145) (by decide +kernel) (by decide)) (not_mem_drop_of_lt kND (j := 286) (by decide +kernel) (by decide)) XK).trans
    (Eq.trans ?_ (at_binary rWAF rNDF 308 (y := Cert.ReferenceIdeal.main_v214) ((rAt_4 44 (by decide)).trans rfl) (by decide +kernel) (not_mem_drop_of_lt rNDF (j := 166) (by decide +kernel) (by decide)) (not_mem_drop_of_lt rNDF (j := 307) (by decide +kernel) (by decide)) XR).symm)
  rw [e145 H, e286 H]
  all_goals rfl

theorem e288 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_61) = after rOpsF XR (Proc.devRef .tc Cert.ReferenceIdeal.main_c_67) := by
  refine (at_nullary kWA kND 288 (y := Cert.KernelIdeal.main_c_61) ((kAt_21 31 (by decide)).trans rfl) (by decide +kernel) XK).trans
    (Eq.trans ?_ (at_nullary rWAF rNDF 309 (y := Cert.ReferenceIdeal.main_c_67) ((rAt_4 45 (by decide)).trans rfl) (by decide +kernel) XR).symm)
  rfl

theorem e289 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v204) = after rOpsF XR (Proc.devRef .tc Cert.ReferenceIdeal.main_v215) := by
  refine (at_binary kWA kND 289 (y := Cert.KernelIdeal.main_v204) ((kAt_21 32 (by decide)).trans rfl) (by decide +kernel) (not_mem_drop_of_lt kND (j := 283) (by decide +kernel) (by decide)) (not_mem_drop_of_lt kND (j := 288) (by decide +kernel) (by decide)) XK).trans
    (Eq.trans ?_ (at_binary rWAF rNDF 310 (y := Cert.ReferenceIdeal.main_v215) ((rAt_4 46 (by decide)).trans rfl) (by decide +kernel) (not_mem_drop_of_lt rNDF (j := 304) (by decide +kernel) (by decide)) (not_mem_drop_of_lt rNDF (j := 309) (by decide +kernel) (by decide)) XR).symm)
  rw [e283 H, e288 H]
  all_goals rfl

theorem e290 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v205) = after rOpsF XR (Proc.devRef .tc Cert.ReferenceIdeal.main_v216) := by
  refine (at_binary kWA kND 290 (y := Cert.KernelIdeal.main_v205) ((kAt_21 33 (by decide)).trans rfl) (by decide +kernel) (not_mem_drop_of_lt kND (j := 22) (by decide +kernel) (by decide)) (not_mem_drop_of_lt kND (j := 289) (by decide +kernel) (by decide)) XK).trans
    (Eq.trans ?_ (at_binary rWAF rNDF 311 (y := Cert.ReferenceIdeal.main_v216) ((rAt_4 47 (by decide)).trans rfl) (by decide +kernel) (not_mem_drop_of_lt rNDF (j := 43) (by decide +kernel) (by decide)) (not_mem_drop_of_lt rNDF (j := 310) (by decide +kernel) (by decide)) XR).symm)
  rw [e22 H, e289 H]
  all_goals rfl

theorem e291 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_62) = after rOpsF XR (Proc.devRef .tc Cert.ReferenceIdeal.main_c_68) := by
  refine (at_nullary kWA kND 291 (y := Cert.KernelIdeal.main_c_62) ((kAt_21 34 (by decide)).trans rfl) (by decide +kernel) XK).trans
    (Eq.trans ?_ (at_nullary rWAF rNDF 312 (y := Cert.ReferenceIdeal.main_c_68) ((rAt_4 48 (by decide)).trans rfl) (by decide +kernel) XR).symm)
  rfl

theorem e292 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v206) = after rOpsF XR (Proc.devRef .tc Cert.ReferenceIdeal.main_v217) := by
  refine (at_binary kWA kND 292 (y := Cert.KernelIdeal.main_v206) ((kAt_21 35 (by decide)).trans rfl) (by decide +kernel) (not_mem_drop_of_lt kND (j := 287) (by decide +kernel) (by decide)) (not_mem_drop_of_lt kND (j := 291) (by decide +kernel) (by decide)) XK).trans
    (Eq.trans ?_ (at_binary rWAF rNDF 313 (y := Cert.ReferenceIdeal.main_v217) ((rAt_4 49 (by decide)).trans rfl) (by decide +kernel) (not_mem_drop_of_lt rNDF (j := 308) (by decide +kernel) (by decide)) (not_mem_drop_of_lt rNDF (j := 312) (by decide +kernel) (by decide)) XR).symm)
  rw [e287 H, e291 H]
  all_goals rfl

theorem e293 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v207) = after rOpsF XR (Proc.devRef .tc Cert.ReferenceIdeal.main_v218) := by
  refine (at_binary kWA kND 293 (y := Cert.KernelIdeal.main_v207) ((kAt_21 36 (by decide)).trans rfl) (by decide +kernel) (not_mem_drop_of_lt kND (j := 22) (by decide +kernel) (by decide)) (not_mem_drop_of_lt kND (j := 292) (by decide +kernel) (by decide)) XK).trans
    (Eq.trans ?_ (at_binary rWAF rNDF 314 (y := Cert.ReferenceIdeal.main_v218) ((rAt_4 50 (by decide)).trans rfl) (by decide +kernel) (not_mem_drop_of_lt rNDF (j := 43) (by decide +kernel) (by decide)) (not_mem_drop_of_lt rNDF (j := 313) (by decide +kernel) (by decide)) XR).symm)
  rw [e22 H, e292 H]
  all_goals rfl

theorem e294 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v208) = after rOpsF XR (Proc.devRef .tc Cert.ReferenceIdeal.main_v219) := by
  refine (at_binary kWA kND 294 (y := Cert.KernelIdeal.main_v208) ((kAt_21 37 (by decide)).trans rfl) (by decide +kernel) (not_mem_drop_of_lt kND (j := 54) (by decide +kernel) (by decide)) (not_mem_drop_of_lt kND (j := 67) (by decide +kernel) (by decide)) XK).trans
    (Eq.trans ?_ (at_binary rWAF rNDF 315 (y := Cert.ReferenceIdeal.main_v219) ((rAt_4 51 (by decide)).trans rfl) (by decide +kernel) (not_mem_drop_of_lt rNDF (j := 75) (by decide +kernel) (by decide)) (not_mem_drop_of_lt rNDF (j := 88) (by decide +kernel) (by decide)) XR).symm)
  rw [e54 H, e67 H]
  all_goals rfl

theorem e295 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_63) = after rOpsF XR (Proc.devRef .tc Cert.ReferenceIdeal.main_cst_69) := by
  refine (at_nullary kWA kND 295 (y := Cert.KernelIdeal.main_cst_63) ((kAt_21 38 (by decide)).trans rfl) (by decide +kernel) XK).trans
    (Eq.trans ?_ (at_nullary rWAF rNDF 316 (y := Cert.ReferenceIdeal.main_cst_69) ((rAt_4 52 (by decide)).trans rfl) (by decide +kernel) XR).symm)
  rfl

theorem e296 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v209) = after rOpsF XR (Proc.devRef .tc Cert.ReferenceIdeal.main_v220) := by
  refine (at_unary kWA kND 296 (y := Cert.KernelIdeal.main_v209) ((kAt_21 39 (by decide)).trans rfl) (by decide +kernel) (not_mem_drop_of_lt kND (j := 295) (by decide +kernel) (by decide)) XK).trans
    (Eq.trans ?_ (at_unary rWAF rNDF 317 (y := Cert.ReferenceIdeal.main_v220) ((rAt_4 53 (by decide)).trans rfl) (by decide +kernel) (not_mem_drop_of_lt rNDF (j := 316) (by decide +kernel) (by decide)) XR).symm)
  rw [e295 H]
  all_goals rfl

theorem e297 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v210) = after rOpsF XR (Proc.devRef .tc Cert.ReferenceIdeal.main_v221) := by
  refine (at_binary kWA kND 297 (y := Cert.KernelIdeal.main_v210) ((kAt_21 40 (by decide)).trans rfl) (by decide +kernel) (not_mem_drop_of_lt kND (j := 296) (by decide +kernel) (by decide)) (not_mem_drop_of_lt kND (j := 294) (by decide +kernel) (by decide)) XK).trans
    (Eq.trans ?_ (at_binary rWAF rNDF 318 (y := Cert.ReferenceIdeal.main_v221) ((rAt_4 54 (by decide)).trans rfl) (by decide +kernel) (not_mem_drop_of_lt rNDF (j := 317) (by decide +kernel) (by decide)) (not_mem_drop_of_lt rNDF (j := 315) (by decide +kernel) (by decide)) XR).symm)
  rw [e296 H, e294 H]
  all_goals rfl

theorem e298 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call11_cst) = after rOpsF XR (Proc.devRef .tc Cert.ReferenceIdeal.main_call11_cst) := by
  refine (at_nullary kWA kND 298 (y := Cert.KernelIdeal.main_call11_cst) ((kAt_22 0 (by decide)).trans rfl) (by decide +kernel) XK).trans
    (Eq.trans ?_ (at_nullary rWAF rNDF 319 (y := Cert.ReferenceIdeal.main_call11_cst) ((rAt_4 55 (by decide)).trans rfl) (by decide +kernel) XR).symm)
  rfl

theorem e299 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call11_v0) = after rOpsF XR (Proc.devRef .tc Cert.ReferenceIdeal.main_call11_v0) := by
  refine (at_unary kWA kND 299 (y := Cert.KernelIdeal.main_call11_v0) ((kAt_22 1 (by decide)).trans rfl) (by decide +kernel) (not_mem_drop_of_lt kND (j := 298) (by decide +kernel) (by decide)) XK).trans
    (Eq.trans ?_ (at_unary rWAF rNDF 320 (y := Cert.ReferenceIdeal.main_call11_v0) ((rAt_4 56 (by decide)).trans rfl) (by decide +kernel) (not_mem_drop_of_lt rNDF (j := 319) (by decide +kernel) (by decide)) XR).symm)
  rw [e298 H]
  all_goals rfl

theorem e300 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v211) = after rOpsF XR (Proc.devRef .tc Cert.ReferenceIdeal.main_v222) := by
  refine (at_binary kWA kND 300 (y := Cert.KernelIdeal.main_v211) ((kAt_22 2 (by decide)).trans rfl) (by decide +kernel) (not_mem_drop_of_lt kND (j := 297) (by decide +kernel) (by decide)) (not_mem_drop_of_lt kND (j := 299) (by decide +kernel) (by decide)) XK).trans
    (Eq.trans ?_ (at_binary rWAF rNDF 321 (y := Cert.ReferenceIdeal.main_v222) ((rAt_4 57 (by decide)).trans rfl) (by decide +kernel) (not_mem_drop_of_lt rNDF (j := 318) (by decide +kernel) (by decide)) (not_mem_drop_of_lt rNDF (j := 320) (by decide +kernel) (by decide)) XR).symm)
  rw [e297 H, e299 H]
  all_goals rfl

theorem e301 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v212) = after rOpsF XR (Proc.devRef .tc Cert.ReferenceIdeal.main_v223) := by
  refine (at_binary kWA kND 301 (y := Cert.KernelIdeal.main_v212) ((kAt_23 0 (by decide)).trans rfl) (by decide +kernel) (not_mem_drop_of_lt kND (j := 300) (by decide +kernel) (by decide)) (not_mem_drop_of_lt kND (j := 300) (by decide +kernel) (by decide)) XK).trans
    (Eq.trans ?_ (at_binary rWAF rNDF 322 (y := Cert.ReferenceIdeal.main_v223) ((rAt_4 58 (by decide)).trans rfl) (by decide +kernel) (not_mem_drop_of_lt rNDF (j := 321) (by decide +kernel) (by decide)) (not_mem_drop_of_lt rNDF (j := 321) (by decide +kernel) (by decide)) XR).symm)
  rw [e300 H]
  all_goals rfl

theorem e302 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v213) = after rOpsF XR (Proc.devRef .tc Cert.ReferenceIdeal.main_v224) := by
  refine (at_unary kWA kND 302 (y := Cert.KernelIdeal.main_v213) ((kAt_23 1 (by decide)).trans rfl) (by decide +kernel) (not_mem_drop_of_lt kND (j := 283) (by decide +kernel) (by decide)) XK).trans
    (Eq.trans ?_ (at_unary rWAF rNDF 323 (y := Cert.ReferenceIdeal.main_v224) ((rAt_4 59 (by decide)).trans rfl) (by decide +kernel) (not_mem_drop_of_lt rNDF (j := 304) (by decide +kernel) (by decide)) XR).symm)
  rw [e283 H]
  all_goals rfl

theorem e303 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_64) = after rOpsF XR (Proc.devRef .tc Cert.ReferenceIdeal.main_c_70) := by
  refine (at_nullary kWA kND 303 (y := Cert.KernelIdeal.main_c_64) ((kAt_23 2 (by decide)).trans rfl) (by decide +kernel) XK).trans
    (Eq.trans ?_ (at_nullary rWAF rNDF 324 (y := Cert.ReferenceIdeal.main_c_70) ((rAt_4 60 (by decide)).trans rfl) (by decide +kernel) XR).symm)
  rfl

theorem e304 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v214) = after rOpsF XR (Proc.devRef .tc Cert.ReferenceIdeal.main_v225) := by
  refine (at_binary kWA kND 304 (y := Cert.KernelIdeal.main_v214) ((kAt_23 3 (by decide)).trans rfl) (by decide +kernel) (not_mem_drop_of_lt kND (j := 302) (by decide +kernel) (by decide)) (not_mem_drop_of_lt kND (j := 303) (by decide +kernel) (by decide)) XK).trans
    (Eq.trans ?_ (at_binary rWAF rNDF 325 (y := Cert.ReferenceIdeal.main_v225) ((rAt_4 61 (by decide)).trans rfl) (by decide +kernel) (not_mem_drop_of_lt rNDF (j := 323) (by decide +kernel) (by decide)) (not_mem_drop_of_lt rNDF (j := 324) (by decide +kernel) (by decide)) XR).symm)
  rw [e302 H, e303 H]
  all_goals rfl

theorem e305 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_65) = after rOpsF XR (Proc.devRef .tc Cert.ReferenceIdeal.main_c_71) := by
  refine (at_nullary kWA kND 305 (y := Cert.KernelIdeal.main_c_65) ((kAt_23 4 (by decide)).trans rfl) (by decide +kernel) XK).trans
    (Eq.trans ?_ (at_nullary rWAF rNDF 326 (y := Cert.ReferenceIdeal.main_c_71) ((rAt_4 62 (by decide)).trans rfl) (by decide +kernel) XR).symm)
  rfl

theorem e306 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v215) = after rOpsF XR (Proc.devRef .tc Cert.ReferenceIdeal.main_v226) := by
  refine (at_unary kWA kND 306 (y := Cert.KernelIdeal.main_v215) ((kAt_23 5 (by decide)).trans rfl) (by decide +kernel) (not_mem_drop_of_lt kND (j := 305) (by decide +kernel) (by decide)) XK).trans
    (Eq.trans ?_ (at_unary rWAF rNDF 327 (y := Cert.ReferenceIdeal.main_v226) ((rAt_5 0 (by decide)).trans rfl) (by decide +kernel) (not_mem_drop_of_lt rNDF (j := 326) (by decide +kernel) (by decide)) XR).symm)
  rw [e305 H]
  all_goals rfl

theorem e307 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v216) = after rOpsF XR (Proc.devRef .tc Cert.ReferenceIdeal.main_v227) := by
  refine (at_binary kWA kND 307 (y := Cert.KernelIdeal.main_v216) ((kAt_23 6 (by decide)).trans rfl) (by decide +kernel) (not_mem_drop_of_lt kND (j := 304) (by decide +kernel) (by decide)) (not_mem_drop_of_lt kND (j := 306) (by decide +kernel) (by decide)) XK).trans
    (Eq.trans ?_ (at_binary rWAF rNDF 328 (y := Cert.ReferenceIdeal.main_v227) ((rAt_5 1 (by decide)).trans rfl) (by decide +kernel) (not_mem_drop_of_lt rNDF (j := 325) (by decide +kernel) (by decide)) (not_mem_drop_of_lt rNDF (j := 327) (by decide +kernel) (by decide)) XR).symm)
  rw [e304 H, e306 H]
  all_goals rfl

theorem e308 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_66) = after rOpsF XR (Proc.devRef .tc Cert.ReferenceIdeal.main_cst_72) := by
  refine (at_nullary kWA kND 308 (y := Cert.KernelIdeal.main_cst_66) ((kAt_23 7 (by decide)).trans rfl) (by decide +kernel) XK).trans
    (Eq.trans ?_ (at_nullary rWAF rNDF 329 (y := Cert.ReferenceIdeal.main_cst_72) ((rAt_5 2 (by decide)).trans rfl) (by decide +kernel) XR).symm)
  rfl

theorem e309 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call12_v0) = after rOpsF XR (Proc.devRef .tc Cert.ReferenceIdeal.main_call12_v0) := by
  refine (at_unary kWA kND 309 (y := Cert.KernelIdeal.main_call12_v0) ((kAt_24 0 (by decide)).trans rfl) (by decide +kernel) (not_mem_drop_of_lt kND (j := 308) (by decide +kernel) (by decide)) XK).trans
    (Eq.trans ?_ (at_unary rWAF rNDF 330 (y := Cert.ReferenceIdeal.main_call12_v0) ((rAt_5 3 (by decide)).trans rfl) (by decide +kernel) (not_mem_drop_of_lt rNDF (j := 329) (by decide +kernel) (by decide)) XR).symm)
  rw [e308 H]
  all_goals rfl

theorem e310 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call12_v1) = after rOpsF XR (Proc.devRef .tc Cert.ReferenceIdeal.main_call12_v1) := by
  refine (at_unary kWA kND 310 (y := Cert.KernelIdeal.main_call12_v1) ((kAt_24 1 (by decide)).trans rfl) (by decide +kernel) (not_mem_drop_of_lt kND (j := 309) (by decide +kernel) (by decide)) XK).trans
    (Eq.trans ?_ (at_unary rWAF rNDF 331 (y := Cert.ReferenceIdeal.main_call12_v1) ((rAt_5 4 (by decide)).trans rfl) (by decide +kernel) (not_mem_drop_of_lt rNDF (j := 330) (by decide +kernel) (by decide)) XR).symm)
  rw [e309 H]
  all_goals rfl

theorem e311 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v217) = after rOpsF XR (Proc.devRef .tc Cert.ReferenceIdeal.main_v228) := by
  refine (at_ternary kWA kND 311 (y := Cert.KernelIdeal.main_v217) ((kAt_24 2 (by decide)).trans rfl) (by decide +kernel) (not_mem_drop_of_lt kND (j := 283) (by decide +kernel) (by decide)) (not_mem_drop_of_lt kND (j := 301) (by decide +kernel) (by decide)) (not_mem_drop_of_lt kND (j := 310) (by decide +kernel) (by decide)) XK).trans
    (Eq.trans ?_ (at_ternary rWAF rNDF 332 (y := Cert.ReferenceIdeal.main_v228) ((rAt_5 5 (by decide)).trans rfl) (by decide +kernel) (not_mem_drop_of_lt rNDF (j := 304) (by decide +kernel) (by decide)) (not_mem_drop_of_lt rNDF (j := 322) (by decide +kernel) (by decide)) (not_mem_drop_of_lt rNDF (j := 331) (by decide +kernel) (by decide)) XR).symm)
  rw [e283 H, e301 H, e310 H]
  all_goals rfl

theorem e312 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_67) = after rOpsF XR (Proc.devRef .tc Cert.ReferenceIdeal.main_cst_73) := by
  refine (at_nullary kWA kND 312 (y := Cert.KernelIdeal.main_cst_67) ((kAt_25 0 (by decide)).trans rfl) (by decide +kernel) XK).trans
    (Eq.trans ?_ (at_nullary rWAF rNDF 333 (y := Cert.ReferenceIdeal.main_cst_73) ((rAt_5 6 (by decide)).trans rfl) (by decide +kernel) XR).symm)
  rfl

theorem e313 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v218) = after rOpsF XR (Proc.devRef .tc Cert.ReferenceIdeal.main_v229) := by
  refine (at_binary kWA kND 313 (y := Cert.KernelIdeal.main_v218) ((kAt_25 1 (by decide)).trans rfl) (by decide +kernel) (not_mem_drop_of_lt kND (j := 311) (by decide +kernel) (by decide)) (not_mem_drop_of_lt kND (j := 312) (by decide +kernel) (by decide)) XK).trans
    (Eq.trans ?_ (at_binary rWAF rNDF 334 (y := Cert.ReferenceIdeal.main_v229) ((rAt_5 7 (by decide)).trans rfl) (by decide +kernel) (not_mem_drop_of_lt rNDF (j := 332) (by decide +kernel) (by decide)) (not_mem_drop_of_lt rNDF (j := 333) (by decide +kernel) (by decide)) XR).symm)
  rw [e311 H, e312 H]
  all_goals rfl

theorem e314 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_68) = after rOpsF XR (Proc.devRef .tc Cert.ReferenceIdeal.main_c_74) := by
  refine (at_nullary kWA kND 314 (y := Cert.KernelIdeal.main_c_68) ((kAt_25 2 (by decide)).trans rfl) (by decide +kernel) XK).trans
    (Eq.trans ?_ (at_nullary rWAF rNDF 335 (y := Cert.ReferenceIdeal.main_c_74) ((rAt_5 8 (by decide)).trans rfl) (by decide +kernel) XR).symm)
  rfl

theorem e315 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v219) = after rOpsF XR (Proc.devRef .tc Cert.ReferenceIdeal.main_v230) := by
  refine (at_unary kWA kND 315 (y := Cert.KernelIdeal.main_v219) ((kAt_25 3 (by decide)).trans rfl) (by decide +kernel) (not_mem_drop_of_lt kND (j := 314) (by decide +kernel) (by decide)) XK).trans
    (Eq.trans ?_ (at_unary rWAF rNDF 336 (y := Cert.ReferenceIdeal.main_v230) ((rAt_5 9 (by decide)).trans rfl) (by decide +kernel) (not_mem_drop_of_lt rNDF (j := 335) (by decide +kernel) (by decide)) XR).symm)
  rw [e314 H]
  all_goals rfl

theorem e316 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v220) = after rOpsF XR (Proc.devRef .tc Cert.ReferenceIdeal.main_v231) := by
  refine (at_binary kWA kND 316 (y := Cert.KernelIdeal.main_v220) ((kAt_25 4 (by decide)).trans rfl) (by decide +kernel) (not_mem_drop_of_lt kND (j := 304) (by decide +kernel) (by decide)) (not_mem_drop_of_lt kND (j := 315) (by decide +kernel) (by decide)) XK).trans
    (Eq.trans ?_ (at_binary rWAF rNDF 337 (y := Cert.ReferenceIdeal.main_v231) ((rAt_5 10 (by decide)).trans rfl) (by decide +kernel) (not_mem_drop_of_lt rNDF (j := 325) (by decide +kernel) (by decide)) (not_mem_drop_of_lt rNDF (j := 336) (by decide +kernel) (by decide)) XR).symm)
  rw [e304 H, e315 H]
  all_goals rfl

theorem e317 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v221) = after rOpsF XR (Proc.devRef .tc Cert.ReferenceIdeal.main_v232) := by
  refine (at_unary kWA kND 317 (y := Cert.KernelIdeal.main_v221) ((kAt_25 5 (by decide)).trans rfl) (by decide +kernel) (not_mem_drop_of_lt kND (j := 316) (by decide +kernel) (by decide)) XK).trans
    (Eq.trans ?_ (at_unary rWAF rNDF 338 (y := Cert.ReferenceIdeal.main_v232) ((rAt_5 11 (by decide)).trans rfl) (by decide +kernel) (not_mem_drop_of_lt rNDF (j := 337) (by decide +kernel) (by decide)) XR).symm)
  rw [e316 H]
  all_goals rfl

end Cert.Bridge

end
-- ==== Proof.Pairs03.lean ====
/-
  Operations 318 … 423 of the shared line: each pair of corresponding results agrees, because the two
  operations are one function and their operands agree (earlier equations, or the starting agreement).
-/
import proofs.«169849_j71803263254994_1_alg».proof.Proof.Pairs02

set_option maxRecDepth 16384
set_option maxHeartbeats 2000000

noncomputable section

namespace Cert.Bridge

open Idealize.ShloMosaic Idealize.SL.Sem Idealize.ShloMosaic.StableHlo Idealize.ShloMosaic.StableHlo.Line
open Cert.KernelIdeal.Tab Cert.ReferenceIdeal.Hand

variable {F : FTy → Type} [FloatOps F]

theorem e318 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v222) = after rOpsF XR (Proc.devRef .tc Cert.ReferenceIdeal.main_v233) := by
  refine (at_binary kWA kND 318 (y := Cert.KernelIdeal.main_v222) ((kAt_25 6 (by decide)).trans rfl) (by decide +kernel) (not_mem_drop_of_lt kND (j := 313) (by decide +kernel) (by decide)) (not_mem_drop_of_lt kND (j := 317) (by decide +kernel) (by decide)) XK).trans
    (Eq.trans ?_ (at_binary rWAF rNDF 339 (y := Cert.ReferenceIdeal.main_v233) ((rAt_5 12 (by decide)).trans rfl) (by decide +kernel) (not_mem_drop_of_lt rNDF (j := 334) (by decide +kernel) (by decide)) (not_mem_drop_of_lt rNDF (j := 338) (by decide +kernel) (by decide)) XR).symm)
  rw [e313 H, e317 H]
  all_goals rfl

theorem e319 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_69) = after rOpsF XR (Proc.devRef .tc Cert.ReferenceIdeal.main_cst_75) := by
  refine (at_nullary kWA kND 319 (y := Cert.KernelIdeal.main_cst_69) ((kAt_25 7 (by decide)).trans rfl) (by decide +kernel) XK).trans
    (Eq.trans ?_ (at_nullary rWAF rNDF 340 (y := Cert.ReferenceIdeal.main_cst_75) ((rAt_5 13 (by decide)).trans rfl) (by decide +kernel) XR).symm)
  rfl

theorem e320 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call13_v0) = after rOpsF XR (Proc.devRef .tc Cert.ReferenceIdeal.main_call13_v0) := by
  refine (at_unary kWA kND 320 (y := Cert.KernelIdeal.main_call13_v0) ((kAt_26 0 (by decide)).trans rfl) (by decide +kernel) (not_mem_drop_of_lt kND (j := 319) (by decide +kernel) (by decide)) XK).trans
    (Eq.trans ?_ (at_unary rWAF rNDF 341 (y := Cert.ReferenceIdeal.main_call13_v0) ((rAt_5 14 (by decide)).trans rfl) (by decide +kernel) (not_mem_drop_of_lt rNDF (j := 340) (by decide +kernel) (by decide)) XR).symm)
  rw [e319 H]
  all_goals rfl

theorem e321 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call13_v1) = after rOpsF XR (Proc.devRef .tc Cert.ReferenceIdeal.main_call13_v1) := by
  refine (at_unary kWA kND 321 (y := Cert.KernelIdeal.main_call13_v1) ((kAt_26 1 (by decide)).trans rfl) (by decide +kernel) (not_mem_drop_of_lt kND (j := 320) (by decide +kernel) (by decide)) XK).trans
    (Eq.trans ?_ (at_unary rWAF rNDF 342 (y := Cert.ReferenceIdeal.main_call13_v1) ((rAt_5 15 (by decide)).trans rfl) (by decide +kernel) (not_mem_drop_of_lt rNDF (j := 341) (by decide +kernel) (by decide)) XR).symm)
  rw [e320 H]
  all_goals rfl

theorem e322 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v223) = after rOpsF XR (Proc.devRef .tc Cert.ReferenceIdeal.main_v234) := by
  refine (at_ternary kWA kND 322 (y := Cert.KernelIdeal.main_v223) ((kAt_26 2 (by decide)).trans rfl) (by decide +kernel) (not_mem_drop_of_lt kND (j := 307) (by decide +kernel) (by decide)) (not_mem_drop_of_lt kND (j := 318) (by decide +kernel) (by decide)) (not_mem_drop_of_lt kND (j := 321) (by decide +kernel) (by decide)) XK).trans
    (Eq.trans ?_ (at_ternary rWAF rNDF 343 (y := Cert.ReferenceIdeal.main_v234) ((rAt_5 16 (by decide)).trans rfl) (by decide +kernel) (not_mem_drop_of_lt rNDF (j := 328) (by decide +kernel) (by decide)) (not_mem_drop_of_lt rNDF (j := 339) (by decide +kernel) (by decide)) (not_mem_drop_of_lt rNDF (j := 342) (by decide +kernel) (by decide)) XR).symm)
  rw [e307 H, e318 H, e321 H]
  all_goals rfl

theorem e323 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v224) = after rOpsF XR (Proc.devRef .tc Cert.ReferenceIdeal.main_v235) := by
  refine (at_binary kWA kND 323 (y := Cert.KernelIdeal.main_v224) ((kAt_27 0 (by decide)).trans rfl) (by decide +kernel) (not_mem_drop_of_lt kND (j := 67) (by decide +kernel) (by decide)) (not_mem_drop_of_lt kND (j := 54) (by decide +kernel) (by decide)) XK).trans
    (Eq.trans ?_ (at_binary rWAF rNDF 344 (y := Cert.ReferenceIdeal.main_v235) ((rAt_5 17 (by decide)).trans rfl) (by decide +kernel) (not_mem_drop_of_lt rNDF (j := 88) (by decide +kernel) (by decide)) (not_mem_drop_of_lt rNDF (j := 75) (by decide +kernel) (by decide)) XR).symm)
  rw [e67 H, e54 H]
  all_goals rfl

theorem e324 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_70) = after rOpsF XR (Proc.devRef .tc Cert.ReferenceIdeal.main_cst_76) := by
  refine (at_nullary kWA kND 324 (y := Cert.KernelIdeal.main_cst_70) ((kAt_27 1 (by decide)).trans rfl) (by decide +kernel) XK).trans
    (Eq.trans ?_ (at_nullary rWAF rNDF 345 (y := Cert.ReferenceIdeal.main_cst_76) ((rAt_5 18 (by decide)).trans rfl) (by decide +kernel) XR).symm)
  rfl

theorem e325 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v225) = after rOpsF XR (Proc.devRef .tc Cert.ReferenceIdeal.main_v236) := by
  refine (at_unary kWA kND 325 (y := Cert.KernelIdeal.main_v225) ((kAt_27 2 (by decide)).trans rfl) (by decide +kernel) (not_mem_drop_of_lt kND (j := 324) (by decide +kernel) (by decide)) XK).trans
    (Eq.trans ?_ (at_unary rWAF rNDF 346 (y := Cert.ReferenceIdeal.main_v236) ((rAt_5 19 (by decide)).trans rfl) (by decide +kernel) (not_mem_drop_of_lt rNDF (j := 345) (by decide +kernel) (by decide)) XR).symm)
  rw [e324 H]
  all_goals rfl

theorem e326 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v226) = after rOpsF XR (Proc.devRef .tc Cert.ReferenceIdeal.main_v237) := by
  refine (at_binary kWA kND 326 (y := Cert.KernelIdeal.main_v226) ((kAt_27 3 (by decide)).trans rfl) (by decide +kernel) (not_mem_drop_of_lt kND (j := 325) (by decide +kernel) (by decide)) (not_mem_drop_of_lt kND (j := 323) (by decide +kernel) (by decide)) XK).trans
    (Eq.trans ?_ (at_binary rWAF rNDF 347 (y := Cert.ReferenceIdeal.main_v237) ((rAt_5 20 (by decide)).trans rfl) (by decide +kernel) (not_mem_drop_of_lt rNDF (j := 346) (by decide +kernel) (by decide)) (not_mem_drop_of_lt rNDF (j := 344) (by decide +kernel) (by decide)) XR).symm)
  rw [e325 H, e323 H]
  all_goals rfl

theorem e327 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call14_cst) = after rOpsF XR (Proc.devRef .tc Cert.ReferenceIdeal.main_call14_cst) := by
  refine (at_nullary kWA kND 327 (y := Cert.KernelIdeal.main_call14_cst) ((kAt_28 0 (by decide)).trans rfl) (by decide +kernel) XK).trans
    (Eq.trans ?_ (at_nullary rWAF rNDF 348 (y := Cert.ReferenceIdeal.main_call14_cst) ((rAt_5 21 (by decide)).trans rfl) (by decide +kernel) XR).symm)
  rfl

theorem e328 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call14_v0) = after rOpsF XR (Proc.devRef .tc Cert.ReferenceIdeal.main_call14_v0) := by
  refine (at_unary kWA kND 328 (y := Cert.KernelIdeal.main_call14_v0) ((kAt_28 1 (by decide)).trans rfl) (by decide +kernel) (not_mem_drop_of_lt kND (j := 327) (by decide +kernel) (by decide)) XK).trans
    (Eq.trans ?_ (at_unary rWAF rNDF 349 (y := Cert.ReferenceIdeal.main_call14_v0) ((rAt_5 22 (by decide)).trans rfl) (by decide +kernel) (not_mem_drop_of_lt rNDF (j := 348) (by decide +kernel) (by decide)) XR).symm)
  rw [e327 H]
  all_goals rfl

theorem e329 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v227) = after rOpsF XR (Proc.devRef .tc Cert.ReferenceIdeal.main_v238) := by
  refine (at_binary kWA kND 329 (y := Cert.KernelIdeal.main_v227) ((kAt_28 2 (by decide)).trans rfl) (by decide +kernel) (not_mem_drop_of_lt kND (j := 326) (by decide +kernel) (by decide)) (not_mem_drop_of_lt kND (j := 328) (by decide +kernel) (by decide)) XK).trans
    (Eq.trans ?_ (at_binary rWAF rNDF 350 (y := Cert.ReferenceIdeal.main_v238) ((rAt_5 23 (by decide)).trans rfl) (by decide +kernel) (not_mem_drop_of_lt rNDF (j := 347) (by decide +kernel) (by decide)) (not_mem_drop_of_lt rNDF (j := 349) (by decide +kernel) (by decide)) XR).symm)
  rw [e326 H, e328 H]
  all_goals rfl

theorem e330 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v228) = after rOpsF XR (Proc.devRef .tc Cert.ReferenceIdeal.main_v239) := by
  refine (at_binary kWA kND 330 (y := Cert.KernelIdeal.main_v228) ((kAt_29 0 (by decide)).trans rfl) (by decide +kernel) (not_mem_drop_of_lt kND (j := 329) (by decide +kernel) (by decide)) (not_mem_drop_of_lt kND (j := 329) (by decide +kernel) (by decide)) XK).trans
    (Eq.trans ?_ (at_binary rWAF rNDF 351 (y := Cert.ReferenceIdeal.main_v239) ((rAt_5 24 (by decide)).trans rfl) (by decide +kernel) (not_mem_drop_of_lt rNDF (j := 350) (by decide +kernel) (by decide)) (not_mem_drop_of_lt rNDF (j := 350) (by decide +kernel) (by decide)) XR).symm)
  rw [e329 H]
  all_goals rfl

theorem e331 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v229) = after rOpsF XR (Proc.devRef .tc Cert.ReferenceIdeal.main_v240) := by
  refine (at_unary kWA kND 331 (y := Cert.KernelIdeal.main_v229) ((kAt_29 1 (by decide)).trans rfl) (by decide +kernel) (not_mem_drop_of_lt kND (j := 287) (by decide +kernel) (by decide)) XK).trans
    (Eq.trans ?_ (at_unary rWAF rNDF 352 (y := Cert.ReferenceIdeal.main_v240) ((rAt_5 25 (by decide)).trans rfl) (by decide +kernel) (not_mem_drop_of_lt rNDF (j := 308) (by decide +kernel) (by decide)) XR).symm)
  rw [e287 H]
  all_goals rfl

theorem e332 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_71) = after rOpsF XR (Proc.devRef .tc Cert.ReferenceIdeal.main_c_77) := by
  refine (at_nullary kWA kND 332 (y := Cert.KernelIdeal.main_c_71) ((kAt_29 2 (by decide)).trans rfl) (by decide +kernel) XK).trans
    (Eq.trans ?_ (at_nullary rWAF rNDF 353 (y := Cert.ReferenceIdeal.main_c_77) ((rAt_5 26 (by decide)).trans rfl) (by decide +kernel) XR).symm)
  rfl

theorem e333 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v230) = after rOpsF XR (Proc.devRef .tc Cert.ReferenceIdeal.main_v241) := by
  refine (at_binary kWA kND 333 (y := Cert.KernelIdeal.main_v230) ((kAt_29 3 (by decide)).trans rfl) (by decide +kernel) (not_mem_drop_of_lt kND (j := 331) (by decide +kernel) (by decide)) (not_mem_drop_of_lt kND (j := 332) (by decide +kernel) (by decide)) XK).trans
    (Eq.trans ?_ (at_binary rWAF rNDF 354 (y := Cert.ReferenceIdeal.main_v241) ((rAt_5 27 (by decide)).trans rfl) (by decide +kernel) (not_mem_drop_of_lt rNDF (j := 352) (by decide +kernel) (by decide)) (not_mem_drop_of_lt rNDF (j := 353) (by decide +kernel) (by decide)) XR).symm)
  rw [e331 H, e332 H]
  all_goals rfl

theorem e334 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_72) = after rOpsF XR (Proc.devRef .tc Cert.ReferenceIdeal.main_c_78) := by
  refine (at_nullary kWA kND 334 (y := Cert.KernelIdeal.main_c_72) ((kAt_29 4 (by decide)).trans rfl) (by decide +kernel) XK).trans
    (Eq.trans ?_ (at_nullary rWAF rNDF 355 (y := Cert.ReferenceIdeal.main_c_78) ((rAt_5 28 (by decide)).trans rfl) (by decide +kernel) XR).symm)
  rfl

theorem e335 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v231) = after rOpsF XR (Proc.devRef .tc Cert.ReferenceIdeal.main_v242) := by
  refine (at_unary kWA kND 335 (y := Cert.KernelIdeal.main_v231) ((kAt_29 5 (by decide)).trans rfl) (by decide +kernel) (not_mem_drop_of_lt kND (j := 334) (by decide +kernel) (by decide)) XK).trans
    (Eq.trans ?_ (at_unary rWAF rNDF 356 (y := Cert.ReferenceIdeal.main_v242) ((rAt_5 29 (by decide)).trans rfl) (by decide +kernel) (not_mem_drop_of_lt rNDF (j := 355) (by decide +kernel) (by decide)) XR).symm)
  rw [e334 H]
  all_goals rfl

theorem e336 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v232) = after rOpsF XR (Proc.devRef .tc Cert.ReferenceIdeal.main_v243) := by
  refine (at_binary kWA kND 336 (y := Cert.KernelIdeal.main_v232) ((kAt_29 6 (by decide)).trans rfl) (by decide +kernel) (not_mem_drop_of_lt kND (j := 333) (by decide +kernel) (by decide)) (not_mem_drop_of_lt kND (j := 335) (by decide +kernel) (by decide)) XK).trans
    (Eq.trans ?_ (at_binary rWAF rNDF 357 (y := Cert.ReferenceIdeal.main_v243) ((rAt_5 30 (by decide)).trans rfl) (by decide +kernel) (not_mem_drop_of_lt rNDF (j := 354) (by decide +kernel) (by decide)) (not_mem_drop_of_lt rNDF (j := 356) (by decide +kernel) (by decide)) XR).symm)
  rw [e333 H, e335 H]
  all_goals rfl

theorem e337 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_73) = after rOpsF XR (Proc.devRef .tc Cert.ReferenceIdeal.main_cst_79) := by
  refine (at_nullary kWA kND 337 (y := Cert.KernelIdeal.main_cst_73) ((kAt_29 7 (by decide)).trans rfl) (by decide +kernel) XK).trans
    (Eq.trans ?_ (at_nullary rWAF rNDF 358 (y := Cert.ReferenceIdeal.main_cst_79) ((rAt_5 31 (by decide)).trans rfl) (by decide +kernel) XR).symm)
  rfl

theorem e338 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call15_v0) = after rOpsF XR (Proc.devRef .tc Cert.ReferenceIdeal.main_call15_v0) := by
  refine (at_unary kWA kND 338 (y := Cert.KernelIdeal.main_call15_v0) ((kAt_30 0 (by decide)).trans rfl) (by decide +kernel) (not_mem_drop_of_lt kND (j := 337) (by decide +kernel) (by decide)) XK).trans
    (Eq.trans ?_ (at_unary rWAF rNDF 359 (y := Cert.ReferenceIdeal.main_call15_v0) ((rAt_5 32 (by decide)).trans rfl) (by decide +kernel) (not_mem_drop_of_lt rNDF (j := 358) (by decide +kernel) (by decide)) XR).symm)
  rw [e337 H]
  all_goals rfl

theorem e339 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call15_v1) = after rOpsF XR (Proc.devRef .tc Cert.ReferenceIdeal.main_call15_v1) := by
  refine (at_unary kWA kND 339 (y := Cert.KernelIdeal.main_call15_v1) ((kAt_30 1 (by decide)).trans rfl) (by decide +kernel) (not_mem_drop_of_lt kND (j := 338) (by decide +kernel) (by decide)) XK).trans
    (Eq.trans ?_ (at_unary rWAF rNDF 360 (y := Cert.ReferenceIdeal.main_call15_v1) ((rAt_5 33 (by decide)).trans rfl) (by decide +kernel) (not_mem_drop_of_lt rNDF (j := 359) (by decide +kernel) (by decide)) XR).symm)
  rw [e338 H]
  all_goals rfl

theorem e340 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v233) = after rOpsF XR (Proc.devRef .tc Cert.ReferenceIdeal.main_v244) := by
  refine (at_ternary kWA kND 340 (y := Cert.KernelIdeal.main_v233) ((kAt_30 2 (by decide)).trans rfl) (by decide +kernel) (not_mem_drop_of_lt kND (j := 287) (by decide +kernel) (by decide)) (not_mem_drop_of_lt kND (j := 330) (by decide +kernel) (by decide)) (not_mem_drop_of_lt kND (j := 339) (by decide +kernel) (by decide)) XK).trans
    (Eq.trans ?_ (at_ternary rWAF rNDF 361 (y := Cert.ReferenceIdeal.main_v244) ((rAt_5 34 (by decide)).trans rfl) (by decide +kernel) (not_mem_drop_of_lt rNDF (j := 308) (by decide +kernel) (by decide)) (not_mem_drop_of_lt rNDF (j := 351) (by decide +kernel) (by decide)) (not_mem_drop_of_lt rNDF (j := 360) (by decide +kernel) (by decide)) XR).symm)
  rw [e287 H, e330 H, e339 H]
  all_goals rfl

theorem e341 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_74) = after rOpsF XR (Proc.devRef .tc Cert.ReferenceIdeal.main_cst_80) := by
  refine (at_nullary kWA kND 341 (y := Cert.KernelIdeal.main_cst_74) ((kAt_31 0 (by decide)).trans rfl) (by decide +kernel) XK).trans
    (Eq.trans ?_ (at_nullary rWAF rNDF 362 (y := Cert.ReferenceIdeal.main_cst_80) ((rAt_5 35 (by decide)).trans rfl) (by decide +kernel) XR).symm)
  rfl

theorem e342 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v234) = after rOpsF XR (Proc.devRef .tc Cert.ReferenceIdeal.main_v245) := by
  refine (at_binary kWA kND 342 (y := Cert.KernelIdeal.main_v234) ((kAt_31 1 (by decide)).trans rfl) (by decide +kernel) (not_mem_drop_of_lt kND (j := 340) (by decide +kernel) (by decide)) (not_mem_drop_of_lt kND (j := 341) (by decide +kernel) (by decide)) XK).trans
    (Eq.trans ?_ (at_binary rWAF rNDF 363 (y := Cert.ReferenceIdeal.main_v245) ((rAt_5 36 (by decide)).trans rfl) (by decide +kernel) (not_mem_drop_of_lt rNDF (j := 361) (by decide +kernel) (by decide)) (not_mem_drop_of_lt rNDF (j := 362) (by decide +kernel) (by decide)) XR).symm)
  rw [e340 H, e341 H]
  all_goals rfl

theorem e343 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_75) = after rOpsF XR (Proc.devRef .tc Cert.ReferenceIdeal.main_c_81) := by
  refine (at_nullary kWA kND 343 (y := Cert.KernelIdeal.main_c_75) ((kAt_31 2 (by decide)).trans rfl) (by decide +kernel) XK).trans
    (Eq.trans ?_ (at_nullary rWAF rNDF 364 (y := Cert.ReferenceIdeal.main_c_81) ((rAt_5 37 (by decide)).trans rfl) (by decide +kernel) XR).symm)
  rfl

theorem e344 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v235) = after rOpsF XR (Proc.devRef .tc Cert.ReferenceIdeal.main_v246) := by
  refine (at_unary kWA kND 344 (y := Cert.KernelIdeal.main_v235) ((kAt_31 3 (by decide)).trans rfl) (by decide +kernel) (not_mem_drop_of_lt kND (j := 343) (by decide +kernel) (by decide)) XK).trans
    (Eq.trans ?_ (at_unary rWAF rNDF 365 (y := Cert.ReferenceIdeal.main_v246) ((rAt_5 38 (by decide)).trans rfl) (by decide +kernel) (not_mem_drop_of_lt rNDF (j := 364) (by decide +kernel) (by decide)) XR).symm)
  rw [e343 H]
  all_goals rfl

theorem e345 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v236) = after rOpsF XR (Proc.devRef .tc Cert.ReferenceIdeal.main_v247) := by
  refine (at_binary kWA kND 345 (y := Cert.KernelIdeal.main_v236) ((kAt_31 4 (by decide)).trans rfl) (by decide +kernel) (not_mem_drop_of_lt kND (j := 333) (by decide +kernel) (by decide)) (not_mem_drop_of_lt kND (j := 344) (by decide +kernel) (by decide)) XK).trans
    (Eq.trans ?_ (at_binary rWAF rNDF 366 (y := Cert.ReferenceIdeal.main_v247) ((rAt_5 39 (by decide)).trans rfl) (by decide +kernel) (not_mem_drop_of_lt rNDF (j := 354) (by decide +kernel) (by decide)) (not_mem_drop_of_lt rNDF (j := 365) (by decide +kernel) (by decide)) XR).symm)
  rw [e333 H, e344 H]
  all_goals rfl

theorem e346 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v237) = after rOpsF XR (Proc.devRef .tc Cert.ReferenceIdeal.main_v248) := by
  refine (at_unary kWA kND 346 (y := Cert.KernelIdeal.main_v237) ((kAt_31 5 (by decide)).trans rfl) (by decide +kernel) (not_mem_drop_of_lt kND (j := 345) (by decide +kernel) (by decide)) XK).trans
    (Eq.trans ?_ (at_unary rWAF rNDF 367 (y := Cert.ReferenceIdeal.main_v248) ((rAt_5 40 (by decide)).trans rfl) (by decide +kernel) (not_mem_drop_of_lt rNDF (j := 366) (by decide +kernel) (by decide)) XR).symm)
  rw [e345 H]
  all_goals rfl

theorem e347 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v238) = after rOpsF XR (Proc.devRef .tc Cert.ReferenceIdeal.main_v249) := by
  refine (at_binary kWA kND 347 (y := Cert.KernelIdeal.main_v238) ((kAt_31 6 (by decide)).trans rfl) (by decide +kernel) (not_mem_drop_of_lt kND (j := 342) (by decide +kernel) (by decide)) (not_mem_drop_of_lt kND (j := 346) (by decide +kernel) (by decide)) XK).trans
    (Eq.trans ?_ (at_binary rWAF rNDF 368 (y := Cert.ReferenceIdeal.main_v249) ((rAt_5 41 (by decide)).trans rfl) (by decide +kernel) (not_mem_drop_of_lt rNDF (j := 363) (by decide +kernel) (by decide)) (not_mem_drop_of_lt rNDF (j := 367) (by decide +kernel) (by decide)) XR).symm)
  rw [e342 H, e346 H]
  all_goals rfl

theorem e348 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_76) = after rOpsF XR (Proc.devRef .tc Cert.ReferenceIdeal.main_cst_82) := by
  refine (at_nullary kWA kND 348 (y := Cert.KernelIdeal.main_cst_76) ((kAt_31 7 (by decide)).trans rfl) (by decide +kernel) XK).trans
    (Eq.trans ?_ (at_nullary rWAF rNDF 369 (y := Cert.ReferenceIdeal.main_cst_82) ((rAt_5 42 (by decide)).trans rfl) (by decide +kernel) XR).symm)
  rfl

theorem e349 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call16_v0) = after rOpsF XR (Proc.devRef .tc Cert.ReferenceIdeal.main_call16_v0) := by
  refine (at_unary kWA kND 349 (y := Cert.KernelIdeal.main_call16_v0) ((kAt_32 0 (by decide)).trans rfl) (by decide +kernel) (not_mem_drop_of_lt kND (j := 348) (by decide +kernel) (by decide)) XK).trans
    (Eq.trans ?_ (at_unary rWAF rNDF 370 (y := Cert.ReferenceIdeal.main_call16_v0) ((rAt_5 43 (by decide)).trans rfl) (by decide +kernel) (not_mem_drop_of_lt rNDF (j := 369) (by decide +kernel) (by decide)) XR).symm)
  rw [e348 H]
  all_goals rfl

theorem e350 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call16_v1) = after rOpsF XR (Proc.devRef .tc Cert.ReferenceIdeal.main_call16_v1) := by
  refine (at_unary kWA kND 350 (y := Cert.KernelIdeal.main_call16_v1) ((kAt_32 1 (by decide)).trans rfl) (by decide +kernel) (not_mem_drop_of_lt kND (j := 349) (by decide +kernel) (by decide)) XK).trans
    (Eq.trans ?_ (at_unary rWAF rNDF 371 (y := Cert.ReferenceIdeal.main_call16_v1) ((rAt_5 44 (by decide)).trans rfl) (by decide +kernel) (not_mem_drop_of_lt rNDF (j := 370) (by decide +kernel) (by decide)) XR).symm)
  rw [e349 H]
  all_goals rfl

theorem e351 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v239) = after rOpsF XR (Proc.devRef .tc Cert.ReferenceIdeal.main_v250) := by
  refine (at_ternary kWA kND 351 (y := Cert.KernelIdeal.main_v239) ((kAt_32 2 (by decide)).trans rfl) (by decide +kernel) (not_mem_drop_of_lt kND (j := 336) (by decide +kernel) (by decide)) (not_mem_drop_of_lt kND (j := 347) (by decide +kernel) (by decide)) (not_mem_drop_of_lt kND (j := 350) (by decide +kernel) (by decide)) XK).trans
    (Eq.trans ?_ (at_ternary rWAF rNDF 372 (y := Cert.ReferenceIdeal.main_v250) ((rAt_5 45 (by decide)).trans rfl) (by decide +kernel) (not_mem_drop_of_lt rNDF (j := 357) (by decide +kernel) (by decide)) (not_mem_drop_of_lt rNDF (j := 368) (by decide +kernel) (by decide)) (not_mem_drop_of_lt rNDF (j := 371) (by decide +kernel) (by decide)) XR).symm)
  rw [e336 H, e347 H, e350 H]
  all_goals rfl

theorem e352 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v240) = after rOpsF XR (Proc.devRef .tc Cert.ReferenceIdeal.main_v251) := by
  refine (at_unary kWA kND 352 (y := Cert.KernelIdeal.main_v240) ((kAt_33 0 (by decide)).trans rfl) (by decide +kernel) (not_mem_drop_of_lt kND (j := 322) (by decide +kernel) (by decide)) XK).trans
    (Eq.trans ?_ (at_unary rWAF rNDF 373 (y := Cert.ReferenceIdeal.main_v251) ((rAt_5 46 (by decide)).trans rfl) (by decide +kernel) (not_mem_drop_of_lt rNDF (j := 343) (by decide +kernel) (by decide)) XR).symm)
  rw [e322 H]
  all_goals rfl

theorem e353 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v241) = after rOpsF XR (Proc.devRef .tc Cert.ReferenceIdeal.main_v252) := by
  refine (at_unary kWA kND 353 (y := Cert.KernelIdeal.main_v241) ((kAt_33 1 (by decide)).trans rfl) (by decide +kernel) (not_mem_drop_of_lt kND (j := 351) (by decide +kernel) (by decide)) XK).trans
    (Eq.trans ?_ (at_unary rWAF rNDF 374 (y := Cert.ReferenceIdeal.main_v252) ((rAt_5 47 (by decide)).trans rfl) (by decide +kernel) (not_mem_drop_of_lt rNDF (j := 372) (by decide +kernel) (by decide)) XR).symm)
  rw [e351 H]
  all_goals rfl

theorem e354 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v242) = after rOpsF XR (Proc.devRef .tc Cert.ReferenceIdeal.main_v253) := by
  refine (at_binary kWA kND 354 (y := Cert.KernelIdeal.main_v242) ((kAt_33 2 (by decide)).trans rfl) (by decide +kernel) (not_mem_drop_of_lt kND (j := 352) (by decide +kernel) (by decide)) (not_mem_drop_of_lt kND (j := 353) (by decide +kernel) (by decide)) XK).trans
    (Eq.trans ?_ (at_binary rWAF rNDF 375 (y := Cert.ReferenceIdeal.main_v253) ((rAt_5 48 (by decide)).trans rfl) (by decide +kernel) (not_mem_drop_of_lt rNDF (j := 373) (by decide +kernel) (by decide)) (not_mem_drop_of_lt rNDF (j := 374) (by decide +kernel) (by decide)) XR).symm)
  rw [e352 H, e353 H]
  all_goals rfl

theorem e355 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v243) = after rOpsF XR (Proc.devRef .tc Cert.ReferenceIdeal.main_v254) := by
  refine (at_unary kWA kND 355 (y := Cert.KernelIdeal.main_v243) ((kAt_33 3 (by decide)).trans rfl) (by decide +kernel) (not_mem_drop_of_lt kND (j := 290) (by decide +kernel) (by decide)) XK).trans
    (Eq.trans ?_ (at_unary rWAF rNDF 376 (y := Cert.ReferenceIdeal.main_v254) ((rAt_5 49 (by decide)).trans rfl) (by decide +kernel) (not_mem_drop_of_lt rNDF (j := 311) (by decide +kernel) (by decide)) XR).symm)
  rw [e290 H]
  all_goals rfl

theorem e356 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v244) = after rOpsF XR (Proc.devRef .tc Cert.ReferenceIdeal.main_v255) := by
  refine (at_unary kWA kND 356 (y := Cert.KernelIdeal.main_v244) ((kAt_33 4 (by decide)).trans rfl) (by decide +kernel) (not_mem_drop_of_lt kND (j := 293) (by decide +kernel) (by decide)) XK).trans
    (Eq.trans ?_ (at_unary rWAF rNDF 377 (y := Cert.ReferenceIdeal.main_v255) ((rAt_5 50 (by decide)).trans rfl) (by decide +kernel) (not_mem_drop_of_lt rNDF (j := 314) (by decide +kernel) (by decide)) XR).symm)
  rw [e293 H]
  all_goals rfl

theorem e357 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v245) = after rOpsF XR (Proc.devRef .tc Cert.ReferenceIdeal.main_v256) := by
  refine (at_binary kWA kND 357 (y := Cert.KernelIdeal.main_v245) ((kAt_33 5 (by decide)).trans rfl) (by decide +kernel) (not_mem_drop_of_lt kND (j := 355) (by decide +kernel) (by decide)) (not_mem_drop_of_lt kND (j := 356) (by decide +kernel) (by decide)) XK).trans
    (Eq.trans ?_ (at_binary rWAF rNDF 378 (y := Cert.ReferenceIdeal.main_v256) ((rAt_5 51 (by decide)).trans rfl) (by decide +kernel) (not_mem_drop_of_lt rNDF (j := 376) (by decide +kernel) (by decide)) (not_mem_drop_of_lt rNDF (j := 377) (by decide +kernel) (by decide)) XR).symm)
  rw [e355 H, e356 H]
  all_goals rfl

theorem e358 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v246) = after rOpsF XR (Proc.devRef .tc Cert.ReferenceIdeal.main_v257) := by
  refine (at_unary kWA kND 358 (y := Cert.KernelIdeal.main_v246) ((kAt_33 6 (by decide)).trans rfl) (by decide +kernel) (not_mem_drop_of_lt kND (j := 357) (by decide +kernel) (by decide)) XK).trans
    (Eq.trans ?_ (at_unary rWAF rNDF 379 (y := Cert.ReferenceIdeal.main_v257) ((rAt_5 52 (by decide)).trans rfl) (by decide +kernel) (not_mem_drop_of_lt rNDF (j := 378) (by decide +kernel) (by decide)) XR).symm)
  rw [e357 H]
  all_goals rfl

theorem e359 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_77) = after rOpsF XR (Proc.devRef .tc Cert.ReferenceIdeal.main_cst_83) := by
  refine (at_nullary kWA kND 359 (y := Cert.KernelIdeal.main_cst_77) ((kAt_33 7 (by decide)).trans rfl) (by decide +kernel) XK).trans
    (Eq.trans ?_ (at_nullary rWAF rNDF 380 (y := Cert.ReferenceIdeal.main_cst_83) ((rAt_5 53 (by decide)).trans rfl) (by decide +kernel) XR).symm)
  rfl

theorem e360 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v247) = after rOpsF XR (Proc.devRef .tc Cert.ReferenceIdeal.main_v258) := by
  refine (at_binary kWA kND 360 (y := Cert.KernelIdeal.main_v247) ((kAt_33 8 (by decide)).trans rfl) (by decide +kernel) (not_mem_drop_of_lt kND (j := 358) (by decide +kernel) (by decide)) (not_mem_drop_of_lt kND (j := 359) (by decide +kernel) (by decide)) XK).trans
    (Eq.trans ?_ (at_binary rWAF rNDF 381 (y := Cert.ReferenceIdeal.main_v258) ((rAt_5 54 (by decide)).trans rfl) (by decide +kernel) (not_mem_drop_of_lt rNDF (j := 379) (by decide +kernel) (by decide)) (not_mem_drop_of_lt rNDF (j := 380) (by decide +kernel) (by decide)) XR).symm)
  rw [e358 H, e359 H]
  all_goals rfl

theorem e361 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_78) = after rOpsF XR (Proc.devRef .tc Cert.ReferenceIdeal.main_cst_84) := by
  refine (at_nullary kWA kND 361 (y := Cert.KernelIdeal.main_cst_78) ((kAt_33 9 (by decide)).trans rfl) (by decide +kernel) XK).trans
    (Eq.trans ?_ (at_nullary rWAF rNDF 382 (y := Cert.ReferenceIdeal.main_cst_84) ((rAt_5 55 (by decide)).trans rfl) (by decide +kernel) XR).symm)
  rfl

theorem e362 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v248) = after rOpsF XR (Proc.devRef .tc Cert.ReferenceIdeal.main_v259) := by
  refine (at_binary kWA kND 362 (y := Cert.KernelIdeal.main_v248) ((kAt_33 10 (by decide)).trans rfl) (by decide +kernel) (not_mem_drop_of_lt kND (j := 360) (by decide +kernel) (by decide)) (not_mem_drop_of_lt kND (j := 361) (by decide +kernel) (by decide)) XK).trans
    (Eq.trans ?_ (at_binary rWAF rNDF 383 (y := Cert.ReferenceIdeal.main_v259) ((rAt_5 56 (by decide)).trans rfl) (by decide +kernel) (not_mem_drop_of_lt rNDF (j := 381) (by decide +kernel) (by decide)) (not_mem_drop_of_lt rNDF (j := 382) (by decide +kernel) (by decide)) XR).symm)
  rw [e360 H, e361 H]
  all_goals rfl

theorem e363 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v249) = after rOpsF XR (Proc.devRef .tc Cert.ReferenceIdeal.main_v260) := by
  refine (at_binary kWA kND 363 (y := Cert.KernelIdeal.main_v249) ((kAt_33 11 (by decide)).trans rfl) (by decide +kernel) (not_mem_drop_of_lt kND (j := 354) (by decide +kernel) (by decide)) (not_mem_drop_of_lt kND (j := 358) (by decide +kernel) (by decide)) XK).trans
    (Eq.trans ?_ (at_binary rWAF rNDF 384 (y := Cert.ReferenceIdeal.main_v260) ((rAt_5 57 (by decide)).trans rfl) (by decide +kernel) (not_mem_drop_of_lt rNDF (j := 375) (by decide +kernel) (by decide)) (not_mem_drop_of_lt rNDF (j := 379) (by decide +kernel) (by decide)) XR).symm)
  rw [e354 H, e358 H]
  all_goals rfl

theorem e364 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_79) = after rOpsF XR (Proc.devRef .tc Cert.ReferenceIdeal.main_cst_85) := by
  refine (at_nullary kWA kND 364 (y := Cert.KernelIdeal.main_cst_79) ((kAt_33 12 (by decide)).trans rfl) (by decide +kernel) XK).trans
    (Eq.trans ?_ (at_nullary rWAF rNDF 385 (y := Cert.ReferenceIdeal.main_cst_85) ((rAt_5 58 (by decide)).trans rfl) (by decide +kernel) XR).symm)
  rfl

theorem e365 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v250) = after rOpsF XR (Proc.devRef .tc Cert.ReferenceIdeal.main_v261) := by
  refine (at_binary kWA kND 365 (y := Cert.KernelIdeal.main_v250) ((kAt_33 13 (by decide)).trans rfl) (by decide +kernel) (not_mem_drop_of_lt kND (j := 363) (by decide +kernel) (by decide)) (not_mem_drop_of_lt kND (j := 364) (by decide +kernel) (by decide)) XK).trans
    (Eq.trans ?_ (at_binary rWAF rNDF 386 (y := Cert.ReferenceIdeal.main_v261) ((rAt_5 59 (by decide)).trans rfl) (by decide +kernel) (not_mem_drop_of_lt rNDF (j := 384) (by decide +kernel) (by decide)) (not_mem_drop_of_lt rNDF (j := 385) (by decide +kernel) (by decide)) XR).symm)
  rw [e363 H, e364 H]
  all_goals rfl

theorem e366 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_80) = after rOpsF XR (Proc.devRef .tc Cert.ReferenceIdeal.main_cst_86) := by
  refine (at_nullary kWA kND 366 (y := Cert.KernelIdeal.main_cst_80) ((kAt_33 14 (by decide)).trans rfl) (by decide +kernel) XK).trans
    (Eq.trans ?_ (at_nullary rWAF rNDF 387 (y := Cert.ReferenceIdeal.main_cst_86) ((rAt_5 60 (by decide)).trans rfl) (by decide +kernel) XR).symm)
  rfl

theorem e367 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v251) = after rOpsF XR (Proc.devRef .tc Cert.ReferenceIdeal.main_v262) := by
  refine (at_binary kWA kND 367 (y := Cert.KernelIdeal.main_v251) ((kAt_33 15 (by decide)).trans rfl) (by decide +kernel) (not_mem_drop_of_lt kND (j := 360) (by decide +kernel) (by decide)) (not_mem_drop_of_lt kND (j := 366) (by decide +kernel) (by decide)) XK).trans
    (Eq.trans ?_ (at_binary rWAF rNDF 388 (y := Cert.ReferenceIdeal.main_v262) ((rAt_5 61 (by decide)).trans rfl) (by decide +kernel) (not_mem_drop_of_lt rNDF (j := 381) (by decide +kernel) (by decide)) (not_mem_drop_of_lt rNDF (j := 387) (by decide +kernel) (by decide)) XR).symm)
  rw [e360 H, e366 H]
  all_goals rfl

theorem e368 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v252) = after rOpsF XR (Proc.devRef .tc Cert.ReferenceIdeal.main_v263) := by
  refine (at_binary kWA kND 368 (y := Cert.KernelIdeal.main_v252) ((kAt_33 16 (by decide)).trans rfl) (by decide +kernel) (not_mem_drop_of_lt kND (j := 365) (by decide +kernel) (by decide)) (not_mem_drop_of_lt kND (j := 367) (by decide +kernel) (by decide)) XK).trans
    (Eq.trans ?_ (at_binary rWAF rNDF 389 (y := Cert.ReferenceIdeal.main_v263) ((rAt_5 62 (by decide)).trans rfl) (by decide +kernel) (not_mem_drop_of_lt rNDF (j := 386) (by decide +kernel) (by decide)) (not_mem_drop_of_lt rNDF (j := 388) (by decide +kernel) (by decide)) XR).symm)
  rw [e365 H, e367 H]
  all_goals rfl

theorem e369 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_81) = after rOpsF XR (Proc.devRef .tc Cert.ReferenceIdeal.main_cst_87) := by
  refine (at_nullary kWA kND 369 (y := Cert.KernelIdeal.main_cst_81) ((kAt_33 17 (by decide)).trans rfl) (by decide +kernel) XK).trans
    (Eq.trans ?_ (at_nullary rWAF rNDF 390 (y := Cert.ReferenceIdeal.main_cst_87) ((rAt_5 63 (by decide)).trans rfl) (by decide +kernel) XR).symm)
  rfl

theorem e370 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call17_v0) = after rOpsF XR (Proc.devRef .tc Cert.ReferenceIdeal.main_call17_v0) := by
  refine (at_unary kWA kND 370 (y := Cert.KernelIdeal.main_call17_v0) ((kAt_34 0 (by decide)).trans rfl) (by decide +kernel) (not_mem_drop_of_lt kND (j := 369) (by decide +kernel) (by decide)) XK).trans
    (Eq.trans ?_ (at_unary rWAF rNDF 391 (y := Cert.ReferenceIdeal.main_call17_v0) ((rAt_5 64 (by decide)).trans rfl) (by decide +kernel) (not_mem_drop_of_lt rNDF (j := 390) (by decide +kernel) (by decide)) XR).symm)
  rw [e369 H]
  all_goals rfl

theorem e371 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v253) = after rOpsF XR (Proc.devRef .tc Cert.ReferenceIdeal.main_v264) := by
  refine (at_ternary kWA kND 371 (y := Cert.KernelIdeal.main_v253) ((kAt_34 1 (by decide)).trans rfl) (by decide +kernel) (not_mem_drop_of_lt kND (j := 362) (by decide +kernel) (by decide)) (not_mem_drop_of_lt kND (j := 368) (by decide +kernel) (by decide)) (not_mem_drop_of_lt kND (j := 370) (by decide +kernel) (by decide)) XK).trans
    (Eq.trans ?_ (at_ternary rWAF rNDF 392 (y := Cert.ReferenceIdeal.main_v264) ((rAt_5 65 (by decide)).trans rfl) (by decide +kernel) (not_mem_drop_of_lt rNDF (j := 383) (by decide +kernel) (by decide)) (not_mem_drop_of_lt rNDF (j := 389) (by decide +kernel) (by decide)) (not_mem_drop_of_lt rNDF (j := 391) (by decide +kernel) (by decide)) XR).symm)
  rw [e362 H, e368 H, e370 H]
  all_goals rfl

theorem e372 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v254) = after rOpsF XR (Proc.devRef .tc Cert.ReferenceIdeal.main_v265) := by
  refine (at_unary kWA kND 372 (y := Cert.KernelIdeal.main_v254) ((kAt_35 0 (by decide)).trans rfl) (by decide +kernel) (not_mem_drop_of_lt kND (j := 87) (by decide +kernel) (by decide)) XK).trans
    (Eq.trans ?_ (at_unary rWAF rNDF 393 (y := Cert.ReferenceIdeal.main_v265) ((rAt_5 66 (by decide)).trans rfl) (by decide +kernel) (not_mem_drop_of_lt rNDF (j := 108) (by decide +kernel) (by decide)) XR).symm)
  rw [e87 H]
  all_goals rfl

theorem e373 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_82) = after rOpsF XR (Proc.devRef .tc Cert.ReferenceIdeal.main_c_88) := by
  refine (at_nullary kWA kND 373 (y := Cert.KernelIdeal.main_c_82) ((kAt_35 1 (by decide)).trans rfl) (by decide +kernel) XK).trans
    (Eq.trans ?_ (at_nullary rWAF rNDF 394 (y := Cert.ReferenceIdeal.main_c_88) ((rAt_5 67 (by decide)).trans rfl) (by decide +kernel) XR).symm)
  rfl

theorem e374 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v255) = after rOpsF XR (Proc.devRef .tc Cert.ReferenceIdeal.main_v266) := by
  refine (at_binary kWA kND 374 (y := Cert.KernelIdeal.main_v255) ((kAt_35 2 (by decide)).trans rfl) (by decide +kernel) (not_mem_drop_of_lt kND (j := 372) (by decide +kernel) (by decide)) (not_mem_drop_of_lt kND (j := 373) (by decide +kernel) (by decide)) XK).trans
    (Eq.trans ?_ (at_binary rWAF rNDF 395 (y := Cert.ReferenceIdeal.main_v266) ((rAt_5 68 (by decide)).trans rfl) (by decide +kernel) (not_mem_drop_of_lt rNDF (j := 393) (by decide +kernel) (by decide)) (not_mem_drop_of_lt rNDF (j := 394) (by decide +kernel) (by decide)) XR).symm)
  rw [e372 H, e373 H]
  all_goals rfl

theorem e375 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_83) = after rOpsF XR (Proc.devRef .tc Cert.ReferenceIdeal.main_c_89) := by
  refine (at_nullary kWA kND 375 (y := Cert.KernelIdeal.main_c_83) ((kAt_35 3 (by decide)).trans rfl) (by decide +kernel) XK).trans
    (Eq.trans ?_ (at_nullary rWAF rNDF 396 (y := Cert.ReferenceIdeal.main_c_89) ((rAt_5 69 (by decide)).trans rfl) (by decide +kernel) XR).symm)
  rfl

theorem e376 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v256) = after rOpsF XR (Proc.devRef .tc Cert.ReferenceIdeal.main_v267) := by
  refine (at_unary kWA kND 376 (y := Cert.KernelIdeal.main_v256) ((kAt_35 4 (by decide)).trans rfl) (by decide +kernel) (not_mem_drop_of_lt kND (j := 375) (by decide +kernel) (by decide)) XK).trans
    (Eq.trans ?_ (at_unary rWAF rNDF 397 (y := Cert.ReferenceIdeal.main_v267) ((rAt_5 70 (by decide)).trans rfl) (by decide +kernel) (not_mem_drop_of_lt rNDF (j := 396) (by decide +kernel) (by decide)) XR).symm)
  rw [e375 H]
  all_goals rfl

theorem e377 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v257) = after rOpsF XR (Proc.devRef .tc Cert.ReferenceIdeal.main_v268) := by
  refine (at_binary kWA kND 377 (y := Cert.KernelIdeal.main_v257) ((kAt_35 5 (by decide)).trans rfl) (by decide +kernel) (not_mem_drop_of_lt kND (j := 374) (by decide +kernel) (by decide)) (not_mem_drop_of_lt kND (j := 376) (by decide +kernel) (by decide)) XK).trans
    (Eq.trans ?_ (at_binary rWAF rNDF 398 (y := Cert.ReferenceIdeal.main_v268) ((rAt_6 0 (by decide)).trans rfl) (by decide +kernel) (not_mem_drop_of_lt rNDF (j := 395) (by decide +kernel) (by decide)) (not_mem_drop_of_lt rNDF (j := 397) (by decide +kernel) (by decide)) XR).symm)
  rw [e374 H, e376 H]
  all_goals rfl

theorem e378 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_84) = after rOpsF XR (Proc.devRef .tc Cert.ReferenceIdeal.main_cst_90) := by
  refine (at_nullary kWA kND 378 (y := Cert.KernelIdeal.main_cst_84) ((kAt_35 6 (by decide)).trans rfl) (by decide +kernel) XK).trans
    (Eq.trans ?_ (at_nullary rWAF rNDF 399 (y := Cert.ReferenceIdeal.main_cst_90) ((rAt_6 1 (by decide)).trans rfl) (by decide +kernel) XR).symm)
  rfl

theorem e379 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call18_v0) = after rOpsF XR (Proc.devRef .tc Cert.ReferenceIdeal.main_call18_v0) := by
  refine (at_unary kWA kND 379 (y := Cert.KernelIdeal.main_call18_v0) ((kAt_36 0 (by decide)).trans rfl) (by decide +kernel) (not_mem_drop_of_lt kND (j := 378) (by decide +kernel) (by decide)) XK).trans
    (Eq.trans ?_ (at_unary rWAF rNDF 400 (y := Cert.ReferenceIdeal.main_call18_v0) ((rAt_6 2 (by decide)).trans rfl) (by decide +kernel) (not_mem_drop_of_lt rNDF (j := 399) (by decide +kernel) (by decide)) XR).symm)
  rw [e378 H]
  all_goals rfl

theorem e380 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call18_v1) = after rOpsF XR (Proc.devRef .tc Cert.ReferenceIdeal.main_call18_v1) := by
  refine (at_unary kWA kND 380 (y := Cert.KernelIdeal.main_call18_v1) ((kAt_36 1 (by decide)).trans rfl) (by decide +kernel) (not_mem_drop_of_lt kND (j := 379) (by decide +kernel) (by decide)) XK).trans
    (Eq.trans ?_ (at_unary rWAF rNDF 401 (y := Cert.ReferenceIdeal.main_call18_v1) ((rAt_6 3 (by decide)).trans rfl) (by decide +kernel) (not_mem_drop_of_lt rNDF (j := 400) (by decide +kernel) (by decide)) XR).symm)
  rw [e379 H]
  all_goals rfl

theorem e381 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v258) = after rOpsF XR (Proc.devRef .tc Cert.ReferenceIdeal.main_v269) := by
  refine (at_ternary kWA kND 381 (y := Cert.KernelIdeal.main_v258) ((kAt_36 2 (by decide)).trans rfl) (by decide +kernel) (not_mem_drop_of_lt kND (j := 87) (by decide +kernel) (by decide)) (not_mem_drop_of_lt kND (j := 54) (by decide +kernel) (by decide)) (not_mem_drop_of_lt kND (j := 380) (by decide +kernel) (by decide)) XK).trans
    (Eq.trans ?_ (at_ternary rWAF rNDF 402 (y := Cert.ReferenceIdeal.main_v269) ((rAt_6 4 (by decide)).trans rfl) (by decide +kernel) (not_mem_drop_of_lt rNDF (j := 108) (by decide +kernel) (by decide)) (not_mem_drop_of_lt rNDF (j := 75) (by decide +kernel) (by decide)) (not_mem_drop_of_lt rNDF (j := 401) (by decide +kernel) (by decide)) XR).symm)
  rw [e87 H, e54 H, e380 H]
  all_goals rfl

theorem e382 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_85) = after rOpsF XR (Proc.devRef .tc Cert.ReferenceIdeal.main_cst_91) := by
  refine (at_nullary kWA kND 382 (y := Cert.KernelIdeal.main_cst_85) ((kAt_37 0 (by decide)).trans rfl) (by decide +kernel) XK).trans
    (Eq.trans ?_ (at_nullary rWAF rNDF 403 (y := Cert.ReferenceIdeal.main_cst_91) ((rAt_6 5 (by decide)).trans rfl) (by decide +kernel) XR).symm)
  rfl

theorem e383 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v259) = after rOpsF XR (Proc.devRef .tc Cert.ReferenceIdeal.main_v270) := by
  refine (at_binary kWA kND 383 (y := Cert.KernelIdeal.main_v259) ((kAt_37 1 (by decide)).trans rfl) (by decide +kernel) (not_mem_drop_of_lt kND (j := 381) (by decide +kernel) (by decide)) (not_mem_drop_of_lt kND (j := 382) (by decide +kernel) (by decide)) XK).trans
    (Eq.trans ?_ (at_binary rWAF rNDF 404 (y := Cert.ReferenceIdeal.main_v270) ((rAt_6 6 (by decide)).trans rfl) (by decide +kernel) (not_mem_drop_of_lt rNDF (j := 402) (by decide +kernel) (by decide)) (not_mem_drop_of_lt rNDF (j := 403) (by decide +kernel) (by decide)) XR).symm)
  rw [e381 H, e382 H]
  all_goals rfl

theorem e384 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_86) = after rOpsF XR (Proc.devRef .tc Cert.ReferenceIdeal.main_c_92) := by
  refine (at_nullary kWA kND 384 (y := Cert.KernelIdeal.main_c_86) ((kAt_37 2 (by decide)).trans rfl) (by decide +kernel) XK).trans
    (Eq.trans ?_ (at_nullary rWAF rNDF 405 (y := Cert.ReferenceIdeal.main_c_92) ((rAt_6 7 (by decide)).trans rfl) (by decide +kernel) XR).symm)
  rfl

theorem e385 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v260) = after rOpsF XR (Proc.devRef .tc Cert.ReferenceIdeal.main_v271) := by
  refine (at_unary kWA kND 385 (y := Cert.KernelIdeal.main_v260) ((kAt_37 3 (by decide)).trans rfl) (by decide +kernel) (not_mem_drop_of_lt kND (j := 384) (by decide +kernel) (by decide)) XK).trans
    (Eq.trans ?_ (at_unary rWAF rNDF 406 (y := Cert.ReferenceIdeal.main_v271) ((rAt_6 8 (by decide)).trans rfl) (by decide +kernel) (not_mem_drop_of_lt rNDF (j := 405) (by decide +kernel) (by decide)) XR).symm)
  rw [e384 H]
  all_goals rfl

theorem e386 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v261) = after rOpsF XR (Proc.devRef .tc Cert.ReferenceIdeal.main_v272) := by
  refine (at_binary kWA kND 386 (y := Cert.KernelIdeal.main_v261) ((kAt_37 4 (by decide)).trans rfl) (by decide +kernel) (not_mem_drop_of_lt kND (j := 374) (by decide +kernel) (by decide)) (not_mem_drop_of_lt kND (j := 385) (by decide +kernel) (by decide)) XK).trans
    (Eq.trans ?_ (at_binary rWAF rNDF 407 (y := Cert.ReferenceIdeal.main_v272) ((rAt_6 9 (by decide)).trans rfl) (by decide +kernel) (not_mem_drop_of_lt rNDF (j := 395) (by decide +kernel) (by decide)) (not_mem_drop_of_lt rNDF (j := 406) (by decide +kernel) (by decide)) XR).symm)
  rw [e374 H, e385 H]
  all_goals rfl

theorem e387 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v262) = after rOpsF XR (Proc.devRef .tc Cert.ReferenceIdeal.main_v273) := by
  refine (at_unary kWA kND 387 (y := Cert.KernelIdeal.main_v262) ((kAt_37 5 (by decide)).trans rfl) (by decide +kernel) (not_mem_drop_of_lt kND (j := 386) (by decide +kernel) (by decide)) XK).trans
    (Eq.trans ?_ (at_unary rWAF rNDF 408 (y := Cert.ReferenceIdeal.main_v273) ((rAt_6 10 (by decide)).trans rfl) (by decide +kernel) (not_mem_drop_of_lt rNDF (j := 407) (by decide +kernel) (by decide)) XR).symm)
  rw [e386 H]
  all_goals rfl

theorem e388 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v263) = after rOpsF XR (Proc.devRef .tc Cert.ReferenceIdeal.main_v274) := by
  refine (at_binary kWA kND 388 (y := Cert.KernelIdeal.main_v263) ((kAt_37 6 (by decide)).trans rfl) (by decide +kernel) (not_mem_drop_of_lt kND (j := 383) (by decide +kernel) (by decide)) (not_mem_drop_of_lt kND (j := 387) (by decide +kernel) (by decide)) XK).trans
    (Eq.trans ?_ (at_binary rWAF rNDF 409 (y := Cert.ReferenceIdeal.main_v274) ((rAt_6 11 (by decide)).trans rfl) (by decide +kernel) (not_mem_drop_of_lt rNDF (j := 404) (by decide +kernel) (by decide)) (not_mem_drop_of_lt rNDF (j := 408) (by decide +kernel) (by decide)) XR).symm)
  rw [e383 H, e387 H]
  all_goals rfl

theorem e389 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_87) = after rOpsF XR (Proc.devRef .tc Cert.ReferenceIdeal.main_cst_93) := by
  refine (at_nullary kWA kND 389 (y := Cert.KernelIdeal.main_cst_87) ((kAt_37 7 (by decide)).trans rfl) (by decide +kernel) XK).trans
    (Eq.trans ?_ (at_nullary rWAF rNDF 410 (y := Cert.ReferenceIdeal.main_cst_93) ((rAt_6 12 (by decide)).trans rfl) (by decide +kernel) XR).symm)
  rfl

theorem e390 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call19_v0) = after rOpsF XR (Proc.devRef .tc Cert.ReferenceIdeal.main_call19_v0) := by
  refine (at_unary kWA kND 390 (y := Cert.KernelIdeal.main_call19_v0) ((kAt_38 0 (by decide)).trans rfl) (by decide +kernel) (not_mem_drop_of_lt kND (j := 389) (by decide +kernel) (by decide)) XK).trans
    (Eq.trans ?_ (at_unary rWAF rNDF 411 (y := Cert.ReferenceIdeal.main_call19_v0) ((rAt_6 13 (by decide)).trans rfl) (by decide +kernel) (not_mem_drop_of_lt rNDF (j := 410) (by decide +kernel) (by decide)) XR).symm)
  rw [e389 H]
  all_goals rfl

theorem e391 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call19_v1) = after rOpsF XR (Proc.devRef .tc Cert.ReferenceIdeal.main_call19_v1) := by
  refine (at_unary kWA kND 391 (y := Cert.KernelIdeal.main_call19_v1) ((kAt_38 1 (by decide)).trans rfl) (by decide +kernel) (not_mem_drop_of_lt kND (j := 390) (by decide +kernel) (by decide)) XK).trans
    (Eq.trans ?_ (at_unary rWAF rNDF 412 (y := Cert.ReferenceIdeal.main_call19_v1) ((rAt_6 14 (by decide)).trans rfl) (by decide +kernel) (not_mem_drop_of_lt rNDF (j := 411) (by decide +kernel) (by decide)) XR).symm)
  rw [e390 H]
  all_goals rfl

theorem e392 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v264) = after rOpsF XR (Proc.devRef .tc Cert.ReferenceIdeal.main_v275) := by
  refine (at_ternary kWA kND 392 (y := Cert.KernelIdeal.main_v264) ((kAt_38 2 (by decide)).trans rfl) (by decide +kernel) (not_mem_drop_of_lt kND (j := 377) (by decide +kernel) (by decide)) (not_mem_drop_of_lt kND (j := 388) (by decide +kernel) (by decide)) (not_mem_drop_of_lt kND (j := 391) (by decide +kernel) (by decide)) XK).trans
    (Eq.trans ?_ (at_ternary rWAF rNDF 413 (y := Cert.ReferenceIdeal.main_v275) ((rAt_6 15 (by decide)).trans rfl) (by decide +kernel) (not_mem_drop_of_lt rNDF (j := 398) (by decide +kernel) (by decide)) (not_mem_drop_of_lt rNDF (j := 409) (by decide +kernel) (by decide)) (not_mem_drop_of_lt rNDF (j := 412) (by decide +kernel) (by decide)) XR).symm)
  rw [e377 H, e388 H, e391 H]
  all_goals rfl

theorem e393 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v265) = after rOpsF XR (Proc.devRef .tc Cert.ReferenceIdeal.main_v276) := by
  refine (at_unary kWA kND 393 (y := Cert.KernelIdeal.main_v265) ((kAt_39 0 (by decide)).trans rfl) (by decide +kernel) (not_mem_drop_of_lt kND (j := 107) (by decide +kernel) (by decide)) XK).trans
    (Eq.trans ?_ (at_unary rWAF rNDF 414 (y := Cert.ReferenceIdeal.main_v276) ((rAt_6 16 (by decide)).trans rfl) (by decide +kernel) (not_mem_drop_of_lt rNDF (j := 128) (by decide +kernel) (by decide)) XR).symm)
  rw [e107 H]
  all_goals rfl

theorem e394 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_88) = after rOpsF XR (Proc.devRef .tc Cert.ReferenceIdeal.main_c_94) := by
  refine (at_nullary kWA kND 394 (y := Cert.KernelIdeal.main_c_88) ((kAt_39 1 (by decide)).trans rfl) (by decide +kernel) XK).trans
    (Eq.trans ?_ (at_nullary rWAF rNDF 415 (y := Cert.ReferenceIdeal.main_c_94) ((rAt_6 17 (by decide)).trans rfl) (by decide +kernel) XR).symm)
  rfl

theorem e395 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v266) = after rOpsF XR (Proc.devRef .tc Cert.ReferenceIdeal.main_v277) := by
  refine (at_binary kWA kND 395 (y := Cert.KernelIdeal.main_v266) ((kAt_39 2 (by decide)).trans rfl) (by decide +kernel) (not_mem_drop_of_lt kND (j := 393) (by decide +kernel) (by decide)) (not_mem_drop_of_lt kND (j := 394) (by decide +kernel) (by decide)) XK).trans
    (Eq.trans ?_ (at_binary rWAF rNDF 416 (y := Cert.ReferenceIdeal.main_v277) ((rAt_6 18 (by decide)).trans rfl) (by decide +kernel) (not_mem_drop_of_lt rNDF (j := 414) (by decide +kernel) (by decide)) (not_mem_drop_of_lt rNDF (j := 415) (by decide +kernel) (by decide)) XR).symm)
  rw [e393 H, e394 H]
  all_goals rfl

theorem e396 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_89) = after rOpsF XR (Proc.devRef .tc Cert.ReferenceIdeal.main_c_95) := by
  refine (at_nullary kWA kND 396 (y := Cert.KernelIdeal.main_c_89) ((kAt_39 3 (by decide)).trans rfl) (by decide +kernel) XK).trans
    (Eq.trans ?_ (at_nullary rWAF rNDF 417 (y := Cert.ReferenceIdeal.main_c_95) ((rAt_6 19 (by decide)).trans rfl) (by decide +kernel) XR).symm)
  rfl

theorem e397 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v267) = after rOpsF XR (Proc.devRef .tc Cert.ReferenceIdeal.main_v278) := by
  refine (at_unary kWA kND 397 (y := Cert.KernelIdeal.main_v267) ((kAt_39 4 (by decide)).trans rfl) (by decide +kernel) (not_mem_drop_of_lt kND (j := 396) (by decide +kernel) (by decide)) XK).trans
    (Eq.trans ?_ (at_unary rWAF rNDF 418 (y := Cert.ReferenceIdeal.main_v278) ((rAt_6 20 (by decide)).trans rfl) (by decide +kernel) (not_mem_drop_of_lt rNDF (j := 417) (by decide +kernel) (by decide)) XR).symm)
  rw [e396 H]
  all_goals rfl

theorem e398 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v268) = after rOpsF XR (Proc.devRef .tc Cert.ReferenceIdeal.main_v279) := by
  refine (at_binary kWA kND 398 (y := Cert.KernelIdeal.main_v268) ((kAt_39 5 (by decide)).trans rfl) (by decide +kernel) (not_mem_drop_of_lt kND (j := 395) (by decide +kernel) (by decide)) (not_mem_drop_of_lt kND (j := 397) (by decide +kernel) (by decide)) XK).trans
    (Eq.trans ?_ (at_binary rWAF rNDF 419 (y := Cert.ReferenceIdeal.main_v279) ((rAt_6 21 (by decide)).trans rfl) (by decide +kernel) (not_mem_drop_of_lt rNDF (j := 416) (by decide +kernel) (by decide)) (not_mem_drop_of_lt rNDF (j := 418) (by decide +kernel) (by decide)) XR).symm)
  rw [e395 H, e397 H]
  all_goals rfl

theorem e399 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_90) = after rOpsF XR (Proc.devRef .tc Cert.ReferenceIdeal.main_cst_96) := by
  refine (at_nullary kWA kND 399 (y := Cert.KernelIdeal.main_cst_90) ((kAt_39 6 (by decide)).trans rfl) (by decide +kernel) XK).trans
    (Eq.trans ?_ (at_nullary rWAF rNDF 420 (y := Cert.ReferenceIdeal.main_cst_96) ((rAt_6 22 (by decide)).trans rfl) (by decide +kernel) XR).symm)
  rfl

theorem e400 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call20_v0) = after rOpsF XR (Proc.devRef .tc Cert.ReferenceIdeal.main_call20_v0) := by
  refine (at_unary kWA kND 400 (y := Cert.KernelIdeal.main_call20_v0) ((kAt_40 0 (by decide)).trans rfl) (by decide +kernel) (not_mem_drop_of_lt kND (j := 399) (by decide +kernel) (by decide)) XK).trans
    (Eq.trans ?_ (at_unary rWAF rNDF 421 (y := Cert.ReferenceIdeal.main_call20_v0) ((rAt_6 23 (by decide)).trans rfl) (by decide +kernel) (not_mem_drop_of_lt rNDF (j := 420) (by decide +kernel) (by decide)) XR).symm)
  rw [e399 H]
  all_goals rfl

theorem e401 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call20_v1) = after rOpsF XR (Proc.devRef .tc Cert.ReferenceIdeal.main_call20_v1) := by
  refine (at_unary kWA kND 401 (y := Cert.KernelIdeal.main_call20_v1) ((kAt_40 1 (by decide)).trans rfl) (by decide +kernel) (not_mem_drop_of_lt kND (j := 400) (by decide +kernel) (by decide)) XK).trans
    (Eq.trans ?_ (at_unary rWAF rNDF 422 (y := Cert.ReferenceIdeal.main_call20_v1) ((rAt_6 24 (by decide)).trans rfl) (by decide +kernel) (not_mem_drop_of_lt rNDF (j := 421) (by decide +kernel) (by decide)) XR).symm)
  rw [e400 H]
  all_goals rfl

theorem e402 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v269) = after rOpsF XR (Proc.devRef .tc Cert.ReferenceIdeal.main_v280) := by
  refine (at_ternary kWA kND 402 (y := Cert.KernelIdeal.main_v269) ((kAt_40 2 (by decide)).trans rfl) (by decide +kernel) (not_mem_drop_of_lt kND (j := 107) (by decide +kernel) (by decide)) (not_mem_drop_of_lt kND (j := 67) (by decide +kernel) (by decide)) (not_mem_drop_of_lt kND (j := 401) (by decide +kernel) (by decide)) XK).trans
    (Eq.trans ?_ (at_ternary rWAF rNDF 423 (y := Cert.ReferenceIdeal.main_v280) ((rAt_6 25 (by decide)).trans rfl) (by decide +kernel) (not_mem_drop_of_lt rNDF (j := 128) (by decide +kernel) (by decide)) (not_mem_drop_of_lt rNDF (j := 88) (by decide +kernel) (by decide)) (not_mem_drop_of_lt rNDF (j := 422) (by decide +kernel) (by decide)) XR).symm)
  rw [e107 H, e67 H, e401 H]
  all_goals rfl

theorem e403 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_91) = after rOpsF XR (Proc.devRef .tc Cert.ReferenceIdeal.main_cst_97) := by
  refine (at_nullary kWA kND 403 (y := Cert.KernelIdeal.main_cst_91) ((kAt_41 0 (by decide)).trans rfl) (by decide +kernel) XK).trans
    (Eq.trans ?_ (at_nullary rWAF rNDF 424 (y := Cert.ReferenceIdeal.main_cst_97) ((rAt_6 26 (by decide)).trans rfl) (by decide +kernel) XR).symm)
  rfl

theorem e404 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v270) = after rOpsF XR (Proc.devRef .tc Cert.ReferenceIdeal.main_v281) := by
  refine (at_binary kWA kND 404 (y := Cert.KernelIdeal.main_v270) ((kAt_41 1 (by decide)).trans rfl) (by decide +kernel) (not_mem_drop_of_lt kND (j := 402) (by decide +kernel) (by decide)) (not_mem_drop_of_lt kND (j := 403) (by decide +kernel) (by decide)) XK).trans
    (Eq.trans ?_ (at_binary rWAF rNDF 425 (y := Cert.ReferenceIdeal.main_v281) ((rAt_6 27 (by decide)).trans rfl) (by decide +kernel) (not_mem_drop_of_lt rNDF (j := 423) (by decide +kernel) (by decide)) (not_mem_drop_of_lt rNDF (j := 424) (by decide +kernel) (by decide)) XR).symm)
  rw [e402 H, e403 H]
  all_goals rfl

theorem e405 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_92) = after rOpsF XR (Proc.devRef .tc Cert.ReferenceIdeal.main_c_98) := by
  refine (at_nullary kWA kND 405 (y := Cert.KernelIdeal.main_c_92) ((kAt_41 2 (by decide)).trans rfl) (by decide +kernel) XK).trans
    (Eq.trans ?_ (at_nullary rWAF rNDF 426 (y := Cert.ReferenceIdeal.main_c_98) ((rAt_6 28 (by decide)).trans rfl) (by decide +kernel) XR).symm)
  rfl

theorem e406 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v271) = after rOpsF XR (Proc.devRef .tc Cert.ReferenceIdeal.main_v282) := by
  refine (at_unary kWA kND 406 (y := Cert.KernelIdeal.main_v271) ((kAt_41 3 (by decide)).trans rfl) (by decide +kernel) (not_mem_drop_of_lt kND (j := 405) (by decide +kernel) (by decide)) XK).trans
    (Eq.trans ?_ (at_unary rWAF rNDF 427 (y := Cert.ReferenceIdeal.main_v282) ((rAt_6 29 (by decide)).trans rfl) (by decide +kernel) (not_mem_drop_of_lt rNDF (j := 426) (by decide +kernel) (by decide)) XR).symm)
  rw [e405 H]
  all_goals rfl

theorem e407 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v272) = after rOpsF XR (Proc.devRef .tc Cert.ReferenceIdeal.main_v283) := by
  refine (at_binary kWA kND 407 (y := Cert.KernelIdeal.main_v272) ((kAt_41 4 (by decide)).trans rfl) (by decide +kernel) (not_mem_drop_of_lt kND (j := 395) (by decide +kernel) (by decide)) (not_mem_drop_of_lt kND (j := 406) (by decide +kernel) (by decide)) XK).trans
    (Eq.trans ?_ (at_binary rWAF rNDF 428 (y := Cert.ReferenceIdeal.main_v283) ((rAt_6 30 (by decide)).trans rfl) (by decide +kernel) (not_mem_drop_of_lt rNDF (j := 416) (by decide +kernel) (by decide)) (not_mem_drop_of_lt rNDF (j := 427) (by decide +kernel) (by decide)) XR).symm)
  rw [e395 H, e406 H]
  all_goals rfl

theorem e408 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v273) = after rOpsF XR (Proc.devRef .tc Cert.ReferenceIdeal.main_v284) := by
  refine (at_unary kWA kND 408 (y := Cert.KernelIdeal.main_v273) ((kAt_41 5 (by decide)).trans rfl) (by decide +kernel) (not_mem_drop_of_lt kND (j := 407) (by decide +kernel) (by decide)) XK).trans
    (Eq.trans ?_ (at_unary rWAF rNDF 429 (y := Cert.ReferenceIdeal.main_v284) ((rAt_6 31 (by decide)).trans rfl) (by decide +kernel) (not_mem_drop_of_lt rNDF (j := 428) (by decide +kernel) (by decide)) XR).symm)
  rw [e407 H]
  all_goals rfl

theorem e409 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v274) = after rOpsF XR (Proc.devRef .tc Cert.ReferenceIdeal.main_v285) := by
  refine (at_binary kWA kND 409 (y := Cert.KernelIdeal.main_v274) ((kAt_41 6 (by decide)).trans rfl) (by decide +kernel) (not_mem_drop_of_lt kND (j := 404) (by decide +kernel) (by decide)) (not_mem_drop_of_lt kND (j := 408) (by decide +kernel) (by decide)) XK).trans
    (Eq.trans ?_ (at_binary rWAF rNDF 430 (y := Cert.ReferenceIdeal.main_v285) ((rAt_6 32 (by decide)).trans rfl) (by decide +kernel) (not_mem_drop_of_lt rNDF (j := 425) (by decide +kernel) (by decide)) (not_mem_drop_of_lt rNDF (j := 429) (by decide +kernel) (by decide)) XR).symm)
  rw [e404 H, e408 H]
  all_goals rfl

theorem e410 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_93) = after rOpsF XR (Proc.devRef .tc Cert.ReferenceIdeal.main_cst_99) := by
  refine (at_nullary kWA kND 410 (y := Cert.KernelIdeal.main_cst_93) ((kAt_41 7 (by decide)).trans rfl) (by decide +kernel) XK).trans
    (Eq.trans ?_ (at_nullary rWAF rNDF 431 (y := Cert.ReferenceIdeal.main_cst_99) ((rAt_6 33 (by decide)).trans rfl) (by decide +kernel) XR).symm)
  rfl

theorem e411 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call21_v0) = after rOpsF XR (Proc.devRef .tc Cert.ReferenceIdeal.main_call21_v0) := by
  refine (at_unary kWA kND 411 (y := Cert.KernelIdeal.main_call21_v0) ((kAt_42 0 (by decide)).trans rfl) (by decide +kernel) (not_mem_drop_of_lt kND (j := 410) (by decide +kernel) (by decide)) XK).trans
    (Eq.trans ?_ (at_unary rWAF rNDF 432 (y := Cert.ReferenceIdeal.main_call21_v0) ((rAt_6 34 (by decide)).trans rfl) (by decide +kernel) (not_mem_drop_of_lt rNDF (j := 431) (by decide +kernel) (by decide)) XR).symm)
  rw [e410 H]
  all_goals rfl

theorem e412 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call21_v1) = after rOpsF XR (Proc.devRef .tc Cert.ReferenceIdeal.main_call21_v1) := by
  refine (at_unary kWA kND 412 (y := Cert.KernelIdeal.main_call21_v1) ((kAt_42 1 (by decide)).trans rfl) (by decide +kernel) (not_mem_drop_of_lt kND (j := 411) (by decide +kernel) (by decide)) XK).trans
    (Eq.trans ?_ (at_unary rWAF rNDF 433 (y := Cert.ReferenceIdeal.main_call21_v1) ((rAt_6 35 (by decide)).trans rfl) (by decide +kernel) (not_mem_drop_of_lt rNDF (j := 432) (by decide +kernel) (by decide)) XR).symm)
  rw [e411 H]
  all_goals rfl

theorem e413 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v275) = after rOpsF XR (Proc.devRef .tc Cert.ReferenceIdeal.main_v286) := by
  refine (at_ternary kWA kND 413 (y := Cert.KernelIdeal.main_v275) ((kAt_42 2 (by decide)).trans rfl) (by decide +kernel) (not_mem_drop_of_lt kND (j := 398) (by decide +kernel) (by decide)) (not_mem_drop_of_lt kND (j := 409) (by decide +kernel) (by decide)) (not_mem_drop_of_lt kND (j := 412) (by decide +kernel) (by decide)) XK).trans
    (Eq.trans ?_ (at_ternary rWAF rNDF 434 (y := Cert.ReferenceIdeal.main_v286) ((rAt_6 36 (by decide)).trans rfl) (by decide +kernel) (not_mem_drop_of_lt rNDF (j := 419) (by decide +kernel) (by decide)) (not_mem_drop_of_lt rNDF (j := 430) (by decide +kernel) (by decide)) (not_mem_drop_of_lt rNDF (j := 433) (by decide +kernel) (by decide)) XR).symm)
  rw [e398 H, e409 H, e412 H]
  all_goals rfl

theorem e414 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v276) = after rOpsF XR (Proc.devRef .tc Cert.ReferenceIdeal.main_v287) := by
  refine (at_unary kWA kND 414 (y := Cert.KernelIdeal.main_v276) ((kAt_43 0 (by decide)).trans rfl) (by decide +kernel) (not_mem_drop_of_lt kND (j := 392) (by decide +kernel) (by decide)) XK).trans
    (Eq.trans ?_ (at_unary rWAF rNDF 435 (y := Cert.ReferenceIdeal.main_v287) ((rAt_6 37 (by decide)).trans rfl) (by decide +kernel) (not_mem_drop_of_lt rNDF (j := 413) (by decide +kernel) (by decide)) XR).symm)
  rw [e392 H]
  all_goals rfl

theorem e415 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v277) = after rOpsF XR (Proc.devRef .tc Cert.ReferenceIdeal.main_v288) := by
  refine (at_unary kWA kND 415 (y := Cert.KernelIdeal.main_v277) ((kAt_43 1 (by decide)).trans rfl) (by decide +kernel) (not_mem_drop_of_lt kND (j := 413) (by decide +kernel) (by decide)) XK).trans
    (Eq.trans ?_ (at_unary rWAF rNDF 436 (y := Cert.ReferenceIdeal.main_v288) ((rAt_6 38 (by decide)).trans rfl) (by decide +kernel) (not_mem_drop_of_lt rNDF (j := 434) (by decide +kernel) (by decide)) XR).symm)
  rw [e413 H]
  all_goals rfl

theorem e416 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v278) = after rOpsF XR (Proc.devRef .tc Cert.ReferenceIdeal.main_v289) := by
  refine (at_binary kWA kND 416 (y := Cert.KernelIdeal.main_v278) ((kAt_43 2 (by decide)).trans rfl) (by decide +kernel) (not_mem_drop_of_lt kND (j := 414) (by decide +kernel) (by decide)) (not_mem_drop_of_lt kND (j := 415) (by decide +kernel) (by decide)) XK).trans
    (Eq.trans ?_ (at_binary rWAF rNDF 437 (y := Cert.ReferenceIdeal.main_v289) ((rAt_6 39 (by decide)).trans rfl) (by decide +kernel) (not_mem_drop_of_lt rNDF (j := 435) (by decide +kernel) (by decide)) (not_mem_drop_of_lt rNDF (j := 436) (by decide +kernel) (by decide)) XR).symm)
  rw [e414 H, e415 H]
  all_goals rfl

theorem e417 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v279) = after rOpsF XR (Proc.devRef .tc Cert.ReferenceIdeal.main_v290) := by
  refine (at_unary kWA kND 417 (y := Cert.KernelIdeal.main_v279) ((kAt_43 3 (by decide)).trans rfl) (by decide +kernel) (not_mem_drop_of_lt kND (j := 148) (by decide +kernel) (by decide)) XK).trans
    (Eq.trans ?_ (at_unary rWAF rNDF 438 (y := Cert.ReferenceIdeal.main_v290) ((rAt_6 40 (by decide)).trans rfl) (by decide +kernel) (not_mem_drop_of_lt rNDF (j := 169) (by decide +kernel) (by decide)) XR).symm)
  rw [e148 H]
  all_goals rfl

theorem e418 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v280) = after rOpsF XR (Proc.devRef .tc Cert.ReferenceIdeal.main_v291) := by
  refine (at_unary kWA kND 418 (y := Cert.KernelIdeal.main_v280) ((kAt_43 4 (by decide)).trans rfl) (by decide +kernel) (not_mem_drop_of_lt kND (j := 151) (by decide +kernel) (by decide)) XK).trans
    (Eq.trans ?_ (at_unary rWAF rNDF 439 (y := Cert.ReferenceIdeal.main_v291) ((rAt_6 41 (by decide)).trans rfl) (by decide +kernel) (not_mem_drop_of_lt rNDF (j := 172) (by decide +kernel) (by decide)) XR).symm)
  rw [e151 H]
  all_goals rfl

theorem e419 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v281) = after rOpsF XR (Proc.devRef .tc Cert.ReferenceIdeal.main_v292) := by
  refine (at_binary kWA kND 419 (y := Cert.KernelIdeal.main_v281) ((kAt_43 5 (by decide)).trans rfl) (by decide +kernel) (not_mem_drop_of_lt kND (j := 417) (by decide +kernel) (by decide)) (not_mem_drop_of_lt kND (j := 418) (by decide +kernel) (by decide)) XK).trans
    (Eq.trans ?_ (at_binary rWAF rNDF 440 (y := Cert.ReferenceIdeal.main_v292) ((rAt_6 42 (by decide)).trans rfl) (by decide +kernel) (not_mem_drop_of_lt rNDF (j := 438) (by decide +kernel) (by decide)) (not_mem_drop_of_lt rNDF (j := 439) (by decide +kernel) (by decide)) XR).symm)
  rw [e417 H, e418 H]
  all_goals rfl

theorem e420 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v282) = after rOpsF XR (Proc.devRef .tc Cert.ReferenceIdeal.main_v293) := by
  refine (at_unary kWA kND 420 (y := Cert.KernelIdeal.main_v282) ((kAt_43 6 (by decide)).trans rfl) (by decide +kernel) (not_mem_drop_of_lt kND (j := 419) (by decide +kernel) (by decide)) XK).trans
    (Eq.trans ?_ (at_unary rWAF rNDF 441 (y := Cert.ReferenceIdeal.main_v293) ((rAt_6 43 (by decide)).trans rfl) (by decide +kernel) (not_mem_drop_of_lt rNDF (j := 440) (by decide +kernel) (by decide)) XR).symm)
  rw [e419 H]
  all_goals rfl

theorem e421 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_94) = after rOpsF XR (Proc.devRef .tc Cert.ReferenceIdeal.main_cst_100) := by
  refine (at_nullary kWA kND 421 (y := Cert.KernelIdeal.main_cst_94) ((kAt_43 7 (by decide)).trans rfl) (by decide +kernel) XK).trans
    (Eq.trans ?_ (at_nullary rWAF rNDF 442 (y := Cert.ReferenceIdeal.main_cst_100) ((rAt_6 44 (by decide)).trans rfl) (by decide +kernel) XR).symm)
  rfl

theorem e422 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v283) = after rOpsF XR (Proc.devRef .tc Cert.ReferenceIdeal.main_v294) := by
  refine (at_binary kWA kND 422 (y := Cert.KernelIdeal.main_v283) ((kAt_43 8 (by decide)).trans rfl) (by decide +kernel) (not_mem_drop_of_lt kND (j := 420) (by decide +kernel) (by decide)) (not_mem_drop_of_lt kND (j := 421) (by decide +kernel) (by decide)) XK).trans
    (Eq.trans ?_ (at_binary rWAF rNDF 443 (y := Cert.ReferenceIdeal.main_v294) ((rAt_6 45 (by decide)).trans rfl) (by decide +kernel) (not_mem_drop_of_lt rNDF (j := 441) (by decide +kernel) (by decide)) (not_mem_drop_of_lt rNDF (j := 442) (by decide +kernel) (by decide)) XR).symm)
  rw [e420 H, e421 H]
  all_goals rfl

theorem e423 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_95) = after rOpsF XR (Proc.devRef .tc Cert.ReferenceIdeal.main_cst_101) := by
  refine (at_nullary kWA kND 423 (y := Cert.KernelIdeal.main_cst_95) ((kAt_43 9 (by decide)).trans rfl) (by decide +kernel) XK).trans
    (Eq.trans ?_ (at_nullary rWAF rNDF 444 (y := Cert.ReferenceIdeal.main_cst_101) ((rAt_6 46 (by decide)).trans rfl) (by decide +kernel) XR).symm)
  rfl

end Cert.Bridge

end
-- ==== Proof.Pairs04.lean ====
/-
  Operations 424 … 529 of the shared line: each pair of corresponding results agrees, because the two
  operations are one function and their operands agree (earlier equations, or the starting agreement).
-/
import proofs.«169849_j71803263254994_1_alg».proof.Proof.Pairs03

set_option maxRecDepth 16384
set_option maxHeartbeats 2000000

noncomputable section

namespace Cert.Bridge

open Idealize.ShloMosaic Idealize.SL.Sem Idealize.ShloMosaic.StableHlo Idealize.ShloMosaic.StableHlo.Line
open Cert.KernelIdeal.Tab Cert.ReferenceIdeal.Hand

variable {F : FTy → Type} [FloatOps F]

theorem e424 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v284) = after rOpsF XR (Proc.devRef .tc Cert.ReferenceIdeal.main_v295) := by
  refine (at_binary kWA kND 424 (y := Cert.KernelIdeal.main_v284) ((kAt_43 10 (by decide)).trans rfl) (by decide +kernel) (not_mem_drop_of_lt kND (j := 422) (by decide +kernel) (by decide)) (not_mem_drop_of_lt kND (j := 423) (by decide +kernel) (by decide)) XK).trans
    (Eq.trans ?_ (at_binary rWAF rNDF 445 (y := Cert.ReferenceIdeal.main_v295) ((rAt_6 47 (by decide)).trans rfl) (by decide +kernel) (not_mem_drop_of_lt rNDF (j := 443) (by decide +kernel) (by decide)) (not_mem_drop_of_lt rNDF (j := 444) (by decide +kernel) (by decide)) XR).symm)
  rw [e422 H, e423 H]
  all_goals rfl

theorem e425 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v285) = after rOpsF XR (Proc.devRef .tc Cert.ReferenceIdeal.main_v296) := by
  refine (at_binary kWA kND 425 (y := Cert.KernelIdeal.main_v285) ((kAt_43 11 (by decide)).trans rfl) (by decide +kernel) (not_mem_drop_of_lt kND (j := 416) (by decide +kernel) (by decide)) (not_mem_drop_of_lt kND (j := 420) (by decide +kernel) (by decide)) XK).trans
    (Eq.trans ?_ (at_binary rWAF rNDF 446 (y := Cert.ReferenceIdeal.main_v296) ((rAt_6 48 (by decide)).trans rfl) (by decide +kernel) (not_mem_drop_of_lt rNDF (j := 437) (by decide +kernel) (by decide)) (not_mem_drop_of_lt rNDF (j := 441) (by decide +kernel) (by decide)) XR).symm)
  rw [e416 H, e420 H]
  all_goals rfl

theorem e426 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_96) = after rOpsF XR (Proc.devRef .tc Cert.ReferenceIdeal.main_cst_102) := by
  refine (at_nullary kWA kND 426 (y := Cert.KernelIdeal.main_cst_96) ((kAt_43 12 (by decide)).trans rfl) (by decide +kernel) XK).trans
    (Eq.trans ?_ (at_nullary rWAF rNDF 447 (y := Cert.ReferenceIdeal.main_cst_102) ((rAt_6 49 (by decide)).trans rfl) (by decide +kernel) XR).symm)
  rfl

theorem e427 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v286) = after rOpsF XR (Proc.devRef .tc Cert.ReferenceIdeal.main_v297) := by
  refine (at_binary kWA kND 427 (y := Cert.KernelIdeal.main_v286) ((kAt_43 13 (by decide)).trans rfl) (by decide +kernel) (not_mem_drop_of_lt kND (j := 425) (by decide +kernel) (by decide)) (not_mem_drop_of_lt kND (j := 426) (by decide +kernel) (by decide)) XK).trans
    (Eq.trans ?_ (at_binary rWAF rNDF 448 (y := Cert.ReferenceIdeal.main_v297) ((rAt_6 50 (by decide)).trans rfl) (by decide +kernel) (not_mem_drop_of_lt rNDF (j := 446) (by decide +kernel) (by decide)) (not_mem_drop_of_lt rNDF (j := 447) (by decide +kernel) (by decide)) XR).symm)
  rw [e425 H, e426 H]
  all_goals rfl

theorem e428 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_97) = after rOpsF XR (Proc.devRef .tc Cert.ReferenceIdeal.main_cst_103) := by
  refine (at_nullary kWA kND 428 (y := Cert.KernelIdeal.main_cst_97) ((kAt_43 14 (by decide)).trans rfl) (by decide +kernel) XK).trans
    (Eq.trans ?_ (at_nullary rWAF rNDF 449 (y := Cert.ReferenceIdeal.main_cst_103) ((rAt_6 51 (by decide)).trans rfl) (by decide +kernel) XR).symm)
  rfl

theorem e429 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v287) = after rOpsF XR (Proc.devRef .tc Cert.ReferenceIdeal.main_v298) := by
  refine (at_binary kWA kND 429 (y := Cert.KernelIdeal.main_v287) ((kAt_43 15 (by decide)).trans rfl) (by decide +kernel) (not_mem_drop_of_lt kND (j := 422) (by decide +kernel) (by decide)) (not_mem_drop_of_lt kND (j := 428) (by decide +kernel) (by decide)) XK).trans
    (Eq.trans ?_ (at_binary rWAF rNDF 450 (y := Cert.ReferenceIdeal.main_v298) ((rAt_6 52 (by decide)).trans rfl) (by decide +kernel) (not_mem_drop_of_lt rNDF (j := 443) (by decide +kernel) (by decide)) (not_mem_drop_of_lt rNDF (j := 449) (by decide +kernel) (by decide)) XR).symm)
  rw [e422 H, e428 H]
  all_goals rfl

theorem e430 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v288) = after rOpsF XR (Proc.devRef .tc Cert.ReferenceIdeal.main_v299) := by
  refine (at_binary kWA kND 430 (y := Cert.KernelIdeal.main_v288) ((kAt_43 16 (by decide)).trans rfl) (by decide +kernel) (not_mem_drop_of_lt kND (j := 427) (by decide +kernel) (by decide)) (not_mem_drop_of_lt kND (j := 429) (by decide +kernel) (by decide)) XK).trans
    (Eq.trans ?_ (at_binary rWAF rNDF 451 (y := Cert.ReferenceIdeal.main_v299) ((rAt_6 53 (by decide)).trans rfl) (by decide +kernel) (not_mem_drop_of_lt rNDF (j := 448) (by decide +kernel) (by decide)) (not_mem_drop_of_lt rNDF (j := 450) (by decide +kernel) (by decide)) XR).symm)
  rw [e427 H, e429 H]
  all_goals rfl

theorem e431 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_98) = after rOpsF XR (Proc.devRef .tc Cert.ReferenceIdeal.main_cst_104) := by
  refine (at_nullary kWA kND 431 (y := Cert.KernelIdeal.main_cst_98) ((kAt_43 17 (by decide)).trans rfl) (by decide +kernel) XK).trans
    (Eq.trans ?_ (at_nullary rWAF rNDF 452 (y := Cert.ReferenceIdeal.main_cst_104) ((rAt_6 54 (by decide)).trans rfl) (by decide +kernel) XR).symm)
  rfl

theorem e432 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call22_v0) = after rOpsF XR (Proc.devRef .tc Cert.ReferenceIdeal.main_call22_v0) := by
  refine (at_unary kWA kND 432 (y := Cert.KernelIdeal.main_call22_v0) ((kAt_44 0 (by decide)).trans rfl) (by decide +kernel) (not_mem_drop_of_lt kND (j := 431) (by decide +kernel) (by decide)) XK).trans
    (Eq.trans ?_ (at_unary rWAF rNDF 453 (y := Cert.ReferenceIdeal.main_call22_v0) ((rAt_6 55 (by decide)).trans rfl) (by decide +kernel) (not_mem_drop_of_lt rNDF (j := 452) (by decide +kernel) (by decide)) XR).symm)
  rw [e431 H]
  all_goals rfl

theorem e433 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v289) = after rOpsF XR (Proc.devRef .tc Cert.ReferenceIdeal.main_v300) := by
  refine (at_ternary kWA kND 433 (y := Cert.KernelIdeal.main_v289) ((kAt_44 1 (by decide)).trans rfl) (by decide +kernel) (not_mem_drop_of_lt kND (j := 424) (by decide +kernel) (by decide)) (not_mem_drop_of_lt kND (j := 430) (by decide +kernel) (by decide)) (not_mem_drop_of_lt kND (j := 432) (by decide +kernel) (by decide)) XK).trans
    (Eq.trans ?_ (at_ternary rWAF rNDF 454 (y := Cert.ReferenceIdeal.main_v300) ((rAt_6 56 (by decide)).trans rfl) (by decide +kernel) (not_mem_drop_of_lt rNDF (j := 445) (by decide +kernel) (by decide)) (not_mem_drop_of_lt rNDF (j := 451) (by decide +kernel) (by decide)) (not_mem_drop_of_lt rNDF (j := 453) (by decide +kernel) (by decide)) XR).symm)
  rw [e424 H, e430 H, e432 H]
  all_goals rfl

theorem e434 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v290) = after rOpsF XR (Proc.devRef .tc Cert.ReferenceIdeal.main_v301) := by
  refine (at_unary kWA kND 434 (y := Cert.KernelIdeal.main_v290) ((kAt_45 0 (by decide)).trans rfl) (by decide +kernel) (not_mem_drop_of_lt kND (j := 87) (by decide +kernel) (by decide)) XK).trans
    (Eq.trans ?_ (at_unary rWAF rNDF 455 (y := Cert.ReferenceIdeal.main_v301) ((rAt_6 57 (by decide)).trans rfl) (by decide +kernel) (not_mem_drop_of_lt rNDF (j := 108) (by decide +kernel) (by decide)) XR).symm)
  rw [e87 H]
  all_goals rfl

theorem e435 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_99) = after rOpsF XR (Proc.devRef .tc Cert.ReferenceIdeal.main_c_105) := by
  refine (at_nullary kWA kND 435 (y := Cert.KernelIdeal.main_c_99) ((kAt_45 1 (by decide)).trans rfl) (by decide +kernel) XK).trans
    (Eq.trans ?_ (at_nullary rWAF rNDF 456 (y := Cert.ReferenceIdeal.main_c_105) ((rAt_6 58 (by decide)).trans rfl) (by decide +kernel) XR).symm)
  rfl

theorem e436 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v291) = after rOpsF XR (Proc.devRef .tc Cert.ReferenceIdeal.main_v302) := by
  refine (at_binary kWA kND 436 (y := Cert.KernelIdeal.main_v291) ((kAt_45 2 (by decide)).trans rfl) (by decide +kernel) (not_mem_drop_of_lt kND (j := 434) (by decide +kernel) (by decide)) (not_mem_drop_of_lt kND (j := 435) (by decide +kernel) (by decide)) XK).trans
    (Eq.trans ?_ (at_binary rWAF rNDF 457 (y := Cert.ReferenceIdeal.main_v302) ((rAt_6 59 (by decide)).trans rfl) (by decide +kernel) (not_mem_drop_of_lt rNDF (j := 455) (by decide +kernel) (by decide)) (not_mem_drop_of_lt rNDF (j := 456) (by decide +kernel) (by decide)) XR).symm)
  rw [e434 H, e435 H]
  all_goals rfl

theorem e437 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_100) = after rOpsF XR (Proc.devRef .tc Cert.ReferenceIdeal.main_c_106) := by
  refine (at_nullary kWA kND 437 (y := Cert.KernelIdeal.main_c_100) ((kAt_45 3 (by decide)).trans rfl) (by decide +kernel) XK).trans
    (Eq.trans ?_ (at_nullary rWAF rNDF 458 (y := Cert.ReferenceIdeal.main_c_106) ((rAt_6 60 (by decide)).trans rfl) (by decide +kernel) XR).symm)
  rfl

theorem e438 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v292) = after rOpsF XR (Proc.devRef .tc Cert.ReferenceIdeal.main_v303) := by
  refine (at_unary kWA kND 438 (y := Cert.KernelIdeal.main_v292) ((kAt_45 4 (by decide)).trans rfl) (by decide +kernel) (not_mem_drop_of_lt kND (j := 437) (by decide +kernel) (by decide)) XK).trans
    (Eq.trans ?_ (at_unary rWAF rNDF 459 (y := Cert.ReferenceIdeal.main_v303) ((rAt_6 61 (by decide)).trans rfl) (by decide +kernel) (not_mem_drop_of_lt rNDF (j := 458) (by decide +kernel) (by decide)) XR).symm)
  rw [e437 H]
  all_goals rfl

theorem e439 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v293) = after rOpsF XR (Proc.devRef .tc Cert.ReferenceIdeal.main_v304) := by
  refine (at_binary kWA kND 439 (y := Cert.KernelIdeal.main_v293) ((kAt_45 5 (by decide)).trans rfl) (by decide +kernel) (not_mem_drop_of_lt kND (j := 436) (by decide +kernel) (by decide)) (not_mem_drop_of_lt kND (j := 438) (by decide +kernel) (by decide)) XK).trans
    (Eq.trans ?_ (at_binary rWAF rNDF 460 (y := Cert.ReferenceIdeal.main_v304) ((rAt_6 62 (by decide)).trans rfl) (by decide +kernel) (not_mem_drop_of_lt rNDF (j := 457) (by decide +kernel) (by decide)) (not_mem_drop_of_lt rNDF (j := 459) (by decide +kernel) (by decide)) XR).symm)
  rw [e436 H, e438 H]
  all_goals rfl

theorem e440 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_101) = after rOpsF XR (Proc.devRef .tc Cert.ReferenceIdeal.main_cst_107) := by
  refine (at_nullary kWA kND 440 (y := Cert.KernelIdeal.main_cst_101) ((kAt_45 6 (by decide)).trans rfl) (by decide +kernel) XK).trans
    (Eq.trans ?_ (at_nullary rWAF rNDF 461 (y := Cert.ReferenceIdeal.main_cst_107) ((rAt_6 63 (by decide)).trans rfl) (by decide +kernel) XR).symm)
  rfl

theorem e441 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call23_v0) = after rOpsF XR (Proc.devRef .tc Cert.ReferenceIdeal.main_call23_v0) := by
  refine (at_unary kWA kND 441 (y := Cert.KernelIdeal.main_call23_v0) ((kAt_46 0 (by decide)).trans rfl) (by decide +kernel) (not_mem_drop_of_lt kND (j := 440) (by decide +kernel) (by decide)) XK).trans
    (Eq.trans ?_ (at_unary rWAF rNDF 462 (y := Cert.ReferenceIdeal.main_call23_v0) ((rAt_6 64 (by decide)).trans rfl) (by decide +kernel) (not_mem_drop_of_lt rNDF (j := 461) (by decide +kernel) (by decide)) XR).symm)
  rw [e440 H]
  all_goals rfl

theorem e442 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call23_v1) = after rOpsF XR (Proc.devRef .tc Cert.ReferenceIdeal.main_call23_v1) := by
  refine (at_unary kWA kND 442 (y := Cert.KernelIdeal.main_call23_v1) ((kAt_46 1 (by decide)).trans rfl) (by decide +kernel) (not_mem_drop_of_lt kND (j := 441) (by decide +kernel) (by decide)) XK).trans
    (Eq.trans ?_ (at_unary rWAF rNDF 463 (y := Cert.ReferenceIdeal.main_call23_v1) ((rAt_6 65 (by decide)).trans rfl) (by decide +kernel) (not_mem_drop_of_lt rNDF (j := 462) (by decide +kernel) (by decide)) XR).symm)
  rw [e441 H]
  all_goals rfl

theorem e443 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v294) = after rOpsF XR (Proc.devRef .tc Cert.ReferenceIdeal.main_v305) := by
  refine (at_ternary kWA kND 443 (y := Cert.KernelIdeal.main_v294) ((kAt_46 2 (by decide)).trans rfl) (by decide +kernel) (not_mem_drop_of_lt kND (j := 87) (by decide +kernel) (by decide)) (not_mem_drop_of_lt kND (j := 67) (by decide +kernel) (by decide)) (not_mem_drop_of_lt kND (j := 442) (by decide +kernel) (by decide)) XK).trans
    (Eq.trans ?_ (at_ternary rWAF rNDF 464 (y := Cert.ReferenceIdeal.main_v305) ((rAt_6 66 (by decide)).trans rfl) (by decide +kernel) (not_mem_drop_of_lt rNDF (j := 108) (by decide +kernel) (by decide)) (not_mem_drop_of_lt rNDF (j := 88) (by decide +kernel) (by decide)) (not_mem_drop_of_lt rNDF (j := 463) (by decide +kernel) (by decide)) XR).symm)
  rw [e87 H, e67 H, e442 H]
  all_goals rfl

theorem e444 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_102) = after rOpsF XR (Proc.devRef .tc Cert.ReferenceIdeal.main_cst_108) := by
  refine (at_nullary kWA kND 444 (y := Cert.KernelIdeal.main_cst_102) ((kAt_47 0 (by decide)).trans rfl) (by decide +kernel) XK).trans
    (Eq.trans ?_ (at_nullary rWAF rNDF 465 (y := Cert.ReferenceIdeal.main_cst_108) ((rAt_6 67 (by decide)).trans rfl) (by decide +kernel) XR).symm)
  rfl

theorem e445 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v295) = after rOpsF XR (Proc.devRef .tc Cert.ReferenceIdeal.main_v306) := by
  refine (at_binary kWA kND 445 (y := Cert.KernelIdeal.main_v295) ((kAt_47 1 (by decide)).trans rfl) (by decide +kernel) (not_mem_drop_of_lt kND (j := 443) (by decide +kernel) (by decide)) (not_mem_drop_of_lt kND (j := 444) (by decide +kernel) (by decide)) XK).trans
    (Eq.trans ?_ (at_binary rWAF rNDF 466 (y := Cert.ReferenceIdeal.main_v306) ((rAt_6 68 (by decide)).trans rfl) (by decide +kernel) (not_mem_drop_of_lt rNDF (j := 464) (by decide +kernel) (by decide)) (not_mem_drop_of_lt rNDF (j := 465) (by decide +kernel) (by decide)) XR).symm)
  rw [e443 H, e444 H]
  all_goals rfl

theorem e446 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_103) = after rOpsF XR (Proc.devRef .tc Cert.ReferenceIdeal.main_c_109) := by
  refine (at_nullary kWA kND 446 (y := Cert.KernelIdeal.main_c_103) ((kAt_47 2 (by decide)).trans rfl) (by decide +kernel) XK).trans
    (Eq.trans ?_ (at_nullary rWAF rNDF 467 (y := Cert.ReferenceIdeal.main_c_109) ((rAt_6 69 (by decide)).trans rfl) (by decide +kernel) XR).symm)
  rfl

theorem e447 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v296) = after rOpsF XR (Proc.devRef .tc Cert.ReferenceIdeal.main_v307) := by
  refine (at_unary kWA kND 447 (y := Cert.KernelIdeal.main_v296) ((kAt_47 3 (by decide)).trans rfl) (by decide +kernel) (not_mem_drop_of_lt kND (j := 446) (by decide +kernel) (by decide)) XK).trans
    (Eq.trans ?_ (at_unary rWAF rNDF 468 (y := Cert.ReferenceIdeal.main_v307) ((rAt_6 70 (by decide)).trans rfl) (by decide +kernel) (not_mem_drop_of_lt rNDF (j := 467) (by decide +kernel) (by decide)) XR).symm)
  rw [e446 H]
  all_goals rfl

theorem e448 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v297) = after rOpsF XR (Proc.devRef .tc Cert.ReferenceIdeal.main_v308) := by
  refine (at_binary kWA kND 448 (y := Cert.KernelIdeal.main_v297) ((kAt_47 4 (by decide)).trans rfl) (by decide +kernel) (not_mem_drop_of_lt kND (j := 436) (by decide +kernel) (by decide)) (not_mem_drop_of_lt kND (j := 447) (by decide +kernel) (by decide)) XK).trans
    (Eq.trans ?_ (at_binary rWAF rNDF 469 (y := Cert.ReferenceIdeal.main_v308) ((rAt_7 0 (by decide)).trans rfl) (by decide +kernel) (not_mem_drop_of_lt rNDF (j := 457) (by decide +kernel) (by decide)) (not_mem_drop_of_lt rNDF (j := 468) (by decide +kernel) (by decide)) XR).symm)
  rw [e436 H, e447 H]
  all_goals rfl

theorem e449 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v298) = after rOpsF XR (Proc.devRef .tc Cert.ReferenceIdeal.main_v309) := by
  refine (at_unary kWA kND 449 (y := Cert.KernelIdeal.main_v298) ((kAt_47 5 (by decide)).trans rfl) (by decide +kernel) (not_mem_drop_of_lt kND (j := 448) (by decide +kernel) (by decide)) XK).trans
    (Eq.trans ?_ (at_unary rWAF rNDF 470 (y := Cert.ReferenceIdeal.main_v309) ((rAt_7 1 (by decide)).trans rfl) (by decide +kernel) (not_mem_drop_of_lt rNDF (j := 469) (by decide +kernel) (by decide)) XR).symm)
  rw [e448 H]
  all_goals rfl

theorem e450 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v299) = after rOpsF XR (Proc.devRef .tc Cert.ReferenceIdeal.main_v310) := by
  refine (at_binary kWA kND 450 (y := Cert.KernelIdeal.main_v299) ((kAt_47 6 (by decide)).trans rfl) (by decide +kernel) (not_mem_drop_of_lt kND (j := 445) (by decide +kernel) (by decide)) (not_mem_drop_of_lt kND (j := 449) (by decide +kernel) (by decide)) XK).trans
    (Eq.trans ?_ (at_binary rWAF rNDF 471 (y := Cert.ReferenceIdeal.main_v310) ((rAt_7 2 (by decide)).trans rfl) (by decide +kernel) (not_mem_drop_of_lt rNDF (j := 466) (by decide +kernel) (by decide)) (not_mem_drop_of_lt rNDF (j := 470) (by decide +kernel) (by decide)) XR).symm)
  rw [e445 H, e449 H]
  all_goals rfl

theorem e451 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_104) = after rOpsF XR (Proc.devRef .tc Cert.ReferenceIdeal.main_cst_110) := by
  refine (at_nullary kWA kND 451 (y := Cert.KernelIdeal.main_cst_104) ((kAt_47 7 (by decide)).trans rfl) (by decide +kernel) XK).trans
    (Eq.trans ?_ (at_nullary rWAF rNDF 472 (y := Cert.ReferenceIdeal.main_cst_110) ((rAt_7 3 (by decide)).trans rfl) (by decide +kernel) XR).symm)
  rfl

theorem e452 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call24_v0) = after rOpsF XR (Proc.devRef .tc Cert.ReferenceIdeal.main_call24_v0) := by
  refine (at_unary kWA kND 452 (y := Cert.KernelIdeal.main_call24_v0) ((kAt_48 0 (by decide)).trans rfl) (by decide +kernel) (not_mem_drop_of_lt kND (j := 451) (by decide +kernel) (by decide)) XK).trans
    (Eq.trans ?_ (at_unary rWAF rNDF 473 (y := Cert.ReferenceIdeal.main_call24_v0) ((rAt_7 4 (by decide)).trans rfl) (by decide +kernel) (not_mem_drop_of_lt rNDF (j := 472) (by decide +kernel) (by decide)) XR).symm)
  rw [e451 H]
  all_goals rfl

theorem e453 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call24_v1) = after rOpsF XR (Proc.devRef .tc Cert.ReferenceIdeal.main_call24_v1) := by
  refine (at_unary kWA kND 453 (y := Cert.KernelIdeal.main_call24_v1) ((kAt_48 1 (by decide)).trans rfl) (by decide +kernel) (not_mem_drop_of_lt kND (j := 452) (by decide +kernel) (by decide)) XK).trans
    (Eq.trans ?_ (at_unary rWAF rNDF 474 (y := Cert.ReferenceIdeal.main_call24_v1) ((rAt_7 5 (by decide)).trans rfl) (by decide +kernel) (not_mem_drop_of_lt rNDF (j := 473) (by decide +kernel) (by decide)) XR).symm)
  rw [e452 H]
  all_goals rfl

theorem e454 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v300) = after rOpsF XR (Proc.devRef .tc Cert.ReferenceIdeal.main_v311) := by
  refine (at_ternary kWA kND 454 (y := Cert.KernelIdeal.main_v300) ((kAt_48 2 (by decide)).trans rfl) (by decide +kernel) (not_mem_drop_of_lt kND (j := 439) (by decide +kernel) (by decide)) (not_mem_drop_of_lt kND (j := 450) (by decide +kernel) (by decide)) (not_mem_drop_of_lt kND (j := 453) (by decide +kernel) (by decide)) XK).trans
    (Eq.trans ?_ (at_ternary rWAF rNDF 475 (y := Cert.ReferenceIdeal.main_v311) ((rAt_7 6 (by decide)).trans rfl) (by decide +kernel) (not_mem_drop_of_lt rNDF (j := 460) (by decide +kernel) (by decide)) (not_mem_drop_of_lt rNDF (j := 471) (by decide +kernel) (by decide)) (not_mem_drop_of_lt rNDF (j := 474) (by decide +kernel) (by decide)) XR).symm)
  rw [e439 H, e450 H, e453 H]
  all_goals rfl

theorem e455 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v301) = after rOpsF XR (Proc.devRef .tc Cert.ReferenceIdeal.main_v312) := by
  refine (at_unary kWA kND 455 (y := Cert.KernelIdeal.main_v301) ((kAt_49 0 (by decide)).trans rfl) (by decide +kernel) (not_mem_drop_of_lt kND (j := 107) (by decide +kernel) (by decide)) XK).trans
    (Eq.trans ?_ (at_unary rWAF rNDF 476 (y := Cert.ReferenceIdeal.main_v312) ((rAt_7 7 (by decide)).trans rfl) (by decide +kernel) (not_mem_drop_of_lt rNDF (j := 128) (by decide +kernel) (by decide)) XR).symm)
  rw [e107 H]
  all_goals rfl

theorem e456 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_105) = after rOpsF XR (Proc.devRef .tc Cert.ReferenceIdeal.main_c_111) := by
  refine (at_nullary kWA kND 456 (y := Cert.KernelIdeal.main_c_105) ((kAt_49 1 (by decide)).trans rfl) (by decide +kernel) XK).trans
    (Eq.trans ?_ (at_nullary rWAF rNDF 477 (y := Cert.ReferenceIdeal.main_c_111) ((rAt_7 8 (by decide)).trans rfl) (by decide +kernel) XR).symm)
  rfl

theorem e457 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v302) = after rOpsF XR (Proc.devRef .tc Cert.ReferenceIdeal.main_v313) := by
  refine (at_binary kWA kND 457 (y := Cert.KernelIdeal.main_v302) ((kAt_49 2 (by decide)).trans rfl) (by decide +kernel) (not_mem_drop_of_lt kND (j := 455) (by decide +kernel) (by decide)) (not_mem_drop_of_lt kND (j := 456) (by decide +kernel) (by decide)) XK).trans
    (Eq.trans ?_ (at_binary rWAF rNDF 478 (y := Cert.ReferenceIdeal.main_v313) ((rAt_7 9 (by decide)).trans rfl) (by decide +kernel) (not_mem_drop_of_lt rNDF (j := 476) (by decide +kernel) (by decide)) (not_mem_drop_of_lt rNDF (j := 477) (by decide +kernel) (by decide)) XR).symm)
  rw [e455 H, e456 H]
  all_goals rfl

theorem e458 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_106) = after rOpsF XR (Proc.devRef .tc Cert.ReferenceIdeal.main_c_112) := by
  refine (at_nullary kWA kND 458 (y := Cert.KernelIdeal.main_c_106) ((kAt_49 3 (by decide)).trans rfl) (by decide +kernel) XK).trans
    (Eq.trans ?_ (at_nullary rWAF rNDF 479 (y := Cert.ReferenceIdeal.main_c_112) ((rAt_7 10 (by decide)).trans rfl) (by decide +kernel) XR).symm)
  rfl

theorem e459 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v303) = after rOpsF XR (Proc.devRef .tc Cert.ReferenceIdeal.main_v314) := by
  refine (at_unary kWA kND 459 (y := Cert.KernelIdeal.main_v303) ((kAt_49 4 (by decide)).trans rfl) (by decide +kernel) (not_mem_drop_of_lt kND (j := 458) (by decide +kernel) (by decide)) XK).trans
    (Eq.trans ?_ (at_unary rWAF rNDF 480 (y := Cert.ReferenceIdeal.main_v314) ((rAt_7 11 (by decide)).trans rfl) (by decide +kernel) (not_mem_drop_of_lt rNDF (j := 479) (by decide +kernel) (by decide)) XR).symm)
  rw [e458 H]
  all_goals rfl

theorem e460 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v304) = after rOpsF XR (Proc.devRef .tc Cert.ReferenceIdeal.main_v315) := by
  refine (at_binary kWA kND 460 (y := Cert.KernelIdeal.main_v304) ((kAt_49 5 (by decide)).trans rfl) (by decide +kernel) (not_mem_drop_of_lt kND (j := 457) (by decide +kernel) (by decide)) (not_mem_drop_of_lt kND (j := 459) (by decide +kernel) (by decide)) XK).trans
    (Eq.trans ?_ (at_binary rWAF rNDF 481 (y := Cert.ReferenceIdeal.main_v315) ((rAt_7 12 (by decide)).trans rfl) (by decide +kernel) (not_mem_drop_of_lt rNDF (j := 478) (by decide +kernel) (by decide)) (not_mem_drop_of_lt rNDF (j := 480) (by decide +kernel) (by decide)) XR).symm)
  rw [e457 H, e459 H]
  all_goals rfl

theorem e461 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_107) = after rOpsF XR (Proc.devRef .tc Cert.ReferenceIdeal.main_cst_113) := by
  refine (at_nullary kWA kND 461 (y := Cert.KernelIdeal.main_cst_107) ((kAt_49 6 (by decide)).trans rfl) (by decide +kernel) XK).trans
    (Eq.trans ?_ (at_nullary rWAF rNDF 482 (y := Cert.ReferenceIdeal.main_cst_113) ((rAt_7 13 (by decide)).trans rfl) (by decide +kernel) XR).symm)
  rfl

theorem e462 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call25_v0) = after rOpsF XR (Proc.devRef .tc Cert.ReferenceIdeal.main_call25_v0) := by
  refine (at_unary kWA kND 462 (y := Cert.KernelIdeal.main_call25_v0) ((kAt_50 0 (by decide)).trans rfl) (by decide +kernel) (not_mem_drop_of_lt kND (j := 461) (by decide +kernel) (by decide)) XK).trans
    (Eq.trans ?_ (at_unary rWAF rNDF 483 (y := Cert.ReferenceIdeal.main_call25_v0) ((rAt_7 14 (by decide)).trans rfl) (by decide +kernel) (not_mem_drop_of_lt rNDF (j := 482) (by decide +kernel) (by decide)) XR).symm)
  rw [e461 H]
  all_goals rfl

theorem e463 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call25_v1) = after rOpsF XR (Proc.devRef .tc Cert.ReferenceIdeal.main_call25_v1) := by
  refine (at_unary kWA kND 463 (y := Cert.KernelIdeal.main_call25_v1) ((kAt_50 1 (by decide)).trans rfl) (by decide +kernel) (not_mem_drop_of_lt kND (j := 462) (by decide +kernel) (by decide)) XK).trans
    (Eq.trans ?_ (at_unary rWAF rNDF 484 (y := Cert.ReferenceIdeal.main_call25_v1) ((rAt_7 15 (by decide)).trans rfl) (by decide +kernel) (not_mem_drop_of_lt rNDF (j := 483) (by decide +kernel) (by decide)) XR).symm)
  rw [e462 H]
  all_goals rfl

theorem e464 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v305) = after rOpsF XR (Proc.devRef .tc Cert.ReferenceIdeal.main_v316) := by
  refine (at_ternary kWA kND 464 (y := Cert.KernelIdeal.main_v305) ((kAt_50 2 (by decide)).trans rfl) (by decide +kernel) (not_mem_drop_of_lt kND (j := 107) (by decide +kernel) (by decide)) (not_mem_drop_of_lt kND (j := 54) (by decide +kernel) (by decide)) (not_mem_drop_of_lt kND (j := 463) (by decide +kernel) (by decide)) XK).trans
    (Eq.trans ?_ (at_ternary rWAF rNDF 485 (y := Cert.ReferenceIdeal.main_v316) ((rAt_7 16 (by decide)).trans rfl) (by decide +kernel) (not_mem_drop_of_lt rNDF (j := 128) (by decide +kernel) (by decide)) (not_mem_drop_of_lt rNDF (j := 75) (by decide +kernel) (by decide)) (not_mem_drop_of_lt rNDF (j := 484) (by decide +kernel) (by decide)) XR).symm)
  rw [e107 H, e54 H, e463 H]
  all_goals rfl

theorem e465 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_108) = after rOpsF XR (Proc.devRef .tc Cert.ReferenceIdeal.main_cst_114) := by
  refine (at_nullary kWA kND 465 (y := Cert.KernelIdeal.main_cst_108) ((kAt_51 0 (by decide)).trans rfl) (by decide +kernel) XK).trans
    (Eq.trans ?_ (at_nullary rWAF rNDF 486 (y := Cert.ReferenceIdeal.main_cst_114) ((rAt_7 17 (by decide)).trans rfl) (by decide +kernel) XR).symm)
  rfl

theorem e466 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v306) = after rOpsF XR (Proc.devRef .tc Cert.ReferenceIdeal.main_v317) := by
  refine (at_binary kWA kND 466 (y := Cert.KernelIdeal.main_v306) ((kAt_51 1 (by decide)).trans rfl) (by decide +kernel) (not_mem_drop_of_lt kND (j := 464) (by decide +kernel) (by decide)) (not_mem_drop_of_lt kND (j := 465) (by decide +kernel) (by decide)) XK).trans
    (Eq.trans ?_ (at_binary rWAF rNDF 487 (y := Cert.ReferenceIdeal.main_v317) ((rAt_7 18 (by decide)).trans rfl) (by decide +kernel) (not_mem_drop_of_lt rNDF (j := 485) (by decide +kernel) (by decide)) (not_mem_drop_of_lt rNDF (j := 486) (by decide +kernel) (by decide)) XR).symm)
  rw [e464 H, e465 H]
  all_goals rfl

theorem e467 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_109) = after rOpsF XR (Proc.devRef .tc Cert.ReferenceIdeal.main_c_115) := by
  refine (at_nullary kWA kND 467 (y := Cert.KernelIdeal.main_c_109) ((kAt_51 2 (by decide)).trans rfl) (by decide +kernel) XK).trans
    (Eq.trans ?_ (at_nullary rWAF rNDF 488 (y := Cert.ReferenceIdeal.main_c_115) ((rAt_7 19 (by decide)).trans rfl) (by decide +kernel) XR).symm)
  rfl

theorem e468 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v307) = after rOpsF XR (Proc.devRef .tc Cert.ReferenceIdeal.main_v318) := by
  refine (at_unary kWA kND 468 (y := Cert.KernelIdeal.main_v307) ((kAt_51 3 (by decide)).trans rfl) (by decide +kernel) (not_mem_drop_of_lt kND (j := 467) (by decide +kernel) (by decide)) XK).trans
    (Eq.trans ?_ (at_unary rWAF rNDF 489 (y := Cert.ReferenceIdeal.main_v318) ((rAt_7 20 (by decide)).trans rfl) (by decide +kernel) (not_mem_drop_of_lt rNDF (j := 488) (by decide +kernel) (by decide)) XR).symm)
  rw [e467 H]
  all_goals rfl

theorem e469 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v308) = after rOpsF XR (Proc.devRef .tc Cert.ReferenceIdeal.main_v319) := by
  refine (at_binary kWA kND 469 (y := Cert.KernelIdeal.main_v308) ((kAt_51 4 (by decide)).trans rfl) (by decide +kernel) (not_mem_drop_of_lt kND (j := 457) (by decide +kernel) (by decide)) (not_mem_drop_of_lt kND (j := 468) (by decide +kernel) (by decide)) XK).trans
    (Eq.trans ?_ (at_binary rWAF rNDF 490 (y := Cert.ReferenceIdeal.main_v319) ((rAt_7 21 (by decide)).trans rfl) (by decide +kernel) (not_mem_drop_of_lt rNDF (j := 478) (by decide +kernel) (by decide)) (not_mem_drop_of_lt rNDF (j := 489) (by decide +kernel) (by decide)) XR).symm)
  rw [e457 H, e468 H]
  all_goals rfl

theorem e470 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v309) = after rOpsF XR (Proc.devRef .tc Cert.ReferenceIdeal.main_v320) := by
  refine (at_unary kWA kND 470 (y := Cert.KernelIdeal.main_v309) ((kAt_51 5 (by decide)).trans rfl) (by decide +kernel) (not_mem_drop_of_lt kND (j := 469) (by decide +kernel) (by decide)) XK).trans
    (Eq.trans ?_ (at_unary rWAF rNDF 491 (y := Cert.ReferenceIdeal.main_v320) ((rAt_7 22 (by decide)).trans rfl) (by decide +kernel) (not_mem_drop_of_lt rNDF (j := 490) (by decide +kernel) (by decide)) XR).symm)
  rw [e469 H]
  all_goals rfl

theorem e471 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v310) = after rOpsF XR (Proc.devRef .tc Cert.ReferenceIdeal.main_v321) := by
  refine (at_binary kWA kND 471 (y := Cert.KernelIdeal.main_v310) ((kAt_51 6 (by decide)).trans rfl) (by decide +kernel) (not_mem_drop_of_lt kND (j := 466) (by decide +kernel) (by decide)) (not_mem_drop_of_lt kND (j := 470) (by decide +kernel) (by decide)) XK).trans
    (Eq.trans ?_ (at_binary rWAF rNDF 492 (y := Cert.ReferenceIdeal.main_v321) ((rAt_7 23 (by decide)).trans rfl) (by decide +kernel) (not_mem_drop_of_lt rNDF (j := 487) (by decide +kernel) (by decide)) (not_mem_drop_of_lt rNDF (j := 491) (by decide +kernel) (by decide)) XR).symm)
  rw [e466 H, e470 H]
  all_goals rfl

theorem e472 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_110) = after rOpsF XR (Proc.devRef .tc Cert.ReferenceIdeal.main_cst_116) := by
  refine (at_nullary kWA kND 472 (y := Cert.KernelIdeal.main_cst_110) ((kAt_51 7 (by decide)).trans rfl) (by decide +kernel) XK).trans
    (Eq.trans ?_ (at_nullary rWAF rNDF 493 (y := Cert.ReferenceIdeal.main_cst_116) ((rAt_7 24 (by decide)).trans rfl) (by decide +kernel) XR).symm)
  rfl

theorem e473 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call26_v0) = after rOpsF XR (Proc.devRef .tc Cert.ReferenceIdeal.main_call26_v0) := by
  refine (at_unary kWA kND 473 (y := Cert.KernelIdeal.main_call26_v0) ((kAt_52 0 (by decide)).trans rfl) (by decide +kernel) (not_mem_drop_of_lt kND (j := 472) (by decide +kernel) (by decide)) XK).trans
    (Eq.trans ?_ (at_unary rWAF rNDF 494 (y := Cert.ReferenceIdeal.main_call26_v0) ((rAt_7 25 (by decide)).trans rfl) (by decide +kernel) (not_mem_drop_of_lt rNDF (j := 493) (by decide +kernel) (by decide)) XR).symm)
  rw [e472 H]
  all_goals rfl

theorem e474 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call26_v1) = after rOpsF XR (Proc.devRef .tc Cert.ReferenceIdeal.main_call26_v1) := by
  refine (at_unary kWA kND 474 (y := Cert.KernelIdeal.main_call26_v1) ((kAt_52 1 (by decide)).trans rfl) (by decide +kernel) (not_mem_drop_of_lt kND (j := 473) (by decide +kernel) (by decide)) XK).trans
    (Eq.trans ?_ (at_unary rWAF rNDF 495 (y := Cert.ReferenceIdeal.main_call26_v1) ((rAt_7 26 (by decide)).trans rfl) (by decide +kernel) (not_mem_drop_of_lt rNDF (j := 494) (by decide +kernel) (by decide)) XR).symm)
  rw [e473 H]
  all_goals rfl

theorem e475 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v311) = after rOpsF XR (Proc.devRef .tc Cert.ReferenceIdeal.main_v322) := by
  refine (at_ternary kWA kND 475 (y := Cert.KernelIdeal.main_v311) ((kAt_52 2 (by decide)).trans rfl) (by decide +kernel) (not_mem_drop_of_lt kND (j := 460) (by decide +kernel) (by decide)) (not_mem_drop_of_lt kND (j := 471) (by decide +kernel) (by decide)) (not_mem_drop_of_lt kND (j := 474) (by decide +kernel) (by decide)) XK).trans
    (Eq.trans ?_ (at_ternary rWAF rNDF 496 (y := Cert.ReferenceIdeal.main_v322) ((rAt_7 27 (by decide)).trans rfl) (by decide +kernel) (not_mem_drop_of_lt rNDF (j := 481) (by decide +kernel) (by decide)) (not_mem_drop_of_lt rNDF (j := 492) (by decide +kernel) (by decide)) (not_mem_drop_of_lt rNDF (j := 495) (by decide +kernel) (by decide)) XR).symm)
  rw [e460 H, e471 H, e474 H]
  all_goals rfl

theorem e476 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v312) = after rOpsF XR (Proc.devRef .tc Cert.ReferenceIdeal.main_v323) := by
  refine (at_unary kWA kND 476 (y := Cert.KernelIdeal.main_v312) ((kAt_53 0 (by decide)).trans rfl) (by decide +kernel) (not_mem_drop_of_lt kND (j := 454) (by decide +kernel) (by decide)) XK).trans
    (Eq.trans ?_ (at_unary rWAF rNDF 497 (y := Cert.ReferenceIdeal.main_v323) ((rAt_7 28 (by decide)).trans rfl) (by decide +kernel) (not_mem_drop_of_lt rNDF (j := 475) (by decide +kernel) (by decide)) XR).symm)
  rw [e454 H]
  all_goals rfl

theorem e477 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v313) = after rOpsF XR (Proc.devRef .tc Cert.ReferenceIdeal.main_v324) := by
  refine (at_unary kWA kND 477 (y := Cert.KernelIdeal.main_v313) ((kAt_53 1 (by decide)).trans rfl) (by decide +kernel) (not_mem_drop_of_lt kND (j := 475) (by decide +kernel) (by decide)) XK).trans
    (Eq.trans ?_ (at_unary rWAF rNDF 498 (y := Cert.ReferenceIdeal.main_v324) ((rAt_7 29 (by decide)).trans rfl) (by decide +kernel) (not_mem_drop_of_lt rNDF (j := 496) (by decide +kernel) (by decide)) XR).symm)
  rw [e475 H]
  all_goals rfl

theorem e478 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v314) = after rOpsF XR (Proc.devRef .tc Cert.ReferenceIdeal.main_v325) := by
  refine (at_binary kWA kND 478 (y := Cert.KernelIdeal.main_v314) ((kAt_53 2 (by decide)).trans rfl) (by decide +kernel) (not_mem_drop_of_lt kND (j := 476) (by decide +kernel) (by decide)) (not_mem_drop_of_lt kND (j := 477) (by decide +kernel) (by decide)) XK).trans
    (Eq.trans ?_ (at_binary rWAF rNDF 499 (y := Cert.ReferenceIdeal.main_v325) ((rAt_7 30 (by decide)).trans rfl) (by decide +kernel) (not_mem_drop_of_lt rNDF (j := 497) (by decide +kernel) (by decide)) (not_mem_drop_of_lt rNDF (j := 498) (by decide +kernel) (by decide)) XR).symm)
  rw [e476 H, e477 H]
  all_goals rfl

theorem e479 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v315) = after rOpsF XR (Proc.devRef .tc Cert.ReferenceIdeal.main_v326) := by
  refine (at_unary kWA kND 479 (y := Cert.KernelIdeal.main_v315) ((kAt_53 3 (by decide)).trans rfl) (by decide +kernel) (not_mem_drop_of_lt kND (j := 148) (by decide +kernel) (by decide)) XK).trans
    (Eq.trans ?_ (at_unary rWAF rNDF 500 (y := Cert.ReferenceIdeal.main_v326) ((rAt_7 31 (by decide)).trans rfl) (by decide +kernel) (not_mem_drop_of_lt rNDF (j := 169) (by decide +kernel) (by decide)) XR).symm)
  rw [e148 H]
  all_goals rfl

theorem e480 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v316) = after rOpsF XR (Proc.devRef .tc Cert.ReferenceIdeal.main_v327) := by
  refine (at_unary kWA kND 480 (y := Cert.KernelIdeal.main_v316) ((kAt_53 4 (by decide)).trans rfl) (by decide +kernel) (not_mem_drop_of_lt kND (j := 151) (by decide +kernel) (by decide)) XK).trans
    (Eq.trans ?_ (at_unary rWAF rNDF 501 (y := Cert.ReferenceIdeal.main_v327) ((rAt_7 32 (by decide)).trans rfl) (by decide +kernel) (not_mem_drop_of_lt rNDF (j := 172) (by decide +kernel) (by decide)) XR).symm)
  rw [e151 H]
  all_goals rfl

theorem e481 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v317) = after rOpsF XR (Proc.devRef .tc Cert.ReferenceIdeal.main_v328) := by
  refine (at_binary kWA kND 481 (y := Cert.KernelIdeal.main_v317) ((kAt_53 5 (by decide)).trans rfl) (by decide +kernel) (not_mem_drop_of_lt kND (j := 479) (by decide +kernel) (by decide)) (not_mem_drop_of_lt kND (j := 480) (by decide +kernel) (by decide)) XK).trans
    (Eq.trans ?_ (at_binary rWAF rNDF 502 (y := Cert.ReferenceIdeal.main_v328) ((rAt_7 33 (by decide)).trans rfl) (by decide +kernel) (not_mem_drop_of_lt rNDF (j := 500) (by decide +kernel) (by decide)) (not_mem_drop_of_lt rNDF (j := 501) (by decide +kernel) (by decide)) XR).symm)
  rw [e479 H, e480 H]
  all_goals rfl

theorem e482 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v318) = after rOpsF XR (Proc.devRef .tc Cert.ReferenceIdeal.main_v329) := by
  refine (at_unary kWA kND 482 (y := Cert.KernelIdeal.main_v318) ((kAt_53 6 (by decide)).trans rfl) (by decide +kernel) (not_mem_drop_of_lt kND (j := 481) (by decide +kernel) (by decide)) XK).trans
    (Eq.trans ?_ (at_unary rWAF rNDF 503 (y := Cert.ReferenceIdeal.main_v329) ((rAt_7 34 (by decide)).trans rfl) (by decide +kernel) (not_mem_drop_of_lt rNDF (j := 502) (by decide +kernel) (by decide)) XR).symm)
  rw [e481 H]
  all_goals rfl

theorem e483 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_111) = after rOpsF XR (Proc.devRef .tc Cert.ReferenceIdeal.main_cst_117) := by
  refine (at_nullary kWA kND 483 (y := Cert.KernelIdeal.main_cst_111) ((kAt_53 7 (by decide)).trans rfl) (by decide +kernel) XK).trans
    (Eq.trans ?_ (at_nullary rWAF rNDF 504 (y := Cert.ReferenceIdeal.main_cst_117) ((rAt_7 35 (by decide)).trans rfl) (by decide +kernel) XR).symm)
  rfl

theorem e484 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v319) = after rOpsF XR (Proc.devRef .tc Cert.ReferenceIdeal.main_v330) := by
  refine (at_binary kWA kND 484 (y := Cert.KernelIdeal.main_v319) ((kAt_53 8 (by decide)).trans rfl) (by decide +kernel) (not_mem_drop_of_lt kND (j := 482) (by decide +kernel) (by decide)) (not_mem_drop_of_lt kND (j := 483) (by decide +kernel) (by decide)) XK).trans
    (Eq.trans ?_ (at_binary rWAF rNDF 505 (y := Cert.ReferenceIdeal.main_v330) ((rAt_7 36 (by decide)).trans rfl) (by decide +kernel) (not_mem_drop_of_lt rNDF (j := 503) (by decide +kernel) (by decide)) (not_mem_drop_of_lt rNDF (j := 504) (by decide +kernel) (by decide)) XR).symm)
  rw [e482 H, e483 H]
  all_goals rfl

theorem e485 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_112) = after rOpsF XR (Proc.devRef .tc Cert.ReferenceIdeal.main_cst_118) := by
  refine (at_nullary kWA kND 485 (y := Cert.KernelIdeal.main_cst_112) ((kAt_53 9 (by decide)).trans rfl) (by decide +kernel) XK).trans
    (Eq.trans ?_ (at_nullary rWAF rNDF 506 (y := Cert.ReferenceIdeal.main_cst_118) ((rAt_7 37 (by decide)).trans rfl) (by decide +kernel) XR).symm)
  rfl

theorem e486 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v320) = after rOpsF XR (Proc.devRef .tc Cert.ReferenceIdeal.main_v331) := by
  refine (at_binary kWA kND 486 (y := Cert.KernelIdeal.main_v320) ((kAt_53 10 (by decide)).trans rfl) (by decide +kernel) (not_mem_drop_of_lt kND (j := 484) (by decide +kernel) (by decide)) (not_mem_drop_of_lt kND (j := 485) (by decide +kernel) (by decide)) XK).trans
    (Eq.trans ?_ (at_binary rWAF rNDF 507 (y := Cert.ReferenceIdeal.main_v331) ((rAt_7 38 (by decide)).trans rfl) (by decide +kernel) (not_mem_drop_of_lt rNDF (j := 505) (by decide +kernel) (by decide)) (not_mem_drop_of_lt rNDF (j := 506) (by decide +kernel) (by decide)) XR).symm)
  rw [e484 H, e485 H]
  all_goals rfl

theorem e487 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v321) = after rOpsF XR (Proc.devRef .tc Cert.ReferenceIdeal.main_v332) := by
  refine (at_binary kWA kND 487 (y := Cert.KernelIdeal.main_v321) ((kAt_53 11 (by decide)).trans rfl) (by decide +kernel) (not_mem_drop_of_lt kND (j := 478) (by decide +kernel) (by decide)) (not_mem_drop_of_lt kND (j := 482) (by decide +kernel) (by decide)) XK).trans
    (Eq.trans ?_ (at_binary rWAF rNDF 508 (y := Cert.ReferenceIdeal.main_v332) ((rAt_7 39 (by decide)).trans rfl) (by decide +kernel) (not_mem_drop_of_lt rNDF (j := 499) (by decide +kernel) (by decide)) (not_mem_drop_of_lt rNDF (j := 503) (by decide +kernel) (by decide)) XR).symm)
  rw [e478 H, e482 H]
  all_goals rfl

theorem e488 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_113) = after rOpsF XR (Proc.devRef .tc Cert.ReferenceIdeal.main_cst_119) := by
  refine (at_nullary kWA kND 488 (y := Cert.KernelIdeal.main_cst_113) ((kAt_53 12 (by decide)).trans rfl) (by decide +kernel) XK).trans
    (Eq.trans ?_ (at_nullary rWAF rNDF 509 (y := Cert.ReferenceIdeal.main_cst_119) ((rAt_7 40 (by decide)).trans rfl) (by decide +kernel) XR).symm)
  rfl

theorem e489 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v322) = after rOpsF XR (Proc.devRef .tc Cert.ReferenceIdeal.main_v333) := by
  refine (at_binary kWA kND 489 (y := Cert.KernelIdeal.main_v322) ((kAt_53 13 (by decide)).trans rfl) (by decide +kernel) (not_mem_drop_of_lt kND (j := 487) (by decide +kernel) (by decide)) (not_mem_drop_of_lt kND (j := 488) (by decide +kernel) (by decide)) XK).trans
    (Eq.trans ?_ (at_binary rWAF rNDF 510 (y := Cert.ReferenceIdeal.main_v333) ((rAt_7 41 (by decide)).trans rfl) (by decide +kernel) (not_mem_drop_of_lt rNDF (j := 508) (by decide +kernel) (by decide)) (not_mem_drop_of_lt rNDF (j := 509) (by decide +kernel) (by decide)) XR).symm)
  rw [e487 H, e488 H]
  all_goals rfl

theorem e490 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_114) = after rOpsF XR (Proc.devRef .tc Cert.ReferenceIdeal.main_cst_120) := by
  refine (at_nullary kWA kND 490 (y := Cert.KernelIdeal.main_cst_114) ((kAt_53 14 (by decide)).trans rfl) (by decide +kernel) XK).trans
    (Eq.trans ?_ (at_nullary rWAF rNDF 511 (y := Cert.ReferenceIdeal.main_cst_120) ((rAt_7 42 (by decide)).trans rfl) (by decide +kernel) XR).symm)
  rfl

theorem e491 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v323) = after rOpsF XR (Proc.devRef .tc Cert.ReferenceIdeal.main_v334) := by
  refine (at_binary kWA kND 491 (y := Cert.KernelIdeal.main_v323) ((kAt_53 15 (by decide)).trans rfl) (by decide +kernel) (not_mem_drop_of_lt kND (j := 484) (by decide +kernel) (by decide)) (not_mem_drop_of_lt kND (j := 490) (by decide +kernel) (by decide)) XK).trans
    (Eq.trans ?_ (at_binary rWAF rNDF 512 (y := Cert.ReferenceIdeal.main_v334) ((rAt_7 43 (by decide)).trans rfl) (by decide +kernel) (not_mem_drop_of_lt rNDF (j := 505) (by decide +kernel) (by decide)) (not_mem_drop_of_lt rNDF (j := 511) (by decide +kernel) (by decide)) XR).symm)
  rw [e484 H, e490 H]
  all_goals rfl

theorem e492 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v324) = after rOpsF XR (Proc.devRef .tc Cert.ReferenceIdeal.main_v335) := by
  refine (at_binary kWA kND 492 (y := Cert.KernelIdeal.main_v324) ((kAt_53 16 (by decide)).trans rfl) (by decide +kernel) (not_mem_drop_of_lt kND (j := 489) (by decide +kernel) (by decide)) (not_mem_drop_of_lt kND (j := 491) (by decide +kernel) (by decide)) XK).trans
    (Eq.trans ?_ (at_binary rWAF rNDF 513 (y := Cert.ReferenceIdeal.main_v335) ((rAt_7 44 (by decide)).trans rfl) (by decide +kernel) (not_mem_drop_of_lt rNDF (j := 510) (by decide +kernel) (by decide)) (not_mem_drop_of_lt rNDF (j := 512) (by decide +kernel) (by decide)) XR).symm)
  rw [e489 H, e491 H]
  all_goals rfl

theorem e493 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_115) = after rOpsF XR (Proc.devRef .tc Cert.ReferenceIdeal.main_cst_121) := by
  refine (at_nullary kWA kND 493 (y := Cert.KernelIdeal.main_cst_115) ((kAt_53 17 (by decide)).trans rfl) (by decide +kernel) XK).trans
    (Eq.trans ?_ (at_nullary rWAF rNDF 514 (y := Cert.ReferenceIdeal.main_cst_121) ((rAt_7 45 (by decide)).trans rfl) (by decide +kernel) XR).symm)
  rfl

theorem e494 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call27_v0) = after rOpsF XR (Proc.devRef .tc Cert.ReferenceIdeal.main_call27_v0) := by
  refine (at_unary kWA kND 494 (y := Cert.KernelIdeal.main_call27_v0) ((kAt_54 0 (by decide)).trans rfl) (by decide +kernel) (not_mem_drop_of_lt kND (j := 493) (by decide +kernel) (by decide)) XK).trans
    (Eq.trans ?_ (at_unary rWAF rNDF 515 (y := Cert.ReferenceIdeal.main_call27_v0) ((rAt_7 46 (by decide)).trans rfl) (by decide +kernel) (not_mem_drop_of_lt rNDF (j := 514) (by decide +kernel) (by decide)) XR).symm)
  rw [e493 H]
  all_goals rfl

theorem e495 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v325) = after rOpsF XR (Proc.devRef .tc Cert.ReferenceIdeal.main_v336) := by
  refine (at_ternary kWA kND 495 (y := Cert.KernelIdeal.main_v325) ((kAt_54 1 (by decide)).trans rfl) (by decide +kernel) (not_mem_drop_of_lt kND (j := 486) (by decide +kernel) (by decide)) (not_mem_drop_of_lt kND (j := 492) (by decide +kernel) (by decide)) (not_mem_drop_of_lt kND (j := 494) (by decide +kernel) (by decide)) XK).trans
    (Eq.trans ?_ (at_ternary rWAF rNDF 516 (y := Cert.ReferenceIdeal.main_v336) ((rAt_7 47 (by decide)).trans rfl) (by decide +kernel) (not_mem_drop_of_lt rNDF (j := 507) (by decide +kernel) (by decide)) (not_mem_drop_of_lt rNDF (j := 513) (by decide +kernel) (by decide)) (not_mem_drop_of_lt rNDF (j := 515) (by decide +kernel) (by decide)) XR).symm)
  rw [e486 H, e492 H, e494 H]
  all_goals rfl

theorem e496 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v326) = after rOpsF XR (Proc.devRef .tc Cert.ReferenceIdeal.main_v337) := by
  refine (at_unary kWA kND 496 (y := Cert.KernelIdeal.main_v326) ((kAt_55 0 (by decide)).trans rfl) (by decide +kernel) (not_mem_drop_of_lt kND (j := 283) (by decide +kernel) (by decide)) XK).trans
    (Eq.trans ?_ (at_unary rWAF rNDF 517 (y := Cert.ReferenceIdeal.main_v337) ((rAt_7 48 (by decide)).trans rfl) (by decide +kernel) (not_mem_drop_of_lt rNDF (j := 304) (by decide +kernel) (by decide)) XR).symm)
  rw [e283 H]
  all_goals rfl

theorem e497 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_116) = after rOpsF XR (Proc.devRef .tc Cert.ReferenceIdeal.main_c_122) := by
  refine (at_nullary kWA kND 497 (y := Cert.KernelIdeal.main_c_116) ((kAt_55 1 (by decide)).trans rfl) (by decide +kernel) XK).trans
    (Eq.trans ?_ (at_nullary rWAF rNDF 518 (y := Cert.ReferenceIdeal.main_c_122) ((rAt_7 49 (by decide)).trans rfl) (by decide +kernel) XR).symm)
  rfl

theorem e498 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v327) = after rOpsF XR (Proc.devRef .tc Cert.ReferenceIdeal.main_v338) := by
  refine (at_binary kWA kND 498 (y := Cert.KernelIdeal.main_v327) ((kAt_55 2 (by decide)).trans rfl) (by decide +kernel) (not_mem_drop_of_lt kND (j := 496) (by decide +kernel) (by decide)) (not_mem_drop_of_lt kND (j := 497) (by decide +kernel) (by decide)) XK).trans
    (Eq.trans ?_ (at_binary rWAF rNDF 519 (y := Cert.ReferenceIdeal.main_v338) ((rAt_7 50 (by decide)).trans rfl) (by decide +kernel) (not_mem_drop_of_lt rNDF (j := 517) (by decide +kernel) (by decide)) (not_mem_drop_of_lt rNDF (j := 518) (by decide +kernel) (by decide)) XR).symm)
  rw [e496 H, e497 H]
  all_goals rfl

theorem e499 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_117) = after rOpsF XR (Proc.devRef .tc Cert.ReferenceIdeal.main_c_123) := by
  refine (at_nullary kWA kND 499 (y := Cert.KernelIdeal.main_c_117) ((kAt_55 3 (by decide)).trans rfl) (by decide +kernel) XK).trans
    (Eq.trans ?_ (at_nullary rWAF rNDF 520 (y := Cert.ReferenceIdeal.main_c_123) ((rAt_7 51 (by decide)).trans rfl) (by decide +kernel) XR).symm)
  rfl

theorem e500 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v328) = after rOpsF XR (Proc.devRef .tc Cert.ReferenceIdeal.main_v339) := by
  refine (at_unary kWA kND 500 (y := Cert.KernelIdeal.main_v328) ((kAt_55 4 (by decide)).trans rfl) (by decide +kernel) (not_mem_drop_of_lt kND (j := 499) (by decide +kernel) (by decide)) XK).trans
    (Eq.trans ?_ (at_unary rWAF rNDF 521 (y := Cert.ReferenceIdeal.main_v339) ((rAt_7 52 (by decide)).trans rfl) (by decide +kernel) (not_mem_drop_of_lt rNDF (j := 520) (by decide +kernel) (by decide)) XR).symm)
  rw [e499 H]
  all_goals rfl

theorem e501 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v329) = after rOpsF XR (Proc.devRef .tc Cert.ReferenceIdeal.main_v340) := by
  refine (at_binary kWA kND 501 (y := Cert.KernelIdeal.main_v329) ((kAt_55 5 (by decide)).trans rfl) (by decide +kernel) (not_mem_drop_of_lt kND (j := 498) (by decide +kernel) (by decide)) (not_mem_drop_of_lt kND (j := 500) (by decide +kernel) (by decide)) XK).trans
    (Eq.trans ?_ (at_binary rWAF rNDF 522 (y := Cert.ReferenceIdeal.main_v340) ((rAt_7 53 (by decide)).trans rfl) (by decide +kernel) (not_mem_drop_of_lt rNDF (j := 519) (by decide +kernel) (by decide)) (not_mem_drop_of_lt rNDF (j := 521) (by decide +kernel) (by decide)) XR).symm)
  rw [e498 H, e500 H]
  all_goals rfl

theorem e502 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_118) = after rOpsF XR (Proc.devRef .tc Cert.ReferenceIdeal.main_cst_124) := by
  refine (at_nullary kWA kND 502 (y := Cert.KernelIdeal.main_cst_118) ((kAt_55 6 (by decide)).trans rfl) (by decide +kernel) XK).trans
    (Eq.trans ?_ (at_nullary rWAF rNDF 523 (y := Cert.ReferenceIdeal.main_cst_124) ((rAt_7 54 (by decide)).trans rfl) (by decide +kernel) XR).symm)
  rfl

theorem e503 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call28_v0) = after rOpsF XR (Proc.devRef .tc Cert.ReferenceIdeal.main_call28_v0) := by
  refine (at_unary kWA kND 503 (y := Cert.KernelIdeal.main_call28_v0) ((kAt_56 0 (by decide)).trans rfl) (by decide +kernel) (not_mem_drop_of_lt kND (j := 502) (by decide +kernel) (by decide)) XK).trans
    (Eq.trans ?_ (at_unary rWAF rNDF 524 (y := Cert.ReferenceIdeal.main_call28_v0) ((rAt_7 55 (by decide)).trans rfl) (by decide +kernel) (not_mem_drop_of_lt rNDF (j := 523) (by decide +kernel) (by decide)) XR).symm)
  rw [e502 H]
  all_goals rfl

theorem e504 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call28_v1) = after rOpsF XR (Proc.devRef .tc Cert.ReferenceIdeal.main_call28_v1) := by
  refine (at_unary kWA kND 504 (y := Cert.KernelIdeal.main_call28_v1) ((kAt_56 1 (by decide)).trans rfl) (by decide +kernel) (not_mem_drop_of_lt kND (j := 503) (by decide +kernel) (by decide)) XK).trans
    (Eq.trans ?_ (at_unary rWAF rNDF 525 (y := Cert.ReferenceIdeal.main_call28_v1) ((rAt_7 56 (by decide)).trans rfl) (by decide +kernel) (not_mem_drop_of_lt rNDF (j := 524) (by decide +kernel) (by decide)) XR).symm)
  rw [e503 H]
  all_goals rfl

theorem e505 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v330) = after rOpsF XR (Proc.devRef .tc Cert.ReferenceIdeal.main_v341) := by
  refine (at_ternary kWA kND 505 (y := Cert.KernelIdeal.main_v330) ((kAt_56 2 (by decide)).trans rfl) (by decide +kernel) (not_mem_drop_of_lt kND (j := 283) (by decide +kernel) (by decide)) (not_mem_drop_of_lt kND (j := 54) (by decide +kernel) (by decide)) (not_mem_drop_of_lt kND (j := 504) (by decide +kernel) (by decide)) XK).trans
    (Eq.trans ?_ (at_ternary rWAF rNDF 526 (y := Cert.ReferenceIdeal.main_v341) ((rAt_7 57 (by decide)).trans rfl) (by decide +kernel) (not_mem_drop_of_lt rNDF (j := 304) (by decide +kernel) (by decide)) (not_mem_drop_of_lt rNDF (j := 75) (by decide +kernel) (by decide)) (not_mem_drop_of_lt rNDF (j := 525) (by decide +kernel) (by decide)) XR).symm)
  rw [e283 H, e54 H, e504 H]
  all_goals rfl

theorem e506 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_119) = after rOpsF XR (Proc.devRef .tc Cert.ReferenceIdeal.main_cst_125) := by
  refine (at_nullary kWA kND 506 (y := Cert.KernelIdeal.main_cst_119) ((kAt_57 0 (by decide)).trans rfl) (by decide +kernel) XK).trans
    (Eq.trans ?_ (at_nullary rWAF rNDF 527 (y := Cert.ReferenceIdeal.main_cst_125) ((rAt_7 58 (by decide)).trans rfl) (by decide +kernel) XR).symm)
  rfl

theorem e507 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v331) = after rOpsF XR (Proc.devRef .tc Cert.ReferenceIdeal.main_v342) := by
  refine (at_binary kWA kND 507 (y := Cert.KernelIdeal.main_v331) ((kAt_57 1 (by decide)).trans rfl) (by decide +kernel) (not_mem_drop_of_lt kND (j := 505) (by decide +kernel) (by decide)) (not_mem_drop_of_lt kND (j := 506) (by decide +kernel) (by decide)) XK).trans
    (Eq.trans ?_ (at_binary rWAF rNDF 528 (y := Cert.ReferenceIdeal.main_v342) ((rAt_7 59 (by decide)).trans rfl) (by decide +kernel) (not_mem_drop_of_lt rNDF (j := 526) (by decide +kernel) (by decide)) (not_mem_drop_of_lt rNDF (j := 527) (by decide +kernel) (by decide)) XR).symm)
  rw [e505 H, e506 H]
  all_goals rfl

theorem e508 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_120) = after rOpsF XR (Proc.devRef .tc Cert.ReferenceIdeal.main_c_126) := by
  refine (at_nullary kWA kND 508 (y := Cert.KernelIdeal.main_c_120) ((kAt_57 2 (by decide)).trans rfl) (by decide +kernel) XK).trans
    (Eq.trans ?_ (at_nullary rWAF rNDF 529 (y := Cert.ReferenceIdeal.main_c_126) ((rAt_7 60 (by decide)).trans rfl) (by decide +kernel) XR).symm)
  rfl

theorem e509 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v332) = after rOpsF XR (Proc.devRef .tc Cert.ReferenceIdeal.main_v343) := by
  refine (at_unary kWA kND 509 (y := Cert.KernelIdeal.main_v332) ((kAt_57 3 (by decide)).trans rfl) (by decide +kernel) (not_mem_drop_of_lt kND (j := 508) (by decide +kernel) (by decide)) XK).trans
    (Eq.trans ?_ (at_unary rWAF rNDF 530 (y := Cert.ReferenceIdeal.main_v343) ((rAt_7 61 (by decide)).trans rfl) (by decide +kernel) (not_mem_drop_of_lt rNDF (j := 529) (by decide +kernel) (by decide)) XR).symm)
  rw [e508 H]
  all_goals rfl

theorem e510 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v333) = after rOpsF XR (Proc.devRef .tc Cert.ReferenceIdeal.main_v344) := by
  refine (at_binary kWA kND 510 (y := Cert.KernelIdeal.main_v333) ((kAt_57 4 (by decide)).trans rfl) (by decide +kernel) (not_mem_drop_of_lt kND (j := 498) (by decide +kernel) (by decide)) (not_mem_drop_of_lt kND (j := 509) (by decide +kernel) (by decide)) XK).trans
    (Eq.trans ?_ (at_binary rWAF rNDF 531 (y := Cert.ReferenceIdeal.main_v344) ((rAt_7 62 (by decide)).trans rfl) (by decide +kernel) (not_mem_drop_of_lt rNDF (j := 519) (by decide +kernel) (by decide)) (not_mem_drop_of_lt rNDF (j := 530) (by decide +kernel) (by decide)) XR).symm)
  rw [e498 H, e509 H]
  all_goals rfl

theorem e511 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v334) = after rOpsF XR (Proc.devRef .tc Cert.ReferenceIdeal.main_v345) := by
  refine (at_unary kWA kND 511 (y := Cert.KernelIdeal.main_v334) ((kAt_57 5 (by decide)).trans rfl) (by decide +kernel) (not_mem_drop_of_lt kND (j := 510) (by decide +kernel) (by decide)) XK).trans
    (Eq.trans ?_ (at_unary rWAF rNDF 532 (y := Cert.ReferenceIdeal.main_v345) ((rAt_7 63 (by decide)).trans rfl) (by decide +kernel) (not_mem_drop_of_lt rNDF (j := 531) (by decide +kernel) (by decide)) XR).symm)
  rw [e510 H]
  all_goals rfl

theorem e512 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v335) = after rOpsF XR (Proc.devRef .tc Cert.ReferenceIdeal.main_v346) := by
  refine (at_binary kWA kND 512 (y := Cert.KernelIdeal.main_v335) ((kAt_57 6 (by decide)).trans rfl) (by decide +kernel) (not_mem_drop_of_lt kND (j := 507) (by decide +kernel) (by decide)) (not_mem_drop_of_lt kND (j := 511) (by decide +kernel) (by decide)) XK).trans
    (Eq.trans ?_ (at_binary rWAF rNDF 533 (y := Cert.ReferenceIdeal.main_v346) ((rAt_7 64 (by decide)).trans rfl) (by decide +kernel) (not_mem_drop_of_lt rNDF (j := 528) (by decide +kernel) (by decide)) (not_mem_drop_of_lt rNDF (j := 532) (by decide +kernel) (by decide)) XR).symm)
  rw [e507 H, e511 H]
  all_goals rfl

theorem e513 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_121) = after rOpsF XR (Proc.devRef .tc Cert.ReferenceIdeal.main_cst_127) := by
  refine (at_nullary kWA kND 513 (y := Cert.KernelIdeal.main_cst_121) ((kAt_57 7 (by decide)).trans rfl) (by decide +kernel) XK).trans
    (Eq.trans ?_ (at_nullary rWAF rNDF 534 (y := Cert.ReferenceIdeal.main_cst_127) ((rAt_7 65 (by decide)).trans rfl) (by decide +kernel) XR).symm)
  rfl

theorem e514 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call29_v0) = after rOpsF XR (Proc.devRef .tc Cert.ReferenceIdeal.main_call29_v0) := by
  refine (at_unary kWA kND 514 (y := Cert.KernelIdeal.main_call29_v0) ((kAt_58 0 (by decide)).trans rfl) (by decide +kernel) (not_mem_drop_of_lt kND (j := 513) (by decide +kernel) (by decide)) XK).trans
    (Eq.trans ?_ (at_unary rWAF rNDF 535 (y := Cert.ReferenceIdeal.main_call29_v0) ((rAt_7 66 (by decide)).trans rfl) (by decide +kernel) (not_mem_drop_of_lt rNDF (j := 534) (by decide +kernel) (by decide)) XR).symm)
  rw [e513 H]
  all_goals rfl

theorem e515 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call29_v1) = after rOpsF XR (Proc.devRef .tc Cert.ReferenceIdeal.main_call29_v1) := by
  refine (at_unary kWA kND 515 (y := Cert.KernelIdeal.main_call29_v1) ((kAt_58 1 (by decide)).trans rfl) (by decide +kernel) (not_mem_drop_of_lt kND (j := 514) (by decide +kernel) (by decide)) XK).trans
    (Eq.trans ?_ (at_unary rWAF rNDF 536 (y := Cert.ReferenceIdeal.main_call29_v1) ((rAt_7 67 (by decide)).trans rfl) (by decide +kernel) (not_mem_drop_of_lt rNDF (j := 535) (by decide +kernel) (by decide)) XR).symm)
  rw [e514 H]
  all_goals rfl

theorem e516 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v336) = after rOpsF XR (Proc.devRef .tc Cert.ReferenceIdeal.main_v347) := by
  refine (at_ternary kWA kND 516 (y := Cert.KernelIdeal.main_v336) ((kAt_58 2 (by decide)).trans rfl) (by decide +kernel) (not_mem_drop_of_lt kND (j := 501) (by decide +kernel) (by decide)) (not_mem_drop_of_lt kND (j := 512) (by decide +kernel) (by decide)) (not_mem_drop_of_lt kND (j := 515) (by decide +kernel) (by decide)) XK).trans
    (Eq.trans ?_ (at_ternary rWAF rNDF 537 (y := Cert.ReferenceIdeal.main_v347) ((rAt_7 68 (by decide)).trans rfl) (by decide +kernel) (not_mem_drop_of_lt rNDF (j := 522) (by decide +kernel) (by decide)) (not_mem_drop_of_lt rNDF (j := 533) (by decide +kernel) (by decide)) (not_mem_drop_of_lt rNDF (j := 536) (by decide +kernel) (by decide)) XR).symm)
  rw [e501 H, e512 H, e515 H]
  all_goals rfl

theorem e517 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v337) = after rOpsF XR (Proc.devRef .tc Cert.ReferenceIdeal.main_v348) := by
  refine (at_unary kWA kND 517 (y := Cert.KernelIdeal.main_v337) ((kAt_59 0 (by decide)).trans rfl) (by decide +kernel) (not_mem_drop_of_lt kND (j := 287) (by decide +kernel) (by decide)) XK).trans
    (Eq.trans ?_ (at_unary rWAF rNDF 538 (y := Cert.ReferenceIdeal.main_v348) ((rAt_7 69 (by decide)).trans rfl) (by decide +kernel) (not_mem_drop_of_lt rNDF (j := 308) (by decide +kernel) (by decide)) XR).symm)
  rw [e287 H]
  all_goals rfl

theorem e518 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_122) = after rOpsF XR (Proc.devRef .tc Cert.ReferenceIdeal.main_c_128) := by
  refine (at_nullary kWA kND 518 (y := Cert.KernelIdeal.main_c_122) ((kAt_59 1 (by decide)).trans rfl) (by decide +kernel) XK).trans
    (Eq.trans ?_ (at_nullary rWAF rNDF 539 (y := Cert.ReferenceIdeal.main_c_128) ((rAt_7 70 (by decide)).trans rfl) (by decide +kernel) XR).symm)
  rfl

theorem e519 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v338) = after rOpsF XR (Proc.devRef .tc Cert.ReferenceIdeal.main_v349) := by
  refine (at_binary kWA kND 519 (y := Cert.KernelIdeal.main_v338) ((kAt_59 2 (by decide)).trans rfl) (by decide +kernel) (not_mem_drop_of_lt kND (j := 517) (by decide +kernel) (by decide)) (not_mem_drop_of_lt kND (j := 518) (by decide +kernel) (by decide)) XK).trans
    (Eq.trans ?_ (at_binary rWAF rNDF 540 (y := Cert.ReferenceIdeal.main_v349) ((rAt_8 0 (by decide)).trans rfl) (by decide +kernel) (not_mem_drop_of_lt rNDF (j := 538) (by decide +kernel) (by decide)) (not_mem_drop_of_lt rNDF (j := 539) (by decide +kernel) (by decide)) XR).symm)
  rw [e517 H, e518 H]
  all_goals rfl

theorem e520 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_123) = after rOpsF XR (Proc.devRef .tc Cert.ReferenceIdeal.main_c_129) := by
  refine (at_nullary kWA kND 520 (y := Cert.KernelIdeal.main_c_123) ((kAt_59 3 (by decide)).trans rfl) (by decide +kernel) XK).trans
    (Eq.trans ?_ (at_nullary rWAF rNDF 541 (y := Cert.ReferenceIdeal.main_c_129) ((rAt_8 1 (by decide)).trans rfl) (by decide +kernel) XR).symm)
  rfl

theorem e521 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v339) = after rOpsF XR (Proc.devRef .tc Cert.ReferenceIdeal.main_v350) := by
  refine (at_unary kWA kND 521 (y := Cert.KernelIdeal.main_v339) ((kAt_59 4 (by decide)).trans rfl) (by decide +kernel) (not_mem_drop_of_lt kND (j := 520) (by decide +kernel) (by decide)) XK).trans
    (Eq.trans ?_ (at_unary rWAF rNDF 542 (y := Cert.ReferenceIdeal.main_v350) ((rAt_8 2 (by decide)).trans rfl) (by decide +kernel) (not_mem_drop_of_lt rNDF (j := 541) (by decide +kernel) (by decide)) XR).symm)
  rw [e520 H]
  all_goals rfl

theorem e522 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v340) = after rOpsF XR (Proc.devRef .tc Cert.ReferenceIdeal.main_v351) := by
  refine (at_binary kWA kND 522 (y := Cert.KernelIdeal.main_v340) ((kAt_59 5 (by decide)).trans rfl) (by decide +kernel) (not_mem_drop_of_lt kND (j := 519) (by decide +kernel) (by decide)) (not_mem_drop_of_lt kND (j := 521) (by decide +kernel) (by decide)) XK).trans
    (Eq.trans ?_ (at_binary rWAF rNDF 543 (y := Cert.ReferenceIdeal.main_v351) ((rAt_8 3 (by decide)).trans rfl) (by decide +kernel) (not_mem_drop_of_lt rNDF (j := 540) (by decide +kernel) (by decide)) (not_mem_drop_of_lt rNDF (j := 542) (by decide +kernel) (by decide)) XR).symm)
  rw [e519 H, e521 H]
  all_goals rfl

theorem e523 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_124) = after rOpsF XR (Proc.devRef .tc Cert.ReferenceIdeal.main_cst_130) := by
  refine (at_nullary kWA kND 523 (y := Cert.KernelIdeal.main_cst_124) ((kAt_59 6 (by decide)).trans rfl) (by decide +kernel) XK).trans
    (Eq.trans ?_ (at_nullary rWAF rNDF 544 (y := Cert.ReferenceIdeal.main_cst_130) ((rAt_8 4 (by decide)).trans rfl) (by decide +kernel) XR).symm)
  rfl

theorem e524 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call30_v0) = after rOpsF XR (Proc.devRef .tc Cert.ReferenceIdeal.main_call30_v0) := by
  refine (at_unary kWA kND 524 (y := Cert.KernelIdeal.main_call30_v0) ((kAt_60 0 (by decide)).trans rfl) (by decide +kernel) (not_mem_drop_of_lt kND (j := 523) (by decide +kernel) (by decide)) XK).trans
    (Eq.trans ?_ (at_unary rWAF rNDF 545 (y := Cert.ReferenceIdeal.main_call30_v0) ((rAt_8 5 (by decide)).trans rfl) (by decide +kernel) (not_mem_drop_of_lt rNDF (j := 544) (by decide +kernel) (by decide)) XR).symm)
  rw [e523 H]
  all_goals rfl

theorem e525 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call30_v1) = after rOpsF XR (Proc.devRef .tc Cert.ReferenceIdeal.main_call30_v1) := by
  refine (at_unary kWA kND 525 (y := Cert.KernelIdeal.main_call30_v1) ((kAt_60 1 (by decide)).trans rfl) (by decide +kernel) (not_mem_drop_of_lt kND (j := 524) (by decide +kernel) (by decide)) XK).trans
    (Eq.trans ?_ (at_unary rWAF rNDF 546 (y := Cert.ReferenceIdeal.main_call30_v1) ((rAt_8 6 (by decide)).trans rfl) (by decide +kernel) (not_mem_drop_of_lt rNDF (j := 545) (by decide +kernel) (by decide)) XR).symm)
  rw [e524 H]
  all_goals rfl

theorem e526 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v341) = after rOpsF XR (Proc.devRef .tc Cert.ReferenceIdeal.main_v352) := by
  refine (at_ternary kWA kND 526 (y := Cert.KernelIdeal.main_v341) ((kAt_60 2 (by decide)).trans rfl) (by decide +kernel) (not_mem_drop_of_lt kND (j := 287) (by decide +kernel) (by decide)) (not_mem_drop_of_lt kND (j := 67) (by decide +kernel) (by decide)) (not_mem_drop_of_lt kND (j := 525) (by decide +kernel) (by decide)) XK).trans
    (Eq.trans ?_ (at_ternary rWAF rNDF 547 (y := Cert.ReferenceIdeal.main_v352) ((rAt_8 7 (by decide)).trans rfl) (by decide +kernel) (not_mem_drop_of_lt rNDF (j := 308) (by decide +kernel) (by decide)) (not_mem_drop_of_lt rNDF (j := 88) (by decide +kernel) (by decide)) (not_mem_drop_of_lt rNDF (j := 546) (by decide +kernel) (by decide)) XR).symm)
  rw [e287 H, e67 H, e525 H]
  all_goals rfl

theorem e527 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_125) = after rOpsF XR (Proc.devRef .tc Cert.ReferenceIdeal.main_cst_131) := by
  refine (at_nullary kWA kND 527 (y := Cert.KernelIdeal.main_cst_125) ((kAt_61 0 (by decide)).trans rfl) (by decide +kernel) XK).trans
    (Eq.trans ?_ (at_nullary rWAF rNDF 548 (y := Cert.ReferenceIdeal.main_cst_131) ((rAt_8 8 (by decide)).trans rfl) (by decide +kernel) XR).symm)
  rfl

theorem e528 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v342) = after rOpsF XR (Proc.devRef .tc Cert.ReferenceIdeal.main_v353) := by
  refine (at_binary kWA kND 528 (y := Cert.KernelIdeal.main_v342) ((kAt_61 1 (by decide)).trans rfl) (by decide +kernel) (not_mem_drop_of_lt kND (j := 526) (by decide +kernel) (by decide)) (not_mem_drop_of_lt kND (j := 527) (by decide +kernel) (by decide)) XK).trans
    (Eq.trans ?_ (at_binary rWAF rNDF 549 (y := Cert.ReferenceIdeal.main_v353) ((rAt_8 9 (by decide)).trans rfl) (by decide +kernel) (not_mem_drop_of_lt rNDF (j := 547) (by decide +kernel) (by decide)) (not_mem_drop_of_lt rNDF (j := 548) (by decide +kernel) (by decide)) XR).symm)
  rw [e526 H, e527 H]
  all_goals rfl

theorem e529 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_126) = after rOpsF XR (Proc.devRef .tc Cert.ReferenceIdeal.main_c_132) := by
  refine (at_nullary kWA kND 529 (y := Cert.KernelIdeal.main_c_126) ((kAt_61 2 (by decide)).trans rfl) (by decide +kernel) XK).trans
    (Eq.trans ?_ (at_nullary rWAF rNDF 550 (y := Cert.ReferenceIdeal.main_c_132) ((rAt_8 10 (by decide)).trans rfl) (by decide +kernel) XR).symm)
  rfl

end Cert.Bridge

end
-- ==== Proof.Pairs05.lean ====
/-
  Operations 530 … 635 of the shared line: each pair of corresponding results agrees, because the two
  operations are one function and their operands agree (earlier equations, or the starting agreement).
-/
import proofs.«169849_j71803263254994_1_alg».proof.Proof.Pairs04

set_option maxRecDepth 16384
set_option maxHeartbeats 2000000

noncomputable section

namespace Cert.Bridge

open Idealize.ShloMosaic Idealize.SL.Sem Idealize.ShloMosaic.StableHlo Idealize.ShloMosaic.StableHlo.Line
open Cert.KernelIdeal.Tab Cert.ReferenceIdeal.Hand

variable {F : FTy → Type} [FloatOps F]

theorem e530 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v343) = after rOpsF XR (Proc.devRef .tc Cert.ReferenceIdeal.main_v354) := by
  refine (at_unary kWA kND 530 (y := Cert.KernelIdeal.main_v343) ((kAt_61 3 (by decide)).trans rfl) (by decide +kernel) (not_mem_drop_of_lt kND (j := 529) (by decide +kernel) (by decide)) XK).trans
    (Eq.trans ?_ (at_unary rWAF rNDF 551 (y := Cert.ReferenceIdeal.main_v354) ((rAt_8 11 (by decide)).trans rfl) (by decide +kernel) (not_mem_drop_of_lt rNDF (j := 550) (by decide +kernel) (by decide)) XR).symm)
  rw [e529 H]
  all_goals rfl

theorem e531 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v344) = after rOpsF XR (Proc.devRef .tc Cert.ReferenceIdeal.main_v355) := by
  refine (at_binary kWA kND 531 (y := Cert.KernelIdeal.main_v344) ((kAt_61 4 (by decide)).trans rfl) (by decide +kernel) (not_mem_drop_of_lt kND (j := 519) (by decide +kernel) (by decide)) (not_mem_drop_of_lt kND (j := 530) (by decide +kernel) (by decide)) XK).trans
    (Eq.trans ?_ (at_binary rWAF rNDF 552 (y := Cert.ReferenceIdeal.main_v355) ((rAt_8 12 (by decide)).trans rfl) (by decide +kernel) (not_mem_drop_of_lt rNDF (j := 540) (by decide +kernel) (by decide)) (not_mem_drop_of_lt rNDF (j := 551) (by decide +kernel) (by decide)) XR).symm)
  rw [e519 H, e530 H]
  all_goals rfl

theorem e532 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v345) = after rOpsF XR (Proc.devRef .tc Cert.ReferenceIdeal.main_v356) := by
  refine (at_unary kWA kND 532 (y := Cert.KernelIdeal.main_v345) ((kAt_61 5 (by decide)).trans rfl) (by decide +kernel) (not_mem_drop_of_lt kND (j := 531) (by decide +kernel) (by decide)) XK).trans
    (Eq.trans ?_ (at_unary rWAF rNDF 553 (y := Cert.ReferenceIdeal.main_v356) ((rAt_8 13 (by decide)).trans rfl) (by decide +kernel) (not_mem_drop_of_lt rNDF (j := 552) (by decide +kernel) (by decide)) XR).symm)
  rw [e531 H]
  all_goals rfl

theorem e533 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v346) = after rOpsF XR (Proc.devRef .tc Cert.ReferenceIdeal.main_v357) := by
  refine (at_binary kWA kND 533 (y := Cert.KernelIdeal.main_v346) ((kAt_61 6 (by decide)).trans rfl) (by decide +kernel) (not_mem_drop_of_lt kND (j := 528) (by decide +kernel) (by decide)) (not_mem_drop_of_lt kND (j := 532) (by decide +kernel) (by decide)) XK).trans
    (Eq.trans ?_ (at_binary rWAF rNDF 554 (y := Cert.ReferenceIdeal.main_v357) ((rAt_8 14 (by decide)).trans rfl) (by decide +kernel) (not_mem_drop_of_lt rNDF (j := 549) (by decide +kernel) (by decide)) (not_mem_drop_of_lt rNDF (j := 553) (by decide +kernel) (by decide)) XR).symm)
  rw [e528 H, e532 H]
  all_goals rfl

theorem e534 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_127) = after rOpsF XR (Proc.devRef .tc Cert.ReferenceIdeal.main_cst_133) := by
  refine (at_nullary kWA kND 534 (y := Cert.KernelIdeal.main_cst_127) ((kAt_61 7 (by decide)).trans rfl) (by decide +kernel) XK).trans
    (Eq.trans ?_ (at_nullary rWAF rNDF 555 (y := Cert.ReferenceIdeal.main_cst_133) ((rAt_8 15 (by decide)).trans rfl) (by decide +kernel) XR).symm)
  rfl

theorem e535 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call31_v0) = after rOpsF XR (Proc.devRef .tc Cert.ReferenceIdeal.main_call31_v0) := by
  refine (at_unary kWA kND 535 (y := Cert.KernelIdeal.main_call31_v0) ((kAt_62 0 (by decide)).trans rfl) (by decide +kernel) (not_mem_drop_of_lt kND (j := 534) (by decide +kernel) (by decide)) XK).trans
    (Eq.trans ?_ (at_unary rWAF rNDF 556 (y := Cert.ReferenceIdeal.main_call31_v0) ((rAt_8 16 (by decide)).trans rfl) (by decide +kernel) (not_mem_drop_of_lt rNDF (j := 555) (by decide +kernel) (by decide)) XR).symm)
  rw [e534 H]
  all_goals rfl

theorem e536 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call31_v1) = after rOpsF XR (Proc.devRef .tc Cert.ReferenceIdeal.main_call31_v1) := by
  refine (at_unary kWA kND 536 (y := Cert.KernelIdeal.main_call31_v1) ((kAt_62 1 (by decide)).trans rfl) (by decide +kernel) (not_mem_drop_of_lt kND (j := 535) (by decide +kernel) (by decide)) XK).trans
    (Eq.trans ?_ (at_unary rWAF rNDF 557 (y := Cert.ReferenceIdeal.main_call31_v1) ((rAt_8 17 (by decide)).trans rfl) (by decide +kernel) (not_mem_drop_of_lt rNDF (j := 556) (by decide +kernel) (by decide)) XR).symm)
  rw [e535 H]
  all_goals rfl

theorem e537 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v347) = after rOpsF XR (Proc.devRef .tc Cert.ReferenceIdeal.main_v358) := by
  refine (at_ternary kWA kND 537 (y := Cert.KernelIdeal.main_v347) ((kAt_62 2 (by decide)).trans rfl) (by decide +kernel) (not_mem_drop_of_lt kND (j := 522) (by decide +kernel) (by decide)) (not_mem_drop_of_lt kND (j := 533) (by decide +kernel) (by decide)) (not_mem_drop_of_lt kND (j := 536) (by decide +kernel) (by decide)) XK).trans
    (Eq.trans ?_ (at_ternary rWAF rNDF 558 (y := Cert.ReferenceIdeal.main_v358) ((rAt_8 18 (by decide)).trans rfl) (by decide +kernel) (not_mem_drop_of_lt rNDF (j := 543) (by decide +kernel) (by decide)) (not_mem_drop_of_lt rNDF (j := 554) (by decide +kernel) (by decide)) (not_mem_drop_of_lt rNDF (j := 557) (by decide +kernel) (by decide)) XR).symm)
  rw [e522 H, e533 H, e536 H]
  all_goals rfl

theorem e538 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v348) = after rOpsF XR (Proc.devRef .tc Cert.ReferenceIdeal.main_v359) := by
  refine (at_unary kWA kND 538 (y := Cert.KernelIdeal.main_v348) ((kAt_63 0 (by decide)).trans rfl) (by decide +kernel) (not_mem_drop_of_lt kND (j := 516) (by decide +kernel) (by decide)) XK).trans
    (Eq.trans ?_ (at_unary rWAF rNDF 559 (y := Cert.ReferenceIdeal.main_v359) ((rAt_8 19 (by decide)).trans rfl) (by decide +kernel) (not_mem_drop_of_lt rNDF (j := 537) (by decide +kernel) (by decide)) XR).symm)
  rw [e516 H]
  all_goals rfl

theorem e539 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v349) = after rOpsF XR (Proc.devRef .tc Cert.ReferenceIdeal.main_v360) := by
  refine (at_unary kWA kND 539 (y := Cert.KernelIdeal.main_v349) ((kAt_63 1 (by decide)).trans rfl) (by decide +kernel) (not_mem_drop_of_lt kND (j := 537) (by decide +kernel) (by decide)) XK).trans
    (Eq.trans ?_ (at_unary rWAF rNDF 560 (y := Cert.ReferenceIdeal.main_v360) ((rAt_8 20 (by decide)).trans rfl) (by decide +kernel) (not_mem_drop_of_lt rNDF (j := 558) (by decide +kernel) (by decide)) XR).symm)
  rw [e537 H]
  all_goals rfl

theorem e540 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v350) = after rOpsF XR (Proc.devRef .tc Cert.ReferenceIdeal.main_v361) := by
  refine (at_binary kWA kND 540 (y := Cert.KernelIdeal.main_v350) ((kAt_63 2 (by decide)).trans rfl) (by decide +kernel) (not_mem_drop_of_lt kND (j := 538) (by decide +kernel) (by decide)) (not_mem_drop_of_lt kND (j := 539) (by decide +kernel) (by decide)) XK).trans
    (Eq.trans ?_ (at_binary rWAF rNDF 561 (y := Cert.ReferenceIdeal.main_v361) ((rAt_8 21 (by decide)).trans rfl) (by decide +kernel) (not_mem_drop_of_lt rNDF (j := 559) (by decide +kernel) (by decide)) (not_mem_drop_of_lt rNDF (j := 560) (by decide +kernel) (by decide)) XR).symm)
  rw [e538 H, e539 H]
  all_goals rfl

theorem e541 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v351) = after rOpsF XR (Proc.devRef .tc Cert.ReferenceIdeal.main_v362) := by
  refine (at_unary kWA kND 541 (y := Cert.KernelIdeal.main_v351) ((kAt_63 3 (by decide)).trans rfl) (by decide +kernel) (not_mem_drop_of_lt kND (j := 290) (by decide +kernel) (by decide)) XK).trans
    (Eq.trans ?_ (at_unary rWAF rNDF 562 (y := Cert.ReferenceIdeal.main_v362) ((rAt_8 22 (by decide)).trans rfl) (by decide +kernel) (not_mem_drop_of_lt rNDF (j := 311) (by decide +kernel) (by decide)) XR).symm)
  rw [e290 H]
  all_goals rfl

theorem e542 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v352) = after rOpsF XR (Proc.devRef .tc Cert.ReferenceIdeal.main_v363) := by
  refine (at_unary kWA kND 542 (y := Cert.KernelIdeal.main_v352) ((kAt_63 4 (by decide)).trans rfl) (by decide +kernel) (not_mem_drop_of_lt kND (j := 293) (by decide +kernel) (by decide)) XK).trans
    (Eq.trans ?_ (at_unary rWAF rNDF 563 (y := Cert.ReferenceIdeal.main_v363) ((rAt_8 23 (by decide)).trans rfl) (by decide +kernel) (not_mem_drop_of_lt rNDF (j := 314) (by decide +kernel) (by decide)) XR).symm)
  rw [e293 H]
  all_goals rfl

theorem e543 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v353) = after rOpsF XR (Proc.devRef .tc Cert.ReferenceIdeal.main_v364) := by
  refine (at_binary kWA kND 543 (y := Cert.KernelIdeal.main_v353) ((kAt_63 5 (by decide)).trans rfl) (by decide +kernel) (not_mem_drop_of_lt kND (j := 541) (by decide +kernel) (by decide)) (not_mem_drop_of_lt kND (j := 542) (by decide +kernel) (by decide)) XK).trans
    (Eq.trans ?_ (at_binary rWAF rNDF 564 (y := Cert.ReferenceIdeal.main_v364) ((rAt_8 24 (by decide)).trans rfl) (by decide +kernel) (not_mem_drop_of_lt rNDF (j := 562) (by decide +kernel) (by decide)) (not_mem_drop_of_lt rNDF (j := 563) (by decide +kernel) (by decide)) XR).symm)
  rw [e541 H, e542 H]
  all_goals rfl

theorem e544 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v354) = after rOpsF XR (Proc.devRef .tc Cert.ReferenceIdeal.main_v365) := by
  refine (at_unary kWA kND 544 (y := Cert.KernelIdeal.main_v354) ((kAt_63 6 (by decide)).trans rfl) (by decide +kernel) (not_mem_drop_of_lt kND (j := 543) (by decide +kernel) (by decide)) XK).trans
    (Eq.trans ?_ (at_unary rWAF rNDF 565 (y := Cert.ReferenceIdeal.main_v365) ((rAt_8 25 (by decide)).trans rfl) (by decide +kernel) (not_mem_drop_of_lt rNDF (j := 564) (by decide +kernel) (by decide)) XR).symm)
  rw [e543 H]
  all_goals rfl

theorem e545 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_128) = after rOpsF XR (Proc.devRef .tc Cert.ReferenceIdeal.main_cst_134) := by
  refine (at_nullary kWA kND 545 (y := Cert.KernelIdeal.main_cst_128) ((kAt_63 7 (by decide)).trans rfl) (by decide +kernel) XK).trans
    (Eq.trans ?_ (at_nullary rWAF rNDF 566 (y := Cert.ReferenceIdeal.main_cst_134) ((rAt_8 26 (by decide)).trans rfl) (by decide +kernel) XR).symm)
  rfl

theorem e546 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v355) = after rOpsF XR (Proc.devRef .tc Cert.ReferenceIdeal.main_v366) := by
  refine (at_binary kWA kND 546 (y := Cert.KernelIdeal.main_v355) ((kAt_63 8 (by decide)).trans rfl) (by decide +kernel) (not_mem_drop_of_lt kND (j := 544) (by decide +kernel) (by decide)) (not_mem_drop_of_lt kND (j := 545) (by decide +kernel) (by decide)) XK).trans
    (Eq.trans ?_ (at_binary rWAF rNDF 567 (y := Cert.ReferenceIdeal.main_v366) ((rAt_8 27 (by decide)).trans rfl) (by decide +kernel) (not_mem_drop_of_lt rNDF (j := 565) (by decide +kernel) (by decide)) (not_mem_drop_of_lt rNDF (j := 566) (by decide +kernel) (by decide)) XR).symm)
  rw [e544 H, e545 H]
  all_goals rfl

theorem e547 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_129) = after rOpsF XR (Proc.devRef .tc Cert.ReferenceIdeal.main_cst_135) := by
  refine (at_nullary kWA kND 547 (y := Cert.KernelIdeal.main_cst_129) ((kAt_63 9 (by decide)).trans rfl) (by decide +kernel) XK).trans
    (Eq.trans ?_ (at_nullary rWAF rNDF 568 (y := Cert.ReferenceIdeal.main_cst_135) ((rAt_8 28 (by decide)).trans rfl) (by decide +kernel) XR).symm)
  rfl

theorem e548 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v356) = after rOpsF XR (Proc.devRef .tc Cert.ReferenceIdeal.main_v367) := by
  refine (at_binary kWA kND 548 (y := Cert.KernelIdeal.main_v356) ((kAt_63 10 (by decide)).trans rfl) (by decide +kernel) (not_mem_drop_of_lt kND (j := 546) (by decide +kernel) (by decide)) (not_mem_drop_of_lt kND (j := 547) (by decide +kernel) (by decide)) XK).trans
    (Eq.trans ?_ (at_binary rWAF rNDF 569 (y := Cert.ReferenceIdeal.main_v367) ((rAt_8 29 (by decide)).trans rfl) (by decide +kernel) (not_mem_drop_of_lt rNDF (j := 567) (by decide +kernel) (by decide)) (not_mem_drop_of_lt rNDF (j := 568) (by decide +kernel) (by decide)) XR).symm)
  rw [e546 H, e547 H]
  all_goals rfl

theorem e549 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v357) = after rOpsF XR (Proc.devRef .tc Cert.ReferenceIdeal.main_v368) := by
  refine (at_binary kWA kND 549 (y := Cert.KernelIdeal.main_v357) ((kAt_63 11 (by decide)).trans rfl) (by decide +kernel) (not_mem_drop_of_lt kND (j := 540) (by decide +kernel) (by decide)) (not_mem_drop_of_lt kND (j := 544) (by decide +kernel) (by decide)) XK).trans
    (Eq.trans ?_ (at_binary rWAF rNDF 570 (y := Cert.ReferenceIdeal.main_v368) ((rAt_8 30 (by decide)).trans rfl) (by decide +kernel) (not_mem_drop_of_lt rNDF (j := 561) (by decide +kernel) (by decide)) (not_mem_drop_of_lt rNDF (j := 565) (by decide +kernel) (by decide)) XR).symm)
  rw [e540 H, e544 H]
  all_goals rfl

theorem e550 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_130) = after rOpsF XR (Proc.devRef .tc Cert.ReferenceIdeal.main_cst_136) := by
  refine (at_nullary kWA kND 550 (y := Cert.KernelIdeal.main_cst_130) ((kAt_63 12 (by decide)).trans rfl) (by decide +kernel) XK).trans
    (Eq.trans ?_ (at_nullary rWAF rNDF 571 (y := Cert.ReferenceIdeal.main_cst_136) ((rAt_8 31 (by decide)).trans rfl) (by decide +kernel) XR).symm)
  rfl

theorem e551 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v358) = after rOpsF XR (Proc.devRef .tc Cert.ReferenceIdeal.main_v369) := by
  refine (at_binary kWA kND 551 (y := Cert.KernelIdeal.main_v358) ((kAt_63 13 (by decide)).trans rfl) (by decide +kernel) (not_mem_drop_of_lt kND (j := 549) (by decide +kernel) (by decide)) (not_mem_drop_of_lt kND (j := 550) (by decide +kernel) (by decide)) XK).trans
    (Eq.trans ?_ (at_binary rWAF rNDF 572 (y := Cert.ReferenceIdeal.main_v369) ((rAt_8 32 (by decide)).trans rfl) (by decide +kernel) (not_mem_drop_of_lt rNDF (j := 570) (by decide +kernel) (by decide)) (not_mem_drop_of_lt rNDF (j := 571) (by decide +kernel) (by decide)) XR).symm)
  rw [e549 H, e550 H]
  all_goals rfl

theorem e552 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_131) = after rOpsF XR (Proc.devRef .tc Cert.ReferenceIdeal.main_cst_137) := by
  refine (at_nullary kWA kND 552 (y := Cert.KernelIdeal.main_cst_131) ((kAt_63 14 (by decide)).trans rfl) (by decide +kernel) XK).trans
    (Eq.trans ?_ (at_nullary rWAF rNDF 573 (y := Cert.ReferenceIdeal.main_cst_137) ((rAt_8 33 (by decide)).trans rfl) (by decide +kernel) XR).symm)
  rfl

theorem e553 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v359) = after rOpsF XR (Proc.devRef .tc Cert.ReferenceIdeal.main_v370) := by
  refine (at_binary kWA kND 553 (y := Cert.KernelIdeal.main_v359) ((kAt_63 15 (by decide)).trans rfl) (by decide +kernel) (not_mem_drop_of_lt kND (j := 546) (by decide +kernel) (by decide)) (not_mem_drop_of_lt kND (j := 552) (by decide +kernel) (by decide)) XK).trans
    (Eq.trans ?_ (at_binary rWAF rNDF 574 (y := Cert.ReferenceIdeal.main_v370) ((rAt_8 34 (by decide)).trans rfl) (by decide +kernel) (not_mem_drop_of_lt rNDF (j := 567) (by decide +kernel) (by decide)) (not_mem_drop_of_lt rNDF (j := 573) (by decide +kernel) (by decide)) XR).symm)
  rw [e546 H, e552 H]
  all_goals rfl

theorem e554 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v360) = after rOpsF XR (Proc.devRef .tc Cert.ReferenceIdeal.main_v371) := by
  refine (at_binary kWA kND 554 (y := Cert.KernelIdeal.main_v360) ((kAt_63 16 (by decide)).trans rfl) (by decide +kernel) (not_mem_drop_of_lt kND (j := 551) (by decide +kernel) (by decide)) (not_mem_drop_of_lt kND (j := 553) (by decide +kernel) (by decide)) XK).trans
    (Eq.trans ?_ (at_binary rWAF rNDF 575 (y := Cert.ReferenceIdeal.main_v371) ((rAt_8 35 (by decide)).trans rfl) (by decide +kernel) (not_mem_drop_of_lt rNDF (j := 572) (by decide +kernel) (by decide)) (not_mem_drop_of_lt rNDF (j := 574) (by decide +kernel) (by decide)) XR).symm)
  rw [e551 H, e553 H]
  all_goals rfl

theorem e555 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_132) = after rOpsF XR (Proc.devRef .tc Cert.ReferenceIdeal.main_cst_138) := by
  refine (at_nullary kWA kND 555 (y := Cert.KernelIdeal.main_cst_132) ((kAt_63 17 (by decide)).trans rfl) (by decide +kernel) XK).trans
    (Eq.trans ?_ (at_nullary rWAF rNDF 576 (y := Cert.ReferenceIdeal.main_cst_138) ((rAt_8 36 (by decide)).trans rfl) (by decide +kernel) XR).symm)
  rfl

theorem e556 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call32_v0) = after rOpsF XR (Proc.devRef .tc Cert.ReferenceIdeal.main_call32_v0) := by
  refine (at_unary kWA kND 556 (y := Cert.KernelIdeal.main_call32_v0) ((kAt_64 0 (by decide)).trans rfl) (by decide +kernel) (not_mem_drop_of_lt kND (j := 555) (by decide +kernel) (by decide)) XK).trans
    (Eq.trans ?_ (at_unary rWAF rNDF 577 (y := Cert.ReferenceIdeal.main_call32_v0) ((rAt_8 37 (by decide)).trans rfl) (by decide +kernel) (not_mem_drop_of_lt rNDF (j := 576) (by decide +kernel) (by decide)) XR).symm)
  rw [e555 H]
  all_goals rfl

theorem e557 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v361) = after rOpsF XR (Proc.devRef .tc Cert.ReferenceIdeal.main_v372) := by
  refine (at_ternary kWA kND 557 (y := Cert.KernelIdeal.main_v361) ((kAt_64 1 (by decide)).trans rfl) (by decide +kernel) (not_mem_drop_of_lt kND (j := 548) (by decide +kernel) (by decide)) (not_mem_drop_of_lt kND (j := 554) (by decide +kernel) (by decide)) (not_mem_drop_of_lt kND (j := 556) (by decide +kernel) (by decide)) XK).trans
    (Eq.trans ?_ (at_ternary rWAF rNDF 578 (y := Cert.ReferenceIdeal.main_v372) ((rAt_8 38 (by decide)).trans rfl) (by decide +kernel) (not_mem_drop_of_lt rNDF (j := 569) (by decide +kernel) (by decide)) (not_mem_drop_of_lt rNDF (j := 575) (by decide +kernel) (by decide)) (not_mem_drop_of_lt rNDF (j := 577) (by decide +kernel) (by decide)) XR).symm)
  rw [e548 H, e554 H, e556 H]
  all_goals rfl

theorem e558 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v362) = after rOpsF XR (Proc.devRef .tc Cert.ReferenceIdeal.main_v373) := by
  refine (at_unary kWA kND 558 (y := Cert.KernelIdeal.main_v362) ((kAt_65 0 (by decide)).trans rfl) (by decide +kernel) (not_mem_drop_of_lt kND (j := 283) (by decide +kernel) (by decide)) XK).trans
    (Eq.trans ?_ (at_unary rWAF rNDF 579 (y := Cert.ReferenceIdeal.main_v373) ((rAt_8 39 (by decide)).trans rfl) (by decide +kernel) (not_mem_drop_of_lt rNDF (j := 304) (by decide +kernel) (by decide)) XR).symm)
  rw [e283 H]
  all_goals rfl

theorem e559 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_133) = after rOpsF XR (Proc.devRef .tc Cert.ReferenceIdeal.main_c_139) := by
  refine (at_nullary kWA kND 559 (y := Cert.KernelIdeal.main_c_133) ((kAt_65 1 (by decide)).trans rfl) (by decide +kernel) XK).trans
    (Eq.trans ?_ (at_nullary rWAF rNDF 580 (y := Cert.ReferenceIdeal.main_c_139) ((rAt_8 40 (by decide)).trans rfl) (by decide +kernel) XR).symm)
  rfl

theorem e560 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v363) = after rOpsF XR (Proc.devRef .tc Cert.ReferenceIdeal.main_v374) := by
  refine (at_binary kWA kND 560 (y := Cert.KernelIdeal.main_v363) ((kAt_65 2 (by decide)).trans rfl) (by decide +kernel) (not_mem_drop_of_lt kND (j := 558) (by decide +kernel) (by decide)) (not_mem_drop_of_lt kND (j := 559) (by decide +kernel) (by decide)) XK).trans
    (Eq.trans ?_ (at_binary rWAF rNDF 581 (y := Cert.ReferenceIdeal.main_v374) ((rAt_8 41 (by decide)).trans rfl) (by decide +kernel) (not_mem_drop_of_lt rNDF (j := 579) (by decide +kernel) (by decide)) (not_mem_drop_of_lt rNDF (j := 580) (by decide +kernel) (by decide)) XR).symm)
  rw [e558 H, e559 H]
  all_goals rfl

theorem e561 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_134) = after rOpsF XR (Proc.devRef .tc Cert.ReferenceIdeal.main_c_140) := by
  refine (at_nullary kWA kND 561 (y := Cert.KernelIdeal.main_c_134) ((kAt_65 3 (by decide)).trans rfl) (by decide +kernel) XK).trans
    (Eq.trans ?_ (at_nullary rWAF rNDF 582 (y := Cert.ReferenceIdeal.main_c_140) ((rAt_8 42 (by decide)).trans rfl) (by decide +kernel) XR).symm)
  rfl

theorem e562 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v364) = after rOpsF XR (Proc.devRef .tc Cert.ReferenceIdeal.main_v375) := by
  refine (at_unary kWA kND 562 (y := Cert.KernelIdeal.main_v364) ((kAt_65 4 (by decide)).trans rfl) (by decide +kernel) (not_mem_drop_of_lt kND (j := 561) (by decide +kernel) (by decide)) XK).trans
    (Eq.trans ?_ (at_unary rWAF rNDF 583 (y := Cert.ReferenceIdeal.main_v375) ((rAt_8 43 (by decide)).trans rfl) (by decide +kernel) (not_mem_drop_of_lt rNDF (j := 582) (by decide +kernel) (by decide)) XR).symm)
  rw [e561 H]
  all_goals rfl

theorem e563 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v365) = after rOpsF XR (Proc.devRef .tc Cert.ReferenceIdeal.main_v376) := by
  refine (at_binary kWA kND 563 (y := Cert.KernelIdeal.main_v365) ((kAt_65 5 (by decide)).trans rfl) (by decide +kernel) (not_mem_drop_of_lt kND (j := 560) (by decide +kernel) (by decide)) (not_mem_drop_of_lt kND (j := 562) (by decide +kernel) (by decide)) XK).trans
    (Eq.trans ?_ (at_binary rWAF rNDF 584 (y := Cert.ReferenceIdeal.main_v376) ((rAt_8 44 (by decide)).trans rfl) (by decide +kernel) (not_mem_drop_of_lt rNDF (j := 581) (by decide +kernel) (by decide)) (not_mem_drop_of_lt rNDF (j := 583) (by decide +kernel) (by decide)) XR).symm)
  rw [e560 H, e562 H]
  all_goals rfl

theorem e564 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_135) = after rOpsF XR (Proc.devRef .tc Cert.ReferenceIdeal.main_cst_141) := by
  refine (at_nullary kWA kND 564 (y := Cert.KernelIdeal.main_cst_135) ((kAt_65 6 (by decide)).trans rfl) (by decide +kernel) XK).trans
    (Eq.trans ?_ (at_nullary rWAF rNDF 585 (y := Cert.ReferenceIdeal.main_cst_141) ((rAt_8 45 (by decide)).trans rfl) (by decide +kernel) XR).symm)
  rfl

theorem e565 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call33_v0) = after rOpsF XR (Proc.devRef .tc Cert.ReferenceIdeal.main_call33_v0) := by
  refine (at_unary kWA kND 565 (y := Cert.KernelIdeal.main_call33_v0) ((kAt_66 0 (by decide)).trans rfl) (by decide +kernel) (not_mem_drop_of_lt kND (j := 564) (by decide +kernel) (by decide)) XK).trans
    (Eq.trans ?_ (at_unary rWAF rNDF 586 (y := Cert.ReferenceIdeal.main_call33_v0) ((rAt_8 46 (by decide)).trans rfl) (by decide +kernel) (not_mem_drop_of_lt rNDF (j := 585) (by decide +kernel) (by decide)) XR).symm)
  rw [e564 H]
  all_goals rfl

theorem e566 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call33_v1) = after rOpsF XR (Proc.devRef .tc Cert.ReferenceIdeal.main_call33_v1) := by
  refine (at_unary kWA kND 566 (y := Cert.KernelIdeal.main_call33_v1) ((kAt_66 1 (by decide)).trans rfl) (by decide +kernel) (not_mem_drop_of_lt kND (j := 565) (by decide +kernel) (by decide)) XK).trans
    (Eq.trans ?_ (at_unary rWAF rNDF 587 (y := Cert.ReferenceIdeal.main_call33_v1) ((rAt_8 47 (by decide)).trans rfl) (by decide +kernel) (not_mem_drop_of_lt rNDF (j := 586) (by decide +kernel) (by decide)) XR).symm)
  rw [e565 H]
  all_goals rfl

theorem e567 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v366) = after rOpsF XR (Proc.devRef .tc Cert.ReferenceIdeal.main_v377) := by
  refine (at_ternary kWA kND 567 (y := Cert.KernelIdeal.main_v366) ((kAt_66 2 (by decide)).trans rfl) (by decide +kernel) (not_mem_drop_of_lt kND (j := 283) (by decide +kernel) (by decide)) (not_mem_drop_of_lt kND (j := 67) (by decide +kernel) (by decide)) (not_mem_drop_of_lt kND (j := 566) (by decide +kernel) (by decide)) XK).trans
    (Eq.trans ?_ (at_ternary rWAF rNDF 588 (y := Cert.ReferenceIdeal.main_v377) ((rAt_8 48 (by decide)).trans rfl) (by decide +kernel) (not_mem_drop_of_lt rNDF (j := 304) (by decide +kernel) (by decide)) (not_mem_drop_of_lt rNDF (j := 88) (by decide +kernel) (by decide)) (not_mem_drop_of_lt rNDF (j := 587) (by decide +kernel) (by decide)) XR).symm)
  rw [e283 H, e67 H, e566 H]
  all_goals rfl

theorem e568 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_136) = after rOpsF XR (Proc.devRef .tc Cert.ReferenceIdeal.main_cst_142) := by
  refine (at_nullary kWA kND 568 (y := Cert.KernelIdeal.main_cst_136) ((kAt_67 0 (by decide)).trans rfl) (by decide +kernel) XK).trans
    (Eq.trans ?_ (at_nullary rWAF rNDF 589 (y := Cert.ReferenceIdeal.main_cst_142) ((rAt_8 49 (by decide)).trans rfl) (by decide +kernel) XR).symm)
  rfl

theorem e569 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v367) = after rOpsF XR (Proc.devRef .tc Cert.ReferenceIdeal.main_v378) := by
  refine (at_binary kWA kND 569 (y := Cert.KernelIdeal.main_v367) ((kAt_67 1 (by decide)).trans rfl) (by decide +kernel) (not_mem_drop_of_lt kND (j := 567) (by decide +kernel) (by decide)) (not_mem_drop_of_lt kND (j := 568) (by decide +kernel) (by decide)) XK).trans
    (Eq.trans ?_ (at_binary rWAF rNDF 590 (y := Cert.ReferenceIdeal.main_v378) ((rAt_8 50 (by decide)).trans rfl) (by decide +kernel) (not_mem_drop_of_lt rNDF (j := 588) (by decide +kernel) (by decide)) (not_mem_drop_of_lt rNDF (j := 589) (by decide +kernel) (by decide)) XR).symm)
  rw [e567 H, e568 H]
  all_goals rfl

theorem e570 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_137) = after rOpsF XR (Proc.devRef .tc Cert.ReferenceIdeal.main_c_143) := by
  refine (at_nullary kWA kND 570 (y := Cert.KernelIdeal.main_c_137) ((kAt_67 2 (by decide)).trans rfl) (by decide +kernel) XK).trans
    (Eq.trans ?_ (at_nullary rWAF rNDF 591 (y := Cert.ReferenceIdeal.main_c_143) ((rAt_8 51 (by decide)).trans rfl) (by decide +kernel) XR).symm)
  rfl

theorem e571 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v368) = after rOpsF XR (Proc.devRef .tc Cert.ReferenceIdeal.main_v379) := by
  refine (at_unary kWA kND 571 (y := Cert.KernelIdeal.main_v368) ((kAt_67 3 (by decide)).trans rfl) (by decide +kernel) (not_mem_drop_of_lt kND (j := 570) (by decide +kernel) (by decide)) XK).trans
    (Eq.trans ?_ (at_unary rWAF rNDF 592 (y := Cert.ReferenceIdeal.main_v379) ((rAt_8 52 (by decide)).trans rfl) (by decide +kernel) (not_mem_drop_of_lt rNDF (j := 591) (by decide +kernel) (by decide)) XR).symm)
  rw [e570 H]
  all_goals rfl

theorem e572 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v369) = after rOpsF XR (Proc.devRef .tc Cert.ReferenceIdeal.main_v380) := by
  refine (at_binary kWA kND 572 (y := Cert.KernelIdeal.main_v369) ((kAt_67 4 (by decide)).trans rfl) (by decide +kernel) (not_mem_drop_of_lt kND (j := 560) (by decide +kernel) (by decide)) (not_mem_drop_of_lt kND (j := 571) (by decide +kernel) (by decide)) XK).trans
    (Eq.trans ?_ (at_binary rWAF rNDF 593 (y := Cert.ReferenceIdeal.main_v380) ((rAt_8 53 (by decide)).trans rfl) (by decide +kernel) (not_mem_drop_of_lt rNDF (j := 581) (by decide +kernel) (by decide)) (not_mem_drop_of_lt rNDF (j := 592) (by decide +kernel) (by decide)) XR).symm)
  rw [e560 H, e571 H]
  all_goals rfl

theorem e573 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v370) = after rOpsF XR (Proc.devRef .tc Cert.ReferenceIdeal.main_v381) := by
  refine (at_unary kWA kND 573 (y := Cert.KernelIdeal.main_v370) ((kAt_67 5 (by decide)).trans rfl) (by decide +kernel) (not_mem_drop_of_lt kND (j := 572) (by decide +kernel) (by decide)) XK).trans
    (Eq.trans ?_ (at_unary rWAF rNDF 594 (y := Cert.ReferenceIdeal.main_v381) ((rAt_8 54 (by decide)).trans rfl) (by decide +kernel) (not_mem_drop_of_lt rNDF (j := 593) (by decide +kernel) (by decide)) XR).symm)
  rw [e572 H]
  all_goals rfl

theorem e574 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v371) = after rOpsF XR (Proc.devRef .tc Cert.ReferenceIdeal.main_v382) := by
  refine (at_binary kWA kND 574 (y := Cert.KernelIdeal.main_v371) ((kAt_67 6 (by decide)).trans rfl) (by decide +kernel) (not_mem_drop_of_lt kND (j := 569) (by decide +kernel) (by decide)) (not_mem_drop_of_lt kND (j := 573) (by decide +kernel) (by decide)) XK).trans
    (Eq.trans ?_ (at_binary rWAF rNDF 595 (y := Cert.ReferenceIdeal.main_v382) ((rAt_8 55 (by decide)).trans rfl) (by decide +kernel) (not_mem_drop_of_lt rNDF (j := 590) (by decide +kernel) (by decide)) (not_mem_drop_of_lt rNDF (j := 594) (by decide +kernel) (by decide)) XR).symm)
  rw [e569 H, e573 H]
  all_goals rfl

theorem e575 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_138) = after rOpsF XR (Proc.devRef .tc Cert.ReferenceIdeal.main_cst_144) := by
  refine (at_nullary kWA kND 575 (y := Cert.KernelIdeal.main_cst_138) ((kAt_67 7 (by decide)).trans rfl) (by decide +kernel) XK).trans
    (Eq.trans ?_ (at_nullary rWAF rNDF 596 (y := Cert.ReferenceIdeal.main_cst_144) ((rAt_8 56 (by decide)).trans rfl) (by decide +kernel) XR).symm)
  rfl

theorem e576 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call34_v0) = after rOpsF XR (Proc.devRef .tc Cert.ReferenceIdeal.main_call34_v0) := by
  refine (at_unary kWA kND 576 (y := Cert.KernelIdeal.main_call34_v0) ((kAt_68 0 (by decide)).trans rfl) (by decide +kernel) (not_mem_drop_of_lt kND (j := 575) (by decide +kernel) (by decide)) XK).trans
    (Eq.trans ?_ (at_unary rWAF rNDF 597 (y := Cert.ReferenceIdeal.main_call34_v0) ((rAt_8 57 (by decide)).trans rfl) (by decide +kernel) (not_mem_drop_of_lt rNDF (j := 596) (by decide +kernel) (by decide)) XR).symm)
  rw [e575 H]
  all_goals rfl

theorem e577 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call34_v1) = after rOpsF XR (Proc.devRef .tc Cert.ReferenceIdeal.main_call34_v1) := by
  refine (at_unary kWA kND 577 (y := Cert.KernelIdeal.main_call34_v1) ((kAt_68 1 (by decide)).trans rfl) (by decide +kernel) (not_mem_drop_of_lt kND (j := 576) (by decide +kernel) (by decide)) XK).trans
    (Eq.trans ?_ (at_unary rWAF rNDF 598 (y := Cert.ReferenceIdeal.main_call34_v1) ((rAt_8 58 (by decide)).trans rfl) (by decide +kernel) (not_mem_drop_of_lt rNDF (j := 597) (by decide +kernel) (by decide)) XR).symm)
  rw [e576 H]
  all_goals rfl

theorem e578 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v372) = after rOpsF XR (Proc.devRef .tc Cert.ReferenceIdeal.main_v383) := by
  refine (at_ternary kWA kND 578 (y := Cert.KernelIdeal.main_v372) ((kAt_68 2 (by decide)).trans rfl) (by decide +kernel) (not_mem_drop_of_lt kND (j := 563) (by decide +kernel) (by decide)) (not_mem_drop_of_lt kND (j := 574) (by decide +kernel) (by decide)) (not_mem_drop_of_lt kND (j := 577) (by decide +kernel) (by decide)) XK).trans
    (Eq.trans ?_ (at_ternary rWAF rNDF 599 (y := Cert.ReferenceIdeal.main_v383) ((rAt_8 59 (by decide)).trans rfl) (by decide +kernel) (not_mem_drop_of_lt rNDF (j := 584) (by decide +kernel) (by decide)) (not_mem_drop_of_lt rNDF (j := 595) (by decide +kernel) (by decide)) (not_mem_drop_of_lt rNDF (j := 598) (by decide +kernel) (by decide)) XR).symm)
  rw [e563 H, e574 H, e577 H]
  all_goals rfl

theorem e579 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v373) = after rOpsF XR (Proc.devRef .tc Cert.ReferenceIdeal.main_v384) := by
  refine (at_unary kWA kND 579 (y := Cert.KernelIdeal.main_v373) ((kAt_69 0 (by decide)).trans rfl) (by decide +kernel) (not_mem_drop_of_lt kND (j := 287) (by decide +kernel) (by decide)) XK).trans
    (Eq.trans ?_ (at_unary rWAF rNDF 600 (y := Cert.ReferenceIdeal.main_v384) ((rAt_8 60 (by decide)).trans rfl) (by decide +kernel) (not_mem_drop_of_lt rNDF (j := 308) (by decide +kernel) (by decide)) XR).symm)
  rw [e287 H]
  all_goals rfl

theorem e580 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_139) = after rOpsF XR (Proc.devRef .tc Cert.ReferenceIdeal.main_c_145) := by
  refine (at_nullary kWA kND 580 (y := Cert.KernelIdeal.main_c_139) ((kAt_69 1 (by decide)).trans rfl) (by decide +kernel) XK).trans
    (Eq.trans ?_ (at_nullary rWAF rNDF 601 (y := Cert.ReferenceIdeal.main_c_145) ((rAt_8 61 (by decide)).trans rfl) (by decide +kernel) XR).symm)
  rfl

theorem e581 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v374) = after rOpsF XR (Proc.devRef .tc Cert.ReferenceIdeal.main_v385) := by
  refine (at_binary kWA kND 581 (y := Cert.KernelIdeal.main_v374) ((kAt_69 2 (by decide)).trans rfl) (by decide +kernel) (not_mem_drop_of_lt kND (j := 579) (by decide +kernel) (by decide)) (not_mem_drop_of_lt kND (j := 580) (by decide +kernel) (by decide)) XK).trans
    (Eq.trans ?_ (at_binary rWAF rNDF 602 (y := Cert.ReferenceIdeal.main_v385) ((rAt_8 62 (by decide)).trans rfl) (by decide +kernel) (not_mem_drop_of_lt rNDF (j := 600) (by decide +kernel) (by decide)) (not_mem_drop_of_lt rNDF (j := 601) (by decide +kernel) (by decide)) XR).symm)
  rw [e579 H, e580 H]
  all_goals rfl

theorem e582 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_140) = after rOpsF XR (Proc.devRef .tc Cert.ReferenceIdeal.main_c_146) := by
  refine (at_nullary kWA kND 582 (y := Cert.KernelIdeal.main_c_140) ((kAt_69 3 (by decide)).trans rfl) (by decide +kernel) XK).trans
    (Eq.trans ?_ (at_nullary rWAF rNDF 603 (y := Cert.ReferenceIdeal.main_c_146) ((rAt_8 63 (by decide)).trans rfl) (by decide +kernel) XR).symm)
  rfl

theorem e583 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v375) = after rOpsF XR (Proc.devRef .tc Cert.ReferenceIdeal.main_v386) := by
  refine (at_unary kWA kND 583 (y := Cert.KernelIdeal.main_v375) ((kAt_69 4 (by decide)).trans rfl) (by decide +kernel) (not_mem_drop_of_lt kND (j := 582) (by decide +kernel) (by decide)) XK).trans
    (Eq.trans ?_ (at_unary rWAF rNDF 604 (y := Cert.ReferenceIdeal.main_v386) ((rAt_8 64 (by decide)).trans rfl) (by decide +kernel) (not_mem_drop_of_lt rNDF (j := 603) (by decide +kernel) (by decide)) XR).symm)
  rw [e582 H]
  all_goals rfl

theorem e584 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v376) = after rOpsF XR (Proc.devRef .tc Cert.ReferenceIdeal.main_v387) := by
  refine (at_binary kWA kND 584 (y := Cert.KernelIdeal.main_v376) ((kAt_69 5 (by decide)).trans rfl) (by decide +kernel) (not_mem_drop_of_lt kND (j := 581) (by decide +kernel) (by decide)) (not_mem_drop_of_lt kND (j := 583) (by decide +kernel) (by decide)) XK).trans
    (Eq.trans ?_ (at_binary rWAF rNDF 605 (y := Cert.ReferenceIdeal.main_v387) ((rAt_8 65 (by decide)).trans rfl) (by decide +kernel) (not_mem_drop_of_lt rNDF (j := 602) (by decide +kernel) (by decide)) (not_mem_drop_of_lt rNDF (j := 604) (by decide +kernel) (by decide)) XR).symm)
  rw [e581 H, e583 H]
  all_goals rfl

theorem e585 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_141) = after rOpsF XR (Proc.devRef .tc Cert.ReferenceIdeal.main_cst_147) := by
  refine (at_nullary kWA kND 585 (y := Cert.KernelIdeal.main_cst_141) ((kAt_69 6 (by decide)).trans rfl) (by decide +kernel) XK).trans
    (Eq.trans ?_ (at_nullary rWAF rNDF 606 (y := Cert.ReferenceIdeal.main_cst_147) ((rAt_8 66 (by decide)).trans rfl) (by decide +kernel) XR).symm)
  rfl

theorem e586 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call35_v0) = after rOpsF XR (Proc.devRef .tc Cert.ReferenceIdeal.main_call35_v0) := by
  refine (at_unary kWA kND 586 (y := Cert.KernelIdeal.main_call35_v0) ((kAt_70 0 (by decide)).trans rfl) (by decide +kernel) (not_mem_drop_of_lt kND (j := 585) (by decide +kernel) (by decide)) XK).trans
    (Eq.trans ?_ (at_unary rWAF rNDF 607 (y := Cert.ReferenceIdeal.main_call35_v0) ((rAt_8 67 (by decide)).trans rfl) (by decide +kernel) (not_mem_drop_of_lt rNDF (j := 606) (by decide +kernel) (by decide)) XR).symm)
  rw [e585 H]
  all_goals rfl

theorem e587 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call35_v1) = after rOpsF XR (Proc.devRef .tc Cert.ReferenceIdeal.main_call35_v1) := by
  refine (at_unary kWA kND 587 (y := Cert.KernelIdeal.main_call35_v1) ((kAt_70 1 (by decide)).trans rfl) (by decide +kernel) (not_mem_drop_of_lt kND (j := 586) (by decide +kernel) (by decide)) XK).trans
    (Eq.trans ?_ (at_unary rWAF rNDF 608 (y := Cert.ReferenceIdeal.main_call35_v1) ((rAt_8 68 (by decide)).trans rfl) (by decide +kernel) (not_mem_drop_of_lt rNDF (j := 607) (by decide +kernel) (by decide)) XR).symm)
  rw [e586 H]
  all_goals rfl

theorem e588 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v377) = after rOpsF XR (Proc.devRef .tc Cert.ReferenceIdeal.main_v388) := by
  refine (at_ternary kWA kND 588 (y := Cert.KernelIdeal.main_v377) ((kAt_70 2 (by decide)).trans rfl) (by decide +kernel) (not_mem_drop_of_lt kND (j := 287) (by decide +kernel) (by decide)) (not_mem_drop_of_lt kND (j := 54) (by decide +kernel) (by decide)) (not_mem_drop_of_lt kND (j := 587) (by decide +kernel) (by decide)) XK).trans
    (Eq.trans ?_ (at_ternary rWAF rNDF 609 (y := Cert.ReferenceIdeal.main_v388) ((rAt_8 69 (by decide)).trans rfl) (by decide +kernel) (not_mem_drop_of_lt rNDF (j := 308) (by decide +kernel) (by decide)) (not_mem_drop_of_lt rNDF (j := 75) (by decide +kernel) (by decide)) (not_mem_drop_of_lt rNDF (j := 608) (by decide +kernel) (by decide)) XR).symm)
  rw [e287 H, e54 H, e587 H]
  all_goals rfl

theorem e589 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_142) = after rOpsF XR (Proc.devRef .tc Cert.ReferenceIdeal.main_cst_148) := by
  refine (at_nullary kWA kND 589 (y := Cert.KernelIdeal.main_cst_142) ((kAt_71 0 (by decide)).trans rfl) (by decide +kernel) XK).trans
    (Eq.trans ?_ (at_nullary rWAF rNDF 610 (y := Cert.ReferenceIdeal.main_cst_148) ((rAt_8 70 (by decide)).trans rfl) (by decide +kernel) XR).symm)
  rfl

theorem e590 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v378) = after rOpsF XR (Proc.devRef .tc Cert.ReferenceIdeal.main_v389) := by
  refine (at_binary kWA kND 590 (y := Cert.KernelIdeal.main_v378) ((kAt_71 1 (by decide)).trans rfl) (by decide +kernel) (not_mem_drop_of_lt kND (j := 588) (by decide +kernel) (by decide)) (not_mem_drop_of_lt kND (j := 589) (by decide +kernel) (by decide)) XK).trans
    (Eq.trans ?_ (at_binary rWAF rNDF 611 (y := Cert.ReferenceIdeal.main_v389) ((rAt_9 0 (by decide)).trans rfl) (by decide +kernel) (not_mem_drop_of_lt rNDF (j := 609) (by decide +kernel) (by decide)) (not_mem_drop_of_lt rNDF (j := 610) (by decide +kernel) (by decide)) XR).symm)
  rw [e588 H, e589 H]
  all_goals rfl

theorem e591 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_143) = after rOpsF XR (Proc.devRef .tc Cert.ReferenceIdeal.main_c_149) := by
  refine (at_nullary kWA kND 591 (y := Cert.KernelIdeal.main_c_143) ((kAt_71 2 (by decide)).trans rfl) (by decide +kernel) XK).trans
    (Eq.trans ?_ (at_nullary rWAF rNDF 612 (y := Cert.ReferenceIdeal.main_c_149) ((rAt_9 1 (by decide)).trans rfl) (by decide +kernel) XR).symm)
  rfl

theorem e592 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v379) = after rOpsF XR (Proc.devRef .tc Cert.ReferenceIdeal.main_v390) := by
  refine (at_unary kWA kND 592 (y := Cert.KernelIdeal.main_v379) ((kAt_71 3 (by decide)).trans rfl) (by decide +kernel) (not_mem_drop_of_lt kND (j := 591) (by decide +kernel) (by decide)) XK).trans
    (Eq.trans ?_ (at_unary rWAF rNDF 613 (y := Cert.ReferenceIdeal.main_v390) ((rAt_9 2 (by decide)).trans rfl) (by decide +kernel) (not_mem_drop_of_lt rNDF (j := 612) (by decide +kernel) (by decide)) XR).symm)
  rw [e591 H]
  all_goals rfl

theorem e593 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v380) = after rOpsF XR (Proc.devRef .tc Cert.ReferenceIdeal.main_v391) := by
  refine (at_binary kWA kND 593 (y := Cert.KernelIdeal.main_v380) ((kAt_71 4 (by decide)).trans rfl) (by decide +kernel) (not_mem_drop_of_lt kND (j := 581) (by decide +kernel) (by decide)) (not_mem_drop_of_lt kND (j := 592) (by decide +kernel) (by decide)) XK).trans
    (Eq.trans ?_ (at_binary rWAF rNDF 614 (y := Cert.ReferenceIdeal.main_v391) ((rAt_9 3 (by decide)).trans rfl) (by decide +kernel) (not_mem_drop_of_lt rNDF (j := 602) (by decide +kernel) (by decide)) (not_mem_drop_of_lt rNDF (j := 613) (by decide +kernel) (by decide)) XR).symm)
  rw [e581 H, e592 H]
  all_goals rfl

theorem e594 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v381) = after rOpsF XR (Proc.devRef .tc Cert.ReferenceIdeal.main_v392) := by
  refine (at_unary kWA kND 594 (y := Cert.KernelIdeal.main_v381) ((kAt_71 5 (by decide)).trans rfl) (by decide +kernel) (not_mem_drop_of_lt kND (j := 593) (by decide +kernel) (by decide)) XK).trans
    (Eq.trans ?_ (at_unary rWAF rNDF 615 (y := Cert.ReferenceIdeal.main_v392) ((rAt_9 4 (by decide)).trans rfl) (by decide +kernel) (not_mem_drop_of_lt rNDF (j := 614) (by decide +kernel) (by decide)) XR).symm)
  rw [e593 H]
  all_goals rfl

theorem e595 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v382) = after rOpsF XR (Proc.devRef .tc Cert.ReferenceIdeal.main_v393) := by
  refine (at_binary kWA kND 595 (y := Cert.KernelIdeal.main_v382) ((kAt_71 6 (by decide)).trans rfl) (by decide +kernel) (not_mem_drop_of_lt kND (j := 590) (by decide +kernel) (by decide)) (not_mem_drop_of_lt kND (j := 594) (by decide +kernel) (by decide)) XK).trans
    (Eq.trans ?_ (at_binary rWAF rNDF 616 (y := Cert.ReferenceIdeal.main_v393) ((rAt_9 5 (by decide)).trans rfl) (by decide +kernel) (not_mem_drop_of_lt rNDF (j := 611) (by decide +kernel) (by decide)) (not_mem_drop_of_lt rNDF (j := 615) (by decide +kernel) (by decide)) XR).symm)
  rw [e590 H, e594 H]
  all_goals rfl

theorem e596 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_144) = after rOpsF XR (Proc.devRef .tc Cert.ReferenceIdeal.main_cst_150) := by
  refine (at_nullary kWA kND 596 (y := Cert.KernelIdeal.main_cst_144) ((kAt_71 7 (by decide)).trans rfl) (by decide +kernel) XK).trans
    (Eq.trans ?_ (at_nullary rWAF rNDF 617 (y := Cert.ReferenceIdeal.main_cst_150) ((rAt_9 6 (by decide)).trans rfl) (by decide +kernel) XR).symm)
  rfl

theorem e597 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call36_v0) = after rOpsF XR (Proc.devRef .tc Cert.ReferenceIdeal.main_call36_v0) := by
  refine (at_unary kWA kND 597 (y := Cert.KernelIdeal.main_call36_v0) ((kAt_72 0 (by decide)).trans rfl) (by decide +kernel) (not_mem_drop_of_lt kND (j := 596) (by decide +kernel) (by decide)) XK).trans
    (Eq.trans ?_ (at_unary rWAF rNDF 618 (y := Cert.ReferenceIdeal.main_call36_v0) ((rAt_9 7 (by decide)).trans rfl) (by decide +kernel) (not_mem_drop_of_lt rNDF (j := 617) (by decide +kernel) (by decide)) XR).symm)
  rw [e596 H]
  all_goals rfl

theorem e598 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call36_v1) = after rOpsF XR (Proc.devRef .tc Cert.ReferenceIdeal.main_call36_v1) := by
  refine (at_unary kWA kND 598 (y := Cert.KernelIdeal.main_call36_v1) ((kAt_72 1 (by decide)).trans rfl) (by decide +kernel) (not_mem_drop_of_lt kND (j := 597) (by decide +kernel) (by decide)) XK).trans
    (Eq.trans ?_ (at_unary rWAF rNDF 619 (y := Cert.ReferenceIdeal.main_call36_v1) ((rAt_9 8 (by decide)).trans rfl) (by decide +kernel) (not_mem_drop_of_lt rNDF (j := 618) (by decide +kernel) (by decide)) XR).symm)
  rw [e597 H]
  all_goals rfl

theorem e599 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v383) = after rOpsF XR (Proc.devRef .tc Cert.ReferenceIdeal.main_v394) := by
  refine (at_ternary kWA kND 599 (y := Cert.KernelIdeal.main_v383) ((kAt_72 2 (by decide)).trans rfl) (by decide +kernel) (not_mem_drop_of_lt kND (j := 584) (by decide +kernel) (by decide)) (not_mem_drop_of_lt kND (j := 595) (by decide +kernel) (by decide)) (not_mem_drop_of_lt kND (j := 598) (by decide +kernel) (by decide)) XK).trans
    (Eq.trans ?_ (at_ternary rWAF rNDF 620 (y := Cert.ReferenceIdeal.main_v394) ((rAt_9 9 (by decide)).trans rfl) (by decide +kernel) (not_mem_drop_of_lt rNDF (j := 605) (by decide +kernel) (by decide)) (not_mem_drop_of_lt rNDF (j := 616) (by decide +kernel) (by decide)) (not_mem_drop_of_lt rNDF (j := 619) (by decide +kernel) (by decide)) XR).symm)
  rw [e584 H, e595 H, e598 H]
  all_goals rfl

theorem e600 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v384) = after rOpsF XR (Proc.devRef .tc Cert.ReferenceIdeal.main_v395) := by
  refine (at_unary kWA kND 600 (y := Cert.KernelIdeal.main_v384) ((kAt_73 0 (by decide)).trans rfl) (by decide +kernel) (not_mem_drop_of_lt kND (j := 578) (by decide +kernel) (by decide)) XK).trans
    (Eq.trans ?_ (at_unary rWAF rNDF 621 (y := Cert.ReferenceIdeal.main_v395) ((rAt_9 10 (by decide)).trans rfl) (by decide +kernel) (not_mem_drop_of_lt rNDF (j := 599) (by decide +kernel) (by decide)) XR).symm)
  rw [e578 H]
  all_goals rfl

theorem e601 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v385) = after rOpsF XR (Proc.devRef .tc Cert.ReferenceIdeal.main_v396) := by
  refine (at_unary kWA kND 601 (y := Cert.KernelIdeal.main_v385) ((kAt_73 1 (by decide)).trans rfl) (by decide +kernel) (not_mem_drop_of_lt kND (j := 599) (by decide +kernel) (by decide)) XK).trans
    (Eq.trans ?_ (at_unary rWAF rNDF 622 (y := Cert.ReferenceIdeal.main_v396) ((rAt_9 11 (by decide)).trans rfl) (by decide +kernel) (not_mem_drop_of_lt rNDF (j := 620) (by decide +kernel) (by decide)) XR).symm)
  rw [e599 H]
  all_goals rfl

theorem e602 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v386) = after rOpsF XR (Proc.devRef .tc Cert.ReferenceIdeal.main_v397) := by
  refine (at_binary kWA kND 602 (y := Cert.KernelIdeal.main_v386) ((kAt_73 2 (by decide)).trans rfl) (by decide +kernel) (not_mem_drop_of_lt kND (j := 600) (by decide +kernel) (by decide)) (not_mem_drop_of_lt kND (j := 601) (by decide +kernel) (by decide)) XK).trans
    (Eq.trans ?_ (at_binary rWAF rNDF 623 (y := Cert.ReferenceIdeal.main_v397) ((rAt_9 12 (by decide)).trans rfl) (by decide +kernel) (not_mem_drop_of_lt rNDF (j := 621) (by decide +kernel) (by decide)) (not_mem_drop_of_lt rNDF (j := 622) (by decide +kernel) (by decide)) XR).symm)
  rw [e600 H, e601 H]
  all_goals rfl

theorem e603 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v387) = after rOpsF XR (Proc.devRef .tc Cert.ReferenceIdeal.main_v398) := by
  refine (at_unary kWA kND 603 (y := Cert.KernelIdeal.main_v387) ((kAt_73 3 (by decide)).trans rfl) (by decide +kernel) (not_mem_drop_of_lt kND (j := 290) (by decide +kernel) (by decide)) XK).trans
    (Eq.trans ?_ (at_unary rWAF rNDF 624 (y := Cert.ReferenceIdeal.main_v398) ((rAt_9 13 (by decide)).trans rfl) (by decide +kernel) (not_mem_drop_of_lt rNDF (j := 311) (by decide +kernel) (by decide)) XR).symm)
  rw [e290 H]
  all_goals rfl

theorem e604 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v388) = after rOpsF XR (Proc.devRef .tc Cert.ReferenceIdeal.main_v399) := by
  refine (at_unary kWA kND 604 (y := Cert.KernelIdeal.main_v388) ((kAt_73 4 (by decide)).trans rfl) (by decide +kernel) (not_mem_drop_of_lt kND (j := 293) (by decide +kernel) (by decide)) XK).trans
    (Eq.trans ?_ (at_unary rWAF rNDF 625 (y := Cert.ReferenceIdeal.main_v399) ((rAt_9 14 (by decide)).trans rfl) (by decide +kernel) (not_mem_drop_of_lt rNDF (j := 314) (by decide +kernel) (by decide)) XR).symm)
  rw [e293 H]
  all_goals rfl

theorem e605 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v389) = after rOpsF XR (Proc.devRef .tc Cert.ReferenceIdeal.main_v400) := by
  refine (at_binary kWA kND 605 (y := Cert.KernelIdeal.main_v389) ((kAt_73 5 (by decide)).trans rfl) (by decide +kernel) (not_mem_drop_of_lt kND (j := 603) (by decide +kernel) (by decide)) (not_mem_drop_of_lt kND (j := 604) (by decide +kernel) (by decide)) XK).trans
    (Eq.trans ?_ (at_binary rWAF rNDF 626 (y := Cert.ReferenceIdeal.main_v400) ((rAt_9 15 (by decide)).trans rfl) (by decide +kernel) (not_mem_drop_of_lt rNDF (j := 624) (by decide +kernel) (by decide)) (not_mem_drop_of_lt rNDF (j := 625) (by decide +kernel) (by decide)) XR).symm)
  rw [e603 H, e604 H]
  all_goals rfl

theorem e606 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v390) = after rOpsF XR (Proc.devRef .tc Cert.ReferenceIdeal.main_v401) := by
  refine (at_unary kWA kND 606 (y := Cert.KernelIdeal.main_v390) ((kAt_73 6 (by decide)).trans rfl) (by decide +kernel) (not_mem_drop_of_lt kND (j := 605) (by decide +kernel) (by decide)) XK).trans
    (Eq.trans ?_ (at_unary rWAF rNDF 627 (y := Cert.ReferenceIdeal.main_v401) ((rAt_9 16 (by decide)).trans rfl) (by decide +kernel) (not_mem_drop_of_lt rNDF (j := 626) (by decide +kernel) (by decide)) XR).symm)
  rw [e605 H]
  all_goals rfl

theorem e607 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_145) = after rOpsF XR (Proc.devRef .tc Cert.ReferenceIdeal.main_cst_151) := by
  refine (at_nullary kWA kND 607 (y := Cert.KernelIdeal.main_cst_145) ((kAt_73 7 (by decide)).trans rfl) (by decide +kernel) XK).trans
    (Eq.trans ?_ (at_nullary rWAF rNDF 628 (y := Cert.ReferenceIdeal.main_cst_151) ((rAt_9 17 (by decide)).trans rfl) (by decide +kernel) XR).symm)
  rfl

theorem e608 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v391) = after rOpsF XR (Proc.devRef .tc Cert.ReferenceIdeal.main_v402) := by
  refine (at_binary kWA kND 608 (y := Cert.KernelIdeal.main_v391) ((kAt_73 8 (by decide)).trans rfl) (by decide +kernel) (not_mem_drop_of_lt kND (j := 606) (by decide +kernel) (by decide)) (not_mem_drop_of_lt kND (j := 607) (by decide +kernel) (by decide)) XK).trans
    (Eq.trans ?_ (at_binary rWAF rNDF 629 (y := Cert.ReferenceIdeal.main_v402) ((rAt_9 18 (by decide)).trans rfl) (by decide +kernel) (not_mem_drop_of_lt rNDF (j := 627) (by decide +kernel) (by decide)) (not_mem_drop_of_lt rNDF (j := 628) (by decide +kernel) (by decide)) XR).symm)
  rw [e606 H, e607 H]
  all_goals rfl

theorem e609 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_146) = after rOpsF XR (Proc.devRef .tc Cert.ReferenceIdeal.main_cst_152) := by
  refine (at_nullary kWA kND 609 (y := Cert.KernelIdeal.main_cst_146) ((kAt_73 9 (by decide)).trans rfl) (by decide +kernel) XK).trans
    (Eq.trans ?_ (at_nullary rWAF rNDF 630 (y := Cert.ReferenceIdeal.main_cst_152) ((rAt_9 19 (by decide)).trans rfl) (by decide +kernel) XR).symm)
  rfl

theorem e610 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v392) = after rOpsF XR (Proc.devRef .tc Cert.ReferenceIdeal.main_v403) := by
  refine (at_binary kWA kND 610 (y := Cert.KernelIdeal.main_v392) ((kAt_73 10 (by decide)).trans rfl) (by decide +kernel) (not_mem_drop_of_lt kND (j := 608) (by decide +kernel) (by decide)) (not_mem_drop_of_lt kND (j := 609) (by decide +kernel) (by decide)) XK).trans
    (Eq.trans ?_ (at_binary rWAF rNDF 631 (y := Cert.ReferenceIdeal.main_v403) ((rAt_9 20 (by decide)).trans rfl) (by decide +kernel) (not_mem_drop_of_lt rNDF (j := 629) (by decide +kernel) (by decide)) (not_mem_drop_of_lt rNDF (j := 630) (by decide +kernel) (by decide)) XR).symm)
  rw [e608 H, e609 H]
  all_goals rfl

theorem e611 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v393) = after rOpsF XR (Proc.devRef .tc Cert.ReferenceIdeal.main_v404) := by
  refine (at_binary kWA kND 611 (y := Cert.KernelIdeal.main_v393) ((kAt_73 11 (by decide)).trans rfl) (by decide +kernel) (not_mem_drop_of_lt kND (j := 602) (by decide +kernel) (by decide)) (not_mem_drop_of_lt kND (j := 606) (by decide +kernel) (by decide)) XK).trans
    (Eq.trans ?_ (at_binary rWAF rNDF 632 (y := Cert.ReferenceIdeal.main_v404) ((rAt_9 21 (by decide)).trans rfl) (by decide +kernel) (not_mem_drop_of_lt rNDF (j := 623) (by decide +kernel) (by decide)) (not_mem_drop_of_lt rNDF (j := 627) (by decide +kernel) (by decide)) XR).symm)
  rw [e602 H, e606 H]
  all_goals rfl

theorem e612 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_147) = after rOpsF XR (Proc.devRef .tc Cert.ReferenceIdeal.main_cst_153) := by
  refine (at_nullary kWA kND 612 (y := Cert.KernelIdeal.main_cst_147) ((kAt_73 12 (by decide)).trans rfl) (by decide +kernel) XK).trans
    (Eq.trans ?_ (at_nullary rWAF rNDF 633 (y := Cert.ReferenceIdeal.main_cst_153) ((rAt_9 22 (by decide)).trans rfl) (by decide +kernel) XR).symm)
  rfl

theorem e613 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v394) = after rOpsF XR (Proc.devRef .tc Cert.ReferenceIdeal.main_v405) := by
  refine (at_binary kWA kND 613 (y := Cert.KernelIdeal.main_v394) ((kAt_73 13 (by decide)).trans rfl) (by decide +kernel) (not_mem_drop_of_lt kND (j := 611) (by decide +kernel) (by decide)) (not_mem_drop_of_lt kND (j := 612) (by decide +kernel) (by decide)) XK).trans
    (Eq.trans ?_ (at_binary rWAF rNDF 634 (y := Cert.ReferenceIdeal.main_v405) ((rAt_9 23 (by decide)).trans rfl) (by decide +kernel) (not_mem_drop_of_lt rNDF (j := 632) (by decide +kernel) (by decide)) (not_mem_drop_of_lt rNDF (j := 633) (by decide +kernel) (by decide)) XR).symm)
  rw [e611 H, e612 H]
  all_goals rfl

theorem e614 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_148) = after rOpsF XR (Proc.devRef .tc Cert.ReferenceIdeal.main_cst_154) := by
  refine (at_nullary kWA kND 614 (y := Cert.KernelIdeal.main_cst_148) ((kAt_73 14 (by decide)).trans rfl) (by decide +kernel) XK).trans
    (Eq.trans ?_ (at_nullary rWAF rNDF 635 (y := Cert.ReferenceIdeal.main_cst_154) ((rAt_9 24 (by decide)).trans rfl) (by decide +kernel) XR).symm)
  rfl

theorem e615 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v395) = after rOpsF XR (Proc.devRef .tc Cert.ReferenceIdeal.main_v406) := by
  refine (at_binary kWA kND 615 (y := Cert.KernelIdeal.main_v395) ((kAt_73 15 (by decide)).trans rfl) (by decide +kernel) (not_mem_drop_of_lt kND (j := 608) (by decide +kernel) (by decide)) (not_mem_drop_of_lt kND (j := 614) (by decide +kernel) (by decide)) XK).trans
    (Eq.trans ?_ (at_binary rWAF rNDF 636 (y := Cert.ReferenceIdeal.main_v406) ((rAt_9 25 (by decide)).trans rfl) (by decide +kernel) (not_mem_drop_of_lt rNDF (j := 629) (by decide +kernel) (by decide)) (not_mem_drop_of_lt rNDF (j := 635) (by decide +kernel) (by decide)) XR).symm)
  rw [e608 H, e614 H]
  all_goals rfl

theorem e616 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v396) = after rOpsF XR (Proc.devRef .tc Cert.ReferenceIdeal.main_v407) := by
  refine (at_binary kWA kND 616 (y := Cert.KernelIdeal.main_v396) ((kAt_73 16 (by decide)).trans rfl) (by decide +kernel) (not_mem_drop_of_lt kND (j := 613) (by decide +kernel) (by decide)) (not_mem_drop_of_lt kND (j := 615) (by decide +kernel) (by decide)) XK).trans
    (Eq.trans ?_ (at_binary rWAF rNDF 637 (y := Cert.ReferenceIdeal.main_v407) ((rAt_9 26 (by decide)).trans rfl) (by decide +kernel) (not_mem_drop_of_lt rNDF (j := 634) (by decide +kernel) (by decide)) (not_mem_drop_of_lt rNDF (j := 636) (by decide +kernel) (by decide)) XR).symm)
  rw [e613 H, e615 H]
  all_goals rfl

theorem e617 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_cst_149) = after rOpsF XR (Proc.devRef .tc Cert.ReferenceIdeal.main_cst_155) := by
  refine (at_nullary kWA kND 617 (y := Cert.KernelIdeal.main_cst_149) ((kAt_73 17 (by decide)).trans rfl) (by decide +kernel) XK).trans
    (Eq.trans ?_ (at_nullary rWAF rNDF 638 (y := Cert.ReferenceIdeal.main_cst_155) ((rAt_9 27 (by decide)).trans rfl) (by decide +kernel) XR).symm)
  rfl

theorem e618 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_call37_v0) = after rOpsF XR (Proc.devRef .tc Cert.ReferenceIdeal.main_call37_v0) := by
  refine (at_unary kWA kND 618 (y := Cert.KernelIdeal.main_call37_v0) ((kAt_74 0 (by decide)).trans rfl) (by decide +kernel) (not_mem_drop_of_lt kND (j := 617) (by decide +kernel) (by decide)) XK).trans
    (Eq.trans ?_ (at_unary rWAF rNDF 639 (y := Cert.ReferenceIdeal.main_call37_v0) ((rAt_9 28 (by decide)).trans rfl) (by decide +kernel) (not_mem_drop_of_lt rNDF (j := 638) (by decide +kernel) (by decide)) XR).symm)
  rw [e617 H]
  all_goals rfl

theorem e619 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v397) = after rOpsF XR (Proc.devRef .tc Cert.ReferenceIdeal.main_v408) := by
  refine (at_ternary kWA kND 619 (y := Cert.KernelIdeal.main_v397) ((kAt_74 1 (by decide)).trans rfl) (by decide +kernel) (not_mem_drop_of_lt kND (j := 610) (by decide +kernel) (by decide)) (not_mem_drop_of_lt kND (j := 616) (by decide +kernel) (by decide)) (not_mem_drop_of_lt kND (j := 618) (by decide +kernel) (by decide)) XK).trans
    (Eq.trans ?_ (at_ternary rWAF rNDF 640 (y := Cert.ReferenceIdeal.main_v408) ((rAt_9 29 (by decide)).trans rfl) (by decide +kernel) (not_mem_drop_of_lt rNDF (j := 631) (by decide +kernel) (by decide)) (not_mem_drop_of_lt rNDF (j := 637) (by decide +kernel) (by decide)) (not_mem_drop_of_lt rNDF (j := 639) (by decide +kernel) (by decide)) XR).symm)
  rw [e610 H, e616 H, e618 H]
  all_goals rfl

theorem e620 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v398) = after rOpsF XR (Proc.devRef .tc Cert.ReferenceIdeal.main_v409) := by
  refine (at_binary kWA kND 620 (y := Cert.KernelIdeal.main_v398) ((kAt_75 0 (by decide)).trans rfl) (by decide +kernel) (not_mem_drop_of_lt kND (j := 433) (by decide +kernel) (by decide)) (not_mem_drop_of_lt kND (j := 495) (by decide +kernel) (by decide)) XK).trans
    (Eq.trans ?_ (at_binary rWAF rNDF 641 (y := Cert.ReferenceIdeal.main_v409) ((rAt_9 30 (by decide)).trans rfl) (by decide +kernel) (not_mem_drop_of_lt rNDF (j := 454) (by decide +kernel) (by decide)) (not_mem_drop_of_lt rNDF (j := 516) (by decide +kernel) (by decide)) XR).symm)
  rw [e433 H, e495 H]
  all_goals rfl

theorem e621 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v399) = after rOpsF XR (Proc.devRef .tc Cert.ReferenceIdeal.main_v410) := by
  refine (at_binary kWA kND 621 (y := Cert.KernelIdeal.main_v399) ((kAt_75 1 (by decide)).trans rfl) (by decide +kernel) (not_mem_drop_of_lt kND (j := 557) (by decide +kernel) (by decide)) (not_mem_drop_of_lt kND (j := 619) (by decide +kernel) (by decide)) XK).trans
    (Eq.trans ?_ (at_binary rWAF rNDF 642 (y := Cert.ReferenceIdeal.main_v410) ((rAt_9 31 (by decide)).trans rfl) (by decide +kernel) (not_mem_drop_of_lt rNDF (j := 578) (by decide +kernel) (by decide)) (not_mem_drop_of_lt rNDF (j := 640) (by decide +kernel) (by decide)) XR).symm)
  rw [e557 H, e619 H]
  all_goals rfl

theorem e622 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v400) = after rOpsF XR (Proc.devRef .tc Cert.ReferenceIdeal.main_v411) := by
  refine (at_unary kWA kND 622 (y := Cert.KernelIdeal.main_v400) ((kAt_75 2 (by decide)).trans rfl) (by decide +kernel) (not_mem_drop_of_lt kND (j := 256) (by decide +kernel) (by decide)) XK).trans
    (Eq.trans ?_ (at_unary rWAF rNDF 643 (y := Cert.ReferenceIdeal.main_v411) ((rAt_9 32 (by decide)).trans rfl) (by decide +kernel) (not_mem_drop_of_lt rNDF (j := 277) (by decide +kernel) (by decide)) XR).symm)
  rw [e256 H]
  all_goals rfl

theorem e623 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v401) = after rOpsF XR (Proc.devRef .tc Cert.ReferenceIdeal.main_v412) := by
  refine (at_unary kWA kND 623 (y := Cert.KernelIdeal.main_v401) ((kAt_75 3 (by decide)).trans rfl) (by decide +kernel) (not_mem_drop_of_lt kND (j := 371) (by decide +kernel) (by decide)) XK).trans
    (Eq.trans ?_ (at_unary rWAF rNDF 644 (y := Cert.ReferenceIdeal.main_v412) ((rAt_9 33 (by decide)).trans rfl) (by decide +kernel) (not_mem_drop_of_lt rNDF (j := 392) (by decide +kernel) (by decide)) XR).symm)
  rw [e371 H]
  all_goals rfl

theorem e624 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v402) = after rOpsF XR (Proc.devRef .tc Cert.ReferenceIdeal.main_v413) := by
  refine (at_unary kWA kND 624 (y := Cert.KernelIdeal.main_v402) ((kAt_75 4 (by decide)).trans rfl) (by decide +kernel) (not_mem_drop_of_lt kND (j := 433) (by decide +kernel) (by decide)) XK).trans
    (Eq.trans ?_ (at_unary rWAF rNDF 645 (y := Cert.ReferenceIdeal.main_v413) ((rAt_9 34 (by decide)).trans rfl) (by decide +kernel) (not_mem_drop_of_lt rNDF (j := 454) (by decide +kernel) (by decide)) XR).symm)
  rw [e433 H]
  all_goals rfl

theorem e625 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v403) = after rOpsF XR (Proc.devRef .tc Cert.ReferenceIdeal.main_v414) := by
  refine (at_unary kWA kND 625 (y := Cert.KernelIdeal.main_v403) ((kAt_75 5 (by decide)).trans rfl) (by decide +kernel) (not_mem_drop_of_lt kND (j := 495) (by decide +kernel) (by decide)) XK).trans
    (Eq.trans ?_ (at_unary rWAF rNDF 646 (y := Cert.ReferenceIdeal.main_v414) ((rAt_9 35 (by decide)).trans rfl) (by decide +kernel) (not_mem_drop_of_lt rNDF (j := 516) (by decide +kernel) (by decide)) XR).symm)
  rw [e495 H]
  all_goals rfl

theorem e626 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v404) = after rOpsF XR (Proc.devRef .tc Cert.ReferenceIdeal.main_v415) := by
  refine (at_unary kWA kND 626 (y := Cert.KernelIdeal.main_v404) ((kAt_75 6 (by decide)).trans rfl) (by decide +kernel) (not_mem_drop_of_lt kND (j := 495) (by decide +kernel) (by decide)) XK).trans
    (Eq.trans ?_ (at_unary rWAF rNDF 647 (y := Cert.ReferenceIdeal.main_v415) ((rAt_9 36 (by decide)).trans rfl) (by decide +kernel) (not_mem_drop_of_lt rNDF (j := 516) (by decide +kernel) (by decide)) XR).symm)
  rw [e495 H]
  all_goals rfl

theorem e627 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v405) = after rOpsF XR (Proc.devRef .tc Cert.ReferenceIdeal.main_v416) := by
  refine (at_unary kWA kND 627 (y := Cert.KernelIdeal.main_v405) ((kAt_75 7 (by decide)).trans rfl) (by decide +kernel) (not_mem_drop_of_lt kND (j := 557) (by decide +kernel) (by decide)) XK).trans
    (Eq.trans ?_ (at_unary rWAF rNDF 648 (y := Cert.ReferenceIdeal.main_v416) ((rAt_9 37 (by decide)).trans rfl) (by decide +kernel) (not_mem_drop_of_lt rNDF (j := 578) (by decide +kernel) (by decide)) XR).symm)
  rw [e557 H]
  all_goals rfl

theorem e628 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v406) = after rOpsF XR (Proc.devRef .tc Cert.ReferenceIdeal.main_v417) := by
  refine (at_unary kWA kND 628 (y := Cert.KernelIdeal.main_v406) ((kAt_75 8 (by decide)).trans rfl) (by decide +kernel) (not_mem_drop_of_lt kND (j := 619) (by decide +kernel) (by decide)) XK).trans
    (Eq.trans ?_ (at_unary rWAF rNDF 649 (y := Cert.ReferenceIdeal.main_v417) ((rAt_9 38 (by decide)).trans rfl) (by decide +kernel) (not_mem_drop_of_lt rNDF (j := 640) (by decide +kernel) (by decide)) XR).symm)
  rw [e619 H]
  all_goals rfl

theorem e629 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v407) = after rOpsF XR (Proc.devRef .tc Cert.ReferenceIdeal.main_v418) := by
  refine (at_unary kWA kND 629 (y := Cert.KernelIdeal.main_v407) ((kAt_75 9 (by decide)).trans rfl) (by decide +kernel) (not_mem_drop_of_lt kND (j := 620) (by decide +kernel) (by decide)) XK).trans
    (Eq.trans ?_ (at_unary rWAF rNDF 650 (y := Cert.ReferenceIdeal.main_v418) ((rAt_9 39 (by decide)).trans rfl) (by decide +kernel) (not_mem_drop_of_lt rNDF (j := 641) (by decide +kernel) (by decide)) XR).symm)
  rw [e620 H]
  all_goals rfl

theorem e630 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v408) = after rOpsF XR (Proc.devRef .tc Cert.ReferenceIdeal.main_v419) := by
  refine (at_unary kWA kND 630 (y := Cert.KernelIdeal.main_v408) ((kAt_75 10 (by decide)).trans rfl) (by decide +kernel) (not_mem_drop_of_lt kND (j := 621) (by decide +kernel) (by decide)) XK).trans
    (Eq.trans ?_ (at_unary rWAF rNDF 651 (y := Cert.ReferenceIdeal.main_v419) ((rAt_9 40 (by decide)).trans rfl) (by decide +kernel) (not_mem_drop_of_lt rNDF (j := 642) (by decide +kernel) (by decide)) XR).symm)
  rw [e621 H]
  all_goals rfl

theorem e631 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v409) = after rOpsF XR (Proc.devRef .tc Cert.ReferenceIdeal.main_v420) := by
  refine (at_unary kWA kND 631 (y := Cert.KernelIdeal.main_v409) ((kAt_75 11 (by decide)).trans rfl) (by decide +kernel) (not_mem_drop_of_lt kND (j := 495) (by decide +kernel) (by decide)) XK).trans
    (Eq.trans ?_ (at_unary rWAF rNDF 652 (y := Cert.ReferenceIdeal.main_v420) ((rAt_9 41 (by decide)).trans rfl) (by decide +kernel) (not_mem_drop_of_lt rNDF (j := 516) (by decide +kernel) (by decide)) XR).symm)
  rw [e495 H]
  all_goals rfl

theorem e632 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v410) = after rOpsF XR (Proc.devRef .tc Cert.ReferenceIdeal.main_v421) := by
  refine (at_nary kWA kND 632 (y := Cert.KernelIdeal.main_v410) ((kAt_75 12 (by decide)).trans rfl) (by decide +kernel) (fun i => by fin_cases i <;> [exact (not_mem_drop_of_lt kND (j := 622) (by decide +kernel) (by decide)); exact (not_mem_drop_of_lt kND (j := 623) (by decide +kernel) (by decide)); exact (not_mem_drop_of_lt kND (j := 624) (by decide +kernel) (by decide)); exact (not_mem_drop_of_lt kND (j := 625) (by decide +kernel) (by decide)); exact (not_mem_drop_of_lt kND (j := 626) (by decide +kernel) (by decide)); exact (not_mem_drop_of_lt kND (j := 627) (by decide +kernel) (by decide)); exact (not_mem_drop_of_lt kND (j := 628) (by decide +kernel) (by decide)); exact (not_mem_drop_of_lt kND (j := 629) (by decide +kernel) (by decide)); exact (not_mem_drop_of_lt kND (j := 630) (by decide +kernel) (by decide)); exact (not_mem_drop_of_lt kND (j := 631) (by decide +kernel) (by decide))]) XK).trans
    (Eq.trans ?_ (at_nary rWAF rNDF 653 (y := Cert.ReferenceIdeal.main_v421) ((rAt_9 42 (by decide)).trans rfl) (by decide +kernel) (fun i => by fin_cases i <;> [exact (not_mem_drop_of_lt rNDF (j := 643) (by decide +kernel) (by decide)); exact (not_mem_drop_of_lt rNDF (j := 644) (by decide +kernel) (by decide)); exact (not_mem_drop_of_lt rNDF (j := 645) (by decide +kernel) (by decide)); exact (not_mem_drop_of_lt rNDF (j := 646) (by decide +kernel) (by decide)); exact (not_mem_drop_of_lt rNDF (j := 647) (by decide +kernel) (by decide)); exact (not_mem_drop_of_lt rNDF (j := 648) (by decide +kernel) (by decide)); exact (not_mem_drop_of_lt rNDF (j := 649) (by decide +kernel) (by decide)); exact (not_mem_drop_of_lt rNDF (j := 650) (by decide +kernel) (by decide)); exact (not_mem_drop_of_lt rNDF (j := 651) (by decide +kernel) (by decide)); exact (not_mem_drop_of_lt rNDF (j := 652) (by decide +kernel) (by decide))]) XR).symm)
  exact concatenate_congr (congr (congrArg List.cons (congrArg (Sigma.mk _) (e622 H))) (congr (congrArg List.cons (congrArg (Sigma.mk _) (e623 H))) (congr (congrArg List.cons (congrArg (Sigma.mk _) (e624 H))) (congr (congrArg List.cons (congrArg (Sigma.mk _) (e625 H))) (congr (congrArg List.cons (congrArg (Sigma.mk _) (e626 H))) (congr (congrArg List.cons (congrArg (Sigma.mk _) (e627 H))) (congr (congrArg List.cons (congrArg (Sigma.mk _) (e628 H))) (congr (congrArg List.cons (congrArg (Sigma.mk _) (e629 H))) (congr (congrArg List.cons (congrArg (Sigma.mk _) (e630 H))) (congr (congrArg List.cons (congrArg (Sigma.mk _) (e631 H))) rfl)))))))))) _ _

theorem e633 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v411) = after rOpsF XR (Proc.devRef .tc Cert.ReferenceIdeal.main_v422) := by
  refine (at_unary kWA kND 633 (y := Cert.KernelIdeal.main_v411) ((kAt_75 13 (by decide)).trans rfl) (by decide +kernel) (not_mem_drop_of_lt kND (j := 22) (by decide +kernel) (by decide)) XK).trans
    (Eq.trans ?_ (at_unary rWAF rNDF 654 (y := Cert.ReferenceIdeal.main_v422) ((rAt_9 43 (by decide)).trans rfl) (by decide +kernel) (not_mem_drop_of_lt rNDF (j := 43) (by decide +kernel) (by decide)) XR).symm)
  rw [e22 H]
  all_goals rfl

theorem e634 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_c_150) = after rOpsF XR (Proc.devRef .tc Cert.ReferenceIdeal.main_c_156) := by
  refine (at_nullary kWA kND 634 (y := Cert.KernelIdeal.main_c_150) ((kAt_75 14 (by decide)).trans rfl) (by decide +kernel) XK).trans
    (Eq.trans ?_ (at_nullary rWAF rNDF 655 (y := Cert.ReferenceIdeal.main_c_156) ((rAt_9 44 (by decide)).trans rfl) (by decide +kernel) XR).symm)
  rfl

theorem e635 {XK : Valuation Cert.KernelIdeal.τ Cert.KernelIdeal.sig (Elt F)} {XR : Valuation Cert.ReferenceIdeal.τ Cert.ReferenceIdeal.sig (Elt F)} (H : Entry XK XR) :
    after kOps XK (Proc.devRef .tc Cert.KernelIdeal.main_v412) = after rOpsF XR (Proc.devRef .tc Cert.ReferenceIdeal.main_v423) := by
  refine (at_binary kWA kND 635 (y := Cert.KernelIdeal.main_v412) ((kAt_75 15 (by decide)).trans rfl) (by decide +kernel) (not_mem_drop_of_lt kND (j := 633) (by decide +kernel) (by decide)) (not_mem_drop_of_lt kND (j := 634) (by decide +kernel) (by decide)) XK).trans
    (Eq.trans ?_ (at_binary rWAF rNDF 656 (y := Cert.ReferenceIdeal.main_v423) ((rAt_9 45 (by decide)).trans rfl) (by decide +kernel) (not_mem_drop_of_lt rNDF (j := 654) (by decide +kernel) (by decide)) (not_mem_drop_of_lt rNDF (j := 655) (by decide +kernel) (by decide)) XR).symm)
  rw [e633 H, e634 H]
  all_goals rfl

end Cert.Bridge

end
-- ==== Proof.Bridge.lean ====
/-
  The two programs side by side, at the ideal instance.

  The kernel program is three reshapes, one region, and a line of host operations; the reference is one
  line of host operations. After the region the kernel's three result arrays hold the frame energies of
  the three signal arguments, which is what the reference's first twenty-one operations compute of the
  same arguments. From there on the two lines are the same operations on buffers paired position by
  position, so paired buffers end with equal contents as soon as the nine buffers the shared operations
  read without writing agree: the three energies and the six mask and index arguments. That agreement is
  proved here from the agreement of the launch memories on the arguments; the two results are then equal,
  and both programs leave their arguments as launched.
-/
import proofs.«169849_j71803263254994_1_alg».proof.Defs
import proofs.«169849_j71803263254994_1_alg».proof.Proof.KIFrame
import proofs.«169849_j71803263254994_1_alg».proof.Proof.KIValue
import proofs.«169849_j71803263254994_1_alg».proof.Proof.KTab
import proofs.«169849_j71803263254994_1_alg».proof.Proof.Gen.Pre_finite_inputs
import proofs.«169849_j71803263254994_1_alg».proof.Proof.RefRun
import proofs.«169849_j71803263254994_1_alg».proof.Proof.RefHead
import proofs.«169849_j71803263254994_1_alg».proof.Proof.PairsEntry
import proofs.«169849_j71803263254994_1_alg».proof.Proof.Pairs05

set_option maxRecDepth 16384

noncomputable section

namespace Cert.Bridge

open Idealize.ShloMosaic Idealize.ShloMosaic.TcCoe Idealize.SL.Sem Idealize.ShloMosaic.StableHlo Idealize.ShloMosaic.StableHlo.Line
open Cert.KernelIdeal.Tab Cert.ReferenceIdeal.Hand

/-- What the kernel program's later operations start from on core `c`: the region's six arrays as the region
    leaves them, every other buffer as the region found it. -/
abbrev XK (m : (ℓ : Loc Cert.KernelIdeal.nD Cert.KernelIdeal.τ Cert.KernelIdeal.sig) → Buf (Elt Ideal) ℓ) (c : Dev Cert.KernelIdeal.nD) :
    Valuation Cert.KernelIdeal.τ Cert.KernelIdeal.sig (Elt Ideal) :=
  Pipeline.withArrays (Cert.KernelIdeal.cfgs 0).spec c (Cert.KernelIdeal.Hand.V0 m c)
    fun w => (Cert.KernelIdeal.Hand.dats m 0 c).arrAt w (Cert.KernelIdeal.cfgs 0).N

/-- The kernel program's final contents of a buffer are the fold of its later operations from there. -/
theorem tail_eq (m : (ℓ : Loc Cert.KernelIdeal.nD Cert.KernelIdeal.τ Cert.KernelIdeal.sig) → Buf (Elt Ideal) ℓ) (c : Dev Cert.KernelIdeal.nD)
    (b : Ref Cert.KernelIdeal.sig .tc) :
    Pipeline.afterTail₀ Cert.KernelIdeal.cfgs (Cert.KernelIdeal.Hand.dats m) 0 (Cert.KernelIdeal.Hand.V0 m) Cert.KernelIdeal.Hand.tailOpss c b
      = after (kOps (F := Ideal)) (XK m c) (Proc.devRef .tc b) := rfl

/-- The agreement of the two launch memories on the nine arguments, core by core. -/
abbrev Agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

/-! ## The nine buffers the shared operations start from -/

/-- The region's first result array after the kernel program's later operations: none of them writes it, so it
    holds what the region left there, the frame energies of the first signal. -/
theorem k_energy0 (m : (ℓ : Loc Cert.KernelIdeal.nD Cert.KernelIdeal.τ Cert.KernelIdeal.sig) → Buf (Elt Ideal) ℓ) (c : Dev Cert.KernelIdeal.nD) :
    after (kOps (F := Ideal)) (XK m c) (Proc.devRef .tc Cert.KernelIdeal.main_v3_0)
      = frameEnergy (F := Ideal) (m ((c.tc : Thread Cert.KernelIdeal.nD Cert.KernelIdeal.τ).loc Cert.KernelIdeal.main_arg0)) :=
  (after_keep kWA kin_main_v3_0 (XK m c)).trans
    ((Pipeline.withArrays_arr Cert.KernelIdeal.spec0 Cert.KernelIdeal.Gen.launch0.win.arr_inj c _ _ 3).trans (Cert.KernelIdeal.Hand.final3 m c))

/-- The second, of the second signal. -/
theorem k_energy1 (m : (ℓ : Loc Cert.KernelIdeal.nD Cert.KernelIdeal.τ Cert.KernelIdeal.sig) → Buf (Elt Ideal) ℓ) (c : Dev Cert.KernelIdeal.nD) :
    after (kOps (F := Ideal)) (XK m c) (Proc.devRef .tc Cert.KernelIdeal.main_v3_1)
      = frameEnergy (F := Ideal) (m ((c.tc : Thread Cert.KernelIdeal.nD Cert.KernelIdeal.τ).loc Cert.KernelIdeal.main_arg1)) :=
  (after_keep kWA kin_main_v3_1 (XK m c)).trans
    ((Pipeline.withArrays_arr Cert.KernelIdeal.spec0 Cert.KernelIdeal.Gen.launch0.win.arr_inj c _ _ 4).trans (Cert.KernelIdeal.Hand.final4 m c))

/-- The third, of the third signal. -/
theorem k_energy2 (m : (ℓ : Loc Cert.KernelIdeal.nD Cert.KernelIdeal.τ Cert.KernelIdeal.sig) → Buf (Elt Ideal) ℓ) (c : Dev Cert.KernelIdeal.nD) :
    after (kOps (F := Ideal)) (XK m c) (Proc.devRef .tc Cert.KernelIdeal.main_v3_2)
      = frameEnergy (F := Ideal) (m ((c.tc : Thread Cert.KernelIdeal.nD Cert.KernelIdeal.τ).loc Cert.KernelIdeal.main_arg2)) :=
  (after_keep kWA kin_main_v3_2 (XK m c)).trans
    ((Pipeline.withArrays_arr Cert.KernelIdeal.spec0 Cert.KernelIdeal.Gen.launch0.win.arr_inj c _ _ 5).trans (Cert.KernelIdeal.Hand.final5 m c))

/-- Argument 0 after the kernel program's later operations is as launched. -/
theorem k_arg0 (m : (ℓ : Loc Cert.KernelIdeal.nD Cert.KernelIdeal.τ Cert.KernelIdeal.sig) → Buf (Elt Ideal) ℓ) (c : Dev Cert.KernelIdeal.nD) :
    after (kOps (F := Ideal)) (XK m c) (Proc.devRef .tc Cert.KernelIdeal.main_arg0) = m ((c.tc : Thread Cert.KernelIdeal.nD Cert.KernelIdeal.τ).loc Cert.KernelIdeal.main_arg0) :=
  Cert.KernelIdeal.Hand.W_main_arg0 m c

/-- Argument 1 after the kernel program's later operations is as launched. -/
theorem k_arg1 (m : (ℓ : Loc Cert.KernelIdeal.nD Cert.KernelIdeal.τ Cert.KernelIdeal.sig) → Buf (Elt Ideal) ℓ) (c : Dev Cert.KernelIdeal.nD) :
    after (kOps (F := Ideal)) (XK m c) (Proc.devRef .tc Cert.KernelIdeal.main_arg1) = m ((c.tc : Thread Cert.KernelIdeal.nD Cert.KernelIdeal.τ).loc Cert.KernelIdeal.main_arg1) :=
  Cert.KernelIdeal.Hand.W_main_arg1 m c

/-- Argument 2 after the kernel program's later operations is as launched. -/
theorem k_arg2 (m : (ℓ : Loc Cert.KernelIdeal.nD Cert.KernelIdeal.τ Cert.KernelIdeal.sig) → Buf (Elt Ideal) ℓ) (c : Dev Cert.KernelIdeal.nD) :
    after (kOps (F := Ideal)) (XK m c) (Proc.devRef .tc Cert.KernelIdeal.main_arg2) = m ((c.tc : Thread Cert.KernelIdeal.nD Cert.KernelIdeal.τ).loc Cert.KernelIdeal.main_arg2) :=
  Cert.KernelIdeal.Hand.W_main_arg2 m c

/-- Argument 3 after the kernel program's later operations is as launched. -/
theorem k_arg3 (m : (ℓ : Loc Cert.KernelIdeal.nD Cert.KernelIdeal.τ Cert.KernelIdeal.sig) → Buf (Elt Ideal) ℓ) (c : Dev Cert.KernelIdeal.nD) :
    after (kOps (F := Ideal)) (XK m c) (Proc.devRef .tc Cert.KernelIdeal.main_arg3) = m ((c.tc : Thread Cert.KernelIdeal.nD Cert.KernelIdeal.τ).loc Cert.KernelIdeal.main_arg3) :=
  Cert.KernelIdeal.Hand.W_main_arg3 m c

/-- Argument 4 after the kernel program's later operations is as launched. -/
theorem k_arg4 (m : (ℓ : Loc Cert.KernelIdeal.nD Cert.KernelIdeal.τ Cert.KernelIdeal.sig) → Buf (Elt Ideal) ℓ) (c : Dev Cert.KernelIdeal.nD) :
    after (kOps (F := Ideal)) (XK m c) (Proc.devRef .tc Cert.KernelIdeal.main_arg4) = m ((c.tc : Thread Cert.KernelIdeal.nD Cert.KernelIdeal.τ).loc Cert.KernelIdeal.main_arg4) :=
  Cert.KernelIdeal.Hand.W_main_arg4 m c

/-- Argument 5 after the kernel program's later operations is as launched. -/
theorem k_arg5 (m : (ℓ : Loc Cert.KernelIdeal.nD Cert.KernelIdeal.τ Cert.KernelIdeal.sig) → Buf (Elt Ideal) ℓ) (c : Dev Cert.KernelIdeal.nD) :
    after (kOps (F := Ideal)) (XK m c) (Proc.devRef .tc Cert.KernelIdeal.main_arg5) = m ((c.tc : Thread Cert.KernelIdeal.nD Cert.KernelIdeal.τ).loc Cert.KernelIdeal.main_arg5) :=
  Cert.KernelIdeal.Hand.W_main_arg5 m c

/-- Argument 6 after the kernel program's later operations is as launched. -/
theorem k_arg6 (m : (ℓ : Loc Cert.KernelIdeal.nD Cert.KernelIdeal.τ Cert.KernelIdeal.sig) → Buf (Elt Ideal) ℓ) (c : Dev Cert.KernelIdeal.nD) :
    after (kOps (F := Ideal)) (XK m c) (Proc.devRef .tc Cert.KernelIdeal.main_arg6) = m ((c.tc : Thread Cert.KernelIdeal.nD Cert.KernelIdeal.τ).loc Cert.KernelIdeal.main_arg6) :=
  Cert.KernelIdeal.Hand.W_main_arg6 m c

/-- Argument 7 after the kernel program's later operations is as launched. -/
theorem k_arg7 (m : (ℓ : Loc Cert.KernelIdeal.nD Cert.KernelIdeal.τ Cert.KernelIdeal.sig) → Buf (Elt Ideal) ℓ) (c : Dev Cert.KernelIdeal.nD) :
    after (kOps (F := Ideal)) (XK m c) (Proc.devRef .tc Cert.KernelIdeal.main_arg7) = m ((c.tc : Thread Cert.KernelIdeal.nD Cert.KernelIdeal.τ).loc Cert.KernelIdeal.main_arg7) :=
  Cert.KernelIdeal.Hand.W_main_arg7 m c

/-- Argument 8 after the kernel program's later operations is as launched. -/
theorem k_arg8 (m : (ℓ : Loc Cert.KernelIdeal.nD Cert.KernelIdeal.τ Cert.KernelIdeal.sig) → Buf (Elt Ideal) ℓ) (c : Dev Cert.KernelIdeal.nD) :
    after (kOps (F := Ideal)) (XK m c) (Proc.devRef .tc Cert.KernelIdeal.main_arg8) = m ((c.tc : Thread Cert.KernelIdeal.nD Cert.KernelIdeal.τ).loc Cert.KernelIdeal.main_arg8) :=
  Cert.KernelIdeal.Hand.W_main_arg8 m c

/-- The reference's operations listed window after window are the same list as the windows' lists appended: the fold over either is the same. -/
theorem after_flat (XR : Valuation Cert.ReferenceIdeal.τ Cert.ReferenceIdeal.sig (Elt Ideal)) (b : DevRef Cert.ReferenceIdeal.τ Cert.ReferenceIdeal.sig) :
    after (rOps (F := Ideal)) XR b = after (rOpsF (F := Ideal)) XR b :=
  congrArg (fun l => after l XR b) rOps_eq

/-- From launch memories that agree on the arguments, the two lines start from contents that agree on all nine
    buffers the shared operations read without writing: the energies are the same function of arguments that agree,
    and the mask and index arguments are kept by both lines. -/
theorem entry (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (hagree : Agree m m') (c : Dev Cert.KernelIdeal.nD) :
    Entry (XK m c) (StableHlo.launchContents m' c) where
  main_v3_0 := ((k_energy0 m c).trans ((congrArg (frameEnergy (F := Ideal)) ((hagree c).1)).symm.trans (head_estimate (StableHlo.launchContents m' c)).symm)).trans (after_flat _ _)
  main_v3_1 := ((k_energy1 m c).trans ((congrArg (frameEnergy (F := Ideal)) ((hagree c).2.1)).symm.trans (head_target (StableHlo.launchContents m' c)).symm)).trans (after_flat _ _)
  main_v3_2 := ((k_energy2 m c).trans ((congrArg (frameEnergy (F := Ideal)) ((hagree c).2.2.1)).symm.trans (head_mixture (StableHlo.launchContents m' c)).symm)).trans (after_flat _ _)
  main_arg3 := ((k_arg3 m c).trans (((hagree c).2.2.2.1).symm.trans (kept_arg3 m' c).symm)).trans (after_flat _ _)
  main_arg4 := ((k_arg4 m c).trans (((hagree c).2.2.2.2.1).symm.trans (kept_arg4 m' c).symm)).trans (after_flat _ _)
  main_arg5 := ((k_arg5 m c).trans (((hagree c).2.2.2.2.2.1).symm.trans (kept_arg5 m' c).symm)).trans (after_flat _ _)
  main_arg6 := ((k_arg6 m c).trans (((hagree c).2.2.2.2.2.2.1).symm.trans (kept_arg6 m' c).symm)).trans (after_flat _ _)
  main_arg7 := ((k_arg7 m c).trans (((hagree c).2.2.2.2.2.2.2.1).symm.trans (kept_arg7 m' c).symm)).trans (after_flat _ _)
  main_arg8 := ((k_arg8 m c).trans (((hagree c).2.2.2.2.2.2.2.2).symm.trans (kept_arg8 m' c).symm)).trans (after_flat _ _)

/-! ## The two runs -/

/-- The kernel program's first result on core `c`: what its later operations leave in the result buffer. -/
abbrev v0 (m : (ℓ : Loc Cert.KernelIdeal.nD Cert.KernelIdeal.τ Cert.KernelIdeal.sig) → Buf (Elt Ideal) ℓ) (c : Dev Cert.KernelIdeal.nD) : Buf (Elt Ideal) ((c.tc : Thread Cert.KernelIdeal.nD Cert.KernelIdeal.τ).loc Cert.KernelIdeal.main_v410) :=
  Pipeline.afterTail₀ Cert.KernelIdeal.cfgs (Cert.KernelIdeal.Hand.dats m) 0 (Cert.KernelIdeal.Hand.V0 m) Cert.KernelIdeal.Hand.tailOpss c Cert.KernelIdeal.main_v410
/-- Its second result. -/
abbrev v1 (m : (ℓ : Loc Cert.KernelIdeal.nD Cert.KernelIdeal.τ Cert.KernelIdeal.sig) → Buf (Elt Ideal) ℓ) (c : Dev Cert.KernelIdeal.nD) : Buf (Elt Ideal) ((c.tc : Thread Cert.KernelIdeal.nD Cert.KernelIdeal.τ).loc Cert.KernelIdeal.main_v412) :=
  Pipeline.afterTail₀ Cert.KernelIdeal.cfgs (Cert.KernelIdeal.Hand.dats m) 0 (Cert.KernelIdeal.Hand.V0 m) Cert.KernelIdeal.Hand.tailOpss c Cert.KernelIdeal.main_v412

/-- At the ideal instance, from launch memories that agree on the arguments, both programs run; the kernel
    program's results are what its later operations leave, the reference's are the same values — the paired
    operations from contents that agree on what they read — and both leave every argument as launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m g m' g' _ hagree =>
    ⟨v0 m, v1 m,
      (θ_run (Cert.KernelIdeal.defs (F := Ideal)) _ _).mono (fun _ h c =>
        ⟨(h c).2 Cert.KernelIdeal.main_v410 (Pipeline.mem_restRefs_of Cert.KernelIdeal.main_v410 (by decide) (by decide)),
          (h c).2 Cert.KernelIdeal.main_v412 (Pipeline.mem_restRefs_of Cert.KernelIdeal.main_v412 (by decide) (by decide)),
          ((h c).2 Cert.KernelIdeal.main_arg0 (Pipeline.mem_restRefs_of Cert.KernelIdeal.main_arg0 (by decide) (by decide))).trans (Cert.KernelIdeal.Hand.W_main_arg0 m c),
          ((h c).2 Cert.KernelIdeal.main_arg1 (Pipeline.mem_restRefs_of Cert.KernelIdeal.main_arg1 (by decide) (by decide))).trans (Cert.KernelIdeal.Hand.W_main_arg1 m c),
          ((h c).2 Cert.KernelIdeal.main_arg2 (Pipeline.mem_restRefs_of Cert.KernelIdeal.main_arg2 (by decide) (by decide))).trans (Cert.KernelIdeal.Hand.W_main_arg2 m c),
          ((h c).2 Cert.KernelIdeal.main_arg3 (Pipeline.mem_restRefs_of Cert.KernelIdeal.main_arg3 (by decide) (by decide))).trans (Cert.KernelIdeal.Hand.W_main_arg3 m c),
          ((h c).2 Cert.KernelIdeal.main_arg4 (Pipeline.mem_restRefs_of Cert.KernelIdeal.main_arg4 (by decide) (by decide))).trans (Cert.KernelIdeal.Hand.W_main_arg4 m c),
          ((h c).2 Cert.KernelIdeal.main_arg5 (Pipeline.mem_restRefs_of Cert.KernelIdeal.main_arg5 (by decide) (by decide))).trans (Cert.KernelIdeal.Hand.W_main_arg5 m c),
          ((h c).2 Cert.KernelIdeal.main_arg6 (Pipeline.mem_restRefs_of Cert.KernelIdeal.main_arg6 (by decide) (by decide))).trans (Cert.KernelIdeal.Hand.W_main_arg6 m c),
          ((h c).2 Cert.KernelIdeal.main_arg7 (Pipeline.mem_restRefs_of Cert.KernelIdeal.main_arg7 (by decide) (by decide))).trans (Cert.KernelIdeal.Hand.W_main_arg7 m c),
          ((h c).2 Cert.KernelIdeal.main_arg8 (Pipeline.mem_restRefs_of Cert.KernelIdeal.main_arg8 (by decide) (by decide))).trans (Cert.KernelIdeal.Hand.W_main_arg8 m c)⟩)
        (Cert.KernelIdeal.Hand.run_main m g),
      (θ_run (Cert.ReferenceIdeal.defs (F := Ideal)) _ _).mono (fun _ h c =>
        ⟨(h c Cert.ReferenceIdeal.main_v421).trans ((after_flat _ _).trans (e632 (entry m m' hagree c)).symm),
          (h c Cert.ReferenceIdeal.main_v423).trans ((after_flat _ _).trans (e635 (entry m m' hagree c)).symm),
          (h c Cert.ReferenceIdeal.main_arg0).trans (kept_arg0 m' c),
          (h c Cert.ReferenceIdeal.main_arg1).trans (kept_arg1 m' c),
          (h c Cert.ReferenceIdeal.main_arg2).trans (kept_arg2 m' c),
          (h c Cert.ReferenceIdeal.main_arg3).trans (kept_arg3 m' c),
          (h c Cert.ReferenceIdeal.main_arg4).trans (kept_arg4 m' c),
          (h c Cert.ReferenceIdeal.main_arg5).trans (kept_arg5 m' c),
          (h c Cert.ReferenceIdeal.main_arg6).trans (kept_arg6 m' c),
          (h c Cert.ReferenceIdeal.main_arg7).trans (kept_arg7 m' c),
          (h c Cert.ReferenceIdeal.main_arg8).trans (kept_arg8 m' c)⟩)
        (run m' g')⟩

end Cert.Bridge

end
-- ==== Proof.lean ====
/- The proof of `Cert.Claim` (proofs.«169849_j71803263254994_1_alg».proof.Defs) — frame_Kernel ∧ frame_KernelIdeal ∧ frame_ReferenceIdeal ∧ preserves_Kernel_KernelIdeal ∧ algebraic_KernelIdeal_ReferenceIdeal.
   The witnesses of the programs' stated facts come first: the instances the generated modules prove. Each frame claim is
   the frame theorem of its program's run; the idealization rewrote no operation, so what it preserves is nothing to prove;
   the algebraic claim is the two programs side by side (Proof/Bridge.lean). -/
import proofs.«169849_j71803263254994_1_alg».proof.Defs
import proofs.«169849_j71803263254994_1_alg».proof.Proof.Gen.Kernel
import proofs.«169849_j71803263254994_1_alg».proof.Proof.Gen.Kernel.Skeleton
import proofs.«169849_j71803263254994_1_alg».proof.Proof.Gen.Kernel.Launch
import proofs.«169849_j71803263254994_1_alg».proof.Proof.Gen.Kernel.Points
import proofs.«169849_j71803263254994_1_alg».proof.Proof.Gen.KernelIdeal
import proofs.«169849_j71803263254994_1_alg».proof.Proof.Gen.KernelIdeal.Skeleton
import proofs.«169849_j71803263254994_1_alg».proof.Proof.Gen.KernelIdeal.Launch
import proofs.«169849_j71803263254994_1_alg».proof.Proof.Gen.KernelIdeal.Points
import proofs.«169849_j71803263254994_1_alg».proof.Proof.Gen.ReferenceIdeal
import proofs.«169849_j71803263254994_1_alg».proof.Proof.Gen.Pre_finite_inputs
import proofs.«169849_j71803263254994_1_alg».proof.Proof.KFrame
import proofs.«169849_j71803263254994_1_alg».proof.Proof.KIFrame
import proofs.«169849_j71803263254994_1_alg».proof.Proof.RefRun
import proofs.«169849_j71803263254994_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Hand.frame m ρ,
  trivial,
  Cert.Bridge.algebraic⟩

end Cert.Proof

end
